-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S800000x3 : Shape := ⟨2, ![800000, 3]⟩
abbrev S20x64 : Shape := ⟨2, ![20, 64]⟩
abbrev S10x64 : Shape := ⟨2, ![10, 64]⟩
abbrev S2x64 : Shape := ⟨2, ![2, 64]⟩
abbrev S_ : Shape := ⟨0, ![]⟩

class Facts : Prop where
  bcast_S_S20x64 : S_.BroadcastsInDim S20x64 (![] : Fin 0 → Fin S20x64.rank)
  reducesTo_S20x64_S_d0_1 : S20x64.ReducesTo [0, 1] S_
  h_S_ : 0 < S_.numel
  bcast_S_S10x64 : S_.BroadcastsInDim S10x64 (![] : Fin 0 → Fin S10x64.rank)
  reducesTo_S10x64_S_d0_1 : S10x64.ReducesTo [0, 1] S_
  bcast_S_S2x64 : S_.BroadcastsInDim S2x64 (![] : Fin 0 → Fin S2x64.rank)
  reducesTo_S2x64_S_d0_1 : S2x64.ReducesTo [0, 1] S_
  bcast_S_S800000x3 : S_.BroadcastsInDim S800000x3 (![] : Fin 0 → Fin S800000x3.rank)
  reducesTo_S800000x3_S_d0_1 : S800000x3.ReducesTo [0, 1] S_

variable [Facts]

def fn_part1 {F : FTy → Type} [FloatOps F] (main_arg0 : IVec S800000x3 32) (main_v13 : IVec S_ 1) (main_v15 : IVec S800000x3 1) (main_c_5 : IVec S_ 32) : IVec S_ 1 :=
  let main_v16 : IVec S800000x3 32 := broadcastInDim S800000x3 ![] bcast_S_S800000x3 main_c_5
  let main_v17 : IVec S800000x3 1 := cmpi .sle main_arg0 main_v16
  let main_v18 : IVec S800000x3 1 := andi main_v15 main_v17
  let main_c_6 : IVec S_ 1 := constantI S_ 1 1#1
  let main_v19 : IVec S_ 1 := (fun x v => Host.reduce IntOp.andi x v reducesTo_S800000x3_S_d0_1 h_S_) main_v18 main_c_6
  let main_v20 : IVec S_ 1 := andi main_v13 main_v19
  main_v20

def fn {F : FTy → Type} [FloatOps F] (main_arg0 : IVec S800000x3 32) (main_arg1 : FVec F S20x64 .f32) (main_arg2 : FVec F S10x64 .f32) (main_arg3 : FVec F S2x64 .f32) : IVec S_ 1 :=
  let main_v0 : FVec F S20x64 .f32 := Host.absf main_arg1
  let main_cst : FVec F S_ .f32 := constant S_ .f32 0x7F800000#32
  let main_v1 : FVec F S20x64 .f32 := broadcastInDim S20x64 ![] bcast_S_S20x64 main_cst
  let main_v2 : IVec S20x64 1 := cmpf .olt main_v0 main_v1
  let main_c : IVec S_ 1 := constantI S_ 1 1#1
  let main_v3 : IVec S_ 1 := (fun x v => Host.reduce IntOp.andi x v reducesTo_S20x64_S_d0_1 h_S_) main_v2 main_c
  let main_v4 : FVec F S10x64 .f32 := Host.absf main_arg2
  let main_cst_0 : FVec F S_ .f32 := constant S_ .f32 0x7F800000#32
  let main_v5 : FVec F S10x64 .f32 := broadcastInDim S10x64 ![] bcast_S_S10x64 main_cst_0
  let main_v6 : IVec S10x64 1 := cmpf .olt main_v4 main_v5
  let main_c_1 : IVec S_ 1 := constantI S_ 1 1#1
  let main_v7 : IVec S_ 1 := (fun x v => Host.reduce IntOp.andi x v reducesTo_S10x64_S_d0_1 h_S_) main_v6 main_c_1
  let main_v8 : IVec S_ 1 := andi main_v3 main_v7
  let main_v9 : FVec F S2x64 .f32 := Host.absf main_arg3
  let main_cst_2 : FVec F S_ .f32 := constant S_ .f32 0x7F800000#32
  let main_v10 : FVec F S2x64 .f32 := broadcastInDim S2x64 ![] bcast_S_S2x64 main_cst_2
  let main_v11 : IVec S2x64 1 := cmpf .olt main_v9 main_v10
  let main_c_3 : IVec S_ 1 := constantI S_ 1 1#1
  let main_v12 : IVec S_ 1 := (fun x v => Host.reduce IntOp.andi x v reducesTo_S2x64_S_d0_1 h_S_) main_v11 main_c_3
  let main_v13 : IVec S_ 1 := andi main_v8 main_v12
  let main_c_4 : IVec S_ 32 := constantI S_ 32 0#32
  let main_v14 : IVec S800000x3 32 := broadcastInDim S800000x3 ![] bcast_S_S800000x3 main_c_4
  let main_v15 : IVec S800000x3 1 := cmpi .sge main_arg0 main_v14
  let main_c_5 : IVec S_ 32 := constantI S_ 32 1#32
  fn_part1 (F := F) main_arg0 main_v13 main_v15 main_c_5
-- ==== Kernel.lean ====
abbrev S800000x3 : Shape := ⟨2, ![800000, 3]⟩
abbrev S20x64 : Shape := ⟨2, ![20, 64]⟩
abbrev S10x64 : Shape := ⟨2, ![10, 64]⟩
abbrev S2x64 : Shape := ⟨2, ![2, 64]⟩
abbrev S3x800000 : Shape := ⟨2, ![3, 800000]⟩
abbrev S64x800000 : Shape := ⟨2, ![64, 800000]⟩
abbrev S3x640 : Shape := ⟨2, ![3, 640]⟩
abbrev S64x640 : Shape := ⟨2, ![64, 640]⟩
abbrev S64x16 : Shape := ⟨2, ![64, 16]⟩
abbrev S_ : Shape := ⟨0, ![]⟩
abbrev S16 : Shape := ⟨1, ![16]⟩
abbrev S1x16 : Shape := ⟨2, ![1, 16]⟩
abbrev S800000x64 : Shape := ⟨2, ![800000, 64]⟩

abbrev nBuf : Table → Nat
  | .hbm => 7
  | .local .scVector .vmem => 8
  | _ => 0

abbrev bufTy : (tb : Table) → Fin (nBuf tb) → BufTy
  | .hbm, ⟨0, _⟩ => ⟨S800000x3, .i32⟩
  | .hbm, ⟨1, _⟩ => ⟨S20x64, .f32⟩
  | .hbm, ⟨2, _⟩ => ⟨S10x64, .f32⟩
  | .hbm, ⟨3, _⟩ => ⟨S2x64, .f32⟩
  | .hbm, ⟨4, _⟩ => ⟨S3x800000, .i32⟩
  | .hbm, ⟨5, _⟩ => ⟨S64x800000, .f32⟩
  | .hbm, ⟨6, _⟩ => ⟨S800000x64, .f32⟩
  | .local .scVector .vmem, ⟨0, _⟩ => ⟨S3x640, .i32⟩
  | .local .scVector .vmem, ⟨1, _⟩ => ⟨S3x640, .i32⟩
  | .local .scVector .vmem, ⟨2, _⟩ => ⟨S64x640, .f32⟩
  | .local .scVector .vmem, ⟨3, _⟩ => ⟨S64x640, .f32⟩
  | .local .scVector .vmem, ⟨4, _⟩ => ⟨S2x64, .f32⟩
  | .local .scVector .vmem, ⟨5, _⟩ => ⟨S2x64, .f32⟩
  | .local .scVector .vmem, ⟨6, _⟩ => ⟨S2x64, .f32⟩
  | .local .scVector .vmem, ⟨7, _⟩ => ⟨S64x16, .f32⟩
  | _, _ => ⟨S800000x3, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v0_scv : Ref sig .scVector := ⟨.hbm, 4, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_v1_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_chk1 (v3 : IVec S16 32) (v13 : IVec S16 32) : Prop :=
  (∀ a x, ((![v13, v3] : Fin 2 → IVec S16 32) a x).toNat < S64x16.size a)
instance k0_chk1.dec : ∀ (v3 : IVec S16 32) (v13 : IVec S16 32), Decidable (k0_chk1 v3 v13) := fun v3 v13 => decidable_of_iff' _ (Iff.of_eq (k0_chk1.eq_1 v3 v13))
theorem k0_idx1_inb : ∀ (v3 : IVec S16 32) (v13 : IVec S16 32) (k0_hw1 : k0_chk1 v3 v13), ∀ a x, ((![v13, v3] : Fin 2 → IVec S16 32) a x).toNat < S64x16.size a := fun v3 v13 k0_hw1 => k0_hw1

def k0_chk2 (v3 : IVec S16 32) (v23 : IVec S16 32) : Prop :=
  (∀ a x, ((![v23, v3] : Fin 2 → IVec S16 32) a x).toNat < S64x16.size a)
instance k0_chk2.dec : ∀ (v3 : IVec S16 32) (v23 : IVec S16 32), Decidable (k0_chk2 v3 v23) := fun v3 v23 => decidable_of_iff' _ (Iff.of_eq (k0_chk2.eq_1 v3 v23))
theorem k0_idx2_inb : ∀ (v3 : IVec S16 32) (v23 : IVec S16 32) (k0_hw2 : k0_chk2 v3 v23), ∀ a x, ((![v23, v3] : Fin 2 → IVec S16 32) a x).toNat < S64x16.size a := fun v3 v23 k0_hw2 => k0_hw2

def k0_chk3 (v3 : IVec S16 32) (v33 : IVec S16 32) : Prop :=
  (∀ a x, ((![v33, v3] : Fin 2 → IVec S16 32) a x).toNat < S64x16.size a)
instance k0_chk3.dec : ∀ (v3 : IVec S16 32) (v33 : IVec S16 32), Decidable (k0_chk3 v3 v33) := fun v3 v33 => decidable_of_iff' _ (Iff.of_eq (k0_chk3.eq_1 v3 v33))
theorem k0_idx3_inb : ∀ (v3 : IVec S16 32) (v33 : IVec S16 32) (k0_hw3 : k0_chk3 v3 v33), ∀ a x, ((![v33, v3] : Fin 2 → IVec S16 32) a x).toNat < S64x16.size a := fun v3 v33 k0_hw3 => k0_hw3

def k0_chk4 (v3 : IVec S16 32) (v43 : IVec S16 32) : Prop :=
  (∀ a x, ((![v43, v3] : Fin 2 → IVec S16 32) a x).toNat < S64x16.size a)
instance k0_chk4.dec : ∀ (v3 : IVec S16 32) (v43 : IVec S16 32), Decidable (k0_chk4 v3 v43) := fun v3 v43 => decidable_of_iff' _ (Iff.of_eq (k0_chk4.eq_1 v3 v43))
theorem k0_idx4_inb : ∀ (v3 : IVec S16 32) (v43 : IVec S16 32) (k0_hw4 : k0_chk4 v3 v43), ∀ a x, ((![v43, v3] : Fin 2 → IVec S16 32) a x).toNat < S64x16.size a := fun v3 v43 k0_hw4 => k0_hw4

def k0_chk5 (v44 : IVec S16 32) (v54 : IVec S16 32) : Prop :=
  (∀ a x, ((![v54, v44] : Fin 2 → IVec S16 32) a x).toNat < S64x16.size a)
instance k0_chk5.dec : ∀ (v44 : IVec S16 32) (v54 : IVec S16 32), Decidable (k0_chk5 v44 v54) := fun v44 v54 => decidable_of_iff' _ (Iff.of_eq (k0_chk5.eq_1 v44 v54))
theorem k0_idx5_inb : ∀ (v44 : IVec S16 32) (v54 : IVec S16 32) (k0_hw5 : k0_chk5 v44 v54), ∀ a x, ((![v54, v44] : Fin 2 → IVec S16 32) a x).toNat < S64x16.size a := fun v44 v54 k0_hw5 => k0_hw5

def k0_chk6 (v44 : IVec S16 32) (v64 : IVec S16 32) : Prop :=
  (∀ a x, ((![v64, v44] : Fin 2 → IVec S16 32) a x).toNat < S64x16.size a)
instance k0_chk6.dec : ∀ (v44 : IVec S16 32) (v64 : IVec S16 32), Decidable (k0_chk6 v44 v64) := fun v44 v64 => decidable_of_iff' _ (Iff.of_eq (k0_chk6.eq_1 v44 v64))
theorem k0_idx6_inb : ∀ (v44 : IVec S16 32) (v64 : IVec S16 32) (k0_hw6 : k0_chk6 v44 v64), ∀ a x, ((![v64, v44] : Fin 2 → IVec S16 32) a x).toNat < S64x16.size a := fun v44 v64 k0_hw6 => k0_hw6

def k0_chk7 (v44 : IVec S16 32) (v74 : IVec S16 32) : Prop :=
  (∀ a x, ((![v74, v44] : Fin 2 → IVec S16 32) a x).toNat < S64x16.size a)
instance k0_chk7.dec : ∀ (v44 : IVec S16 32) (v74 : IVec S16 32), Decidable (k0_chk7 v44 v74) := fun v44 v74 => decidable_of_iff' _ (Iff.of_eq (k0_chk7.eq_1 v44 v74))
theorem k0_idx7_inb : ∀ (v44 : IVec S16 32) (v74 : IVec S16 32) (k0_hw7 : k0_chk7 v44 v74), ∀ a x, ((![v74, v44] : Fin 2 → IVec S16 32) a x).toNat < S64x16.size a := fun v44 v74 k0_hw7 => k0_hw7

def k0_chk8 (v44 : IVec S16 32) (v84 : IVec S16 32) : Prop :=
  (∀ a x, ((![v84, v44] : Fin 2 → IVec S16 32) a x).toNat < S64x16.size a)
instance k0_chk8.dec : ∀ (v44 : IVec S16 32) (v84 : IVec S16 32), Decidable (k0_chk8 v44 v84) := fun v44 v84 => decidable_of_iff' _ (Iff.of_eq (k0_chk8.eq_1 v44 v84))
theorem k0_idx8_inb : ∀ (v44 : IVec S16 32) (v84 : IVec S16 32) (k0_hw8 : k0_chk8 v44 v84), ∀ a x, ((![v84, v44] : Fin 2 → IVec S16 32) a x).toNat < S64x16.size a := fun v44 v84 k0_hw8 => k0_hw8

def k0_chk9 (v85 : IVec S16 32) (v95 : IVec S16 32) : Prop :=
  (∀ a x, ((![v95, v85] : Fin 2 → IVec S16 32) a x).toNat < S64x16.size a)
instance k0_chk9.dec : ∀ (v85 : IVec S16 32) (v95 : IVec S16 32), Decidable (k0_chk9 v85 v95) := fun v85 v95 => decidable_of_iff' _ (Iff.of_eq (k0_chk9.eq_1 v85 v95))
theorem k0_idx9_inb : ∀ (v85 : IVec S16 32) (v95 : IVec S16 32) (k0_hw9 : k0_chk9 v85 v95), ∀ a x, ((![v95, v85] : Fin 2 → IVec S16 32) a x).toNat < S64x16.size a := fun v85 v95 k0_hw9 => k0_hw9

def k0_chk10 (v85 : IVec S16 32) (v105 : IVec S16 32) : Prop :=
  (∀ a x, ((![v105, v85] : Fin 2 → IVec S16 32) a x).toNat < S64x16.size a)
instance k0_chk10.dec : ∀ (v85 : IVec S16 32) (v105 : IVec S16 32), Decidable (k0_chk10 v85 v105) := fun v85 v105 => decidable_of_iff' _ (Iff.of_eq (k0_chk10.eq_1 v85 v105))
theorem k0_idx10_inb : ∀ (v85 : IVec S16 32) (v105 : IVec S16 32) (k0_hw10 : k0_chk10 v85 v105), ∀ a x, ((![v105, v85] : Fin 2 → IVec S16 32) a x).toNat < S64x16.size a := fun v85 v105 k0_hw10 => k0_hw10

def k0_chk11 (v85 : IVec S16 32) (v115 : IVec S16 32) : Prop :=
  (∀ a x, ((![v115, v85] : Fin 2 → IVec S16 32) a x).toNat < S64x16.size a)
instance k0_chk11.dec : ∀ (v85 : IVec S16 32) (v115 : IVec S16 32), Decidable (k0_chk11 v85 v115) := fun v85 v115 => decidable_of_iff' _ (Iff.of_eq (k0_chk11.eq_1 v85 v115))
theorem k0_idx11_inb : ∀ (v85 : IVec S16 32) (v115 : IVec S16 32) (k0_hw11 : k0_chk11 v85 v115), ∀ a x, ((![v115, v85] : Fin 2 → IVec S16 32) a x).toNat < S64x16.size a := fun v85 v115 k0_hw11 => k0_hw11

def k0_chk12 (v85 : IVec S16 32) (v125 : IVec S16 32) : Prop :=
  (∀ a x, ((![v125, v85] : Fin 2 → IVec S16 32) a x).toNat < S64x16.size a)
instance k0_chk12.dec : ∀ (v85 : IVec S16 32) (v125 : IVec S16 32), Decidable (k0_chk12 v85 v125) := fun v85 v125 => decidable_of_iff' _ (Iff.of_eq (k0_chk12.eq_1 v85 v125))
theorem k0_idx12_inb : ∀ (v85 : IVec S16 32) (v125 : IVec S16 32) (k0_hw12 : k0_chk12 v85 v125), ∀ a x, ((![v125, v85] : Fin 2 → IVec S16 32) a x).toNat < S64x16.size a := fun v85 v125 k0_hw12 => k0_hw12

def k0_chk13 (v126 : IVec S16 32) (v136 : IVec S16 32) : Prop :=
  (∀ a x, ((![v136, v126] : Fin 2 → IVec S16 32) a x).toNat < S64x16.size a)
instance k0_chk13.dec : ∀ (v126 : IVec S16 32) (v136 : IVec S16 32), Decidable (k0_chk13 v126 v136) := fun v126 v136 => decidable_of_iff' _ (Iff.of_eq (k0_chk13.eq_1 v126 v136))
theorem k0_idx13_inb : ∀ (v126 : IVec S16 32) (v136 : IVec S16 32) (k0_hw13 : k0_chk13 v126 v136), ∀ a x, ((![v136, v126] : Fin 2 → IVec S16 32) a x).toNat < S64x16.size a := fun v126 v136 k0_hw13 => k0_hw13

def k0_chk14 (v126 : IVec S16 32) (v146 : IVec S16 32) : Prop :=
  (∀ a x, ((![v146, v126] : Fin 2 → IVec S16 32) a x).toNat < S64x16.size a)
instance k0_chk14.dec : ∀ (v126 : IVec S16 32) (v146 : IVec S16 32), Decidable (k0_chk14 v126 v146) := fun v126 v146 => decidable_of_iff' _ (Iff.of_eq (k0_chk14.eq_1 v126 v146))
theorem k0_idx14_inb : ∀ (v126 : IVec S16 32) (v146 : IVec S16 32) (k0_hw14 : k0_chk14 v126 v146), ∀ a x, ((![v146, v126] : Fin 2 → IVec S16 32) a x).toNat < S64x16.size a := fun v126 v146 k0_hw14 => k0_hw14

def k0_chk15 (v126 : IVec S16 32) (v156 : IVec S16 32) : Prop :=
  (∀ a x, ((![v156, v126] : Fin 2 → IVec S16 32) a x).toNat < S64x16.size a)
instance k0_chk15.dec : ∀ (v126 : IVec S16 32) (v156 : IVec S16 32), Decidable (k0_chk15 v126 v156) := fun v126 v156 => decidable_of_iff' _ (Iff.of_eq (k0_chk15.eq_1 v126 v156))
theorem k0_idx15_inb : ∀ (v126 : IVec S16 32) (v156 : IVec S16 32) (k0_hw15 : k0_chk15 v126 v156), ∀ a x, ((![v156, v126] : Fin 2 → IVec S16 32) a x).toNat < S64x16.size a := fun v126 v156 k0_hw15 => k0_hw15

def k0_chk16 (v126 : IVec S16 32) (v166 : IVec S16 32) : Prop :=
  (∀ a x, ((![v166, v126] : Fin 2 → IVec S16 32) a x).toNat < S64x16.size a)
instance k0_chk16.dec : ∀ (v126 : IVec S16 32) (v166 : IVec S16 32), Decidable (k0_chk16 v126 v166) := fun v126 v166 => decidable_of_iff' _ (Iff.of_eq (k0_chk16.eq_1 v126 v166))
theorem k0_idx16_inb : ∀ (v126 : IVec S16 32) (v166 : IVec S16 32) (k0_hw16 : k0_chk16 v126 v166), ∀ a x, ((![v166, v126] : Fin 2 → IVec S16 32) a x).toNat < S64x16.size a := fun v126 v166 k0_hw16 => k0_hw16

def k0_chk17 (v167 : IVec S16 32) (v177 : IVec S16 32) : Prop :=
  (∀ a x, ((![v177, v167] : Fin 2 → IVec S16 32) a x).toNat < S64x16.size a)
instance k0_chk17.dec : ∀ (v167 : IVec S16 32) (v177 : IVec S16 32), Decidable (k0_chk17 v167 v177) := fun v167 v177 => decidable_of_iff' _ (Iff.of_eq (k0_chk17.eq_1 v167 v177))
theorem k0_idx17_inb : ∀ (v167 : IVec S16 32) (v177 : IVec S16 32) (k0_hw17 : k0_chk17 v167 v177), ∀ a x, ((![v177, v167] : Fin 2 → IVec S16 32) a x).toNat < S64x16.size a := fun v167 v177 k0_hw17 => k0_hw17

def k0_chk18 (v167 : IVec S16 32) (v187 : IVec S16 32) : Prop :=
  (∀ a x, ((![v187, v167] : Fin 2 → IVec S16 32) a x).toNat < S64x16.size a)
instance k0_chk18.dec : ∀ (v167 : IVec S16 32) (v187 : IVec S16 32), Decidable (k0_chk18 v167 v187) := fun v167 v187 => decidable_of_iff' _ (Iff.of_eq (k0_chk18.eq_1 v167 v187))
theorem k0_idx18_inb : ∀ (v167 : IVec S16 32) (v187 : IVec S16 32) (k0_hw18 : k0_chk18 v167 v187), ∀ a x, ((![v187, v167] : Fin 2 → IVec S16 32) a x).toNat < S64x16.size a := fun v167 v187 k0_hw18 => k0_hw18

def k0_chk19 (v167 : IVec S16 32) (v197 : IVec S16 32) : Prop :=
  (∀ a x, ((![v197, v167] : Fin 2 → IVec S16 32) a x).toNat < S64x16.size a)
instance k0_chk19.dec : ∀ (v167 : IVec S16 32) (v197 : IVec S16 32), Decidable (k0_chk19 v167 v197) := fun v167 v197 => decidable_of_iff' _ (Iff.of_eq (k0_chk19.eq_1 v167 v197))
theorem k0_idx19_inb : ∀ (v167 : IVec S16 32) (v197 : IVec S16 32) (k0_hw19 : k0_chk19 v167 v197), ∀ a x, ((![v197, v167] : Fin 2 → IVec S16 32) a x).toNat < S64x16.size a := fun v167 v197 k0_hw19 => k0_hw19

def k0_chk20 (v167 : IVec S16 32) (v207 : IVec S16 32) : Prop :=
  (∀ a x, ((![v207, v167] : Fin 2 → IVec S16 32) a x).toNat < S64x16.size a)
instance k0_chk20.dec : ∀ (v167 : IVec S16 32) (v207 : IVec S16 32), Decidable (k0_chk20 v167 v207) := fun v167 v207 => decidable_of_iff' _ (Iff.of_eq (k0_chk20.eq_1 v167 v207))
theorem k0_idx20_inb : ∀ (v167 : IVec S16 32) (v207 : IVec S16 32) (k0_hw20 : k0_chk20 v167 v207), ∀ a x, ((![v207, v167] : Fin 2 → IVec S16 32) a x).toNat < S64x16.size a := fun v167 v207 k0_hw20 => k0_hw20

def k0_chk21 (v208 : IVec S16 32) (v218 : IVec S16 32) : Prop :=
  (∀ a x, ((![v218, v208] : Fin 2 → IVec S16 32) a x).toNat < S64x16.size a)
instance k0_chk21.dec : ∀ (v208 : IVec S16 32) (v218 : IVec S16 32), Decidable (k0_chk21 v208 v218) := fun v208 v218 => decidable_of_iff' _ (Iff.of_eq (k0_chk21.eq_1 v208 v218))
theorem k0_idx21_inb : ∀ (v208 : IVec S16 32) (v218 : IVec S16 32) (k0_hw21 : k0_chk21 v208 v218), ∀ a x, ((![v218, v208] : Fin 2 → IVec S16 32) a x).toNat < S64x16.size a := fun v208 v218 k0_hw21 => k0_hw21

def k0_chk22 (v208 : IVec S16 32) (v228 : IVec S16 32) : Prop :=
  (∀ a x, ((![v228, v208] : Fin 2 → IVec S16 32) a x).toNat < S64x16.size a)
instance k0_chk22.dec : ∀ (v208 : IVec S16 32) (v228 : IVec S16 32), Decidable (k0_chk22 v208 v228) := fun v208 v228 => decidable_of_iff' _ (Iff.of_eq (k0_chk22.eq_1 v208 v228))
theorem k0_idx22_inb : ∀ (v208 : IVec S16 32) (v228 : IVec S16 32) (k0_hw22 : k0_chk22 v208 v228), ∀ a x, ((![v228, v208] : Fin 2 → IVec S16 32) a x).toNat < S64x16.size a := fun v208 v228 k0_hw22 => k0_hw22

def k0_chk23 (v208 : IVec S16 32) (v238 : IVec S16 32) : Prop :=
  (∀ a x, ((![v238, v208] : Fin 2 → IVec S16 32) a x).toNat < S64x16.size a)
instance k0_chk23.dec : ∀ (v208 : IVec S16 32) (v238 : IVec S16 32), Decidable (k0_chk23 v208 v238) := fun v208 v238 => decidable_of_iff' _ (Iff.of_eq (k0_chk23.eq_1 v208 v238))
theorem k0_idx23_inb : ∀ (v208 : IVec S16 32) (v238 : IVec S16 32) (k0_hw23 : k0_chk23 v208 v238), ∀ a x, ((![v238, v208] : Fin 2 → IVec S16 32) a x).toNat < S64x16.size a := fun v208 v238 k0_hw23 => k0_hw23

def k0_chk24 (v208 : IVec S16 32) (v248 : IVec S16 32) : Prop :=
  (∀ a x, ((![v248, v208] : Fin 2 → IVec S16 32) a x).toNat < S64x16.size a)
instance k0_chk24.dec : ∀ (v208 : IVec S16 32) (v248 : IVec S16 32), Decidable (k0_chk24 v208 v248) := fun v208 v248 => decidable_of_iff' _ (Iff.of_eq (k0_chk24.eq_1 v208 v248))
theorem k0_idx24_inb : ∀ (v208 : IVec S16 32) (v248 : IVec S16 32) (k0_hw24 : k0_chk24 v208 v248), ∀ a x, ((![v248, v208] : Fin 2 → IVec S16 32) a x).toNat < S64x16.size a := fun v208 v248 k0_hw24 => k0_hw24

def k0_chk25 (v249 : IVec S16 32) (v259 : IVec S16 32) : Prop :=
  (∀ a x, ((![v259, v249] : Fin 2 → IVec S16 32) a x).toNat < S64x16.size a)
instance k0_chk25.dec : ∀ (v249 : IVec S16 32) (v259 : IVec S16 32), Decidable (k0_chk25 v249 v259) := fun v249 v259 => decidable_of_iff' _ (Iff.of_eq (k0_chk25.eq_1 v249 v259))
theorem k0_idx25_inb : ∀ (v249 : IVec S16 32) (v259 : IVec S16 32) (k0_hw25 : k0_chk25 v249 v259), ∀ a x, ((![v259, v249] : Fin 2 → IVec S16 32) a x).toNat < S64x16.size a := fun v249 v259 k0_hw25 => k0_hw25

def k0_chk26 (v249 : IVec S16 32) (v269 : IVec S16 32) : Prop :=
  (∀ a x, ((![v269, v249] : Fin 2 → IVec S16 32) a x).toNat < S64x16.size a)
instance k0_chk26.dec : ∀ (v249 : IVec S16 32) (v269 : IVec S16 32), Decidable (k0_chk26 v249 v269) := fun v249 v269 => decidable_of_iff' _ (Iff.of_eq (k0_chk26.eq_1 v249 v269))
theorem k0_idx26_inb : ∀ (v249 : IVec S16 32) (v269 : IVec S16 32) (k0_hw26 : k0_chk26 v249 v269), ∀ a x, ((![v269, v249] : Fin 2 → IVec S16 32) a x).toNat < S64x16.size a := fun v249 v269 k0_hw26 => k0_hw26

def k0_chk27 (v249 : IVec S16 32) (v279 : IVec S16 32) : Prop :=
  (∀ a x, ((![v279, v249] : Fin 2 → IVec S16 32) a x).toNat < S64x16.size a)
instance k0_chk27.dec : ∀ (v249 : IVec S16 32) (v279 : IVec S16 32), Decidable (k0_chk27 v249 v279) := fun v249 v279 => decidable_of_iff' _ (Iff.of_eq (k0_chk27.eq_1 v249 v279))
theorem k0_idx27_inb : ∀ (v249 : IVec S16 32) (v279 : IVec S16 32) (k0_hw27 : k0_chk27 v249 v279), ∀ a x, ((![v279, v249] : Fin 2 → IVec S16 32) a x).toNat < S64x16.size a := fun v249 v279 k0_hw27 => k0_hw27

def k0_chk28 (v249 : IVec S16 32) (v289 : IVec S16 32) : Prop :=
  (∀ a x, ((![v289, v249] : Fin 2 → IVec S16 32) a x).toNat < S64x16.size a)
instance k0_chk28.dec : ∀ (v249 : IVec S16 32) (v289 : IVec S16 32), Decidable (k0_chk28 v249 v289) := fun v249 v289 => decidable_of_iff' _ (Iff.of_eq (k0_chk28.eq_1 v249 v289))
theorem k0_idx28_inb : ∀ (v249 : IVec S16 32) (v289 : IVec S16 32) (k0_hw28 : k0_chk28 v249 v289), ∀ a x, ((![v289, v249] : Fin 2 → IVec S16 32) a x).toNat < S64x16.size a := fun v249 v289 k0_hw28 => k0_hw28

def k0_chk29 (v290 : IVec S16 32) (v300 : IVec S16 32) : Prop :=
  (∀ a x, ((![v300, v290] : Fin 2 → IVec S16 32) a x).toNat < S64x16.size a)
instance k0_chk29.dec : ∀ (v290 : IVec S16 32) (v300 : IVec S16 32), Decidable (k0_chk29 v290 v300) := fun v290 v300 => decidable_of_iff' _ (Iff.of_eq (k0_chk29.eq_1 v290 v300))
theorem k0_idx29_inb : ∀ (v290 : IVec S16 32) (v300 : IVec S16 32) (k0_hw29 : k0_chk29 v290 v300), ∀ a x, ((![v300, v290] : Fin 2 → IVec S16 32) a x).toNat < S64x16.size a := fun v290 v300 k0_hw29 => k0_hw29

def k0_chk30 (v290 : IVec S16 32) (v310 : IVec S16 32) : Prop :=
  (∀ a x, ((![v310, v290] : Fin 2 → IVec S16 32) a x).toNat < S64x16.size a)
instance k0_chk30.dec : ∀ (v290 : IVec S16 32) (v310 : IVec S16 32), Decidable (k0_chk30 v290 v310) := fun v290 v310 => decidable_of_iff' _ (Iff.of_eq (k0_chk30.eq_1 v290 v310))
theorem k0_idx30_inb : ∀ (v290 : IVec S16 32) (v310 : IVec S16 32) (k0_hw30 : k0_chk30 v290 v310), ∀ a x, ((![v310, v290] : Fin 2 → IVec S16 32) a x).toNat < S64x16.size a := fun v290 v310 k0_hw30 => k0_hw30

def k0_chk31 (v290 : IVec S16 32) (v320 : IVec S16 32) : Prop :=
  (∀ a x, ((![v320, v290] : Fin 2 → IVec S16 32) a x).toNat < S64x16.size a)
instance k0_chk31.dec : ∀ (v290 : IVec S16 32) (v320 : IVec S16 32), Decidable (k0_chk31 v290 v320) := fun v290 v320 => decidable_of_iff' _ (Iff.of_eq (k0_chk31.eq_1 v290 v320))
theorem k0_idx31_inb : ∀ (v290 : IVec S16 32) (v320 : IVec S16 32) (k0_hw31 : k0_chk31 v290 v320), ∀ a x, ((![v320, v290] : Fin 2 → IVec S16 32) a x).toNat < S64x16.size a := fun v290 v320 k0_hw31 => k0_hw31

def k0_chk32 (v290 : IVec S16 32) (v330 : IVec S16 32) : Prop :=
  (∀ a x, ((![v330, v290] : Fin 2 → IVec S16 32) a x).toNat < S64x16.size a)
instance k0_chk32.dec : ∀ (v290 : IVec S16 32) (v330 : IVec S16 32), Decidable (k0_chk32 v290 v330) := fun v290 v330 => decidable_of_iff' _ (Iff.of_eq (k0_chk32.eq_1 v290 v330))
theorem k0_idx32_inb : ∀ (v290 : IVec S16 32) (v330 : IVec S16 32) (k0_hw32 : k0_chk32 v290 v330), ∀ a x, ((![v330, v290] : Fin 2 → IVec S16 32) a x).toNat < S64x16.size a := fun v290 v330 k0_hw32 => k0_hw32
def k0_off1 (i : grid0.Coords) : Fin 2 → Nat :=
  let c0_i32_219 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_218 : BitVec 32 := 0#32
  let v331 : BitVec 32 := Scalar.addi v1 c0_i32_218
  let c640_i32 : BitVec 32 := 640#32
  let v332 : BitVec 32 := Scalar.muli v331 c640_i32
  ![0, v332.toNat]
def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_221 : BitVec 32 := 32#32
  let v335 : BitVec 32 := Scalar.addi v1 c32_i32_221
  let c1250_i32 : BitVec 32 := 1250#32
  let v336 : BitVec 1 := Scalar.cmpi .slt v335 c1250_i32
  let v337 : BitVec 32 := Scalar.extui v336
  let c0_i32_222 : BitVec 32 := 0#32
  let v338 : BitVec 1 := Scalar.cmpi .ne v337 c0_i32_222
  v338

def k0_off2 (i : grid0.Coords) : Fin 2 → Nat :=
  let c0_i32_249 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_247 : BitVec 32 := 32#32
  let v353 : BitVec 32 := Scalar.addi v1 c32_i32_247
  let c640_i32_248 : BitVec 32 := 640#32
  let v354 : BitVec 32 := Scalar.muli v353 c640_i32_248
  ![0, v354.toNat]
@[reducible] def k0_t1_loop : Scf.Loop 32 :=
  let c0_i32_228 : BitVec 32 := 0#32
  let c40_i32 : BitVec 32 := 40#32
  let v341 : BitVec 32 := Scalar.addi c0_i32_228 c40_i32
  let c1_i32_229 : BitVec 32 := 1#32
  ⟨c0_i32_228, v341, c1_i32_229⟩
def k0_off3 (k0_t1 : Fin k0_t1_loop.trips) : Fin 2 → Nat :=
  let c0_i32_248 : BitVec 32 := 0#32
  let v354 : Index := Scalar.indexCast c0_i32_248
  let c0_i32_228 : BitVec 32 := 0#32
  let c1_i32_229 : BitVec 32 := 1#32
  let arg19 : BitVec 32 := Scf.iv c0_i32_228 c1_i32_229 k0_t1
  let c16_i32_247 : BitVec 32 := 16#32
  let v353 : BitVec 32 := Scalar.muli arg19 c16_i32_247
  let v355 : Index := Scalar.indexCast v353
  ![0, v355.toNat]
def k0_off4 (k0_t1 : Fin k0_t1_loop.trips) : Fin 2 → Nat :=
  let c1_i32_249 : BitVec 32 := 1#32
  let v357 : Index := Scalar.indexCast c1_i32_249
  let c0_i32_228 : BitVec 32 := 0#32
  let c1_i32_229 : BitVec 32 := 1#32
  let arg19 : BitVec 32 := Scf.iv c0_i32_228 c1_i32_229 k0_t1
  let c16_i32_247 : BitVec 32 := 16#32
  let v353 : BitVec 32 := Scalar.muli arg19 c16_i32_247
  let v358 : Index := Scalar.indexCast v353
  ![1, v358.toNat]
def k0_off5 (k0_t1 : Fin k0_t1_loop.trips) : Fin 2 → Nat :=
  let c2_i32_250 : BitVec 32 := 2#32
  let v360 : Index := Scalar.indexCast c2_i32_250
  let c0_i32_228 : BitVec 32 := 0#32
  let c1_i32_229 : BitVec 32 := 1#32
  let arg19 : BitVec 32 := Scf.iv c0_i32_228 c1_i32_229 k0_t1
  let c16_i32_247 : BitVec 32 := 16#32
  let v353 : BitVec 32 := Scalar.muli arg19 c16_i32_247
  let v361 : Index := Scalar.indexCast v353
  ![2, v361.toNat]

def k0_chk33 (v368 : IVec S16 32) (v369 : IVec S16 32) : Prop :=
  (∀ a x, ((![v369, v368] : Fin 2 → IVec S16 32) a x).toNat < S64x16.size a)
instance k0_chk33.dec : ∀ (v368 : IVec S16 32) (v369 : IVec S16 32), Decidable (k0_chk33 v368 v369) := fun v368 v369 => decidable_of_iff' _ (Iff.of_eq (k0_chk33.eq_1 v368 v369))
theorem k0_idx33_inb : ∀ (v368 : IVec S16 32) (v369 : IVec S16 32) (k0_hw33 : k0_chk33 v368 v369), ∀ a x, ((![v369, v368] : Fin 2 → IVec S16 32) a x).toNat < S64x16.size a := fun v368 v369 k0_hw33 => k0_hw33

def k0_chk34 (v368 : IVec S16 32) (v371 : IVec S16 32) : Prop :=
  (∀ a x, ((![v371, v368] : Fin 2 → IVec S16 32) a x).toNat < S64x16.size a)
instance k0_chk34.dec : ∀ (v368 : IVec S16 32) (v371 : IVec S16 32), Decidable (k0_chk34 v368 v371) := fun v368 v371 => decidable_of_iff' _ (Iff.of_eq (k0_chk34.eq_1 v368 v371))
theorem k0_idx34_inb : ∀ (v368 : IVec S16 32) (v371 : IVec S16 32) (k0_hw34 : k0_chk34 v368 v371), ∀ a x, ((![v371, v368] : Fin 2 → IVec S16 32) a x).toNat < S64x16.size a := fun v368 v371 k0_hw34 => k0_hw34

def k0_chk35 (v368 : IVec S16 32) (v373 : IVec S16 32) : Prop :=
  (∀ a x, ((![v373, v368] : Fin 2 → IVec S16 32) a x).toNat < S64x16.size a)
instance k0_chk35.dec : ∀ (v368 : IVec S16 32) (v373 : IVec S16 32), Decidable (k0_chk35 v368 v373) := fun v368 v373 => decidable_of_iff' _ (Iff.of_eq (k0_chk35.eq_1 v368 v373))
theorem k0_idx35_inb : ∀ (v368 : IVec S16 32) (v373 : IVec S16 32) (k0_hw35 : k0_chk35 v368 v373), ∀ a x, ((![v373, v368] : Fin 2 → IVec S16 32) a x).toNat < S64x16.size a := fun v368 v373 k0_hw35 => k0_hw35

def k0_chk36 (v368 : IVec S16 32) (v375 : IVec S16 32) : Prop :=
  (∀ a x, ((![v375, v368] : Fin 2 → IVec S16 32) a x).toNat < S64x16.size a)
instance k0_chk36.dec : ∀ (v368 : IVec S16 32) (v375 : IVec S16 32), Decidable (k0_chk36 v368 v375) := fun v368 v375 => decidable_of_iff' _ (Iff.of_eq (k0_chk36.eq_1 v368 v375))
theorem k0_idx36_inb : ∀ (v368 : IVec S16 32) (v375 : IVec S16 32) (k0_hw36 : k0_chk36 v368 v375), ∀ a x, ((![v375, v368] : Fin 2 → IVec S16 32) a x).toNat < S64x16.size a := fun v368 v375 k0_hw36 => k0_hw36

def k0_chk37 (v368 : IVec S16 32) (v377 : IVec S16 32) : Prop :=
  (∀ a x, ((![v377, v368] : Fin 2 → IVec S16 32) a x).toNat < S64x16.size a)
instance k0_chk37.dec : ∀ (v368 : IVec S16 32) (v377 : IVec S16 32), Decidable (k0_chk37 v368 v377) := fun v368 v377 => decidable_of_iff' _ (Iff.of_eq (k0_chk37.eq_1 v368 v377))
theorem k0_idx37_inb : ∀ (v368 : IVec S16 32) (v377 : IVec S16 32) (k0_hw37 : k0_chk37 v368 v377), ∀ a x, ((![v377, v368] : Fin 2 → IVec S16 32) a x).toNat < S64x16.size a := fun v368 v377 k0_hw37 => k0_hw37
def k0_off6 (k0_t1 : Fin k0_t1_loop.trips) : Fin 2 → Nat :=
  let c0_i32_258 : BitVec 32 := 0#32
  let v379 : Index := Scalar.indexCast c0_i32_258
  let c0_i32_228 : BitVec 32 := 0#32
  let c1_i32_229 : BitVec 32 := 1#32
  let arg19 : BitVec 32 := Scf.iv c0_i32_228 c1_i32_229 k0_t1
  let c16_i32_247 : BitVec 32 := 16#32
  let v353 : BitVec 32 := Scalar.muli arg19 c16_i32_247
  let v380 : Index := Scalar.indexCast v353
  ![0, v380.toNat]

def k0_chk38 (v368 : IVec S16 32) (v382 : IVec S16 32) : Prop :=
  (∀ a x, ((![v382, v368] : Fin 2 → IVec S16 32) a x).toNat < S64x16.size a)
instance k0_chk38.dec : ∀ (v368 : IVec S16 32) (v382 : IVec S16 32), Decidable (k0_chk38 v368 v382) := fun v368 v382 => decidable_of_iff' _ (Iff.of_eq (k0_chk38.eq_1 v368 v382))
theorem k0_idx38_inb : ∀ (v368 : IVec S16 32) (v382 : IVec S16 32) (k0_hw38 : k0_chk38 v368 v382), ∀ a x, ((![v382, v368] : Fin 2 → IVec S16 32) a x).toNat < S64x16.size a := fun v368 v382 k0_hw38 => k0_hw38
def k0_off7 (k0_t1 : Fin k0_t1_loop.trips) : Fin 2 → Nat :=
  let c1_i32_260 : BitVec 32 := 1#32
  let v384 : Index := Scalar.indexCast c1_i32_260
  let c0_i32_228 : BitVec 32 := 0#32
  let c1_i32_229 : BitVec 32 := 1#32
  let arg19 : BitVec 32 := Scf.iv c0_i32_228 c1_i32_229 k0_t1
  let c16_i32_247 : BitVec 32 := 16#32
  let v353 : BitVec 32 := Scalar.muli arg19 c16_i32_247
  let v385 : Index := Scalar.indexCast v353
  ![1, v385.toNat]

def k0_chk39 (v368 : IVec S16 32) (v387 : IVec S16 32) : Prop :=
  (∀ a x, ((![v387, v368] : Fin 2 → IVec S16 32) a x).toNat < S64x16.size a)
instance k0_chk39.dec : ∀ (v368 : IVec S16 32) (v387 : IVec S16 32), Decidable (k0_chk39 v368 v387) := fun v368 v387 => decidable_of_iff' _ (Iff.of_eq (k0_chk39.eq_1 v368 v387))
theorem k0_idx39_inb : ∀ (v368 : IVec S16 32) (v387 : IVec S16 32) (k0_hw39 : k0_chk39 v368 v387), ∀ a x, ((![v387, v368] : Fin 2 → IVec S16 32) a x).toNat < S64x16.size a := fun v368 v387 k0_hw39 => k0_hw39
def k0_off8 (k0_t1 : Fin k0_t1_loop.trips) : Fin 2 → Nat :=
  let c2_i32_262 : BitVec 32 := 2#32
  let v389 : Index := Scalar.indexCast c2_i32_262
  let c0_i32_228 : BitVec 32 := 0#32
  let c1_i32_229 : BitVec 32 := 1#32
  let arg19 : BitVec 32 := Scf.iv c0_i32_228 c1_i32_229 k0_t1
  let c16_i32_247 : BitVec 32 := 16#32
  let v353 : BitVec 32 := Scalar.muli arg19 c16_i32_247
  let v390 : Index := Scalar.indexCast v353
  ![2, v390.toNat]

def k0_chk40 (v368 : IVec S16 32) (v392 : IVec S16 32) : Prop :=
  (∀ a x, ((![v392, v368] : Fin 2 → IVec S16 32) a x).toNat < S64x16.size a)
instance k0_chk40.dec : ∀ (v368 : IVec S16 32) (v392 : IVec S16 32), Decidable (k0_chk40 v368 v392) := fun v368 v392 => decidable_of_iff' _ (Iff.of_eq (k0_chk40.eq_1 v368 v392))
theorem k0_idx40_inb : ∀ (v368 : IVec S16 32) (v392 : IVec S16 32) (k0_hw40 : k0_chk40 v368 v392), ∀ a x, ((![v392, v368] : Fin 2 → IVec S16 32) a x).toNat < S64x16.size a := fun v368 v392 k0_hw40 => k0_hw40
def k0_off9 (k0_t1 : Fin k0_t1_loop.trips) : Fin 2 → Nat :=
  let c3_i32_264 : BitVec 32 := 3#32
  let v394 : Index := Scalar.indexCast c3_i32_264
  let c0_i32_228 : BitVec 32 := 0#32
  let c1_i32_229 : BitVec 32 := 1#32
  let arg19 : BitVec 32 := Scf.iv c0_i32_228 c1_i32_229 k0_t1
  let c16_i32_247 : BitVec 32 := 16#32
  let v353 : BitVec 32 := Scalar.muli arg19 c16_i32_247
  let v395 : Index := Scalar.indexCast v353
  ![3, v395.toNat]

def k0_chk41 (v368 : IVec S16 32) (v397 : IVec S16 32) : Prop :=
  (∀ a x, ((![v397, v368] : Fin 2 → IVec S16 32) a x).toNat < S64x16.size a)
instance k0_chk41.dec : ∀ (v368 : IVec S16 32) (v397 : IVec S16 32), Decidable (k0_chk41 v368 v397) := fun v368 v397 => decidable_of_iff' _ (Iff.of_eq (k0_chk41.eq_1 v368 v397))
theorem k0_idx41_inb : ∀ (v368 : IVec S16 32) (v397 : IVec S16 32) (k0_hw41 : k0_chk41 v368 v397), ∀ a x, ((![v397, v368] : Fin 2 → IVec S16 32) a x).toNat < S64x16.size a := fun v368 v397 k0_hw41 => k0_hw41
def k0_off10 (k0_t1 : Fin k0_t1_loop.trips) : Fin 2 → Nat :=
  let c4_i32_265 : BitVec 32 := 4#32
  let v399 : Index := Scalar.indexCast c4_i32_265
  let c0_i32_228 : BitVec 32 := 0#32
  let c1_i32_229 : BitVec 32 := 1#32
  let arg19 : BitVec 32 := Scf.iv c0_i32_228 c1_i32_229 k0_t1
  let c16_i32_247 : BitVec 32 := 16#32
  let v353 : BitVec 32 := Scalar.muli arg19 c16_i32_247
  let v400 : Index := Scalar.indexCast v353
  ![4, v400.toNat]

def k0_chk42 (v368 : IVec S16 32) (v402 : IVec S16 32) : Prop :=
  (∀ a x, ((![v402, v368] : Fin 2 → IVec S16 32) a x).toNat < S64x16.size a)
instance k0_chk42.dec : ∀ (v368 : IVec S16 32) (v402 : IVec S16 32), Decidable (k0_chk42 v368 v402) := fun v368 v402 => decidable_of_iff' _ (Iff.of_eq (k0_chk42.eq_1 v368 v402))
theorem k0_idx42_inb : ∀ (v368 : IVec S16 32) (v402 : IVec S16 32) (k0_hw42 : k0_chk42 v368 v402), ∀ a x, ((![v402, v368] : Fin 2 → IVec S16 32) a x).toNat < S64x16.size a := fun v368 v402 k0_hw42 => k0_hw42
def k0_off11 (k0_t1 : Fin k0_t1_loop.trips) : Fin 2 → Nat :=
  let c5_i32_266 : BitVec 32 := 5#32
  let v404 : Index := Scalar.indexCast c5_i32_266
  let c0_i32_228 : BitVec 32 := 0#32
  let c1_i32_229 : BitVec 32 := 1#32
  let arg19 : BitVec 32 := Scf.iv c0_i32_228 c1_i32_229 k0_t1
  let c16_i32_247 : BitVec 32 := 16#32
  let v353 : BitVec 32 := Scalar.muli arg19 c16_i32_247
  let v405 : Index := Scalar.indexCast v353
  ![5, v405.toNat]

def k0_chk43 (v368 : IVec S16 32) (v407 : IVec S16 32) : Prop :=
  (∀ a x, ((![v407, v368] : Fin 2 → IVec S16 32) a x).toNat < S64x16.size a)
instance k0_chk43.dec : ∀ (v368 : IVec S16 32) (v407 : IVec S16 32), Decidable (k0_chk43 v368 v407) := fun v368 v407 => decidable_of_iff' _ (Iff.of_eq (k0_chk43.eq_1 v368 v407))
theorem k0_idx43_inb : ∀ (v368 : IVec S16 32) (v407 : IVec S16 32) (k0_hw43 : k0_chk43 v368 v407), ∀ a x, ((![v407, v368] : Fin 2 → IVec S16 32) a x).toNat < S64x16.size a := fun v368 v407 k0_hw43 => k0_hw43
def k0_off12 (k0_t1 : Fin k0_t1_loop.trips) : Fin 2 → Nat :=
  let c6_i32_267 : BitVec 32 := 6#32
  let v409 : Index := Scalar.indexCast c6_i32_267
  let c0_i32_228 : BitVec 32 := 0#32
  let c1_i32_229 : BitVec 32 := 1#32
  let arg19 : BitVec 32 := Scf.iv c0_i32_228 c1_i32_229 k0_t1
  let c16_i32_247 : BitVec 32 := 16#32
  let v353 : BitVec 32 := Scalar.muli arg19 c16_i32_247
  let v410 : Index := Scalar.indexCast v353
  ![6, v410.toNat]

def k0_chk44 (v368 : IVec S16 32) (v412 : IVec S16 32) : Prop :=
  (∀ a x, ((![v412, v368] : Fin 2 → IVec S16 32) a x).toNat < S64x16.size a)
instance k0_chk44.dec : ∀ (v368 : IVec S16 32) (v412 : IVec S16 32), Decidable (k0_chk44 v368 v412) := fun v368 v412 => decidable_of_iff' _ (Iff.of_eq (k0_chk44.eq_1 v368 v412))
theorem k0_idx44_inb : ∀ (v368 : IVec S16 32) (v412 : IVec S16 32) (k0_hw44 : k0_chk44 v368 v412), ∀ a x, ((![v412, v368] : Fin 2 → IVec S16 32) a x).toNat < S64x16.size a := fun v368 v412 k0_hw44 => k0_hw44
def k0_off13 (k0_t1 : Fin k0_t1_loop.trips) : Fin 2 → Nat :=
  let c7_i32_268 : BitVec 32 := 7#32
  let v414 : Index := Scalar.indexCast c7_i32_268
  let c0_i32_228 : BitVec 32 := 0#32
  let c1_i32_229 : BitVec 32 := 1#32
  let arg19 : BitVec 32 := Scf.iv c0_i32_228 c1_i32_229 k0_t1
  let c16_i32_247 : BitVec 32 := 16#32
  let v353 : BitVec 32 := Scalar.muli arg19 c16_i32_247
  let v415 : Index := Scalar.indexCast v353
  ![7, v415.toNat]

def k0_chk45 (v368 : IVec S16 32) (v417 : IVec S16 32) : Prop :=
  (∀ a x, ((![v417, v368] : Fin 2 → IVec S16 32) a x).toNat < S64x16.size a)
instance k0_chk45.dec : ∀ (v368 : IVec S16 32) (v417 : IVec S16 32), Decidable (k0_chk45 v368 v417) := fun v368 v417 => decidable_of_iff' _ (Iff.of_eq (k0_chk45.eq_1 v368 v417))
theorem k0_idx45_inb : ∀ (v368 : IVec S16 32) (v417 : IVec S16 32) (k0_hw45 : k0_chk45 v368 v417), ∀ a x, ((![v417, v368] : Fin 2 → IVec S16 32) a x).toNat < S64x16.size a := fun v368 v417 k0_hw45 => k0_hw45
def k0_off14 (k0_t1 : Fin k0_t1_loop.trips) : Fin 2 → Nat :=
  let c8_i32_269 : BitVec 32 := 8#32
  let v419 : Index := Scalar.indexCast c8_i32_269
  let c0_i32_228 : BitVec 32 := 0#32
  let c1_i32_229 : BitVec 32 := 1#32
  let arg19 : BitVec 32 := Scf.iv c0_i32_228 c1_i32_229 k0_t1
  let c16_i32_247 : BitVec 32 := 16#32
  let v353 : BitVec 32 := Scalar.muli arg19 c16_i32_247
  let v420 : Index := Scalar.indexCast v353
  ![8, v420.toNat]

def k0_chk46 (v368 : IVec S16 32) (v422 : IVec S16 32) : Prop :=
  (∀ a x, ((![v422, v368] : Fin 2 → IVec S16 32) a x).toNat < S64x16.size a)
instance k0_chk46.dec : ∀ (v368 : IVec S16 32) (v422 : IVec S16 32), Decidable (k0_chk46 v368 v422) := fun v368 v422 => decidable_of_iff' _ (Iff.of_eq (k0_chk46.eq_1 v368 v422))
theorem k0_idx46_inb : ∀ (v368 : IVec S16 32) (v422 : IVec S16 32) (k0_hw46 : k0_chk46 v368 v422), ∀ a x, ((![v422, v368] : Fin 2 → IVec S16 32) a x).toNat < S64x16.size a := fun v368 v422 k0_hw46 => k0_hw46
def k0_off15 (k0_t1 : Fin k0_t1_loop.trips) : Fin 2 → Nat :=
  let c9_i32_270 : BitVec 32 := 9#32
  let v424 : Index := Scalar.indexCast c9_i32_270
  let c0_i32_228 : BitVec 32 := 0#32
  let c1_i32_229 : BitVec 32 := 1#32
  let arg19 : BitVec 32 := Scf.iv c0_i32_228 c1_i32_229 k0_t1
  let c16_i32_247 : BitVec 32 := 16#32
  let v353 : BitVec 32 := Scalar.muli arg19 c16_i32_247
  let v425 : Index := Scalar.indexCast v353
  ![9, v425.toNat]

def k0_chk47 (v368 : IVec S16 32) (v427 : IVec S16 32) : Prop :=
  (∀ a x, ((![v427, v368] : Fin 2 → IVec S16 32) a x).toNat < S64x16.size a)
instance k0_chk47.dec : ∀ (v368 : IVec S16 32) (v427 : IVec S16 32), Decidable (k0_chk47 v368 v427) := fun v368 v427 => decidable_of_iff' _ (Iff.of_eq (k0_chk47.eq_1 v368 v427))
theorem k0_idx47_inb : ∀ (v368 : IVec S16 32) (v427 : IVec S16 32) (k0_hw47 : k0_chk47 v368 v427), ∀ a x, ((![v427, v368] : Fin 2 → IVec S16 32) a x).toNat < S64x16.size a := fun v368 v427 k0_hw47 => k0_hw47
def k0_off16 (k0_t1 : Fin k0_t1_loop.trips) : Fin 2 → Nat :=
  let c10_i32_271 : BitVec 32 := 10#32
  let v429 : Index := Scalar.indexCast c10_i32_271
  let c0_i32_228 : BitVec 32 := 0#32
  let c1_i32_229 : BitVec 32 := 1#32
  let arg19 : BitVec 32 := Scf.iv c0_i32_228 c1_i32_229 k0_t1
  let c16_i32_247 : BitVec 32 := 16#32
  let v353 : BitVec 32 := Scalar.muli arg19 c16_i32_247
  let v430 : Index := Scalar.indexCast v353
  ![10, v430.toNat]

def k0_chk48 (v368 : IVec S16 32) (v432 : IVec S16 32) : Prop :=
  (∀ a x, ((![v432, v368] : Fin 2 → IVec S16 32) a x).toNat < S64x16.size a)
instance k0_chk48.dec : ∀ (v368 : IVec S16 32) (v432 : IVec S16 32), Decidable (k0_chk48 v368 v432) := fun v368 v432 => decidable_of_iff' _ (Iff.of_eq (k0_chk48.eq_1 v368 v432))
theorem k0_idx48_inb : ∀ (v368 : IVec S16 32) (v432 : IVec S16 32) (k0_hw48 : k0_chk48 v368 v432), ∀ a x, ((![v432, v368] : Fin 2 → IVec S16 32) a x).toNat < S64x16.size a := fun v368 v432 k0_hw48 => k0_hw48
def k0_off17 (k0_t1 : Fin k0_t1_loop.trips) : Fin 2 → Nat :=
  let c11_i32_272 : BitVec 32 := 11#32
  let v434 : Index := Scalar.indexCast c11_i32_272
  let c0_i32_228 : BitVec 32 := 0#32
  let c1_i32_229 : BitVec 32 := 1#32
  let arg19 : BitVec 32 := Scf.iv c0_i32_228 c1_i32_229 k0_t1
  let c16_i32_247 : BitVec 32 := 16#32
  let v353 : BitVec 32 := Scalar.muli arg19 c16_i32_247
  let v435 : Index := Scalar.indexCast v353
  ![11, v435.toNat]

def k0_chk49 (v368 : IVec S16 32) (v437 : IVec S16 32) : Prop :=
  (∀ a x, ((![v437, v368] : Fin 2 → IVec S16 32) a x).toNat < S64x16.size a)
instance k0_chk49.dec : ∀ (v368 : IVec S16 32) (v437 : IVec S16 32), Decidable (k0_chk49 v368 v437) := fun v368 v437 => decidable_of_iff' _ (Iff.of_eq (k0_chk49.eq_1 v368 v437))
theorem k0_idx49_inb : ∀ (v368 : IVec S16 32) (v437 : IVec S16 32) (k0_hw49 : k0_chk49 v368 v437), ∀ a x, ((![v437, v368] : Fin 2 → IVec S16 32) a x).toNat < S64x16.size a := fun v368 v437 k0_hw49 => k0_hw49
def k0_off18 (k0_t1 : Fin k0_t1_loop.trips) : Fin 2 → Nat :=
  let c12_i32_274 : BitVec 32 := 12#32
  let v439 : Index := Scalar.indexCast c12_i32_274
  let c0_i32_228 : BitVec 32 := 0#32
  let c1_i32_229 : BitVec 32 := 1#32
  let arg19 : BitVec 32 := Scf.iv c0_i32_228 c1_i32_229 k0_t1
  let c16_i32_247 : BitVec 32 := 16#32
  let v353 : BitVec 32 := Scalar.muli arg19 c16_i32_247
  let v440 : Index := Scalar.indexCast v353
  ![12, v440.toNat]

def k0_chk50 (v368 : IVec S16 32) (v442 : IVec S16 32) : Prop :=
  (∀ a x, ((![v442, v368] : Fin 2 → IVec S16 32) a x).toNat < S64x16.size a)
instance k0_chk50.dec : ∀ (v368 : IVec S16 32) (v442 : IVec S16 32), Decidable (k0_chk50 v368 v442) := fun v368 v442 => decidable_of_iff' _ (Iff.of_eq (k0_chk50.eq_1 v368 v442))
theorem k0_idx50_inb : ∀ (v368 : IVec S16 32) (v442 : IVec S16 32) (k0_hw50 : k0_chk50 v368 v442), ∀ a x, ((![v442, v368] : Fin 2 → IVec S16 32) a x).toNat < S64x16.size a := fun v368 v442 k0_hw50 => k0_hw50
def k0_off19 (k0_t1 : Fin k0_t1_loop.trips) : Fin 2 → Nat :=
  let c13_i32_275 : BitVec 32 := 13#32
  let v444 : Index := Scalar.indexCast c13_i32_275
  let c0_i32_228 : BitVec 32 := 0#32
  let c1_i32_229 : BitVec 32 := 1#32
  let arg19 : BitVec 32 := Scf.iv c0_i32_228 c1_i32_229 k0_t1
  let c16_i32_247 : BitVec 32 := 16#32
  let v353 : BitVec 32 := Scalar.muli arg19 c16_i32_247
  let v445 : Index := Scalar.indexCast v353
  ![13, v445.toNat]

def k0_chk51 (v368 : IVec S16 32) (v447 : IVec S16 32) : Prop :=
  (∀ a x, ((![v447, v368] : Fin 2 → IVec S16 32) a x).toNat < S64x16.size a)
instance k0_chk51.dec : ∀ (v368 : IVec S16 32) (v447 : IVec S16 32), Decidable (k0_chk51 v368 v447) := fun v368 v447 => decidable_of_iff' _ (Iff.of_eq (k0_chk51.eq_1 v368 v447))
theorem k0_idx51_inb : ∀ (v368 : IVec S16 32) (v447 : IVec S16 32) (k0_hw51 : k0_chk51 v368 v447), ∀ a x, ((![v447, v368] : Fin 2 → IVec S16 32) a x).toNat < S64x16.size a := fun v368 v447 k0_hw51 => k0_hw51
def k0_off20 (k0_t1 : Fin k0_t1_loop.trips) : Fin 2 → Nat :=
  let c14_i32_276 : BitVec 32 := 14#32
  let v449 : Index := Scalar.indexCast c14_i32_276
  let c0_i32_228 : BitVec 32 := 0#32
  let c1_i32_229 : BitVec 32 := 1#32
  let arg19 : BitVec 32 := Scf.iv c0_i32_228 c1_i32_229 k0_t1
  let c16_i32_247 : BitVec 32 := 16#32
  let v353 : BitVec 32 := Scalar.muli arg19 c16_i32_247
  let v450 : Index := Scalar.indexCast v353
  ![14, v450.toNat]

def k0_chk52 (v368 : IVec S16 32) (v452 : IVec S16 32) : Prop :=
  (∀ a x, ((![v452, v368] : Fin 2 → IVec S16 32) a x).toNat < S64x16.size a)
instance k0_chk52.dec : ∀ (v368 : IVec S16 32) (v452 : IVec S16 32), Decidable (k0_chk52 v368 v452) := fun v368 v452 => decidable_of_iff' _ (Iff.of_eq (k0_chk52.eq_1 v368 v452))
theorem k0_idx52_inb : ∀ (v368 : IVec S16 32) (v452 : IVec S16 32) (k0_hw52 : k0_chk52 v368 v452), ∀ a x, ((![v452, v368] : Fin 2 → IVec S16 32) a x).toNat < S64x16.size a := fun v368 v452 k0_hw52 => k0_hw52
def k0_off21 (k0_t1 : Fin k0_t1_loop.trips) : Fin 2 → Nat :=
  let c15_i32_277 : BitVec 32 := 15#32
  let v454 : Index := Scalar.indexCast c15_i32_277
  let c0_i32_228 : BitVec 32 := 0#32
  let c1_i32_229 : BitVec 32 := 1#32
  let arg19 : BitVec 32 := Scf.iv c0_i32_228 c1_i32_229 k0_t1
  let c16_i32_247 : BitVec 32 := 16#32
  let v353 : BitVec 32 := Scalar.muli arg19 c16_i32_247
  let v455 : Index := Scalar.indexCast v353
  ![15, v455.toNat]

def k0_chk53 (v368 : IVec S16 32) (v457 : IVec S16 32) : Prop :=
  (∀ a x, ((![v457, v368] : Fin 2 → IVec S16 32) a x).toNat < S64x16.size a)
instance k0_chk53.dec : ∀ (v368 : IVec S16 32) (v457 : IVec S16 32), Decidable (k0_chk53 v368 v457) := fun v368 v457 => decidable_of_iff' _ (Iff.of_eq (k0_chk53.eq_1 v368 v457))
theorem k0_idx53_inb : ∀ (v368 : IVec S16 32) (v457 : IVec S16 32) (k0_hw53 : k0_chk53 v368 v457), ∀ a x, ((![v457, v368] : Fin 2 → IVec S16 32) a x).toNat < S64x16.size a := fun v368 v457 k0_hw53 => k0_hw53
def k0_off22 (k0_t1 : Fin k0_t1_loop.trips) : Fin 2 → Nat :=
  let c16_i32_279 : BitVec 32 := 16#32
  let v459 : Index := Scalar.indexCast c16_i32_279
  let c0_i32_228 : BitVec 32 := 0#32
  let c1_i32_229 : BitVec 32 := 1#32
  let arg19 : BitVec 32 := Scf.iv c0_i32_228 c1_i32_229 k0_t1
  let c16_i32_247 : BitVec 32 := 16#32
  let v353 : BitVec 32 := Scalar.muli arg19 c16_i32_247
  let v460 : Index := Scalar.indexCast v353
  ![16, v460.toNat]

def k0_chk54 (v368 : IVec S16 32) (v462 : IVec S16 32) : Prop :=
  (∀ a x, ((![v462, v368] : Fin 2 → IVec S16 32) a x).toNat < S64x16.size a)
instance k0_chk54.dec : ∀ (v368 : IVec S16 32) (v462 : IVec S16 32), Decidable (k0_chk54 v368 v462) := fun v368 v462 => decidable_of_iff' _ (Iff.of_eq (k0_chk54.eq_1 v368 v462))
theorem k0_idx54_inb : ∀ (v368 : IVec S16 32) (v462 : IVec S16 32) (k0_hw54 : k0_chk54 v368 v462), ∀ a x, ((![v462, v368] : Fin 2 → IVec S16 32) a x).toNat < S64x16.size a := fun v368 v462 k0_hw54 => k0_hw54
def k0_off23 (k0_t1 : Fin k0_t1_loop.trips) : Fin 2 → Nat :=
  let c17_i32_280 : BitVec 32 := 17#32
  let v464 : Index := Scalar.indexCast c17_i32_280
  let c0_i32_228 : BitVec 32 := 0#32
  let c1_i32_229 : BitVec 32 := 1#32
  let arg19 : BitVec 32 := Scf.iv c0_i32_228 c1_i32_229 k0_t1
  let c16_i32_247 : BitVec 32 := 16#32
  let v353 : BitVec 32 := Scalar.muli arg19 c16_i32_247
  let v465 : Index := Scalar.indexCast v353
  ![17, v465.toNat]

def k0_chk55 (v368 : IVec S16 32) (v467 : IVec S16 32) : Prop :=
  (∀ a x, ((![v467, v368] : Fin 2 → IVec S16 32) a x).toNat < S64x16.size a)
instance k0_chk55.dec : ∀ (v368 : IVec S16 32) (v467 : IVec S16 32), Decidable (k0_chk55 v368 v467) := fun v368 v467 => decidable_of_iff' _ (Iff.of_eq (k0_chk55.eq_1 v368 v467))
theorem k0_idx55_inb : ∀ (v368 : IVec S16 32) (v467 : IVec S16 32) (k0_hw55 : k0_chk55 v368 v467), ∀ a x, ((![v467, v368] : Fin 2 → IVec S16 32) a x).toNat < S64x16.size a := fun v368 v467 k0_hw55 => k0_hw55
def k0_off24 (k0_t1 : Fin k0_t1_loop.trips) : Fin 2 → Nat :=
  let c18_i32_281 : BitVec 32 := 18#32
  let v469 : Index := Scalar.indexCast c18_i32_281
  let c0_i32_228 : BitVec 32 := 0#32
  let c1_i32_229 : BitVec 32 := 1#32
  let arg19 : BitVec 32 := Scf.iv c0_i32_228 c1_i32_229 k0_t1
  let c16_i32_247 : BitVec 32 := 16#32
  let v353 : BitVec 32 := Scalar.muli arg19 c16_i32_247
  let v470 : Index := Scalar.indexCast v353
  ![18, v470.toNat]

def k0_chk56 (v368 : IVec S16 32) (v472 : IVec S16 32) : Prop :=
  (∀ a x, ((![v472, v368] : Fin 2 → IVec S16 32) a x).toNat < S64x16.size a)
instance k0_chk56.dec : ∀ (v368 : IVec S16 32) (v472 : IVec S16 32), Decidable (k0_chk56 v368 v472) := fun v368 v472 => decidable_of_iff' _ (Iff.of_eq (k0_chk56.eq_1 v368 v472))
theorem k0_idx56_inb : ∀ (v368 : IVec S16 32) (v472 : IVec S16 32) (k0_hw56 : k0_chk56 v368 v472), ∀ a x, ((![v472, v368] : Fin 2 → IVec S16 32) a x).toNat < S64x16.size a := fun v368 v472 k0_hw56 => k0_hw56
def k0_off25 (k0_t1 : Fin k0_t1_loop.trips) : Fin 2 → Nat :=
  let c19_i32_282 : BitVec 32 := 19#32
  let v474 : Index := Scalar.indexCast c19_i32_282
  let c0_i32_228 : BitVec 32 := 0#32
  let c1_i32_229 : BitVec 32 := 1#32
  let arg19 : BitVec 32 := Scf.iv c0_i32_228 c1_i32_229 k0_t1
  let c16_i32_247 : BitVec 32 := 16#32
  let v353 : BitVec 32 := Scalar.muli arg19 c16_i32_247
  let v475 : Index := Scalar.indexCast v353
  ![19, v475.toNat]

def k0_chk57 (v368 : IVec S16 32) (v477 : IVec S16 32) : Prop :=
  (∀ a x, ((![v477, v368] : Fin 2 → IVec S16 32) a x).toNat < S64x16.size a)
instance k0_chk57.dec : ∀ (v368 : IVec S16 32) (v477 : IVec S16 32), Decidable (k0_chk57 v368 v477) := fun v368 v477 => decidable_of_iff' _ (Iff.of_eq (k0_chk57.eq_1 v368 v477))
theorem k0_idx57_inb : ∀ (v368 : IVec S16 32) (v477 : IVec S16 32) (k0_hw57 : k0_chk57 v368 v477), ∀ a x, ((![v477, v368] : Fin 2 → IVec S16 32) a x).toNat < S64x16.size a := fun v368 v477 k0_hw57 => k0_hw57
def k0_off26 (k0_t1 : Fin k0_t1_loop.trips) : Fin 2 → Nat :=
  let c20_i32_283 : BitVec 32 := 20#32
  let v479 : Index := Scalar.indexCast c20_i32_283
  let c0_i32_228 : BitVec 32 := 0#32
  let c1_i32_229 : BitVec 32 := 1#32
  let arg19 : BitVec 32 := Scf.iv c0_i32_228 c1_i32_229 k0_t1
  let c16_i32_247 : BitVec 32 := 16#32
  let v353 : BitVec 32 := Scalar.muli arg19 c16_i32_247
  let v480 : Index := Scalar.indexCast v353
  ![20, v480.toNat]

def k0_chk58 (v368 : IVec S16 32) (v482 : IVec S16 32) : Prop :=
  (∀ a x, ((![v482, v368] : Fin 2 → IVec S16 32) a x).toNat < S64x16.size a)
instance k0_chk58.dec : ∀ (v368 : IVec S16 32) (v482 : IVec S16 32), Decidable (k0_chk58 v368 v482) := fun v368 v482 => decidable_of_iff' _ (Iff.of_eq (k0_chk58.eq_1 v368 v482))
theorem k0_idx58_inb : ∀ (v368 : IVec S16 32) (v482 : IVec S16 32) (k0_hw58 : k0_chk58 v368 v482), ∀ a x, ((![v482, v368] : Fin 2 → IVec S16 32) a x).toNat < S64x16.size a := fun v368 v482 k0_hw58 => k0_hw58
def k0_off27 (k0_t1 : Fin k0_t1_loop.trips) : Fin 2 → Nat :=
  let c21_i32_284 : BitVec 32 := 21#32
  let v484 : Index := Scalar.indexCast c21_i32_284
  let c0_i32_228 : BitVec 32 := 0#32
  let c1_i32_229 : BitVec 32 := 1#32
  let arg19 : BitVec 32 := Scf.iv c0_i32_228 c1_i32_229 k0_t1
  let c16_i32_247 : BitVec 32 := 16#32
  let v353 : BitVec 32 := Scalar.muli arg19 c16_i32_247
  let v485 : Index := Scalar.indexCast v353
  ![21, v485.toNat]

def k0_chk59 (v368 : IVec S16 32) (v487 : IVec S16 32) : Prop :=
  (∀ a x, ((![v487, v368] : Fin 2 → IVec S16 32) a x).toNat < S64x16.size a)
instance k0_chk59.dec : ∀ (v368 : IVec S16 32) (v487 : IVec S16 32), Decidable (k0_chk59 v368 v487) := fun v368 v487 => decidable_of_iff' _ (Iff.of_eq (k0_chk59.eq_1 v368 v487))
theorem k0_idx59_inb : ∀ (v368 : IVec S16 32) (v487 : IVec S16 32) (k0_hw59 : k0_chk59 v368 v487), ∀ a x, ((![v487, v368] : Fin 2 → IVec S16 32) a x).toNat < S64x16.size a := fun v368 v487 k0_hw59 => k0_hw59
def k0_off28 (k0_t1 : Fin k0_t1_loop.trips) : Fin 2 → Nat :=
  let c22_i32_285 : BitVec 32 := 22#32
  let v489 : Index := Scalar.indexCast c22_i32_285
  let c0_i32_228 : BitVec 32 := 0#32
  let c1_i32_229 : BitVec 32 := 1#32
  let arg19 : BitVec 32 := Scf.iv c0_i32_228 c1_i32_229 k0_t1
  let c16_i32_247 : BitVec 32 := 16#32
  let v353 : BitVec 32 := Scalar.muli arg19 c16_i32_247
  let v490 : Index := Scalar.indexCast v353
  ![22, v490.toNat]

def k0_chk60 (v368 : IVec S16 32) (v492 : IVec S16 32) : Prop :=
  (∀ a x, ((![v492, v368] : Fin 2 → IVec S16 32) a x).toNat < S64x16.size a)
instance k0_chk60.dec : ∀ (v368 : IVec S16 32) (v492 : IVec S16 32), Decidable (k0_chk60 v368 v492) := fun v368 v492 => decidable_of_iff' _ (Iff.of_eq (k0_chk60.eq_1 v368 v492))
theorem k0_idx60_inb : ∀ (v368 : IVec S16 32) (v492 : IVec S16 32) (k0_hw60 : k0_chk60 v368 v492), ∀ a x, ((![v492, v368] : Fin 2 → IVec S16 32) a x).toNat < S64x16.size a := fun v368 v492 k0_hw60 => k0_hw60
def k0_off29 (k0_t1 : Fin k0_t1_loop.trips) : Fin 2 → Nat :=
  let c23_i32_286 : BitVec 32 := 23#32
  let v494 : Index := Scalar.indexCast c23_i32_286
  let c0_i32_228 : BitVec 32 := 0#32
  let c1_i32_229 : BitVec 32 := 1#32
  let arg19 : BitVec 32 := Scf.iv c0_i32_228 c1_i32_229 k0_t1
  let c16_i32_247 : BitVec 32 := 16#32
  let v353 : BitVec 32 := Scalar.muli arg19 c16_i32_247
  let v495 : Index := Scalar.indexCast v353
  ![23, v495.toNat]

def k0_chk61 (v368 : IVec S16 32) (v497 : IVec S16 32) : Prop :=
  (∀ a x, ((![v497, v368] : Fin 2 → IVec S16 32) a x).toNat < S64x16.size a)
instance k0_chk61.dec : ∀ (v368 : IVec S16 32) (v497 : IVec S16 32), Decidable (k0_chk61 v368 v497) := fun v368 v497 => decidable_of_iff' _ (Iff.of_eq (k0_chk61.eq_1 v368 v497))
theorem k0_idx61_inb : ∀ (v368 : IVec S16 32) (v497 : IVec S16 32) (k0_hw61 : k0_chk61 v368 v497), ∀ a x, ((![v497, v368] : Fin 2 → IVec S16 32) a x).toNat < S64x16.size a := fun v368 v497 k0_hw61 => k0_hw61
def k0_off30 (k0_t1 : Fin k0_t1_loop.trips) : Fin 2 → Nat :=
  let c24_i32_287 : BitVec 32 := 24#32
  let v499 : Index := Scalar.indexCast c24_i32_287
  let c0_i32_228 : BitVec 32 := 0#32
  let c1_i32_229 : BitVec 32 := 1#32
  let arg19 : BitVec 32 := Scf.iv c0_i32_228 c1_i32_229 k0_t1
  let c16_i32_247 : BitVec 32 := 16#32
  let v353 : BitVec 32 := Scalar.muli arg19 c16_i32_247
  let v500 : Index := Scalar.indexCast v353
  ![24, v500.toNat]

def k0_chk62 (v368 : IVec S16 32) (v502 : IVec S16 32) : Prop :=
  (∀ a x, ((![v502, v368] : Fin 2 → IVec S16 32) a x).toNat < S64x16.size a)
instance k0_chk62.dec : ∀ (v368 : IVec S16 32) (v502 : IVec S16 32), Decidable (k0_chk62 v368 v502) := fun v368 v502 => decidable_of_iff' _ (Iff.of_eq (k0_chk62.eq_1 v368 v502))
theorem k0_idx62_inb : ∀ (v368 : IVec S16 32) (v502 : IVec S16 32) (k0_hw62 : k0_chk62 v368 v502), ∀ a x, ((![v502, v368] : Fin 2 → IVec S16 32) a x).toNat < S64x16.size a := fun v368 v502 k0_hw62 => k0_hw62
def k0_off31 (k0_t1 : Fin k0_t1_loop.trips) : Fin 2 → Nat :=
  let c25_i32_288 : BitVec 32 := 25#32
  let v504 : Index := Scalar.indexCast c25_i32_288
  let c0_i32_228 : BitVec 32 := 0#32
  let c1_i32_229 : BitVec 32 := 1#32
  let arg19 : BitVec 32 := Scf.iv c0_i32_228 c1_i32_229 k0_t1
  let c16_i32_247 : BitVec 32 := 16#32
  let v353 : BitVec 32 := Scalar.muli arg19 c16_i32_247
  let v505 : Index := Scalar.indexCast v353
  ![25, v505.toNat]

def k0_chk63 (v368 : IVec S16 32) (v507 : IVec S16 32) : Prop :=
  (∀ a x, ((![v507, v368] : Fin 2 → IVec S16 32) a x).toNat < S64x16.size a)
instance k0_chk63.dec : ∀ (v368 : IVec S16 32) (v507 : IVec S16 32), Decidable (k0_chk63 v368 v507) := fun v368 v507 => decidable_of_iff' _ (Iff.of_eq (k0_chk63.eq_1 v368 v507))
theorem k0_idx63_inb : ∀ (v368 : IVec S16 32) (v507 : IVec S16 32) (k0_hw63 : k0_chk63 v368 v507), ∀ a x, ((![v507, v368] : Fin 2 → IVec S16 32) a x).toNat < S64x16.size a := fun v368 v507 k0_hw63 => k0_hw63
def k0_off32 (k0_t1 : Fin k0_t1_loop.trips) : Fin 2 → Nat :=
  let c26_i32_289 : BitVec 32 := 26#32
  let v509 : Index := Scalar.indexCast c26_i32_289
  let c0_i32_228 : BitVec 32 := 0#32
  let c1_i32_229 : BitVec 32 := 1#32
  let arg19 : BitVec 32 := Scf.iv c0_i32_228 c1_i32_229 k0_t1
  let c16_i32_247 : BitVec 32 := 16#32
  let v353 : BitVec 32 := Scalar.muli arg19 c16_i32_247
  let v510 : Index := Scalar.indexCast v353
  ![26, v510.toNat]

def k0_chk64 (v368 : IVec S16 32) (v512 : IVec S16 32) : Prop :=
  (∀ a x, ((![v512, v368] : Fin 2 → IVec S16 32) a x).toNat < S64x16.size a)
instance k0_chk64.dec : ∀ (v368 : IVec S16 32) (v512 : IVec S16 32), Decidable (k0_chk64 v368 v512) := fun v368 v512 => decidable_of_iff' _ (Iff.of_eq (k0_chk64.eq_1 v368 v512))
theorem k0_idx64_inb : ∀ (v368 : IVec S16 32) (v512 : IVec S16 32) (k0_hw64 : k0_chk64 v368 v512), ∀ a x, ((![v512, v368] : Fin 2 → IVec S16 32) a x).toNat < S64x16.size a := fun v368 v512 k0_hw64 => k0_hw64
def k0_off33 (k0_t1 : Fin k0_t1_loop.trips) : Fin 2 → Nat :=
  let c27_i32_290 : BitVec 32 := 27#32
  let v514 : Index := Scalar.indexCast c27_i32_290
  let c0_i32_228 : BitVec 32 := 0#32
  let c1_i32_229 : BitVec 32 := 1#32
  let arg19 : BitVec 32 := Scf.iv c0_i32_228 c1_i32_229 k0_t1
  let c16_i32_247 : BitVec 32 := 16#32
  let v353 : BitVec 32 := Scalar.muli arg19 c16_i32_247
  let v515 : Index := Scalar.indexCast v353
  ![27, v515.toNat]

def k0_chk65 (v368 : IVec S16 32) (v517 : IVec S16 32) : Prop :=
  (∀ a x, ((![v517, v368] : Fin 2 → IVec S16 32) a x).toNat < S64x16.size a)
instance k0_chk65.dec : ∀ (v368 : IVec S16 32) (v517 : IVec S16 32), Decidable (k0_chk65 v368 v517) := fun v368 v517 => decidable_of_iff' _ (Iff.of_eq (k0_chk65.eq_1 v368 v517))
theorem k0_idx65_inb : ∀ (v368 : IVec S16 32) (v517 : IVec S16 32) (k0_hw65 : k0_chk65 v368 v517), ∀ a x, ((![v517, v368] : Fin 2 → IVec S16 32) a x).toNat < S64x16.size a := fun v368 v517 k0_hw65 => k0_hw65
def k0_off34 (k0_t1 : Fin k0_t1_loop.trips) : Fin 2 → Nat :=
  let c28_i32_292 : BitVec 32 := 28#32
  let v519 : Index := Scalar.indexCast c28_i32_292
  let c0_i32_228 : BitVec 32 := 0#32
  let c1_i32_229 : BitVec 32 := 1#32
  let arg19 : BitVec 32 := Scf.iv c0_i32_228 c1_i32_229 k0_t1
  let c16_i32_247 : BitVec 32 := 16#32
  let v353 : BitVec 32 := Scalar.muli arg19 c16_i32_247
  let v520 : Index := Scalar.indexCast v353
  ![28, v520.toNat]

def k0_chk66 (v368 : IVec S16 32) (v522 : IVec S16 32) : Prop :=
  (∀ a x, ((![v522, v368] : Fin 2 → IVec S16 32) a x).toNat < S64x16.size a)
instance k0_chk66.dec : ∀ (v368 : IVec S16 32) (v522 : IVec S16 32), Decidable (k0_chk66 v368 v522) := fun v368 v522 => decidable_of_iff' _ (Iff.of_eq (k0_chk66.eq_1 v368 v522))
theorem k0_idx66_inb : ∀ (v368 : IVec S16 32) (v522 : IVec S16 32) (k0_hw66 : k0_chk66 v368 v522), ∀ a x, ((![v522, v368] : Fin 2 → IVec S16 32) a x).toNat < S64x16.size a := fun v368 v522 k0_hw66 => k0_hw66
def k0_off35 (k0_t1 : Fin k0_t1_loop.trips) : Fin 2 → Nat :=
  let c29_i32_293 : BitVec 32 := 29#32
  let v524 : Index := Scalar.indexCast c29_i32_293
  let c0_i32_228 : BitVec 32 := 0#32
  let c1_i32_229 : BitVec 32 := 1#32
  let arg19 : BitVec 32 := Scf.iv c0_i32_228 c1_i32_229 k0_t1
  let c16_i32_247 : BitVec 32 := 16#32
  let v353 : BitVec 32 := Scalar.muli arg19 c16_i32_247
  let v525 : Index := Scalar.indexCast v353
  ![29, v525.toNat]

def k0_chk67 (v368 : IVec S16 32) (v527 : IVec S16 32) : Prop :=
  (∀ a x, ((![v527, v368] : Fin 2 → IVec S16 32) a x).toNat < S64x16.size a)
instance k0_chk67.dec : ∀ (v368 : IVec S16 32) (v527 : IVec S16 32), Decidable (k0_chk67 v368 v527) := fun v368 v527 => decidable_of_iff' _ (Iff.of_eq (k0_chk67.eq_1 v368 v527))
theorem k0_idx67_inb : ∀ (v368 : IVec S16 32) (v527 : IVec S16 32) (k0_hw67 : k0_chk67 v368 v527), ∀ a x, ((![v527, v368] : Fin 2 → IVec S16 32) a x).toNat < S64x16.size a := fun v368 v527 k0_hw67 => k0_hw67
def k0_off36 (k0_t1 : Fin k0_t1_loop.trips) : Fin 2 → Nat :=
  let c30_i32_294 : BitVec 32 := 30#32
  let v529 : Index := Scalar.indexCast c30_i32_294
  let c0_i32_228 : BitVec 32 := 0#32
  let c1_i32_229 : BitVec 32 := 1#32
  let arg19 : BitVec 32 := Scf.iv c0_i32_228 c1_i32_229 k0_t1
  let c16_i32_247 : BitVec 32 := 16#32
  let v353 : BitVec 32 := Scalar.muli arg19 c16_i32_247
  let v530 : Index := Scalar.indexCast v353
  ![30, v530.toNat]

def k0_chk68 (v368 : IVec S16 32) (v532 : IVec S16 32) : Prop :=
  (∀ a x, ((![v532, v368] : Fin 2 → IVec S16 32) a x).toNat < S64x16.size a)
instance k0_chk68.dec : ∀ (v368 : IVec S16 32) (v532 : IVec S16 32), Decidable (k0_chk68 v368 v532) := fun v368 v532 => decidable_of_iff' _ (Iff.of_eq (k0_chk68.eq_1 v368 v532))
theorem k0_idx68_inb : ∀ (v368 : IVec S16 32) (v532 : IVec S16 32) (k0_hw68 : k0_chk68 v368 v532), ∀ a x, ((![v532, v368] : Fin 2 → IVec S16 32) a x).toNat < S64x16.size a := fun v368 v532 k0_hw68 => k0_hw68
def k0_off37 (k0_t1 : Fin k0_t1_loop.trips) : Fin 2 → Nat :=
  let c31_i32_295 : BitVec 32 := 31#32
  let v534 : Index := Scalar.indexCast c31_i32_295
  let c0_i32_228 : BitVec 32 := 0#32
  let c1_i32_229 : BitVec 32 := 1#32
  let arg19 : BitVec 32 := Scf.iv c0_i32_228 c1_i32_229 k0_t1
  let c16_i32_247 : BitVec 32 := 16#32
  let v353 : BitVec 32 := Scalar.muli arg19 c16_i32_247
  let v535 : Index := Scalar.indexCast v353
  ![31, v535.toNat]

def k0_chk69 (v368 : IVec S16 32) (v537 : IVec S16 32) : Prop :=
  (∀ a x, ((![v537, v368] : Fin 2 → IVec S16 32) a x).toNat < S64x16.size a)
instance k0_chk69.dec : ∀ (v368 : IVec S16 32) (v537 : IVec S16 32), Decidable (k0_chk69 v368 v537) := fun v368 v537 => decidable_of_iff' _ (Iff.of_eq (k0_chk69.eq_1 v368 v537))
theorem k0_idx69_inb : ∀ (v368 : IVec S16 32) (v537 : IVec S16 32) (k0_hw69 : k0_chk69 v368 v537), ∀ a x, ((![v537, v368] : Fin 2 → IVec S16 32) a x).toNat < S64x16.size a := fun v368 v537 k0_hw69 => k0_hw69
def k0_off38 (k0_t1 : Fin k0_t1_loop.trips) : Fin 2 → Nat :=
  let c32_i32_296 : BitVec 32 := 32#32
  let v539 : Index := Scalar.indexCast c32_i32_296
  let c0_i32_228 : BitVec 32 := 0#32
  let c1_i32_229 : BitVec 32 := 1#32
  let arg19 : BitVec 32 := Scf.iv c0_i32_228 c1_i32_229 k0_t1
  let c16_i32_247 : BitVec 32 := 16#32
  let v353 : BitVec 32 := Scalar.muli arg19 c16_i32_247
  let v540 : Index := Scalar.indexCast v353
  ![32, v540.toNat]

def k0_chk70 (v368 : IVec S16 32) (v542 : IVec S16 32) : Prop :=
  (∀ a x, ((![v542, v368] : Fin 2 → IVec S16 32) a x).toNat < S64x16.size a)
instance k0_chk70.dec : ∀ (v368 : IVec S16 32) (v542 : IVec S16 32), Decidable (k0_chk70 v368 v542) := fun v368 v542 => decidable_of_iff' _ (Iff.of_eq (k0_chk70.eq_1 v368 v542))
theorem k0_idx70_inb : ∀ (v368 : IVec S16 32) (v542 : IVec S16 32) (k0_hw70 : k0_chk70 v368 v542), ∀ a x, ((![v542, v368] : Fin 2 → IVec S16 32) a x).toNat < S64x16.size a := fun v368 v542 k0_hw70 => k0_hw70
def k0_off39 (k0_t1 : Fin k0_t1_loop.trips) : Fin 2 → Nat :=
  let c33_i32_297 : BitVec 32 := 33#32
  let v544 : Index := Scalar.indexCast c33_i32_297
  let c0_i32_228 : BitVec 32 := 0#32
  let c1_i32_229 : BitVec 32 := 1#32
  let arg19 : BitVec 32 := Scf.iv c0_i32_228 c1_i32_229 k0_t1
  let c16_i32_247 : BitVec 32 := 16#32
  let v353 : BitVec 32 := Scalar.muli arg19 c16_i32_247
  let v545 : Index := Scalar.indexCast v353
  ![33, v545.toNat]

def k0_chk71 (v368 : IVec S16 32) (v547 : IVec S16 32) : Prop :=
  (∀ a x, ((![v547, v368] : Fin 2 → IVec S16 32) a x).toNat < S64x16.size a)
instance k0_chk71.dec : ∀ (v368 : IVec S16 32) (v547 : IVec S16 32), Decidable (k0_chk71 v368 v547) := fun v368 v547 => decidable_of_iff' _ (Iff.of_eq (k0_chk71.eq_1 v368 v547))
theorem k0_idx71_inb : ∀ (v368 : IVec S16 32) (v547 : IVec S16 32) (k0_hw71 : k0_chk71 v368 v547), ∀ a x, ((![v547, v368] : Fin 2 → IVec S16 32) a x).toNat < S64x16.size a := fun v368 v547 k0_hw71 => k0_hw71
def k0_off40 (k0_t1 : Fin k0_t1_loop.trips) : Fin 2 → Nat :=
  let c34_i32_298 : BitVec 32 := 34#32
  let v549 : Index := Scalar.indexCast c34_i32_298
  let c0_i32_228 : BitVec 32 := 0#32
  let c1_i32_229 : BitVec 32 := 1#32
  let arg19 : BitVec 32 := Scf.iv c0_i32_228 c1_i32_229 k0_t1
  let c16_i32_247 : BitVec 32 := 16#32
  let v353 : BitVec 32 := Scalar.muli arg19 c16_i32_247
  let v550 : Index := Scalar.indexCast v353
  ![34, v550.toNat]

def k0_chk72 (v368 : IVec S16 32) (v552 : IVec S16 32) : Prop :=
  (∀ a x, ((![v552, v368] : Fin 2 → IVec S16 32) a x).toNat < S64x16.size a)
instance k0_chk72.dec : ∀ (v368 : IVec S16 32) (v552 : IVec S16 32), Decidable (k0_chk72 v368 v552) := fun v368 v552 => decidable_of_iff' _ (Iff.of_eq (k0_chk72.eq_1 v368 v552))
theorem k0_idx72_inb : ∀ (v368 : IVec S16 32) (v552 : IVec S16 32) (k0_hw72 : k0_chk72 v368 v552), ∀ a x, ((![v552, v368] : Fin 2 → IVec S16 32) a x).toNat < S64x16.size a := fun v368 v552 k0_hw72 => k0_hw72
def k0_off41 (k0_t1 : Fin k0_t1_loop.trips) : Fin 2 → Nat :=
  let c35_i32_299 : BitVec 32 := 35#32
  let v554 : Index := Scalar.indexCast c35_i32_299
  let c0_i32_228 : BitVec 32 := 0#32
  let c1_i32_229 : BitVec 32 := 1#32
  let arg19 : BitVec 32 := Scf.iv c0_i32_228 c1_i32_229 k0_t1
  let c16_i32_247 : BitVec 32 := 16#32
  let v353 : BitVec 32 := Scalar.muli arg19 c16_i32_247
  let v555 : Index := Scalar.indexCast v353
  ![35, v555.toNat]

def k0_chk73 (v368 : IVec S16 32) (v557 : IVec S16 32) : Prop :=
  (∀ a x, ((![v557, v368] : Fin 2 → IVec S16 32) a x).toNat < S64x16.size a)
instance k0_chk73.dec : ∀ (v368 : IVec S16 32) (v557 : IVec S16 32), Decidable (k0_chk73 v368 v557) := fun v368 v557 => decidable_of_iff' _ (Iff.of_eq (k0_chk73.eq_1 v368 v557))
theorem k0_idx73_inb : ∀ (v368 : IVec S16 32) (v557 : IVec S16 32) (k0_hw73 : k0_chk73 v368 v557), ∀ a x, ((![v557, v368] : Fin 2 → IVec S16 32) a x).toNat < S64x16.size a := fun v368 v557 k0_hw73 => k0_hw73
def k0_off42 (k0_t1 : Fin k0_t1_loop.trips) : Fin 2 → Nat :=
  let c36_i32_301 : BitVec 32 := 36#32
  let v559 : Index := Scalar.indexCast c36_i32_301
  let c0_i32_228 : BitVec 32 := 0#32
  let c1_i32_229 : BitVec 32 := 1#32
  let arg19 : BitVec 32 := Scf.iv c0_i32_228 c1_i32_229 k0_t1
  let c16_i32_247 : BitVec 32 := 16#32
  let v353 : BitVec 32 := Scalar.muli arg19 c16_i32_247
  let v560 : Index := Scalar.indexCast v353
  ![36, v560.toNat]

def k0_chk74 (v368 : IVec S16 32) (v562 : IVec S16 32) : Prop :=
  (∀ a x, ((![v562, v368] : Fin 2 → IVec S16 32) a x).toNat < S64x16.size a)
instance k0_chk74.dec : ∀ (v368 : IVec S16 32) (v562 : IVec S16 32), Decidable (k0_chk74 v368 v562) := fun v368 v562 => decidable_of_iff' _ (Iff.of_eq (k0_chk74.eq_1 v368 v562))
theorem k0_idx74_inb : ∀ (v368 : IVec S16 32) (v562 : IVec S16 32) (k0_hw74 : k0_chk74 v368 v562), ∀ a x, ((![v562, v368] : Fin 2 → IVec S16 32) a x).toNat < S64x16.size a := fun v368 v562 k0_hw74 => k0_hw74
def k0_off43 (k0_t1 : Fin k0_t1_loop.trips) : Fin 2 → Nat :=
  let c37_i32_302 : BitVec 32 := 37#32
  let v564 : Index := Scalar.indexCast c37_i32_302
  let c0_i32_228 : BitVec 32 := 0#32
  let c1_i32_229 : BitVec 32 := 1#32
  let arg19 : BitVec 32 := Scf.iv c0_i32_228 c1_i32_229 k0_t1
  let c16_i32_247 : BitVec 32 := 16#32
  let v353 : BitVec 32 := Scalar.muli arg19 c16_i32_247
  let v565 : Index := Scalar.indexCast v353
  ![37, v565.toNat]

def k0_chk75 (v368 : IVec S16 32) (v567 : IVec S16 32) : Prop :=
  (∀ a x, ((![v567, v368] : Fin 2 → IVec S16 32) a x).toNat < S64x16.size a)
instance k0_chk75.dec : ∀ (v368 : IVec S16 32) (v567 : IVec S16 32), Decidable (k0_chk75 v368 v567) := fun v368 v567 => decidable_of_iff' _ (Iff.of_eq (k0_chk75.eq_1 v368 v567))
theorem k0_idx75_inb : ∀ (v368 : IVec S16 32) (v567 : IVec S16 32) (k0_hw75 : k0_chk75 v368 v567), ∀ a x, ((![v567, v368] : Fin 2 → IVec S16 32) a x).toNat < S64x16.size a := fun v368 v567 k0_hw75 => k0_hw75
def k0_off44 (k0_t1 : Fin k0_t1_loop.trips) : Fin 2 → Nat :=
  let c38_i32_303 : BitVec 32 := 38#32
  let v569 : Index := Scalar.indexCast c38_i32_303
  let c0_i32_228 : BitVec 32 := 0#32
  let c1_i32_229 : BitVec 32 := 1#32
  let arg19 : BitVec 32 := Scf.iv c0_i32_228 c1_i32_229 k0_t1
  let c16_i32_247 : BitVec 32 := 16#32
  let v353 : BitVec 32 := Scalar.muli arg19 c16_i32_247
  let v570 : Index := Scalar.indexCast v353
  ![38, v570.toNat]

def k0_chk76 (v368 : IVec S16 32) (v572 : IVec S16 32) : Prop :=
  (∀ a x, ((![v572, v368] : Fin 2 → IVec S16 32) a x).toNat < S64x16.size a)
instance k0_chk76.dec : ∀ (v368 : IVec S16 32) (v572 : IVec S16 32), Decidable (k0_chk76 v368 v572) := fun v368 v572 => decidable_of_iff' _ (Iff.of_eq (k0_chk76.eq_1 v368 v572))
theorem k0_idx76_inb : ∀ (v368 : IVec S16 32) (v572 : IVec S16 32) (k0_hw76 : k0_chk76 v368 v572), ∀ a x, ((![v572, v368] : Fin 2 → IVec S16 32) a x).toNat < S64x16.size a := fun v368 v572 k0_hw76 => k0_hw76
def k0_off45 (k0_t1 : Fin k0_t1_loop.trips) : Fin 2 → Nat :=
  let c39_i32_304 : BitVec 32 := 39#32
  let v574 : Index := Scalar.indexCast c39_i32_304
  let c0_i32_228 : BitVec 32 := 0#32
  let c1_i32_229 : BitVec 32 := 1#32
  let arg19 : BitVec 32 := Scf.iv c0_i32_228 c1_i32_229 k0_t1
  let c16_i32_247 : BitVec 32 := 16#32
  let v353 : BitVec 32 := Scalar.muli arg19 c16_i32_247
  let v575 : Index := Scalar.indexCast v353
  ![39, v575.toNat]

def k0_chk77 (v368 : IVec S16 32) (v577 : IVec S16 32) : Prop :=
  (∀ a x, ((![v577, v368] : Fin 2 → IVec S16 32) a x).toNat < S64x16.size a)
instance k0_chk77.dec : ∀ (v368 : IVec S16 32) (v577 : IVec S16 32), Decidable (k0_chk77 v368 v577) := fun v368 v577 => decidable_of_iff' _ (Iff.of_eq (k0_chk77.eq_1 v368 v577))
theorem k0_idx77_inb : ∀ (v368 : IVec S16 32) (v577 : IVec S16 32) (k0_hw77 : k0_chk77 v368 v577), ∀ a x, ((![v577, v368] : Fin 2 → IVec S16 32) a x).toNat < S64x16.size a := fun v368 v577 k0_hw77 => k0_hw77
def k0_off46 (k0_t1 : Fin k0_t1_loop.trips) : Fin 2 → Nat :=
  let c40_i32_305 : BitVec 32 := 40#32
  let v579 : Index := Scalar.indexCast c40_i32_305
  let c0_i32_228 : BitVec 32 := 0#32
  let c1_i32_229 : BitVec 32 := 1#32
  let arg19 : BitVec 32 := Scf.iv c0_i32_228 c1_i32_229 k0_t1
  let c16_i32_247 : BitVec 32 := 16#32
  let v353 : BitVec 32 := Scalar.muli arg19 c16_i32_247
  let v580 : Index := Scalar.indexCast v353
  ![40, v580.toNat]

def k0_chk78 (v368 : IVec S16 32) (v582 : IVec S16 32) : Prop :=
  (∀ a x, ((![v582, v368] : Fin 2 → IVec S16 32) a x).toNat < S64x16.size a)
instance k0_chk78.dec : ∀ (v368 : IVec S16 32) (v582 : IVec S16 32), Decidable (k0_chk78 v368 v582) := fun v368 v582 => decidable_of_iff' _ (Iff.of_eq (k0_chk78.eq_1 v368 v582))
theorem k0_idx78_inb : ∀ (v368 : IVec S16 32) (v582 : IVec S16 32) (k0_hw78 : k0_chk78 v368 v582), ∀ a x, ((![v582, v368] : Fin 2 → IVec S16 32) a x).toNat < S64x16.size a := fun v368 v582 k0_hw78 => k0_hw78
def k0_off47 (k0_t1 : Fin k0_t1_loop.trips) : Fin 2 → Nat :=
  let c41_i32_306 : BitVec 32 := 41#32
  let v584 : Index := Scalar.indexCast c41_i32_306
  let c0_i32_228 : BitVec 32 := 0#32
  let c1_i32_229 : BitVec 32 := 1#32
  let arg19 : BitVec 32 := Scf.iv c0_i32_228 c1_i32_229 k0_t1
  let c16_i32_247 : BitVec 32 := 16#32
  let v353 : BitVec 32 := Scalar.muli arg19 c16_i32_247
  let v585 : Index := Scalar.indexCast v353
  ![41, v585.toNat]

def k0_chk79 (v368 : IVec S16 32) (v587 : IVec S16 32) : Prop :=
  (∀ a x, ((![v587, v368] : Fin 2 → IVec S16 32) a x).toNat < S64x16.size a)
instance k0_chk79.dec : ∀ (v368 : IVec S16 32) (v587 : IVec S16 32), Decidable (k0_chk79 v368 v587) := fun v368 v587 => decidable_of_iff' _ (Iff.of_eq (k0_chk79.eq_1 v368 v587))
theorem k0_idx79_inb : ∀ (v368 : IVec S16 32) (v587 : IVec S16 32) (k0_hw79 : k0_chk79 v368 v587), ∀ a x, ((![v587, v368] : Fin 2 → IVec S16 32) a x).toNat < S64x16.size a := fun v368 v587 k0_hw79 => k0_hw79
def k0_off48 (k0_t1 : Fin k0_t1_loop.trips) : Fin 2 → Nat :=
  let c42_i32_307 : BitVec 32 := 42#32
  let v589 : Index := Scalar.indexCast c42_i32_307
  let c0_i32_228 : BitVec 32 := 0#32
  let c1_i32_229 : BitVec 32 := 1#32
  let arg19 : BitVec 32 := Scf.iv c0_i32_228 c1_i32_229 k0_t1
  let c16_i32_247 : BitVec 32 := 16#32
  let v353 : BitVec 32 := Scalar.muli arg19 c16_i32_247
  let v590 : Index := Scalar.indexCast v353
  ![42, v590.toNat]

def k0_chk80 (v368 : IVec S16 32) (v592 : IVec S16 32) : Prop :=
  (∀ a x, ((![v592, v368] : Fin 2 → IVec S16 32) a x).toNat < S64x16.size a)
instance k0_chk80.dec : ∀ (v368 : IVec S16 32) (v592 : IVec S16 32), Decidable (k0_chk80 v368 v592) := fun v368 v592 => decidable_of_iff' _ (Iff.of_eq (k0_chk80.eq_1 v368 v592))
theorem k0_idx80_inb : ∀ (v368 : IVec S16 32) (v592 : IVec S16 32) (k0_hw80 : k0_chk80 v368 v592), ∀ a x, ((![v592, v368] : Fin 2 → IVec S16 32) a x).toNat < S64x16.size a := fun v368 v592 k0_hw80 => k0_hw80
def k0_off49 (k0_t1 : Fin k0_t1_loop.trips) : Fin 2 → Nat :=
  let c43_i32_308 : BitVec 32 := 43#32
  let v594 : Index := Scalar.indexCast c43_i32_308
  let c0_i32_228 : BitVec 32 := 0#32
  let c1_i32_229 : BitVec 32 := 1#32
  let arg19 : BitVec 32 := Scf.iv c0_i32_228 c1_i32_229 k0_t1
  let c16_i32_247 : BitVec 32 := 16#32
  let v353 : BitVec 32 := Scalar.muli arg19 c16_i32_247
  let v595 : Index := Scalar.indexCast v353
  ![43, v595.toNat]

def k0_chk81 (v368 : IVec S16 32) (v597 : IVec S16 32) : Prop :=
  (∀ a x, ((![v597, v368] : Fin 2 → IVec S16 32) a x).toNat < S64x16.size a)
instance k0_chk81.dec : ∀ (v368 : IVec S16 32) (v597 : IVec S16 32), Decidable (k0_chk81 v368 v597) := fun v368 v597 => decidable_of_iff' _ (Iff.of_eq (k0_chk81.eq_1 v368 v597))
theorem k0_idx81_inb : ∀ (v368 : IVec S16 32) (v597 : IVec S16 32) (k0_hw81 : k0_chk81 v368 v597), ∀ a x, ((![v597, v368] : Fin 2 → IVec S16 32) a x).toNat < S64x16.size a := fun v368 v597 k0_hw81 => k0_hw81
def k0_off50 (k0_t1 : Fin k0_t1_loop.trips) : Fin 2 → Nat :=
  let c44_i32_310 : BitVec 32 := 44#32
  let v599 : Index := Scalar.indexCast c44_i32_310
  let c0_i32_228 : BitVec 32 := 0#32
  let c1_i32_229 : BitVec 32 := 1#32
  let arg19 : BitVec 32 := Scf.iv c0_i32_228 c1_i32_229 k0_t1
  let c16_i32_247 : BitVec 32 := 16#32
  let v353 : BitVec 32 := Scalar.muli arg19 c16_i32_247
  let v600 : Index := Scalar.indexCast v353
  ![44, v600.toNat]

def k0_chk82 (v368 : IVec S16 32) (v602 : IVec S16 32) : Prop :=
  (∀ a x, ((![v602, v368] : Fin 2 → IVec S16 32) a x).toNat < S64x16.size a)
instance k0_chk82.dec : ∀ (v368 : IVec S16 32) (v602 : IVec S16 32), Decidable (k0_chk82 v368 v602) := fun v368 v602 => decidable_of_iff' _ (Iff.of_eq (k0_chk82.eq_1 v368 v602))
theorem k0_idx82_inb : ∀ (v368 : IVec S16 32) (v602 : IVec S16 32) (k0_hw82 : k0_chk82 v368 v602), ∀ a x, ((![v602, v368] : Fin 2 → IVec S16 32) a x).toNat < S64x16.size a := fun v368 v602 k0_hw82 => k0_hw82
def k0_off51 (k0_t1 : Fin k0_t1_loop.trips) : Fin 2 → Nat :=
  let c45_i32_311 : BitVec 32 := 45#32
  let v604 : Index := Scalar.indexCast c45_i32_311
  let c0_i32_228 : BitVec 32 := 0#32
  let c1_i32_229 : BitVec 32 := 1#32
  let arg19 : BitVec 32 := Scf.iv c0_i32_228 c1_i32_229 k0_t1
  let c16_i32_247 : BitVec 32 := 16#32
  let v353 : BitVec 32 := Scalar.muli arg19 c16_i32_247
  let v605 : Index := Scalar.indexCast v353
  ![45, v605.toNat]

def k0_chk83 (v368 : IVec S16 32) (v607 : IVec S16 32) : Prop :=
  (∀ a x, ((![v607, v368] : Fin 2 → IVec S16 32) a x).toNat < S64x16.size a)
instance k0_chk83.dec : ∀ (v368 : IVec S16 32) (v607 : IVec S16 32), Decidable (k0_chk83 v368 v607) := fun v368 v607 => decidable_of_iff' _ (Iff.of_eq (k0_chk83.eq_1 v368 v607))
theorem k0_idx83_inb : ∀ (v368 : IVec S16 32) (v607 : IVec S16 32) (k0_hw83 : k0_chk83 v368 v607), ∀ a x, ((![v607, v368] : Fin 2 → IVec S16 32) a x).toNat < S64x16.size a := fun v368 v607 k0_hw83 => k0_hw83
def k0_off52 (k0_t1 : Fin k0_t1_loop.trips) : Fin 2 → Nat :=
  let c46_i32_312 : BitVec 32 := 46#32
  let v609 : Index := Scalar.indexCast c46_i32_312
  let c0_i32_228 : BitVec 32 := 0#32
  let c1_i32_229 : BitVec 32 := 1#32
  let arg19 : BitVec 32 := Scf.iv c0_i32_228 c1_i32_229 k0_t1
  let c16_i32_247 : BitVec 32 := 16#32
  let v353 : BitVec 32 := Scalar.muli arg19 c16_i32_247
  let v610 : Index := Scalar.indexCast v353
  ![46, v610.toNat]

def k0_chk84 (v368 : IVec S16 32) (v612 : IVec S16 32) : Prop :=
  (∀ a x, ((![v612, v368] : Fin 2 → IVec S16 32) a x).toNat < S64x16.size a)
instance k0_chk84.dec : ∀ (v368 : IVec S16 32) (v612 : IVec S16 32), Decidable (k0_chk84 v368 v612) := fun v368 v612 => decidable_of_iff' _ (Iff.of_eq (k0_chk84.eq_1 v368 v612))
theorem k0_idx84_inb : ∀ (v368 : IVec S16 32) (v612 : IVec S16 32) (k0_hw84 : k0_chk84 v368 v612), ∀ a x, ((![v612, v368] : Fin 2 → IVec S16 32) a x).toNat < S64x16.size a := fun v368 v612 k0_hw84 => k0_hw84
def k0_off53 (k0_t1 : Fin k0_t1_loop.trips) : Fin 2 → Nat :=
  let c47_i32_313 : BitVec 32 := 47#32
  let v614 : Index := Scalar.indexCast c47_i32_313
  let c0_i32_228 : BitVec 32 := 0#32
  let c1_i32_229 : BitVec 32 := 1#32
  let arg19 : BitVec 32 := Scf.iv c0_i32_228 c1_i32_229 k0_t1
  let c16_i32_247 : BitVec 32 := 16#32
  let v353 : BitVec 32 := Scalar.muli arg19 c16_i32_247
  let v615 : Index := Scalar.indexCast v353
  ![47, v615.toNat]

def k0_chk85 (v368 : IVec S16 32) (v617 : IVec S16 32) : Prop :=
  (∀ a x, ((![v617, v368] : Fin 2 → IVec S16 32) a x).toNat < S64x16.size a)
instance k0_chk85.dec : ∀ (v368 : IVec S16 32) (v617 : IVec S16 32), Decidable (k0_chk85 v368 v617) := fun v368 v617 => decidable_of_iff' _ (Iff.of_eq (k0_chk85.eq_1 v368 v617))
theorem k0_idx85_inb : ∀ (v368 : IVec S16 32) (v617 : IVec S16 32) (k0_hw85 : k0_chk85 v368 v617), ∀ a x, ((![v617, v368] : Fin 2 → IVec S16 32) a x).toNat < S64x16.size a := fun v368 v617 k0_hw85 => k0_hw85
def k0_off54 (k0_t1 : Fin k0_t1_loop.trips) : Fin 2 → Nat :=
  let c48_i32_314 : BitVec 32 := 48#32
  let v619 : Index := Scalar.indexCast c48_i32_314
  let c0_i32_228 : BitVec 32 := 0#32
  let c1_i32_229 : BitVec 32 := 1#32
  let arg19 : BitVec 32 := Scf.iv c0_i32_228 c1_i32_229 k0_t1
  let c16_i32_247 : BitVec 32 := 16#32
  let v353 : BitVec 32 := Scalar.muli arg19 c16_i32_247
  let v620 : Index := Scalar.indexCast v353
  ![48, v620.toNat]

def k0_chk86 (v368 : IVec S16 32) (v622 : IVec S16 32) : Prop :=
  (∀ a x, ((![v622, v368] : Fin 2 → IVec S16 32) a x).toNat < S64x16.size a)
instance k0_chk86.dec : ∀ (v368 : IVec S16 32) (v622 : IVec S16 32), Decidable (k0_chk86 v368 v622) := fun v368 v622 => decidable_of_iff' _ (Iff.of_eq (k0_chk86.eq_1 v368 v622))
theorem k0_idx86_inb : ∀ (v368 : IVec S16 32) (v622 : IVec S16 32) (k0_hw86 : k0_chk86 v368 v622), ∀ a x, ((![v622, v368] : Fin 2 → IVec S16 32) a x).toNat < S64x16.size a := fun v368 v622 k0_hw86 => k0_hw86
def k0_off55 (k0_t1 : Fin k0_t1_loop.trips) : Fin 2 → Nat :=
  let c49_i32_315 : BitVec 32 := 49#32
  let v624 : Index := Scalar.indexCast c49_i32_315
  let c0_i32_228 : BitVec 32 := 0#32
  let c1_i32_229 : BitVec 32 := 1#32
  let arg19 : BitVec 32 := Scf.iv c0_i32_228 c1_i32_229 k0_t1
  let c16_i32_247 : BitVec 32 := 16#32
  let v353 : BitVec 32 := Scalar.muli arg19 c16_i32_247
  let v625 : Index := Scalar.indexCast v353
  ![49, v625.toNat]

def k0_chk87 (v368 : IVec S16 32) (v627 : IVec S16 32) : Prop :=
  (∀ a x, ((![v627, v368] : Fin 2 → IVec S16 32) a x).toNat < S64x16.size a)
instance k0_chk87.dec : ∀ (v368 : IVec S16 32) (v627 : IVec S16 32), Decidable (k0_chk87 v368 v627) := fun v368 v627 => decidable_of_iff' _ (Iff.of_eq (k0_chk87.eq_1 v368 v627))
theorem k0_idx87_inb : ∀ (v368 : IVec S16 32) (v627 : IVec S16 32) (k0_hw87 : k0_chk87 v368 v627), ∀ a x, ((![v627, v368] : Fin 2 → IVec S16 32) a x).toNat < S64x16.size a := fun v368 v627 k0_hw87 => k0_hw87
def k0_off56 (k0_t1 : Fin k0_t1_loop.trips) : Fin 2 → Nat :=
  let c50_i32_316 : BitVec 32 := 50#32
  let v629 : Index := Scalar.indexCast c50_i32_316
  let c0_i32_228 : BitVec 32 := 0#32
  let c1_i32_229 : BitVec 32 := 1#32
  let arg19 : BitVec 32 := Scf.iv c0_i32_228 c1_i32_229 k0_t1
  let c16_i32_247 : BitVec 32 := 16#32
  let v353 : BitVec 32 := Scalar.muli arg19 c16_i32_247
  let v630 : Index := Scalar.indexCast v353
  ![50, v630.toNat]

def k0_chk88 (v368 : IVec S16 32) (v632 : IVec S16 32) : Prop :=
  (∀ a x, ((![v632, v368] : Fin 2 → IVec S16 32) a x).toNat < S64x16.size a)
instance k0_chk88.dec : ∀ (v368 : IVec S16 32) (v632 : IVec S16 32), Decidable (k0_chk88 v368 v632) := fun v368 v632 => decidable_of_iff' _ (Iff.of_eq (k0_chk88.eq_1 v368 v632))
theorem k0_idx88_inb : ∀ (v368 : IVec S16 32) (v632 : IVec S16 32) (k0_hw88 : k0_chk88 v368 v632), ∀ a x, ((![v632, v368] : Fin 2 → IVec S16 32) a x).toNat < S64x16.size a := fun v368 v632 k0_hw88 => k0_hw88
def k0_off57 (k0_t1 : Fin k0_t1_loop.trips) : Fin 2 → Nat :=
  let c51_i32_317 : BitVec 32 := 51#32
  let v634 : Index := Scalar.indexCast c51_i32_317
  let c0_i32_228 : BitVec 32 := 0#32
  let c1_i32_229 : BitVec 32 := 1#32
  let arg19 : BitVec 32 := Scf.iv c0_i32_228 c1_i32_229 k0_t1
  let c16_i32_247 : BitVec 32 := 16#32
  let v353 : BitVec 32 := Scalar.muli arg19 c16_i32_247
  let v635 : Index := Scalar.indexCast v353
  ![51, v635.toNat]

def k0_chk89 (v368 : IVec S16 32) (v637 : IVec S16 32) : Prop :=
  (∀ a x, ((![v637, v368] : Fin 2 → IVec S16 32) a x).toNat < S64x16.size a)
instance k0_chk89.dec : ∀ (v368 : IVec S16 32) (v637 : IVec S16 32), Decidable (k0_chk89 v368 v637) := fun v368 v637 => decidable_of_iff' _ (Iff.of_eq (k0_chk89.eq_1 v368 v637))
theorem k0_idx89_inb : ∀ (v368 : IVec S16 32) (v637 : IVec S16 32) (k0_hw89 : k0_chk89 v368 v637), ∀ a x, ((![v637, v368] : Fin 2 → IVec S16 32) a x).toNat < S64x16.size a := fun v368 v637 k0_hw89 => k0_hw89
def k0_off58 (k0_t1 : Fin k0_t1_loop.trips) : Fin 2 → Nat :=
  let c52_i32_318 : BitVec 32 := 52#32
  let v639 : Index := Scalar.indexCast c52_i32_318
  let c0_i32_228 : BitVec 32 := 0#32
  let c1_i32_229 : BitVec 32 := 1#32
  let arg19 : BitVec 32 := Scf.iv c0_i32_228 c1_i32_229 k0_t1
  let c16_i32_247 : BitVec 32 := 16#32
  let v353 : BitVec 32 := Scalar.muli arg19 c16_i32_247
  let v640 : Index := Scalar.indexCast v353
  ![52, v640.toNat]

def k0_chk90 (v368 : IVec S16 32) (v642 : IVec S16 32) : Prop :=
  (∀ a x, ((![v642, v368] : Fin 2 → IVec S16 32) a x).toNat < S64x16.size a)
instance k0_chk90.dec : ∀ (v368 : IVec S16 32) (v642 : IVec S16 32), Decidable (k0_chk90 v368 v642) := fun v368 v642 => decidable_of_iff' _ (Iff.of_eq (k0_chk90.eq_1 v368 v642))
theorem k0_idx90_inb : ∀ (v368 : IVec S16 32) (v642 : IVec S16 32) (k0_hw90 : k0_chk90 v368 v642), ∀ a x, ((![v642, v368] : Fin 2 → IVec S16 32) a x).toNat < S64x16.size a := fun v368 v642 k0_hw90 => k0_hw90
def k0_off59 (k0_t1 : Fin k0_t1_loop.trips) : Fin 2 → Nat :=
  let c53_i32_319 : BitVec 32 := 53#32
  let v644 : Index := Scalar.indexCast c53_i32_319
  let c0_i32_228 : BitVec 32 := 0#32
  let c1_i32_229 : BitVec 32 := 1#32
  let arg19 : BitVec 32 := Scf.iv c0_i32_228 c1_i32_229 k0_t1
  let c16_i32_247 : BitVec 32 := 16#32
  let v353 : BitVec 32 := Scalar.muli arg19 c16_i32_247
  let v645 : Index := Scalar.indexCast v353
  ![53, v645.toNat]

def k0_chk91 (v368 : IVec S16 32) (v647 : IVec S16 32) : Prop :=
  (∀ a x, ((![v647, v368] : Fin 2 → IVec S16 32) a x).toNat < S64x16.size a)
instance k0_chk91.dec : ∀ (v368 : IVec S16 32) (v647 : IVec S16 32), Decidable (k0_chk91 v368 v647) := fun v368 v647 => decidable_of_iff' _ (Iff.of_eq (k0_chk91.eq_1 v368 v647))
theorem k0_idx91_inb : ∀ (v368 : IVec S16 32) (v647 : IVec S16 32) (k0_hw91 : k0_chk91 v368 v647), ∀ a x, ((![v647, v368] : Fin 2 → IVec S16 32) a x).toNat < S64x16.size a := fun v368 v647 k0_hw91 => k0_hw91
def k0_off60 (k0_t1 : Fin k0_t1_loop.trips) : Fin 2 → Nat :=
  let c54_i32_320 : BitVec 32 := 54#32
  let v649 : Index := Scalar.indexCast c54_i32_320
  let c0_i32_228 : BitVec 32 := 0#32
  let c1_i32_229 : BitVec 32 := 1#32
  let arg19 : BitVec 32 := Scf.iv c0_i32_228 c1_i32_229 k0_t1
  let c16_i32_247 : BitVec 32 := 16#32
  let v353 : BitVec 32 := Scalar.muli arg19 c16_i32_247
  let v650 : Index := Scalar.indexCast v353
  ![54, v650.toNat]

def k0_chk92 (v368 : IVec S16 32) (v652 : IVec S16 32) : Prop :=
  (∀ a x, ((![v652, v368] : Fin 2 → IVec S16 32) a x).toNat < S64x16.size a)
instance k0_chk92.dec : ∀ (v368 : IVec S16 32) (v652 : IVec S16 32), Decidable (k0_chk92 v368 v652) := fun v368 v652 => decidable_of_iff' _ (Iff.of_eq (k0_chk92.eq_1 v368 v652))
theorem k0_idx92_inb : ∀ (v368 : IVec S16 32) (v652 : IVec S16 32) (k0_hw92 : k0_chk92 v368 v652), ∀ a x, ((![v652, v368] : Fin 2 → IVec S16 32) a x).toNat < S64x16.size a := fun v368 v652 k0_hw92 => k0_hw92
def k0_off61 (k0_t1 : Fin k0_t1_loop.trips) : Fin 2 → Nat :=
  let c55_i32_321 : BitVec 32 := 55#32
  let v654 : Index := Scalar.indexCast c55_i32_321
  let c0_i32_228 : BitVec 32 := 0#32
  let c1_i32_229 : BitVec 32 := 1#32
  let arg19 : BitVec 32 := Scf.iv c0_i32_228 c1_i32_229 k0_t1
  let c16_i32_247 : BitVec 32 := 16#32
  let v353 : BitVec 32 := Scalar.muli arg19 c16_i32_247
  let v655 : Index := Scalar.indexCast v353
  ![55, v655.toNat]

def k0_chk93 (v368 : IVec S16 32) (v657 : IVec S16 32) : Prop :=
  (∀ a x, ((![v657, v368] : Fin 2 → IVec S16 32) a x).toNat < S64x16.size a)
instance k0_chk93.dec : ∀ (v368 : IVec S16 32) (v657 : IVec S16 32), Decidable (k0_chk93 v368 v657) := fun v368 v657 => decidable_of_iff' _ (Iff.of_eq (k0_chk93.eq_1 v368 v657))
theorem k0_idx93_inb : ∀ (v368 : IVec S16 32) (v657 : IVec S16 32) (k0_hw93 : k0_chk93 v368 v657), ∀ a x, ((![v657, v368] : Fin 2 → IVec S16 32) a x).toNat < S64x16.size a := fun v368 v657 k0_hw93 => k0_hw93
def k0_off62 (k0_t1 : Fin k0_t1_loop.trips) : Fin 2 → Nat :=
  let c56_i32_322 : BitVec 32 := 56#32
  let v659 : Index := Scalar.indexCast c56_i32_322
  let c0_i32_228 : BitVec 32 := 0#32
  let c1_i32_229 : BitVec 32 := 1#32
  let arg19 : BitVec 32 := Scf.iv c0_i32_228 c1_i32_229 k0_t1
  let c16_i32_247 : BitVec 32 := 16#32
  let v353 : BitVec 32 := Scalar.muli arg19 c16_i32_247
  let v660 : Index := Scalar.indexCast v353
  ![56, v660.toNat]

def k0_chk94 (v368 : IVec S16 32) (v662 : IVec S16 32) : Prop :=
  (∀ a x, ((![v662, v368] : Fin 2 → IVec S16 32) a x).toNat < S64x16.size a)
instance k0_chk94.dec : ∀ (v368 : IVec S16 32) (v662 : IVec S16 32), Decidable (k0_chk94 v368 v662) := fun v368 v662 => decidable_of_iff' _ (Iff.of_eq (k0_chk94.eq_1 v368 v662))
theorem k0_idx94_inb : ∀ (v368 : IVec S16 32) (v662 : IVec S16 32) (k0_hw94 : k0_chk94 v368 v662), ∀ a x, ((![v662, v368] : Fin 2 → IVec S16 32) a x).toNat < S64x16.size a := fun v368 v662 k0_hw94 => k0_hw94
def k0_off63 (k0_t1 : Fin k0_t1_loop.trips) : Fin 2 → Nat :=
  let c57_i32_323 : BitVec 32 := 57#32
  let v664 : Index := Scalar.indexCast c57_i32_323
  let c0_i32_228 : BitVec 32 := 0#32
  let c1_i32_229 : BitVec 32 := 1#32
  let arg19 : BitVec 32 := Scf.iv c0_i32_228 c1_i32_229 k0_t1
  let c16_i32_247 : BitVec 32 := 16#32
  let v353 : BitVec 32 := Scalar.muli arg19 c16_i32_247
  let v665 : Index := Scalar.indexCast v353
  ![57, v665.toNat]

def k0_chk95 (v368 : IVec S16 32) (v667 : IVec S16 32) : Prop :=
  (∀ a x, ((![v667, v368] : Fin 2 → IVec S16 32) a x).toNat < S64x16.size a)
instance k0_chk95.dec : ∀ (v368 : IVec S16 32) (v667 : IVec S16 32), Decidable (k0_chk95 v368 v667) := fun v368 v667 => decidable_of_iff' _ (Iff.of_eq (k0_chk95.eq_1 v368 v667))
theorem k0_idx95_inb : ∀ (v368 : IVec S16 32) (v667 : IVec S16 32) (k0_hw95 : k0_chk95 v368 v667), ∀ a x, ((![v667, v368] : Fin 2 → IVec S16 32) a x).toNat < S64x16.size a := fun v368 v667 k0_hw95 => k0_hw95
def k0_off64 (k0_t1 : Fin k0_t1_loop.trips) : Fin 2 → Nat :=
  let c58_i32_324 : BitVec 32 := 58#32
  let v669 : Index := Scalar.indexCast c58_i32_324
  let c0_i32_228 : BitVec 32 := 0#32
  let c1_i32_229 : BitVec 32 := 1#32
  let arg19 : BitVec 32 := Scf.iv c0_i32_228 c1_i32_229 k0_t1
  let c16_i32_247 : BitVec 32 := 16#32
  let v353 : BitVec 32 := Scalar.muli arg19 c16_i32_247
  let v670 : Index := Scalar.indexCast v353
  ![58, v670.toNat]

def k0_chk96 (v368 : IVec S16 32) (v672 : IVec S16 32) : Prop :=
  (∀ a x, ((![v672, v368] : Fin 2 → IVec S16 32) a x).toNat < S64x16.size a)
instance k0_chk96.dec : ∀ (v368 : IVec S16 32) (v672 : IVec S16 32), Decidable (k0_chk96 v368 v672) := fun v368 v672 => decidable_of_iff' _ (Iff.of_eq (k0_chk96.eq_1 v368 v672))
theorem k0_idx96_inb : ∀ (v368 : IVec S16 32) (v672 : IVec S16 32) (k0_hw96 : k0_chk96 v368 v672), ∀ a x, ((![v672, v368] : Fin 2 → IVec S16 32) a x).toNat < S64x16.size a := fun v368 v672 k0_hw96 => k0_hw96
def k0_off65 (k0_t1 : Fin k0_t1_loop.trips) : Fin 2 → Nat :=
  let c59_i32_325 : BitVec 32 := 59#32
  let v674 : Index := Scalar.indexCast c59_i32_325
  let c0_i32_228 : BitVec 32 := 0#32
  let c1_i32_229 : BitVec 32 := 1#32
  let arg19 : BitVec 32 := Scf.iv c0_i32_228 c1_i32_229 k0_t1
  let c16_i32_247 : BitVec 32 := 16#32
  let v353 : BitVec 32 := Scalar.muli arg19 c16_i32_247
  let v675 : Index := Scalar.indexCast v353
  ![59, v675.toNat]
def k0_off66 (k0_t1 : Fin k0_t1_loop.trips) : Fin 2 → Nat :=
  let c60_i32_326 : BitVec 32 := 60#32
  let v677 : Index := Scalar.indexCast c60_i32_326
  let c0_i32_228 : BitVec 32 := 0#32
  let c1_i32_229 : BitVec 32 := 1#32
  let arg19 : BitVec 32 := Scf.iv c0_i32_228 c1_i32_229 k0_t1
  let c16_i32_247 : BitVec 32 := 16#32
  let v353 : BitVec 32 := Scalar.muli arg19 c16_i32_247
  let v678 : Index := Scalar.indexCast v353
  ![60, v678.toNat]
def k0_off67 (k0_t1 : Fin k0_t1_loop.trips) : Fin 2 → Nat :=
  let c61_i32_327 : BitVec 32 := 61#32
  let v680 : Index := Scalar.indexCast c61_i32_327
  let c0_i32_228 : BitVec 32 := 0#32
  let c1_i32_229 : BitVec 32 := 1#32
  let arg19 : BitVec 32 := Scf.iv c0_i32_228 c1_i32_229 k0_t1
  let c16_i32_247 : BitVec 32 := 16#32
  let v353 : BitVec 32 := Scalar.muli arg19 c16_i32_247
  let v681 : Index := Scalar.indexCast v353
  ![61, v681.toNat]
def k0_off68 (k0_t1 : Fin k0_t1_loop.trips) : Fin 2 → Nat :=
  let c62_i32_328 : BitVec 32 := 62#32
  let v683 : Index := Scalar.indexCast c62_i32_328
  let c0_i32_228 : BitVec 32 := 0#32
  let c1_i32_229 : BitVec 32 := 1#32
  let arg19 : BitVec 32 := Scf.iv c0_i32_228 c1_i32_229 k0_t1
  let c16_i32_247 : BitVec 32 := 16#32
  let v353 : BitVec 32 := Scalar.muli arg19 c16_i32_247
  let v684 : Index := Scalar.indexCast v353
  ![62, v684.toNat]
def k0_off69 (k0_t1 : Fin k0_t1_loop.trips) : Fin 2 → Nat :=
  let c63_i32_329 : BitVec 32 := 63#32
  let v686 : Index := Scalar.indexCast c63_i32_329
  let c0_i32_228 : BitVec 32 := 0#32
  let c1_i32_229 : BitVec 32 := 1#32
  let arg19 : BitVec 32 := Scf.iv c0_i32_228 c1_i32_229 k0_t1
  let c16_i32_247 : BitVec 32 := 16#32
  let v353 : BitVec 32 := Scalar.muli arg19 c16_i32_247
  let v687 : Index := Scalar.indexCast v353
  ![63, v687.toNat]
def k0_off70 (i : grid0.Coords) : Fin 2 → Nat :=
  let c0_i32_233 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_231 : BitVec 32 := 0#32
  let v343 : BitVec 32 := Scalar.addi v1 c0_i32_231
  let c640_i32_232 : BitVec 32 := 640#32
  let v344 : BitVec 32 := Scalar.muli v343 c640_i32_232
  ![0, v344.toNat]
@[reducible] def k0_t2_loop : Scf.Loop 32 :=
  let c0_i32_236 : BitVec 32 := 0#32
  let c20_i32 : BitVec 32 := 20#32
  let v347 : BitVec 32 := Scalar.addi c0_i32_236 c20_i32
  let c1_i32_237 : BitVec 32 := 1#32
  ⟨c0_i32_236, v347, c1_i32_237⟩
def k0_cond2 (i : grid0.Coords) (k0_t2 : Fin k0_t2_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_247 : BitVec 32 := 2#32
  let c0_i32_236 : BitVec 32 := 0#32
  let c1_i32_237 : BitVec 32 := 1#32
  let arg19 : BitVec 32 := Scf.iv c0_i32_236 c1_i32_237 k0_t2
  let v353 : BitVec 32 := Scalar.muli c2_i32_247 arg19
  let c1_i32_248 : BitVec 32 := 1#32
  let v354 : BitVec 32 := Scalar.addi v353 c1_i32_248
  let c0_i32_249 : BitVec 32 := 0#32
  let v355 : BitVec 32 := Scalar.addi v354 c0_i32_249
  let c32_i32_250 : BitVec 32 := 32#32
  let v356 : BitVec 32 := Scalar.muli v355 c32_i32_250
  let v357 : BitVec 32 := Scalar.addi v1 v356
  let c1250_i32_251 : BitVec 32 := 1250#32
  let v358 : BitVec 1 := Scalar.cmpi .slt v357 c1250_i32_251
  let v359 : BitVec 32 := Scalar.extui v358
  let c0_i32_252 : BitVec 32 := 0#32
  let v360 : BitVec 1 := Scalar.cmpi .ne v359 c0_i32_252
  v360

def k0_cond3 (i : grid0.Coords) (k0_t2 : Fin k0_t2_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_247 : BitVec 32 := 2#32
  let c0_i32_236 : BitVec 32 := 0#32
  let c1_i32_237 : BitVec 32 := 1#32
  let arg19 : BitVec 32 := Scf.iv c0_i32_236 c1_i32_237 k0_t2
  let v353 : BitVec 32 := Scalar.muli c2_i32_247 arg19
  let c1_i32_248 : BitVec 32 := 1#32
  let v354 : BitVec 32 := Scalar.addi v353 c1_i32_248
  let c0_i32_249 : BitVec 32 := 0#32
  let v355 : BitVec 32 := Scalar.addi v354 c0_i32_249
  let c1_i32_260 : BitVec 32 := 1#32
  let v369 : BitVec 32 := Scalar.addi v355 c1_i32_260
  let c32_i32_261 : BitVec 32 := 32#32
  let v370 : BitVec 32 := Scalar.muli v369 c32_i32_261
  let v371 : BitVec 32 := Scalar.addi v1 v370
  let c1250_i32_262 : BitVec 32 := 1250#32
  let v372 : BitVec 1 := Scalar.cmpi .slt v371 c1250_i32_262
  let v373 : BitVec 32 := Scalar.extui v372
  let c0_i32_263 : BitVec 32 := 0#32
  let v374 : BitVec 1 := Scalar.cmpi .ne v373 c0_i32_263
  v374

def k0_off71 (i : grid0.Coords) (k0_t2 : Fin k0_t2_loop.trips) : Fin 2 → Nat :=
  let c0_i32_282 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_247 : BitVec 32 := 2#32
  let c0_i32_236 : BitVec 32 := 0#32
  let c1_i32_237 : BitVec 32 := 1#32
  let arg19 : BitVec 32 := Scf.iv c0_i32_236 c1_i32_237 k0_t2
  let v353 : BitVec 32 := Scalar.muli c2_i32_247 arg19
  let c1_i32_248 : BitVec 32 := 1#32
  let v354 : BitVec 32 := Scalar.addi v353 c1_i32_248
  let c0_i32_249 : BitVec 32 := 0#32
  let v355 : BitVec 32 := Scalar.addi v354 c0_i32_249
  let c1_i32_279 : BitVec 32 := 1#32
  let v387 : BitVec 32 := Scalar.addi v355 c1_i32_279
  let c32_i32_280 : BitVec 32 := 32#32
  let v388 : BitVec 32 := Scalar.muli v387 c32_i32_280
  let v389 : BitVec 32 := Scalar.addi v1 v388
  let c640_i32_281 : BitVec 32 := 640#32
  let v390 : BitVec 32 := Scalar.muli v389 c640_i32_281
  ![0, v390.toNat]
@[reducible] def k0_t3_loop : Scf.Loop 32 :=
  let c0_i32_271 : BitVec 32 := 0#32
  let c40_i32_272 : BitVec 32 := 40#32
  let v380 : BitVec 32 := Scalar.addi c0_i32_271 c40_i32_272
  let c1_i32_273 : BitVec 32 := 1#32
  ⟨c0_i32_271, v380, c1_i32_273⟩
def k0_off72 (k0_t3 : Fin k0_t3_loop.trips) : Fin 2 → Nat :=
  let c0_i32_280 : BitVec 32 := 0#32
  let v388 : Index := Scalar.indexCast c0_i32_280
  let c0_i32_271 : BitVec 32 := 0#32
  let c1_i32_273 : BitVec 32 := 1#32
  let arg21 : BitVec 32 := Scf.iv c0_i32_271 c1_i32_273 k0_t3
  let c16_i32_279 : BitVec 32 := 16#32
  let v387 : BitVec 32 := Scalar.muli arg21 c16_i32_279
  let v389 : Index := Scalar.indexCast v387
  ![0, v389.toNat]
def k0_off73 (k0_t3 : Fin k0_t3_loop.trips) : Fin 2 → Nat :=
  let c1_i32_281 : BitVec 32 := 1#32
  let v391 : Index := Scalar.indexCast c1_i32_281
  let c0_i32_271 : BitVec 32 := 0#32
  let c1_i32_273 : BitVec 32 := 1#32
  let arg21 : BitVec 32 := Scf.iv c0_i32_271 c1_i32_273 k0_t3
  let c16_i32_279 : BitVec 32 := 16#32
  let v387 : BitVec 32 := Scalar.muli arg21 c16_i32_279
  let v392 : Index := Scalar.indexCast v387
  ![1, v392.toNat]
def k0_off74 (k0_t3 : Fin k0_t3_loop.trips) : Fin 2 → Nat :=
  let c2_i32_282 : BitVec 32 := 2#32
  let v394 : Index := Scalar.indexCast c2_i32_282
  let c0_i32_271 : BitVec 32 := 0#32
  let c1_i32_273 : BitVec 32 := 1#32
  let arg21 : BitVec 32 := Scf.iv c0_i32_271 c1_i32_273 k0_t3
  let c16_i32_279 : BitVec 32 := 16#32
  let v387 : BitVec 32 := Scalar.muli arg21 c16_i32_279
  let v395 : Index := Scalar.indexCast v387
  ![2, v395.toNat]

def k0_chk97 (i : grid0.Coords) (k0_t2 : Fin k0_t2_loop.trips) (v402 : IVec S16 32) (v403 : IVec S16 32) : Prop :=
  (∀ (k0_h2 : k0_cond2 i k0_t2 = 1#1), ∀ a x, ((![v403, v402] : Fin 2 → IVec S16 32) a x).toNat < S64x16.size a)
instance k0_chk97.dec : ∀ (i : grid0.Coords) (k0_t2 : Fin k0_t2_loop.trips) (v402 : IVec S16 32) (v403 : IVec S16 32), Decidable (k0_chk97 i k0_t2 v402 v403) := fun i k0_t2 v402 v403 => decidable_of_iff' _ (Iff.of_eq (k0_chk97.eq_1 i k0_t2 v402 v403))
theorem k0_idx97_inb : ∀ (i : grid0.Coords) (k0_t2 : Fin k0_t2_loop.trips) (v402 : IVec S16 32) (v403 : IVec S16 32) (k0_hw97 : k0_chk97 i k0_t2 v402 v403), ∀ (k0_h2 : k0_cond2 i k0_t2 = 1#1), ∀ a x, ((![v403, v402] : Fin 2 → IVec S16 32) a x).toNat < S64x16.size a := fun i k0_t2 v402 v403 k0_hw97 k0_h2 => k0_hw97 k0_h2

def k0_chk98 (i : grid0.Coords) (k0_t2 : Fin k0_t2_loop.trips) (v402 : IVec S16 32) (v405 : IVec S16 32) : Prop :=
  (∀ (k0_h2 : k0_cond2 i k0_t2 = 1#1), ∀ a x, ((![v405, v402] : Fin 2 → IVec S16 32) a x).toNat < S64x16.size a)
instance k0_chk98.dec : ∀ (i : grid0.Coords) (k0_t2 : Fin k0_t2_loop.trips) (v402 : IVec S16 32) (v405 : IVec S16 32), Decidable (k0_chk98 i k0_t2 v402 v405) := fun i k0_t2 v402 v405 => decidable_of_iff' _ (Iff.of_eq (k0_chk98.eq_1 i k0_t2 v402 v405))
theorem k0_idx98_inb : ∀ (i : grid0.Coords) (k0_t2 : Fin k0_t2_loop.trips) (v402 : IVec S16 32) (v405 : IVec S16 32) (k0_hw98 : k0_chk98 i k0_t2 v402 v405), ∀ (k0_h2 : k0_cond2 i k0_t2 = 1#1), ∀ a x, ((![v405, v402] : Fin 2 → IVec S16 32) a x).toNat < S64x16.size a := fun i k0_t2 v402 v405 k0_hw98 k0_h2 => k0_hw98 k0_h2

def k0_chk99 (i : grid0.Coords) (k0_t2 : Fin k0_t2_loop.trips) (v402 : IVec S16 32) (v407 : IVec S16 32) : Prop :=
  (∀ (k0_h2 : k0_cond2 i k0_t2 = 1#1), ∀ a x, ((![v407, v402] : Fin 2 → IVec S16 32) a x).toNat < S64x16.size a)
instance k0_chk99.dec : ∀ (i : grid0.Coords) (k0_t2 : Fin k0_t2_loop.trips) (v402 : IVec S16 32) (v407 : IVec S16 32), Decidable (k0_chk99 i k0_t2 v402 v407) := fun i k0_t2 v402 v407 => decidable_of_iff' _ (Iff.of_eq (k0_chk99.eq_1 i k0_t2 v402 v407))
theorem k0_idx99_inb : ∀ (i : grid0.Coords) (k0_t2 : Fin k0_t2_loop.trips) (v402 : IVec S16 32) (v407 : IVec S16 32) (k0_hw99 : k0_chk99 i k0_t2 v402 v407), ∀ (k0_h2 : k0_cond2 i k0_t2 = 1#1), ∀ a x, ((![v407, v402] : Fin 2 → IVec S16 32) a x).toNat < S64x16.size a := fun i k0_t2 v402 v407 k0_hw99 k0_h2 => k0_hw99 k0_h2

def k0_chk100 (i : grid0.Coords) (k0_t2 : Fin k0_t2_loop.trips) (v402 : IVec S16 32) (v409 : IVec S16 32) : Prop :=
  (∀ (k0_h2 : k0_cond2 i k0_t2 = 1#1), ∀ a x, ((![v409, v402] : Fin 2 → IVec S16 32) a x).toNat < S64x16.size a)
instance k0_chk100.dec : ∀ (i : grid0.Coords) (k0_t2 : Fin k0_t2_loop.trips) (v402 : IVec S16 32) (v409 : IVec S16 32), Decidable (k0_chk100 i k0_t2 v402 v409) := fun i k0_t2 v402 v409 => decidable_of_iff' _ (Iff.of_eq (k0_chk100.eq_1 i k0_t2 v402 v409))
theorem k0_idx100_inb : ∀ (i : grid0.Coords) (k0_t2 : Fin k0_t2_loop.trips) (v402 : IVec S16 32) (v409 : IVec S16 32) (k0_hw100 : k0_chk100 i k0_t2 v402 v409), ∀ (k0_h2 : k0_cond2 i k0_t2 = 1#1), ∀ a x, ((![v409, v402] : Fin 2 → IVec S16 32) a x).toNat < S64x16.size a := fun i k0_t2 v402 v409 k0_hw100 k0_h2 => k0_hw100 k0_h2

def k0_chk101 (i : grid0.Coords) (k0_t2 : Fin k0_t2_loop.trips) (v402 : IVec S16 32) (v411 : IVec S16 32) : Prop :=
  (∀ (k0_h2 : k0_cond2 i k0_t2 = 1#1), ∀ a x, ((![v411, v402] : Fin 2 → IVec S16 32) a x).toNat < S64x16.size a)
instance k0_chk101.dec : ∀ (i : grid0.Coords) (k0_t2 : Fin k0_t2_loop.trips) (v402 : IVec S16 32) (v411 : IVec S16 32), Decidable (k0_chk101 i k0_t2 v402 v411) := fun i k0_t2 v402 v411 => decidable_of_iff' _ (Iff.of_eq (k0_chk101.eq_1 i k0_t2 v402 v411))
theorem k0_idx101_inb : ∀ (i : grid0.Coords) (k0_t2 : Fin k0_t2_loop.trips) (v402 : IVec S16 32) (v411 : IVec S16 32) (k0_hw101 : k0_chk101 i k0_t2 v402 v411), ∀ (k0_h2 : k0_cond2 i k0_t2 = 1#1), ∀ a x, ((![v411, v402] : Fin 2 → IVec S16 32) a x).toNat < S64x16.size a := fun i k0_t2 v402 v411 k0_hw101 k0_h2 => k0_hw101 k0_h2
def k0_off75 (k0_t3 : Fin k0_t3_loop.trips) : Fin 2 → Nat :=
  let c0_i32_290 : BitVec 32 := 0#32
  let v413 : Index := Scalar.indexCast c0_i32_290
  let c0_i32_271 : BitVec 32 := 0#32
  let c1_i32_273 : BitVec 32 := 1#32
  let arg21 : BitVec 32 := Scf.iv c0_i32_271 c1_i32_273 k0_t3
  let c16_i32_279 : BitVec 32 := 16#32
  let v387 : BitVec 32 := Scalar.muli arg21 c16_i32_279
  let v414 : Index := Scalar.indexCast v387
  ![0, v414.toNat]

def k0_chk102 (i : grid0.Coords) (k0_t2 : Fin k0_t2_loop.trips) (v402 : IVec S16 32) (v416 : IVec S16 32) : Prop :=
  (∀ (k0_h2 : k0_cond2 i k0_t2 = 1#1), ∀ a x, ((![v416, v402] : Fin 2 → IVec S16 32) a x).toNat < S64x16.size a)
instance k0_chk102.dec : ∀ (i : grid0.Coords) (k0_t2 : Fin k0_t2_loop.trips) (v402 : IVec S16 32) (v416 : IVec S16 32), Decidable (k0_chk102 i k0_t2 v402 v416) := fun i k0_t2 v402 v416 => decidable_of_iff' _ (Iff.of_eq (k0_chk102.eq_1 i k0_t2 v402 v416))
theorem k0_idx102_inb : ∀ (i : grid0.Coords) (k0_t2 : Fin k0_t2_loop.trips) (v402 : IVec S16 32) (v416 : IVec S16 32) (k0_hw102 : k0_chk102 i k0_t2 v402 v416), ∀ (k0_h2 : k0_cond2 i k0_t2 = 1#1), ∀ a x, ((![v416, v402] : Fin 2 → IVec S16 32) a x).toNat < S64x16.size a := fun i k0_t2 v402 v416 k0_hw102 k0_h2 => k0_hw102 k0_h2
def k0_off76 (k0_t3 : Fin k0_t3_loop.trips) : Fin 2 → Nat :=
  let c1_i32_292 : BitVec 32 := 1#32
  let v418 : Index := Scalar.indexCast c1_i32_292
  let c0_i32_271 : BitVec 32 := 0#32
  let c1_i32_273 : BitVec 32 := 1#32
  let arg21 : BitVec 32 := Scf.iv c0_i32_271 c1_i32_273 k0_t3
  let c16_i32_279 : BitVec 32 := 16#32
  let v387 : BitVec 32 := Scalar.muli arg21 c16_i32_279
  let v419 : Index := Scalar.indexCast v387
  ![1, v419.toNat]

def k0_chk103 (i : grid0.Coords) (k0_t2 : Fin k0_t2_loop.trips) (v402 : IVec S16 32) (v421 : IVec S16 32) : Prop :=
  (∀ (k0_h2 : k0_cond2 i k0_t2 = 1#1), ∀ a x, ((![v421, v402] : Fin 2 → IVec S16 32) a x).toNat < S64x16.size a)
instance k0_chk103.dec : ∀ (i : grid0.Coords) (k0_t2 : Fin k0_t2_loop.trips) (v402 : IVec S16 32) (v421 : IVec S16 32), Decidable (k0_chk103 i k0_t2 v402 v421) := fun i k0_t2 v402 v421 => decidable_of_iff' _ (Iff.of_eq (k0_chk103.eq_1 i k0_t2 v402 v421))
theorem k0_idx103_inb : ∀ (i : grid0.Coords) (k0_t2 : Fin k0_t2_loop.trips) (v402 : IVec S16 32) (v421 : IVec S16 32) (k0_hw103 : k0_chk103 i k0_t2 v402 v421), ∀ (k0_h2 : k0_cond2 i k0_t2 = 1#1), ∀ a x, ((![v421, v402] : Fin 2 → IVec S16 32) a x).toNat < S64x16.size a := fun i k0_t2 v402 v421 k0_hw103 k0_h2 => k0_hw103 k0_h2
def k0_off77 (k0_t3 : Fin k0_t3_loop.trips) : Fin 2 → Nat :=
  let c2_i32_294 : BitVec 32 := 2#32
  let v423 : Index := Scalar.indexCast c2_i32_294
  let c0_i32_271 : BitVec 32 := 0#32
  let c1_i32_273 : BitVec 32 := 1#32
  let arg21 : BitVec 32 := Scf.iv c0_i32_271 c1_i32_273 k0_t3
  let c16_i32_279 : BitVec 32 := 16#32
  let v387 : BitVec 32 := Scalar.muli arg21 c16_i32_279
  let v424 : Index := Scalar.indexCast v387
  ![2, v424.toNat]

def k0_chk104 (i : grid0.Coords) (k0_t2 : Fin k0_t2_loop.trips) (v402 : IVec S16 32) (v426 : IVec S16 32) : Prop :=
  (∀ (k0_h2 : k0_cond2 i k0_t2 = 1#1), ∀ a x, ((![v426, v402] : Fin 2 → IVec S16 32) a x).toNat < S64x16.size a)
instance k0_chk104.dec : ∀ (i : grid0.Coords) (k0_t2 : Fin k0_t2_loop.trips) (v402 : IVec S16 32) (v426 : IVec S16 32), Decidable (k0_chk104 i k0_t2 v402 v426) := fun i k0_t2 v402 v426 => decidable_of_iff' _ (Iff.of_eq (k0_chk104.eq_1 i k0_t2 v402 v426))
theorem k0_idx104_inb : ∀ (i : grid0.Coords) (k0_t2 : Fin k0_t2_loop.trips) (v402 : IVec S16 32) (v426 : IVec S16 32) (k0_hw104 : k0_chk104 i k0_t2 v402 v426), ∀ (k0_h2 : k0_cond2 i k0_t2 = 1#1), ∀ a x, ((![v426, v402] : Fin 2 → IVec S16 32) a x).toNat < S64x16.size a := fun i k0_t2 v402 v426 k0_hw104 k0_h2 => k0_hw104 k0_h2
def k0_off78 (k0_t3 : Fin k0_t3_loop.trips) : Fin 2 → Nat :=
  let c3_i32_296 : BitVec 32 := 3#32
  let v428 : Index := Scalar.indexCast c3_i32_296
  let c0_i32_271 : BitVec 32 := 0#32
  let c1_i32_273 : BitVec 32 := 1#32
  let arg21 : BitVec 32 := Scf.iv c0_i32_271 c1_i32_273 k0_t3
  let c16_i32_279 : BitVec 32 := 16#32
  let v387 : BitVec 32 := Scalar.muli arg21 c16_i32_279
  let v429 : Index := Scalar.indexCast v387
  ![3, v429.toNat]

def k0_chk105 (i : grid0.Coords) (k0_t2 : Fin k0_t2_loop.trips) (v402 : IVec S16 32) (v431 : IVec S16 32) : Prop :=
  (∀ (k0_h2 : k0_cond2 i k0_t2 = 1#1), ∀ a x, ((![v431, v402] : Fin 2 → IVec S16 32) a x).toNat < S64x16.size a)
instance k0_chk105.dec : ∀ (i : grid0.Coords) (k0_t2 : Fin k0_t2_loop.trips) (v402 : IVec S16 32) (v431 : IVec S16 32), Decidable (k0_chk105 i k0_t2 v402 v431) := fun i k0_t2 v402 v431 => decidable_of_iff' _ (Iff.of_eq (k0_chk105.eq_1 i k0_t2 v402 v431))
theorem k0_idx105_inb : ∀ (i : grid0.Coords) (k0_t2 : Fin k0_t2_loop.trips) (v402 : IVec S16 32) (v431 : IVec S16 32) (k0_hw105 : k0_chk105 i k0_t2 v402 v431), ∀ (k0_h2 : k0_cond2 i k0_t2 = 1#1), ∀ a x, ((![v431, v402] : Fin 2 → IVec S16 32) a x).toNat < S64x16.size a := fun i k0_t2 v402 v431 k0_hw105 k0_h2 => k0_hw105 k0_h2
def k0_off79 (k0_t3 : Fin k0_t3_loop.trips) : Fin 2 → Nat :=
  let c4_i32_297 : BitVec 32 := 4#32
  let v433 : Index := Scalar.indexCast c4_i32_297
  let c0_i32_271 : BitVec 32 := 0#32
  let c1_i32_273 : BitVec 32 := 1#32
  let arg21 : BitVec 32 := Scf.iv c0_i32_271 c1_i32_273 k0_t3
  let c16_i32_279 : BitVec 32 := 16#32
  let v387 : BitVec 32 := Scalar.muli arg21 c16_i32_279
  let v434 : Index := Scalar.indexCast v387
  ![4, v434.toNat]

def k0_chk106 (i : grid0.Coords) (k0_t2 : Fin k0_t2_loop.trips) (v402 : IVec S16 32) (v436 : IVec S16 32) : Prop :=
  (∀ (k0_h2 : k0_cond2 i k0_t2 = 1#1), ∀ a x, ((![v436, v402] : Fin 2 → IVec S16 32) a x).toNat < S64x16.size a)
instance k0_chk106.dec : ∀ (i : grid0.Coords) (k0_t2 : Fin k0_t2_loop.trips) (v402 : IVec S16 32) (v436 : IVec S16 32), Decidable (k0_chk106 i k0_t2 v402 v436) := fun i k0_t2 v402 v436 => decidable_of_iff' _ (Iff.of_eq (k0_chk106.eq_1 i k0_t2 v402 v436))
theorem k0_idx106_inb : ∀ (i : grid0.Coords) (k0_t2 : Fin k0_t2_loop.trips) (v402 : IVec S16 32) (v436 : IVec S16 32) (k0_hw106 : k0_chk106 i k0_t2 v402 v436), ∀ (k0_h2 : k0_cond2 i k0_t2 = 1#1), ∀ a x, ((![v436, v402] : Fin 2 → IVec S16 32) a x).toNat < S64x16.size a := fun i k0_t2 v402 v436 k0_hw106 k0_h2 => k0_hw106 k0_h2
def k0_off80 (k0_t3 : Fin k0_t3_loop.trips) : Fin 2 → Nat :=
  let c5_i32_298 : BitVec 32 := 5#32
  let v438 : Index := Scalar.indexCast c5_i32_298
  let c0_i32_271 : BitVec 32 := 0#32
  let c1_i32_273 : BitVec 32 := 1#32
  let arg21 : BitVec 32 := Scf.iv c0_i32_271 c1_i32_273 k0_t3
  let c16_i32_279 : BitVec 32 := 16#32
  let v387 : BitVec 32 := Scalar.muli arg21 c16_i32_279
  let v439 : Index := Scalar.indexCast v387
  ![5, v439.toNat]

def k0_chk107 (i : grid0.Coords) (k0_t2 : Fin k0_t2_loop.trips) (v402 : IVec S16 32) (v441 : IVec S16 32) : Prop :=
  (∀ (k0_h2 : k0_cond2 i k0_t2 = 1#1), ∀ a x, ((![v441, v402] : Fin 2 → IVec S16 32) a x).toNat < S64x16.size a)
instance k0_chk107.dec : ∀ (i : grid0.Coords) (k0_t2 : Fin k0_t2_loop.trips) (v402 : IVec S16 32) (v441 : IVec S16 32), Decidable (k0_chk107 i k0_t2 v402 v441) := fun i k0_t2 v402 v441 => decidable_of_iff' _ (Iff.of_eq (k0_chk107.eq_1 i k0_t2 v402 v441))
theorem k0_idx107_inb : ∀ (i : grid0.Coords) (k0_t2 : Fin k0_t2_loop.trips) (v402 : IVec S16 32) (v441 : IVec S16 32) (k0_hw107 : k0_chk107 i k0_t2 v402 v441), ∀ (k0_h2 : k0_cond2 i k0_t2 = 1#1), ∀ a x, ((![v441, v402] : Fin 2 → IVec S16 32) a x).toNat < S64x16.size a := fun i k0_t2 v402 v441 k0_hw107 k0_h2 => k0_hw107 k0_h2
def k0_off81 (k0_t3 : Fin k0_t3_loop.trips) : Fin 2 → Nat :=
  let c6_i32_299 : BitVec 32 := 6#32
  let v443 : Index := Scalar.indexCast c6_i32_299
  let c0_i32_271 : BitVec 32 := 0#32
  let c1_i32_273 : BitVec 32 := 1#32
  let arg21 : BitVec 32 := Scf.iv c0_i32_271 c1_i32_273 k0_t3
  let c16_i32_279 : BitVec 32 := 16#32
  let v387 : BitVec 32 := Scalar.muli arg21 c16_i32_279
  let v444 : Index := Scalar.indexCast v387
  ![6, v444.toNat]

def k0_chk108 (i : grid0.Coords) (k0_t2 : Fin k0_t2_loop.trips) (v402 : IVec S16 32) (v446 : IVec S16 32) : Prop :=
  (∀ (k0_h2 : k0_cond2 i k0_t2 = 1#1), ∀ a x, ((![v446, v402] : Fin 2 → IVec S16 32) a x).toNat < S64x16.size a)
instance k0_chk108.dec : ∀ (i : grid0.Coords) (k0_t2 : Fin k0_t2_loop.trips) (v402 : IVec S16 32) (v446 : IVec S16 32), Decidable (k0_chk108 i k0_t2 v402 v446) := fun i k0_t2 v402 v446 => decidable_of_iff' _ (Iff.of_eq (k0_chk108.eq_1 i k0_t2 v402 v446))
theorem k0_idx108_inb : ∀ (i : grid0.Coords) (k0_t2 : Fin k0_t2_loop.trips) (v402 : IVec S16 32) (v446 : IVec S16 32) (k0_hw108 : k0_chk108 i k0_t2 v402 v446), ∀ (k0_h2 : k0_cond2 i k0_t2 = 1#1), ∀ a x, ((![v446, v402] : Fin 2 → IVec S16 32) a x).toNat < S64x16.size a := fun i k0_t2 v402 v446 k0_hw108 k0_h2 => k0_hw108 k0_h2
def k0_off82 (k0_t3 : Fin k0_t3_loop.trips) : Fin 2 → Nat :=
  let c7_i32_300 : BitVec 32 := 7#32
  let v448 : Index := Scalar.indexCast c7_i32_300
  let c0_i32_271 : BitVec 32 := 0#32
  let c1_i32_273 : BitVec 32 := 1#32
  let arg21 : BitVec 32 := Scf.iv c0_i32_271 c1_i32_273 k0_t3
  let c16_i32_279 : BitVec 32 := 16#32
  let v387 : BitVec 32 := Scalar.muli arg21 c16_i32_279
  let v449 : Index := Scalar.indexCast v387
  ![7, v449.toNat]

def k0_chk109 (i : grid0.Coords) (k0_t2 : Fin k0_t2_loop.trips) (v402 : IVec S16 32) (v451 : IVec S16 32) : Prop :=
  (∀ (k0_h2 : k0_cond2 i k0_t2 = 1#1), ∀ a x, ((![v451, v402] : Fin 2 → IVec S16 32) a x).toNat < S64x16.size a)
instance k0_chk109.dec : ∀ (i : grid0.Coords) (k0_t2 : Fin k0_t2_loop.trips) (v402 : IVec S16 32) (v451 : IVec S16 32), Decidable (k0_chk109 i k0_t2 v402 v451) := fun i k0_t2 v402 v451 => decidable_of_iff' _ (Iff.of_eq (k0_chk109.eq_1 i k0_t2 v402 v451))
theorem k0_idx109_inb : ∀ (i : grid0.Coords) (k0_t2 : Fin k0_t2_loop.trips) (v402 : IVec S16 32) (v451 : IVec S16 32) (k0_hw109 : k0_chk109 i k0_t2 v402 v451), ∀ (k0_h2 : k0_cond2 i k0_t2 = 1#1), ∀ a x, ((![v451, v402] : Fin 2 → IVec S16 32) a x).toNat < S64x16.size a := fun i k0_t2 v402 v451 k0_hw109 k0_h2 => k0_hw109 k0_h2
def k0_off83 (k0_t3 : Fin k0_t3_loop.trips) : Fin 2 → Nat :=
  let c8_i32_301 : BitVec 32 := 8#32
  let v453 : Index := Scalar.indexCast c8_i32_301
  let c0_i32_271 : BitVec 32 := 0#32
  let c1_i32_273 : BitVec 32 := 1#32
  let arg21 : BitVec 32 := Scf.iv c0_i32_271 c1_i32_273 k0_t3
  let c16_i32_279 : BitVec 32 := 16#32
  let v387 : BitVec 32 := Scalar.muli arg21 c16_i32_279
  let v454 : Index := Scalar.indexCast v387
  ![8, v454.toNat]

def k0_chk110 (i : grid0.Coords) (k0_t2 : Fin k0_t2_loop.trips) (v402 : IVec S16 32) (v456 : IVec S16 32) : Prop :=
  (∀ (k0_h2 : k0_cond2 i k0_t2 = 1#1), ∀ a x, ((![v456, v402] : Fin 2 → IVec S16 32) a x).toNat < S64x16.size a)
instance k0_chk110.dec : ∀ (i : grid0.Coords) (k0_t2 : Fin k0_t2_loop.trips) (v402 : IVec S16 32) (v456 : IVec S16 32), Decidable (k0_chk110 i k0_t2 v402 v456) := fun i k0_t2 v402 v456 => decidable_of_iff' _ (Iff.of_eq (k0_chk110.eq_1 i k0_t2 v402 v456))
theorem k0_idx110_inb : ∀ (i : grid0.Coords) (k0_t2 : Fin k0_t2_loop.trips) (v402 : IVec S16 32) (v456 : IVec S16 32) (k0_hw110 : k0_chk110 i k0_t2 v402 v456), ∀ (k0_h2 : k0_cond2 i k0_t2 = 1#1), ∀ a x, ((![v456, v402] : Fin 2 → IVec S16 32) a x).toNat < S64x16.size a := fun i k0_t2 v402 v456 k0_hw110 k0_h2 => k0_hw110 k0_h2
def k0_off84 (k0_t3 : Fin k0_t3_loop.trips) : Fin 2 → Nat :=
  let c9_i32_302 : BitVec 32 := 9#32
  let v458 : Index := Scalar.indexCast c9_i32_302
  let c0_i32_271 : BitVec 32 := 0#32
  let c1_i32_273 : BitVec 32 := 1#32
  let arg21 : BitVec 32 := Scf.iv c0_i32_271 c1_i32_273 k0_t3
  let c16_i32_279 : BitVec 32 := 16#32
  let v387 : BitVec 32 := Scalar.muli arg21 c16_i32_279
  let v459 : Index := Scalar.indexCast v387
  ![9, v459.toNat]

def k0_chk111 (i : grid0.Coords) (k0_t2 : Fin k0_t2_loop.trips) (v402 : IVec S16 32) (v461 : IVec S16 32) : Prop :=
  (∀ (k0_h2 : k0_cond2 i k0_t2 = 1#1), ∀ a x, ((![v461, v402] : Fin 2 → IVec S16 32) a x).toNat < S64x16.size a)
instance k0_chk111.dec : ∀ (i : grid0.Coords) (k0_t2 : Fin k0_t2_loop.trips) (v402 : IVec S16 32) (v461 : IVec S16 32), Decidable (k0_chk111 i k0_t2 v402 v461) := fun i k0_t2 v402 v461 => decidable_of_iff' _ (Iff.of_eq (k0_chk111.eq_1 i k0_t2 v402 v461))
theorem k0_idx111_inb : ∀ (i : grid0.Coords) (k0_t2 : Fin k0_t2_loop.trips) (v402 : IVec S16 32) (v461 : IVec S16 32) (k0_hw111 : k0_chk111 i k0_t2 v402 v461), ∀ (k0_h2 : k0_cond2 i k0_t2 = 1#1), ∀ a x, ((![v461, v402] : Fin 2 → IVec S16 32) a x).toNat < S64x16.size a := fun i k0_t2 v402 v461 k0_hw111 k0_h2 => k0_hw111 k0_h2
def k0_off85 (k0_t3 : Fin k0_t3_loop.trips) : Fin 2 → Nat :=
  let c10_i32_303 : BitVec 32 := 10#32
  let v463 : Index := Scalar.indexCast c10_i32_303
  let c0_i32_271 : BitVec 32 := 0#32
  let c1_i32_273 : BitVec 32 := 1#32
  let arg21 : BitVec 32 := Scf.iv c0_i32_271 c1_i32_273 k0_t3
  let c16_i32_279 : BitVec 32 := 16#32
  let v387 : BitVec 32 := Scalar.muli arg21 c16_i32_279
  let v464 : Index := Scalar.indexCast v387
  ![10, v464.toNat]

def k0_chk112 (i : grid0.Coords) (k0_t2 : Fin k0_t2_loop.trips) (v402 : IVec S16 32) (v466 : IVec S16 32) : Prop :=
  (∀ (k0_h2 : k0_cond2 i k0_t2 = 1#1), ∀ a x, ((![v466, v402] : Fin 2 → IVec S16 32) a x).toNat < S64x16.size a)
instance k0_chk112.dec : ∀ (i : grid0.Coords) (k0_t2 : Fin k0_t2_loop.trips) (v402 : IVec S16 32) (v466 : IVec S16 32), Decidable (k0_chk112 i k0_t2 v402 v466) := fun i k0_t2 v402 v466 => decidable_of_iff' _ (Iff.of_eq (k0_chk112.eq_1 i k0_t2 v402 v466))
theorem k0_idx112_inb : ∀ (i : grid0.Coords) (k0_t2 : Fin k0_t2_loop.trips) (v402 : IVec S16 32) (v466 : IVec S16 32) (k0_hw112 : k0_chk112 i k0_t2 v402 v466), ∀ (k0_h2 : k0_cond2 i k0_t2 = 1#1), ∀ a x, ((![v466, v402] : Fin 2 → IVec S16 32) a x).toNat < S64x16.size a := fun i k0_t2 v402 v466 k0_hw112 k0_h2 => k0_hw112 k0_h2
def k0_off86 (k0_t3 : Fin k0_t3_loop.trips) : Fin 2 → Nat :=
  let c11_i32_304 : BitVec 32 := 11#32
  let v468 : Index := Scalar.indexCast c11_i32_304
  let c0_i32_271 : BitVec 32 := 0#32
  let c1_i32_273 : BitVec 32 := 1#32
  let arg21 : BitVec 32 := Scf.iv c0_i32_271 c1_i32_273 k0_t3
  let c16_i32_279 : BitVec 32 := 16#32
  let v387 : BitVec 32 := Scalar.muli arg21 c16_i32_279
  let v469 : Index := Scalar.indexCast v387
  ![11, v469.toNat]

def k0_chk113 (i : grid0.Coords) (k0_t2 : Fin k0_t2_loop.trips) (v402 : IVec S16 32) (v471 : IVec S16 32) : Prop :=
  (∀ (k0_h2 : k0_cond2 i k0_t2 = 1#1), ∀ a x, ((![v471, v402] : Fin 2 → IVec S16 32) a x).toNat < S64x16.size a)
instance k0_chk113.dec : ∀ (i : grid0.Coords) (k0_t2 : Fin k0_t2_loop.trips) (v402 : IVec S16 32) (v471 : IVec S16 32), Decidable (k0_chk113 i k0_t2 v402 v471) := fun i k0_t2 v402 v471 => decidable_of_iff' _ (Iff.of_eq (k0_chk113.eq_1 i k0_t2 v402 v471))
theorem k0_idx113_inb : ∀ (i : grid0.Coords) (k0_t2 : Fin k0_t2_loop.trips) (v402 : IVec S16 32) (v471 : IVec S16 32) (k0_hw113 : k0_chk113 i k0_t2 v402 v471), ∀ (k0_h2 : k0_cond2 i k0_t2 = 1#1), ∀ a x, ((![v471, v402] : Fin 2 → IVec S16 32) a x).toNat < S64x16.size a := fun i k0_t2 v402 v471 k0_hw113 k0_h2 => k0_hw113 k0_h2
def k0_off87 (k0_t3 : Fin k0_t3_loop.trips) : Fin 2 → Nat :=
  let c12_i32_306 : BitVec 32 := 12#32
  let v473 : Index := Scalar.indexCast c12_i32_306
  let c0_i32_271 : BitVec 32 := 0#32
  let c1_i32_273 : BitVec 32 := 1#32
  let arg21 : BitVec 32 := Scf.iv c0_i32_271 c1_i32_273 k0_t3
  let c16_i32_279 : BitVec 32 := 16#32
  let v387 : BitVec 32 := Scalar.muli arg21 c16_i32_279
  let v474 : Index := Scalar.indexCast v387
  ![12, v474.toNat]

def k0_chk114 (i : grid0.Coords) (k0_t2 : Fin k0_t2_loop.trips) (v402 : IVec S16 32) (v476 : IVec S16 32) : Prop :=
  (∀ (k0_h2 : k0_cond2 i k0_t2 = 1#1), ∀ a x, ((![v476, v402] : Fin 2 → IVec S16 32) a x).toNat < S64x16.size a)
instance k0_chk114.dec : ∀ (i : grid0.Coords) (k0_t2 : Fin k0_t2_loop.trips) (v402 : IVec S16 32) (v476 : IVec S16 32), Decidable (k0_chk114 i k0_t2 v402 v476) := fun i k0_t2 v402 v476 => decidable_of_iff' _ (Iff.of_eq (k0_chk114.eq_1 i k0_t2 v402 v476))
theorem k0_idx114_inb : ∀ (i : grid0.Coords) (k0_t2 : Fin k0_t2_loop.trips) (v402 : IVec S16 32) (v476 : IVec S16 32) (k0_hw114 : k0_chk114 i k0_t2 v402 v476), ∀ (k0_h2 : k0_cond2 i k0_t2 = 1#1), ∀ a x, ((![v476, v402] : Fin 2 → IVec S16 32) a x).toNat < S64x16.size a := fun i k0_t2 v402 v476 k0_hw114 k0_h2 => k0_hw114 k0_h2
def k0_off88 (k0_t3 : Fin k0_t3_loop.trips) : Fin 2 → Nat :=
  let c13_i32_307 : BitVec 32 := 13#32
  let v478 : Index := Scalar.indexCast c13_i32_307
  let c0_i32_271 : BitVec 32 := 0#32
  let c1_i32_273 : BitVec 32 := 1#32
  let arg21 : BitVec 32 := Scf.iv c0_i32_271 c1_i32_273 k0_t3
  let c16_i32_279 : BitVec 32 := 16#32
  let v387 : BitVec 32 := Scalar.muli arg21 c16_i32_279
  let v479 : Index := Scalar.indexCast v387
  ![13, v479.toNat]

def k0_chk115 (i : grid0.Coords) (k0_t2 : Fin k0_t2_loop.trips) (v402 : IVec S16 32) (v481 : IVec S16 32) : Prop :=
  (∀ (k0_h2 : k0_cond2 i k0_t2 = 1#1), ∀ a x, ((![v481, v402] : Fin 2 → IVec S16 32) a x).toNat < S64x16.size a)
instance k0_chk115.dec : ∀ (i : grid0.Coords) (k0_t2 : Fin k0_t2_loop.trips) (v402 : IVec S16 32) (v481 : IVec S16 32), Decidable (k0_chk115 i k0_t2 v402 v481) := fun i k0_t2 v402 v481 => decidable_of_iff' _ (Iff.of_eq (k0_chk115.eq_1 i k0_t2 v402 v481))
theorem k0_idx115_inb : ∀ (i : grid0.Coords) (k0_t2 : Fin k0_t2_loop.trips) (v402 : IVec S16 32) (v481 : IVec S16 32) (k0_hw115 : k0_chk115 i k0_t2 v402 v481), ∀ (k0_h2 : k0_cond2 i k0_t2 = 1#1), ∀ a x, ((![v481, v402] : Fin 2 → IVec S16 32) a x).toNat < S64x16.size a := fun i k0_t2 v402 v481 k0_hw115 k0_h2 => k0_hw115 k0_h2
def k0_off89 (k0_t3 : Fin k0_t3_loop.trips) : Fin 2 → Nat :=
  let c14_i32_308 : BitVec 32 := 14#32
  let v483 : Index := Scalar.indexCast c14_i32_308
  let c0_i32_271 : BitVec 32 := 0#32
  let c1_i32_273 : BitVec 32 := 1#32
  let arg21 : BitVec 32 := Scf.iv c0_i32_271 c1_i32_273 k0_t3
  let c16_i32_279 : BitVec 32 := 16#32
  let v387 : BitVec 32 := Scalar.muli arg21 c16_i32_279
  let v484 : Index := Scalar.indexCast v387
  ![14, v484.toNat]

def k0_chk116 (i : grid0.Coords) (k0_t2 : Fin k0_t2_loop.trips) (v402 : IVec S16 32) (v486 : IVec S16 32) : Prop :=
  (∀ (k0_h2 : k0_cond2 i k0_t2 = 1#1), ∀ a x, ((![v486, v402] : Fin 2 → IVec S16 32) a x).toNat < S64x16.size a)
instance k0_chk116.dec : ∀ (i : grid0.Coords) (k0_t2 : Fin k0_t2_loop.trips) (v402 : IVec S16 32) (v486 : IVec S16 32), Decidable (k0_chk116 i k0_t2 v402 v486) := fun i k0_t2 v402 v486 => decidable_of_iff' _ (Iff.of_eq (k0_chk116.eq_1 i k0_t2 v402 v486))
theorem k0_idx116_inb : ∀ (i : grid0.Coords) (k0_t2 : Fin k0_t2_loop.trips) (v402 : IVec S16 32) (v486 : IVec S16 32) (k0_hw116 : k0_chk116 i k0_t2 v402 v486), ∀ (k0_h2 : k0_cond2 i k0_t2 = 1#1), ∀ a x, ((![v486, v402] : Fin 2 → IVec S16 32) a x).toNat < S64x16.size a := fun i k0_t2 v402 v486 k0_hw116 k0_h2 => k0_hw116 k0_h2
def k0_off90 (k0_t3 : Fin k0_t3_loop.trips) : Fin 2 → Nat :=
  let c15_i32_309 : BitVec 32 := 15#32
  let v488 : Index := Scalar.indexCast c15_i32_309
  let c0_i32_271 : BitVec 32 := 0#32
  let c1_i32_273 : BitVec 32 := 1#32
  let arg21 : BitVec 32 := Scf.iv c0_i32_271 c1_i32_273 k0_t3
  let c16_i32_279 : BitVec 32 := 16#32
  let v387 : BitVec 32 := Scalar.muli arg21 c16_i32_279
  let v489 : Index := Scalar.indexCast v387
  ![15, v489.toNat]

def k0_chk117 (i : grid0.Coords) (k0_t2 : Fin k0_t2_loop.trips) (v402 : IVec S16 32) (v491 : IVec S16 32) : Prop :=
  (∀ (k0_h2 : k0_cond2 i k0_t2 = 1#1), ∀ a x, ((![v491, v402] : Fin 2 → IVec S16 32) a x).toNat < S64x16.size a)
instance k0_chk117.dec : ∀ (i : grid0.Coords) (k0_t2 : Fin k0_t2_loop.trips) (v402 : IVec S16 32) (v491 : IVec S16 32), Decidable (k0_chk117 i k0_t2 v402 v491) := fun i k0_t2 v402 v491 => decidable_of_iff' _ (Iff.of_eq (k0_chk117.eq_1 i k0_t2 v402 v491))
theorem k0_idx117_inb : ∀ (i : grid0.Coords) (k0_t2 : Fin k0_t2_loop.trips) (v402 : IVec S16 32) (v491 : IVec S16 32) (k0_hw117 : k0_chk117 i k0_t2 v402 v491), ∀ (k0_h2 : k0_cond2 i k0_t2 = 1#1), ∀ a x, ((![v491, v402] : Fin 2 → IVec S16 32) a x).toNat < S64x16.size a := fun i k0_t2 v402 v491 k0_hw117 k0_h2 => k0_hw117 k0_h2
def k0_off91 (k0_t3 : Fin k0_t3_loop.trips) : Fin 2 → Nat :=
  let c16_i32_311 : BitVec 32 := 16#32
  let v493 : Index := Scalar.indexCast c16_i32_311
  let c0_i32_271 : BitVec 32 := 0#32
  let c1_i32_273 : BitVec 32 := 1#32
  let arg21 : BitVec 32 := Scf.iv c0_i32_271 c1_i32_273 k0_t3
  let c16_i32_279 : BitVec 32 := 16#32
  let v387 : BitVec 32 := Scalar.muli arg21 c16_i32_279
  let v494 : Index := Scalar.indexCast v387
  ![16, v494.toNat]

def k0_chk118 (i : grid0.Coords) (k0_t2 : Fin k0_t2_loop.trips) (v402 : IVec S16 32) (v496 : IVec S16 32) : Prop :=
  (∀ (k0_h2 : k0_cond2 i k0_t2 = 1#1), ∀ a x, ((![v496, v402] : Fin 2 → IVec S16 32) a x).toNat < S64x16.size a)
instance k0_chk118.dec : ∀ (i : grid0.Coords) (k0_t2 : Fin k0_t2_loop.trips) (v402 : IVec S16 32) (v496 : IVec S16 32), Decidable (k0_chk118 i k0_t2 v402 v496) := fun i k0_t2 v402 v496 => decidable_of_iff' _ (Iff.of_eq (k0_chk118.eq_1 i k0_t2 v402 v496))
theorem k0_idx118_inb : ∀ (i : grid0.Coords) (k0_t2 : Fin k0_t2_loop.trips) (v402 : IVec S16 32) (v496 : IVec S16 32) (k0_hw118 : k0_chk118 i k0_t2 v402 v496), ∀ (k0_h2 : k0_cond2 i k0_t2 = 1#1), ∀ a x, ((![v496, v402] : Fin 2 → IVec S16 32) a x).toNat < S64x16.size a := fun i k0_t2 v402 v496 k0_hw118 k0_h2 => k0_hw118 k0_h2
def k0_off92 (k0_t3 : Fin k0_t3_loop.trips) : Fin 2 → Nat :=
  let c17_i32_312 : BitVec 32 := 17#32
  let v498 : Index := Scalar.indexCast c17_i32_312
  let c0_i32_271 : BitVec 32 := 0#32
  let c1_i32_273 : BitVec 32 := 1#32
  let arg21 : BitVec 32 := Scf.iv c0_i32_271 c1_i32_273 k0_t3
  let c16_i32_279 : BitVec 32 := 16#32
  let v387 : BitVec 32 := Scalar.muli arg21 c16_i32_279
  let v499 : Index := Scalar.indexCast v387
  ![17, v499.toNat]

def k0_chk119 (i : grid0.Coords) (k0_t2 : Fin k0_t2_loop.trips) (v402 : IVec S16 32) (v501 : IVec S16 32) : Prop :=
  (∀ (k0_h2 : k0_cond2 i k0_t2 = 1#1), ∀ a x, ((![v501, v402] : Fin 2 → IVec S16 32) a x).toNat < S64x16.size a)
instance k0_chk119.dec : ∀ (i : grid0.Coords) (k0_t2 : Fin k0_t2_loop.trips) (v402 : IVec S16 32) (v501 : IVec S16 32), Decidable (k0_chk119 i k0_t2 v402 v501) := fun i k0_t2 v402 v501 => decidable_of_iff' _ (Iff.of_eq (k0_chk119.eq_1 i k0_t2 v402 v501))
theorem k0_idx119_inb : ∀ (i : grid0.Coords) (k0_t2 : Fin k0_t2_loop.trips) (v402 : IVec S16 32) (v501 : IVec S16 32) (k0_hw119 : k0_chk119 i k0_t2 v402 v501), ∀ (k0_h2 : k0_cond2 i k0_t2 = 1#1), ∀ a x, ((![v501, v402] : Fin 2 → IVec S16 32) a x).toNat < S64x16.size a := fun i k0_t2 v402 v501 k0_hw119 k0_h2 => k0_hw119 k0_h2
def k0_off93 (k0_t3 : Fin k0_t3_loop.trips) : Fin 2 → Nat :=
  let c18_i32_313 : BitVec 32 := 18#32
  let v503 : Index := Scalar.indexCast c18_i32_313
  let c0_i32_271 : BitVec 32 := 0#32
  let c1_i32_273 : BitVec 32 := 1#32
  let arg21 : BitVec 32 := Scf.iv c0_i32_271 c1_i32_273 k0_t3
  let c16_i32_279 : BitVec 32 := 16#32
  let v387 : BitVec 32 := Scalar.muli arg21 c16_i32_279
  let v504 : Index := Scalar.indexCast v387
  ![18, v504.toNat]

def k0_chk120 (i : grid0.Coords) (k0_t2 : Fin k0_t2_loop.trips) (v402 : IVec S16 32) (v506 : IVec S16 32) : Prop :=
  (∀ (k0_h2 : k0_cond2 i k0_t2 = 1#1), ∀ a x, ((![v506, v402] : Fin 2 → IVec S16 32) a x).toNat < S64x16.size a)
instance k0_chk120.dec : ∀ (i : grid0.Coords) (k0_t2 : Fin k0_t2_loop.trips) (v402 : IVec S16 32) (v506 : IVec S16 32), Decidable (k0_chk120 i k0_t2 v402 v506) := fun i k0_t2 v402 v506 => decidable_of_iff' _ (Iff.of_eq (k0_chk120.eq_1 i k0_t2 v402 v506))
theorem k0_idx120_inb : ∀ (i : grid0.Coords) (k0_t2 : Fin k0_t2_loop.trips) (v402 : IVec S16 32) (v506 : IVec S16 32) (k0_hw120 : k0_chk120 i k0_t2 v402 v506), ∀ (k0_h2 : k0_cond2 i k0_t2 = 1#1), ∀ a x, ((![v506, v402] : Fin 2 → IVec S16 32) a x).toNat < S64x16.size a := fun i k0_t2 v402 v506 k0_hw120 k0_h2 => k0_hw120 k0_h2
def k0_off94 (k0_t3 : Fin k0_t3_loop.trips) : Fin 2 → Nat :=
  let c19_i32_314 : BitVec 32 := 19#32
  let v508 : Index := Scalar.indexCast c19_i32_314
  let c0_i32_271 : BitVec 32 := 0#32
  let c1_i32_273 : BitVec 32 := 1#32
  let arg21 : BitVec 32 := Scf.iv c0_i32_271 c1_i32_273 k0_t3
  let c16_i32_279 : BitVec 32 := 16#32
  let v387 : BitVec 32 := Scalar.muli arg21 c16_i32_279
  let v509 : Index := Scalar.indexCast v387
  ![19, v509.toNat]

def k0_chk121 (i : grid0.Coords) (k0_t2 : Fin k0_t2_loop.trips) (v402 : IVec S16 32) (v511 : IVec S16 32) : Prop :=
  (∀ (k0_h2 : k0_cond2 i k0_t2 = 1#1), ∀ a x, ((![v511, v402] : Fin 2 → IVec S16 32) a x).toNat < S64x16.size a)
instance k0_chk121.dec : ∀ (i : grid0.Coords) (k0_t2 : Fin k0_t2_loop.trips) (v402 : IVec S16 32) (v511 : IVec S16 32), Decidable (k0_chk121 i k0_t2 v402 v511) := fun i k0_t2 v402 v511 => decidable_of_iff' _ (Iff.of_eq (k0_chk121.eq_1 i k0_t2 v402 v511))
theorem k0_idx121_inb : ∀ (i : grid0.Coords) (k0_t2 : Fin k0_t2_loop.trips) (v402 : IVec S16 32) (v511 : IVec S16 32) (k0_hw121 : k0_chk121 i k0_t2 v402 v511), ∀ (k0_h2 : k0_cond2 i k0_t2 = 1#1), ∀ a x, ((![v511, v402] : Fin 2 → IVec S16 32) a x).toNat < S64x16.size a := fun i k0_t2 v402 v511 k0_hw121 k0_h2 => k0_hw121 k0_h2
def k0_off95 (k0_t3 : Fin k0_t3_loop.trips) : Fin 2 → Nat :=
  let c20_i32_315 : BitVec 32 := 20#32
  let v513 : Index := Scalar.indexCast c20_i32_315
  let c0_i32_271 : BitVec 32 := 0#32
  let c1_i32_273 : BitVec 32 := 1#32
  let arg21 : BitVec 32 := Scf.iv c0_i32_271 c1_i32_273 k0_t3
  let c16_i32_279 : BitVec 32 := 16#32
  let v387 : BitVec 32 := Scalar.muli arg21 c16_i32_279
  let v514 : Index := Scalar.indexCast v387
  ![20, v514.toNat]

def k0_chk122 (i : grid0.Coords) (k0_t2 : Fin k0_t2_loop.trips) (v402 : IVec S16 32) (v516 : IVec S16 32) : Prop :=
  (∀ (k0_h2 : k0_cond2 i k0_t2 = 1#1), ∀ a x, ((![v516, v402] : Fin 2 → IVec S16 32) a x).toNat < S64x16.size a)
instance k0_chk122.dec : ∀ (i : grid0.Coords) (k0_t2 : Fin k0_t2_loop.trips) (v402 : IVec S16 32) (v516 : IVec S16 32), Decidable (k0_chk122 i k0_t2 v402 v516) := fun i k0_t2 v402 v516 => decidable_of_iff' _ (Iff.of_eq (k0_chk122.eq_1 i k0_t2 v402 v516))
theorem k0_idx122_inb : ∀ (i : grid0.Coords) (k0_t2 : Fin k0_t2_loop.trips) (v402 : IVec S16 32) (v516 : IVec S16 32) (k0_hw122 : k0_chk122 i k0_t2 v402 v516), ∀ (k0_h2 : k0_cond2 i k0_t2 = 1#1), ∀ a x, ((![v516, v402] : Fin 2 → IVec S16 32) a x).toNat < S64x16.size a := fun i k0_t2 v402 v516 k0_hw122 k0_h2 => k0_hw122 k0_h2
def k0_off96 (k0_t3 : Fin k0_t3_loop.trips) : Fin 2 → Nat :=
  let c21_i32_316 : BitVec 32 := 21#32
  let v518 : Index := Scalar.indexCast c21_i32_316
  let c0_i32_271 : BitVec 32 := 0#32
  let c1_i32_273 : BitVec 32 := 1#32
  let arg21 : BitVec 32 := Scf.iv c0_i32_271 c1_i32_273 k0_t3
  let c16_i32_279 : BitVec 32 := 16#32
  let v387 : BitVec 32 := Scalar.muli arg21 c16_i32_279
  let v519 : Index := Scalar.indexCast v387
  ![21, v519.toNat]

def k0_chk123 (i : grid0.Coords) (k0_t2 : Fin k0_t2_loop.trips) (v402 : IVec S16 32) (v521 : IVec S16 32) : Prop :=
  (∀ (k0_h2 : k0_cond2 i k0_t2 = 1#1), ∀ a x, ((![v521, v402] : Fin 2 → IVec S16 32) a x).toNat < S64x16.size a)
instance k0_chk123.dec : ∀ (i : grid0.Coords) (k0_t2 : Fin k0_t2_loop.trips) (v402 : IVec S16 32) (v521 : IVec S16 32), Decidable (k0_chk123 i k0_t2 v402 v521) := fun i k0_t2 v402 v521 => decidable_of_iff' _ (Iff.of_eq (k0_chk123.eq_1 i k0_t2 v402 v521))
theorem k0_idx123_inb : ∀ (i : grid0.Coords) (k0_t2 : Fin k0_t2_loop.trips) (v402 : IVec S16 32) (v521 : IVec S16 32) (k0_hw123 : k0_chk123 i k0_t2 v402 v521), ∀ (k0_h2 : k0_cond2 i k0_t2 = 1#1), ∀ a x, ((![v521, v402] : Fin 2 → IVec S16 32) a x).toNat < S64x16.size a := fun i k0_t2 v402 v521 k0_hw123 k0_h2 => k0_hw123 k0_h2
def k0_off97 (k0_t3 : Fin k0_t3_loop.trips) : Fin 2 → Nat :=
  let c22_i32_317 : BitVec 32 := 22#32
  let v523 : Index := Scalar.indexCast c22_i32_317
  let c0_i32_271 : BitVec 32 := 0#32
  let c1_i32_273 : BitVec 32 := 1#32
  let arg21 : BitVec 32 := Scf.iv c0_i32_271 c1_i32_273 k0_t3
  let c16_i32_279 : BitVec 32 := 16#32
  let v387 : BitVec 32 := Scalar.muli arg21 c16_i32_279
  let v524 : Index := Scalar.indexCast v387
  ![22, v524.toNat]

def k0_chk124 (i : grid0.Coords) (k0_t2 : Fin k0_t2_loop.trips) (v402 : IVec S16 32) (v526 : IVec S16 32) : Prop :=
  (∀ (k0_h2 : k0_cond2 i k0_t2 = 1#1), ∀ a x, ((![v526, v402] : Fin 2 → IVec S16 32) a x).toNat < S64x16.size a)
instance k0_chk124.dec : ∀ (i : grid0.Coords) (k0_t2 : Fin k0_t2_loop.trips) (v402 : IVec S16 32) (v526 : IVec S16 32), Decidable (k0_chk124 i k0_t2 v402 v526) := fun i k0_t2 v402 v526 => decidable_of_iff' _ (Iff.of_eq (k0_chk124.eq_1 i k0_t2 v402 v526))
theorem k0_idx124_inb : ∀ (i : grid0.Coords) (k0_t2 : Fin k0_t2_loop.trips) (v402 : IVec S16 32) (v526 : IVec S16 32) (k0_hw124 : k0_chk124 i k0_t2 v402 v526), ∀ (k0_h2 : k0_cond2 i k0_t2 = 1#1), ∀ a x, ((![v526, v402] : Fin 2 → IVec S16 32) a x).toNat < S64x16.size a := fun i k0_t2 v402 v526 k0_hw124 k0_h2 => k0_hw124 k0_h2
def k0_off98 (k0_t3 : Fin k0_t3_loop.trips) : Fin 2 → Nat :=
  let c23_i32_318 : BitVec 32 := 23#32
  let v528 : Index := Scalar.indexCast c23_i32_318
  let c0_i32_271 : BitVec 32 := 0#32
  let c1_i32_273 : BitVec 32 := 1#32
  let arg21 : BitVec 32 := Scf.iv c0_i32_271 c1_i32_273 k0_t3
  let c16_i32_279 : BitVec 32 := 16#32
  let v387 : BitVec 32 := Scalar.muli arg21 c16_i32_279
  let v529 : Index := Scalar.indexCast v387
  ![23, v529.toNat]

def k0_chk125 (i : grid0.Coords) (k0_t2 : Fin k0_t2_loop.trips) (v402 : IVec S16 32) (v531 : IVec S16 32) : Prop :=
  (∀ (k0_h2 : k0_cond2 i k0_t2 = 1#1), ∀ a x, ((![v531, v402] : Fin 2 → IVec S16 32) a x).toNat < S64x16.size a)
instance k0_chk125.dec : ∀ (i : grid0.Coords) (k0_t2 : Fin k0_t2_loop.trips) (v402 : IVec S16 32) (v531 : IVec S16 32), Decidable (k0_chk125 i k0_t2 v402 v531) := fun i k0_t2 v402 v531 => decidable_of_iff' _ (Iff.of_eq (k0_chk125.eq_1 i k0_t2 v402 v531))
theorem k0_idx125_inb : ∀ (i : grid0.Coords) (k0_t2 : Fin k0_t2_loop.trips) (v402 : IVec S16 32) (v531 : IVec S16 32) (k0_hw125 : k0_chk125 i k0_t2 v402 v531), ∀ (k0_h2 : k0_cond2 i k0_t2 = 1#1), ∀ a x, ((![v531, v402] : Fin 2 → IVec S16 32) a x).toNat < S64x16.size a := fun i k0_t2 v402 v531 k0_hw125 k0_h2 => k0_hw125 k0_h2
def k0_off99 (k0_t3 : Fin k0_t3_loop.trips) : Fin 2 → Nat :=
  let c24_i32_319 : BitVec 32 := 24#32
  let v533 : Index := Scalar.indexCast c24_i32_319
  let c0_i32_271 : BitVec 32 := 0#32
  let c1_i32_273 : BitVec 32 := 1#32
  let arg21 : BitVec 32 := Scf.iv c0_i32_271 c1_i32_273 k0_t3
  let c16_i32_279 : BitVec 32 := 16#32
  let v387 : BitVec 32 := Scalar.muli arg21 c16_i32_279
  let v534 : Index := Scalar.indexCast v387
  ![24, v534.toNat]

def k0_chk126 (i : grid0.Coords) (k0_t2 : Fin k0_t2_loop.trips) (v402 : IVec S16 32) (v536 : IVec S16 32) : Prop :=
  (∀ (k0_h2 : k0_cond2 i k0_t2 = 1#1), ∀ a x, ((![v536, v402] : Fin 2 → IVec S16 32) a x).toNat < S64x16.size a)
instance k0_chk126.dec : ∀ (i : grid0.Coords) (k0_t2 : Fin k0_t2_loop.trips) (v402 : IVec S16 32) (v536 : IVec S16 32), Decidable (k0_chk126 i k0_t2 v402 v536) := fun i k0_t2 v402 v536 => decidable_of_iff' _ (Iff.of_eq (k0_chk126.eq_1 i k0_t2 v402 v536))
theorem k0_idx126_inb : ∀ (i : grid0.Coords) (k0_t2 : Fin k0_t2_loop.trips) (v402 : IVec S16 32) (v536 : IVec S16 32) (k0_hw126 : k0_chk126 i k0_t2 v402 v536), ∀ (k0_h2 : k0_cond2 i k0_t2 = 1#1), ∀ a x, ((![v536, v402] : Fin 2 → IVec S16 32) a x).toNat < S64x16.size a := fun i k0_t2 v402 v536 k0_hw126 k0_h2 => k0_hw126 k0_h2
def k0_off100 (k0_t3 : Fin k0_t3_loop.trips) : Fin 2 → Nat :=
  let c25_i32_320 : BitVec 32 := 25#32
  let v538 : Index := Scalar.indexCast c25_i32_320
  let c0_i32_271 : BitVec 32 := 0#32
  let c1_i32_273 : BitVec 32 := 1#32
  let arg21 : BitVec 32 := Scf.iv c0_i32_271 c1_i32_273 k0_t3
  let c16_i32_279 : BitVec 32 := 16#32
  let v387 : BitVec 32 := Scalar.muli arg21 c16_i32_279
  let v539 : Index := Scalar.indexCast v387
  ![25, v539.toNat]

def k0_chk127 (i : grid0.Coords) (k0_t2 : Fin k0_t2_loop.trips) (v402 : IVec S16 32) (v541 : IVec S16 32) : Prop :=
  (∀ (k0_h2 : k0_cond2 i k0_t2 = 1#1), ∀ a x, ((![v541, v402] : Fin 2 → IVec S16 32) a x).toNat < S64x16.size a)
instance k0_chk127.dec : ∀ (i : grid0.Coords) (k0_t2 : Fin k0_t2_loop.trips) (v402 : IVec S16 32) (v541 : IVec S16 32), Decidable (k0_chk127 i k0_t2 v402 v541) := fun i k0_t2 v402 v541 => decidable_of_iff' _ (Iff.of_eq (k0_chk127.eq_1 i k0_t2 v402 v541))
theorem k0_idx127_inb : ∀ (i : grid0.Coords) (k0_t2 : Fin k0_t2_loop.trips) (v402 : IVec S16 32) (v541 : IVec S16 32) (k0_hw127 : k0_chk127 i k0_t2 v402 v541), ∀ (k0_h2 : k0_cond2 i k0_t2 = 1#1), ∀ a x, ((![v541, v402] : Fin 2 → IVec S16 32) a x).toNat < S64x16.size a := fun i k0_t2 v402 v541 k0_hw127 k0_h2 => k0_hw127 k0_h2
def k0_off101 (k0_t3 : Fin k0_t3_loop.trips) : Fin 2 → Nat :=
  let c26_i32_321 : BitVec 32 := 26#32
  let v543 : Index := Scalar.indexCast c26_i32_321
  let c0_i32_271 : BitVec 32 := 0#32
  let c1_i32_273 : BitVec 32 := 1#32
  let arg21 : BitVec 32 := Scf.iv c0_i32_271 c1_i32_273 k0_t3
  let c16_i32_279 : BitVec 32 := 16#32
  let v387 : BitVec 32 := Scalar.muli arg21 c16_i32_279
  let v544 : Index := Scalar.indexCast v387
  ![26, v544.toNat]

def k0_chk128 (i : grid0.Coords) (k0_t2 : Fin k0_t2_loop.trips) (v402 : IVec S16 32) (v546 : IVec S16 32) : Prop :=
  (∀ (k0_h2 : k0_cond2 i k0_t2 = 1#1), ∀ a x, ((![v546, v402] : Fin 2 → IVec S16 32) a x).toNat < S64x16.size a)
instance k0_chk128.dec : ∀ (i : grid0.Coords) (k0_t2 : Fin k0_t2_loop.trips) (v402 : IVec S16 32) (v546 : IVec S16 32), Decidable (k0_chk128 i k0_t2 v402 v546) := fun i k0_t2 v402 v546 => decidable_of_iff' _ (Iff.of_eq (k0_chk128.eq_1 i k0_t2 v402 v546))
theorem k0_idx128_inb : ∀ (i : grid0.Coords) (k0_t2 : Fin k0_t2_loop.trips) (v402 : IVec S16 32) (v546 : IVec S16 32) (k0_hw128 : k0_chk128 i k0_t2 v402 v546), ∀ (k0_h2 : k0_cond2 i k0_t2 = 1#1), ∀ a x, ((![v546, v402] : Fin 2 → IVec S16 32) a x).toNat < S64x16.size a := fun i k0_t2 v402 v546 k0_hw128 k0_h2 => k0_hw128 k0_h2
def k0_off102 (k0_t3 : Fin k0_t3_loop.trips) : Fin 2 → Nat :=
  let c27_i32_322 : BitVec 32 := 27#32
  let v548 : Index := Scalar.indexCast c27_i32_322
  let c0_i32_271 : BitVec 32 := 0#32
  let c1_i32_273 : BitVec 32 := 1#32
  let arg21 : BitVec 32 := Scf.iv c0_i32_271 c1_i32_273 k0_t3
  let c16_i32_279 : BitVec 32 := 16#32
  let v387 : BitVec 32 := Scalar.muli arg21 c16_i32_279
  let v549 : Index := Scalar.indexCast v387
  ![27, v549.toNat]

def k0_chk129 (i : grid0.Coords) (k0_t2 : Fin k0_t2_loop.trips) (v402 : IVec S16 32) (v551 : IVec S16 32) : Prop :=
  (∀ (k0_h2 : k0_cond2 i k0_t2 = 1#1), ∀ a x, ((![v551, v402] : Fin 2 → IVec S16 32) a x).toNat < S64x16.size a)
instance k0_chk129.dec : ∀ (i : grid0.Coords) (k0_t2 : Fin k0_t2_loop.trips) (v402 : IVec S16 32) (v551 : IVec S16 32), Decidable (k0_chk129 i k0_t2 v402 v551) := fun i k0_t2 v402 v551 => decidable_of_iff' _ (Iff.of_eq (k0_chk129.eq_1 i k0_t2 v402 v551))
theorem k0_idx129_inb : ∀ (i : grid0.Coords) (k0_t2 : Fin k0_t2_loop.trips) (v402 : IVec S16 32) (v551 : IVec S16 32) (k0_hw129 : k0_chk129 i k0_t2 v402 v551), ∀ (k0_h2 : k0_cond2 i k0_t2 = 1#1), ∀ a x, ((![v551, v402] : Fin 2 → IVec S16 32) a x).toNat < S64x16.size a := fun i k0_t2 v402 v551 k0_hw129 k0_h2 => k0_hw129 k0_h2
def k0_off103 (k0_t3 : Fin k0_t3_loop.trips) : Fin 2 → Nat :=
  let c28_i32_324 : BitVec 32 := 28#32
  let v553 : Index := Scalar.indexCast c28_i32_324
  let c0_i32_271 : BitVec 32 := 0#32
  let c1_i32_273 : BitVec 32 := 1#32
  let arg21 : BitVec 32 := Scf.iv c0_i32_271 c1_i32_273 k0_t3
  let c16_i32_279 : BitVec 32 := 16#32
  let v387 : BitVec 32 := Scalar.muli arg21 c16_i32_279
  let v554 : Index := Scalar.indexCast v387
  ![28, v554.toNat]

def k0_chk130 (i : grid0.Coords) (k0_t2 : Fin k0_t2_loop.trips) (v402 : IVec S16 32) (v556 : IVec S16 32) : Prop :=
  (∀ (k0_h2 : k0_cond2 i k0_t2 = 1#1), ∀ a x, ((![v556, v402] : Fin 2 → IVec S16 32) a x).toNat < S64x16.size a)
instance k0_chk130.dec : ∀ (i : grid0.Coords) (k0_t2 : Fin k0_t2_loop.trips) (v402 : IVec S16 32) (v556 : IVec S16 32), Decidable (k0_chk130 i k0_t2 v402 v556) := fun i k0_t2 v402 v556 => decidable_of_iff' _ (Iff.of_eq (k0_chk130.eq_1 i k0_t2 v402 v556))
theorem k0_idx130_inb : ∀ (i : grid0.Coords) (k0_t2 : Fin k0_t2_loop.trips) (v402 : IVec S16 32) (v556 : IVec S16 32) (k0_hw130 : k0_chk130 i k0_t2 v402 v556), ∀ (k0_h2 : k0_cond2 i k0_t2 = 1#1), ∀ a x, ((![v556, v402] : Fin 2 → IVec S16 32) a x).toNat < S64x16.size a := fun i k0_t2 v402 v556 k0_hw130 k0_h2 => k0_hw130 k0_h2
def k0_off104 (k0_t3 : Fin k0_t3_loop.trips) : Fin 2 → Nat :=
  let c29_i32_325 : BitVec 32 := 29#32
  let v558 : Index := Scalar.indexCast c29_i32_325
  let c0_i32_271 : BitVec 32 := 0#32
  let c1_i32_273 : BitVec 32 := 1#32
  let arg21 : BitVec 32 := Scf.iv c0_i32_271 c1_i32_273 k0_t3
  let c16_i32_279 : BitVec 32 := 16#32
  let v387 : BitVec 32 := Scalar.muli arg21 c16_i32_279
  let v559 : Index := Scalar.indexCast v387
  ![29, v559.toNat]

def k0_chk131 (i : grid0.Coords) (k0_t2 : Fin k0_t2_loop.trips) (v402 : IVec S16 32) (v561 : IVec S16 32) : Prop :=
  (∀ (k0_h2 : k0_cond2 i k0_t2 = 1#1), ∀ a x, ((![v561, v402] : Fin 2 → IVec S16 32) a x).toNat < S64x16.size a)
instance k0_chk131.dec : ∀ (i : grid0.Coords) (k0_t2 : Fin k0_t2_loop.trips) (v402 : IVec S16 32) (v561 : IVec S16 32), Decidable (k0_chk131 i k0_t2 v402 v561) := fun i k0_t2 v402 v561 => decidable_of_iff' _ (Iff.of_eq (k0_chk131.eq_1 i k0_t2 v402 v561))
theorem k0_idx131_inb : ∀ (i : grid0.Coords) (k0_t2 : Fin k0_t2_loop.trips) (v402 : IVec S16 32) (v561 : IVec S16 32) (k0_hw131 : k0_chk131 i k0_t2 v402 v561), ∀ (k0_h2 : k0_cond2 i k0_t2 = 1#1), ∀ a x, ((![v561, v402] : Fin 2 → IVec S16 32) a x).toNat < S64x16.size a := fun i k0_t2 v402 v561 k0_hw131 k0_h2 => k0_hw131 k0_h2
def k0_off105 (k0_t3 : Fin k0_t3_loop.trips) : Fin 2 → Nat :=
  let c30_i32_326 : BitVec 32 := 30#32
  let v563 : Index := Scalar.indexCast c30_i32_326
  let c0_i32_271 : BitVec 32 := 0#32
  let c1_i32_273 : BitVec 32 := 1#32
  let arg21 : BitVec 32 := Scf.iv c0_i32_271 c1_i32_273 k0_t3
  let c16_i32_279 : BitVec 32 := 16#32
  let v387 : BitVec 32 := Scalar.muli arg21 c16_i32_279
  let v564 : Index := Scalar.indexCast v387
  ![30, v564.toNat]

def k0_chk132 (i : grid0.Coords) (k0_t2 : Fin k0_t2_loop.trips) (v402 : IVec S16 32) (v566 : IVec S16 32) : Prop :=
  (∀ (k0_h2 : k0_cond2 i k0_t2 = 1#1), ∀ a x, ((![v566, v402] : Fin 2 → IVec S16 32) a x).toNat < S64x16.size a)
instance k0_chk132.dec : ∀ (i : grid0.Coords) (k0_t2 : Fin k0_t2_loop.trips) (v402 : IVec S16 32) (v566 : IVec S16 32), Decidable (k0_chk132 i k0_t2 v402 v566) := fun i k0_t2 v402 v566 => decidable_of_iff' _ (Iff.of_eq (k0_chk132.eq_1 i k0_t2 v402 v566))
theorem k0_idx132_inb : ∀ (i : grid0.Coords) (k0_t2 : Fin k0_t2_loop.trips) (v402 : IVec S16 32) (v566 : IVec S16 32) (k0_hw132 : k0_chk132 i k0_t2 v402 v566), ∀ (k0_h2 : k0_cond2 i k0_t2 = 1#1), ∀ a x, ((![v566, v402] : Fin 2 → IVec S16 32) a x).toNat < S64x16.size a := fun i k0_t2 v402 v566 k0_hw132 k0_h2 => k0_hw132 k0_h2
def k0_off106 (k0_t3 : Fin k0_t3_loop.trips) : Fin 2 → Nat :=
  let c31_i32_327 : BitVec 32 := 31#32
  let v568 : Index := Scalar.indexCast c31_i32_327
  let c0_i32_271 : BitVec 32 := 0#32
  let c1_i32_273 : BitVec 32 := 1#32
  let arg21 : BitVec 32 := Scf.iv c0_i32_271 c1_i32_273 k0_t3
  let c16_i32_279 : BitVec 32 := 16#32
  let v387 : BitVec 32 := Scalar.muli arg21 c16_i32_279
  let v569 : Index := Scalar.indexCast v387
  ![31, v569.toNat]

def k0_chk133 (i : grid0.Coords) (k0_t2 : Fin k0_t2_loop.trips) (v402 : IVec S16 32) (v571 : IVec S16 32) : Prop :=
  (∀ (k0_h2 : k0_cond2 i k0_t2 = 1#1), ∀ a x, ((![v571, v402] : Fin 2 → IVec S16 32) a x).toNat < S64x16.size a)
instance k0_chk133.dec : ∀ (i : grid0.Coords) (k0_t2 : Fin k0_t2_loop.trips) (v402 : IVec S16 32) (v571 : IVec S16 32), Decidable (k0_chk133 i k0_t2 v402 v571) := fun i k0_t2 v402 v571 => decidable_of_iff' _ (Iff.of_eq (k0_chk133.eq_1 i k0_t2 v402 v571))
theorem k0_idx133_inb : ∀ (i : grid0.Coords) (k0_t2 : Fin k0_t2_loop.trips) (v402 : IVec S16 32) (v571 : IVec S16 32) (k0_hw133 : k0_chk133 i k0_t2 v402 v571), ∀ (k0_h2 : k0_cond2 i k0_t2 = 1#1), ∀ a x, ((![v571, v402] : Fin 2 → IVec S16 32) a x).toNat < S64x16.size a := fun i k0_t2 v402 v571 k0_hw133 k0_h2 => k0_hw133 k0_h2
def k0_off107 (k0_t3 : Fin k0_t3_loop.trips) : Fin 2 → Nat :=
  let c32_i32_328 : BitVec 32 := 32#32
  let v573 : Index := Scalar.indexCast c32_i32_328
  let c0_i32_271 : BitVec 32 := 0#32
  let c1_i32_273 : BitVec 32 := 1#32
  let arg21 : BitVec 32 := Scf.iv c0_i32_271 c1_i32_273 k0_t3
  let c16_i32_279 : BitVec 32 := 16#32
  let v387 : BitVec 32 := Scalar.muli arg21 c16_i32_279
  let v574 : Index := Scalar.indexCast v387
  ![32, v574.toNat]

def k0_chk134 (i : grid0.Coords) (k0_t2 : Fin k0_t2_loop.trips) (v402 : IVec S16 32) (v576 : IVec S16 32) : Prop :=
  (∀ (k0_h2 : k0_cond2 i k0_t2 = 1#1), ∀ a x, ((![v576, v402] : Fin 2 → IVec S16 32) a x).toNat < S64x16.size a)
instance k0_chk134.dec : ∀ (i : grid0.Coords) (k0_t2 : Fin k0_t2_loop.trips) (v402 : IVec S16 32) (v576 : IVec S16 32), Decidable (k0_chk134 i k0_t2 v402 v576) := fun i k0_t2 v402 v576 => decidable_of_iff' _ (Iff.of_eq (k0_chk134.eq_1 i k0_t2 v402 v576))
theorem k0_idx134_inb : ∀ (i : grid0.Coords) (k0_t2 : Fin k0_t2_loop.trips) (v402 : IVec S16 32) (v576 : IVec S16 32) (k0_hw134 : k0_chk134 i k0_t2 v402 v576), ∀ (k0_h2 : k0_cond2 i k0_t2 = 1#1), ∀ a x, ((![v576, v402] : Fin 2 → IVec S16 32) a x).toNat < S64x16.size a := fun i k0_t2 v402 v576 k0_hw134 k0_h2 => k0_hw134 k0_h2
def k0_off108 (k0_t3 : Fin k0_t3_loop.trips) : Fin 2 → Nat :=
  let c33_i32_329 : BitVec 32 := 33#32
  let v578 : Index := Scalar.indexCast c33_i32_329
  let c0_i32_271 : BitVec 32 := 0#32
  let c1_i32_273 : BitVec 32 := 1#32
  let arg21 : BitVec 32 := Scf.iv c0_i32_271 c1_i32_273 k0_t3
  let c16_i32_279 : BitVec 32 := 16#32
  let v387 : BitVec 32 := Scalar.muli arg21 c16_i32_279
  let v579 : Index := Scalar.indexCast v387
  ![33, v579.toNat]

def k0_chk135 (i : grid0.Coords) (k0_t2 : Fin k0_t2_loop.trips) (v402 : IVec S16 32) (v581 : IVec S16 32) : Prop :=
  (∀ (k0_h2 : k0_cond2 i k0_t2 = 1#1), ∀ a x, ((![v581, v402] : Fin 2 → IVec S16 32) a x).toNat < S64x16.size a)
instance k0_chk135.dec : ∀ (i : grid0.Coords) (k0_t2 : Fin k0_t2_loop.trips) (v402 : IVec S16 32) (v581 : IVec S16 32), Decidable (k0_chk135 i k0_t2 v402 v581) := fun i k0_t2 v402 v581 => decidable_of_iff' _ (Iff.of_eq (k0_chk135.eq_1 i k0_t2 v402 v581))
theorem k0_idx135_inb : ∀ (i : grid0.Coords) (k0_t2 : Fin k0_t2_loop.trips) (v402 : IVec S16 32) (v581 : IVec S16 32) (k0_hw135 : k0_chk135 i k0_t2 v402 v581), ∀ (k0_h2 : k0_cond2 i k0_t2 = 1#1), ∀ a x, ((![v581, v402] : Fin 2 → IVec S16 32) a x).toNat < S64x16.size a := fun i k0_t2 v402 v581 k0_hw135 k0_h2 => k0_hw135 k0_h2
def k0_off109 (k0_t3 : Fin k0_t3_loop.trips) : Fin 2 → Nat :=
  let c34_i32_330 : BitVec 32 := 34#32
  let v583 : Index := Scalar.indexCast c34_i32_330
  let c0_i32_271 : BitVec 32 := 0#32
  let c1_i32_273 : BitVec 32 := 1#32
  let arg21 : BitVec 32 := Scf.iv c0_i32_271 c1_i32_273 k0_t3
  let c16_i32_279 : BitVec 32 := 16#32
  let v387 : BitVec 32 := Scalar.muli arg21 c16_i32_279
  let v584 : Index := Scalar.indexCast v387
  ![34, v584.toNat]

def k0_chk136 (i : grid0.Coords) (k0_t2 : Fin k0_t2_loop.trips) (v402 : IVec S16 32) (v586 : IVec S16 32) : Prop :=
  (∀ (k0_h2 : k0_cond2 i k0_t2 = 1#1), ∀ a x, ((![v586, v402] : Fin 2 → IVec S16 32) a x).toNat < S64x16.size a)
instance k0_chk136.dec : ∀ (i : grid0.Coords) (k0_t2 : Fin k0_t2_loop.trips) (v402 : IVec S16 32) (v586 : IVec S16 32), Decidable (k0_chk136 i k0_t2 v402 v586) := fun i k0_t2 v402 v586 => decidable_of_iff' _ (Iff.of_eq (k0_chk136.eq_1 i k0_t2 v402 v586))
theorem k0_idx136_inb : ∀ (i : grid0.Coords) (k0_t2 : Fin k0_t2_loop.trips) (v402 : IVec S16 32) (v586 : IVec S16 32) (k0_hw136 : k0_chk136 i k0_t2 v402 v586), ∀ (k0_h2 : k0_cond2 i k0_t2 = 1#1), ∀ a x, ((![v586, v402] : Fin 2 → IVec S16 32) a x).toNat < S64x16.size a := fun i k0_t2 v402 v586 k0_hw136 k0_h2 => k0_hw136 k0_h2
def k0_off110 (k0_t3 : Fin k0_t3_loop.trips) : Fin 2 → Nat :=
  let c35_i32_331 : BitVec 32 := 35#32
  let v588 : Index := Scalar.indexCast c35_i32_331
  let c0_i32_271 : BitVec 32 := 0#32
  let c1_i32_273 : BitVec 32 := 1#32
  let arg21 : BitVec 32 := Scf.iv c0_i32_271 c1_i32_273 k0_t3
  let c16_i32_279 : BitVec 32 := 16#32
  let v387 : BitVec 32 := Scalar.muli arg21 c16_i32_279
  let v589 : Index := Scalar.indexCast v387
  ![35, v589.toNat]

def k0_chk137 (i : grid0.Coords) (k0_t2 : Fin k0_t2_loop.trips) (v402 : IVec S16 32) (v591 : IVec S16 32) : Prop :=
  (∀ (k0_h2 : k0_cond2 i k0_t2 = 1#1), ∀ a x, ((![v591, v402] : Fin 2 → IVec S16 32) a x).toNat < S64x16.size a)
instance k0_chk137.dec : ∀ (i : grid0.Coords) (k0_t2 : Fin k0_t2_loop.trips) (v402 : IVec S16 32) (v591 : IVec S16 32), Decidable (k0_chk137 i k0_t2 v402 v591) := fun i k0_t2 v402 v591 => decidable_of_iff' _ (Iff.of_eq (k0_chk137.eq_1 i k0_t2 v402 v591))
theorem k0_idx137_inb : ∀ (i : grid0.Coords) (k0_t2 : Fin k0_t2_loop.trips) (v402 : IVec S16 32) (v591 : IVec S16 32) (k0_hw137 : k0_chk137 i k0_t2 v402 v591), ∀ (k0_h2 : k0_cond2 i k0_t2 = 1#1), ∀ a x, ((![v591, v402] : Fin 2 → IVec S16 32) a x).toNat < S64x16.size a := fun i k0_t2 v402 v591 k0_hw137 k0_h2 => k0_hw137 k0_h2
def k0_off111 (k0_t3 : Fin k0_t3_loop.trips) : Fin 2 → Nat :=
  let c36_i32_333 : BitVec 32 := 36#32
  let v593 : Index := Scalar.indexCast c36_i32_333
  let c0_i32_271 : BitVec 32 := 0#32
  let c1_i32_273 : BitVec 32 := 1#32
  let arg21 : BitVec 32 := Scf.iv c0_i32_271 c1_i32_273 k0_t3
  let c16_i32_279 : BitVec 32 := 16#32
  let v387 : BitVec 32 := Scalar.muli arg21 c16_i32_279
  let v594 : Index := Scalar.indexCast v387
  ![36, v594.toNat]

def k0_chk138 (i : grid0.Coords) (k0_t2 : Fin k0_t2_loop.trips) (v402 : IVec S16 32) (v596 : IVec S16 32) : Prop :=
  (∀ (k0_h2 : k0_cond2 i k0_t2 = 1#1), ∀ a x, ((![v596, v402] : Fin 2 → IVec S16 32) a x).toNat < S64x16.size a)
instance k0_chk138.dec : ∀ (i : grid0.Coords) (k0_t2 : Fin k0_t2_loop.trips) (v402 : IVec S16 32) (v596 : IVec S16 32), Decidable (k0_chk138 i k0_t2 v402 v596) := fun i k0_t2 v402 v596 => decidable_of_iff' _ (Iff.of_eq (k0_chk138.eq_1 i k0_t2 v402 v596))
theorem k0_idx138_inb : ∀ (i : grid0.Coords) (k0_t2 : Fin k0_t2_loop.trips) (v402 : IVec S16 32) (v596 : IVec S16 32) (k0_hw138 : k0_chk138 i k0_t2 v402 v596), ∀ (k0_h2 : k0_cond2 i k0_t2 = 1#1), ∀ a x, ((![v596, v402] : Fin 2 → IVec S16 32) a x).toNat < S64x16.size a := fun i k0_t2 v402 v596 k0_hw138 k0_h2 => k0_hw138 k0_h2
def k0_off112 (k0_t3 : Fin k0_t3_loop.trips) : Fin 2 → Nat :=
  let c37_i32_334 : BitVec 32 := 37#32
  let v598 : Index := Scalar.indexCast c37_i32_334
  let c0_i32_271 : BitVec 32 := 0#32
  let c1_i32_273 : BitVec 32 := 1#32
  let arg21 : BitVec 32 := Scf.iv c0_i32_271 c1_i32_273 k0_t3
  let c16_i32_279 : BitVec 32 := 16#32
  let v387 : BitVec 32 := Scalar.muli arg21 c16_i32_279
  let v599 : Index := Scalar.indexCast v387
  ![37, v599.toNat]

def k0_chk139 (i : grid0.Coords) (k0_t2 : Fin k0_t2_loop.trips) (v402 : IVec S16 32) (v601 : IVec S16 32) : Prop :=
  (∀ (k0_h2 : k0_cond2 i k0_t2 = 1#1), ∀ a x, ((![v601, v402] : Fin 2 → IVec S16 32) a x).toNat < S64x16.size a)
instance k0_chk139.dec : ∀ (i : grid0.Coords) (k0_t2 : Fin k0_t2_loop.trips) (v402 : IVec S16 32) (v601 : IVec S16 32), Decidable (k0_chk139 i k0_t2 v402 v601) := fun i k0_t2 v402 v601 => decidable_of_iff' _ (Iff.of_eq (k0_chk139.eq_1 i k0_t2 v402 v601))
theorem k0_idx139_inb : ∀ (i : grid0.Coords) (k0_t2 : Fin k0_t2_loop.trips) (v402 : IVec S16 32) (v601 : IVec S16 32) (k0_hw139 : k0_chk139 i k0_t2 v402 v601), ∀ (k0_h2 : k0_cond2 i k0_t2 = 1#1), ∀ a x, ((![v601, v402] : Fin 2 → IVec S16 32) a x).toNat < S64x16.size a := fun i k0_t2 v402 v601 k0_hw139 k0_h2 => k0_hw139 k0_h2
def k0_off113 (k0_t3 : Fin k0_t3_loop.trips) : Fin 2 → Nat :=
  let c38_i32_335 : BitVec 32 := 38#32
  let v603 : Index := Scalar.indexCast c38_i32_335
  let c0_i32_271 : BitVec 32 := 0#32
  let c1_i32_273 : BitVec 32 := 1#32
  let arg21 : BitVec 32 := Scf.iv c0_i32_271 c1_i32_273 k0_t3
  let c16_i32_279 : BitVec 32 := 16#32
  let v387 : BitVec 32 := Scalar.muli arg21 c16_i32_279
  let v604 : Index := Scalar.indexCast v387
  ![38, v604.toNat]

def k0_chk140 (i : grid0.Coords) (k0_t2 : Fin k0_t2_loop.trips) (v402 : IVec S16 32) (v606 : IVec S16 32) : Prop :=
  (∀ (k0_h2 : k0_cond2 i k0_t2 = 1#1), ∀ a x, ((![v606, v402] : Fin 2 → IVec S16 32) a x).toNat < S64x16.size a)
instance k0_chk140.dec : ∀ (i : grid0.Coords) (k0_t2 : Fin k0_t2_loop.trips) (v402 : IVec S16 32) (v606 : IVec S16 32), Decidable (k0_chk140 i k0_t2 v402 v606) := fun i k0_t2 v402 v606 => decidable_of_iff' _ (Iff.of_eq (k0_chk140.eq_1 i k0_t2 v402 v606))
theorem k0_idx140_inb : ∀ (i : grid0.Coords) (k0_t2 : Fin k0_t2_loop.trips) (v402 : IVec S16 32) (v606 : IVec S16 32) (k0_hw140 : k0_chk140 i k0_t2 v402 v606), ∀ (k0_h2 : k0_cond2 i k0_t2 = 1#1), ∀ a x, ((![v606, v402] : Fin 2 → IVec S16 32) a x).toNat < S64x16.size a := fun i k0_t2 v402 v606 k0_hw140 k0_h2 => k0_hw140 k0_h2
def k0_off114 (k0_t3 : Fin k0_t3_loop.trips) : Fin 2 → Nat :=
  let c39_i32_336 : BitVec 32 := 39#32
  let v608 : Index := Scalar.indexCast c39_i32_336
  let c0_i32_271 : BitVec 32 := 0#32
  let c1_i32_273 : BitVec 32 := 1#32
  let arg21 : BitVec 32 := Scf.iv c0_i32_271 c1_i32_273 k0_t3
  let c16_i32_279 : BitVec 32 := 16#32
  let v387 : BitVec 32 := Scalar.muli arg21 c16_i32_279
  let v609 : Index := Scalar.indexCast v387
  ![39, v609.toNat]

def k0_chk141 (i : grid0.Coords) (k0_t2 : Fin k0_t2_loop.trips) (v402 : IVec S16 32) (v611 : IVec S16 32) : Prop :=
  (∀ (k0_h2 : k0_cond2 i k0_t2 = 1#1), ∀ a x, ((![v611, v402] : Fin 2 → IVec S16 32) a x).toNat < S64x16.size a)
instance k0_chk141.dec : ∀ (i : grid0.Coords) (k0_t2 : Fin k0_t2_loop.trips) (v402 : IVec S16 32) (v611 : IVec S16 32), Decidable (k0_chk141 i k0_t2 v402 v611) := fun i k0_t2 v402 v611 => decidable_of_iff' _ (Iff.of_eq (k0_chk141.eq_1 i k0_t2 v402 v611))
theorem k0_idx141_inb : ∀ (i : grid0.Coords) (k0_t2 : Fin k0_t2_loop.trips) (v402 : IVec S16 32) (v611 : IVec S16 32) (k0_hw141 : k0_chk141 i k0_t2 v402 v611), ∀ (k0_h2 : k0_cond2 i k0_t2 = 1#1), ∀ a x, ((![v611, v402] : Fin 2 → IVec S16 32) a x).toNat < S64x16.size a := fun i k0_t2 v402 v611 k0_hw141 k0_h2 => k0_hw141 k0_h2
def k0_off115 (k0_t3 : Fin k0_t3_loop.trips) : Fin 2 → Nat :=
  let c40_i32_337 : BitVec 32 := 40#32
  let v613 : Index := Scalar.indexCast c40_i32_337
  let c0_i32_271 : BitVec 32 := 0#32
  let c1_i32_273 : BitVec 32 := 1#32
  let arg21 : BitVec 32 := Scf.iv c0_i32_271 c1_i32_273 k0_t3
  let c16_i32_279 : BitVec 32 := 16#32
  let v387 : BitVec 32 := Scalar.muli arg21 c16_i32_279
  let v614 : Index := Scalar.indexCast v387
  ![40, v614.toNat]

def k0_chk142 (i : grid0.Coords) (k0_t2 : Fin k0_t2_loop.trips) (v402 : IVec S16 32) (v616 : IVec S16 32) : Prop :=
  (∀ (k0_h2 : k0_cond2 i k0_t2 = 1#1), ∀ a x, ((![v616, v402] : Fin 2 → IVec S16 32) a x).toNat < S64x16.size a)
instance k0_chk142.dec : ∀ (i : grid0.Coords) (k0_t2 : Fin k0_t2_loop.trips) (v402 : IVec S16 32) (v616 : IVec S16 32), Decidable (k0_chk142 i k0_t2 v402 v616) := fun i k0_t2 v402 v616 => decidable_of_iff' _ (Iff.of_eq (k0_chk142.eq_1 i k0_t2 v402 v616))
theorem k0_idx142_inb : ∀ (i : grid0.Coords) (k0_t2 : Fin k0_t2_loop.trips) (v402 : IVec S16 32) (v616 : IVec S16 32) (k0_hw142 : k0_chk142 i k0_t2 v402 v616), ∀ (k0_h2 : k0_cond2 i k0_t2 = 1#1), ∀ a x, ((![v616, v402] : Fin 2 → IVec S16 32) a x).toNat < S64x16.size a := fun i k0_t2 v402 v616 k0_hw142 k0_h2 => k0_hw142 k0_h2
def k0_off116 (k0_t3 : Fin k0_t3_loop.trips) : Fin 2 → Nat :=
  let c41_i32_338 : BitVec 32 := 41#32
  let v618 : Index := Scalar.indexCast c41_i32_338
  let c0_i32_271 : BitVec 32 := 0#32
  let c1_i32_273 : BitVec 32 := 1#32
  let arg21 : BitVec 32 := Scf.iv c0_i32_271 c1_i32_273 k0_t3
  let c16_i32_279 : BitVec 32 := 16#32
  let v387 : BitVec 32 := Scalar.muli arg21 c16_i32_279
  let v619 : Index := Scalar.indexCast v387
  ![41, v619.toNat]

def k0_chk143 (i : grid0.Coords) (k0_t2 : Fin k0_t2_loop.trips) (v402 : IVec S16 32) (v621 : IVec S16 32) : Prop :=
  (∀ (k0_h2 : k0_cond2 i k0_t2 = 1#1), ∀ a x, ((![v621, v402] : Fin 2 → IVec S16 32) a x).toNat < S64x16.size a)
instance k0_chk143.dec : ∀ (i : grid0.Coords) (k0_t2 : Fin k0_t2_loop.trips) (v402 : IVec S16 32) (v621 : IVec S16 32), Decidable (k0_chk143 i k0_t2 v402 v621) := fun i k0_t2 v402 v621 => decidable_of_iff' _ (Iff.of_eq (k0_chk143.eq_1 i k0_t2 v402 v621))
theorem k0_idx143_inb : ∀ (i : grid0.Coords) (k0_t2 : Fin k0_t2_loop.trips) (v402 : IVec S16 32) (v621 : IVec S16 32) (k0_hw143 : k0_chk143 i k0_t2 v402 v621), ∀ (k0_h2 : k0_cond2 i k0_t2 = 1#1), ∀ a x, ((![v621, v402] : Fin 2 → IVec S16 32) a x).toNat < S64x16.size a := fun i k0_t2 v402 v621 k0_hw143 k0_h2 => k0_hw143 k0_h2
def k0_off117 (k0_t3 : Fin k0_t3_loop.trips) : Fin 2 → Nat :=
  let c42_i32_339 : BitVec 32 := 42#32
  let v623 : Index := Scalar.indexCast c42_i32_339
  let c0_i32_271 : BitVec 32 := 0#32
  let c1_i32_273 : BitVec 32 := 1#32
  let arg21 : BitVec 32 := Scf.iv c0_i32_271 c1_i32_273 k0_t3
  let c16_i32_279 : BitVec 32 := 16#32
  let v387 : BitVec 32 := Scalar.muli arg21 c16_i32_279
  let v624 : Index := Scalar.indexCast v387
  ![42, v624.toNat]

def k0_chk144 (i : grid0.Coords) (k0_t2 : Fin k0_t2_loop.trips) (v402 : IVec S16 32) (v626 : IVec S16 32) : Prop :=
  (∀ (k0_h2 : k0_cond2 i k0_t2 = 1#1), ∀ a x, ((![v626, v402] : Fin 2 → IVec S16 32) a x).toNat < S64x16.size a)
instance k0_chk144.dec : ∀ (i : grid0.Coords) (k0_t2 : Fin k0_t2_loop.trips) (v402 : IVec S16 32) (v626 : IVec S16 32), Decidable (k0_chk144 i k0_t2 v402 v626) := fun i k0_t2 v402 v626 => decidable_of_iff' _ (Iff.of_eq (k0_chk144.eq_1 i k0_t2 v402 v626))
theorem k0_idx144_inb : ∀ (i : grid0.Coords) (k0_t2 : Fin k0_t2_loop.trips) (v402 : IVec S16 32) (v626 : IVec S16 32) (k0_hw144 : k0_chk144 i k0_t2 v402 v626), ∀ (k0_h2 : k0_cond2 i k0_t2 = 1#1), ∀ a x, ((![v626, v402] : Fin 2 → IVec S16 32) a x).toNat < S64x16.size a := fun i k0_t2 v402 v626 k0_hw144 k0_h2 => k0_hw144 k0_h2
def k0_off118 (k0_t3 : Fin k0_t3_loop.trips) : Fin 2 → Nat :=
  let c43_i32_340 : BitVec 32 := 43#32
  let v628 : Index := Scalar.indexCast c43_i32_340
  let c0_i32_271 : BitVec 32 := 0#32
  let c1_i32_273 : BitVec 32 := 1#32
  let arg21 : BitVec 32 := Scf.iv c0_i32_271 c1_i32_273 k0_t3
  let c16_i32_279 : BitVec 32 := 16#32
  let v387 : BitVec 32 := Scalar.muli arg21 c16_i32_279
  let v629 : Index := Scalar.indexCast v387
  ![43, v629.toNat]

def k0_chk145 (i : grid0.Coords) (k0_t2 : Fin k0_t2_loop.trips) (v402 : IVec S16 32) (v631 : IVec S16 32) : Prop :=
  (∀ (k0_h2 : k0_cond2 i k0_t2 = 1#1), ∀ a x, ((![v631, v402] : Fin 2 → IVec S16 32) a x).toNat < S64x16.size a)
instance k0_chk145.dec : ∀ (i : grid0.Coords) (k0_t2 : Fin k0_t2_loop.trips) (v402 : IVec S16 32) (v631 : IVec S16 32), Decidable (k0_chk145 i k0_t2 v402 v631) := fun i k0_t2 v402 v631 => decidable_of_iff' _ (Iff.of_eq (k0_chk145.eq_1 i k0_t2 v402 v631))
theorem k0_idx145_inb : ∀ (i : grid0.Coords) (k0_t2 : Fin k0_t2_loop.trips) (v402 : IVec S16 32) (v631 : IVec S16 32) (k0_hw145 : k0_chk145 i k0_t2 v402 v631), ∀ (k0_h2 : k0_cond2 i k0_t2 = 1#1), ∀ a x, ((![v631, v402] : Fin 2 → IVec S16 32) a x).toNat < S64x16.size a := fun i k0_t2 v402 v631 k0_hw145 k0_h2 => k0_hw145 k0_h2
def k0_off119 (k0_t3 : Fin k0_t3_loop.trips) : Fin 2 → Nat :=
  let c44_i32_342 : BitVec 32 := 44#32
  let v633 : Index := Scalar.indexCast c44_i32_342
  let c0_i32_271 : BitVec 32 := 0#32
  let c1_i32_273 : BitVec 32 := 1#32
  let arg21 : BitVec 32 := Scf.iv c0_i32_271 c1_i32_273 k0_t3
  let c16_i32_279 : BitVec 32 := 16#32
  let v387 : BitVec 32 := Scalar.muli arg21 c16_i32_279
  let v634 : Index := Scalar.indexCast v387
  ![44, v634.toNat]

def k0_chk146 (i : grid0.Coords) (k0_t2 : Fin k0_t2_loop.trips) (v402 : IVec S16 32) (v636 : IVec S16 32) : Prop :=
  (∀ (k0_h2 : k0_cond2 i k0_t2 = 1#1), ∀ a x, ((![v636, v402] : Fin 2 → IVec S16 32) a x).toNat < S64x16.size a)
instance k0_chk146.dec : ∀ (i : grid0.Coords) (k0_t2 : Fin k0_t2_loop.trips) (v402 : IVec S16 32) (v636 : IVec S16 32), Decidable (k0_chk146 i k0_t2 v402 v636) := fun i k0_t2 v402 v636 => decidable_of_iff' _ (Iff.of_eq (k0_chk146.eq_1 i k0_t2 v402 v636))
theorem k0_idx146_inb : ∀ (i : grid0.Coords) (k0_t2 : Fin k0_t2_loop.trips) (v402 : IVec S16 32) (v636 : IVec S16 32) (k0_hw146 : k0_chk146 i k0_t2 v402 v636), ∀ (k0_h2 : k0_cond2 i k0_t2 = 1#1), ∀ a x, ((![v636, v402] : Fin 2 → IVec S16 32) a x).toNat < S64x16.size a := fun i k0_t2 v402 v636 k0_hw146 k0_h2 => k0_hw146 k0_h2
def k0_off120 (k0_t3 : Fin k0_t3_loop.trips) : Fin 2 → Nat :=
  let c45_i32_343 : BitVec 32 := 45#32
  let v638 : Index := Scalar.indexCast c45_i32_343
  let c0_i32_271 : BitVec 32 := 0#32
  let c1_i32_273 : BitVec 32 := 1#32
  let arg21 : BitVec 32 := Scf.iv c0_i32_271 c1_i32_273 k0_t3
  let c16_i32_279 : BitVec 32 := 16#32
  let v387 : BitVec 32 := Scalar.muli arg21 c16_i32_279
  let v639 : Index := Scalar.indexCast v387
  ![45, v639.toNat]

def k0_chk147 (i : grid0.Coords) (k0_t2 : Fin k0_t2_loop.trips) (v402 : IVec S16 32) (v641 : IVec S16 32) : Prop :=
  (∀ (k0_h2 : k0_cond2 i k0_t2 = 1#1), ∀ a x, ((![v641, v402] : Fin 2 → IVec S16 32) a x).toNat < S64x16.size a)
instance k0_chk147.dec : ∀ (i : grid0.Coords) (k0_t2 : Fin k0_t2_loop.trips) (v402 : IVec S16 32) (v641 : IVec S16 32), Decidable (k0_chk147 i k0_t2 v402 v641) := fun i k0_t2 v402 v641 => decidable_of_iff' _ (Iff.of_eq (k0_chk147.eq_1 i k0_t2 v402 v641))
theorem k0_idx147_inb : ∀ (i : grid0.Coords) (k0_t2 : Fin k0_t2_loop.trips) (v402 : IVec S16 32) (v641 : IVec S16 32) (k0_hw147 : k0_chk147 i k0_t2 v402 v641), ∀ (k0_h2 : k0_cond2 i k0_t2 = 1#1), ∀ a x, ((![v641, v402] : Fin 2 → IVec S16 32) a x).toNat < S64x16.size a := fun i k0_t2 v402 v641 k0_hw147 k0_h2 => k0_hw147 k0_h2
def k0_off121 (k0_t3 : Fin k0_t3_loop.trips) : Fin 2 → Nat :=
  let c46_i32_344 : BitVec 32 := 46#32
  let v643 : Index := Scalar.indexCast c46_i32_344
  let c0_i32_271 : BitVec 32 := 0#32
  let c1_i32_273 : BitVec 32 := 1#32
  let arg21 : BitVec 32 := Scf.iv c0_i32_271 c1_i32_273 k0_t3
  let c16_i32_279 : BitVec 32 := 16#32
  let v387 : BitVec 32 := Scalar.muli arg21 c16_i32_279
  let v644 : Index := Scalar.indexCast v387
  ![46, v644.toNat]

def k0_chk148 (i : grid0.Coords) (k0_t2 : Fin k0_t2_loop.trips) (v402 : IVec S16 32) (v646 : IVec S16 32) : Prop :=
  (∀ (k0_h2 : k0_cond2 i k0_t2 = 1#1), ∀ a x, ((![v646, v402] : Fin 2 → IVec S16 32) a x).toNat < S64x16.size a)
instance k0_chk148.dec : ∀ (i : grid0.Coords) (k0_t2 : Fin k0_t2_loop.trips) (v402 : IVec S16 32) (v646 : IVec S16 32), Decidable (k0_chk148 i k0_t2 v402 v646) := fun i k0_t2 v402 v646 => decidable_of_iff' _ (Iff.of_eq (k0_chk148.eq_1 i k0_t2 v402 v646))
theorem k0_idx148_inb : ∀ (i : grid0.Coords) (k0_t2 : Fin k0_t2_loop.trips) (v402 : IVec S16 32) (v646 : IVec S16 32) (k0_hw148 : k0_chk148 i k0_t2 v402 v646), ∀ (k0_h2 : k0_cond2 i k0_t2 = 1#1), ∀ a x, ((![v646, v402] : Fin 2 → IVec S16 32) a x).toNat < S64x16.size a := fun i k0_t2 v402 v646 k0_hw148 k0_h2 => k0_hw148 k0_h2
def k0_off122 (k0_t3 : Fin k0_t3_loop.trips) : Fin 2 → Nat :=
  let c47_i32_345 : BitVec 32 := 47#32
  let v648 : Index := Scalar.indexCast c47_i32_345
  let c0_i32_271 : BitVec 32 := 0#32
  let c1_i32_273 : BitVec 32 := 1#32
  let arg21 : BitVec 32 := Scf.iv c0_i32_271 c1_i32_273 k0_t3
  let c16_i32_279 : BitVec 32 := 16#32
  let v387 : BitVec 32 := Scalar.muli arg21 c16_i32_279
  let v649 : Index := Scalar.indexCast v387
  ![47, v649.toNat]

def k0_chk149 (i : grid0.Coords) (k0_t2 : Fin k0_t2_loop.trips) (v402 : IVec S16 32) (v651 : IVec S16 32) : Prop :=
  (∀ (k0_h2 : k0_cond2 i k0_t2 = 1#1), ∀ a x, ((![v651, v402] : Fin 2 → IVec S16 32) a x).toNat < S64x16.size a)
instance k0_chk149.dec : ∀ (i : grid0.Coords) (k0_t2 : Fin k0_t2_loop.trips) (v402 : IVec S16 32) (v651 : IVec S16 32), Decidable (k0_chk149 i k0_t2 v402 v651) := fun i k0_t2 v402 v651 => decidable_of_iff' _ (Iff.of_eq (k0_chk149.eq_1 i k0_t2 v402 v651))
theorem k0_idx149_inb : ∀ (i : grid0.Coords) (k0_t2 : Fin k0_t2_loop.trips) (v402 : IVec S16 32) (v651 : IVec S16 32) (k0_hw149 : k0_chk149 i k0_t2 v402 v651), ∀ (k0_h2 : k0_cond2 i k0_t2 = 1#1), ∀ a x, ((![v651, v402] : Fin 2 → IVec S16 32) a x).toNat < S64x16.size a := fun i k0_t2 v402 v651 k0_hw149 k0_h2 => k0_hw149 k0_h2
def k0_off123 (k0_t3 : Fin k0_t3_loop.trips) : Fin 2 → Nat :=
  let c48_i32_346 : BitVec 32 := 48#32
  let v653 : Index := Scalar.indexCast c48_i32_346
  let c0_i32_271 : BitVec 32 := 0#32
  let c1_i32_273 : BitVec 32 := 1#32
  let arg21 : BitVec 32 := Scf.iv c0_i32_271 c1_i32_273 k0_t3
  let c16_i32_279 : BitVec 32 := 16#32
  let v387 : BitVec 32 := Scalar.muli arg21 c16_i32_279
  let v654 : Index := Scalar.indexCast v387
  ![48, v654.toNat]

def k0_chk150 (i : grid0.Coords) (k0_t2 : Fin k0_t2_loop.trips) (v402 : IVec S16 32) (v656 : IVec S16 32) : Prop :=
  (∀ (k0_h2 : k0_cond2 i k0_t2 = 1#1), ∀ a x, ((![v656, v402] : Fin 2 → IVec S16 32) a x).toNat < S64x16.size a)
instance k0_chk150.dec : ∀ (i : grid0.Coords) (k0_t2 : Fin k0_t2_loop.trips) (v402 : IVec S16 32) (v656 : IVec S16 32), Decidable (k0_chk150 i k0_t2 v402 v656) := fun i k0_t2 v402 v656 => decidable_of_iff' _ (Iff.of_eq (k0_chk150.eq_1 i k0_t2 v402 v656))
theorem k0_idx150_inb : ∀ (i : grid0.Coords) (k0_t2 : Fin k0_t2_loop.trips) (v402 : IVec S16 32) (v656 : IVec S16 32) (k0_hw150 : k0_chk150 i k0_t2 v402 v656), ∀ (k0_h2 : k0_cond2 i k0_t2 = 1#1), ∀ a x, ((![v656, v402] : Fin 2 → IVec S16 32) a x).toNat < S64x16.size a := fun i k0_t2 v402 v656 k0_hw150 k0_h2 => k0_hw150 k0_h2
def k0_off124 (k0_t3 : Fin k0_t3_loop.trips) : Fin 2 → Nat :=
  let c49_i32_347 : BitVec 32 := 49#32
  let v658 : Index := Scalar.indexCast c49_i32_347
  let c0_i32_271 : BitVec 32 := 0#32
  let c1_i32_273 : BitVec 32 := 1#32
  let arg21 : BitVec 32 := Scf.iv c0_i32_271 c1_i32_273 k0_t3
  let c16_i32_279 : BitVec 32 := 16#32
  let v387 : BitVec 32 := Scalar.muli arg21 c16_i32_279
  let v659 : Index := Scalar.indexCast v387
  ![49, v659.toNat]

def k0_chk151 (i : grid0.Coords) (k0_t2 : Fin k0_t2_loop.trips) (v402 : IVec S16 32) (v661 : IVec S16 32) : Prop :=
  (∀ (k0_h2 : k0_cond2 i k0_t2 = 1#1), ∀ a x, ((![v661, v402] : Fin 2 → IVec S16 32) a x).toNat < S64x16.size a)
instance k0_chk151.dec : ∀ (i : grid0.Coords) (k0_t2 : Fin k0_t2_loop.trips) (v402 : IVec S16 32) (v661 : IVec S16 32), Decidable (k0_chk151 i k0_t2 v402 v661) := fun i k0_t2 v402 v661 => decidable_of_iff' _ (Iff.of_eq (k0_chk151.eq_1 i k0_t2 v402 v661))
theorem k0_idx151_inb : ∀ (i : grid0.Coords) (k0_t2 : Fin k0_t2_loop.trips) (v402 : IVec S16 32) (v661 : IVec S16 32) (k0_hw151 : k0_chk151 i k0_t2 v402 v661), ∀ (k0_h2 : k0_cond2 i k0_t2 = 1#1), ∀ a x, ((![v661, v402] : Fin 2 → IVec S16 32) a x).toNat < S64x16.size a := fun i k0_t2 v402 v661 k0_hw151 k0_h2 => k0_hw151 k0_h2
def k0_off125 (k0_t3 : Fin k0_t3_loop.trips) : Fin 2 → Nat :=
  let c50_i32_348 : BitVec 32 := 50#32
  let v663 : Index := Scalar.indexCast c50_i32_348
  let c0_i32_271 : BitVec 32 := 0#32
  let c1_i32_273 : BitVec 32 := 1#32
  let arg21 : BitVec 32 := Scf.iv c0_i32_271 c1_i32_273 k0_t3
  let c16_i32_279 : BitVec 32 := 16#32
  let v387 : BitVec 32 := Scalar.muli arg21 c16_i32_279
  let v664 : Index := Scalar.indexCast v387
  ![50, v664.toNat]

def k0_chk152 (i : grid0.Coords) (k0_t2 : Fin k0_t2_loop.trips) (v402 : IVec S16 32) (v666 : IVec S16 32) : Prop :=
  (∀ (k0_h2 : k0_cond2 i k0_t2 = 1#1), ∀ a x, ((![v666, v402] : Fin 2 → IVec S16 32) a x).toNat < S64x16.size a)
instance k0_chk152.dec : ∀ (i : grid0.Coords) (k0_t2 : Fin k0_t2_loop.trips) (v402 : IVec S16 32) (v666 : IVec S16 32), Decidable (k0_chk152 i k0_t2 v402 v666) := fun i k0_t2 v402 v666 => decidable_of_iff' _ (Iff.of_eq (k0_chk152.eq_1 i k0_t2 v402 v666))
theorem k0_idx152_inb : ∀ (i : grid0.Coords) (k0_t2 : Fin k0_t2_loop.trips) (v402 : IVec S16 32) (v666 : IVec S16 32) (k0_hw152 : k0_chk152 i k0_t2 v402 v666), ∀ (k0_h2 : k0_cond2 i k0_t2 = 1#1), ∀ a x, ((![v666, v402] : Fin 2 → IVec S16 32) a x).toNat < S64x16.size a := fun i k0_t2 v402 v666 k0_hw152 k0_h2 => k0_hw152 k0_h2
def k0_off126 (k0_t3 : Fin k0_t3_loop.trips) : Fin 2 → Nat :=
  let c51_i32_349 : BitVec 32 := 51#32
  let v668 : Index := Scalar.indexCast c51_i32_349
  let c0_i32_271 : BitVec 32 := 0#32
  let c1_i32_273 : BitVec 32 := 1#32
  let arg21 : BitVec 32 := Scf.iv c0_i32_271 c1_i32_273 k0_t3
  let c16_i32_279 : BitVec 32 := 16#32
  let v387 : BitVec 32 := Scalar.muli arg21 c16_i32_279
  let v669 : Index := Scalar.indexCast v387
  ![51, v669.toNat]

def k0_chk153 (i : grid0.Coords) (k0_t2 : Fin k0_t2_loop.trips) (v402 : IVec S16 32) (v671 : IVec S16 32) : Prop :=
  (∀ (k0_h2 : k0_cond2 i k0_t2 = 1#1), ∀ a x, ((![v671, v402] : Fin 2 → IVec S16 32) a x).toNat < S64x16.size a)
instance k0_chk153.dec : ∀ (i : grid0.Coords) (k0_t2 : Fin k0_t2_loop.trips) (v402 : IVec S16 32) (v671 : IVec S16 32), Decidable (k0_chk153 i k0_t2 v402 v671) := fun i k0_t2 v402 v671 => decidable_of_iff' _ (Iff.of_eq (k0_chk153.eq_1 i k0_t2 v402 v671))
theorem k0_idx153_inb : ∀ (i : grid0.Coords) (k0_t2 : Fin k0_t2_loop.trips) (v402 : IVec S16 32) (v671 : IVec S16 32) (k0_hw153 : k0_chk153 i k0_t2 v402 v671), ∀ (k0_h2 : k0_cond2 i k0_t2 = 1#1), ∀ a x, ((![v671, v402] : Fin 2 → IVec S16 32) a x).toNat < S64x16.size a := fun i k0_t2 v402 v671 k0_hw153 k0_h2 => k0_hw153 k0_h2
def k0_off127 (k0_t3 : Fin k0_t3_loop.trips) : Fin 2 → Nat :=
  let c52_i32_350 : BitVec 32 := 52#32
  let v673 : Index := Scalar.indexCast c52_i32_350
  let c0_i32_271 : BitVec 32 := 0#32
  let c1_i32_273 : BitVec 32 := 1#32
  let arg21 : BitVec 32 := Scf.iv c0_i32_271 c1_i32_273 k0_t3
  let c16_i32_279 : BitVec 32 := 16#32
  let v387 : BitVec 32 := Scalar.muli arg21 c16_i32_279
  let v674 : Index := Scalar.indexCast v387
  ![52, v674.toNat]

def k0_chk154 (i : grid0.Coords) (k0_t2 : Fin k0_t2_loop.trips) (v402 : IVec S16 32) (v676 : IVec S16 32) : Prop :=
  (∀ (k0_h2 : k0_cond2 i k0_t2 = 1#1), ∀ a x, ((![v676, v402] : Fin 2 → IVec S16 32) a x).toNat < S64x16.size a)
instance k0_chk154.dec : ∀ (i : grid0.Coords) (k0_t2 : Fin k0_t2_loop.trips) (v402 : IVec S16 32) (v676 : IVec S16 32), Decidable (k0_chk154 i k0_t2 v402 v676) := fun i k0_t2 v402 v676 => decidable_of_iff' _ (Iff.of_eq (k0_chk154.eq_1 i k0_t2 v402 v676))
theorem k0_idx154_inb : ∀ (i : grid0.Coords) (k0_t2 : Fin k0_t2_loop.trips) (v402 : IVec S16 32) (v676 : IVec S16 32) (k0_hw154 : k0_chk154 i k0_t2 v402 v676), ∀ (k0_h2 : k0_cond2 i k0_t2 = 1#1), ∀ a x, ((![v676, v402] : Fin 2 → IVec S16 32) a x).toNat < S64x16.size a := fun i k0_t2 v402 v676 k0_hw154 k0_h2 => k0_hw154 k0_h2
def k0_off128 (k0_t3 : Fin k0_t3_loop.trips) : Fin 2 → Nat :=
  let c53_i32_351 : BitVec 32 := 53#32
  let v678 : Index := Scalar.indexCast c53_i32_351
  let c0_i32_271 : BitVec 32 := 0#32
  let c1_i32_273 : BitVec 32 := 1#32
  let arg21 : BitVec 32 := Scf.iv c0_i32_271 c1_i32_273 k0_t3
  let c16_i32_279 : BitVec 32 := 16#32
  let v387 : BitVec 32 := Scalar.muli arg21 c16_i32_279
  let v679 : Index := Scalar.indexCast v387
  ![53, v679.toNat]

def k0_chk155 (i : grid0.Coords) (k0_t2 : Fin k0_t2_loop.trips) (v402 : IVec S16 32) (v681 : IVec S16 32) : Prop :=
  (∀ (k0_h2 : k0_cond2 i k0_t2 = 1#1), ∀ a x, ((![v681, v402] : Fin 2 → IVec S16 32) a x).toNat < S64x16.size a)
instance k0_chk155.dec : ∀ (i : grid0.Coords) (k0_t2 : Fin k0_t2_loop.trips) (v402 : IVec S16 32) (v681 : IVec S16 32), Decidable (k0_chk155 i k0_t2 v402 v681) := fun i k0_t2 v402 v681 => decidable_of_iff' _ (Iff.of_eq (k0_chk155.eq_1 i k0_t2 v402 v681))
theorem k0_idx155_inb : ∀ (i : grid0.Coords) (k0_t2 : Fin k0_t2_loop.trips) (v402 : IVec S16 32) (v681 : IVec S16 32) (k0_hw155 : k0_chk155 i k0_t2 v402 v681), ∀ (k0_h2 : k0_cond2 i k0_t2 = 1#1), ∀ a x, ((![v681, v402] : Fin 2 → IVec S16 32) a x).toNat < S64x16.size a := fun i k0_t2 v402 v681 k0_hw155 k0_h2 => k0_hw155 k0_h2
def k0_off129 (k0_t3 : Fin k0_t3_loop.trips) : Fin 2 → Nat :=
  let c54_i32_352 : BitVec 32 := 54#32
  let v683 : Index := Scalar.indexCast c54_i32_352
  let c0_i32_271 : BitVec 32 := 0#32
  let c1_i32_273 : BitVec 32 := 1#32
  let arg21 : BitVec 32 := Scf.iv c0_i32_271 c1_i32_273 k0_t3
  let c16_i32_279 : BitVec 32 := 16#32
  let v387 : BitVec 32 := Scalar.muli arg21 c16_i32_279
  let v684 : Index := Scalar.indexCast v387
  ![54, v684.toNat]

def k0_chk156 (i : grid0.Coords) (k0_t2 : Fin k0_t2_loop.trips) (v402 : IVec S16 32) (v686 : IVec S16 32) : Prop :=
  (∀ (k0_h2 : k0_cond2 i k0_t2 = 1#1), ∀ a x, ((![v686, v402] : Fin 2 → IVec S16 32) a x).toNat < S64x16.size a)
instance k0_chk156.dec : ∀ (i : grid0.Coords) (k0_t2 : Fin k0_t2_loop.trips) (v402 : IVec S16 32) (v686 : IVec S16 32), Decidable (k0_chk156 i k0_t2 v402 v686) := fun i k0_t2 v402 v686 => decidable_of_iff' _ (Iff.of_eq (k0_chk156.eq_1 i k0_t2 v402 v686))
theorem k0_idx156_inb : ∀ (i : grid0.Coords) (k0_t2 : Fin k0_t2_loop.trips) (v402 : IVec S16 32) (v686 : IVec S16 32) (k0_hw156 : k0_chk156 i k0_t2 v402 v686), ∀ (k0_h2 : k0_cond2 i k0_t2 = 1#1), ∀ a x, ((![v686, v402] : Fin 2 → IVec S16 32) a x).toNat < S64x16.size a := fun i k0_t2 v402 v686 k0_hw156 k0_h2 => k0_hw156 k0_h2
def k0_off130 (k0_t3 : Fin k0_t3_loop.trips) : Fin 2 → Nat :=
  let c55_i32_353 : BitVec 32 := 55#32
  let v688 : Index := Scalar.indexCast c55_i32_353
  let c0_i32_271 : BitVec 32 := 0#32
  let c1_i32_273 : BitVec 32 := 1#32
  let arg21 : BitVec 32 := Scf.iv c0_i32_271 c1_i32_273 k0_t3
  let c16_i32_279 : BitVec 32 := 16#32
  let v387 : BitVec 32 := Scalar.muli arg21 c16_i32_279
  let v689 : Index := Scalar.indexCast v387
  ![55, v689.toNat]

def k0_chk157 (i : grid0.Coords) (k0_t2 : Fin k0_t2_loop.trips) (v402 : IVec S16 32) (v691 : IVec S16 32) : Prop :=
  (∀ (k0_h2 : k0_cond2 i k0_t2 = 1#1), ∀ a x, ((![v691, v402] : Fin 2 → IVec S16 32) a x).toNat < S64x16.size a)
instance k0_chk157.dec : ∀ (i : grid0.Coords) (k0_t2 : Fin k0_t2_loop.trips) (v402 : IVec S16 32) (v691 : IVec S16 32), Decidable (k0_chk157 i k0_t2 v402 v691) := fun i k0_t2 v402 v691 => decidable_of_iff' _ (Iff.of_eq (k0_chk157.eq_1 i k0_t2 v402 v691))
theorem k0_idx157_inb : ∀ (i : grid0.Coords) (k0_t2 : Fin k0_t2_loop.trips) (v402 : IVec S16 32) (v691 : IVec S16 32) (k0_hw157 : k0_chk157 i k0_t2 v402 v691), ∀ (k0_h2 : k0_cond2 i k0_t2 = 1#1), ∀ a x, ((![v691, v402] : Fin 2 → IVec S16 32) a x).toNat < S64x16.size a := fun i k0_t2 v402 v691 k0_hw157 k0_h2 => k0_hw157 k0_h2
def k0_off131 (k0_t3 : Fin k0_t3_loop.trips) : Fin 2 → Nat :=
  let c56_i32_354 : BitVec 32 := 56#32
  let v693 : Index := Scalar.indexCast c56_i32_354
  let c0_i32_271 : BitVec 32 := 0#32
  let c1_i32_273 : BitVec 32 := 1#32
  let arg21 : BitVec 32 := Scf.iv c0_i32_271 c1_i32_273 k0_t3
  let c16_i32_279 : BitVec 32 := 16#32
  let v387 : BitVec 32 := Scalar.muli arg21 c16_i32_279
  let v694 : Index := Scalar.indexCast v387
  ![56, v694.toNat]

def k0_chk158 (i : grid0.Coords) (k0_t2 : Fin k0_t2_loop.trips) (v402 : IVec S16 32) (v696 : IVec S16 32) : Prop :=
  (∀ (k0_h2 : k0_cond2 i k0_t2 = 1#1), ∀ a x, ((![v696, v402] : Fin 2 → IVec S16 32) a x).toNat < S64x16.size a)
instance k0_chk158.dec : ∀ (i : grid0.Coords) (k0_t2 : Fin k0_t2_loop.trips) (v402 : IVec S16 32) (v696 : IVec S16 32), Decidable (k0_chk158 i k0_t2 v402 v696) := fun i k0_t2 v402 v696 => decidable_of_iff' _ (Iff.of_eq (k0_chk158.eq_1 i k0_t2 v402 v696))
theorem k0_idx158_inb : ∀ (i : grid0.Coords) (k0_t2 : Fin k0_t2_loop.trips) (v402 : IVec S16 32) (v696 : IVec S16 32) (k0_hw158 : k0_chk158 i k0_t2 v402 v696), ∀ (k0_h2 : k0_cond2 i k0_t2 = 1#1), ∀ a x, ((![v696, v402] : Fin 2 → IVec S16 32) a x).toNat < S64x16.size a := fun i k0_t2 v402 v696 k0_hw158 k0_h2 => k0_hw158 k0_h2
def k0_off132 (k0_t3 : Fin k0_t3_loop.trips) : Fin 2 → Nat :=
  let c57_i32_355 : BitVec 32 := 57#32
  let v698 : Index := Scalar.indexCast c57_i32_355
  let c0_i32_271 : BitVec 32 := 0#32
  let c1_i32_273 : BitVec 32 := 1#32
  let arg21 : BitVec 32 := Scf.iv c0_i32_271 c1_i32_273 k0_t3
  let c16_i32_279 : BitVec 32 := 16#32
  let v387 : BitVec 32 := Scalar.muli arg21 c16_i32_279
  let v699 : Index := Scalar.indexCast v387
  ![57, v699.toNat]

def k0_chk159 (i : grid0.Coords) (k0_t2 : Fin k0_t2_loop.trips) (v402 : IVec S16 32) (v701 : IVec S16 32) : Prop :=
  (∀ (k0_h2 : k0_cond2 i k0_t2 = 1#1), ∀ a x, ((![v701, v402] : Fin 2 → IVec S16 32) a x).toNat < S64x16.size a)
instance k0_chk159.dec : ∀ (i : grid0.Coords) (k0_t2 : Fin k0_t2_loop.trips) (v402 : IVec S16 32) (v701 : IVec S16 32), Decidable (k0_chk159 i k0_t2 v402 v701) := fun i k0_t2 v402 v701 => decidable_of_iff' _ (Iff.of_eq (k0_chk159.eq_1 i k0_t2 v402 v701))
theorem k0_idx159_inb : ∀ (i : grid0.Coords) (k0_t2 : Fin k0_t2_loop.trips) (v402 : IVec S16 32) (v701 : IVec S16 32) (k0_hw159 : k0_chk159 i k0_t2 v402 v701), ∀ (k0_h2 : k0_cond2 i k0_t2 = 1#1), ∀ a x, ((![v701, v402] : Fin 2 → IVec S16 32) a x).toNat < S64x16.size a := fun i k0_t2 v402 v701 k0_hw159 k0_h2 => k0_hw159 k0_h2
def k0_off133 (k0_t3 : Fin k0_t3_loop.trips) : Fin 2 → Nat :=
  let c58_i32_356 : BitVec 32 := 58#32
  let v703 : Index := Scalar.indexCast c58_i32_356
  let c0_i32_271 : BitVec 32 := 0#32
  let c1_i32_273 : BitVec 32 := 1#32
  let arg21 : BitVec 32 := Scf.iv c0_i32_271 c1_i32_273 k0_t3
  let c16_i32_279 : BitVec 32 := 16#32
  let v387 : BitVec 32 := Scalar.muli arg21 c16_i32_279
  let v704 : Index := Scalar.indexCast v387
  ![58, v704.toNat]

def k0_chk160 (i : grid0.Coords) (k0_t2 : Fin k0_t2_loop.trips) (v402 : IVec S16 32) (v706 : IVec S16 32) : Prop :=
  (∀ (k0_h2 : k0_cond2 i k0_t2 = 1#1), ∀ a x, ((![v706, v402] : Fin 2 → IVec S16 32) a x).toNat < S64x16.size a)
instance k0_chk160.dec : ∀ (i : grid0.Coords) (k0_t2 : Fin k0_t2_loop.trips) (v402 : IVec S16 32) (v706 : IVec S16 32), Decidable (k0_chk160 i k0_t2 v402 v706) := fun i k0_t2 v402 v706 => decidable_of_iff' _ (Iff.of_eq (k0_chk160.eq_1 i k0_t2 v402 v706))
theorem k0_idx160_inb : ∀ (i : grid0.Coords) (k0_t2 : Fin k0_t2_loop.trips) (v402 : IVec S16 32) (v706 : IVec S16 32) (k0_hw160 : k0_chk160 i k0_t2 v402 v706), ∀ (k0_h2 : k0_cond2 i k0_t2 = 1#1), ∀ a x, ((![v706, v402] : Fin 2 → IVec S16 32) a x).toNat < S64x16.size a := fun i k0_t2 v402 v706 k0_hw160 k0_h2 => k0_hw160 k0_h2
def k0_off134 (k0_t3 : Fin k0_t3_loop.trips) : Fin 2 → Nat :=
  let c59_i32_357 : BitVec 32 := 59#32
  let v708 : Index := Scalar.indexCast c59_i32_357
  let c0_i32_271 : BitVec 32 := 0#32
  let c1_i32_273 : BitVec 32 := 1#32
  let arg21 : BitVec 32 := Scf.iv c0_i32_271 c1_i32_273 k0_t3
  let c16_i32_279 : BitVec 32 := 16#32
  let v387 : BitVec 32 := Scalar.muli arg21 c16_i32_279
  let v709 : Index := Scalar.indexCast v387
  ![59, v709.toNat]
def k0_off135 (k0_t3 : Fin k0_t3_loop.trips) : Fin 2 → Nat :=
  let c60_i32_358 : BitVec 32 := 60#32
  let v711 : Index := Scalar.indexCast c60_i32_358
  let c0_i32_271 : BitVec 32 := 0#32
  let c1_i32_273 : BitVec 32 := 1#32
  let arg21 : BitVec 32 := Scf.iv c0_i32_271 c1_i32_273 k0_t3
  let c16_i32_279 : BitVec 32 := 16#32
  let v387 : BitVec 32 := Scalar.muli arg21 c16_i32_279
  let v712 : Index := Scalar.indexCast v387
  ![60, v712.toNat]
def k0_off136 (k0_t3 : Fin k0_t3_loop.trips) : Fin 2 → Nat :=
  let c61_i32_359 : BitVec 32 := 61#32
  let v714 : Index := Scalar.indexCast c61_i32_359
  let c0_i32_271 : BitVec 32 := 0#32
  let c1_i32_273 : BitVec 32 := 1#32
  let arg21 : BitVec 32 := Scf.iv c0_i32_271 c1_i32_273 k0_t3
  let c16_i32_279 : BitVec 32 := 16#32
  let v387 : BitVec 32 := Scalar.muli arg21 c16_i32_279
  let v715 : Index := Scalar.indexCast v387
  ![61, v715.toNat]
def k0_off137 (k0_t3 : Fin k0_t3_loop.trips) : Fin 2 → Nat :=
  let c62_i32_360 : BitVec 32 := 62#32
  let v717 : Index := Scalar.indexCast c62_i32_360
  let c0_i32_271 : BitVec 32 := 0#32
  let c1_i32_273 : BitVec 32 := 1#32
  let arg21 : BitVec 32 := Scf.iv c0_i32_271 c1_i32_273 k0_t3
  let c16_i32_279 : BitVec 32 := 16#32
  let v387 : BitVec 32 := Scalar.muli arg21 c16_i32_279
  let v718 : Index := Scalar.indexCast v387
  ![62, v718.toNat]
def k0_off138 (k0_t3 : Fin k0_t3_loop.trips) : Fin 2 → Nat :=
  let c63_i32_361 : BitVec 32 := 63#32
  let v720 : Index := Scalar.indexCast c63_i32_361
  let c0_i32_271 : BitVec 32 := 0#32
  let c1_i32_273 : BitVec 32 := 1#32
  let arg21 : BitVec 32 := Scf.iv c0_i32_271 c1_i32_273 k0_t3
  let c16_i32_279 : BitVec 32 := 16#32
  let v387 : BitVec 32 := Scalar.muli arg21 c16_i32_279
  let v721 : Index := Scalar.indexCast v387
  ![63, v721.toNat]
def k0_off139 (i : grid0.Coords) (k0_t2 : Fin k0_t2_loop.trips) : Fin 2 → Nat :=
  let c0_i32_277 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_247 : BitVec 32 := 2#32
  let c0_i32_236 : BitVec 32 := 0#32
  let c1_i32_237 : BitVec 32 := 1#32
  let arg19 : BitVec 32 := Scf.iv c0_i32_236 c1_i32_237 k0_t2
  let v353 : BitVec 32 := Scalar.muli c2_i32_247 arg19
  let c1_i32_248 : BitVec 32 := 1#32
  let v354 : BitVec 32 := Scalar.addi v353 c1_i32_248
  let c0_i32_249 : BitVec 32 := 0#32
  let v355 : BitVec 32 := Scalar.addi v354 c0_i32_249
  let c32_i32_275 : BitVec 32 := 32#32
  let v382 : BitVec 32 := Scalar.muli v355 c32_i32_275
  let v383 : BitVec 32 := Scalar.addi v1 v382
  let c640_i32_276 : BitVec 32 := 640#32
  let v384 : BitVec 32 := Scalar.muli v383 c640_i32_276
  ![0, v384.toNat]
def k0_cond5 (i : grid0.Coords) (k0_t2 : Fin k0_t2_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_253 : BitVec 32 := 2#32
  let c0_i32_236 : BitVec 32 := 0#32
  let c1_i32_237 : BitVec 32 := 1#32
  let arg19 : BitVec 32 := Scf.iv c0_i32_236 c1_i32_237 k0_t2
  let v361 : BitVec 32 := Scalar.muli c2_i32_253 arg19
  let c1_i32_254 : BitVec 32 := 1#32
  let v362 : BitVec 32 := Scalar.addi v361 c1_i32_254
  let c1_i32_255 : BitVec 32 := 1#32
  let v363 : BitVec 32 := Scalar.addi v362 c1_i32_255
  let c32_i32_256 : BitVec 32 := 32#32
  let v364 : BitVec 32 := Scalar.muli v363 c32_i32_256
  let v365 : BitVec 32 := Scalar.addi v1 v364
  let c1250_i32_257 : BitVec 32 := 1250#32
  let v366 : BitVec 1 := Scalar.cmpi .slt v365 c1250_i32_257
  let v367 : BitVec 32 := Scalar.extui v366
  let c0_i32_258 : BitVec 32 := 0#32
  let v368 : BitVec 1 := Scalar.cmpi .ne v367 c0_i32_258
  v368

def k0_cond6 (i : grid0.Coords) (k0_t2 : Fin k0_t2_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_253 : BitVec 32 := 2#32
  let c0_i32_236 : BitVec 32 := 0#32
  let c1_i32_237 : BitVec 32 := 1#32
  let arg19 : BitVec 32 := Scf.iv c0_i32_236 c1_i32_237 k0_t2
  let v361 : BitVec 32 := Scalar.muli c2_i32_253 arg19
  let c1_i32_254 : BitVec 32 := 1#32
  let v362 : BitVec 32 := Scalar.addi v361 c1_i32_254
  let c1_i32_255 : BitVec 32 := 1#32
  let v363 : BitVec 32 := Scalar.addi v362 c1_i32_255
  let c1_i32_260 : BitVec 32 := 1#32
  let v369 : BitVec 32 := Scalar.addi v363 c1_i32_260
  let c32_i32_261 : BitVec 32 := 32#32
  let v370 : BitVec 32 := Scalar.muli v369 c32_i32_261
  let v371 : BitVec 32 := Scalar.addi v1 v370
  let c1250_i32_262 : BitVec 32 := 1250#32
  let v372 : BitVec 1 := Scalar.cmpi .slt v371 c1250_i32_262
  let v373 : BitVec 32 := Scalar.extui v372
  let c0_i32_263 : BitVec 32 := 0#32
  let v374 : BitVec 1 := Scalar.cmpi .ne v373 c0_i32_263
  v374

def k0_off140 (i : grid0.Coords) (k0_t2 : Fin k0_t2_loop.trips) : Fin 2 → Nat :=
  let c0_i32_282 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_253 : BitVec 32 := 2#32
  let c0_i32_236 : BitVec 32 := 0#32
  let c1_i32_237 : BitVec 32 := 1#32
  let arg19 : BitVec 32 := Scf.iv c0_i32_236 c1_i32_237 k0_t2
  let v361 : BitVec 32 := Scalar.muli c2_i32_253 arg19
  let c1_i32_254 : BitVec 32 := 1#32
  let v362 : BitVec 32 := Scalar.addi v361 c1_i32_254
  let c1_i32_255 : BitVec 32 := 1#32
  let v363 : BitVec 32 := Scalar.addi v362 c1_i32_255
  let c1_i32_279 : BitVec 32 := 1#32
  let v387 : BitVec 32 := Scalar.addi v363 c1_i32_279
  let c32_i32_280 : BitVec 32 := 32#32
  let v388 : BitVec 32 := Scalar.muli v387 c32_i32_280
  let v389 : BitVec 32 := Scalar.addi v1 v388
  let c640_i32_281 : BitVec 32 := 640#32
  let v390 : BitVec 32 := Scalar.muli v389 c640_i32_281
  ![0, v390.toNat]
@[reducible] def k0_t4_loop : Scf.Loop 32 :=
  let c0_i32_271 : BitVec 32 := 0#32
  let c40_i32_272 : BitVec 32 := 40#32
  let v380 : BitVec 32 := Scalar.addi c0_i32_271 c40_i32_272
  let c1_i32_273 : BitVec 32 := 1#32
  ⟨c0_i32_271, v380, c1_i32_273⟩
def k0_off141 (k0_t4 : Fin k0_t4_loop.trips) : Fin 2 → Nat :=
  let c0_i32_280 : BitVec 32 := 0#32
  let v388 : Index := Scalar.indexCast c0_i32_280
  let c0_i32_271 : BitVec 32 := 0#32
  let c1_i32_273 : BitVec 32 := 1#32
  let arg21 : BitVec 32 := Scf.iv c0_i32_271 c1_i32_273 k0_t4
  let c16_i32_279 : BitVec 32 := 16#32
  let v387 : BitVec 32 := Scalar.muli arg21 c16_i32_279
  let v389 : Index := Scalar.indexCast v387
  ![0, v389.toNat]
def k0_off142 (k0_t4 : Fin k0_t4_loop.trips) : Fin 2 → Nat :=
  let c1_i32_281 : BitVec 32 := 1#32
  let v391 : Index := Scalar.indexCast c1_i32_281
  let c0_i32_271 : BitVec 32 := 0#32
  let c1_i32_273 : BitVec 32 := 1#32
  let arg21 : BitVec 32 := Scf.iv c0_i32_271 c1_i32_273 k0_t4
  let c16_i32_279 : BitVec 32 := 16#32
  let v387 : BitVec 32 := Scalar.muli arg21 c16_i32_279
  let v392 : Index := Scalar.indexCast v387
  ![1, v392.toNat]
def k0_off143 (k0_t4 : Fin k0_t4_loop.trips) : Fin 2 → Nat :=
  let c2_i32_282 : BitVec 32 := 2#32
  let v394 : Index := Scalar.indexCast c2_i32_282
  let c0_i32_271 : BitVec 32 := 0#32
  let c1_i32_273 : BitVec 32 := 1#32
  let arg21 : BitVec 32 := Scf.iv c0_i32_271 c1_i32_273 k0_t4
  let c16_i32_279 : BitVec 32 := 16#32
  let v387 : BitVec 32 := Scalar.muli arg21 c16_i32_279
  let v395 : Index := Scalar.indexCast v387
  ![2, v395.toNat]

def k0_chk161 (i : grid0.Coords) (k0_t2 : Fin k0_t2_loop.trips) (v402 : IVec S16 32) (v403 : IVec S16 32) : Prop :=
  (∀ (k0_h5 : k0_cond5 i k0_t2 = 1#1), ∀ a x, ((![v403, v402] : Fin 2 → IVec S16 32) a x).toNat < S64x16.size a)
instance k0_chk161.dec : ∀ (i : grid0.Coords) (k0_t2 : Fin k0_t2_loop.trips) (v402 : IVec S16 32) (v403 : IVec S16 32), Decidable (k0_chk161 i k0_t2 v402 v403) := fun i k0_t2 v402 v403 => decidable_of_iff' _ (Iff.of_eq (k0_chk161.eq_1 i k0_t2 v402 v403))
theorem k0_idx161_inb : ∀ (i : grid0.Coords) (k0_t2 : Fin k0_t2_loop.trips) (v402 : IVec S16 32) (v403 : IVec S16 32) (k0_hw161 : k0_chk161 i k0_t2 v402 v403), ∀ (k0_h5 : k0_cond5 i k0_t2 = 1#1), ∀ a x, ((![v403, v402] : Fin 2 → IVec S16 32) a x).toNat < S64x16.size a := fun i k0_t2 v402 v403 k0_hw161 k0_h5 => k0_hw161 k0_h5

def k0_chk162 (i : grid0.Coords) (k0_t2 : Fin k0_t2_loop.trips) (v402 : IVec S16 32) (v405 : IVec S16 32) : Prop :=
  (∀ (k0_h5 : k0_cond5 i k0_t2 = 1#1), ∀ a x, ((![v405, v402] : Fin 2 → IVec S16 32) a x).toNat < S64x16.size a)
instance k0_chk162.dec : ∀ (i : grid0.Coords) (k0_t2 : Fin k0_t2_loop.trips) (v402 : IVec S16 32) (v405 : IVec S16 32), Decidable (k0_chk162 i k0_t2 v402 v405) := fun i k0_t2 v402 v405 => decidable_of_iff' _ (Iff.of_eq (k0_chk162.eq_1 i k0_t2 v402 v405))
theorem k0_idx162_inb : ∀ (i : grid0.Coords) (k0_t2 : Fin k0_t2_loop.trips) (v402 : IVec S16 32) (v405 : IVec S16 32) (k0_hw162 : k0_chk162 i k0_t2 v402 v405), ∀ (k0_h5 : k0_cond5 i k0_t2 = 1#1), ∀ a x, ((![v405, v402] : Fin 2 → IVec S16 32) a x).toNat < S64x16.size a := fun i k0_t2 v402 v405 k0_hw162 k0_h5 => k0_hw162 k0_h5

def k0_chk163 (i : grid0.Coords) (k0_t2 : Fin k0_t2_loop.trips) (v402 : IVec S16 32) (v407 : IVec S16 32) : Prop :=
  (∀ (k0_h5 : k0_cond5 i k0_t2 = 1#1), ∀ a x, ((![v407, v402] : Fin 2 → IVec S16 32) a x).toNat < S64x16.size a)
instance k0_chk163.dec : ∀ (i : grid0.Coords) (k0_t2 : Fin k0_t2_loop.trips) (v402 : IVec S16 32) (v407 : IVec S16 32), Decidable (k0_chk163 i k0_t2 v402 v407) := fun i k0_t2 v402 v407 => decidable_of_iff' _ (Iff.of_eq (k0_chk163.eq_1 i k0_t2 v402 v407))
theorem k0_idx163_inb : ∀ (i : grid0.Coords) (k0_t2 : Fin k0_t2_loop.trips) (v402 : IVec S16 32) (v407 : IVec S16 32) (k0_hw163 : k0_chk163 i k0_t2 v402 v407), ∀ (k0_h5 : k0_cond5 i k0_t2 = 1#1), ∀ a x, ((![v407, v402] : Fin 2 → IVec S16 32) a x).toNat < S64x16.size a := fun i k0_t2 v402 v407 k0_hw163 k0_h5 => k0_hw163 k0_h5

def k0_chk164 (i : grid0.Coords) (k0_t2 : Fin k0_t2_loop.trips) (v402 : IVec S16 32) (v409 : IVec S16 32) : Prop :=
  (∀ (k0_h5 : k0_cond5 i k0_t2 = 1#1), ∀ a x, ((![v409, v402] : Fin 2 → IVec S16 32) a x).toNat < S64x16.size a)
instance k0_chk164.dec : ∀ (i : grid0.Coords) (k0_t2 : Fin k0_t2_loop.trips) (v402 : IVec S16 32) (v409 : IVec S16 32), Decidable (k0_chk164 i k0_t2 v402 v409) := fun i k0_t2 v402 v409 => decidable_of_iff' _ (Iff.of_eq (k0_chk164.eq_1 i k0_t2 v402 v409))
theorem k0_idx164_inb : ∀ (i : grid0.Coords) (k0_t2 : Fin k0_t2_loop.trips) (v402 : IVec S16 32) (v409 : IVec S16 32) (k0_hw164 : k0_chk164 i k0_t2 v402 v409), ∀ (k0_h5 : k0_cond5 i k0_t2 = 1#1), ∀ a x, ((![v409, v402] : Fin 2 → IVec S16 32) a x).toNat < S64x16.size a := fun i k0_t2 v402 v409 k0_hw164 k0_h5 => k0_hw164 k0_h5

def k0_chk165 (i : grid0.Coords) (k0_t2 : Fin k0_t2_loop.trips) (v402 : IVec S16 32) (v411 : IVec S16 32) : Prop :=
  (∀ (k0_h5 : k0_cond5 i k0_t2 = 1#1), ∀ a x, ((![v411, v402] : Fin 2 → IVec S16 32) a x).toNat < S64x16.size a)
instance k0_chk165.dec : ∀ (i : grid0.Coords) (k0_t2 : Fin k0_t2_loop.trips) (v402 : IVec S16 32) (v411 : IVec S16 32), Decidable (k0_chk165 i k0_t2 v402 v411) := fun i k0_t2 v402 v411 => decidable_of_iff' _ (Iff.of_eq (k0_chk165.eq_1 i k0_t2 v402 v411))
theorem k0_idx165_inb : ∀ (i : grid0.Coords) (k0_t2 : Fin k0_t2_loop.trips) (v402 : IVec S16 32) (v411 : IVec S16 32) (k0_hw165 : k0_chk165 i k0_t2 v402 v411), ∀ (k0_h5 : k0_cond5 i k0_t2 = 1#1), ∀ a x, ((![v411, v402] : Fin 2 → IVec S16 32) a x).toNat < S64x16.size a := fun i k0_t2 v402 v411 k0_hw165 k0_h5 => k0_hw165 k0_h5
def k0_off144 (k0_t4 : Fin k0_t4_loop.trips) : Fin 2 → Nat :=
  let c0_i32_290 : BitVec 32 := 0#32
  let v413 : Index := Scalar.indexCast c0_i32_290
  let c0_i32_271 : BitVec 32 := 0#32
  let c1_i32_273 : BitVec 32 := 1#32
  let arg21 : BitVec 32 := Scf.iv c0_i32_271 c1_i32_273 k0_t4
  let c16_i32_279 : BitVec 32 := 16#32
  let v387 : BitVec 32 := Scalar.muli arg21 c16_i32_279
  let v414 : Index := Scalar.indexCast v387
  ![0, v414.toNat]

def k0_chk166 (i : grid0.Coords) (k0_t2 : Fin k0_t2_loop.trips) (v402 : IVec S16 32) (v416 : IVec S16 32) : Prop :=
  (∀ (k0_h5 : k0_cond5 i k0_t2 = 1#1), ∀ a x, ((![v416, v402] : Fin 2 → IVec S16 32) a x).toNat < S64x16.size a)
instance k0_chk166.dec : ∀ (i : grid0.Coords) (k0_t2 : Fin k0_t2_loop.trips) (v402 : IVec S16 32) (v416 : IVec S16 32), Decidable (k0_chk166 i k0_t2 v402 v416) := fun i k0_t2 v402 v416 => decidable_of_iff' _ (Iff.of_eq (k0_chk166.eq_1 i k0_t2 v402 v416))
theorem k0_idx166_inb : ∀ (i : grid0.Coords) (k0_t2 : Fin k0_t2_loop.trips) (v402 : IVec S16 32) (v416 : IVec S16 32) (k0_hw166 : k0_chk166 i k0_t2 v402 v416), ∀ (k0_h5 : k0_cond5 i k0_t2 = 1#1), ∀ a x, ((![v416, v402] : Fin 2 → IVec S16 32) a x).toNat < S64x16.size a := fun i k0_t2 v402 v416 k0_hw166 k0_h5 => k0_hw166 k0_h5
def k0_off145 (k0_t4 : Fin k0_t4_loop.trips) : Fin 2 → Nat :=
  let c1_i32_292 : BitVec 32 := 1#32
  let v418 : Index := Scalar.indexCast c1_i32_292
  let c0_i32_271 : BitVec 32 := 0#32
  let c1_i32_273 : BitVec 32 := 1#32
  let arg21 : BitVec 32 := Scf.iv c0_i32_271 c1_i32_273 k0_t4
  let c16_i32_279 : BitVec 32 := 16#32
  let v387 : BitVec 32 := Scalar.muli arg21 c16_i32_279
  let v419 : Index := Scalar.indexCast v387
  ![1, v419.toNat]

def k0_chk167 (i : grid0.Coords) (k0_t2 : Fin k0_t2_loop.trips) (v402 : IVec S16 32) (v421 : IVec S16 32) : Prop :=
  (∀ (k0_h5 : k0_cond5 i k0_t2 = 1#1), ∀ a x, ((![v421, v402] : Fin 2 → IVec S16 32) a x).toNat < S64x16.size a)
instance k0_chk167.dec : ∀ (i : grid0.Coords) (k0_t2 : Fin k0_t2_loop.trips) (v402 : IVec S16 32) (v421 : IVec S16 32), Decidable (k0_chk167 i k0_t2 v402 v421) := fun i k0_t2 v402 v421 => decidable_of_iff' _ (Iff.of_eq (k0_chk167.eq_1 i k0_t2 v402 v421))
theorem k0_idx167_inb : ∀ (i : grid0.Coords) (k0_t2 : Fin k0_t2_loop.trips) (v402 : IVec S16 32) (v421 : IVec S16 32) (k0_hw167 : k0_chk167 i k0_t2 v402 v421), ∀ (k0_h5 : k0_cond5 i k0_t2 = 1#1), ∀ a x, ((![v421, v402] : Fin 2 → IVec S16 32) a x).toNat < S64x16.size a := fun i k0_t2 v402 v421 k0_hw167 k0_h5 => k0_hw167 k0_h5
def k0_off146 (k0_t4 : Fin k0_t4_loop.trips) : Fin 2 → Nat :=
  let c2_i32_294 : BitVec 32 := 2#32
  let v423 : Index := Scalar.indexCast c2_i32_294
  let c0_i32_271 : BitVec 32 := 0#32
  let c1_i32_273 : BitVec 32 := 1#32
  let arg21 : BitVec 32 := Scf.iv c0_i32_271 c1_i32_273 k0_t4
  let c16_i32_279 : BitVec 32 := 16#32
  let v387 : BitVec 32 := Scalar.muli arg21 c16_i32_279
  let v424 : Index := Scalar.indexCast v387
  ![2, v424.toNat]

def k0_chk168 (i : grid0.Coords) (k0_t2 : Fin k0_t2_loop.trips) (v402 : IVec S16 32) (v426 : IVec S16 32) : Prop :=
  (∀ (k0_h5 : k0_cond5 i k0_t2 = 1#1), ∀ a x, ((![v426, v402] : Fin 2 → IVec S16 32) a x).toNat < S64x16.size a)
instance k0_chk168.dec : ∀ (i : grid0.Coords) (k0_t2 : Fin k0_t2_loop.trips) (v402 : IVec S16 32) (v426 : IVec S16 32), Decidable (k0_chk168 i k0_t2 v402 v426) := fun i k0_t2 v402 v426 => decidable_of_iff' _ (Iff.of_eq (k0_chk168.eq_1 i k0_t2 v402 v426))
theorem k0_idx168_inb : ∀ (i : grid0.Coords) (k0_t2 : Fin k0_t2_loop.trips) (v402 : IVec S16 32) (v426 : IVec S16 32) (k0_hw168 : k0_chk168 i k0_t2 v402 v426), ∀ (k0_h5 : k0_cond5 i k0_t2 = 1#1), ∀ a x, ((![v426, v402] : Fin 2 → IVec S16 32) a x).toNat < S64x16.size a := fun i k0_t2 v402 v426 k0_hw168 k0_h5 => k0_hw168 k0_h5
def k0_off147 (k0_t4 : Fin k0_t4_loop.trips) : Fin 2 → Nat :=
  let c3_i32_296 : BitVec 32 := 3#32
  let v428 : Index := Scalar.indexCast c3_i32_296
  let c0_i32_271 : BitVec 32 := 0#32
  let c1_i32_273 : BitVec 32 := 1#32
  let arg21 : BitVec 32 := Scf.iv c0_i32_271 c1_i32_273 k0_t4
  let c16_i32_279 : BitVec 32 := 16#32
  let v387 : BitVec 32 := Scalar.muli arg21 c16_i32_279
  let v429 : Index := Scalar.indexCast v387
  ![3, v429.toNat]

def k0_chk169 (i : grid0.Coords) (k0_t2 : Fin k0_t2_loop.trips) (v402 : IVec S16 32) (v431 : IVec S16 32) : Prop :=
  (∀ (k0_h5 : k0_cond5 i k0_t2 = 1#1), ∀ a x, ((![v431, v402] : Fin 2 → IVec S16 32) a x).toNat < S64x16.size a)
instance k0_chk169.dec : ∀ (i : grid0.Coords) (k0_t2 : Fin k0_t2_loop.trips) (v402 : IVec S16 32) (v431 : IVec S16 32), Decidable (k0_chk169 i k0_t2 v402 v431) := fun i k0_t2 v402 v431 => decidable_of_iff' _ (Iff.of_eq (k0_chk169.eq_1 i k0_t2 v402 v431))
theorem k0_idx169_inb : ∀ (i : grid0.Coords) (k0_t2 : Fin k0_t2_loop.trips) (v402 : IVec S16 32) (v431 : IVec S16 32) (k0_hw169 : k0_chk169 i k0_t2 v402 v431), ∀ (k0_h5 : k0_cond5 i k0_t2 = 1#1), ∀ a x, ((![v431, v402] : Fin 2 → IVec S16 32) a x).toNat < S64x16.size a := fun i k0_t2 v402 v431 k0_hw169 k0_h5 => k0_hw169 k0_h5
def k0_off148 (k0_t4 : Fin k0_t4_loop.trips) : Fin 2 → Nat :=
  let c4_i32_297 : BitVec 32 := 4#32
  let v433 : Index := Scalar.indexCast c4_i32_297
  let c0_i32_271 : BitVec 32 := 0#32
  let c1_i32_273 : BitVec 32 := 1#32
  let arg21 : BitVec 32 := Scf.iv c0_i32_271 c1_i32_273 k0_t4
  let c16_i32_279 : BitVec 32 := 16#32
  let v387 : BitVec 32 := Scalar.muli arg21 c16_i32_279
  let v434 : Index := Scalar.indexCast v387
  ![4, v434.toNat]

def k0_chk170 (i : grid0.Coords) (k0_t2 : Fin k0_t2_loop.trips) (v402 : IVec S16 32) (v436 : IVec S16 32) : Prop :=
  (∀ (k0_h5 : k0_cond5 i k0_t2 = 1#1), ∀ a x, ((![v436, v402] : Fin 2 → IVec S16 32) a x).toNat < S64x16.size a)
instance k0_chk170.dec : ∀ (i : grid0.Coords) (k0_t2 : Fin k0_t2_loop.trips) (v402 : IVec S16 32) (v436 : IVec S16 32), Decidable (k0_chk170 i k0_t2 v402 v436) := fun i k0_t2 v402 v436 => decidable_of_iff' _ (Iff.of_eq (k0_chk170.eq_1 i k0_t2 v402 v436))
theorem k0_idx170_inb : ∀ (i : grid0.Coords) (k0_t2 : Fin k0_t2_loop.trips) (v402 : IVec S16 32) (v436 : IVec S16 32) (k0_hw170 : k0_chk170 i k0_t2 v402 v436), ∀ (k0_h5 : k0_cond5 i k0_t2 = 1#1), ∀ a x, ((![v436, v402] : Fin 2 → IVec S16 32) a x).toNat < S64x16.size a := fun i k0_t2 v402 v436 k0_hw170 k0_h5 => k0_hw170 k0_h5
def k0_off149 (k0_t4 : Fin k0_t4_loop.trips) : Fin 2 → Nat :=
  let c5_i32_298 : BitVec 32 := 5#32
  let v438 : Index := Scalar.indexCast c5_i32_298
  let c0_i32_271 : BitVec 32 := 0#32
  let c1_i32_273 : BitVec 32 := 1#32
  let arg21 : BitVec 32 := Scf.iv c0_i32_271 c1_i32_273 k0_t4
  let c16_i32_279 : BitVec 32 := 16#32
  let v387 : BitVec 32 := Scalar.muli arg21 c16_i32_279
  let v439 : Index := Scalar.indexCast v387
  ![5, v439.toNat]

def k0_chk171 (i : grid0.Coords) (k0_t2 : Fin k0_t2_loop.trips) (v402 : IVec S16 32) (v441 : IVec S16 32) : Prop :=
  (∀ (k0_h5 : k0_cond5 i k0_t2 = 1#1), ∀ a x, ((![v441, v402] : Fin 2 → IVec S16 32) a x).toNat < S64x16.size a)
instance k0_chk171.dec : ∀ (i : grid0.Coords) (k0_t2 : Fin k0_t2_loop.trips) (v402 : IVec S16 32) (v441 : IVec S16 32), Decidable (k0_chk171 i k0_t2 v402 v441) := fun i k0_t2 v402 v441 => decidable_of_iff' _ (Iff.of_eq (k0_chk171.eq_1 i k0_t2 v402 v441))
theorem k0_idx171_inb : ∀ (i : grid0.Coords) (k0_t2 : Fin k0_t2_loop.trips) (v402 : IVec S16 32) (v441 : IVec S16 32) (k0_hw171 : k0_chk171 i k0_t2 v402 v441), ∀ (k0_h5 : k0_cond5 i k0_t2 = 1#1), ∀ a x, ((![v441, v402] : Fin 2 → IVec S16 32) a x).toNat < S64x16.size a := fun i k0_t2 v402 v441 k0_hw171 k0_h5 => k0_hw171 k0_h5
def k0_off150 (k0_t4 : Fin k0_t4_loop.trips) : Fin 2 → Nat :=
  let c6_i32_299 : BitVec 32 := 6#32
  let v443 : Index := Scalar.indexCast c6_i32_299
  let c0_i32_271 : BitVec 32 := 0#32
  let c1_i32_273 : BitVec 32 := 1#32
  let arg21 : BitVec 32 := Scf.iv c0_i32_271 c1_i32_273 k0_t4
  let c16_i32_279 : BitVec 32 := 16#32
  let v387 : BitVec 32 := Scalar.muli arg21 c16_i32_279
  let v444 : Index := Scalar.indexCast v387
  ![6, v444.toNat]

def k0_chk172 (i : grid0.Coords) (k0_t2 : Fin k0_t2_loop.trips) (v402 : IVec S16 32) (v446 : IVec S16 32) : Prop :=
  (∀ (k0_h5 : k0_cond5 i k0_t2 = 1#1), ∀ a x, ((![v446, v402] : Fin 2 → IVec S16 32) a x).toNat < S64x16.size a)
instance k0_chk172.dec : ∀ (i : grid0.Coords) (k0_t2 : Fin k0_t2_loop.trips) (v402 : IVec S16 32) (v446 : IVec S16 32), Decidable (k0_chk172 i k0_t2 v402 v446) := fun i k0_t2 v402 v446 => decidable_of_iff' _ (Iff.of_eq (k0_chk172.eq_1 i k0_t2 v402 v446))
theorem k0_idx172_inb : ∀ (i : grid0.Coords) (k0_t2 : Fin k0_t2_loop.trips) (v402 : IVec S16 32) (v446 : IVec S16 32) (k0_hw172 : k0_chk172 i k0_t2 v402 v446), ∀ (k0_h5 : k0_cond5 i k0_t2 = 1#1), ∀ a x, ((![v446, v402] : Fin 2 → IVec S16 32) a x).toNat < S64x16.size a := fun i k0_t2 v402 v446 k0_hw172 k0_h5 => k0_hw172 k0_h5
def k0_off151 (k0_t4 : Fin k0_t4_loop.trips) : Fin 2 → Nat :=
  let c7_i32_300 : BitVec 32 := 7#32
  let v448 : Index := Scalar.indexCast c7_i32_300
  let c0_i32_271 : BitVec 32 := 0#32
  let c1_i32_273 : BitVec 32 := 1#32
  let arg21 : BitVec 32 := Scf.iv c0_i32_271 c1_i32_273 k0_t4
  let c16_i32_279 : BitVec 32 := 16#32
  let v387 : BitVec 32 := Scalar.muli arg21 c16_i32_279
  let v449 : Index := Scalar.indexCast v387
  ![7, v449.toNat]

def k0_chk173 (i : grid0.Coords) (k0_t2 : Fin k0_t2_loop.trips) (v402 : IVec S16 32) (v451 : IVec S16 32) : Prop :=
  (∀ (k0_h5 : k0_cond5 i k0_t2 = 1#1), ∀ a x, ((![v451, v402] : Fin 2 → IVec S16 32) a x).toNat < S64x16.size a)
instance k0_chk173.dec : ∀ (i : grid0.Coords) (k0_t2 : Fin k0_t2_loop.trips) (v402 : IVec S16 32) (v451 : IVec S16 32), Decidable (k0_chk173 i k0_t2 v402 v451) := fun i k0_t2 v402 v451 => decidable_of_iff' _ (Iff.of_eq (k0_chk173.eq_1 i k0_t2 v402 v451))
theorem k0_idx173_inb : ∀ (i : grid0.Coords) (k0_t2 : Fin k0_t2_loop.trips) (v402 : IVec S16 32) (v451 : IVec S16 32) (k0_hw173 : k0_chk173 i k0_t2 v402 v451), ∀ (k0_h5 : k0_cond5 i k0_t2 = 1#1), ∀ a x, ((![v451, v402] : Fin 2 → IVec S16 32) a x).toNat < S64x16.size a := fun i k0_t2 v402 v451 k0_hw173 k0_h5 => k0_hw173 k0_h5
def k0_off152 (k0_t4 : Fin k0_t4_loop.trips) : Fin 2 → Nat :=
  let c8_i32_301 : BitVec 32 := 8#32
  let v453 : Index := Scalar.indexCast c8_i32_301
  let c0_i32_271 : BitVec 32 := 0#32
  let c1_i32_273 : BitVec 32 := 1#32
  let arg21 : BitVec 32 := Scf.iv c0_i32_271 c1_i32_273 k0_t4
  let c16_i32_279 : BitVec 32 := 16#32
  let v387 : BitVec 32 := Scalar.muli arg21 c16_i32_279
  let v454 : Index := Scalar.indexCast v387
  ![8, v454.toNat]

def k0_chk174 (i : grid0.Coords) (k0_t2 : Fin k0_t2_loop.trips) (v402 : IVec S16 32) (v456 : IVec S16 32) : Prop :=
  (∀ (k0_h5 : k0_cond5 i k0_t2 = 1#1), ∀ a x, ((![v456, v402] : Fin 2 → IVec S16 32) a x).toNat < S64x16.size a)
instance k0_chk174.dec : ∀ (i : grid0.Coords) (k0_t2 : Fin k0_t2_loop.trips) (v402 : IVec S16 32) (v456 : IVec S16 32), Decidable (k0_chk174 i k0_t2 v402 v456) := fun i k0_t2 v402 v456 => decidable_of_iff' _ (Iff.of_eq (k0_chk174.eq_1 i k0_t2 v402 v456))
theorem k0_idx174_inb : ∀ (i : grid0.Coords) (k0_t2 : Fin k0_t2_loop.trips) (v402 : IVec S16 32) (v456 : IVec S16 32) (k0_hw174 : k0_chk174 i k0_t2 v402 v456), ∀ (k0_h5 : k0_cond5 i k0_t2 = 1#1), ∀ a x, ((![v456, v402] : Fin 2 → IVec S16 32) a x).toNat < S64x16.size a := fun i k0_t2 v402 v456 k0_hw174 k0_h5 => k0_hw174 k0_h5
def k0_off153 (k0_t4 : Fin k0_t4_loop.trips) : Fin 2 → Nat :=
  let c9_i32_302 : BitVec 32 := 9#32
  let v458 : Index := Scalar.indexCast c9_i32_302
  let c0_i32_271 : BitVec 32 := 0#32
  let c1_i32_273 : BitVec 32 := 1#32
  let arg21 : BitVec 32 := Scf.iv c0_i32_271 c1_i32_273 k0_t4
  let c16_i32_279 : BitVec 32 := 16#32
  let v387 : BitVec 32 := Scalar.muli arg21 c16_i32_279
  let v459 : Index := Scalar.indexCast v387
  ![9, v459.toNat]

def k0_chk175 (i : grid0.Coords) (k0_t2 : Fin k0_t2_loop.trips) (v402 : IVec S16 32) (v461 : IVec S16 32) : Prop :=
  (∀ (k0_h5 : k0_cond5 i k0_t2 = 1#1), ∀ a x, ((![v461, v402] : Fin 2 → IVec S16 32) a x).toNat < S64x16.size a)
instance k0_chk175.dec : ∀ (i : grid0.Coords) (k0_t2 : Fin k0_t2_loop.trips) (v402 : IVec S16 32) (v461 : IVec S16 32), Decidable (k0_chk175 i k0_t2 v402 v461) := fun i k0_t2 v402 v461 => decidable_of_iff' _ (Iff.of_eq (k0_chk175.eq_1 i k0_t2 v402 v461))
theorem k0_idx175_inb : ∀ (i : grid0.Coords) (k0_t2 : Fin k0_t2_loop.trips) (v402 : IVec S16 32) (v461 : IVec S16 32) (k0_hw175 : k0_chk175 i k0_t2 v402 v461), ∀ (k0_h5 : k0_cond5 i k0_t2 = 1#1), ∀ a x, ((![v461, v402] : Fin 2 → IVec S16 32) a x).toNat < S64x16.size a := fun i k0_t2 v402 v461 k0_hw175 k0_h5 => k0_hw175 k0_h5
def k0_off154 (k0_t4 : Fin k0_t4_loop.trips) : Fin 2 → Nat :=
  let c10_i32_303 : BitVec 32 := 10#32
  let v463 : Index := Scalar.indexCast c10_i32_303
  let c0_i32_271 : BitVec 32 := 0#32
  let c1_i32_273 : BitVec 32 := 1#32
  let arg21 : BitVec 32 := Scf.iv c0_i32_271 c1_i32_273 k0_t4
  let c16_i32_279 : BitVec 32 := 16#32
  let v387 : BitVec 32 := Scalar.muli arg21 c16_i32_279
  let v464 : Index := Scalar.indexCast v387
  ![10, v464.toNat]

def k0_chk176 (i : grid0.Coords) (k0_t2 : Fin k0_t2_loop.trips) (v402 : IVec S16 32) (v466 : IVec S16 32) : Prop :=
  (∀ (k0_h5 : k0_cond5 i k0_t2 = 1#1), ∀ a x, ((![v466, v402] : Fin 2 → IVec S16 32) a x).toNat < S64x16.size a)
instance k0_chk176.dec : ∀ (i : grid0.Coords) (k0_t2 : Fin k0_t2_loop.trips) (v402 : IVec S16 32) (v466 : IVec S16 32), Decidable (k0_chk176 i k0_t2 v402 v466) := fun i k0_t2 v402 v466 => decidable_of_iff' _ (Iff.of_eq (k0_chk176.eq_1 i k0_t2 v402 v466))
theorem k0_idx176_inb : ∀ (i : grid0.Coords) (k0_t2 : Fin k0_t2_loop.trips) (v402 : IVec S16 32) (v466 : IVec S16 32) (k0_hw176 : k0_chk176 i k0_t2 v402 v466), ∀ (k0_h5 : k0_cond5 i k0_t2 = 1#1), ∀ a x, ((![v466, v402] : Fin 2 → IVec S16 32) a x).toNat < S64x16.size a := fun i k0_t2 v402 v466 k0_hw176 k0_h5 => k0_hw176 k0_h5
def k0_off155 (k0_t4 : Fin k0_t4_loop.trips) : Fin 2 → Nat :=
  let c11_i32_304 : BitVec 32 := 11#32
  let v468 : Index := Scalar.indexCast c11_i32_304
  let c0_i32_271 : BitVec 32 := 0#32
  let c1_i32_273 : BitVec 32 := 1#32
  let arg21 : BitVec 32 := Scf.iv c0_i32_271 c1_i32_273 k0_t4
  let c16_i32_279 : BitVec 32 := 16#32
  let v387 : BitVec 32 := Scalar.muli arg21 c16_i32_279
  let v469 : Index := Scalar.indexCast v387
  ![11, v469.toNat]

def k0_chk177 (i : grid0.Coords) (k0_t2 : Fin k0_t2_loop.trips) (v402 : IVec S16 32) (v471 : IVec S16 32) : Prop :=
  (∀ (k0_h5 : k0_cond5 i k0_t2 = 1#1), ∀ a x, ((![v471, v402] : Fin 2 → IVec S16 32) a x).toNat < S64x16.size a)
instance k0_chk177.dec : ∀ (i : grid0.Coords) (k0_t2 : Fin k0_t2_loop.trips) (v402 : IVec S16 32) (v471 : IVec S16 32), Decidable (k0_chk177 i k0_t2 v402 v471) := fun i k0_t2 v402 v471 => decidable_of_iff' _ (Iff.of_eq (k0_chk177.eq_1 i k0_t2 v402 v471))
theorem k0_idx177_inb : ∀ (i : grid0.Coords) (k0_t2 : Fin k0_t2_loop.trips) (v402 : IVec S16 32) (v471 : IVec S16 32) (k0_hw177 : k0_chk177 i k0_t2 v402 v471), ∀ (k0_h5 : k0_cond5 i k0_t2 = 1#1), ∀ a x, ((![v471, v402] : Fin 2 → IVec S16 32) a x).toNat < S64x16.size a := fun i k0_t2 v402 v471 k0_hw177 k0_h5 => k0_hw177 k0_h5
def k0_off156 (k0_t4 : Fin k0_t4_loop.trips) : Fin 2 → Nat :=
  let c12_i32_306 : BitVec 32 := 12#32
  let v473 : Index := Scalar.indexCast c12_i32_306
  let c0_i32_271 : BitVec 32 := 0#32
  let c1_i32_273 : BitVec 32 := 1#32
  let arg21 : BitVec 32 := Scf.iv c0_i32_271 c1_i32_273 k0_t4
  let c16_i32_279 : BitVec 32 := 16#32
  let v387 : BitVec 32 := Scalar.muli arg21 c16_i32_279
  let v474 : Index := Scalar.indexCast v387
  ![12, v474.toNat]

def k0_chk178 (i : grid0.Coords) (k0_t2 : Fin k0_t2_loop.trips) (v402 : IVec S16 32) (v476 : IVec S16 32) : Prop :=
  (∀ (k0_h5 : k0_cond5 i k0_t2 = 1#1), ∀ a x, ((![v476, v402] : Fin 2 → IVec S16 32) a x).toNat < S64x16.size a)
instance k0_chk178.dec : ∀ (i : grid0.Coords) (k0_t2 : Fin k0_t2_loop.trips) (v402 : IVec S16 32) (v476 : IVec S16 32), Decidable (k0_chk178 i k0_t2 v402 v476) := fun i k0_t2 v402 v476 => decidable_of_iff' _ (Iff.of_eq (k0_chk178.eq_1 i k0_t2 v402 v476))
theorem k0_idx178_inb : ∀ (i : grid0.Coords) (k0_t2 : Fin k0_t2_loop.trips) (v402 : IVec S16 32) (v476 : IVec S16 32) (k0_hw178 : k0_chk178 i k0_t2 v402 v476), ∀ (k0_h5 : k0_cond5 i k0_t2 = 1#1), ∀ a x, ((![v476, v402] : Fin 2 → IVec S16 32) a x).toNat < S64x16.size a := fun i k0_t2 v402 v476 k0_hw178 k0_h5 => k0_hw178 k0_h5
def k0_off157 (k0_t4 : Fin k0_t4_loop.trips) : Fin 2 → Nat :=
  let c13_i32_307 : BitVec 32 := 13#32
  let v478 : Index := Scalar.indexCast c13_i32_307
  let c0_i32_271 : BitVec 32 := 0#32
  let c1_i32_273 : BitVec 32 := 1#32
  let arg21 : BitVec 32 := Scf.iv c0_i32_271 c1_i32_273 k0_t4
  let c16_i32_279 : BitVec 32 := 16#32
  let v387 : BitVec 32 := Scalar.muli arg21 c16_i32_279
  let v479 : Index := Scalar.indexCast v387
  ![13, v479.toNat]

def k0_chk179 (i : grid0.Coords) (k0_t2 : Fin k0_t2_loop.trips) (v402 : IVec S16 32) (v481 : IVec S16 32) : Prop :=
  (∀ (k0_h5 : k0_cond5 i k0_t2 = 1#1), ∀ a x, ((![v481, v402] : Fin 2 → IVec S16 32) a x).toNat < S64x16.size a)
instance k0_chk179.dec : ∀ (i : grid0.Coords) (k0_t2 : Fin k0_t2_loop.trips) (v402 : IVec S16 32) (v481 : IVec S16 32), Decidable (k0_chk179 i k0_t2 v402 v481) := fun i k0_t2 v402 v481 => decidable_of_iff' _ (Iff.of_eq (k0_chk179.eq_1 i k0_t2 v402 v481))
theorem k0_idx179_inb : ∀ (i : grid0.Coords) (k0_t2 : Fin k0_t2_loop.trips) (v402 : IVec S16 32) (v481 : IVec S16 32) (k0_hw179 : k0_chk179 i k0_t2 v402 v481), ∀ (k0_h5 : k0_cond5 i k0_t2 = 1#1), ∀ a x, ((![v481, v402] : Fin 2 → IVec S16 32) a x).toNat < S64x16.size a := fun i k0_t2 v402 v481 k0_hw179 k0_h5 => k0_hw179 k0_h5
def k0_off158 (k0_t4 : Fin k0_t4_loop.trips) : Fin 2 → Nat :=
  let c14_i32_308 : BitVec 32 := 14#32
  let v483 : Index := Scalar.indexCast c14_i32_308
  let c0_i32_271 : BitVec 32 := 0#32
  let c1_i32_273 : BitVec 32 := 1#32
  let arg21 : BitVec 32 := Scf.iv c0_i32_271 c1_i32_273 k0_t4
  let c16_i32_279 : BitVec 32 := 16#32
  let v387 : BitVec 32 := Scalar.muli arg21 c16_i32_279
  let v484 : Index := Scalar.indexCast v387
  ![14, v484.toNat]

def k0_chk180 (i : grid0.Coords) (k0_t2 : Fin k0_t2_loop.trips) (v402 : IVec S16 32) (v486 : IVec S16 32) : Prop :=
  (∀ (k0_h5 : k0_cond5 i k0_t2 = 1#1), ∀ a x, ((![v486, v402] : Fin 2 → IVec S16 32) a x).toNat < S64x16.size a)
instance k0_chk180.dec : ∀ (i : grid0.Coords) (k0_t2 : Fin k0_t2_loop.trips) (v402 : IVec S16 32) (v486 : IVec S16 32), Decidable (k0_chk180 i k0_t2 v402 v486) := fun i k0_t2 v402 v486 => decidable_of_iff' _ (Iff.of_eq (k0_chk180.eq_1 i k0_t2 v402 v486))
theorem k0_idx180_inb : ∀ (i : grid0.Coords) (k0_t2 : Fin k0_t2_loop.trips) (v402 : IVec S16 32) (v486 : IVec S16 32) (k0_hw180 : k0_chk180 i k0_t2 v402 v486), ∀ (k0_h5 : k0_cond5 i k0_t2 = 1#1), ∀ a x, ((![v486, v402] : Fin 2 → IVec S16 32) a x).toNat < S64x16.size a := fun i k0_t2 v402 v486 k0_hw180 k0_h5 => k0_hw180 k0_h5
def k0_off159 (k0_t4 : Fin k0_t4_loop.trips) : Fin 2 → Nat :=
  let c15_i32_309 : BitVec 32 := 15#32
  let v488 : Index := Scalar.indexCast c15_i32_309
  let c0_i32_271 : BitVec 32 := 0#32
  let c1_i32_273 : BitVec 32 := 1#32
  let arg21 : BitVec 32 := Scf.iv c0_i32_271 c1_i32_273 k0_t4
  let c16_i32_279 : BitVec 32 := 16#32
  let v387 : BitVec 32 := Scalar.muli arg21 c16_i32_279
  let v489 : Index := Scalar.indexCast v387
  ![15, v489.toNat]

def k0_chk181 (i : grid0.Coords) (k0_t2 : Fin k0_t2_loop.trips) (v402 : IVec S16 32) (v491 : IVec S16 32) : Prop :=
  (∀ (k0_h5 : k0_cond5 i k0_t2 = 1#1), ∀ a x, ((![v491, v402] : Fin 2 → IVec S16 32) a x).toNat < S64x16.size a)
instance k0_chk181.dec : ∀ (i : grid0.Coords) (k0_t2 : Fin k0_t2_loop.trips) (v402 : IVec S16 32) (v491 : IVec S16 32), Decidable (k0_chk181 i k0_t2 v402 v491) := fun i k0_t2 v402 v491 => decidable_of_iff' _ (Iff.of_eq (k0_chk181.eq_1 i k0_t2 v402 v491))
theorem k0_idx181_inb : ∀ (i : grid0.Coords) (k0_t2 : Fin k0_t2_loop.trips) (v402 : IVec S16 32) (v491 : IVec S16 32) (k0_hw181 : k0_chk181 i k0_t2 v402 v491), ∀ (k0_h5 : k0_cond5 i k0_t2 = 1#1), ∀ a x, ((![v491, v402] : Fin 2 → IVec S16 32) a x).toNat < S64x16.size a := fun i k0_t2 v402 v491 k0_hw181 k0_h5 => k0_hw181 k0_h5
def k0_off160 (k0_t4 : Fin k0_t4_loop.trips) : Fin 2 → Nat :=
  let c16_i32_311 : BitVec 32 := 16#32
  let v493 : Index := Scalar.indexCast c16_i32_311
  let c0_i32_271 : BitVec 32 := 0#32
  let c1_i32_273 : BitVec 32 := 1#32
  let arg21 : BitVec 32 := Scf.iv c0_i32_271 c1_i32_273 k0_t4
  let c16_i32_279 : BitVec 32 := 16#32
  let v387 : BitVec 32 := Scalar.muli arg21 c16_i32_279
  let v494 : Index := Scalar.indexCast v387
  ![16, v494.toNat]

def k0_chk182 (i : grid0.Coords) (k0_t2 : Fin k0_t2_loop.trips) (v402 : IVec S16 32) (v496 : IVec S16 32) : Prop :=
  (∀ (k0_h5 : k0_cond5 i k0_t2 = 1#1), ∀ a x, ((![v496, v402] : Fin 2 → IVec S16 32) a x).toNat < S64x16.size a)
instance k0_chk182.dec : ∀ (i : grid0.Coords) (k0_t2 : Fin k0_t2_loop.trips) (v402 : IVec S16 32) (v496 : IVec S16 32), Decidable (k0_chk182 i k0_t2 v402 v496) := fun i k0_t2 v402 v496 => decidable_of_iff' _ (Iff.of_eq (k0_chk182.eq_1 i k0_t2 v402 v496))
theorem k0_idx182_inb : ∀ (i : grid0.Coords) (k0_t2 : Fin k0_t2_loop.trips) (v402 : IVec S16 32) (v496 : IVec S16 32) (k0_hw182 : k0_chk182 i k0_t2 v402 v496), ∀ (k0_h5 : k0_cond5 i k0_t2 = 1#1), ∀ a x, ((![v496, v402] : Fin 2 → IVec S16 32) a x).toNat < S64x16.size a := fun i k0_t2 v402 v496 k0_hw182 k0_h5 => k0_hw182 k0_h5
def k0_off161 (k0_t4 : Fin k0_t4_loop.trips) : Fin 2 → Nat :=
  let c17_i32_312 : BitVec 32 := 17#32
  let v498 : Index := Scalar.indexCast c17_i32_312
  let c0_i32_271 : BitVec 32 := 0#32
  let c1_i32_273 : BitVec 32 := 1#32
  let arg21 : BitVec 32 := Scf.iv c0_i32_271 c1_i32_273 k0_t4
  let c16_i32_279 : BitVec 32 := 16#32
  let v387 : BitVec 32 := Scalar.muli arg21 c16_i32_279
  let v499 : Index := Scalar.indexCast v387
  ![17, v499.toNat]

def k0_chk183 (i : grid0.Coords) (k0_t2 : Fin k0_t2_loop.trips) (v402 : IVec S16 32) (v501 : IVec S16 32) : Prop :=
  (∀ (k0_h5 : k0_cond5 i k0_t2 = 1#1), ∀ a x, ((![v501, v402] : Fin 2 → IVec S16 32) a x).toNat < S64x16.size a)
instance k0_chk183.dec : ∀ (i : grid0.Coords) (k0_t2 : Fin k0_t2_loop.trips) (v402 : IVec S16 32) (v501 : IVec S16 32), Decidable (k0_chk183 i k0_t2 v402 v501) := fun i k0_t2 v402 v501 => decidable_of_iff' _ (Iff.of_eq (k0_chk183.eq_1 i k0_t2 v402 v501))
theorem k0_idx183_inb : ∀ (i : grid0.Coords) (k0_t2 : Fin k0_t2_loop.trips) (v402 : IVec S16 32) (v501 : IVec S16 32) (k0_hw183 : k0_chk183 i k0_t2 v402 v501), ∀ (k0_h5 : k0_cond5 i k0_t2 = 1#1), ∀ a x, ((![v501, v402] : Fin 2 → IVec S16 32) a x).toNat < S64x16.size a := fun i k0_t2 v402 v501 k0_hw183 k0_h5 => k0_hw183 k0_h5
def k0_off162 (k0_t4 : Fin k0_t4_loop.trips) : Fin 2 → Nat :=
  let c18_i32_313 : BitVec 32 := 18#32
  let v503 : Index := Scalar.indexCast c18_i32_313
  let c0_i32_271 : BitVec 32 := 0#32
  let c1_i32_273 : BitVec 32 := 1#32
  let arg21 : BitVec 32 := Scf.iv c0_i32_271 c1_i32_273 k0_t4
  let c16_i32_279 : BitVec 32 := 16#32
  let v387 : BitVec 32 := Scalar.muli arg21 c16_i32_279
  let v504 : Index := Scalar.indexCast v387
  ![18, v504.toNat]

def k0_chk184 (i : grid0.Coords) (k0_t2 : Fin k0_t2_loop.trips) (v402 : IVec S16 32) (v506 : IVec S16 32) : Prop :=
  (∀ (k0_h5 : k0_cond5 i k0_t2 = 1#1), ∀ a x, ((![v506, v402] : Fin 2 → IVec S16 32) a x).toNat < S64x16.size a)
instance k0_chk184.dec : ∀ (i : grid0.Coords) (k0_t2 : Fin k0_t2_loop.trips) (v402 : IVec S16 32) (v506 : IVec S16 32), Decidable (k0_chk184 i k0_t2 v402 v506) := fun i k0_t2 v402 v506 => decidable_of_iff' _ (Iff.of_eq (k0_chk184.eq_1 i k0_t2 v402 v506))
theorem k0_idx184_inb : ∀ (i : grid0.Coords) (k0_t2 : Fin k0_t2_loop.trips) (v402 : IVec S16 32) (v506 : IVec S16 32) (k0_hw184 : k0_chk184 i k0_t2 v402 v506), ∀ (k0_h5 : k0_cond5 i k0_t2 = 1#1), ∀ a x, ((![v506, v402] : Fin 2 → IVec S16 32) a x).toNat < S64x16.size a := fun i k0_t2 v402 v506 k0_hw184 k0_h5 => k0_hw184 k0_h5
def k0_off163 (k0_t4 : Fin k0_t4_loop.trips) : Fin 2 → Nat :=
  let c19_i32_314 : BitVec 32 := 19#32
  let v508 : Index := Scalar.indexCast c19_i32_314
  let c0_i32_271 : BitVec 32 := 0#32
  let c1_i32_273 : BitVec 32 := 1#32
  let arg21 : BitVec 32 := Scf.iv c0_i32_271 c1_i32_273 k0_t4
  let c16_i32_279 : BitVec 32 := 16#32
  let v387 : BitVec 32 := Scalar.muli arg21 c16_i32_279
  let v509 : Index := Scalar.indexCast v387
  ![19, v509.toNat]

def k0_chk185 (i : grid0.Coords) (k0_t2 : Fin k0_t2_loop.trips) (v402 : IVec S16 32) (v511 : IVec S16 32) : Prop :=
  (∀ (k0_h5 : k0_cond5 i k0_t2 = 1#1), ∀ a x, ((![v511, v402] : Fin 2 → IVec S16 32) a x).toNat < S64x16.size a)
instance k0_chk185.dec : ∀ (i : grid0.Coords) (k0_t2 : Fin k0_t2_loop.trips) (v402 : IVec S16 32) (v511 : IVec S16 32), Decidable (k0_chk185 i k0_t2 v402 v511) := fun i k0_t2 v402 v511 => decidable_of_iff' _ (Iff.of_eq (k0_chk185.eq_1 i k0_t2 v402 v511))
theorem k0_idx185_inb : ∀ (i : grid0.Coords) (k0_t2 : Fin k0_t2_loop.trips) (v402 : IVec S16 32) (v511 : IVec S16 32) (k0_hw185 : k0_chk185 i k0_t2 v402 v511), ∀ (k0_h5 : k0_cond5 i k0_t2 = 1#1), ∀ a x, ((![v511, v402] : Fin 2 → IVec S16 32) a x).toNat < S64x16.size a := fun i k0_t2 v402 v511 k0_hw185 k0_h5 => k0_hw185 k0_h5
def k0_off164 (k0_t4 : Fin k0_t4_loop.trips) : Fin 2 → Nat :=
  let c20_i32_315 : BitVec 32 := 20#32
  let v513 : Index := Scalar.indexCast c20_i32_315
  let c0_i32_271 : BitVec 32 := 0#32
  let c1_i32_273 : BitVec 32 := 1#32
  let arg21 : BitVec 32 := Scf.iv c0_i32_271 c1_i32_273 k0_t4
  let c16_i32_279 : BitVec 32 := 16#32
  let v387 : BitVec 32 := Scalar.muli arg21 c16_i32_279
  let v514 : Index := Scalar.indexCast v387
  ![20, v514.toNat]

def k0_chk186 (i : grid0.Coords) (k0_t2 : Fin k0_t2_loop.trips) (v402 : IVec S16 32) (v516 : IVec S16 32) : Prop :=
  (∀ (k0_h5 : k0_cond5 i k0_t2 = 1#1), ∀ a x, ((![v516, v402] : Fin 2 → IVec S16 32) a x).toNat < S64x16.size a)
instance k0_chk186.dec : ∀ (i : grid0.Coords) (k0_t2 : Fin k0_t2_loop.trips) (v402 : IVec S16 32) (v516 : IVec S16 32), Decidable (k0_chk186 i k0_t2 v402 v516) := fun i k0_t2 v402 v516 => decidable_of_iff' _ (Iff.of_eq (k0_chk186.eq_1 i k0_t2 v402 v516))
theorem k0_idx186_inb : ∀ (i : grid0.Coords) (k0_t2 : Fin k0_t2_loop.trips) (v402 : IVec S16 32) (v516 : IVec S16 32) (k0_hw186 : k0_chk186 i k0_t2 v402 v516), ∀ (k0_h5 : k0_cond5 i k0_t2 = 1#1), ∀ a x, ((![v516, v402] : Fin 2 → IVec S16 32) a x).toNat < S64x16.size a := fun i k0_t2 v402 v516 k0_hw186 k0_h5 => k0_hw186 k0_h5
def k0_off165 (k0_t4 : Fin k0_t4_loop.trips) : Fin 2 → Nat :=
  let c21_i32_316 : BitVec 32 := 21#32
  let v518 : Index := Scalar.indexCast c21_i32_316
  let c0_i32_271 : BitVec 32 := 0#32
  let c1_i32_273 : BitVec 32 := 1#32
  let arg21 : BitVec 32 := Scf.iv c0_i32_271 c1_i32_273 k0_t4
  let c16_i32_279 : BitVec 32 := 16#32
  let v387 : BitVec 32 := Scalar.muli arg21 c16_i32_279
  let v519 : Index := Scalar.indexCast v387
  ![21, v519.toNat]

def k0_chk187 (i : grid0.Coords) (k0_t2 : Fin k0_t2_loop.trips) (v402 : IVec S16 32) (v521 : IVec S16 32) : Prop :=
  (∀ (k0_h5 : k0_cond5 i k0_t2 = 1#1), ∀ a x, ((![v521, v402] : Fin 2 → IVec S16 32) a x).toNat < S64x16.size a)
instance k0_chk187.dec : ∀ (i : grid0.Coords) (k0_t2 : Fin k0_t2_loop.trips) (v402 : IVec S16 32) (v521 : IVec S16 32), Decidable (k0_chk187 i k0_t2 v402 v521) := fun i k0_t2 v402 v521 => decidable_of_iff' _ (Iff.of_eq (k0_chk187.eq_1 i k0_t2 v402 v521))
theorem k0_idx187_inb : ∀ (i : grid0.Coords) (k0_t2 : Fin k0_t2_loop.trips) (v402 : IVec S16 32) (v521 : IVec S16 32) (k0_hw187 : k0_chk187 i k0_t2 v402 v521), ∀ (k0_h5 : k0_cond5 i k0_t2 = 1#1), ∀ a x, ((![v521, v402] : Fin 2 → IVec S16 32) a x).toNat < S64x16.size a := fun i k0_t2 v402 v521 k0_hw187 k0_h5 => k0_hw187 k0_h5
def k0_off166 (k0_t4 : Fin k0_t4_loop.trips) : Fin 2 → Nat :=
  let c22_i32_317 : BitVec 32 := 22#32
  let v523 : Index := Scalar.indexCast c22_i32_317
  let c0_i32_271 : BitVec 32 := 0#32
  let c1_i32_273 : BitVec 32 := 1#32
  let arg21 : BitVec 32 := Scf.iv c0_i32_271 c1_i32_273 k0_t4
  let c16_i32_279 : BitVec 32 := 16#32
  let v387 : BitVec 32 := Scalar.muli arg21 c16_i32_279
  let v524 : Index := Scalar.indexCast v387
  ![22, v524.toNat]

def k0_chk188 (i : grid0.Coords) (k0_t2 : Fin k0_t2_loop.trips) (v402 : IVec S16 32) (v526 : IVec S16 32) : Prop :=
  (∀ (k0_h5 : k0_cond5 i k0_t2 = 1#1), ∀ a x, ((![v526, v402] : Fin 2 → IVec S16 32) a x).toNat < S64x16.size a)
instance k0_chk188.dec : ∀ (i : grid0.Coords) (k0_t2 : Fin k0_t2_loop.trips) (v402 : IVec S16 32) (v526 : IVec S16 32), Decidable (k0_chk188 i k0_t2 v402 v526) := fun i k0_t2 v402 v526 => decidable_of_iff' _ (Iff.of_eq (k0_chk188.eq_1 i k0_t2 v402 v526))
theorem k0_idx188_inb : ∀ (i : grid0.Coords) (k0_t2 : Fin k0_t2_loop.trips) (v402 : IVec S16 32) (v526 : IVec S16 32) (k0_hw188 : k0_chk188 i k0_t2 v402 v526), ∀ (k0_h5 : k0_cond5 i k0_t2 = 1#1), ∀ a x, ((![v526, v402] : Fin 2 → IVec S16 32) a x).toNat < S64x16.size a := fun i k0_t2 v402 v526 k0_hw188 k0_h5 => k0_hw188 k0_h5
def k0_off167 (k0_t4 : Fin k0_t4_loop.trips) : Fin 2 → Nat :=
  let c23_i32_318 : BitVec 32 := 23#32
  let v528 : Index := Scalar.indexCast c23_i32_318
  let c0_i32_271 : BitVec 32 := 0#32
  let c1_i32_273 : BitVec 32 := 1#32
  let arg21 : BitVec 32 := Scf.iv c0_i32_271 c1_i32_273 k0_t4
  let c16_i32_279 : BitVec 32 := 16#32
  let v387 : BitVec 32 := Scalar.muli arg21 c16_i32_279
  let v529 : Index := Scalar.indexCast v387
  ![23, v529.toNat]

def k0_chk189 (i : grid0.Coords) (k0_t2 : Fin k0_t2_loop.trips) (v402 : IVec S16 32) (v531 : IVec S16 32) : Prop :=
  (∀ (k0_h5 : k0_cond5 i k0_t2 = 1#1), ∀ a x, ((![v531, v402] : Fin 2 → IVec S16 32) a x).toNat < S64x16.size a)
instance k0_chk189.dec : ∀ (i : grid0.Coords) (k0_t2 : Fin k0_t2_loop.trips) (v402 : IVec S16 32) (v531 : IVec S16 32), Decidable (k0_chk189 i k0_t2 v402 v531) := fun i k0_t2 v402 v531 => decidable_of_iff' _ (Iff.of_eq (k0_chk189.eq_1 i k0_t2 v402 v531))
theorem k0_idx189_inb : ∀ (i : grid0.Coords) (k0_t2 : Fin k0_t2_loop.trips) (v402 : IVec S16 32) (v531 : IVec S16 32) (k0_hw189 : k0_chk189 i k0_t2 v402 v531), ∀ (k0_h5 : k0_cond5 i k0_t2 = 1#1), ∀ a x, ((![v531, v402] : Fin 2 → IVec S16 32) a x).toNat < S64x16.size a := fun i k0_t2 v402 v531 k0_hw189 k0_h5 => k0_hw189 k0_h5
def k0_off168 (k0_t4 : Fin k0_t4_loop.trips) : Fin 2 → Nat :=
  let c24_i32_319 : BitVec 32 := 24#32
  let v533 : Index := Scalar.indexCast c24_i32_319
  let c0_i32_271 : BitVec 32 := 0#32
  let c1_i32_273 : BitVec 32 := 1#32
  let arg21 : BitVec 32 := Scf.iv c0_i32_271 c1_i32_273 k0_t4
  let c16_i32_279 : BitVec 32 := 16#32
  let v387 : BitVec 32 := Scalar.muli arg21 c16_i32_279
  let v534 : Index := Scalar.indexCast v387
  ![24, v534.toNat]

def k0_chk190 (i : grid0.Coords) (k0_t2 : Fin k0_t2_loop.trips) (v402 : IVec S16 32) (v536 : IVec S16 32) : Prop :=
  (∀ (k0_h5 : k0_cond5 i k0_t2 = 1#1), ∀ a x, ((![v536, v402] : Fin 2 → IVec S16 32) a x).toNat < S64x16.size a)
instance k0_chk190.dec : ∀ (i : grid0.Coords) (k0_t2 : Fin k0_t2_loop.trips) (v402 : IVec S16 32) (v536 : IVec S16 32), Decidable (k0_chk190 i k0_t2 v402 v536) := fun i k0_t2 v402 v536 => decidable_of_iff' _ (Iff.of_eq (k0_chk190.eq_1 i k0_t2 v402 v536))
theorem k0_idx190_inb : ∀ (i : grid0.Coords) (k0_t2 : Fin k0_t2_loop.trips) (v402 : IVec S16 32) (v536 : IVec S16 32) (k0_hw190 : k0_chk190 i k0_t2 v402 v536), ∀ (k0_h5 : k0_cond5 i k0_t2 = 1#1), ∀ a x, ((![v536, v402] : Fin 2 → IVec S16 32) a x).toNat < S64x16.size a := fun i k0_t2 v402 v536 k0_hw190 k0_h5 => k0_hw190 k0_h5
def k0_off169 (k0_t4 : Fin k0_t4_loop.trips) : Fin 2 → Nat :=
  let c25_i32_320 : BitVec 32 := 25#32
  let v538 : Index := Scalar.indexCast c25_i32_320
  let c0_i32_271 : BitVec 32 := 0#32
  let c1_i32_273 : BitVec 32 := 1#32
  let arg21 : BitVec 32 := Scf.iv c0_i32_271 c1_i32_273 k0_t4
  let c16_i32_279 : BitVec 32 := 16#32
  let v387 : BitVec 32 := Scalar.muli arg21 c16_i32_279
  let v539 : Index := Scalar.indexCast v387
  ![25, v539.toNat]

def k0_chk191 (i : grid0.Coords) (k0_t2 : Fin k0_t2_loop.trips) (v402 : IVec S16 32) (v541 : IVec S16 32) : Prop :=
  (∀ (k0_h5 : k0_cond5 i k0_t2 = 1#1), ∀ a x, ((![v541, v402] : Fin 2 → IVec S16 32) a x).toNat < S64x16.size a)
instance k0_chk191.dec : ∀ (i : grid0.Coords) (k0_t2 : Fin k0_t2_loop.trips) (v402 : IVec S16 32) (v541 : IVec S16 32), Decidable (k0_chk191 i k0_t2 v402 v541) := fun i k0_t2 v402 v541 => decidable_of_iff' _ (Iff.of_eq (k0_chk191.eq_1 i k0_t2 v402 v541))
theorem k0_idx191_inb : ∀ (i : grid0.Coords) (k0_t2 : Fin k0_t2_loop.trips) (v402 : IVec S16 32) (v541 : IVec S16 32) (k0_hw191 : k0_chk191 i k0_t2 v402 v541), ∀ (k0_h5 : k0_cond5 i k0_t2 = 1#1), ∀ a x, ((![v541, v402] : Fin 2 → IVec S16 32) a x).toNat < S64x16.size a := fun i k0_t2 v402 v541 k0_hw191 k0_h5 => k0_hw191 k0_h5
def k0_off170 (k0_t4 : Fin k0_t4_loop.trips) : Fin 2 → Nat :=
  let c26_i32_321 : BitVec 32 := 26#32
  let v543 : Index := Scalar.indexCast c26_i32_321
  let c0_i32_271 : BitVec 32 := 0#32
  let c1_i32_273 : BitVec 32 := 1#32
  let arg21 : BitVec 32 := Scf.iv c0_i32_271 c1_i32_273 k0_t4
  let c16_i32_279 : BitVec 32 := 16#32
  let v387 : BitVec 32 := Scalar.muli arg21 c16_i32_279
  let v544 : Index := Scalar.indexCast v387
  ![26, v544.toNat]

def k0_chk192 (i : grid0.Coords) (k0_t2 : Fin k0_t2_loop.trips) (v402 : IVec S16 32) (v546 : IVec S16 32) : Prop :=
  (∀ (k0_h5 : k0_cond5 i k0_t2 = 1#1), ∀ a x, ((![v546, v402] : Fin 2 → IVec S16 32) a x).toNat < S64x16.size a)
instance k0_chk192.dec : ∀ (i : grid0.Coords) (k0_t2 : Fin k0_t2_loop.trips) (v402 : IVec S16 32) (v546 : IVec S16 32), Decidable (k0_chk192 i k0_t2 v402 v546) := fun i k0_t2 v402 v546 => decidable_of_iff' _ (Iff.of_eq (k0_chk192.eq_1 i k0_t2 v402 v546))
theorem k0_idx192_inb : ∀ (i : grid0.Coords) (k0_t2 : Fin k0_t2_loop.trips) (v402 : IVec S16 32) (v546 : IVec S16 32) (k0_hw192 : k0_chk192 i k0_t2 v402 v546), ∀ (k0_h5 : k0_cond5 i k0_t2 = 1#1), ∀ a x, ((![v546, v402] : Fin 2 → IVec S16 32) a x).toNat < S64x16.size a := fun i k0_t2 v402 v546 k0_hw192 k0_h5 => k0_hw192 k0_h5
def k0_off171 (k0_t4 : Fin k0_t4_loop.trips) : Fin 2 → Nat :=
  let c27_i32_322 : BitVec 32 := 27#32
  let v548 : Index := Scalar.indexCast c27_i32_322
  let c0_i32_271 : BitVec 32 := 0#32
  let c1_i32_273 : BitVec 32 := 1#32
  let arg21 : BitVec 32 := Scf.iv c0_i32_271 c1_i32_273 k0_t4
  let c16_i32_279 : BitVec 32 := 16#32
  let v387 : BitVec 32 := Scalar.muli arg21 c16_i32_279
  let v549 : Index := Scalar.indexCast v387
  ![27, v549.toNat]

def k0_chk193 (i : grid0.Coords) (k0_t2 : Fin k0_t2_loop.trips) (v402 : IVec S16 32) (v551 : IVec S16 32) : Prop :=
  (∀ (k0_h5 : k0_cond5 i k0_t2 = 1#1), ∀ a x, ((![v551, v402] : Fin 2 → IVec S16 32) a x).toNat < S64x16.size a)
instance k0_chk193.dec : ∀ (i : grid0.Coords) (k0_t2 : Fin k0_t2_loop.trips) (v402 : IVec S16 32) (v551 : IVec S16 32), Decidable (k0_chk193 i k0_t2 v402 v551) := fun i k0_t2 v402 v551 => decidable_of_iff' _ (Iff.of_eq (k0_chk193.eq_1 i k0_t2 v402 v551))
theorem k0_idx193_inb : ∀ (i : grid0.Coords) (k0_t2 : Fin k0_t2_loop.trips) (v402 : IVec S16 32) (v551 : IVec S16 32) (k0_hw193 : k0_chk193 i k0_t2 v402 v551), ∀ (k0_h5 : k0_cond5 i k0_t2 = 1#1), ∀ a x, ((![v551, v402] : Fin 2 → IVec S16 32) a x).toNat < S64x16.size a := fun i k0_t2 v402 v551 k0_hw193 k0_h5 => k0_hw193 k0_h5
def k0_off172 (k0_t4 : Fin k0_t4_loop.trips) : Fin 2 → Nat :=
  let c28_i32_324 : BitVec 32 := 28#32
  let v553 : Index := Scalar.indexCast c28_i32_324
  let c0_i32_271 : BitVec 32 := 0#32
  let c1_i32_273 : BitVec 32 := 1#32
  let arg21 : BitVec 32 := Scf.iv c0_i32_271 c1_i32_273 k0_t4
  let c16_i32_279 : BitVec 32 := 16#32
  let v387 : BitVec 32 := Scalar.muli arg21 c16_i32_279
  let v554 : Index := Scalar.indexCast v387
  ![28, v554.toNat]

def k0_chk194 (i : grid0.Coords) (k0_t2 : Fin k0_t2_loop.trips) (v402 : IVec S16 32) (v556 : IVec S16 32) : Prop :=
  (∀ (k0_h5 : k0_cond5 i k0_t2 = 1#1), ∀ a x, ((![v556, v402] : Fin 2 → IVec S16 32) a x).toNat < S64x16.size a)
instance k0_chk194.dec : ∀ (i : grid0.Coords) (k0_t2 : Fin k0_t2_loop.trips) (v402 : IVec S16 32) (v556 : IVec S16 32), Decidable (k0_chk194 i k0_t2 v402 v556) := fun i k0_t2 v402 v556 => decidable_of_iff' _ (Iff.of_eq (k0_chk194.eq_1 i k0_t2 v402 v556))
theorem k0_idx194_inb : ∀ (i : grid0.Coords) (k0_t2 : Fin k0_t2_loop.trips) (v402 : IVec S16 32) (v556 : IVec S16 32) (k0_hw194 : k0_chk194 i k0_t2 v402 v556), ∀ (k0_h5 : k0_cond5 i k0_t2 = 1#1), ∀ a x, ((![v556, v402] : Fin 2 → IVec S16 32) a x).toNat < S64x16.size a := fun i k0_t2 v402 v556 k0_hw194 k0_h5 => k0_hw194 k0_h5
def k0_off173 (k0_t4 : Fin k0_t4_loop.trips) : Fin 2 → Nat :=
  let c29_i32_325 : BitVec 32 := 29#32
  let v558 : Index := Scalar.indexCast c29_i32_325
  let c0_i32_271 : BitVec 32 := 0#32
  let c1_i32_273 : BitVec 32 := 1#32
  let arg21 : BitVec 32 := Scf.iv c0_i32_271 c1_i32_273 k0_t4
  let c16_i32_279 : BitVec 32 := 16#32
  let v387 : BitVec 32 := Scalar.muli arg21 c16_i32_279
  let v559 : Index := Scalar.indexCast v387
  ![29, v559.toNat]

def k0_chk195 (i : grid0.Coords) (k0_t2 : Fin k0_t2_loop.trips) (v402 : IVec S16 32) (v561 : IVec S16 32) : Prop :=
  (∀ (k0_h5 : k0_cond5 i k0_t2 = 1#1), ∀ a x, ((![v561, v402] : Fin 2 → IVec S16 32) a x).toNat < S64x16.size a)
instance k0_chk195.dec : ∀ (i : grid0.Coords) (k0_t2 : Fin k0_t2_loop.trips) (v402 : IVec S16 32) (v561 : IVec S16 32), Decidable (k0_chk195 i k0_t2 v402 v561) := fun i k0_t2 v402 v561 => decidable_of_iff' _ (Iff.of_eq (k0_chk195.eq_1 i k0_t2 v402 v561))
theorem k0_idx195_inb : ∀ (i : grid0.Coords) (k0_t2 : Fin k0_t2_loop.trips) (v402 : IVec S16 32) (v561 : IVec S16 32) (k0_hw195 : k0_chk195 i k0_t2 v402 v561), ∀ (k0_h5 : k0_cond5 i k0_t2 = 1#1), ∀ a x, ((![v561, v402] : Fin 2 → IVec S16 32) a x).toNat < S64x16.size a := fun i k0_t2 v402 v561 k0_hw195 k0_h5 => k0_hw195 k0_h5
def k0_off174 (k0_t4 : Fin k0_t4_loop.trips) : Fin 2 → Nat :=
  let c30_i32_326 : BitVec 32 := 30#32
  let v563 : Index := Scalar.indexCast c30_i32_326
  let c0_i32_271 : BitVec 32 := 0#32
  let c1_i32_273 : BitVec 32 := 1#32
  let arg21 : BitVec 32 := Scf.iv c0_i32_271 c1_i32_273 k0_t4
  let c16_i32_279 : BitVec 32 := 16#32
  let v387 : BitVec 32 := Scalar.muli arg21 c16_i32_279
  let v564 : Index := Scalar.indexCast v387
  ![30, v564.toNat]

def k0_chk196 (i : grid0.Coords) (k0_t2 : Fin k0_t2_loop.trips) (v402 : IVec S16 32) (v566 : IVec S16 32) : Prop :=
  (∀ (k0_h5 : k0_cond5 i k0_t2 = 1#1), ∀ a x, ((![v566, v402] : Fin 2 → IVec S16 32) a x).toNat < S64x16.size a)
instance k0_chk196.dec : ∀ (i : grid0.Coords) (k0_t2 : Fin k0_t2_loop.trips) (v402 : IVec S16 32) (v566 : IVec S16 32), Decidable (k0_chk196 i k0_t2 v402 v566) := fun i k0_t2 v402 v566 => decidable_of_iff' _ (Iff.of_eq (k0_chk196.eq_1 i k0_t2 v402 v566))
theorem k0_idx196_inb : ∀ (i : grid0.Coords) (k0_t2 : Fin k0_t2_loop.trips) (v402 : IVec S16 32) (v566 : IVec S16 32) (k0_hw196 : k0_chk196 i k0_t2 v402 v566), ∀ (k0_h5 : k0_cond5 i k0_t2 = 1#1), ∀ a x, ((![v566, v402] : Fin 2 → IVec S16 32) a x).toNat < S64x16.size a := fun i k0_t2 v402 v566 k0_hw196 k0_h5 => k0_hw196 k0_h5
def k0_off175 (k0_t4 : Fin k0_t4_loop.trips) : Fin 2 → Nat :=
  let c31_i32_327 : BitVec 32 := 31#32
  let v568 : Index := Scalar.indexCast c31_i32_327
  let c0_i32_271 : BitVec 32 := 0#32
  let c1_i32_273 : BitVec 32 := 1#32
  let arg21 : BitVec 32 := Scf.iv c0_i32_271 c1_i32_273 k0_t4
  let c16_i32_279 : BitVec 32 := 16#32
  let v387 : BitVec 32 := Scalar.muli arg21 c16_i32_279
  let v569 : Index := Scalar.indexCast v387
  ![31, v569.toNat]

def k0_chk197 (i : grid0.Coords) (k0_t2 : Fin k0_t2_loop.trips) (v402 : IVec S16 32) (v571 : IVec S16 32) : Prop :=
  (∀ (k0_h5 : k0_cond5 i k0_t2 = 1#1), ∀ a x, ((![v571, v402] : Fin 2 → IVec S16 32) a x).toNat < S64x16.size a)
instance k0_chk197.dec : ∀ (i : grid0.Coords) (k0_t2 : Fin k0_t2_loop.trips) (v402 : IVec S16 32) (v571 : IVec S16 32), Decidable (k0_chk197 i k0_t2 v402 v571) := fun i k0_t2 v402 v571 => decidable_of_iff' _ (Iff.of_eq (k0_chk197.eq_1 i k0_t2 v402 v571))
theorem k0_idx197_inb : ∀ (i : grid0.Coords) (k0_t2 : Fin k0_t2_loop.trips) (v402 : IVec S16 32) (v571 : IVec S16 32) (k0_hw197 : k0_chk197 i k0_t2 v402 v571), ∀ (k0_h5 : k0_cond5 i k0_t2 = 1#1), ∀ a x, ((![v571, v402] : Fin 2 → IVec S16 32) a x).toNat < S64x16.size a := fun i k0_t2 v402 v571 k0_hw197 k0_h5 => k0_hw197 k0_h5
def k0_off176 (k0_t4 : Fin k0_t4_loop.trips) : Fin 2 → Nat :=
  let c32_i32_328 : BitVec 32 := 32#32
  let v573 : Index := Scalar.indexCast c32_i32_328
  let c0_i32_271 : BitVec 32 := 0#32
  let c1_i32_273 : BitVec 32 := 1#32
  let arg21 : BitVec 32 := Scf.iv c0_i32_271 c1_i32_273 k0_t4
  let c16_i32_279 : BitVec 32 := 16#32
  let v387 : BitVec 32 := Scalar.muli arg21 c16_i32_279
  let v574 : Index := Scalar.indexCast v387
  ![32, v574.toNat]

def k0_chk198 (i : grid0.Coords) (k0_t2 : Fin k0_t2_loop.trips) (v402 : IVec S16 32) (v576 : IVec S16 32) : Prop :=
  (∀ (k0_h5 : k0_cond5 i k0_t2 = 1#1), ∀ a x, ((![v576, v402] : Fin 2 → IVec S16 32) a x).toNat < S64x16.size a)
instance k0_chk198.dec : ∀ (i : grid0.Coords) (k0_t2 : Fin k0_t2_loop.trips) (v402 : IVec S16 32) (v576 : IVec S16 32), Decidable (k0_chk198 i k0_t2 v402 v576) := fun i k0_t2 v402 v576 => decidable_of_iff' _ (Iff.of_eq (k0_chk198.eq_1 i k0_t2 v402 v576))
theorem k0_idx198_inb : ∀ (i : grid0.Coords) (k0_t2 : Fin k0_t2_loop.trips) (v402 : IVec S16 32) (v576 : IVec S16 32) (k0_hw198 : k0_chk198 i k0_t2 v402 v576), ∀ (k0_h5 : k0_cond5 i k0_t2 = 1#1), ∀ a x, ((![v576, v402] : Fin 2 → IVec S16 32) a x).toNat < S64x16.size a := fun i k0_t2 v402 v576 k0_hw198 k0_h5 => k0_hw198 k0_h5
def k0_off177 (k0_t4 : Fin k0_t4_loop.trips) : Fin 2 → Nat :=
  let c33_i32_329 : BitVec 32 := 33#32
  let v578 : Index := Scalar.indexCast c33_i32_329
  let c0_i32_271 : BitVec 32 := 0#32
  let c1_i32_273 : BitVec 32 := 1#32
  let arg21 : BitVec 32 := Scf.iv c0_i32_271 c1_i32_273 k0_t4
  let c16_i32_279 : BitVec 32 := 16#32
  let v387 : BitVec 32 := Scalar.muli arg21 c16_i32_279
  let v579 : Index := Scalar.indexCast v387
  ![33, v579.toNat]

def k0_chk199 (i : grid0.Coords) (k0_t2 : Fin k0_t2_loop.trips) (v402 : IVec S16 32) (v581 : IVec S16 32) : Prop :=
  (∀ (k0_h5 : k0_cond5 i k0_t2 = 1#1), ∀ a x, ((![v581, v402] : Fin 2 → IVec S16 32) a x).toNat < S64x16.size a)
instance k0_chk199.dec : ∀ (i : grid0.Coords) (k0_t2 : Fin k0_t2_loop.trips) (v402 : IVec S16 32) (v581 : IVec S16 32), Decidable (k0_chk199 i k0_t2 v402 v581) := fun i k0_t2 v402 v581 => decidable_of_iff' _ (Iff.of_eq (k0_chk199.eq_1 i k0_t2 v402 v581))
theorem k0_idx199_inb : ∀ (i : grid0.Coords) (k0_t2 : Fin k0_t2_loop.trips) (v402 : IVec S16 32) (v581 : IVec S16 32) (k0_hw199 : k0_chk199 i k0_t2 v402 v581), ∀ (k0_h5 : k0_cond5 i k0_t2 = 1#1), ∀ a x, ((![v581, v402] : Fin 2 → IVec S16 32) a x).toNat < S64x16.size a := fun i k0_t2 v402 v581 k0_hw199 k0_h5 => k0_hw199 k0_h5
def k0_off178 (k0_t4 : Fin k0_t4_loop.trips) : Fin 2 → Nat :=
  let c34_i32_330 : BitVec 32 := 34#32
  let v583 : Index := Scalar.indexCast c34_i32_330
  let c0_i32_271 : BitVec 32 := 0#32
  let c1_i32_273 : BitVec 32 := 1#32
  let arg21 : BitVec 32 := Scf.iv c0_i32_271 c1_i32_273 k0_t4
  let c16_i32_279 : BitVec 32 := 16#32
  let v387 : BitVec 32 := Scalar.muli arg21 c16_i32_279
  let v584 : Index := Scalar.indexCast v387
  ![34, v584.toNat]

def k0_chk200 (i : grid0.Coords) (k0_t2 : Fin k0_t2_loop.trips) (v402 : IVec S16 32) (v586 : IVec S16 32) : Prop :=
  (∀ (k0_h5 : k0_cond5 i k0_t2 = 1#1), ∀ a x, ((![v586, v402] : Fin 2 → IVec S16 32) a x).toNat < S64x16.size a)
instance k0_chk200.dec : ∀ (i : grid0.Coords) (k0_t2 : Fin k0_t2_loop.trips) (v402 : IVec S16 32) (v586 : IVec S16 32), Decidable (k0_chk200 i k0_t2 v402 v586) := fun i k0_t2 v402 v586 => decidable_of_iff' _ (Iff.of_eq (k0_chk200.eq_1 i k0_t2 v402 v586))
theorem k0_idx200_inb : ∀ (i : grid0.Coords) (k0_t2 : Fin k0_t2_loop.trips) (v402 : IVec S16 32) (v586 : IVec S16 32) (k0_hw200 : k0_chk200 i k0_t2 v402 v586), ∀ (k0_h5 : k0_cond5 i k0_t2 = 1#1), ∀ a x, ((![v586, v402] : Fin 2 → IVec S16 32) a x).toNat < S64x16.size a := fun i k0_t2 v402 v586 k0_hw200 k0_h5 => k0_hw200 k0_h5
def k0_off179 (k0_t4 : Fin k0_t4_loop.trips) : Fin 2 → Nat :=
  let c35_i32_331 : BitVec 32 := 35#32
  let v588 : Index := Scalar.indexCast c35_i32_331
  let c0_i32_271 : BitVec 32 := 0#32
  let c1_i32_273 : BitVec 32 := 1#32
  let arg21 : BitVec 32 := Scf.iv c0_i32_271 c1_i32_273 k0_t4
  let c16_i32_279 : BitVec 32 := 16#32
  let v387 : BitVec 32 := Scalar.muli arg21 c16_i32_279
  let v589 : Index := Scalar.indexCast v387
  ![35, v589.toNat]

def k0_chk201 (i : grid0.Coords) (k0_t2 : Fin k0_t2_loop.trips) (v402 : IVec S16 32) (v591 : IVec S16 32) : Prop :=
  (∀ (k0_h5 : k0_cond5 i k0_t2 = 1#1), ∀ a x, ((![v591, v402] : Fin 2 → IVec S16 32) a x).toNat < S64x16.size a)
instance k0_chk201.dec : ∀ (i : grid0.Coords) (k0_t2 : Fin k0_t2_loop.trips) (v402 : IVec S16 32) (v591 : IVec S16 32), Decidable (k0_chk201 i k0_t2 v402 v591) := fun i k0_t2 v402 v591 => decidable_of_iff' _ (Iff.of_eq (k0_chk201.eq_1 i k0_t2 v402 v591))
theorem k0_idx201_inb : ∀ (i : grid0.Coords) (k0_t2 : Fin k0_t2_loop.trips) (v402 : IVec S16 32) (v591 : IVec S16 32) (k0_hw201 : k0_chk201 i k0_t2 v402 v591), ∀ (k0_h5 : k0_cond5 i k0_t2 = 1#1), ∀ a x, ((![v591, v402] : Fin 2 → IVec S16 32) a x).toNat < S64x16.size a := fun i k0_t2 v402 v591 k0_hw201 k0_h5 => k0_hw201 k0_h5
def k0_off180 (k0_t4 : Fin k0_t4_loop.trips) : Fin 2 → Nat :=
  let c36_i32_333 : BitVec 32 := 36#32
  let v593 : Index := Scalar.indexCast c36_i32_333
  let c0_i32_271 : BitVec 32 := 0#32
  let c1_i32_273 : BitVec 32 := 1#32
  let arg21 : BitVec 32 := Scf.iv c0_i32_271 c1_i32_273 k0_t4
  let c16_i32_279 : BitVec 32 := 16#32
  let v387 : BitVec 32 := Scalar.muli arg21 c16_i32_279
  let v594 : Index := Scalar.indexCast v387
  ![36, v594.toNat]

def k0_chk202 (i : grid0.Coords) (k0_t2 : Fin k0_t2_loop.trips) (v402 : IVec S16 32) (v596 : IVec S16 32) : Prop :=
  (∀ (k0_h5 : k0_cond5 i k0_t2 = 1#1), ∀ a x, ((![v596, v402] : Fin 2 → IVec S16 32) a x).toNat < S64x16.size a)
instance k0_chk202.dec : ∀ (i : grid0.Coords) (k0_t2 : Fin k0_t2_loop.trips) (v402 : IVec S16 32) (v596 : IVec S16 32), Decidable (k0_chk202 i k0_t2 v402 v596) := fun i k0_t2 v402 v596 => decidable_of_iff' _ (Iff.of_eq (k0_chk202.eq_1 i k0_t2 v402 v596))
theorem k0_idx202_inb : ∀ (i : grid0.Coords) (k0_t2 : Fin k0_t2_loop.trips) (v402 : IVec S16 32) (v596 : IVec S16 32) (k0_hw202 : k0_chk202 i k0_t2 v402 v596), ∀ (k0_h5 : k0_cond5 i k0_t2 = 1#1), ∀ a x, ((![v596, v402] : Fin 2 → IVec S16 32) a x).toNat < S64x16.size a := fun i k0_t2 v402 v596 k0_hw202 k0_h5 => k0_hw202 k0_h5
def k0_off181 (k0_t4 : Fin k0_t4_loop.trips) : Fin 2 → Nat :=
  let c37_i32_334 : BitVec 32 := 37#32
  let v598 : Index := Scalar.indexCast c37_i32_334
  let c0_i32_271 : BitVec 32 := 0#32
  let c1_i32_273 : BitVec 32 := 1#32
  let arg21 : BitVec 32 := Scf.iv c0_i32_271 c1_i32_273 k0_t4
  let c16_i32_279 : BitVec 32 := 16#32
  let v387 : BitVec 32 := Scalar.muli arg21 c16_i32_279
  let v599 : Index := Scalar.indexCast v387
  ![37, v599.toNat]

def k0_chk203 (i : grid0.Coords) (k0_t2 : Fin k0_t2_loop.trips) (v402 : IVec S16 32) (v601 : IVec S16 32) : Prop :=
  (∀ (k0_h5 : k0_cond5 i k0_t2 = 1#1), ∀ a x, ((![v601, v402] : Fin 2 → IVec S16 32) a x).toNat < S64x16.size a)
instance k0_chk203.dec : ∀ (i : grid0.Coords) (k0_t2 : Fin k0_t2_loop.trips) (v402 : IVec S16 32) (v601 : IVec S16 32), Decidable (k0_chk203 i k0_t2 v402 v601) := fun i k0_t2 v402 v601 => decidable_of_iff' _ (Iff.of_eq (k0_chk203.eq_1 i k0_t2 v402 v601))
theorem k0_idx203_inb : ∀ (i : grid0.Coords) (k0_t2 : Fin k0_t2_loop.trips) (v402 : IVec S16 32) (v601 : IVec S16 32) (k0_hw203 : k0_chk203 i k0_t2 v402 v601), ∀ (k0_h5 : k0_cond5 i k0_t2 = 1#1), ∀ a x, ((![v601, v402] : Fin 2 → IVec S16 32) a x).toNat < S64x16.size a := fun i k0_t2 v402 v601 k0_hw203 k0_h5 => k0_hw203 k0_h5
def k0_off182 (k0_t4 : Fin k0_t4_loop.trips) : Fin 2 → Nat :=
  let c38_i32_335 : BitVec 32 := 38#32
  let v603 : Index := Scalar.indexCast c38_i32_335
  let c0_i32_271 : BitVec 32 := 0#32
  let c1_i32_273 : BitVec 32 := 1#32
  let arg21 : BitVec 32 := Scf.iv c0_i32_271 c1_i32_273 k0_t4
  let c16_i32_279 : BitVec 32 := 16#32
  let v387 : BitVec 32 := Scalar.muli arg21 c16_i32_279
  let v604 : Index := Scalar.indexCast v387
  ![38, v604.toNat]

def k0_chk204 (i : grid0.Coords) (k0_t2 : Fin k0_t2_loop.trips) (v402 : IVec S16 32) (v606 : IVec S16 32) : Prop :=
  (∀ (k0_h5 : k0_cond5 i k0_t2 = 1#1), ∀ a x, ((![v606, v402] : Fin 2 → IVec S16 32) a x).toNat < S64x16.size a)
instance k0_chk204.dec : ∀ (i : grid0.Coords) (k0_t2 : Fin k0_t2_loop.trips) (v402 : IVec S16 32) (v606 : IVec S16 32), Decidable (k0_chk204 i k0_t2 v402 v606) := fun i k0_t2 v402 v606 => decidable_of_iff' _ (Iff.of_eq (k0_chk204.eq_1 i k0_t2 v402 v606))
theorem k0_idx204_inb : ∀ (i : grid0.Coords) (k0_t2 : Fin k0_t2_loop.trips) (v402 : IVec S16 32) (v606 : IVec S16 32) (k0_hw204 : k0_chk204 i k0_t2 v402 v606), ∀ (k0_h5 : k0_cond5 i k0_t2 = 1#1), ∀ a x, ((![v606, v402] : Fin 2 → IVec S16 32) a x).toNat < S64x16.size a := fun i k0_t2 v402 v606 k0_hw204 k0_h5 => k0_hw204 k0_h5
def k0_off183 (k0_t4 : Fin k0_t4_loop.trips) : Fin 2 → Nat :=
  let c39_i32_336 : BitVec 32 := 39#32
  let v608 : Index := Scalar.indexCast c39_i32_336
  let c0_i32_271 : BitVec 32 := 0#32
  let c1_i32_273 : BitVec 32 := 1#32
  let arg21 : BitVec 32 := Scf.iv c0_i32_271 c1_i32_273 k0_t4
  let c16_i32_279 : BitVec 32 := 16#32
  let v387 : BitVec 32 := Scalar.muli arg21 c16_i32_279
  let v609 : Index := Scalar.indexCast v387
  ![39, v609.toNat]

def k0_chk205 (i : grid0.Coords) (k0_t2 : Fin k0_t2_loop.trips) (v402 : IVec S16 32) (v611 : IVec S16 32) : Prop :=
  (∀ (k0_h5 : k0_cond5 i k0_t2 = 1#1), ∀ a x, ((![v611, v402] : Fin 2 → IVec S16 32) a x).toNat < S64x16.size a)
instance k0_chk205.dec : ∀ (i : grid0.Coords) (k0_t2 : Fin k0_t2_loop.trips) (v402 : IVec S16 32) (v611 : IVec S16 32), Decidable (k0_chk205 i k0_t2 v402 v611) := fun i k0_t2 v402 v611 => decidable_of_iff' _ (Iff.of_eq (k0_chk205.eq_1 i k0_t2 v402 v611))
theorem k0_idx205_inb : ∀ (i : grid0.Coords) (k0_t2 : Fin k0_t2_loop.trips) (v402 : IVec S16 32) (v611 : IVec S16 32) (k0_hw205 : k0_chk205 i k0_t2 v402 v611), ∀ (k0_h5 : k0_cond5 i k0_t2 = 1#1), ∀ a x, ((![v611, v402] : Fin 2 → IVec S16 32) a x).toNat < S64x16.size a := fun i k0_t2 v402 v611 k0_hw205 k0_h5 => k0_hw205 k0_h5
def k0_off184 (k0_t4 : Fin k0_t4_loop.trips) : Fin 2 → Nat :=
  let c40_i32_337 : BitVec 32 := 40#32
  let v613 : Index := Scalar.indexCast c40_i32_337
  let c0_i32_271 : BitVec 32 := 0#32
  let c1_i32_273 : BitVec 32 := 1#32
  let arg21 : BitVec 32 := Scf.iv c0_i32_271 c1_i32_273 k0_t4
  let c16_i32_279 : BitVec 32 := 16#32
  let v387 : BitVec 32 := Scalar.muli arg21 c16_i32_279
  let v614 : Index := Scalar.indexCast v387
  ![40, v614.toNat]

def k0_chk206 (i : grid0.Coords) (k0_t2 : Fin k0_t2_loop.trips) (v402 : IVec S16 32) (v616 : IVec S16 32) : Prop :=
  (∀ (k0_h5 : k0_cond5 i k0_t2 = 1#1), ∀ a x, ((![v616, v402] : Fin 2 → IVec S16 32) a x).toNat < S64x16.size a)
instance k0_chk206.dec : ∀ (i : grid0.Coords) (k0_t2 : Fin k0_t2_loop.trips) (v402 : IVec S16 32) (v616 : IVec S16 32), Decidable (k0_chk206 i k0_t2 v402 v616) := fun i k0_t2 v402 v616 => decidable_of_iff' _ (Iff.of_eq (k0_chk206.eq_1 i k0_t2 v402 v616))
theorem k0_idx206_inb : ∀ (i : grid0.Coords) (k0_t2 : Fin k0_t2_loop.trips) (v402 : IVec S16 32) (v616 : IVec S16 32) (k0_hw206 : k0_chk206 i k0_t2 v402 v616), ∀ (k0_h5 : k0_cond5 i k0_t2 = 1#1), ∀ a x, ((![v616, v402] : Fin 2 → IVec S16 32) a x).toNat < S64x16.size a := fun i k0_t2 v402 v616 k0_hw206 k0_h5 => k0_hw206 k0_h5
def k0_off185 (k0_t4 : Fin k0_t4_loop.trips) : Fin 2 → Nat :=
  let c41_i32_338 : BitVec 32 := 41#32
  let v618 : Index := Scalar.indexCast c41_i32_338
  let c0_i32_271 : BitVec 32 := 0#32
  let c1_i32_273 : BitVec 32 := 1#32
  let arg21 : BitVec 32 := Scf.iv c0_i32_271 c1_i32_273 k0_t4
  let c16_i32_279 : BitVec 32 := 16#32
  let v387 : BitVec 32 := Scalar.muli arg21 c16_i32_279
  let v619 : Index := Scalar.indexCast v387
  ![41, v619.toNat]

def k0_chk207 (i : grid0.Coords) (k0_t2 : Fin k0_t2_loop.trips) (v402 : IVec S16 32) (v621 : IVec S16 32) : Prop :=
  (∀ (k0_h5 : k0_cond5 i k0_t2 = 1#1), ∀ a x, ((![v621, v402] : Fin 2 → IVec S16 32) a x).toNat < S64x16.size a)
instance k0_chk207.dec : ∀ (i : grid0.Coords) (k0_t2 : Fin k0_t2_loop.trips) (v402 : IVec S16 32) (v621 : IVec S16 32), Decidable (k0_chk207 i k0_t2 v402 v621) := fun i k0_t2 v402 v621 => decidable_of_iff' _ (Iff.of_eq (k0_chk207.eq_1 i k0_t2 v402 v621))
theorem k0_idx207_inb : ∀ (i : grid0.Coords) (k0_t2 : Fin k0_t2_loop.trips) (v402 : IVec S16 32) (v621 : IVec S16 32) (k0_hw207 : k0_chk207 i k0_t2 v402 v621), ∀ (k0_h5 : k0_cond5 i k0_t2 = 1#1), ∀ a x, ((![v621, v402] : Fin 2 → IVec S16 32) a x).toNat < S64x16.size a := fun i k0_t2 v402 v621 k0_hw207 k0_h5 => k0_hw207 k0_h5
def k0_off186 (k0_t4 : Fin k0_t4_loop.trips) : Fin 2 → Nat :=
  let c42_i32_339 : BitVec 32 := 42#32
  let v623 : Index := Scalar.indexCast c42_i32_339
  let c0_i32_271 : BitVec 32 := 0#32
  let c1_i32_273 : BitVec 32 := 1#32
  let arg21 : BitVec 32 := Scf.iv c0_i32_271 c1_i32_273 k0_t4
  let c16_i32_279 : BitVec 32 := 16#32
  let v387 : BitVec 32 := Scalar.muli arg21 c16_i32_279
  let v624 : Index := Scalar.indexCast v387
  ![42, v624.toNat]

def k0_chk208 (i : grid0.Coords) (k0_t2 : Fin k0_t2_loop.trips) (v402 : IVec S16 32) (v626 : IVec S16 32) : Prop :=
  (∀ (k0_h5 : k0_cond5 i k0_t2 = 1#1), ∀ a x, ((![v626, v402] : Fin 2 → IVec S16 32) a x).toNat < S64x16.size a)
instance k0_chk208.dec : ∀ (i : grid0.Coords) (k0_t2 : Fin k0_t2_loop.trips) (v402 : IVec S16 32) (v626 : IVec S16 32), Decidable (k0_chk208 i k0_t2 v402 v626) := fun i k0_t2 v402 v626 => decidable_of_iff' _ (Iff.of_eq (k0_chk208.eq_1 i k0_t2 v402 v626))
theorem k0_idx208_inb : ∀ (i : grid0.Coords) (k0_t2 : Fin k0_t2_loop.trips) (v402 : IVec S16 32) (v626 : IVec S16 32) (k0_hw208 : k0_chk208 i k0_t2 v402 v626), ∀ (k0_h5 : k0_cond5 i k0_t2 = 1#1), ∀ a x, ((![v626, v402] : Fin 2 → IVec S16 32) a x).toNat < S64x16.size a := fun i k0_t2 v402 v626 k0_hw208 k0_h5 => k0_hw208 k0_h5
def k0_off187 (k0_t4 : Fin k0_t4_loop.trips) : Fin 2 → Nat :=
  let c43_i32_340 : BitVec 32 := 43#32
  let v628 : Index := Scalar.indexCast c43_i32_340
  let c0_i32_271 : BitVec 32 := 0#32
  let c1_i32_273 : BitVec 32 := 1#32
  let arg21 : BitVec 32 := Scf.iv c0_i32_271 c1_i32_273 k0_t4
  let c16_i32_279 : BitVec 32 := 16#32
  let v387 : BitVec 32 := Scalar.muli arg21 c16_i32_279
  let v629 : Index := Scalar.indexCast v387
  ![43, v629.toNat]

def k0_chk209 (i : grid0.Coords) (k0_t2 : Fin k0_t2_loop.trips) (v402 : IVec S16 32) (v631 : IVec S16 32) : Prop :=
  (∀ (k0_h5 : k0_cond5 i k0_t2 = 1#1), ∀ a x, ((![v631, v402] : Fin 2 → IVec S16 32) a x).toNat < S64x16.size a)
instance k0_chk209.dec : ∀ (i : grid0.Coords) (k0_t2 : Fin k0_t2_loop.trips) (v402 : IVec S16 32) (v631 : IVec S16 32), Decidable (k0_chk209 i k0_t2 v402 v631) := fun i k0_t2 v402 v631 => decidable_of_iff' _ (Iff.of_eq (k0_chk209.eq_1 i k0_t2 v402 v631))
theorem k0_idx209_inb : ∀ (i : grid0.Coords) (k0_t2 : Fin k0_t2_loop.trips) (v402 : IVec S16 32) (v631 : IVec S16 32) (k0_hw209 : k0_chk209 i k0_t2 v402 v631), ∀ (k0_h5 : k0_cond5 i k0_t2 = 1#1), ∀ a x, ((![v631, v402] : Fin 2 → IVec S16 32) a x).toNat < S64x16.size a := fun i k0_t2 v402 v631 k0_hw209 k0_h5 => k0_hw209 k0_h5
def k0_off188 (k0_t4 : Fin k0_t4_loop.trips) : Fin 2 → Nat :=
  let c44_i32_342 : BitVec 32 := 44#32
  let v633 : Index := Scalar.indexCast c44_i32_342
  let c0_i32_271 : BitVec 32 := 0#32
  let c1_i32_273 : BitVec 32 := 1#32
  let arg21 : BitVec 32 := Scf.iv c0_i32_271 c1_i32_273 k0_t4
  let c16_i32_279 : BitVec 32 := 16#32
  let v387 : BitVec 32 := Scalar.muli arg21 c16_i32_279
  let v634 : Index := Scalar.indexCast v387
  ![44, v634.toNat]

def k0_chk210 (i : grid0.Coords) (k0_t2 : Fin k0_t2_loop.trips) (v402 : IVec S16 32) (v636 : IVec S16 32) : Prop :=
  (∀ (k0_h5 : k0_cond5 i k0_t2 = 1#1), ∀ a x, ((![v636, v402] : Fin 2 → IVec S16 32) a x).toNat < S64x16.size a)
instance k0_chk210.dec : ∀ (i : grid0.Coords) (k0_t2 : Fin k0_t2_loop.trips) (v402 : IVec S16 32) (v636 : IVec S16 32), Decidable (k0_chk210 i k0_t2 v402 v636) := fun i k0_t2 v402 v636 => decidable_of_iff' _ (Iff.of_eq (k0_chk210.eq_1 i k0_t2 v402 v636))
theorem k0_idx210_inb : ∀ (i : grid0.Coords) (k0_t2 : Fin k0_t2_loop.trips) (v402 : IVec S16 32) (v636 : IVec S16 32) (k0_hw210 : k0_chk210 i k0_t2 v402 v636), ∀ (k0_h5 : k0_cond5 i k0_t2 = 1#1), ∀ a x, ((![v636, v402] : Fin 2 → IVec S16 32) a x).toNat < S64x16.size a := fun i k0_t2 v402 v636 k0_hw210 k0_h5 => k0_hw210 k0_h5
def k0_off189 (k0_t4 : Fin k0_t4_loop.trips) : Fin 2 → Nat :=
  let c45_i32_343 : BitVec 32 := 45#32
  let v638 : Index := Scalar.indexCast c45_i32_343
  let c0_i32_271 : BitVec 32 := 0#32
  let c1_i32_273 : BitVec 32 := 1#32
  let arg21 : BitVec 32 := Scf.iv c0_i32_271 c1_i32_273 k0_t4
  let c16_i32_279 : BitVec 32 := 16#32
  let v387 : BitVec 32 := Scalar.muli arg21 c16_i32_279
  let v639 : Index := Scalar.indexCast v387
  ![45, v639.toNat]

def k0_chk211 (i : grid0.Coords) (k0_t2 : Fin k0_t2_loop.trips) (v402 : IVec S16 32) (v641 : IVec S16 32) : Prop :=
  (∀ (k0_h5 : k0_cond5 i k0_t2 = 1#1), ∀ a x, ((![v641, v402] : Fin 2 → IVec S16 32) a x).toNat < S64x16.size a)
instance k0_chk211.dec : ∀ (i : grid0.Coords) (k0_t2 : Fin k0_t2_loop.trips) (v402 : IVec S16 32) (v641 : IVec S16 32), Decidable (k0_chk211 i k0_t2 v402 v641) := fun i k0_t2 v402 v641 => decidable_of_iff' _ (Iff.of_eq (k0_chk211.eq_1 i k0_t2 v402 v641))
theorem k0_idx211_inb : ∀ (i : grid0.Coords) (k0_t2 : Fin k0_t2_loop.trips) (v402 : IVec S16 32) (v641 : IVec S16 32) (k0_hw211 : k0_chk211 i k0_t2 v402 v641), ∀ (k0_h5 : k0_cond5 i k0_t2 = 1#1), ∀ a x, ((![v641, v402] : Fin 2 → IVec S16 32) a x).toNat < S64x16.size a := fun i k0_t2 v402 v641 k0_hw211 k0_h5 => k0_hw211 k0_h5
def k0_off190 (k0_t4 : Fin k0_t4_loop.trips) : Fin 2 → Nat :=
  let c46_i32_344 : BitVec 32 := 46#32
  let v643 : Index := Scalar.indexCast c46_i32_344
  let c0_i32_271 : BitVec 32 := 0#32
  let c1_i32_273 : BitVec 32 := 1#32
  let arg21 : BitVec 32 := Scf.iv c0_i32_271 c1_i32_273 k0_t4
  let c16_i32_279 : BitVec 32 := 16#32
  let v387 : BitVec 32 := Scalar.muli arg21 c16_i32_279
  let v644 : Index := Scalar.indexCast v387
  ![46, v644.toNat]

def k0_chk212 (i : grid0.Coords) (k0_t2 : Fin k0_t2_loop.trips) (v402 : IVec S16 32) (v646 : IVec S16 32) : Prop :=
  (∀ (k0_h5 : k0_cond5 i k0_t2 = 1#1), ∀ a x, ((![v646, v402] : Fin 2 → IVec S16 32) a x).toNat < S64x16.size a)
instance k0_chk212.dec : ∀ (i : grid0.Coords) (k0_t2 : Fin k0_t2_loop.trips) (v402 : IVec S16 32) (v646 : IVec S16 32), Decidable (k0_chk212 i k0_t2 v402 v646) := fun i k0_t2 v402 v646 => decidable_of_iff' _ (Iff.of_eq (k0_chk212.eq_1 i k0_t2 v402 v646))
theorem k0_idx212_inb : ∀ (i : grid0.Coords) (k0_t2 : Fin k0_t2_loop.trips) (v402 : IVec S16 32) (v646 : IVec S16 32) (k0_hw212 : k0_chk212 i k0_t2 v402 v646), ∀ (k0_h5 : k0_cond5 i k0_t2 = 1#1), ∀ a x, ((![v646, v402] : Fin 2 → IVec S16 32) a x).toNat < S64x16.size a := fun i k0_t2 v402 v646 k0_hw212 k0_h5 => k0_hw212 k0_h5
def k0_off191 (k0_t4 : Fin k0_t4_loop.trips) : Fin 2 → Nat :=
  let c47_i32_345 : BitVec 32 := 47#32
  let v648 : Index := Scalar.indexCast c47_i32_345
  let c0_i32_271 : BitVec 32 := 0#32
  let c1_i32_273 : BitVec 32 := 1#32
  let arg21 : BitVec 32 := Scf.iv c0_i32_271 c1_i32_273 k0_t4
  let c16_i32_279 : BitVec 32 := 16#32
  let v387 : BitVec 32 := Scalar.muli arg21 c16_i32_279
  let v649 : Index := Scalar.indexCast v387
  ![47, v649.toNat]

def k0_chk213 (i : grid0.Coords) (k0_t2 : Fin k0_t2_loop.trips) (v402 : IVec S16 32) (v651 : IVec S16 32) : Prop :=
  (∀ (k0_h5 : k0_cond5 i k0_t2 = 1#1), ∀ a x, ((![v651, v402] : Fin 2 → IVec S16 32) a x).toNat < S64x16.size a)
instance k0_chk213.dec : ∀ (i : grid0.Coords) (k0_t2 : Fin k0_t2_loop.trips) (v402 : IVec S16 32) (v651 : IVec S16 32), Decidable (k0_chk213 i k0_t2 v402 v651) := fun i k0_t2 v402 v651 => decidable_of_iff' _ (Iff.of_eq (k0_chk213.eq_1 i k0_t2 v402 v651))
theorem k0_idx213_inb : ∀ (i : grid0.Coords) (k0_t2 : Fin k0_t2_loop.trips) (v402 : IVec S16 32) (v651 : IVec S16 32) (k0_hw213 : k0_chk213 i k0_t2 v402 v651), ∀ (k0_h5 : k0_cond5 i k0_t2 = 1#1), ∀ a x, ((![v651, v402] : Fin 2 → IVec S16 32) a x).toNat < S64x16.size a := fun i k0_t2 v402 v651 k0_hw213 k0_h5 => k0_hw213 k0_h5
def k0_off192 (k0_t4 : Fin k0_t4_loop.trips) : Fin 2 → Nat :=
  let c48_i32_346 : BitVec 32 := 48#32
  let v653 : Index := Scalar.indexCast c48_i32_346
  let c0_i32_271 : BitVec 32 := 0#32
  let c1_i32_273 : BitVec 32 := 1#32
  let arg21 : BitVec 32 := Scf.iv c0_i32_271 c1_i32_273 k0_t4
  let c16_i32_279 : BitVec 32 := 16#32
  let v387 : BitVec 32 := Scalar.muli arg21 c16_i32_279
  let v654 : Index := Scalar.indexCast v387
  ![48, v654.toNat]

def k0_chk214 (i : grid0.Coords) (k0_t2 : Fin k0_t2_loop.trips) (v402 : IVec S16 32) (v656 : IVec S16 32) : Prop :=
  (∀ (k0_h5 : k0_cond5 i k0_t2 = 1#1), ∀ a x, ((![v656, v402] : Fin 2 → IVec S16 32) a x).toNat < S64x16.size a)
instance k0_chk214.dec : ∀ (i : grid0.Coords) (k0_t2 : Fin k0_t2_loop.trips) (v402 : IVec S16 32) (v656 : IVec S16 32), Decidable (k0_chk214 i k0_t2 v402 v656) := fun i k0_t2 v402 v656 => decidable_of_iff' _ (Iff.of_eq (k0_chk214.eq_1 i k0_t2 v402 v656))
theorem k0_idx214_inb : ∀ (i : grid0.Coords) (k0_t2 : Fin k0_t2_loop.trips) (v402 : IVec S16 32) (v656 : IVec S16 32) (k0_hw214 : k0_chk214 i k0_t2 v402 v656), ∀ (k0_h5 : k0_cond5 i k0_t2 = 1#1), ∀ a x, ((![v656, v402] : Fin 2 → IVec S16 32) a x).toNat < S64x16.size a := fun i k0_t2 v402 v656 k0_hw214 k0_h5 => k0_hw214 k0_h5
def k0_off193 (k0_t4 : Fin k0_t4_loop.trips) : Fin 2 → Nat :=
  let c49_i32_347 : BitVec 32 := 49#32
  let v658 : Index := Scalar.indexCast c49_i32_347
  let c0_i32_271 : BitVec 32 := 0#32
  let c1_i32_273 : BitVec 32 := 1#32
  let arg21 : BitVec 32 := Scf.iv c0_i32_271 c1_i32_273 k0_t4
  let c16_i32_279 : BitVec 32 := 16#32
  let v387 : BitVec 32 := Scalar.muli arg21 c16_i32_279
  let v659 : Index := Scalar.indexCast v387
  ![49, v659.toNat]

def k0_chk215 (i : grid0.Coords) (k0_t2 : Fin k0_t2_loop.trips) (v402 : IVec S16 32) (v661 : IVec S16 32) : Prop :=
  (∀ (k0_h5 : k0_cond5 i k0_t2 = 1#1), ∀ a x, ((![v661, v402] : Fin 2 → IVec S16 32) a x).toNat < S64x16.size a)
instance k0_chk215.dec : ∀ (i : grid0.Coords) (k0_t2 : Fin k0_t2_loop.trips) (v402 : IVec S16 32) (v661 : IVec S16 32), Decidable (k0_chk215 i k0_t2 v402 v661) := fun i k0_t2 v402 v661 => decidable_of_iff' _ (Iff.of_eq (k0_chk215.eq_1 i k0_t2 v402 v661))
theorem k0_idx215_inb : ∀ (i : grid0.Coords) (k0_t2 : Fin k0_t2_loop.trips) (v402 : IVec S16 32) (v661 : IVec S16 32) (k0_hw215 : k0_chk215 i k0_t2 v402 v661), ∀ (k0_h5 : k0_cond5 i k0_t2 = 1#1), ∀ a x, ((![v661, v402] : Fin 2 → IVec S16 32) a x).toNat < S64x16.size a := fun i k0_t2 v402 v661 k0_hw215 k0_h5 => k0_hw215 k0_h5
def k0_off194 (k0_t4 : Fin k0_t4_loop.trips) : Fin 2 → Nat :=
  let c50_i32_348 : BitVec 32 := 50#32
  let v663 : Index := Scalar.indexCast c50_i32_348
  let c0_i32_271 : BitVec 32 := 0#32
  let c1_i32_273 : BitVec 32 := 1#32
  let arg21 : BitVec 32 := Scf.iv c0_i32_271 c1_i32_273 k0_t4
  let c16_i32_279 : BitVec 32 := 16#32
  let v387 : BitVec 32 := Scalar.muli arg21 c16_i32_279
  let v664 : Index := Scalar.indexCast v387
  ![50, v664.toNat]

def k0_chk216 (i : grid0.Coords) (k0_t2 : Fin k0_t2_loop.trips) (v402 : IVec S16 32) (v666 : IVec S16 32) : Prop :=
  (∀ (k0_h5 : k0_cond5 i k0_t2 = 1#1), ∀ a x, ((![v666, v402] : Fin 2 → IVec S16 32) a x).toNat < S64x16.size a)
instance k0_chk216.dec : ∀ (i : grid0.Coords) (k0_t2 : Fin k0_t2_loop.trips) (v402 : IVec S16 32) (v666 : IVec S16 32), Decidable (k0_chk216 i k0_t2 v402 v666) := fun i k0_t2 v402 v666 => decidable_of_iff' _ (Iff.of_eq (k0_chk216.eq_1 i k0_t2 v402 v666))
theorem k0_idx216_inb : ∀ (i : grid0.Coords) (k0_t2 : Fin k0_t2_loop.trips) (v402 : IVec S16 32) (v666 : IVec S16 32) (k0_hw216 : k0_chk216 i k0_t2 v402 v666), ∀ (k0_h5 : k0_cond5 i k0_t2 = 1#1), ∀ a x, ((![v666, v402] : Fin 2 → IVec S16 32) a x).toNat < S64x16.size a := fun i k0_t2 v402 v666 k0_hw216 k0_h5 => k0_hw216 k0_h5
def k0_off195 (k0_t4 : Fin k0_t4_loop.trips) : Fin 2 → Nat :=
  let c51_i32_349 : BitVec 32 := 51#32
  let v668 : Index := Scalar.indexCast c51_i32_349
  let c0_i32_271 : BitVec 32 := 0#32
  let c1_i32_273 : BitVec 32 := 1#32
  let arg21 : BitVec 32 := Scf.iv c0_i32_271 c1_i32_273 k0_t4
  let c16_i32_279 : BitVec 32 := 16#32
  let v387 : BitVec 32 := Scalar.muli arg21 c16_i32_279
  let v669 : Index := Scalar.indexCast v387
  ![51, v669.toNat]

def k0_chk217 (i : grid0.Coords) (k0_t2 : Fin k0_t2_loop.trips) (v402 : IVec S16 32) (v671 : IVec S16 32) : Prop :=
  (∀ (k0_h5 : k0_cond5 i k0_t2 = 1#1), ∀ a x, ((![v671, v402] : Fin 2 → IVec S16 32) a x).toNat < S64x16.size a)
instance k0_chk217.dec : ∀ (i : grid0.Coords) (k0_t2 : Fin k0_t2_loop.trips) (v402 : IVec S16 32) (v671 : IVec S16 32), Decidable (k0_chk217 i k0_t2 v402 v671) := fun i k0_t2 v402 v671 => decidable_of_iff' _ (Iff.of_eq (k0_chk217.eq_1 i k0_t2 v402 v671))
theorem k0_idx217_inb : ∀ (i : grid0.Coords) (k0_t2 : Fin k0_t2_loop.trips) (v402 : IVec S16 32) (v671 : IVec S16 32) (k0_hw217 : k0_chk217 i k0_t2 v402 v671), ∀ (k0_h5 : k0_cond5 i k0_t2 = 1#1), ∀ a x, ((![v671, v402] : Fin 2 → IVec S16 32) a x).toNat < S64x16.size a := fun i k0_t2 v402 v671 k0_hw217 k0_h5 => k0_hw217 k0_h5
def k0_off196 (k0_t4 : Fin k0_t4_loop.trips) : Fin 2 → Nat :=
  let c52_i32_350 : BitVec 32 := 52#32
  let v673 : Index := Scalar.indexCast c52_i32_350
  let c0_i32_271 : BitVec 32 := 0#32
  let c1_i32_273 : BitVec 32 := 1#32
  let arg21 : BitVec 32 := Scf.iv c0_i32_271 c1_i32_273 k0_t4
  let c16_i32_279 : BitVec 32 := 16#32
  let v387 : BitVec 32 := Scalar.muli arg21 c16_i32_279
  let v674 : Index := Scalar.indexCast v387
  ![52, v674.toNat]

def k0_chk218 (i : grid0.Coords) (k0_t2 : Fin k0_t2_loop.trips) (v402 : IVec S16 32) (v676 : IVec S16 32) : Prop :=
  (∀ (k0_h5 : k0_cond5 i k0_t2 = 1#1), ∀ a x, ((![v676, v402] : Fin 2 → IVec S16 32) a x).toNat < S64x16.size a)
instance k0_chk218.dec : ∀ (i : grid0.Coords) (k0_t2 : Fin k0_t2_loop.trips) (v402 : IVec S16 32) (v676 : IVec S16 32), Decidable (k0_chk218 i k0_t2 v402 v676) := fun i k0_t2 v402 v676 => decidable_of_iff' _ (Iff.of_eq (k0_chk218.eq_1 i k0_t2 v402 v676))
theorem k0_idx218_inb : ∀ (i : grid0.Coords) (k0_t2 : Fin k0_t2_loop.trips) (v402 : IVec S16 32) (v676 : IVec S16 32) (k0_hw218 : k0_chk218 i k0_t2 v402 v676), ∀ (k0_h5 : k0_cond5 i k0_t2 = 1#1), ∀ a x, ((![v676, v402] : Fin 2 → IVec S16 32) a x).toNat < S64x16.size a := fun i k0_t2 v402 v676 k0_hw218 k0_h5 => k0_hw218 k0_h5
def k0_off197 (k0_t4 : Fin k0_t4_loop.trips) : Fin 2 → Nat :=
  let c53_i32_351 : BitVec 32 := 53#32
  let v678 : Index := Scalar.indexCast c53_i32_351
  let c0_i32_271 : BitVec 32 := 0#32
  let c1_i32_273 : BitVec 32 := 1#32
  let arg21 : BitVec 32 := Scf.iv c0_i32_271 c1_i32_273 k0_t4
  let c16_i32_279 : BitVec 32 := 16#32
  let v387 : BitVec 32 := Scalar.muli arg21 c16_i32_279
  let v679 : Index := Scalar.indexCast v387
  ![53, v679.toNat]

def k0_chk219 (i : grid0.Coords) (k0_t2 : Fin k0_t2_loop.trips) (v402 : IVec S16 32) (v681 : IVec S16 32) : Prop :=
  (∀ (k0_h5 : k0_cond5 i k0_t2 = 1#1), ∀ a x, ((![v681, v402] : Fin 2 → IVec S16 32) a x).toNat < S64x16.size a)
instance k0_chk219.dec : ∀ (i : grid0.Coords) (k0_t2 : Fin k0_t2_loop.trips) (v402 : IVec S16 32) (v681 : IVec S16 32), Decidable (k0_chk219 i k0_t2 v402 v681) := fun i k0_t2 v402 v681 => decidable_of_iff' _ (Iff.of_eq (k0_chk219.eq_1 i k0_t2 v402 v681))
theorem k0_idx219_inb : ∀ (i : grid0.Coords) (k0_t2 : Fin k0_t2_loop.trips) (v402 : IVec S16 32) (v681 : IVec S16 32) (k0_hw219 : k0_chk219 i k0_t2 v402 v681), ∀ (k0_h5 : k0_cond5 i k0_t2 = 1#1), ∀ a x, ((![v681, v402] : Fin 2 → IVec S16 32) a x).toNat < S64x16.size a := fun i k0_t2 v402 v681 k0_hw219 k0_h5 => k0_hw219 k0_h5
def k0_off198 (k0_t4 : Fin k0_t4_loop.trips) : Fin 2 → Nat :=
  let c54_i32_352 : BitVec 32 := 54#32
  let v683 : Index := Scalar.indexCast c54_i32_352
  let c0_i32_271 : BitVec 32 := 0#32
  let c1_i32_273 : BitVec 32 := 1#32
  let arg21 : BitVec 32 := Scf.iv c0_i32_271 c1_i32_273 k0_t4
  let c16_i32_279 : BitVec 32 := 16#32
  let v387 : BitVec 32 := Scalar.muli arg21 c16_i32_279
  let v684 : Index := Scalar.indexCast v387
  ![54, v684.toNat]

def k0_chk220 (i : grid0.Coords) (k0_t2 : Fin k0_t2_loop.trips) (v402 : IVec S16 32) (v686 : IVec S16 32) : Prop :=
  (∀ (k0_h5 : k0_cond5 i k0_t2 = 1#1), ∀ a x, ((![v686, v402] : Fin 2 → IVec S16 32) a x).toNat < S64x16.size a)
instance k0_chk220.dec : ∀ (i : grid0.Coords) (k0_t2 : Fin k0_t2_loop.trips) (v402 : IVec S16 32) (v686 : IVec S16 32), Decidable (k0_chk220 i k0_t2 v402 v686) := fun i k0_t2 v402 v686 => decidable_of_iff' _ (Iff.of_eq (k0_chk220.eq_1 i k0_t2 v402 v686))
theorem k0_idx220_inb : ∀ (i : grid0.Coords) (k0_t2 : Fin k0_t2_loop.trips) (v402 : IVec S16 32) (v686 : IVec S16 32) (k0_hw220 : k0_chk220 i k0_t2 v402 v686), ∀ (k0_h5 : k0_cond5 i k0_t2 = 1#1), ∀ a x, ((![v686, v402] : Fin 2 → IVec S16 32) a x).toNat < S64x16.size a := fun i k0_t2 v402 v686 k0_hw220 k0_h5 => k0_hw220 k0_h5
def k0_off199 (k0_t4 : Fin k0_t4_loop.trips) : Fin 2 → Nat :=
  let c55_i32_353 : BitVec 32 := 55#32
  let v688 : Index := Scalar.indexCast c55_i32_353
  let c0_i32_271 : BitVec 32 := 0#32
  let c1_i32_273 : BitVec 32 := 1#32
  let arg21 : BitVec 32 := Scf.iv c0_i32_271 c1_i32_273 k0_t4
  let c16_i32_279 : BitVec 32 := 16#32
  let v387 : BitVec 32 := Scalar.muli arg21 c16_i32_279
  let v689 : Index := Scalar.indexCast v387
  ![55, v689.toNat]

def k0_chk221 (i : grid0.Coords) (k0_t2 : Fin k0_t2_loop.trips) (v402 : IVec S16 32) (v691 : IVec S16 32) : Prop :=
  (∀ (k0_h5 : k0_cond5 i k0_t2 = 1#1), ∀ a x, ((![v691, v402] : Fin 2 → IVec S16 32) a x).toNat < S64x16.size a)
instance k0_chk221.dec : ∀ (i : grid0.Coords) (k0_t2 : Fin k0_t2_loop.trips) (v402 : IVec S16 32) (v691 : IVec S16 32), Decidable (k0_chk221 i k0_t2 v402 v691) := fun i k0_t2 v402 v691 => decidable_of_iff' _ (Iff.of_eq (k0_chk221.eq_1 i k0_t2 v402 v691))
theorem k0_idx221_inb : ∀ (i : grid0.Coords) (k0_t2 : Fin k0_t2_loop.trips) (v402 : IVec S16 32) (v691 : IVec S16 32) (k0_hw221 : k0_chk221 i k0_t2 v402 v691), ∀ (k0_h5 : k0_cond5 i k0_t2 = 1#1), ∀ a x, ((![v691, v402] : Fin 2 → IVec S16 32) a x).toNat < S64x16.size a := fun i k0_t2 v402 v691 k0_hw221 k0_h5 => k0_hw221 k0_h5
def k0_off200 (k0_t4 : Fin k0_t4_loop.trips) : Fin 2 → Nat :=
  let c56_i32_354 : BitVec 32 := 56#32
  let v693 : Index := Scalar.indexCast c56_i32_354
  let c0_i32_271 : BitVec 32 := 0#32
  let c1_i32_273 : BitVec 32 := 1#32
  let arg21 : BitVec 32 := Scf.iv c0_i32_271 c1_i32_273 k0_t4
  let c16_i32_279 : BitVec 32 := 16#32
  let v387 : BitVec 32 := Scalar.muli arg21 c16_i32_279
  let v694 : Index := Scalar.indexCast v387
  ![56, v694.toNat]

def k0_chk222 (i : grid0.Coords) (k0_t2 : Fin k0_t2_loop.trips) (v402 : IVec S16 32) (v696 : IVec S16 32) : Prop :=
  (∀ (k0_h5 : k0_cond5 i k0_t2 = 1#1), ∀ a x, ((![v696, v402] : Fin 2 → IVec S16 32) a x).toNat < S64x16.size a)
instance k0_chk222.dec : ∀ (i : grid0.Coords) (k0_t2 : Fin k0_t2_loop.trips) (v402 : IVec S16 32) (v696 : IVec S16 32), Decidable (k0_chk222 i k0_t2 v402 v696) := fun i k0_t2 v402 v696 => decidable_of_iff' _ (Iff.of_eq (k0_chk222.eq_1 i k0_t2 v402 v696))
theorem k0_idx222_inb : ∀ (i : grid0.Coords) (k0_t2 : Fin k0_t2_loop.trips) (v402 : IVec S16 32) (v696 : IVec S16 32) (k0_hw222 : k0_chk222 i k0_t2 v402 v696), ∀ (k0_h5 : k0_cond5 i k0_t2 = 1#1), ∀ a x, ((![v696, v402] : Fin 2 → IVec S16 32) a x).toNat < S64x16.size a := fun i k0_t2 v402 v696 k0_hw222 k0_h5 => k0_hw222 k0_h5
def k0_off201 (k0_t4 : Fin k0_t4_loop.trips) : Fin 2 → Nat :=
  let c57_i32_355 : BitVec 32 := 57#32
  let v698 : Index := Scalar.indexCast c57_i32_355
  let c0_i32_271 : BitVec 32 := 0#32
  let c1_i32_273 : BitVec 32 := 1#32
  let arg21 : BitVec 32 := Scf.iv c0_i32_271 c1_i32_273 k0_t4
  let c16_i32_279 : BitVec 32 := 16#32
  let v387 : BitVec 32 := Scalar.muli arg21 c16_i32_279
  let v699 : Index := Scalar.indexCast v387
  ![57, v699.toNat]

def k0_chk223 (i : grid0.Coords) (k0_t2 : Fin k0_t2_loop.trips) (v402 : IVec S16 32) (v701 : IVec S16 32) : Prop :=
  (∀ (k0_h5 : k0_cond5 i k0_t2 = 1#1), ∀ a x, ((![v701, v402] : Fin 2 → IVec S16 32) a x).toNat < S64x16.size a)
instance k0_chk223.dec : ∀ (i : grid0.Coords) (k0_t2 : Fin k0_t2_loop.trips) (v402 : IVec S16 32) (v701 : IVec S16 32), Decidable (k0_chk223 i k0_t2 v402 v701) := fun i k0_t2 v402 v701 => decidable_of_iff' _ (Iff.of_eq (k0_chk223.eq_1 i k0_t2 v402 v701))
theorem k0_idx223_inb : ∀ (i : grid0.Coords) (k0_t2 : Fin k0_t2_loop.trips) (v402 : IVec S16 32) (v701 : IVec S16 32) (k0_hw223 : k0_chk223 i k0_t2 v402 v701), ∀ (k0_h5 : k0_cond5 i k0_t2 = 1#1), ∀ a x, ((![v701, v402] : Fin 2 → IVec S16 32) a x).toNat < S64x16.size a := fun i k0_t2 v402 v701 k0_hw223 k0_h5 => k0_hw223 k0_h5
def k0_off202 (k0_t4 : Fin k0_t4_loop.trips) : Fin 2 → Nat :=
  let c58_i32_356 : BitVec 32 := 58#32
  let v703 : Index := Scalar.indexCast c58_i32_356
  let c0_i32_271 : BitVec 32 := 0#32
  let c1_i32_273 : BitVec 32 := 1#32
  let arg21 : BitVec 32 := Scf.iv c0_i32_271 c1_i32_273 k0_t4
  let c16_i32_279 : BitVec 32 := 16#32
  let v387 : BitVec 32 := Scalar.muli arg21 c16_i32_279
  let v704 : Index := Scalar.indexCast v387
  ![58, v704.toNat]

def k0_chk224 (i : grid0.Coords) (k0_t2 : Fin k0_t2_loop.trips) (v402 : IVec S16 32) (v706 : IVec S16 32) : Prop :=
  (∀ (k0_h5 : k0_cond5 i k0_t2 = 1#1), ∀ a x, ((![v706, v402] : Fin 2 → IVec S16 32) a x).toNat < S64x16.size a)
instance k0_chk224.dec : ∀ (i : grid0.Coords) (k0_t2 : Fin k0_t2_loop.trips) (v402 : IVec S16 32) (v706 : IVec S16 32), Decidable (k0_chk224 i k0_t2 v402 v706) := fun i k0_t2 v402 v706 => decidable_of_iff' _ (Iff.of_eq (k0_chk224.eq_1 i k0_t2 v402 v706))
theorem k0_idx224_inb : ∀ (i : grid0.Coords) (k0_t2 : Fin k0_t2_loop.trips) (v402 : IVec S16 32) (v706 : IVec S16 32) (k0_hw224 : k0_chk224 i k0_t2 v402 v706), ∀ (k0_h5 : k0_cond5 i k0_t2 = 1#1), ∀ a x, ((![v706, v402] : Fin 2 → IVec S16 32) a x).toNat < S64x16.size a := fun i k0_t2 v402 v706 k0_hw224 k0_h5 => k0_hw224 k0_h5
def k0_off203 (k0_t4 : Fin k0_t4_loop.trips) : Fin 2 → Nat :=
  let c59_i32_357 : BitVec 32 := 59#32
  let v708 : Index := Scalar.indexCast c59_i32_357
  let c0_i32_271 : BitVec 32 := 0#32
  let c1_i32_273 : BitVec 32 := 1#32
  let arg21 : BitVec 32 := Scf.iv c0_i32_271 c1_i32_273 k0_t4
  let c16_i32_279 : BitVec 32 := 16#32
  let v387 : BitVec 32 := Scalar.muli arg21 c16_i32_279
  let v709 : Index := Scalar.indexCast v387
  ![59, v709.toNat]
def k0_off204 (k0_t4 : Fin k0_t4_loop.trips) : Fin 2 → Nat :=
  let c60_i32_358 : BitVec 32 := 60#32
  let v711 : Index := Scalar.indexCast c60_i32_358
  let c0_i32_271 : BitVec 32 := 0#32
  let c1_i32_273 : BitVec 32 := 1#32
  let arg21 : BitVec 32 := Scf.iv c0_i32_271 c1_i32_273 k0_t4
  let c16_i32_279 : BitVec 32 := 16#32
  let v387 : BitVec 32 := Scalar.muli arg21 c16_i32_279
  let v712 : Index := Scalar.indexCast v387
  ![60, v712.toNat]
def k0_off205 (k0_t4 : Fin k0_t4_loop.trips) : Fin 2 → Nat :=
  let c61_i32_359 : BitVec 32 := 61#32
  let v714 : Index := Scalar.indexCast c61_i32_359
  let c0_i32_271 : BitVec 32 := 0#32
  let c1_i32_273 : BitVec 32 := 1#32
  let arg21 : BitVec 32 := Scf.iv c0_i32_271 c1_i32_273 k0_t4
  let c16_i32_279 : BitVec 32 := 16#32
  let v387 : BitVec 32 := Scalar.muli arg21 c16_i32_279
  let v715 : Index := Scalar.indexCast v387
  ![61, v715.toNat]
def k0_off206 (k0_t4 : Fin k0_t4_loop.trips) : Fin 2 → Nat :=
  let c62_i32_360 : BitVec 32 := 62#32
  let v717 : Index := Scalar.indexCast c62_i32_360
  let c0_i32_271 : BitVec 32 := 0#32
  let c1_i32_273 : BitVec 32 := 1#32
  let arg21 : BitVec 32 := Scf.iv c0_i32_271 c1_i32_273 k0_t4
  let c16_i32_279 : BitVec 32 := 16#32
  let v387 : BitVec 32 := Scalar.muli arg21 c16_i32_279
  let v718 : Index := Scalar.indexCast v387
  ![62, v718.toNat]
def k0_off207 (k0_t4 : Fin k0_t4_loop.trips) : Fin 2 → Nat :=
  let c63_i32_361 : BitVec 32 := 63#32
  let v720 : Index := Scalar.indexCast c63_i32_361
  let c0_i32_271 : BitVec 32 := 0#32
  let c1_i32_273 : BitVec 32 := 1#32
  let arg21 : BitVec 32 := Scf.iv c0_i32_271 c1_i32_273 k0_t4
  let c16_i32_279 : BitVec 32 := 16#32
  let v387 : BitVec 32 := Scalar.muli arg21 c16_i32_279
  let v721 : Index := Scalar.indexCast v387
  ![63, v721.toNat]
def k0_off208 (i : grid0.Coords) (k0_t2 : Fin k0_t2_loop.trips) : Fin 2 → Nat :=
  let c0_i32_277 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_253 : BitVec 32 := 2#32
  let c0_i32_236 : BitVec 32 := 0#32
  let c1_i32_237 : BitVec 32 := 1#32
  let arg19 : BitVec 32 := Scf.iv c0_i32_236 c1_i32_237 k0_t2
  let v361 : BitVec 32 := Scalar.muli c2_i32_253 arg19
  let c1_i32_254 : BitVec 32 := 1#32
  let v362 : BitVec 32 := Scalar.addi v361 c1_i32_254
  let c1_i32_255 : BitVec 32 := 1#32
  let v363 : BitVec 32 := Scalar.addi v362 c1_i32_255
  let c32_i32_275 : BitVec 32 := 32#32
  let v382 : BitVec 32 := Scalar.muli v363 c32_i32_275
  let v383 : BitVec 32 := Scalar.addi v1 v382
  let c640_i32_276 : BitVec 32 := 640#32
  let v384 : BitVec 32 := Scalar.muli v383 c640_i32_276
  ![0, v384.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S800000x3_S3x800000_1_0 : S800000x3.Transposes [1, 0] S3x800000
  iota_S16_d0_w32_scVector : S16.Iotas .scVector 32 [0]
  inb_S20x64_S2x64_0_0 : ∀ a, (![0, 0] : Fin 2 → Nat) a + S2x64.size a ≤ S20x64.size a
  inb_S10x64_S2x64_0_0 : ∀ a, (![0, 0] : Fin 2 → Nat) a + S2x64.size a ≤ S10x64.size a
  inb_S2x64_S2x64_0_0 : ∀ a, (![0, 0] : Fin 2 → Nat) a + S2x64.size a ≤ S2x64.size a
  inb_S2x64_S1x16_0_0 : ∀ a, (![0, 0] : Fin 2 → Nat) a + S1x16.size a ≤ S2x64.size a
  h_S1x16 : 0 < S1x16.numel
  shapeCasts_S1x16_S16 : S1x16.ShapeCasts S16
  h_S64x16 : 0 < S64x16.numel
  inb_S2x64_S1x16_0_16 : ∀ a, (![0, 16] : Fin 2 → Nat) a + S1x16.size a ≤ S2x64.size a
  inb_S2x64_S1x16_0_32 : ∀ a, (![0, 32] : Fin 2 → Nat) a + S1x16.size a ≤ S2x64.size a
  inb_S2x64_S1x16_0_48 : ∀ a, (![0, 48] : Fin 2 → Nat) a + S1x16.size a ≤ S2x64.size a
  inb_S2x64_S1x16_1_0 : ∀ a, (![1, 0] : Fin 2 → Nat) a + S1x16.size a ≤ S2x64.size a
  inb_S2x64_S1x16_1_16 : ∀ a, (![1, 16] : Fin 2 → Nat) a + S1x16.size a ≤ S2x64.size a
  inb_S2x64_S1x16_1_32 : ∀ a, (![1, 32] : Fin 2 → Nat) a + S1x16.size a ≤ S2x64.size a
  inb_S2x64_S1x16_1_48 : ∀ a, (![1, 48] : Fin 2 → Nat) a + S1x16.size a ≤ S2x64.size a
  inb_S3x800000_S3x640_0_0 : ∀ a, (![0, 0] : Fin 2 → Nat) a + S3x640.size a ≤ S3x800000.size a
  shapeCasts_S16_S1x16 : S16.ShapeCasts S1x16
  inb_S64x800000_S64x640_0_0 : ∀ a, (![0, 0] : Fin 2 → Nat) a + S64x640.size a ≤ S64x800000.size a
  transposes_S64x800000_S800000x64_1_0 : S64x800000.Transposes [1, 0] S800000x64
  hcc0_scratch8 : 0 + S_.numel ≤ 7
  hcc0_scratch9 : 1 + S_.numel ≤ 7
  hcc0_scratch10 : 2 + S_.numel ≤ 7
  hcc0_scratch11 : 3 + S_.numel ≤ 7
  hcc0_scoped0 : 4 + S_.numel ≤ 7
  hcc0_scoped1 : 5 + S_.numel ≤ 7
  hcc0_scoped2 : 6 + S_.numel ≤ 7
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S3x640.size a ≤ S3x800000.size a
  k0_off2_inb : ∀ i : grid0.Coords, ∀ (k0_h1 : k0_cond1 i = 1#1), ∀ a, (k0_off2 i) a + S3x640.size a ≤ S3x800000.size a
  k0_t1_ok : k0_t1_loop.OK
  k0_off3_inb : ∀ k0_t1 : Fin k0_t1_loop.trips, ∀ a, (k0_off3 k0_t1) a + S1x16.size a ≤ S3x640.size a
  k0_off4_inb : ∀ k0_t1 : Fin k0_t1_loop.trips, ∀ a, (k0_off4 k0_t1) a + S1x16.size a ≤ S3x640.size a
  k0_off5_inb : ∀ k0_t1 : Fin k0_t1_loop.trips, ∀ a, (k0_off5 k0_t1) a + S1x16.size a ≤ S3x640.size a
  k0_off6_inb : ∀ k0_t1 : Fin k0_t1_loop.trips, ∀ a, (k0_off6 k0_t1) a + S1x16.size a ≤ S64x640.size a
  k0_off7_inb : ∀ k0_t1 : Fin k0_t1_loop.trips, ∀ a, (k0_off7 k0_t1) a + S1x16.size a ≤ S64x640.size a
  k0_off8_inb : ∀ k0_t1 : Fin k0_t1_loop.trips, ∀ a, (k0_off8 k0_t1) a + S1x16.size a ≤ S64x640.size a
  k0_off9_inb : ∀ k0_t1 : Fin k0_t1_loop.trips, ∀ a, (k0_off9 k0_t1) a + S1x16.size a ≤ S64x640.size a
  k0_off10_inb : ∀ k0_t1 : Fin k0_t1_loop.trips, ∀ a, (k0_off10 k0_t1) a + S1x16.size a ≤ S64x640.size a
  k0_off11_inb : ∀ k0_t1 : Fin k0_t1_loop.trips, ∀ a, (k0_off11 k0_t1) a + S1x16.size a ≤ S64x640.size a
  k0_off12_inb : ∀ k0_t1 : Fin k0_t1_loop.trips, ∀ a, (k0_off12 k0_t1) a + S1x16.size a ≤ S64x640.size a
  k0_off13_inb : ∀ k0_t1 : Fin k0_t1_loop.trips, ∀ a, (k0_off13 k0_t1) a + S1x16.size a ≤ S64x640.size a
  k0_off14_inb : ∀ k0_t1 : Fin k0_t1_loop.trips, ∀ a, (k0_off14 k0_t1) a + S1x16.size a ≤ S64x640.size a
  k0_off15_inb : ∀ k0_t1 : Fin k0_t1_loop.trips, ∀ a, (k0_off15 k0_t1) a + S1x16.size a ≤ S64x640.size a
  k0_off16_inb : ∀ k0_t1 : Fin k0_t1_loop.trips, ∀ a, (k0_off16 k0_t1) a + S1x16.size a ≤ S64x640.size a
  k0_off17_inb : ∀ k0_t1 : Fin k0_t1_loop.trips, ∀ a, (k0_off17 k0_t1) a + S1x16.size a ≤ S64x640.size a
  k0_off18_inb : ∀ k0_t1 : Fin k0_t1_loop.trips, ∀ a, (k0_off18 k0_t1) a + S1x16.size a ≤ S64x640.size a
  k0_off19_inb : ∀ k0_t1 : Fin k0_t1_loop.trips, ∀ a, (k0_off19 k0_t1) a + S1x16.size a ≤ S64x640.size a
  k0_off20_inb : ∀ k0_t1 : Fin k0_t1_loop.trips, ∀ a, (k0_off20 k0_t1) a + S1x16.size a ≤ S64x640.size a
  k0_off21_inb : ∀ k0_t1 : Fin k0_t1_loop.trips, ∀ a, (k0_off21 k0_t1) a + S1x16.size a ≤ S64x640.size a
  k0_off22_inb : ∀ k0_t1 : Fin k0_t1_loop.trips, ∀ a, (k0_off22 k0_t1) a + S1x16.size a ≤ S64x640.size a
  k0_off23_inb : ∀ k0_t1 : Fin k0_t1_loop.trips, ∀ a, (k0_off23 k0_t1) a + S1x16.size a ≤ S64x640.size a
  k0_off24_inb : ∀ k0_t1 : Fin k0_t1_loop.trips, ∀ a, (k0_off24 k0_t1) a + S1x16.size a ≤ S64x640.size a
  k0_off25_inb : ∀ k0_t1 : Fin k0_t1_loop.trips, ∀ a, (k0_off25 k0_t1) a + S1x16.size a ≤ S64x640.size a
  k0_off26_inb : ∀ k0_t1 : Fin k0_t1_loop.trips, ∀ a, (k0_off26 k0_t1) a + S1x16.size a ≤ S64x640.size a
  k0_off27_inb : ∀ k0_t1 : Fin k0_t1_loop.trips, ∀ a, (k0_off27 k0_t1) a + S1x16.size a ≤ S64x640.size a
  k0_off28_inb : ∀ k0_t1 : Fin k0_t1_loop.trips, ∀ a, (k0_off28 k0_t1) a + S1x16.size a ≤ S64x640.size a
  k0_off29_inb : ∀ k0_t1 : Fin k0_t1_loop.trips, ∀ a, (k0_off29 k0_t1) a + S1x16.size a ≤ S64x640.size a
  k0_off30_inb : ∀ k0_t1 : Fin k0_t1_loop.trips, ∀ a, (k0_off30 k0_t1) a + S1x16.size a ≤ S64x640.size a
  k0_off31_inb : ∀ k0_t1 : Fin k0_t1_loop.trips, ∀ a, (k0_off31 k0_t1) a + S1x16.size a ≤ S64x640.size a
  k0_off32_inb : ∀ k0_t1 : Fin k0_t1_loop.trips, ∀ a, (k0_off32 k0_t1) a + S1x16.size a ≤ S64x640.size a
  k0_off33_inb : ∀ k0_t1 : Fin k0_t1_loop.trips, ∀ a, (k0_off33 k0_t1) a + S1x16.size a ≤ S64x640.size a
  k0_off34_inb : ∀ k0_t1 : Fin k0_t1_loop.trips, ∀ a, (k0_off34 k0_t1) a + S1x16.size a ≤ S64x640.size a
  k0_off35_inb : ∀ k0_t1 : Fin k0_t1_loop.trips, ∀ a, (k0_off35 k0_t1) a + S1x16.size a ≤ S64x640.size a
  k0_off36_inb : ∀ k0_t1 : Fin k0_t1_loop.trips, ∀ a, (k0_off36 k0_t1) a + S1x16.size a ≤ S64x640.size a
  k0_off37_inb : ∀ k0_t1 : Fin k0_t1_loop.trips, ∀ a, (k0_off37 k0_t1) a + S1x16.size a ≤ S64x640.size a
  k0_off38_inb : ∀ k0_t1 : Fin k0_t1_loop.trips, ∀ a, (k0_off38 k0_t1) a + S1x16.size a ≤ S64x640.size a
  k0_off39_inb : ∀ k0_t1 : Fin k0_t1_loop.trips, ∀ a, (k0_off39 k0_t1) a + S1x16.size a ≤ S64x640.size a
  k0_off40_inb : ∀ k0_t1 : Fin k0_t1_loop.trips, ∀ a, (k0_off40 k0_t1) a + S1x16.size a ≤ S64x640.size a
  k0_off41_inb : ∀ k0_t1 : Fin k0_t1_loop.trips, ∀ a, (k0_off41 k0_t1) a + S1x16.size a ≤ S64x640.size a
  k0_off42_inb : ∀ k0_t1 : Fin k0_t1_loop.trips, ∀ a, (k0_off42 k0_t1) a + S1x16.size a ≤ S64x640.size a
  k0_off43_inb : ∀ k0_t1 : Fin k0_t1_loop.trips, ∀ a, (k0_off43 k0_t1) a + S1x16.size a ≤ S64x640.size a
  k0_off44_inb : ∀ k0_t1 : Fin k0_t1_loop.trips, ∀ a, (k0_off44 k0_t1) a + S1x16.size a ≤ S64x640.size a
  k0_off45_inb : ∀ k0_t1 : Fin k0_t1_loop.trips, ∀ a, (k0_off45 k0_t1) a + S1x16.size a ≤ S64x640.size a
  k0_off46_inb : ∀ k0_t1 : Fin k0_t1_loop.trips, ∀ a, (k0_off46 k0_t1) a + S1x16.size a ≤ S64x640.size a
  k0_off47_inb : ∀ k0_t1 : Fin k0_t1_loop.trips, ∀ a, (k0_off47 k0_t1) a + S1x16.size a ≤ S64x640.size a
  k0_off48_inb : ∀ k0_t1 : Fin k0_t1_loop.trips, ∀ a, (k0_off48 k0_t1) a + S1x16.size a ≤ S64x640.size a
  k0_off49_inb : ∀ k0_t1 : Fin k0_t1_loop.trips, ∀ a, (k0_off49 k0_t1) a + S1x16.size a ≤ S64x640.size a
  k0_off50_inb : ∀ k0_t1 : Fin k0_t1_loop.trips, ∀ a, (k0_off50 k0_t1) a + S1x16.size a ≤ S64x640.size a
  k0_off51_inb : ∀ k0_t1 : Fin k0_t1_loop.trips, ∀ a, (k0_off51 k0_t1) a + S1x16.size a ≤ S64x640.size a
  k0_off52_inb : ∀ k0_t1 : Fin k0_t1_loop.trips, ∀ a, (k0_off52 k0_t1) a + S1x16.size a ≤ S64x640.size a
  k0_off53_inb : ∀ k0_t1 : Fin k0_t1_loop.trips, ∀ a, (k0_off53 k0_t1) a + S1x16.size a ≤ S64x640.size a
  k0_off54_inb : ∀ k0_t1 : Fin k0_t1_loop.trips, ∀ a, (k0_off54 k0_t1) a + S1x16.size a ≤ S64x640.size a
  k0_off55_inb : ∀ k0_t1 : Fin k0_t1_loop.trips, ∀ a, (k0_off55 k0_t1) a + S1x16.size a ≤ S64x640.size a
  k0_off56_inb : ∀ k0_t1 : Fin k0_t1_loop.trips, ∀ a, (k0_off56 k0_t1) a + S1x16.size a ≤ S64x640.size a
  k0_off57_inb : ∀ k0_t1 : Fin k0_t1_loop.trips, ∀ a, (k0_off57 k0_t1) a + S1x16.size a ≤ S64x640.size a
  k0_off58_inb : ∀ k0_t1 : Fin k0_t1_loop.trips, ∀ a, (k0_off58 k0_t1) a + S1x16.size a ≤ S64x640.size a
  k0_off59_inb : ∀ k0_t1 : Fin k0_t1_loop.trips, ∀ a, (k0_off59 k0_t1) a + S1x16.size a ≤ S64x640.size a
  k0_off60_inb : ∀ k0_t1 : Fin k0_t1_loop.trips, ∀ a, (k0_off60 k0_t1) a + S1x16.size a ≤ S64x640.size a
  k0_off61_inb : ∀ k0_t1 : Fin k0_t1_loop.trips, ∀ a, (k0_off61 k0_t1) a + S1x16.size a ≤ S64x640.size a
  k0_off62_inb : ∀ k0_t1 : Fin k0_t1_loop.trips, ∀ a, (k0_off62 k0_t1) a + S1x16.size a ≤ S64x640.size a
  k0_off63_inb : ∀ k0_t1 : Fin k0_t1_loop.trips, ∀ a, (k0_off63 k0_t1) a + S1x16.size a ≤ S64x640.size a
  k0_off64_inb : ∀ k0_t1 : Fin k0_t1_loop.trips, ∀ a, (k0_off64 k0_t1) a + S1x16.size a ≤ S64x640.size a
  k0_off65_inb : ∀ k0_t1 : Fin k0_t1_loop.trips, ∀ a, (k0_off65 k0_t1) a + S1x16.size a ≤ S64x640.size a
  k0_off66_inb : ∀ k0_t1 : Fin k0_t1_loop.trips, ∀ a, (k0_off66 k0_t1) a + S1x16.size a ≤ S64x640.size a
  k0_off67_inb : ∀ k0_t1 : Fin k0_t1_loop.trips, ∀ a, (k0_off67 k0_t1) a + S1x16.size a ≤ S64x640.size a
  k0_off68_inb : ∀ k0_t1 : Fin k0_t1_loop.trips, ∀ a, (k0_off68 k0_t1) a + S1x16.size a ≤ S64x640.size a
  k0_off69_inb : ∀ k0_t1 : Fin k0_t1_loop.trips, ∀ a, (k0_off69 k0_t1) a + S1x16.size a ≤ S64x640.size a
  k0_off70_inb : ∀ i : grid0.Coords, ∀ a, (k0_off70 i) a + S64x640.size a ≤ S64x800000.size a
  k0_t2_ok : k0_t2_loop.OK
  k0_off71_inb : ∀ (i : grid0.Coords) (k0_t2 : Fin k0_t2_loop.trips), ∀ (k0_h2 : k0_cond2 i k0_t2 = 1#1), ∀ (k0_h3 : k0_cond3 i k0_t2 = 1#1), ∀ a, (k0_off71 i k0_t2) a + S3x640.size a ≤ S3x800000.size a
  k0_t3_ok : ∀ (i : grid0.Coords) (k0_t2 : Fin k0_t2_loop.trips), ∀ (k0_h2 : k0_cond2 i k0_t2 = 1#1), k0_t3_loop.OK
  k0_off72_inb : ∀ (i : grid0.Coords) (k0_t2 : Fin k0_t2_loop.trips) (k0_t3 : Fin k0_t3_loop.trips), ∀ (k0_h2 : k0_cond2 i k0_t2 = 1#1), ∀ a, (k0_off72 k0_t3) a + S1x16.size a ≤ S3x640.size a
  k0_off73_inb : ∀ (i : grid0.Coords) (k0_t2 : Fin k0_t2_loop.trips) (k0_t3 : Fin k0_t3_loop.trips), ∀ (k0_h2 : k0_cond2 i k0_t2 = 1#1), ∀ a, (k0_off73 k0_t3) a + S1x16.size a ≤ S3x640.size a
  k0_off74_inb : ∀ (i : grid0.Coords) (k0_t2 : Fin k0_t2_loop.trips) (k0_t3 : Fin k0_t3_loop.trips), ∀ (k0_h2 : k0_cond2 i k0_t2 = 1#1), ∀ a, (k0_off74 k0_t3) a + S1x16.size a ≤ S3x640.size a
  k0_off75_inb : ∀ (i : grid0.Coords) (k0_t2 : Fin k0_t2_loop.trips) (k0_t3 : Fin k0_t3_loop.trips), ∀ (k0_h2 : k0_cond2 i k0_t2 = 1#1), ∀ a, (k0_off75 k0_t3) a + S1x16.size a ≤ S64x640.size a
  k0_off76_inb : ∀ (i : grid0.Coords) (k0_t2 : Fin k0_t2_loop.trips) (k0_t3 : Fin k0_t3_loop.trips), ∀ (k0_h2 : k0_cond2 i k0_t2 = 1#1), ∀ a, (k0_off76 k0_t3) a + S1x16.size a ≤ S64x640.size a
  k0_off77_inb : ∀ (i : grid0.Coords) (k0_t2 : Fin k0_t2_loop.trips) (k0_t3 : Fin k0_t3_loop.trips), ∀ (k0_h2 : k0_cond2 i k0_t2 = 1#1), ∀ a, (k0_off77 k0_t3) a + S1x16.size a ≤ S64x640.size a
  k0_off78_inb : ∀ (i : grid0.Coords) (k0_t2 : Fin k0_t2_loop.trips) (k0_t3 : Fin k0_t3_loop.trips), ∀ (k0_h2 : k0_cond2 i k0_t2 = 1#1), ∀ a, (k0_off78 k0_t3) a + S1x16.size a ≤ S64x640.size a
  k0_off79_inb : ∀ (i : grid0.Coords) (k0_t2 : Fin k0_t2_loop.trips) (k0_t3 : Fin k0_t3_loop.trips), ∀ (k0_h2 : k0_cond2 i k0_t2 = 1#1), ∀ a, (k0_off79 k0_t3) a + S1x16.size a ≤ S64x640.size a
  k0_off80_inb : ∀ (i : grid0.Coords) (k0_t2 : Fin k0_t2_loop.trips) (k0_t3 : Fin k0_t3_loop.trips), ∀ (k0_h2 : k0_cond2 i k0_t2 = 1#1), ∀ a, (k0_off80 k0_t3) a + S1x16.size a ≤ S64x640.size a
  k0_off81_inb : ∀ (i : grid0.Coords) (k0_t2 : Fin k0_t2_loop.trips) (k0_t3 : Fin k0_t3_loop.trips), ∀ (k0_h2 : k0_cond2 i k0_t2 = 1#1), ∀ a, (k0_off81 k0_t3) a + S1x16.size a ≤ S64x640.size a
  k0_off82_inb : ∀ (i : grid0.Coords) (k0_t2 : Fin k0_t2_loop.trips) (k0_t3 : Fin k0_t3_loop.trips), ∀ (k0_h2 : k0_cond2 i k0_t2 = 1#1), ∀ a, (k0_off82 k0_t3) a + S1x16.size a ≤ S64x640.size a
  k0_off83_inb : ∀ (i : grid0.Coords) (k0_t2 : Fin k0_t2_loop.trips) (k0_t3 : Fin k0_t3_loop.trips), ∀ (k0_h2 : k0_cond2 i k0_t2 = 1#1), ∀ a, (k0_off83 k0_t3) a + S1x16.size a ≤ S64x640.size a
  k0_off84_inb : ∀ (i : grid0.Coords) (k0_t2 : Fin k0_t2_loop.trips) (k0_t3 : Fin k0_t3_loop.trips), ∀ (k0_h2 : k0_cond2 i k0_t2 = 1#1), ∀ a, (k0_off84 k0_t3) a + S1x16.size a ≤ S64x640.size a
  k0_off85_inb : ∀ (i : grid0.Coords) (k0_t2 : Fin k0_t2_loop.trips) (k0_t3 : Fin k0_t3_loop.trips), ∀ (k0_h2 : k0_cond2 i k0_t2 = 1#1), ∀ a, (k0_off85 k0_t3) a + S1x16.size a ≤ S64x640.size a
  k0_off86_inb : ∀ (i : grid0.Coords) (k0_t2 : Fin k0_t2_loop.trips) (k0_t3 : Fin k0_t3_loop.trips), ∀ (k0_h2 : k0_cond2 i k0_t2 = 1#1), ∀ a, (k0_off86 k0_t3) a + S1x16.size a ≤ S64x640.size a
  k0_off87_inb : ∀ (i : grid0.Coords) (k0_t2 : Fin k0_t2_loop.trips) (k0_t3 : Fin k0_t3_loop.trips), ∀ (k0_h2 : k0_cond2 i k0_t2 = 1#1), ∀ a, (k0_off87 k0_t3) a + S1x16.size a ≤ S64x640.size a
  k0_off88_inb : ∀ (i : grid0.Coords) (k0_t2 : Fin k0_t2_loop.trips) (k0_t3 : Fin k0_t3_loop.trips), ∀ (k0_h2 : k0_cond2 i k0_t2 = 1#1), ∀ a, (k0_off88 k0_t3) a + S1x16.size a ≤ S64x640.size a
  k0_off89_inb : ∀ (i : grid0.Coords) (k0_t2 : Fin k0_t2_loop.trips) (k0_t3 : Fin k0_t3_loop.trips), ∀ (k0_h2 : k0_cond2 i k0_t2 = 1#1), ∀ a, (k0_off89 k0_t3) a + S1x16.size a ≤ S64x640.size a
  k0_off90_inb : ∀ (i : grid0.Coords) (k0_t2 : Fin k0_t2_loop.trips) (k0_t3 : Fin k0_t3_loop.trips), ∀ (k0_h2 : k0_cond2 i k0_t2 = 1#1), ∀ a, (k0_off90 k0_t3) a + S1x16.size a ≤ S64x640.size a
  k0_off91_inb : ∀ (i : grid0.Coords) (k0_t2 : Fin k0_t2_loop.trips) (k0_t3 : Fin k0_t3_loop.trips), ∀ (k0_h2 : k0_cond2 i k0_t2 = 1#1), ∀ a, (k0_off91 k0_t3) a + S1x16.size a ≤ S64x640.size a
  k0_off92_inb : ∀ (i : grid0.Coords) (k0_t2 : Fin k0_t2_loop.trips) (k0_t3 : Fin k0_t3_loop.trips), ∀ (k0_h2 : k0_cond2 i k0_t2 = 1#1), ∀ a, (k0_off92 k0_t3) a + S1x16.size a ≤ S64x640.size a
  k0_off93_inb : ∀ (i : grid0.Coords) (k0_t2 : Fin k0_t2_loop.trips) (k0_t3 : Fin k0_t3_loop.trips), ∀ (k0_h2 : k0_cond2 i k0_t2 = 1#1), ∀ a, (k0_off93 k0_t3) a + S1x16.size a ≤ S64x640.size a
  k0_off94_inb : ∀ (i : grid0.Coords) (k0_t2 : Fin k0_t2_loop.trips) (k0_t3 : Fin k0_t3_loop.trips), ∀ (k0_h2 : k0_cond2 i k0_t2 = 1#1), ∀ a, (k0_off94 k0_t3) a + S1x16.size a ≤ S64x640.size a
  k0_off95_inb : ∀ (i : grid0.Coords) (k0_t2 : Fin k0_t2_loop.trips) (k0_t3 : Fin k0_t3_loop.trips), ∀ (k0_h2 : k0_cond2 i k0_t2 = 1#1), ∀ a, (k0_off95 k0_t3) a + S1x16.size a ≤ S64x640.size a
  k0_off96_inb : ∀ (i : grid0.Coords) (k0_t2 : Fin k0_t2_loop.trips) (k0_t3 : Fin k0_t3_loop.trips), ∀ (k0_h2 : k0_cond2 i k0_t2 = 1#1), ∀ a, (k0_off96 k0_t3) a + S1x16.size a ≤ S64x640.size a
  k0_off97_inb : ∀ (i : grid0.Coords) (k0_t2 : Fin k0_t2_loop.trips) (k0_t3 : Fin k0_t3_loop.trips), ∀ (k0_h2 : k0_cond2 i k0_t2 = 1#1), ∀ a, (k0_off97 k0_t3) a + S1x16.size a ≤ S64x640.size a
  k0_off98_inb : ∀ (i : grid0.Coords) (k0_t2 : Fin k0_t2_loop.trips) (k0_t3 : Fin k0_t3_loop.trips), ∀ (k0_h2 : k0_cond2 i k0_t2 = 1#1), ∀ a, (k0_off98 k0_t3) a + S1x16.size a ≤ S64x640.size a
  k0_off99_inb : ∀ (i : grid0.Coords) (k0_t2 : Fin k0_t2_loop.trips) (k0_t3 : Fin k0_t3_loop.trips), ∀ (k0_h2 : k0_cond2 i k0_t2 = 1#1), ∀ a, (k0_off99 k0_t3) a + S1x16.size a ≤ S64x640.size a
  k0_off100_inb : ∀ (i : grid0.Coords) (k0_t2 : Fin k0_t2_loop.trips) (k0_t3 : Fin k0_t3_loop.trips), ∀ (k0_h2 : k0_cond2 i k0_t2 = 1#1), ∀ a, (k0_off100 k0_t3) a + S1x16.size a ≤ S64x640.size a
  k0_off101_inb : ∀ (i : grid0.Coords) (k0_t2 : Fin k0_t2_loop.trips) (k0_t3 : Fin k0_t3_loop.trips), ∀ (k0_h2 : k0_cond2 i k0_t2 = 1#1), ∀ a, (k0_off101 k0_t3) a + S1x16.size a ≤ S64x640.size a
  k0_off102_inb : ∀ (i : grid0.Coords) (k0_t2 : Fin k0_t2_loop.trips) (k0_t3 : Fin k0_t3_loop.trips), ∀ (k0_h2 : k0_cond2 i k0_t2 = 1#1), ∀ a, (k0_off102 k0_t3) a + S1x16.size a ≤ S64x640.size a
  k0_off103_inb : ∀ (i : grid0.Coords) (k0_t2 : Fin k0_t2_loop.trips) (k0_t3 : Fin k0_t3_loop.trips), ∀ (k0_h2 : k0_cond2 i k0_t2 = 1#1), ∀ a, (k0_off103 k0_t3) a + S1x16.size a ≤ S64x640.size a
  k0_off104_inb : ∀ (i : grid0.Coords) (k0_t2 : Fin k0_t2_loop.trips) (k0_t3 : Fin k0_t3_loop.trips), ∀ (k0_h2 : k0_cond2 i k0_t2 = 1#1), ∀ a, (k0_off104 k0_t3) a + S1x16.size a ≤ S64x640.size a
  k0_off105_inb : ∀ (i : grid0.Coords) (k0_t2 : Fin k0_t2_loop.trips) (k0_t3 : Fin k0_t3_loop.trips), ∀ (k0_h2 : k0_cond2 i k0_t2 = 1#1), ∀ a, (k0_off105 k0_t3) a + S1x16.size a ≤ S64x640.size a
  k0_off106_inb : ∀ (i : grid0.Coords) (k0_t2 : Fin k0_t2_loop.trips) (k0_t3 : Fin k0_t3_loop.trips), ∀ (k0_h2 : k0_cond2 i k0_t2 = 1#1), ∀ a, (k0_off106 k0_t3) a + S1x16.size a ≤ S64x640.size a
  k0_off107_inb : ∀ (i : grid0.Coords) (k0_t2 : Fin k0_t2_loop.trips) (k0_t3 : Fin k0_t3_loop.trips), ∀ (k0_h2 : k0_cond2 i k0_t2 = 1#1), ∀ a, (k0_off107 k0_t3) a + S1x16.size a ≤ S64x640.size a
  k0_off108_inb : ∀ (i : grid0.Coords) (k0_t2 : Fin k0_t2_loop.trips) (k0_t3 : Fin k0_t3_loop.trips), ∀ (k0_h2 : k0_cond2 i k0_t2 = 1#1), ∀ a, (k0_off108 k0_t3) a + S1x16.size a ≤ S64x640.size a
  k0_off109_inb : ∀ (i : grid0.Coords) (k0_t2 : Fin k0_t2_loop.trips) (k0_t3 : Fin k0_t3_loop.trips), ∀ (k0_h2 : k0_cond2 i k0_t2 = 1#1), ∀ a, (k0_off109 k0_t3) a + S1x16.size a ≤ S64x640.size a
  k0_off110_inb : ∀ (i : grid0.Coords) (k0_t2 : Fin k0_t2_loop.trips) (k0_t3 : Fin k0_t3_loop.trips), ∀ (k0_h2 : k0_cond2 i k0_t2 = 1#1), ∀ a, (k0_off110 k0_t3) a + S1x16.size a ≤ S64x640.size a
  k0_off111_inb : ∀ (i : grid0.Coords) (k0_t2 : Fin k0_t2_loop.trips) (k0_t3 : Fin k0_t3_loop.trips), ∀ (k0_h2 : k0_cond2 i k0_t2 = 1#1), ∀ a, (k0_off111 k0_t3) a + S1x16.size a ≤ S64x640.size a
  k0_off112_inb : ∀ (i : grid0.Coords) (k0_t2 : Fin k0_t2_loop.trips) (k0_t3 : Fin k0_t3_loop.trips), ∀ (k0_h2 : k0_cond2 i k0_t2 = 1#1), ∀ a, (k0_off112 k0_t3) a + S1x16.size a ≤ S64x640.size a
  k0_off113_inb : ∀ (i : grid0.Coords) (k0_t2 : Fin k0_t2_loop.trips) (k0_t3 : Fin k0_t3_loop.trips), ∀ (k0_h2 : k0_cond2 i k0_t2 = 1#1), ∀ a, (k0_off113 k0_t3) a + S1x16.size a ≤ S64x640.size a
  k0_off114_inb : ∀ (i : grid0.Coords) (k0_t2 : Fin k0_t2_loop.trips) (k0_t3 : Fin k0_t3_loop.trips), ∀ (k0_h2 : k0_cond2 i k0_t2 = 1#1), ∀ a, (k0_off114 k0_t3) a + S1x16.size a ≤ S64x640.size a
  k0_off115_inb : ∀ (i : grid0.Coords) (k0_t2 : Fin k0_t2_loop.trips) (k0_t3 : Fin k0_t3_loop.trips), ∀ (k0_h2 : k0_cond2 i k0_t2 = 1#1), ∀ a, (k0_off115 k0_t3) a + S1x16.size a ≤ S64x640.size a
  k0_off116_inb : ∀ (i : grid0.Coords) (k0_t2 : Fin k0_t2_loop.trips) (k0_t3 : Fin k0_t3_loop.trips), ∀ (k0_h2 : k0_cond2 i k0_t2 = 1#1), ∀ a, (k0_off116 k0_t3) a + S1x16.size a ≤ S64x640.size a
  k0_off117_inb : ∀ (i : grid0.Coords) (k0_t2 : Fin k0_t2_loop.trips) (k0_t3 : Fin k0_t3_loop.trips), ∀ (k0_h2 : k0_cond2 i k0_t2 = 1#1), ∀ a, (k0_off117 k0_t3) a + S1x16.size a ≤ S64x640.size a
  k0_off118_inb : ∀ (i : grid0.Coords) (k0_t2 : Fin k0_t2_loop.trips) (k0_t3 : Fin k0_t3_loop.trips), ∀ (k0_h2 : k0_cond2 i k0_t2 = 1#1), ∀ a, (k0_off118 k0_t3) a + S1x16.size a ≤ S64x640.size a
  k0_off119_inb : ∀ (i : grid0.Coords) (k0_t2 : Fin k0_t2_loop.trips) (k0_t3 : Fin k0_t3_loop.trips), ∀ (k0_h2 : k0_cond2 i k0_t2 = 1#1), ∀ a, (k0_off119 k0_t3) a + S1x16.size a ≤ S64x640.size a
  k0_off120_inb : ∀ (i : grid0.Coords) (k0_t2 : Fin k0_t2_loop.trips) (k0_t3 : Fin k0_t3_loop.trips), ∀ (k0_h2 : k0_cond2 i k0_t2 = 1#1), ∀ a, (k0_off120 k0_t3) a + S1x16.size a ≤ S64x640.size a
  k0_off121_inb : ∀ (i : grid0.Coords) (k0_t2 : Fin k0_t2_loop.trips) (k0_t3 : Fin k0_t3_loop.trips), ∀ (k0_h2 : k0_cond2 i k0_t2 = 1#1), ∀ a, (k0_off121 k0_t3) a + S1x16.size a ≤ S64x640.size a
  k0_off122_inb : ∀ (i : grid0.Coords) (k0_t2 : Fin k0_t2_loop.trips) (k0_t3 : Fin k0_t3_loop.trips), ∀ (k0_h2 : k0_cond2 i k0_t2 = 1#1), ∀ a, (k0_off122 k0_t3) a + S1x16.size a ≤ S64x640.size a
  k0_off123_inb : ∀ (i : grid0.Coords) (k0_t2 : Fin k0_t2_loop.trips) (k0_t3 : Fin k0_t3_loop.trips), ∀ (k0_h2 : k0_cond2 i k0_t2 = 1#1), ∀ a, (k0_off123 k0_t3) a + S1x16.size a ≤ S64x640.size a
  k0_off124_inb : ∀ (i : grid0.Coords) (k0_t2 : Fin k0_t2_loop.trips) (k0_t3 : Fin k0_t3_loop.trips), ∀ (k0_h2 : k0_cond2 i k0_t2 = 1#1), ∀ a, (k0_off124 k0_t3) a + S1x16.size a ≤ S64x640.size a
  k0_off125_inb : ∀ (i : grid0.Coords) (k0_t2 : Fin k0_t2_loop.trips) (k0_t3 : Fin k0_t3_loop.trips), ∀ (k0_h2 : k0_cond2 i k0_t2 = 1#1), ∀ a, (k0_off125 k0_t3) a + S1x16.size a ≤ S64x640.size a
  k0_off126_inb : ∀ (i : grid0.Coords) (k0_t2 : Fin k0_t2_loop.trips) (k0_t3 : Fin k0_t3_loop.trips), ∀ (k0_h2 : k0_cond2 i k0_t2 = 1#1), ∀ a, (k0_off126 k0_t3) a + S1x16.size a ≤ S64x640.size a
  k0_off127_inb : ∀ (i : grid0.Coords) (k0_t2 : Fin k0_t2_loop.trips) (k0_t3 : Fin k0_t3_loop.trips), ∀ (k0_h2 : k0_cond2 i k0_t2 = 1#1), ∀ a, (k0_off127 k0_t3) a + S1x16.size a ≤ S64x640.size a
  k0_off128_inb : ∀ (i : grid0.Coords) (k0_t2 : Fin k0_t2_loop.trips) (k0_t3 : Fin k0_t3_loop.trips), ∀ (k0_h2 : k0_cond2 i k0_t2 = 1#1), ∀ a, (k0_off128 k0_t3) a + S1x16.size a ≤ S64x640.size a
  k0_off129_inb : ∀ (i : grid0.Coords) (k0_t2 : Fin k0_t2_loop.trips) (k0_t3 : Fin k0_t3_loop.trips), ∀ (k0_h2 : k0_cond2 i k0_t2 = 1#1), ∀ a, (k0_off129 k0_t3) a + S1x16.size a ≤ S64x640.size a
  k0_off130_inb : ∀ (i : grid0.Coords) (k0_t2 : Fin k0_t2_loop.trips) (k0_t3 : Fin k0_t3_loop.trips), ∀ (k0_h2 : k0_cond2 i k0_t2 = 1#1), ∀ a, (k0_off130 k0_t3) a + S1x16.size a ≤ S64x640.size a
  k0_off131_inb : ∀ (i : grid0.Coords) (k0_t2 : Fin k0_t2_loop.trips) (k0_t3 : Fin k0_t3_loop.trips), ∀ (k0_h2 : k0_cond2 i k0_t2 = 1#1), ∀ a, (k0_off131 k0_t3) a + S1x16.size a ≤ S64x640.size a
  k0_off132_inb : ∀ (i : grid0.Coords) (k0_t2 : Fin k0_t2_loop.trips) (k0_t3 : Fin k0_t3_loop.trips), ∀ (k0_h2 : k0_cond2 i k0_t2 = 1#1), ∀ a, (k0_off132 k0_t3) a + S1x16.size a ≤ S64x640.size a
  k0_off133_inb : ∀ (i : grid0.Coords) (k0_t2 : Fin k0_t2_loop.trips) (k0_t3 : Fin k0_t3_loop.trips), ∀ (k0_h2 : k0_cond2 i k0_t2 = 1#1), ∀ a, (k0_off133 k0_t3) a + S1x16.size a ≤ S64x640.size a
  k0_off134_inb : ∀ (i : grid0.Coords) (k0_t2 : Fin k0_t2_loop.trips) (k0_t3 : Fin k0_t3_loop.trips), ∀ (k0_h2 : k0_cond2 i k0_t2 = 1#1), ∀ a, (k0_off134 k0_t3) a + S1x16.size a ≤ S64x640.size a
  k0_off135_inb : ∀ (i : grid0.Coords) (k0_t2 : Fin k0_t2_loop.trips) (k0_t3 : Fin k0_t3_loop.trips), ∀ (k0_h2 : k0_cond2 i k0_t2 = 1#1), ∀ a, (k0_off135 k0_t3) a + S1x16.size a ≤ S64x640.size a
  k0_off136_inb : ∀ (i : grid0.Coords) (k0_t2 : Fin k0_t2_loop.trips) (k0_t3 : Fin k0_t3_loop.trips), ∀ (k0_h2 : k0_cond2 i k0_t2 = 1#1), ∀ a, (k0_off136 k0_t3) a + S1x16.size a ≤ S64x640.size a
  k0_off137_inb : ∀ (i : grid0.Coords) (k0_t2 : Fin k0_t2_loop.trips) (k0_t3 : Fin k0_t3_loop.trips), ∀ (k0_h2 : k0_cond2 i k0_t2 = 1#1), ∀ a, (k0_off137 k0_t3) a + S1x16.size a ≤ S64x640.size a
  k0_off138_inb : ∀ (i : grid0.Coords) (k0_t2 : Fin k0_t2_loop.trips) (k0_t3 : Fin k0_t3_loop.trips), ∀ (k0_h2 : k0_cond2 i k0_t2 = 1#1), ∀ a, (k0_off138 k0_t3) a + S1x16.size a ≤ S64x640.size a
  k0_off139_inb : ∀ (i : grid0.Coords) (k0_t2 : Fin k0_t2_loop.trips), ∀ (k0_h2 : k0_cond2 i k0_t2 = 1#1), ∀ a, (k0_off139 i k0_t2) a + S64x640.size a ≤ S64x800000.size a
  k0_off140_inb : ∀ (i : grid0.Coords) (k0_t2 : Fin k0_t2_loop.trips), ∀ (k0_h5 : k0_cond5 i k0_t2 = 1#1), ∀ (k0_h6 : k0_cond6 i k0_t2 = 1#1), ∀ a, (k0_off140 i k0_t2) a + S3x640.size a ≤ S3x800000.size a
  k0_t4_ok : ∀ (i : grid0.Coords) (k0_t2 : Fin k0_t2_loop.trips), ∀ (k0_h5 : k0_cond5 i k0_t2 = 1#1), k0_t4_loop.OK
  k0_off141_inb : ∀ (i : grid0.Coords) (k0_t2 : Fin k0_t2_loop.trips) (k0_t4 : Fin k0_t4_loop.trips), ∀ (k0_h5 : k0_cond5 i k0_t2 = 1#1), ∀ a, (k0_off141 k0_t4) a + S1x16.size a ≤ S3x640.size a
  k0_off142_inb : ∀ (i : grid0.Coords) (k0_t2 : Fin k0_t2_loop.trips) (k0_t4 : Fin k0_t4_loop.trips), ∀ (k0_h5 : k0_cond5 i k0_t2 = 1#1), ∀ a, (k0_off142 k0_t4) a + S1x16.size a ≤ S3x640.size a
  k0_off143_inb : ∀ (i : grid0.Coords) (k0_t2 : Fin k0_t2_loop.trips) (k0_t4 : Fin k0_t4_loop.trips), ∀ (k0_h5 : k0_cond5 i k0_t2 = 1#1), ∀ a, (k0_off143 k0_t4) a + S1x16.size a ≤ S3x640.size a
  k0_off144_inb : ∀ (i : grid0.Coords) (k0_t2 : Fin k0_t2_loop.trips) (k0_t4 : Fin k0_t4_loop.trips), ∀ (k0_h5 : k0_cond5 i k0_t2 = 1#1), ∀ a, (k0_off144 k0_t4) a + S1x16.size a ≤ S64x640.size a
  k0_off145_inb : ∀ (i : grid0.Coords) (k0_t2 : Fin k0_t2_loop.trips) (k0_t4 : Fin k0_t4_loop.trips), ∀ (k0_h5 : k0_cond5 i k0_t2 = 1#1), ∀ a, (k0_off145 k0_t4) a + S1x16.size a ≤ S64x640.size a
  k0_off146_inb : ∀ (i : grid0.Coords) (k0_t2 : Fin k0_t2_loop.trips) (k0_t4 : Fin k0_t4_loop.trips), ∀ (k0_h5 : k0_cond5 i k0_t2 = 1#1), ∀ a, (k0_off146 k0_t4) a + S1x16.size a ≤ S64x640.size a
  k0_off147_inb : ∀ (i : grid0.Coords) (k0_t2 : Fin k0_t2_loop.trips) (k0_t4 : Fin k0_t4_loop.trips), ∀ (k0_h5 : k0_cond5 i k0_t2 = 1#1), ∀ a, (k0_off147 k0_t4) a + S1x16.size a ≤ S64x640.size a
  k0_off148_inb : ∀ (i : grid0.Coords) (k0_t2 : Fin k0_t2_loop.trips) (k0_t4 : Fin k0_t4_loop.trips), ∀ (k0_h5 : k0_cond5 i k0_t2 = 1#1), ∀ a, (k0_off148 k0_t4) a + S1x16.size a ≤ S64x640.size a
  k0_off149_inb : ∀ (i : grid0.Coords) (k0_t2 : Fin k0_t2_loop.trips) (k0_t4 : Fin k0_t4_loop.trips), ∀ (k0_h5 : k0_cond5 i k0_t2 = 1#1), ∀ a, (k0_off149 k0_t4) a + S1x16.size a ≤ S64x640.size a
  k0_off150_inb : ∀ (i : grid0.Coords) (k0_t2 : Fin k0_t2_loop.trips) (k0_t4 : Fin k0_t4_loop.trips), ∀ (k0_h5 : k0_cond5 i k0_t2 = 1#1), ∀ a, (k0_off150 k0_t4) a + S1x16.size a ≤ S64x640.size a
  k0_off151_inb : ∀ (i : grid0.Coords) (k0_t2 : Fin k0_t2_loop.trips) (k0_t4 : Fin k0_t4_loop.trips), ∀ (k0_h5 : k0_cond5 i k0_t2 = 1#1), ∀ a, (k0_off151 k0_t4) a + S1x16.size a ≤ S64x640.size a
  k0_off152_inb : ∀ (i : grid0.Coords) (k0_t2 : Fin k0_t2_loop.trips) (k0_t4 : Fin k0_t4_loop.trips), ∀ (k0_h5 : k0_cond5 i k0_t2 = 1#1), ∀ a, (k0_off152 k0_t4) a + S1x16.size a ≤ S64x640.size a
  k0_off153_inb : ∀ (i : grid0.Coords) (k0_t2 : Fin k0_t2_loop.trips) (k0_t4 : Fin k0_t4_loop.trips), ∀ (k0_h5 : k0_cond5 i k0_t2 = 1#1), ∀ a, (k0_off153 k0_t4) a + S1x16.size a ≤ S64x640.size a
  k0_off154_inb : ∀ (i : grid0.Coords) (k0_t2 : Fin k0_t2_loop.trips) (k0_t4 : Fin k0_t4_loop.trips), ∀ (k0_h5 : k0_cond5 i k0_t2 = 1#1), ∀ a, (k0_off154 k0_t4) a + S1x16.size a ≤ S64x640.size a
  k0_off155_inb : ∀ (i : grid0.Coords) (k0_t2 : Fin k0_t2_loop.trips) (k0_t4 : Fin k0_t4_loop.trips), ∀ (k0_h5 : k0_cond5 i k0_t2 = 1#1), ∀ a, (k0_off155 k0_t4) a + S1x16.size a ≤ S64x640.size a
  k0_off156_inb : ∀ (i : grid0.Coords) (k0_t2 : Fin k0_t2_loop.trips) (k0_t4 : Fin k0_t4_loop.trips), ∀ (k0_h5 : k0_cond5 i k0_t2 = 1#1), ∀ a, (k0_off156 k0_t4) a + S1x16.size a ≤ S64x640.size a
  k0_off157_inb : ∀ (i : grid0.Coords) (k0_t2 : Fin k0_t2_loop.trips) (k0_t4 : Fin k0_t4_loop.trips), ∀ (k0_h5 : k0_cond5 i k0_t2 = 1#1), ∀ a, (k0_off157 k0_t4) a + S1x16.size a ≤ S64x640.size a
  k0_off158_inb : ∀ (i : grid0.Coords) (k0_t2 : Fin k0_t2_loop.trips) (k0_t4 : Fin k0_t4_loop.trips), ∀ (k0_h5 : k0_cond5 i k0_t2 = 1#1), ∀ a, (k0_off158 k0_t4) a + S1x16.size a ≤ S64x640.size a
  k0_off159_inb : ∀ (i : grid0.Coords) (k0_t2 : Fin k0_t2_loop.trips) (k0_t4 : Fin k0_t4_loop.trips), ∀ (k0_h5 : k0_cond5 i k0_t2 = 1#1), ∀ a, (k0_off159 k0_t4) a + S1x16.size a ≤ S64x640.size a
  k0_off160_inb : ∀ (i : grid0.Coords) (k0_t2 : Fin k0_t2_loop.trips) (k0_t4 : Fin k0_t4_loop.trips), ∀ (k0_h5 : k0_cond5 i k0_t2 = 1#1), ∀ a, (k0_off160 k0_t4) a + S1x16.size a ≤ S64x640.size a
  k0_off161_inb : ∀ (i : grid0.Coords) (k0_t2 : Fin k0_t2_loop.trips) (k0_t4 : Fin k0_t4_loop.trips), ∀ (k0_h5 : k0_cond5 i k0_t2 = 1#1), ∀ a, (k0_off161 k0_t4) a + S1x16.size a ≤ S64x640.size a
  k0_off162_inb : ∀ (i : grid0.Coords) (k0_t2 : Fin k0_t2_loop.trips) (k0_t4 : Fin k0_t4_loop.trips), ∀ (k0_h5 : k0_cond5 i k0_t2 = 1#1), ∀ a, (k0_off162 k0_t4) a + S1x16.size a ≤ S64x640.size a
  k0_off163_inb : ∀ (i : grid0.Coords) (k0_t2 : Fin k0_t2_loop.trips) (k0_t4 : Fin k0_t4_loop.trips), ∀ (k0_h5 : k0_cond5 i k0_t2 = 1#1), ∀ a, (k0_off163 k0_t4) a + S1x16.size a ≤ S64x640.size a
  k0_off164_inb : ∀ (i : grid0.Coords) (k0_t2 : Fin k0_t2_loop.trips) (k0_t4 : Fin k0_t4_loop.trips), ∀ (k0_h5 : k0_cond5 i k0_t2 = 1#1), ∀ a, (k0_off164 k0_t4) a + S1x16.size a ≤ S64x640.size a
  k0_off165_inb : ∀ (i : grid0.Coords) (k0_t2 : Fin k0_t2_loop.trips) (k0_t4 : Fin k0_t4_loop.trips), ∀ (k0_h5 : k0_cond5 i k0_t2 = 1#1), ∀ a, (k0_off165 k0_t4) a + S1x16.size a ≤ S64x640.size a
  k0_off166_inb : ∀ (i : grid0.Coords) (k0_t2 : Fin k0_t2_loop.trips) (k0_t4 : Fin k0_t4_loop.trips), ∀ (k0_h5 : k0_cond5 i k0_t2 = 1#1), ∀ a, (k0_off166 k0_t4) a + S1x16.size a ≤ S64x640.size a
  k0_off167_inb : ∀ (i : grid0.Coords) (k0_t2 : Fin k0_t2_loop.trips) (k0_t4 : Fin k0_t4_loop.trips), ∀ (k0_h5 : k0_cond5 i k0_t2 = 1#1), ∀ a, (k0_off167 k0_t4) a + S1x16.size a ≤ S64x640.size a
  k0_off168_inb : ∀ (i : grid0.Coords) (k0_t2 : Fin k0_t2_loop.trips) (k0_t4 : Fin k0_t4_loop.trips), ∀ (k0_h5 : k0_cond5 i k0_t2 = 1#1), ∀ a, (k0_off168 k0_t4) a + S1x16.size a ≤ S64x640.size a
  k0_off169_inb : ∀ (i : grid0.Coords) (k0_t2 : Fin k0_t2_loop.trips) (k0_t4 : Fin k0_t4_loop.trips), ∀ (k0_h5 : k0_cond5 i k0_t2 = 1#1), ∀ a, (k0_off169 k0_t4) a + S1x16.size a ≤ S64x640.size a
  k0_off170_inb : ∀ (i : grid0.Coords) (k0_t2 : Fin k0_t2_loop.trips) (k0_t4 : Fin k0_t4_loop.trips), ∀ (k0_h5 : k0_cond5 i k0_t2 = 1#1), ∀ a, (k0_off170 k0_t4) a + S1x16.size a ≤ S64x640.size a
  k0_off171_inb : ∀ (i : grid0.Coords) (k0_t2 : Fin k0_t2_loop.trips) (k0_t4 : Fin k0_t4_loop.trips), ∀ (k0_h5 : k0_cond5 i k0_t2 = 1#1), ∀ a, (k0_off171 k0_t4) a + S1x16.size a ≤ S64x640.size a
  k0_off172_inb : ∀ (i : grid0.Coords) (k0_t2 : Fin k0_t2_loop.trips) (k0_t4 : Fin k0_t4_loop.trips), ∀ (k0_h5 : k0_cond5 i k0_t2 = 1#1), ∀ a, (k0_off172 k0_t4) a + S1x16.size a ≤ S64x640.size a
  k0_off173_inb : ∀ (i : grid0.Coords) (k0_t2 : Fin k0_t2_loop.trips) (k0_t4 : Fin k0_t4_loop.trips), ∀ (k0_h5 : k0_cond5 i k0_t2 = 1#1), ∀ a, (k0_off173 k0_t4) a + S1x16.size a ≤ S64x640.size a
  k0_off174_inb : ∀ (i : grid0.Coords) (k0_t2 : Fin k0_t2_loop.trips) (k0_t4 : Fin k0_t4_loop.trips), ∀ (k0_h5 : k0_cond5 i k0_t2 = 1#1), ∀ a, (k0_off174 k0_t4) a + S1x16.size a ≤ S64x640.size a
  k0_off175_inb : ∀ (i : grid0.Coords) (k0_t2 : Fin k0_t2_loop.trips) (k0_t4 : Fin k0_t4_loop.trips), ∀ (k0_h5 : k0_cond5 i k0_t2 = 1#1), ∀ a, (k0_off175 k0_t4) a + S1x16.size a ≤ S64x640.size a
  k0_off176_inb : ∀ (i : grid0.Coords) (k0_t2 : Fin k0_t2_loop.trips) (k0_t4 : Fin k0_t4_loop.trips), ∀ (k0_h5 : k0_cond5 i k0_t2 = 1#1), ∀ a, (k0_off176 k0_t4) a + S1x16.size a ≤ S64x640.size a
  k0_off177_inb : ∀ (i : grid0.Coords) (k0_t2 : Fin k0_t2_loop.trips) (k0_t4 : Fin k0_t4_loop.trips), ∀ (k0_h5 : k0_cond5 i k0_t2 = 1#1), ∀ a, (k0_off177 k0_t4) a + S1x16.size a ≤ S64x640.size a
  k0_off178_inb : ∀ (i : grid0.Coords) (k0_t2 : Fin k0_t2_loop.trips) (k0_t4 : Fin k0_t4_loop.trips), ∀ (k0_h5 : k0_cond5 i k0_t2 = 1#1), ∀ a, (k0_off178 k0_t4) a + S1x16.size a ≤ S64x640.size a
  k0_off179_inb : ∀ (i : grid0.Coords) (k0_t2 : Fin k0_t2_loop.trips) (k0_t4 : Fin k0_t4_loop.trips), ∀ (k0_h5 : k0_cond5 i k0_t2 = 1#1), ∀ a, (k0_off179 k0_t4) a + S1x16.size a ≤ S64x640.size a
  k0_off180_inb : ∀ (i : grid0.Coords) (k0_t2 : Fin k0_t2_loop.trips) (k0_t4 : Fin k0_t4_loop.trips), ∀ (k0_h5 : k0_cond5 i k0_t2 = 1#1), ∀ a, (k0_off180 k0_t4) a + S1x16.size a ≤ S64x640.size a
  k0_off181_inb : ∀ (i : grid0.Coords) (k0_t2 : Fin k0_t2_loop.trips) (k0_t4 : Fin k0_t4_loop.trips), ∀ (k0_h5 : k0_cond5 i k0_t2 = 1#1), ∀ a, (k0_off181 k0_t4) a + S1x16.size a ≤ S64x640.size a
  k0_off182_inb : ∀ (i : grid0.Coords) (k0_t2 : Fin k0_t2_loop.trips) (k0_t4 : Fin k0_t4_loop.trips), ∀ (k0_h5 : k0_cond5 i k0_t2 = 1#1), ∀ a, (k0_off182 k0_t4) a + S1x16.size a ≤ S64x640.size a
  k0_off183_inb : ∀ (i : grid0.Coords) (k0_t2 : Fin k0_t2_loop.trips) (k0_t4 : Fin k0_t4_loop.trips), ∀ (k0_h5 : k0_cond5 i k0_t2 = 1#1), ∀ a, (k0_off183 k0_t4) a + S1x16.size a ≤ S64x640.size a
  k0_off184_inb : ∀ (i : grid0.Coords) (k0_t2 : Fin k0_t2_loop.trips) (k0_t4 : Fin k0_t4_loop.trips), ∀ (k0_h5 : k0_cond5 i k0_t2 = 1#1), ∀ a, (k0_off184 k0_t4) a + S1x16.size a ≤ S64x640.size a
  k0_off185_inb : ∀ (i : grid0.Coords) (k0_t2 : Fin k0_t2_loop.trips) (k0_t4 : Fin k0_t4_loop.trips), ∀ (k0_h5 : k0_cond5 i k0_t2 = 1#1), ∀ a, (k0_off185 k0_t4) a + S1x16.size a ≤ S64x640.size a
  k0_off186_inb : ∀ (i : grid0.Coords) (k0_t2 : Fin k0_t2_loop.trips) (k0_t4 : Fin k0_t4_loop.trips), ∀ (k0_h5 : k0_cond5 i k0_t2 = 1#1), ∀ a, (k0_off186 k0_t4) a + S1x16.size a ≤ S64x640.size a
  k0_off187_inb : ∀ (i : grid0.Coords) (k0_t2 : Fin k0_t2_loop.trips) (k0_t4 : Fin k0_t4_loop.trips), ∀ (k0_h5 : k0_cond5 i k0_t2 = 1#1), ∀ a, (k0_off187 k0_t4) a + S1x16.size a ≤ S64x640.size a
  k0_off188_inb : ∀ (i : grid0.Coords) (k0_t2 : Fin k0_t2_loop.trips) (k0_t4 : Fin k0_t4_loop.trips), ∀ (k0_h5 : k0_cond5 i k0_t2 = 1#1), ∀ a, (k0_off188 k0_t4) a + S1x16.size a ≤ S64x640.size a
  k0_off189_inb : ∀ (i : grid0.Coords) (k0_t2 : Fin k0_t2_loop.trips) (k0_t4 : Fin k0_t4_loop.trips), ∀ (k0_h5 : k0_cond5 i k0_t2 = 1#1), ∀ a, (k0_off189 k0_t4) a + S1x16.size a ≤ S64x640.size a
  k0_off190_inb : ∀ (i : grid0.Coords) (k0_t2 : Fin k0_t2_loop.trips) (k0_t4 : Fin k0_t4_loop.trips), ∀ (k0_h5 : k0_cond5 i k0_t2 = 1#1), ∀ a, (k0_off190 k0_t4) a + S1x16.size a ≤ S64x640.size a
  k0_off191_inb : ∀ (i : grid0.Coords) (k0_t2 : Fin k0_t2_loop.trips) (k0_t4 : Fin k0_t4_loop.trips), ∀ (k0_h5 : k0_cond5 i k0_t2 = 1#1), ∀ a, (k0_off191 k0_t4) a + S1x16.size a ≤ S64x640.size a
  k0_off192_inb : ∀ (i : grid0.Coords) (k0_t2 : Fin k0_t2_loop.trips) (k0_t4 : Fin k0_t4_loop.trips), ∀ (k0_h5 : k0_cond5 i k0_t2 = 1#1), ∀ a, (k0_off192 k0_t4) a + S1x16.size a ≤ S64x640.size a
  k0_off193_inb : ∀ (i : grid0.Coords) (k0_t2 : Fin k0_t2_loop.trips) (k0_t4 : Fin k0_t4_loop.trips), ∀ (k0_h5 : k0_cond5 i k0_t2 = 1#1), ∀ a, (k0_off193 k0_t4) a + S1x16.size a ≤ S64x640.size a
  k0_off194_inb : ∀ (i : grid0.Coords) (k0_t2 : Fin k0_t2_loop.trips) (k0_t4 : Fin k0_t4_loop.trips), ∀ (k0_h5 : k0_cond5 i k0_t2 = 1#1), ∀ a, (k0_off194 k0_t4) a + S1x16.size a ≤ S64x640.size a
  k0_off195_inb : ∀ (i : grid0.Coords) (k0_t2 : Fin k0_t2_loop.trips) (k0_t4 : Fin k0_t4_loop.trips), ∀ (k0_h5 : k0_cond5 i k0_t2 = 1#1), ∀ a, (k0_off195 k0_t4) a + S1x16.size a ≤ S64x640.size a
  k0_off196_inb : ∀ (i : grid0.Coords) (k0_t2 : Fin k0_t2_loop.trips) (k0_t4 : Fin k0_t4_loop.trips), ∀ (k0_h5 : k0_cond5 i k0_t2 = 1#1), ∀ a, (k0_off196 k0_t4) a + S1x16.size a ≤ S64x640.size a
  k0_off197_inb : ∀ (i : grid0.Coords) (k0_t2 : Fin k0_t2_loop.trips) (k0_t4 : Fin k0_t4_loop.trips), ∀ (k0_h5 : k0_cond5 i k0_t2 = 1#1), ∀ a, (k0_off197 k0_t4) a + S1x16.size a ≤ S64x640.size a
  k0_off198_inb : ∀ (i : grid0.Coords) (k0_t2 : Fin k0_t2_loop.trips) (k0_t4 : Fin k0_t4_loop.trips), ∀ (k0_h5 : k0_cond5 i k0_t2 = 1#1), ∀ a, (k0_off198 k0_t4) a + S1x16.size a ≤ S64x640.size a
  k0_off199_inb : ∀ (i : grid0.Coords) (k0_t2 : Fin k0_t2_loop.trips) (k0_t4 : Fin k0_t4_loop.trips), ∀ (k0_h5 : k0_cond5 i k0_t2 = 1#1), ∀ a, (k0_off199 k0_t4) a + S1x16.size a ≤ S64x640.size a
  k0_off200_inb : ∀ (i : grid0.Coords) (k0_t2 : Fin k0_t2_loop.trips) (k0_t4 : Fin k0_t4_loop.trips), ∀ (k0_h5 : k0_cond5 i k0_t2 = 1#1), ∀ a, (k0_off200 k0_t4) a + S1x16.size a ≤ S64x640.size a
  k0_off201_inb : ∀ (i : grid0.Coords) (k0_t2 : Fin k0_t2_loop.trips) (k0_t4 : Fin k0_t4_loop.trips), ∀ (k0_h5 : k0_cond5 i k0_t2 = 1#1), ∀ a, (k0_off201 k0_t4) a + S1x16.size a ≤ S64x640.size a
  k0_off202_inb : ∀ (i : grid0.Coords) (k0_t2 : Fin k0_t2_loop.trips) (k0_t4 : Fin k0_t4_loop.trips), ∀ (k0_h5 : k0_cond5 i k0_t2 = 1#1), ∀ a, (k0_off202 k0_t4) a + S1x16.size a ≤ S64x640.size a
  k0_off203_inb : ∀ (i : grid0.Coords) (k0_t2 : Fin k0_t2_loop.trips) (k0_t4 : Fin k0_t4_loop.trips), ∀ (k0_h5 : k0_cond5 i k0_t2 = 1#1), ∀ a, (k0_off203 k0_t4) a + S1x16.size a ≤ S64x640.size a
  k0_off204_inb : ∀ (i : grid0.Coords) (k0_t2 : Fin k0_t2_loop.trips) (k0_t4 : Fin k0_t4_loop.trips), ∀ (k0_h5 : k0_cond5 i k0_t2 = 1#1), ∀ a, (k0_off204 k0_t4) a + S1x16.size a ≤ S64x640.size a
  k0_off205_inb : ∀ (i : grid0.Coords) (k0_t2 : Fin k0_t2_loop.trips) (k0_t4 : Fin k0_t4_loop.trips), ∀ (k0_h5 : k0_cond5 i k0_t2 = 1#1), ∀ a, (k0_off205 k0_t4) a + S1x16.size a ≤ S64x640.size a
  k0_off206_inb : ∀ (i : grid0.Coords) (k0_t2 : Fin k0_t2_loop.trips) (k0_t4 : Fin k0_t4_loop.trips), ∀ (k0_h5 : k0_cond5 i k0_t2 = 1#1), ∀ a, (k0_off206 k0_t4) a + S1x16.size a ≤ S64x640.size a
  k0_off207_inb : ∀ (i : grid0.Coords) (k0_t2 : Fin k0_t2_loop.trips) (k0_t4 : Fin k0_t4_loop.trips), ∀ (k0_h5 : k0_cond5 i k0_t2 = 1#1), ∀ a, (k0_off207 k0_t4) a + S1x16.size a ≤ S64x640.size a
  k0_off208_inb : ∀ (i : grid0.Coords) (k0_t2 : Fin k0_t2_loop.trips), ∀ (k0_h5 : k0_cond5 i k0_t2 = 1#1), ∀ a, (k0_off208 i k0_t2) a + S64x640.size a ≤ S64x800000.size a

variable [Facts₀]

abbrev cc0_scratch8 : DmaSems sig S_ := SemArray.consecutive 0 S_ hcc0_scratch8
abbrev cc0_scratch9 : DmaSems sig S_ := SemArray.consecutive 1 S_ hcc0_scratch9
abbrev cc0_scratch10 : DmaSems sig S_ := SemArray.consecutive 2 S_ hcc0_scratch10
abbrev cc0_scratch11 : DmaSems sig S_ := SemArray.consecutive 3 S_ hcc0_scratch11
abbrev cc0_scoped0 : DmaSems sig S_ := SemArray.consecutive 4 S_ hcc0_scoped0
abbrev cc0_scoped1 : DmaSems sig S_ := SemArray.consecutive 5 S_ hcc0_scoped1
abbrev cc0_scoped2 : DmaSems sig S_ := SemArray.consecutive 6 S_ hcc0_scoped2

class Facts : Prop extends Facts₀ where

variable [Facts]
-- ==== ReferenceIdeal.lean ====
abbrev S800000x3 : Shape := ⟨2, ![800000, 3]⟩
abbrev S20x64 : Shape := ⟨2, ![20, 64]⟩
abbrev S10x64 : Shape := ⟨2, ![10, 64]⟩
abbrev S2x64 : Shape := ⟨2, ![2, 64]⟩
abbrev S800000x1 : Shape := ⟨2, ![800000, 1]⟩
abbrev S800000 : Shape := ⟨1, ![800000]⟩
abbrev S_ : Shape := ⟨0, ![]⟩
abbrev S1 : Shape := ⟨1, ![1]⟩
abbrev S1x1 : Shape := ⟨2, ![1, 1]⟩
abbrev S800000x64 : Shape := ⟨2, ![800000, 64]⟩

abbrev nBuf : Space → Nat
  | .hbm => 81
  | .vmem => 0
  | .smem => 0
  | _ => 0

abbrev bufTy : (tb : Table) → Fin (tcTables nBuf tb) → BufTy
  | .hbm, ⟨0, _⟩ => ⟨S800000x3, .i32⟩
  | .hbm, ⟨1, _⟩ => ⟨S20x64, .f32⟩
  | .hbm, ⟨2, _⟩ => ⟨S10x64, .f32⟩
  | .hbm, ⟨3, _⟩ => ⟨S2x64, .f32⟩
  | .hbm, ⟨4, _⟩ => ⟨S800000x1, .i32⟩
  | .hbm, ⟨5, _⟩ => ⟨S800000, .i32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S1, .i32⟩
  | .hbm, ⟨15, _⟩ => ⟨S_, .i32⟩
  | .hbm, ⟨16, _⟩ => ⟨S800000x1, .i32⟩
  | .hbm, ⟨17, _⟩ => ⟨S800000x1, .i1⟩
  | .hbm, ⟨18, _⟩ => ⟨S1x1, .i32⟩
  | .hbm, ⟨19, _⟩ => ⟨S800000x1, .i32⟩
  | .hbm, ⟨20, _⟩ => ⟨S800000x1, .i1⟩
  | .hbm, ⟨21, _⟩ => ⟨S800000x1, .i1⟩
  | .hbm, ⟨22, _⟩ => ⟨S_, .i1⟩
  | .hbm, ⟨23, _⟩ => ⟨S800000, .i1⟩
  | .hbm, ⟨24, _⟩ => ⟨S800000x64, .f32⟩
  | .hbm, ⟨25, _⟩ => ⟨S800000x64, .i1⟩
  | .hbm, ⟨26, _⟩ => ⟨S_, .f32⟩
  | .hbm, ⟨27, _⟩ => ⟨S800000x64, .f32⟩
  | .hbm, ⟨28, _⟩ => ⟨S800000x64, .f32⟩
  | .hbm, ⟨29, _⟩ => ⟨S800000x1, .i32⟩
  | .hbm, ⟨30, _⟩ => ⟨S800000, .i32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S1, .i32⟩
  | .hbm, ⟨40, _⟩ => ⟨S_, .i32⟩
  | .hbm, ⟨41, _⟩ => ⟨S800000x1, .i32⟩
  | .hbm, ⟨42, _⟩ => ⟨S800000x1, .i1⟩
  | .hbm, ⟨43, _⟩ => ⟨S1x1, .i32⟩
  | .hbm, ⟨44, _⟩ => ⟨S800000x1, .i32⟩
  | .hbm, ⟨45, _⟩ => ⟨S800000x1, .i1⟩
  | .hbm, ⟨46, _⟩ => ⟨S800000x1, .i1⟩
  | .hbm, ⟨47, _⟩ => ⟨S_, .i1⟩
  | .hbm, ⟨48, _⟩ => ⟨S800000, .i1⟩
  | .hbm, ⟨49, _⟩ => ⟨S800000x64, .f32⟩
  | .hbm, ⟨50, _⟩ => ⟨S800000x64, .i1⟩
  | .hbm, ⟨51, _⟩ => ⟨S_, .f32⟩
  | .hbm, ⟨52, _⟩ => ⟨S800000x64, .f32⟩
  | .hbm, ⟨53, _⟩ => ⟨S800000x64, .f32⟩
  | .hbm, ⟨54, _⟩ => ⟨S800000x64, .f32⟩
  | .hbm, ⟨55, _⟩ => ⟨S800000x1, .i32⟩
  | .hbm, ⟨56, _⟩ => ⟨S800000, .i32⟩
  | .hbm, ⟨57, _⟩ => ⟨S_, .i32⟩
  | .hbm, ⟨58, _⟩ => ⟨S800000, .i32⟩
  | .hbm, ⟨59, _⟩ => ⟨S800000, .i1⟩
  | .hbm, ⟨60, _⟩ => ⟨S_, .i32⟩
  | .hbm, ⟨61, _⟩ => ⟨S800000, .i32⟩
  | .hbm, ⟨62, _⟩ => ⟨S800000, .i32⟩
  | .hbm, ⟨63, _⟩ => ⟨S800000, .i32⟩
  | .hbm, ⟨64, _⟩ => ⟨S800000x1, .i32⟩
  | .hbm, ⟨65, _⟩ => ⟨S1, .i32⟩
  | .hbm, ⟨66, _⟩ => ⟨S_, .i32⟩
  | .hbm, ⟨67, _⟩ => ⟨S800000x1, .i32⟩
  | .hbm, ⟨68, _⟩ => ⟨S800000x1, .i1⟩
  | .hbm, ⟨69, _⟩ => ⟨S1x1, .i32⟩
  | .hbm, ⟨70, _⟩ => ⟨S800000x1, .i32⟩
  | .hbm, ⟨71, _⟩ => ⟨S800000x1, .i1⟩
  | .hbm, ⟨72, _⟩ => ⟨S800000x1, .i1⟩
  | .hbm, ⟨73, _⟩ => ⟨S_, .i1⟩
  | .hbm, ⟨74, _⟩ => ⟨S800000, .i1⟩
  | .hbm, ⟨75, _⟩ => ⟨S800000x64, .f32⟩
  | .hbm, ⟨76, _⟩ => ⟨S800000x64, .i1⟩
  | .hbm, ⟨77, _⟩ => ⟨S_, .f32⟩
  | .hbm, ⟨78, _⟩ => ⟨S800000x64, .f32⟩
  | .hbm, ⟨79, _⟩ => ⟨S800000x64, .f32⟩
  | .hbm, ⟨80, _⟩ => ⟨S800000x64, .f32⟩
  | _, _ => ⟨S800000x3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v5 : Ref sig .tc := ⟨.hbm, 53, rfl⟩
abbrev main_v6 : Ref sig .tc := ⟨.hbm, 54, rfl⟩
abbrev main_v7 : Ref sig .tc := ⟨.hbm, 55, rfl⟩
abbrev main_v8 : Ref sig .tc := ⟨.hbm, 56, rfl⟩
abbrev main_call2_c : Ref sig .tc := ⟨.hbm, 57, rfl⟩
abbrev main_call2_v0 : Ref sig .tc := ⟨.hbm, 58, rfl⟩
abbrev main_call2_v1 : Ref sig .tc := ⟨.hbm, 59, rfl⟩
abbrev main_call2_c_0 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_v5 : Ref sig .tc := ⟨.hbm, 64, rfl⟩
abbrev main_call2_c_1 : Ref sig .tc := ⟨.hbm, 65, rfl⟩
abbrev main_call2_c_2 : Ref sig .tc := ⟨.hbm, 66, rfl⟩
abbrev main_call2_v6 : Ref sig .tc := ⟨.hbm, 67, rfl⟩
abbrev main_call2_v7 : Ref sig .tc := ⟨.hbm, 68, rfl⟩
abbrev main_call2_v8 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_c_3 : Ref sig .tc := ⟨.hbm, 73, rfl⟩
abbrev main_call2_v12 : Ref sig .tc := ⟨.hbm, 74, rfl⟩
abbrev main_call2_v13 : Ref sig .tc := ⟨.hbm, 75, rfl⟩
abbrev main_call2_v14 : Ref sig .tc := ⟨.hbm, 76, rfl⟩
abbrev main_call2_cst : Ref sig .tc := ⟨.hbm, 77, rfl⟩
abbrev main_call2_v15 : Ref sig .tc := ⟨.hbm, 78, rfl⟩
abbrev main_v9 : Ref sig .tc := ⟨.hbm, 79, rfl⟩
abbrev main_v10 : Ref sig .tc := ⟨.hbm, 80, rfl⟩

abbrev nD : Nat := 1
abbrev τ : Topo := Topo.v7x

variable {F : FTy → Type} [FloatOps F]

class Facts₀ : Prop where
  slices_S800000x3_S800000x1_0_0 : S800000x3.Slices ![0, 0] S800000x1
  shapeCasts_S800000x1_S800000 : S800000x1.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  slices_S800000x3_S800000x1_0_1 : S800000x3.Slices ![0, 1] S800000x1
  slices_S800000x3_S800000x1_0_2 : S800000x3.Slices ![0, 2] S800000x1
  gather_S20x64_S800000x1_S800000x64_1_0_n_n_0_1_164_wf : GatherDims.WF S20x64 S800000x1 S800000x64 [1] [0] [] [0] [] 1 ![1, 64]
  gather_S10x64_S800000x1_S800000x64_1_0_n_n_0_1_164_wf : GatherDims.WF S10x64 S800000x1 S800000x64 [1] [0] [] [0] [] 1 ![1, 64]
  gather_S2x64_S800000x1_S800000x64_1_0_n_n_0_1_164_wf : GatherDims.WF S2x64 S800000x1 S800000x64 [1] [0] [] [0] [] 1 ![1, 64]

variable [Facts₀]

def gather_S20x64_S800000x1_S800000x64_1_0_n_n_0_1_164 : GatherDims S20x64 S800000x1 S800000x64 where
  offsetDims := [1]
  collapsedSliceDims := [0]
  operandBatchingDims := []
  startIndicesBatchingDims := []
  startIndexMap := [0]
  indexVectorDim := 1
  sliceSizes := ![1, 64]
  wf := gather_S20x64_S800000x1_S800000x64_1_0_n_n_0_1_164_wf
def gather_S10x64_S800000x1_S800000x64_1_0_n_n_0_1_164 : GatherDims S10x64 S800000x1 S800000x64 where
  offsetDims := [1]
  collapsedSliceDims := [0]
  operandBatchingDims := []
  startIndicesBatchingDims := []
  startIndexMap := [0]
  indexVectorDim := 1
  sliceSizes := ![1, 64]
  wf := gather_S10x64_S800000x1_S800000x64_1_0_n_n_0_1_164_wf
def gather_S2x64_S800000x1_S800000x64_1_0_n_n_0_1_164 : GatherDims S2x64 S800000x1 S800000x64 where
  offsetDims := [1]
  collapsedSliceDims := [0]
  operandBatchingDims := []
  startIndicesBatchingDims := []
  startIndexMap := [0]
  indexVectorDim := 1
  sliceSizes := ![1, 64]
  wf := gather_S2x64_S800000x1_S800000x64_1_0_n_n_0_1_164_wf

class Facts : Prop extends Facts₀ where

variable [Facts]
-- ==== Proof.Spec.lean ====
/-
  The function both programs compute, stated once over plain arrays.

  An edge `e` carries three index words `attr[e,0]`, `attr[e,1]`, `attr[e,2]`, each naming one of the first two rows
  of a weight table (`W0`, `W1`, `W2`, of 20, 10 and 2 rows of 64 numbers). The result's row `e` is the sum of the
  three named rows, added in the order (W0-row + W1-row) + W2-row, column by column.
-/
import Idealize.ShloMosaic.PureOps
import Idealize.ShloMosaic.Lib.ValueIdx

noncomputable section

namespace Cert.Spec

open Idealize.ShloMosaic Idealize.ShloMosaic.ValueIdx

abbrev S800000x3 : Shape := ⟨2, ![800000, 3]⟩
abbrev S20x64 : Shape := ⟨2, ![20, 64]⟩
abbrev S10x64 : Shape := ⟨2, ![10, 64]⟩
abbrev S2x64 : Shape := ⟨2, ![2, 64]⟩
abbrev S800000x64 : Shape := ⟨2, ![800000, 64]⟩

variable {F : FTy → Type} [FloatOps F]

/-- Which of the first two rows an index word names: row 0 for the zero word, row 1 for any other. -/
def sel (x : BitVec 32) : Fin 2 := if x = 0#32 then 0 else 1

theorem sel_zero : sel 0#32 = 0 := rfl
theorem sel_one : sel 1#32 = 1 := rfl

/-- Row `e` of the result, column `j`: `(W0[sel attr[e,0], j] + W1[sel attr[e,1], j]) + W2[sel attr[e,2], j]`. -/
def G (attr : IVec S800000x3 32) (W0 : FVec F S20x64 .f32) (W1 : FVec F S10x64 .f32) (W2 : FVec F S2x64 .f32) :
    FVec F S800000x64 .f32 :=
  fun i =>
    FloatOps.addf
      (FloatOps.addf
        (W0 (ix2 ((sel (attr (ix2 (i 0 : Fin 800000) (0 : Fin 3)))).castLE (by decide) : Fin 20) (i 1 : Fin 64)))
        (W1 (ix2 ((sel (attr (ix2 (i 0 : Fin 800000) (1 : Fin 3)))).castLE (by decide) : Fin 10) (i 1 : Fin 64))))
      (W2 (ix2 (sel (attr (ix2 (i 0 : Fin 800000) (2 : Fin 3))) : Fin 2) (i 1 : Fin 64)))

/-- Every index word is 0 or 1. -/
def Attr01 (attr : IVec S800000x3 32) : Prop := ∀ i, attr i = 0#32 ∨ attr i = 1#32

end Cert.Spec

end
-- ==== Proof.PreFacts.lean ====
/-
  What the input-domain precondition says of the index words.

  The precondition is a conjunction of four "all entries satisfy …" tests reduced to one bit. Its last conjunct
  says every index word `x` of `edge_attr` satisfies `0 ≤ x` and `x ≤ 1` as a signed 32-bit integer, so every
  word is the word 0 or the word 1.
-/
import proofs.«203793_g3813930959492_cont_8to1_b_1292_12_alg».proof.Pre_input_domain
import proofs.«203793_g3813930959492_cont_8to1_b_1292_12_alg».proof.Proof.Gen.Pre_input_domain
import proofs.«203793_g3813930959492_cont_8to1_b_1292_12_alg».proof.Proof.Spec
import Idealize.ShloMosaic.Lib.ReduceAll

noncomputable section

namespace Cert.PreFacts

open Idealize.ShloMosaic Idealize.ShloMosaic.ValueIdx

/-- A 32-bit word that is signed-at-least 0 and signed-at-most 1 is the word 0 or the word 1. -/
theorem word01 (x : BitVec 32) (h0 : IntOp.cmpi .sge x 0#32 = 1#1) (h1 : IntOp.cmpi .sle x 1#32 = 1#1) :
    x = 0#32 ∨ x = 1#32 := by
  rw [IntOp.cmpi_sge] at h0
  rw [IntOp.cmpi_sle] at h1
  have e0 : (0#32).toInt = 0 := by decide
  have e1 : (1#32).toInt = 1 := by decide
  rw [e0] at h0
  rw [e1] at h1
  have h : x.toInt = 0 ∨ x.toInt = 1 := by omega
  rcases h with h | h
  · exact Or.inl (BitVec.eq_of_toInt_eq (by rw [h, e0]))
  · exact Or.inr (BitVec.eq_of_toInt_eq (by rw [h, e1]))

/-- The rank-0 shape has one index. -/
instance : Subsingleton Cert.Pre_input_domain.S_.Idx := ⟨fun a b => funext fun d => d.elim0⟩

/-- If the input-domain test answers 1, every index word of `edge_attr` is 0 or 1. -/
theorem attr01_of_pre {F : FTy → Type} [FloatOps F] [Cert.Pre_input_domain.Facts]
    (a0 : IVec Cert.Pre_input_domain.S800000x3 32) (a1 : FVec F Cert.Pre_input_domain.S20x64 .f32)
    (a2 : FVec F Cert.Pre_input_domain.S10x64 .f32) (a3 : FVec F Cert.Pre_input_domain.S2x64 .f32)
    (h : Cert.Pre_input_domain.fn (F := F) a0 a1 a2 a3 = fun _ => 1#1) : Cert.Spec.Attr01 a0 := by
  intro i
  have h0 := congrFun h ValueIdx.ix0
  dsimp only [Cert.Pre_input_domain.fn, Cert.Pre_input_domain.fn_part1] at h0
  have h1 := (IntOp.andi_eq_one.1 h0).2
  have h2 := Host.reduce_andi_all _ _ _ _ _ h1 i
  obtain ⟨hge, hle⟩ := IntOp.andi_eq_one.1 h2
  exact word01 (a0 i) hge hle

end Cert.PreFacts

end
-- ==== Proof.RefSide.lean ====
/-
  The reference's run and its value.

  The reference computes, for every edge `e` and column `j`, `(W0[a0, j] + W1[a1, j]) + W2[a2, j]` where `a0, a1, a2` are
  the three index words of row `e` of the index array, each looked up as the reference's row look-up does: a negative index is
  wrapped by the table's row count, an index outside `[0, rows − 1]` yields a filler, and the row is gathered at the index
  clamped into the table. On index words that are all 0 or 1 none of this matters: the wrap leaves 0 and 1 alone, both
  are in bounds for tables of 20, 10 and 2 rows, and the clamp is the identity on them, so the result is the
  specification's `G`.

  The file lists the reference as a straight line of 77 operations (its three look-ups' bodies written out at their call
  sites), reads its run off that list, names the result buffer's contents as one term `out` of the four arguments, and
  proves `out = G` index by index.
-/
import proofs.«203793_g3813930959492_cont_8to1_b_1292_12_alg».proof.ReferenceIdeal
import proofs.«203793_g3813930959492_cont_8to1_b_1292_12_alg».proof.Proof.Gen.ReferenceIdeal
import proofs.«203793_g3813930959492_cont_8to1_b_1292_12_alg».proof.Proof.Spec
import Idealize.ShloMosaic.Lib.StableHlo.Run
import Idealize.ShloMosaic.Lib.Pipeline.Value
import Idealize.ShloMosaic.Lib.ReduceAll
import Idealize.ShloMosaic.Lib.ValueIdx

noncomputable section

namespace Cert.RefSide

open Cert.ReferenceIdeal Cert.ReferenceIdeal.Gen Idealize.ShloMosaic Idealize.ShloMosaic.TcCoe Idealize.SL.Sem Idealize.ShloMosaic.StableHlo
open Idealize.ShloMosaic.ValueIdx

variable {F : FTy → Type} [FloatOps F]

/-- The reference's 77 operations, in order: the three column reads, each followed by its table
    look-up's 23 operations listed at the call site over that call's buffers, and the two sums. -/
abbrev ops : List (HloOp τ sig (Elt F)) :=
  [ unary main_arg0 main_v0 ((extractStridedSlice S800000x1 ![0, 0] · slices_S800000x3_S800000x1_0_0) : (⟨S800000x3, .i32⟩ : BufTy).Contents (Elt F) → (⟨S800000x1, .i32⟩ : BufTy).Contents (Elt F)),
    reshape main_v0 main_v1 rfl shapeCasts_S800000x1_S800000,
    TRef.nullary main_call0.c (constantI S_ 32 0#32),
    TRef.unary main_call0.c main_call0.v0 (broadcastInDim S800000 ![] bcast_S_S800000),
    TRef.binary (.of main_v1 : TRef sig ⟨S800000, .i32⟩) main_call0.v0 main_call0.v1 (cmpi .slt),
    TRef.nullary main_call0.c_0 (constantI S_ 32 20#32),
    TRef.unary main_call0.c_0 main_call0.v2 (broadcastInDim S800000 ![] bcast_S_S800000),
    TRef.binary (.of main_v1 : TRef sig ⟨S800000, .i32⟩) main_call0.v2 main_call0.v3 addi,
    TRef.ternary main_call0.v1 main_call0.v3 (.of main_v1 : TRef sig ⟨S800000, .i32⟩) main_call0.call0.v0 select,
    TRef.unary main_call0.call0.v0 main_call0.v5 (broadcastInDim S800000x1 ![0] bcast_S800000_S800000x1_0),
    TRef.nullary main_call0.c_1 (constantI S1 32 19#32),
    TRef.nullary main_call0.c_2 (constantI S_ 32 0#32),
    TRef.unary main_call0.c_2 main_call0.v6 (broadcastInDim S800000x1 ![] bcast_S_S800000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S800000x1 ![0, 1] bcast_S1x1_S800000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S800000x1_S800000_d1 h_S_),
    TRef.binary (.of main_arg1 : TRef sig ⟨S20x64, .f32⟩) main_call0.v5 main_call0.v13 (fun x i => Host.gather gather_S20x64_S800000x1_S800000x64_1_0_n_n_0_1_164 x i),
    TRef.unary main_call0.v12 main_call0.v14 (broadcastInDim S800000x64 ![0] bcast_S800000_S800000x64_0),
    TRef.nullary main_call0.cst (constant S_ .f32 0x7FC00000#32),
    TRef.unary main_call0.cst main_call0.v15 (broadcastInDim S800000x64 ![] bcast_S_S800000x64),
    TRef.ternary main_call0.v14 main_call0.v13 main_call0.v15 main_call0.v16 select,
    unary main_arg0 main_v3 ((extractStridedSlice S800000x1 ![0, 1] · slices_S800000x3_S800000x1_0_1) : (⟨S800000x3, .i32⟩ : BufTy).Contents (Elt F) → (⟨S800000x1, .i32⟩ : BufTy).Contents (Elt F)),
    reshape main_v3 main_v4 rfl shapeCasts_S800000x1_S800000,
    TRef.nullary main_call1.c (constantI S_ 32 0#32),
    TRef.unary main_call1.c main_call1.v0 (broadcastInDim S800000 ![] bcast_S_S800000),
    TRef.binary (.of main_v4 : TRef sig ⟨S800000, .i32⟩) main_call1.v0 main_call1.v1 (cmpi .slt),
    TRef.nullary main_call1.c_0 (constantI S_ 32 10#32),
    TRef.unary main_call1.c_0 main_call1.v2 (broadcastInDim S800000 ![] bcast_S_S800000),
    TRef.binary (.of main_v4 : TRef sig ⟨S800000, .i32⟩) main_call1.v2 main_call1.v3 addi,
    TRef.ternary main_call1.v1 main_call1.v3 (.of main_v4 : TRef sig ⟨S800000, .i32⟩) main_call1.call0.v0 select,
    TRef.unary main_call1.call0.v0 main_call1.v5 (broadcastInDim S800000x1 ![0] bcast_S800000_S800000x1_0),
    TRef.nullary main_call1.c_1 (constantI S1 32 9#32),
    TRef.nullary main_call1.c_2 (constantI S_ 32 0#32),
    TRef.unary main_call1.c_2 main_call1.v6 (broadcastInDim S800000x1 ![] bcast_S_S800000x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S800000x1 ![0, 1] bcast_S1x1_S800000x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S800000x1_S800000_d1 h_S_),
    TRef.binary (.of main_arg2 : TRef sig ⟨S10x64, .f32⟩) main_call1.v5 main_call1.v13 (fun x i => Host.gather gather_S10x64_S800000x1_S800000x64_1_0_n_n_0_1_164 x i),
    TRef.unary main_call1.v12 main_call1.v14 (broadcastInDim S800000x64 ![0] bcast_S800000_S800000x64_0),
    TRef.nullary main_call1.cst (constant S_ .f32 0x7FC00000#32),
    TRef.unary main_call1.cst main_call1.v15 (broadcastInDim S800000x64 ![] bcast_S_S800000x64),
    TRef.ternary main_call1.v14 main_call1.v13 main_call1.v15 main_call1.v16 select,
    binary main_v2 main_v5 main_v6 (addf : (⟨S800000x64, .f32⟩ : BufTy).Contents (Elt F) → (⟨S800000x64, .f32⟩ : BufTy).Contents (Elt F) → (⟨S800000x64, .f32⟩ : BufTy).Contents (Elt F)),
    unary main_arg0 main_v7 ((extractStridedSlice S800000x1 ![0, 2] · slices_S800000x3_S800000x1_0_2) : (⟨S800000x3, .i32⟩ : BufTy).Contents (Elt F) → (⟨S800000x1, .i32⟩ : BufTy).Contents (Elt F)),
    reshape main_v7 main_v8 rfl shapeCasts_S800000x1_S800000,
    TRef.nullary main_call2.c (constantI S_ 32 0#32),
    TRef.unary main_call2.c main_call2.v0 (broadcastInDim S800000 ![] bcast_S_S800000),
    TRef.binary (.of main_v8 : TRef sig ⟨S800000, .i32⟩) main_call2.v0 main_call2.v1 (cmpi .slt),
    TRef.nullary main_call2.c_0 (constantI S_ 32 2#32),
    TRef.unary main_call2.c_0 main_call2.v2 (broadcastInDim S800000 ![] bcast_S_S800000),
    TRef.binary (.of main_v8 : TRef sig ⟨S800000, .i32⟩) main_call2.v2 main_call2.v3 addi,
    TRef.ternary main_call2.v1 main_call2.v3 (.of main_v8 : TRef sig ⟨S800000, .i32⟩) main_call2.call0.v0 select,
    TRef.unary main_call2.call0.v0 main_call2.v5 (broadcastInDim S800000x1 ![0] bcast_S800000_S800000x1_0),
    TRef.nullary main_call2.c_1 (constantI S1 32 1#32),
    TRef.nullary main_call2.c_2 (constantI S_ 32 0#32),
    TRef.unary main_call2.c_2 main_call2.v6 (broadcastInDim S800000x1 ![] bcast_S_S800000x1),
    TRef.binary main_call2.v5 main_call2.v6 main_call2.v7 (cmpi .sge),
    TRef.unary main_call2.c_1 main_call2.v8 (broadcastInDim S1x1 ![1] bcast_S1_S1x1_1),
    TRef.unary main_call2.v8 main_call2.v9 (broadcastInDim S800000x1 ![0, 1] bcast_S1x1_S800000x1_0_1),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S800000x1_S800000_d1 h_S_),
    TRef.binary (.of main_arg3 : TRef sig ⟨S2x64, .f32⟩) main_call2.v5 main_call2.v13 (fun x i => Host.gather gather_S2x64_S800000x1_S800000x64_1_0_n_n_0_1_164 x i),
    TRef.unary main_call2.v12 main_call2.v14 (broadcastInDim S800000x64 ![0] bcast_S800000_S800000x64_0),
    TRef.nullary main_call2.cst (constant S_ .f32 0x7FC00000#32),
    TRef.unary main_call2.cst main_call2.v15 (broadcastInDim S800000x64 ![] bcast_S_S800000x64),
    TRef.ternary main_call2.v14 main_call2.v13 main_call2.v15 main_call2.v16 select,
    binary main_v6 main_v9 main_v10 (addf : (⟨S800000x64, .f32⟩ : BufTy).Contents (Elt F) → (⟨S800000x64, .f32⟩ : BufTy).Contents (Elt F) → (⟨S800000x64, .f32⟩ : BufTy).Contents (Elt F)) ]

set_option maxRecDepth 4096 in
set_option maxHeartbeats 4000000 in
/-- The reference is that straight line: the look-ups' definitions unfolded at their calls. -/
theorem main_eq (c : Dev nD) : main (F := F) c = seq ops := by
  simp only [main, fn_take.body, fn_take_0.body, fn_take_1.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub ..⟩

/-- Every weakly fair execution of the reference terminates, each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## A reduction by `and` of an array of ones -/

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    have h1 : IntOp.andi 1#1 1#1 = 1#1 := by decide
    rw [List.foldl_cons, h a List.mem_cons_self, h1]
    exact foldl_andi_one f l fun n hn => h n (List.mem_cons_of_mem _ hn)

/-- A reduction by `and`, from an initial value of ones, of an array of ones is 1 at every index. -/
theorem reduce_andi_one {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_one x _ fun n _ => hx n

/-! ## The index words 0 and 1 through a look-up's index arithmetic -/

/-- The wrap of a negative index (`x + n` when `x < 0`) leaves the words 0 and 1 as they are. -/
theorem wrap01 (n x : BitVec 32) (h : x = 0#32 ∨ x = 1#32) :
    Scalar.select (IntOp.cmpi .slt x 0#32) (IntOp.addi x n) x = x := by
  have e : IntOp.cmpi .slt x 0#32 = 0#1 := by rcases h with rfl | rfl <;> decide
  rw [e]
  exact select_zero _ _

/-- The words 0 and 1 pass the bounds test `0 ≤ x ∧ x ≤ m` for any bound `m ≥ 1`. -/
theorem inb01 (m x : BitVec 32) (hm : 1 ≤ m.toInt) (h : x = 0#32 ∨ x = 1#32) :
    IntOp.andi (IntOp.cmpi .sge x 0#32) (IntOp.cmpi .sle x m) = 1#1 := by
  have e0 : (0#32).toInt = 0 := by decide
  have e1 : (1#32).toInt = 1 := by decide
  rw [IntOp.andi_eq_one, IntOp.cmpi_sge, IntOp.cmpi_sle]
  rcases h with rfl | rfl
  · rw [e0]; exact ⟨le_refl _, by omega⟩
  · rw [e0, e1]; exact ⟨by omega, hm⟩

/-- Read signed and clamped into a table of at least two rows, the words 0 and 1 name rows 0 and 1. -/
theorem clamp01 (N : Nat) (hN : 2 ≤ N) (x : BitVec 32) (h : x = 0#32 ∨ x = 1#32) :
    min x.toInt.toNat (N - 1) = (Cert.Spec.sel x).val := by
  rcases h with rfl | rfl
  · have e : (0#32).toInt.toNat = 0 := by decide
    rw [e, Cert.Spec.sel_zero]; exact Nat.zero_min _
  · have e : (1#32).toInt.toNat = 1 := by decide
    rw [e, Cert.Spec.sel_one]; show min 1 (N - 1) = 1; omega

/-! ## A gather of whole rows, read at an index -/

/-- The dimension numbers of a row gather: operand `[N, C]`, one start index per result row (`[R, 1]`), result `[R, C]`. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row gather at `(r, c)`: the operand at row `idx[r, 0]` (read signed, clamped into `[0, N − 1]`), column `c`. -/
theorem gather_row_apply {α : Type} {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (y : (⟨2, ![R, C]⟩ : Shape).Idx) :
    Host.gather (rowDims N R C wf) x idx y
      = x (ix2 (⟨min (idx (ix2 (y 0) (0 : Fin 1))).toInt.toNat (N - 1), by omega⟩ : Fin N) (y 1)) := by
  unfold Host.gather
  congr 1
  funext a
  refine Fin.ext ?_
  match a with
  | ⟨0, _⟩ =>
    show (rowDims N R C wf).start y idx 0 + (rowDims N R C wf).batchCoord y 0 + (rowDims N R C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx y ⟨List.idxOf (0 : Fin 2) (rowDims N R C wf).startIndexMap,
        List.idxOf_lt_length_iff.2 (List.mem_singleton.mpr rfl)⟩ = ix2 (y 0) (0 : Fin 1) := by
      funext b; refine Fin.ext ?_
      match b with
      | ⟨0, _⟩ => rfl
      | ⟨1, _⟩ => rfl
    rw [hsi]
    rfl
  | ⟨1, _⟩ =>
    show (rowDims N R C wf).start y idx 1 + (rowDims N R C wf).batchCoord y 1 + (rowDims N R C wf).offCoord y 1 = (y 1).val
    have hs : (rowDims N R C wf).start y idx 1 = 0 := by
      unfold GatherDims.start
      rw [dif_neg (show (1 : Fin 2) ∉ (rowDims N R C wf).startIndexMap from (by decide : (1 : Fin 2) ∉ ([0] : List (Fin 2))))]
    have ho : (rowDims N R C wf).offCoord y 1 = (y 1).val := by
      unfold GatherDims.offCoord
      rw [dif_pos (show (1 : Fin 2) ∈ (rowDims N R C wf).sKept from ((rowDims N R C wf).mem_sKept 1).2 ⟨(by decide : (1 : Fin 2) ∉ ([0] : List (Fin 2))), List.not_mem_nil⟩)]
      rfl
    rw [hs, GatherDims.batchCoord_eq_zero _ _ _ List.not_mem_nil, ho]
    omega

/-! ## A vector copied along a new trailing axis, read at an index -/

/-- A vector `[R]` broadcast to `[R, C]` along axis 0 reads, at `(r, c)`, the vector at `r`. -/
theorem bcast_rows_apply {α : Type} {R C : Nat} (hR : R ≠ 1)
    (h : (⟨1, ![R]⟩ : Shape).BroadcastsInDim ⟨2, ![R, C]⟩ ![0]) (x : (⟨1, ![R]⟩ : Shape).Idx → α)
    (j : (⟨2, ![R, C]⟩ : Shape).Idx) : broadcastInDim ⟨2, ![R, C]⟩ ![0] h x j = x (ix1 (j 0)) := by
  refine broadcastInDim_apply ![0] h x j (ix1 (j 0)) fun a => ?_
  match a with
  | ⟨0, _⟩ =>
    show (j 0).val = if R = 1 then 0 else (j 0).val
    rw [if_neg hR]

/-! ## One table look-up, as the reference computes it -/

/-- The index words with a negative one wrapped by the table's row count `n`. -/
def wrapWord (n : BitVec 32) (idx : IVec S800000 32) : IVec S800000 32 :=
  select (cmpi .slt idx (broadcastInDim S800000 ![] bcast_S_S800000 (constantI S_ 32 0#32)))
    (addi idx (broadcastInDim S800000 ![] bcast_S_S800000 (constantI S_ 32 n))) idx

/-- The start indices of a look-up: the wrapped words, one index per result row. -/
def wrapIdx (n : BitVec 32) (idx : IVec S800000 32) : IVec S800000x1 32 :=
  broadcastInDim S800000x1 ![0] bcast_S800000_S800000x1_0 (wrapWord n idx)

/-- The look-up's bounds test, per result row: the start index lies in `[0, m]`. -/
def inBounds (m : BitVec 32) (v : IVec S800000x1 32) : IVec S800000 1 :=
  Host.reduce IntOp.andi
    (andi (cmpi .sge v (broadcastInDim S800000x1 ![] bcast_S_S800000x1 (constantI S_ 32 0#32)))
      (cmpi .sle v (broadcastInDim S800000x1 ![0, 1] bcast_S1x1_S800000x1_0_1
        (broadcastInDim S1x1 ![1] bcast_S1_S1x1_1 (constantI S1 32 m)))))
    (constantI S_ 1 1#1) reducesTo_S800000x1_S800000_d1 h_S_

/-- The look-up: the gathered row where the start index is in bounds, a filler elsewhere. -/
def take {N : Nat} (gd : GatherDims ⟨2, ![N, 64]⟩ S800000x1 S800000x64) (n m : BitVec 32)
    (W : FVec F ⟨2, ![N, 64]⟩ .f32) (idx : IVec S800000 32) : FVec F S800000x64 .f32 :=
  select (broadcastInDim S800000x64 ![0] bcast_S800000_S800000x64_0 (inBounds m (wrapIdx n idx)))
    (Host.gather gd W (wrapIdx n idx))
    (broadcastInDim S800000x64 ![] bcast_S_S800000x64 (constant S_ .f32 0x7FC00000#32))

/-- On index words that are 0 or 1 the wrap changes nothing: row `r`'s start index is the word of row `r`. -/
theorem wrapIdx_apply (n : BitVec 32) (idx : IVec S800000 32) (h01 : ∀ e, idx e = 0#32 ∨ idx e = 1#32)
    (k : S800000x1.Idx) : wrapIdx n idx k = idx (ix1 (k 0)) := by
  have h1 : wrapIdx n idx k = wrapWord n idx (ix1 (k 0)) :=
    bcast_rows_apply (R := 800000) (C := 1) (by decide) bcast_S800000_S800000x1_0 (wrapWord n idx) k
  rw [h1]
  exact wrap01 n _ (h01 _)

/-- Start indices that are 0 or 1 are in bounds on every row, for any bound `m ≥ 1`. -/
theorem inBounds_eq_one (m : BitVec 32) (hm : 1 ≤ m.toInt) (v : IVec S800000x1 32)
    (h01 : ∀ k, v k = 0#32 ∨ v k = 1#32) (e : S800000.Idx) : inBounds m v e = 1#1 := by
  unfold inBounds
  exact reduce_andi_one _ _ _ _ (fun k => inb01 m (v k) hm (h01 k)) (fun _ => rfl) e

/-- The look-up at `(r, c)` on index words that are 0 or 1: the table's row `sel` of the word of row `r`, column `c`. -/
theorem take_apply {N : Nat} (hN : 2 ≤ N)
    (wf : GatherDims.WF ⟨2, ![N, 64]⟩ ⟨2, ![800000, 1]⟩ ⟨2, ![800000, 64]⟩ [1] [0] [] [0] [] 1 ![1, 64])
    (n m : BitVec 32) (hm : 1 ≤ m.toInt) (W : FVec F ⟨2, ![N, 64]⟩ .f32) (idx : IVec S800000 32)
    (h01 : ∀ e, idx e = 0#32 ∨ idx e = 1#32) (i : S800000x64.Idx) :
    take (rowDims N 800000 64 wf) n m W idx i = W (ix2 ((Cert.Spec.sel (idx (ix1 (i 0)))).castLE hN) (i 1)) := by
  have hw : ∀ k, wrapIdx n idx k = 0#32 ∨ wrapIdx n idx k = 1#32 := fun k => by
    rw [wrapIdx_apply n idx h01]; exact h01 _
  have hr : (⟨min (wrapIdx n idx (ix2 (i 0) (0 : Fin 1))).toInt.toNat (N - 1), by omega⟩ : Fin N)
      = (Cert.Spec.sel (idx (ix1 (i 0)))).castLE hN :=
    Fin.ext (by
      show min (wrapIdx n idx (ix2 (i 0) (0 : Fin 1))).toInt.toNat (N - 1) = (Cert.Spec.sel (idx (ix1 (i 0)))).val
      rw [wrapIdx_apply n idx h01]
      exact clamp01 N hN _ (h01 _))
  have hb : broadcastInDim S800000x64 ![0] bcast_S800000_S800000x64_0 (inBounds m (wrapIdx n idx)) i = 1#1 :=
    (bcast_rows_apply (R := 800000) (C := 64) (by decide) bcast_S800000_S800000x64_0 (inBounds m (wrapIdx n idx)) i).trans
      (inBounds_eq_one m hm _ hw _)
  have hg : Host.gather (rowDims N 800000 64 wf) W (wrapIdx n idx) i
      = W (ix2 ((Cert.Spec.sel (idx (ix1 (i 0)))).castLE hN) (i 1)) :=
    (gather_row_apply (by omega) wf W (wrapIdx n idx) i).trans (congrArg (fun r => W (ix2 r (i 1))) hr)
  unfold take
  rw [select_apply, hb, select_one, hg]

/-! ## A column of the index array -/

/-- Column `off 1` of the index array as a vector: the slice of width one, its unit axis dropped. -/
def col (off : Fin 2 → Nat) (h : S800000x3.Slices off S800000x1) (attr : IVec S800000x3 32) : IVec S800000 32 :=
  shapeCast S800000 (extractStridedSlice S800000x1 off attr h) shapeCasts_S800000x1_S800000

theorem col_apply (c : Fin 3) (h : S800000x3.Slices ![0, c.val] S800000x1) (attr : IVec S800000x3 32) (e : S800000.Idx) :
    col ![0, c.val] h attr e = attr (ix2 (e 0) c) := by
  unfold col
  refine (shapeCast_apply _ _ e (ix2 (e 0) (0 : Fin 1)) ?_).trans
    (extractStridedSlice_apply _ attr h _ (ix2 (e 0) c) ?_)
  · have h2 := Shape.rowMajor_val_two (d := ![800000, 1]) (ix2 (e 0) (0 : Fin 1))
    have h1 := Shape.rowMajor_val_one (d := ![800000]) e
    have h2' : ((⟨2, ![800000, 1]⟩ : Shape).rowMajor (ix2 (e 0) (0 : Fin 1))).val = (e 0).val := by
      rw [h2]; show (e 0).val * 1 + 0 = (e 0).val; omega
    exact h2'.trans h1.symm
  · exact fun a => match a with | ⟨0, _⟩ => (Nat.zero_add _).symm | ⟨1, _⟩ => rfl

/-! ## The reference's result -/

/-- The reference's result as one term of its four arguments: the three look-ups, added left to right. -/
def out (attr : IVec S800000x3 32) (W0 : FVec F S20x64 .f32) (W1 : FVec F S10x64 .f32) (W2 : FVec F S2x64 .f32) :
    FVec F S800000x64 .f32 :=
  addf
    (addf (take gather_S20x64_S800000x1_S800000x64_1_0_n_n_0_1_164 20#32 19#32 W0 (col ![0, 0] slices_S800000x3_S800000x1_0_0 attr))
      (take gather_S10x64_S800000x1_S800000x64_1_0_n_n_0_1_164 10#32 9#32 W1 (col ![0, 1] slices_S800000x3_S800000x1_0_1 attr)))
    (take gather_S2x64_S800000x1_S800000x64_1_0_n_n_0_1_164 2#32 1#32 W2 (col ![0, 2] slices_S800000x3_S800000x1_0_2 attr))

/-- On index words that are all 0 or 1 the reference's result is the specification's `G`. -/
theorem out_eq_G (attr : IVec S800000x3 32) (W0 : FVec F S20x64 .f32) (W1 : FVec F S10x64 .f32) (W2 : FVec F S2x64 .f32)
    (h01 : Cert.Spec.Attr01 attr) : out attr W0 W1 W2 = Cert.Spec.G attr W0 W1 W2 := by
  funext i
  have hc : ∀ (c : Fin 3) (h : S800000x3.Slices ![0, c.val] S800000x1) (e : S800000.Idx),
      col ![0, c.val] h attr e = 0#32 ∨ col ![0, c.val] h attr e = 1#32 := fun c h e => by
    rw [col_apply]; exact h01 _
  have t0 := take_apply (F := F) (N := 20) (by decide) gather_S20x64_S800000x1_S800000x64_1_0_n_n_0_1_164_wf 20#32 19#32 (by decide) W0
    (col ![0, 0] slices_S800000x3_S800000x1_0_0 attr) (hc 0 slices_S800000x3_S800000x1_0_0) i
  have t1 := take_apply (F := F) (N := 10) (by decide) gather_S10x64_S800000x1_S800000x64_1_0_n_n_0_1_164_wf 10#32 9#32 (by decide) W1
    (col ![0, 1] slices_S800000x3_S800000x1_0_1 attr) (hc 1 slices_S800000x3_S800000x1_0_1) i
  have t2 := take_apply (F := F) (N := 2) (by decide) gather_S2x64_S800000x1_S800000x64_1_0_n_n_0_1_164_wf 2#32 1#32 (by decide) W2
    (col ![0, 2] slices_S800000x3_S800000x1_0_2 attr) (hc 2 slices_S800000x3_S800000x1_0_2) i
  have c0 : col ![0, 0] slices_S800000x3_S800000x1_0_0 attr (ix1 (i 0)) = attr (ix2 (i 0) (0 : Fin 3)) := col_apply 0 _ attr _
  have c1 : col ![0, 1] slices_S800000x3_S800000x1_0_1 attr (ix1 (i 0)) = attr (ix2 (i 0) (1 : Fin 3)) := col_apply 1 _ attr _
  have c2 : col ![0, 2] slices_S800000x3_S800000x1_0_2 attr (ix1 (i 0)) = attr (ix2 (i 0) (2 : Fin 3)) := col_apply 2 _ attr _
  rw [c0] at t0
  rw [c1] at t1
  rw [c2] at t2
  exact congrArg₂ FloatOps.addf (congrArg₂ FloatOps.addf t0 t1) t2

/-! ## Typed references at literal buffers carry their contents unchanged -/

/-- Contents moved to a typed reference's buffer type and back are themselves. -/
theorem ofBuf_toBuf {T : BufTy} (x : TRef sig T) (v : T.Contents (Elt F)) : x.ofBuf (x.toBuf v) = v := by
  obtain ⟨r, rfl, _, _⟩ := x
  rfl

theorem toBuf_v2 (h1 h2 h3) (v : (⟨S800000x64, .f32⟩ : BufTy).Contents (Elt F)) :
    (TRef.of (T := ⟨S800000x64, .f32⟩) main_v2 h1 h2 h3).toBuf v = v := rfl
theorem toBuf_v5 (h1 h2 h3) (v : (⟨S800000x64, .f32⟩ : BufTy).Contents (Elt F)) :
    (TRef.of (T := ⟨S800000x64, .f32⟩) main_v5 h1 h2 h3).toBuf v = v := rfl
theorem toBuf_v9 (h1 h2 h3) (v : (⟨S800000x64, .f32⟩ : BufTy).Contents (Elt F)) :
    (TRef.of (T := ⟨S800000x64, .f32⟩) main_v9 h1 h2 h3).toBuf v = v := rfl
theorem ofBuf_v1 (h1 h2 h3) (v : (⟨S800000, .i32⟩ : BufTy).Contents (Elt F)) :
    (TRef.of (T := ⟨S800000, .i32⟩) main_v1 h1 h2 h3).ofBuf v = v := rfl
theorem ofBuf_v4 (h1 h2 h3) (v : (⟨S800000, .i32⟩ : BufTy).Contents (Elt F)) :
    (TRef.of (T := ⟨S800000, .i32⟩) main_v4 h1 h2 h3).ofBuf v = v := rfl
theorem ofBuf_v8 (h1 h2 h3) (v : (⟨S800000, .i32⟩ : BufTy).Contents (Elt F)) :
    (TRef.of (T := ⟨S800000, .i32⟩) main_v8 h1 h2 h3).ofBuf v = v := rfl
theorem ofBuf_arg1 (h1 h2 h3) (v : (⟨S20x64, .f32⟩ : BufTy).Contents (Elt F)) :
    (TRef.of (T := ⟨S20x64, .f32⟩) main_arg1 h1 h2 h3).ofBuf v = v := rfl
theorem ofBuf_arg2 (h1 h2 h3) (v : (⟨S10x64, .f32⟩ : BufTy).Contents (Elt F)) :
    (TRef.of (T := ⟨S10x64, .f32⟩) main_arg2 h1 h2 h3).ofBuf v = v := rfl
theorem ofBuf_arg3 (h1 h2 h3) (v : (⟨S2x64, .f32⟩ : BufTy).Contents (Elt F)) :
    (TRef.of (T := ⟨S2x64, .f32⟩) main_arg3 h1 h2 h3).ofBuf v = v := rfl

/-! ## The operations' fold at the result and at the arguments -/

attribute [local irreducible] Host.reduce Host.gather in
set_option maxRecDepth 8192 in
set_option maxHeartbeats 1600000 in
/-- The operations' fold at the result buffer is `out` of the four arguments: each operation's result is the value at
    the buffer it writes, and the equation holds whatever the reduction and the gather compute. -/
theorem out_eq (V : Valuation τ sig (Elt F)) :
    after ops V (main_v10 : DevRef τ sig)
      = out (V (main_arg0 : DevRef τ sig)) (V (main_arg1 : DevRef τ sig)) (V (main_arg2 : DevRef τ sig))
          (V (main_arg3 : DevRef τ sig)) := by
  after_results_simp
  simp only [ofBuf_toBuf, toBuf_v2, toBuf_v5, toBuf_v9, ofBuf_v1, ofBuf_v4, ofBuf_v8, ofBuf_arg1, ofBuf_arg2, ofBuf_arg3]
  unfold out take inBounds wrapIdx wrapWord col
  rfl

set_option maxRecDepth 8192 in
theorem arg0_eq (V : Valuation τ sig (Elt F)) :
    after ops V (main_arg0 : DevRef τ sig) = V (main_arg0 : DevRef τ sig) := by
  simp only [after_cons, after_nil]
  rfl

set_option maxRecDepth 8192 in
theorem arg1_eq (V : Valuation τ sig (Elt F)) :
    after ops V (main_arg1 : DevRef τ sig) = V (main_arg1 : DevRef τ sig) := by
  simp only [after_cons, after_nil]
  rfl

set_option maxRecDepth 8192 in
theorem arg2_eq (V : Valuation τ sig (Elt F)) :
    after ops V (main_arg2 : DevRef τ sig) = V (main_arg2 : DevRef τ sig) := by
  simp only [after_cons, after_nil]
  rfl

set_option maxRecDepth 8192 in
theorem arg3_eq (V : Valuation τ sig (Elt F)) :
    after ops V (main_arg3 : DevRef τ sig) = V (main_arg3 : DevRef τ sig) := by
  simp only [after_cons, after_nil]
  rfl

/-! ## The run -/

/-- At the compiled mesh, from any memory whose index words are all 0 or 1 (semaphores zero): every weakly fair
    execution of the reference terminates, its result buffer holding the specification's `G` of the four arguments, the
    arguments unchanged. -/
theorem ref_run (m : (ℓ : Loc nD τ sig) → Buf (Elt F) ℓ) (g : Dev nD → PrngReg)
    (h01 : ∀ c : Dev nD, Cert.Spec.Attr01 (m ((c.tc : Thread nD τ).loc main_arg0))) :
    θ_run (defs (F := F)) (onTc (τ := τ) (main (F := F))) ⟨m, fun _ => 0, g⟩ (fun r => ∀ c : Dev nD,
      r.2.mem ((c.tc : Thread nD τ).loc main_v10)
          = Cert.Spec.G (F := F) (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨(h c main_v10).trans ((out_eq _).trans (out_eq_G _ _ _ _ (h01 c))),
        (h c main_arg0).trans (arg0_eq _), (h c main_arg1).trans (arg1_eq _),
        (h c main_arg2).trans (arg2_eq _), (h c main_arg3).trans (arg3_eq _)⟩)
    (run_main m g)

end Cert.RefSide

end
-- ==== Proof.KISetup.lean ====
/-
  The vocabulary shared by the modules about the idealized kernel's run: the program as the launch theorem reads it,
  the resource algebra (the launch handshakes' rounds beside the transfers' counters), the kernel's memrefs in the
  spelling the body table passes them, and a tile's number.
-/
import proofs.«203793_g3813930959492_cont_8to1_b_1292_12_alg».proof.KernelIdeal
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«203793_g3813930959492_cont_8to1_b_1292_12_alg».proof.Proof.Gen.KernelIdeal
import proofs.«203793_g3813930959492_cont_8to1_b_1292_12_alg».proof.Proof.Gen.KernelIdeal.Skeleton
import proofs.«203793_g3813930959492_cont_8to1_b_1292_12_alg».proof.Proof.Spec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra -/

abbrev UH : Type := URounds (GSem nD τ sig) ℕ
abbrev UU : Type := UH × Counters

abbrev MM (F : FTy → Type) : Type := MT nD τ sig (HIx 1) (Elt F) ℕ UU ℕ

abbrev EH : Emb UH (MT nD τ sig (HIx 1) (Elt F) ℕ UU ℕ) := embL

/-! ## The kernel's memrefs, as the body table passes them -/

abbrev aV : Memref sig .scVector .hbm S3x800000 .i32 := Memref.whole main_v0_scv
abbrev w0V : Memref sig .scVector .hbm S20x64 .f32 := Memref.whole main_arg1_scv
abbrev w1V : Memref sig .scVector .hbm S10x64 .f32 := Memref.whole main_arg2_scv
abbrev w2V : Memref sig .scVector .hbm S2x64 .f32 := Memref.whole main_arg3_scv
abbrev oV : Memref sig .scVector .hbm S64x800000 .f32 := Memref.whole main_v1_scv
abbrev sA0 : Memref sig .scVector .vmem S3x640 .i32 := Memref.whole cc0_scratch0
abbrev sA1 : Memref sig .scVector .vmem S3x640 .i32 := Memref.whole cc0_scratch1
abbrev sO0 : Memref sig .scVector .vmem S64x640 .f32 := Memref.whole cc0_scratch2
abbrev sO1 : Memref sig .scVector .vmem S64x640 .f32 := Memref.whole cc0_scratch3
abbrev sW0 : Memref sig .scVector .vmem S2x64 .f32 := Memref.whole cc0_scratch4
abbrev sW1 : Memref sig .scVector .vmem S2x64 .f32 := Memref.whole cc0_scratch5
abbrev sW2 : Memref sig .scVector .vmem S2x64 .f32 := Memref.whole cc0_scratch6
abbrev sT : Memref sig .scVector .vmem S64x16 .f32 := Memref.whole cc0_scratch7

/-- A tile's place: SparseCore `L 0`, vector subcore `L 1`. -/
abbrev cV (L : grid0.Coords) : Fin τ.nSC := (L 0).castLE hcore0
abbrev jV (L : grid0.Coords) : Fin τ.nSub := (L 1).castLE hsub0

/-- The kernel's function at a tile, on the whole arrays and the tile's scratch. -/
abbrev body [FloatOps F] (L : grid0.Coords) :=
  cc0__body (F := F) L aV (Memref.isWhole_whole _) w0V (Memref.isWhole_whole _) w1V (Memref.isWhole_whole _) w2V (Memref.isWhole_whole _)
    oV (Memref.isWhole_whole _) sA0 (Memref.isWhole_whole _) sA1 (Memref.isWhole_whole _) sO0 (Memref.isWhole_whole _) sO1 (Memref.isWhole_whole _)
    sW0 (Memref.isWhole_whole _) sW1 (Memref.isWhole_whole _) sW2 (Memref.isWhole_whole _) sT (Memref.isWhole_whole _)
    cc0_scratch8 cc0_scratch9 cc0_scratch10 cc0_scratch11 cc0_scoped0 cc0_scoped1 cc0_scoped2

end Cert.Proof.KI

end
-- ==== Proof.KIDefs.lean ====
/-
  What one tile is handed and what it hands back, stated over plain arrays.

  Tile `(c, s)` has the number `w = 2 s + c` (0 … 31). The edges are cut in 1250 chunks of 640; the tile works on the
  chunks whose number is `w` modulo 32, so of the result array (64 rows, one column per edge) it owns the columns `e`
  with `(e / 640) % 32 = w`. What it leaves there is, per column `e` and row `j`, the sum of the three weight rows
  the edge's index words name.
-/
import proofs.«203793_g3813930959492_cont_8to1_b_1292_12_alg».proof.Proof.KISetup

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

abbrev thr (d : Dev nD) (L : grid0.Coords) : Thread nD τ := V d (cV L) (jV L)
abbrev aLoc (d : Dev nD) : Loc nD τ sig := (SparseCore.T d).loc main_v0
abbrev w0Loc (d : Dev nD) : Loc nD τ sig := (SparseCore.T d).loc main_arg1
abbrev w1Loc (d : Dev nD) : Loc nD τ sig := (SparseCore.T d).loc main_arg2
abbrev w2Loc (d : Dev nD) : Loc nD τ sig := (SparseCore.T d).loc main_arg3
abbrev oLoc (d : Dev nD) : Loc nD τ sig := (SparseCore.T d).loc main_v1

/-- The tile's number: twice its subcore index plus its SparseCore's. -/
def wid (L : grid0.Coords) : ℕ := (L 1).val * 2 + (L 0).val

omit [FloatOps F] in
theorem wid_lt (L : grid0.Coords) : wid L < 32 := by
  have h0 : (L 0).val < 2 := (L 0).isLt
  have h1 : (L 1).val < 16 := (L 1).isLt
  unfold wid; omega

/-- The columns of the result the tile owns: those of the chunks numbered `wid L` modulo 32. -/
def oRegion (L : grid0.Coords) : Finset S64x800000.Idx :=
  Finset.univ.filter fun idx => ((idx 1 : Fin 800000).val / 640) % 32 = wid L

/-- What the kernel leaves in the result array (64 × 800000, one column per edge) as a function of the transposed
    index array `A` (3 × 800000) and the three weight tables: at row `j`, column `e`,
    `(W0[sel A[0,e], j] + W1[sel A[1,e], j]) + W2[sel A[2,e], j]`. -/
def GT (A : IVec S3x800000 32) (B0 : FVec F S20x64 .f32) (B1 : FVec F S10x64 .f32) (B2 : FVec F S2x64 .f32) :
    FVec F S64x800000 .f32 :=
  fun idx =>
    FloatOps.addf
      (FloatOps.addf
        (B0 (ValueIdx.ix2 ((Cert.Spec.sel (A (ValueIdx.ix2 (0 : Fin 3) (idx 1 : Fin 800000)))).castLE (by decide) : Fin 20) (idx 0 : Fin 64)))
        (B1 (ValueIdx.ix2 ((Cert.Spec.sel (A (ValueIdx.ix2 (1 : Fin 3) (idx 1 : Fin 800000)))).castLE (by decide) : Fin 10) (idx 0 : Fin 64))))
      (B2 (ValueIdx.ix2 (Cert.Spec.sel (A (ValueIdx.ix2 (2 : Fin 3) (idx 1 : Fin 800000))) : Fin 2) (idx 0 : Fin 64)))

/-- The body's obligation at a tile, over explicit resources: a read share `q` of the transposed index array and of
    the three tables, the tile's columns of the result, its eight scratch buffers and seven transfer semaphores at
    zero; it returns the same with the tile's columns at `GT`. -/
def TileCore : Prop :=
  ∀ (d : Dev nD) (L : grid0.Coords) (O : CellTallies nD τ sig (HIx 1)) (W : Waits sig (HIx 1)), (∀ g, O g none = 0) →
  ∀ (q : PosShare TreeShare) (A : Buf (Elt F) (aLoc d)), (∀ i, A i = 0#32 ∨ A i = 1#32) →
  ∀ (B0 : Buf (Elt F) (w0Loc d)) (B1 : Buf (Elt F) (w1Loc d)) (B2 : Buf (Elt F) (w2Loc d)) (o0 : Buf (Elt F) (oLoc d)),
    (iprop(levAts (K (F := F)).L (K (F := F)).lev
        ∗ (aLoc d ↦{q} A) ∗ (w0Loc d ↦{q} B0) ∗ (w1Loc d ↦{q} B1) ∗ (w2Loc d ↦{q} B2)
        ∗ (oLoc d ↦[oRegion L]{fullShare} o0)
        ∗ (∃ f, (thr d L).loc cc0_scratch0 ↦{fullShare} f) ∗ (∃ f, (thr d L).loc cc0_scratch1 ↦{fullShare} f)
        ∗ (∃ f, (thr d L).loc cc0_scratch2 ↦{fullShare} f) ∗ (∃ f, (thr d L).loc cc0_scratch3 ↦{fullShare} f)
        ∗ (∃ f, (thr d L).loc cc0_scratch4 ↦{fullShare} f) ∗ (∃ f, (thr d L).loc cc0_scratch5 ↦{fullShare} f)
        ∗ (∃ f, (thr d L).loc cc0_scratch6 ↦{fullShare} f) ∗ (∃ f, (thr d L).loc cc0_scratch7 ↦{fullShare} f)
        ∗ semVal (thr d L, SemLoc.dma cc0_scratch8.sem) 0 ∗ semVal (thr d L, SemLoc.dma cc0_scratch9.sem) 0
        ∗ semVal (thr d L, SemLoc.dma cc0_scratch10.sem) 0 ∗ semVal (thr d L, SemLoc.dma cc0_scratch11.sem) 0
        ∗ semVal (thr d L, SemLoc.dma cc0_scoped0.sem) 0 ∗ semVal (thr d L, SemLoc.dma cc0_scoped1.sem) 0
        ∗ semVal (thr d L, SemLoc.dma cc0_scoped2.sem) 0
        ∗ owes (thr d L) O W) : sProp 𝕄)
      ⊢ wp frame (wpE (defs₀ (F := F)) 𝒱₀ (thr d L) none) Set.univ (body (F := F) L) fun _ =>
          iprop((aLoc d ↦{q} A) ∗ (w0Loc d ↦{q} B0) ∗ (w1Loc d ↦{q} B1) ∗ (w2Loc d ↦{q} B2)
            ∗ (oLoc d ↦[oRegion L]{fullShare} GT (F := F) A B0 B1 B2)
            ∗ (∃ f, (thr d L).loc cc0_scratch0 ↦{fullShare} f) ∗ (∃ f, (thr d L).loc cc0_scratch1 ↦{fullShare} f)
            ∗ (∃ f, (thr d L).loc cc0_scratch2 ↦{fullShare} f) ∗ (∃ f, (thr d L).loc cc0_scratch3 ↦{fullShare} f)
            ∗ (∃ f, (thr d L).loc cc0_scratch4 ↦{fullShare} f) ∗ (∃ f, (thr d L).loc cc0_scratch5 ↦{fullShare} f)
            ∗ (∃ f, (thr d L).loc cc0_scratch6 ↦{fullShare} f) ∗ (∃ f, (thr d L).loc cc0_scratch7 ↦{fullShare} f)
            ∗ semVal (thr d L, SemLoc.dma cc0_scratch8.sem) 0 ∗ semVal (thr d L, SemLoc.dma cc0_scratch9.sem) 0
            ∗ semVal (thr d L, SemLoc.dma cc0_scratch10.sem) 0 ∗ semVal (thr d L, SemLoc.dma cc0_scratch11.sem) 0
            ∗ semVal (thr d L, SemLoc.dma cc0_scoped0.sem) 0 ∗ semVal (thr d L, SemLoc.dma cc0_scoped1.sem) 0
            ∗ semVal (thr d L, SemLoc.dma cc0_scoped2.sem) 0
            ∗ ∃ W', ⌜∀ p ∈ W', p ∈ W ∨ p.2 = none⌝ ∗ owes (thr d L) O W')

end Cert.Proof.KI

end
-- ==== Proof.KILaunchA.lean ====
/-
  The launch of the idealized kernel, first part: the side conditions of the launch configuration, the transposed index
  array and the two index equations that carry the kernel's result to the stated function, the cut of the result array
  into the 32 tiles' columns, the read shares the tiles are handed, and what the launch handshakes carry.
-/
import proofs.«203793_g3813930959492_cont_8to1_b_1292_12_alg».proof.Proof.KIDefs
import Idealize.ShloMosaic.Lib.ValueLayout

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.Transfers (shareTok shareDrop pointsTo_toks)

variable {F : FTy → Type}

local notation "𝕄" => MT nD τ sig (HIx 1) (Elt F) ℕ UU ℕ

/-! ## The configuration -/

theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- A tile's coordinates from its SparseCore and subcore indices. -/
def coordsV (c : Fin (grid0.bound 0)) (s : Fin (grid0.bound 1)) : grid0.Coords :=
  fun | 0 => c | 1 => s | ⟨_ + 2, h⟩ => absurd h (Nat.not_lt.2 (Nat.le_add_left _ _))

/-- The tile of SparseCore `c`, subcore `i`. -/
def tileL (c : Fin 2) (i : Fin 16) : grid0.Coords := coordsV ⟨c.val, c.isLt⟩ ⟨i.val, i.isLt⟩

theorem wid_tileL (c : Fin 2) (i : Fin 16) : wid (tileL c i) = i.val * 2 + c.val := rfl

/-! ## The transposed index array, and the result read back through the second transpose -/

/-- The index array with its two axes exchanged: entry `(k, e)` is the `k`-th index word of edge `e`. -/
def AT (a : IVec S800000x3 32) : IVec S3x800000 32 := transpose S3x800000 [1, 0] a transposes_S800000x3_S3x800000_1_0

theorem AT_apply (a : IVec S800000x3 32) (k : Fin 3) (e : Fin 800000) : AT a (ix2 k e) = a (ix2 e k) := by
  unfold AT; exact transpose_ix2_apply a _ k e

/-- Its entries are 0 or 1 when the index array's are. -/
theorem AT_01 {a : IVec S800000x3 32} (h : Cert.Spec.Attr01 a) (i : S3x800000.Idx) : AT a i = 0#32 ∨ AT a i = 1#32 := by
  unfold AT transpose; exact h _

/-- Entry `(j, e)` of the kernel's result is entry `(e, j)` of the stated function. -/
theorem GT_AT_apply [FloatOps F] (a : IVec S800000x3 32) (B0 : FVec F S20x64 .f32) (B1 : FVec F S10x64 .f32) (B2 : FVec F S2x64 .f32)
    (j : Fin 64) (e : Fin 800000) :
    GT (F := F) (AT a) B0 B1 B2 (ix2 j e) = Cert.Spec.G (F := F) a B0 B1 B2 (ix2 e j) := by
  unfold GT Cert.Spec.G
  show FloatOps.addf (FloatOps.addf
        (B0 (ix2 ((Cert.Spec.sel (AT a (ix2 (0 : Fin 3) e))).castLE (by decide) : Fin 20) j))
        (B1 (ix2 ((Cert.Spec.sel (AT a (ix2 (1 : Fin 3) e))).castLE (by decide) : Fin 10) j)))
      (B2 (ix2 (Cert.Spec.sel (AT a (ix2 (2 : Fin 3) e)) : Fin 2) j)) = _
  rw [AT_apply, AT_apply, AT_apply]

/-- The kernel's result (one column per edge), transposed back to one row per edge, is the stated function. -/
theorem GT_transpose [FloatOps F] (a : IVec S800000x3 32) (B0 : FVec F S20x64 .f32) (B1 : FVec F S10x64 .f32) (B2 : FVec F S2x64 .f32) :
    transpose S800000x64 [1, 0] (GT (F := F) (AT a) B0 B1 B2) transposes_S64x800000_S800000x64_1_0 = Cert.Spec.G (F := F) a B0 B1 B2 := by
  funext idx
  have e : idx = ix2 (n0 := 800000) (n1 := 64) (idx 0) (idx 1) := eq_ix2 idx
  calc transpose S800000x64 [1, 0] (GT (F := F) (AT a) B0 B1 B2) transposes_S64x800000_S800000x64_1_0 idx
      = transpose S800000x64 [1, 0] (GT (F := F) (AT a) B0 B1 B2) transposes_S64x800000_S800000x64_1_0
          (ix2 (n0 := 800000) (n1 := 64) (idx 0) (idx 1)) := congrArg _ e
    _ = GT (F := F) (AT a) B0 B1 B2 (ix2 (n0 := 64) (n1 := 800000) (idx 1) (idx 0)) :=
        transpose_ix2_apply (a := 64) (b := 800000) _ _ (idx 0) (idx 1)
    _ = Cert.Spec.G (F := F) a B0 B1 B2 (ix2 (n0 := 800000) (n1 := 64) (idx 0) (idx 1)) := GT_AT_apply a B0 B1 B2 (idx 1) (idx 0)
    _ = Cert.Spec.G (F := F) a B0 B1 B2 idx := (congrArg _ e).symm

/-! ## The result array cut into the tiles' columns -/

theorem oRegion_disj {c c' : Fin 2} {i i' : Fin 16} (h : (c, i) ≠ (c', i')) : Disjoint (oRegion (tileL c i)) (oRegion (tileL c' i')) := by
  unfold oRegion
  rw [Finset.disjoint_filter]
  intro x _ h1 h2
  rw [wid_tileL] at h1 h2
  apply h
  have hc := c.isLt; have hc' := c'.isLt
  have e : i.val * 2 + c.val = i'.val * 2 + c'.val := h1.symm.trans h2
  have e1 : c = c' := Fin.ext (by omega)
  have e2 : i = i' := Fin.ext (by omega)
  rw [e1, e2]

theorem oRegion_cover (x : S64x800000.Idx) : ∃ (c : Fin 2) (i : Fin 16), x ∈ oRegion (tileL c i) := by
  have hw : ((x 1 : Fin 800000).val / 640) % 32 < 32 := Nat.mod_lt _ (by decide)
  refine ⟨⟨(((x 1 : Fin 800000).val / 640) % 32) % 2, Nat.mod_lt _ (by decide)⟩, ⟨(((x 1 : Fin 800000).val / 640) % 32) / 2, by omega⟩, ?_⟩
  unfold oRegion
  rw [Finset.mem_filter, wid_tileL]
  refine ⟨Finset.mem_univ _, ?_⟩
  show _ = (((x 1 : Fin 800000).val / 640) % 32) / 2 * 2 + (((x 1 : Fin 800000).val / 640) % 32) % 2
  omega

/-- A whole array as a family of pairwise disjoint parts that cover it, indexed by SparseCore and subcore. -/
theorem pointsTo_nested {ℓ : Loc nD τ sig} {q : PosShare TreeShare} (f : Buf (Elt F) ℓ) (R : Fin 2 → Fin 16 → Finset (Idx ℓ))
    (hd : ∀ c c' i i', (c, i) ≠ (c', i') → Disjoint (R c i) (R c' i')) (hc : ∀ x, ∃ c i, x ∈ R c i) :
    (ℓ ↦{q} f : sProp 𝕄) = bigSep Finset.univ fun c : Fin 2 => bigSep Finset.univ fun i : Fin 16 => ℓ ↦[R c i]{q} f := by
  have hin : ∀ c : Fin 2, (ℓ ↦[Finset.univ.biUnion (R c)]{q} f : sProp 𝕄) = bigSep Finset.univ fun i : Fin 16 => ℓ ↦[R c i]{q} f := fun c =>
    pointsTo_biUnion Finset.univ (R c) fun i _ i' _ hne => hd c c i i' fun e => hne (Prod.mk.inj e).2
  have hout : (ℓ ↦[Finset.univ.biUnion fun c : Fin 2 => Finset.univ.biUnion (R c)]{q} f : sProp 𝕄)
      = bigSep Finset.univ fun c : Fin 2 => ℓ ↦[Finset.univ.biUnion (R c)]{q} f :=
    pointsTo_biUnion Finset.univ (fun c : Fin 2 => Finset.univ.biUnion (R c)) fun c _ c' _ hne => by
      rw [Finset.disjoint_biUnion_left]; intro i _
      rw [Finset.disjoint_biUnion_right]; intro i' _
      exact hd c c' i i' fun e => hne (Prod.mk.inj e).1
  have hcov : (Finset.univ.biUnion fun c : Fin 2 => Finset.univ.biUnion (R c)) = (Finset.univ : Finset (Idx ℓ)) := by
    ext x; simp only [Finset.mem_biUnion, Finset.mem_univ, true_and, iff_true]; exact hc x
  rw [← hcov, hout]
  exact bigSep_congr fun c _ => hin c

/-! ## The read shares -/

/-- The share of an array that tile `(c, i)` reads under: the full share cut once per SparseCore, then once per subcore. -/
def tk (c : Fin 2) (i : Fin 16) : PosShare TreeShare := shareTok (shareTok fullShare 2 c) 16 i

/-- What is left of the full share beside the 32 tiles' shares. -/
def Rem (ℓ : Loc nD τ sig) (f : Buf (Elt F) ℓ) : sProp 𝕄 :=
  iprop((ℓ ↦{shareDrop fullShare 2} f) ∗ bigSep Finset.univ fun c : Fin 2 => ℓ ↦{shareDrop (shareTok fullShare 2 c) 16} f)

theorem toks_eq (ℓ : Loc nD τ sig) (f : Buf (Elt F) ℓ) :
    (ℓ ↦{fullShare} f : sProp 𝕄)
      = iprop((ℓ ↦{shareDrop fullShare 2} f) ∗ (bigSep Finset.univ fun c : Fin 2 => ℓ ↦{shareDrop (shareTok fullShare 2 c) 16} f)
          ∗ bigSep Finset.univ fun c : Fin 2 => bigSep Finset.univ fun i : Fin 16 => ℓ ↦{tk c i} f) := by
  have h1 : (ℓ ↦{fullShare} f : sProp 𝕄)
      = iprop((ℓ ↦{shareDrop fullShare 2} f) ∗ bigSep Finset.univ fun c : Fin 2 => ℓ ↦{shareTok fullShare 2 c} f) :=
    BI.equiv_iff.mp ⟨(pointsTo_toks fullShare 2).1, (pointsTo_toks fullShare 2).2⟩
  have h2 : ∀ c : Fin 2, (ℓ ↦{shareTok fullShare 2 c} f : sProp 𝕄)
      = iprop((ℓ ↦{shareDrop (shareTok fullShare 2 c) 16} f) ∗ bigSep Finset.univ fun i : Fin 16 => ℓ ↦{tk c i} f) := fun c =>
    BI.equiv_iff.mp ⟨(pointsTo_toks (shareTok fullShare 2 c) 16).1, (pointsTo_toks (shareTok fullShare 2 c) 16).2⟩
  rw [h1, bigSep_congr fun c _ => h2 c, bigSep_sep']

theorem toks_split (ℓ : Loc nD τ sig) (f : Buf (Elt F) ℓ) :
    (ℓ ↦{fullShare} f : sProp 𝕄) ⊢ iprop(Rem ℓ f ∗ bigSep Finset.univ fun c : Fin 2 => bigSep Finset.univ fun i : Fin 16 => ℓ ↦{tk c i} f) := by
  rw [toks_eq]; unfold Rem
  iintro ⟨Hd, Hc, Ht⟩
  isplitl [Hd Hc]
  · isplitl [Hd] <;> iassumption
  · iexact Ht

theorem toks_join (ℓ : Loc nD τ sig) (f : Buf (Elt F) ℓ) :
    iprop(Rem ℓ f ∗ bigSep Finset.univ fun c : Fin 2 => bigSep Finset.univ fun i : Fin 16 => ℓ ↦{tk c i} f) ⊢ (ℓ ↦{fullShare} f : sProp 𝕄) := by
  rw [toks_eq]; unfold Rem
  iintro ⟨⟨Hd, Hc⟩, Ht⟩
  isplitl [Hd]; · iexact Hd
  isplitl [Hc] <;> iassumption

/-! ## What the handshakes carry -/

variable [FloatOps F] (m : (ℓ : Loc nD τ sig) → Buf (Elt F) ℓ)

/-- The transposed index array of the launch memory: what @main's first operation leaves in its result. -/
abbrev ATm (d : Dev nD) : Buf (Elt F) (aLoc d) := AT (m ((SparseCore.T d).loc main_arg0))

/-- What the kernel leaves in its result array, from the launch memory. -/
abbrev GTm (d : Dev nD) : Buf (Elt F) (oLoc d) := GT (F := F) (ATm m d) (m (w0Loc d)) (m (w1Loc d)) (m (w2Loc d))

/-- A tile's task: its read shares of the transposed index array and the three tables, and its columns of the result. -/
def goA (d : Dev nD) (c : Fin 2) (i : Fin 16) : sProp 𝕄 :=
  iprop((aLoc d ↦{tk c i} ATm m d) ∗ (w0Loc d ↦{tk c i} m (w0Loc d)) ∗ (w1Loc d ↦{tk c i} m (w1Loc d)) ∗ (w2Loc d ↦{tk c i} m (w2Loc d))
    ∗ (oLoc d ↦[oRegion (tileL c i)]{fullShare} m (oLoc d)))

/-- What it hands back: the same, its columns holding the sums. -/
def tdA (d : Dev nD) (c : Fin 2) (i : Fin 16) : sProp 𝕄 :=
  iprop((aLoc d ↦{tk c i} ATm m d) ∗ (w0Loc d ↦{tk c i} m (w0Loc d)) ∗ (w1Loc d ↦{tk c i} m (w1Loc d)) ∗ (w2Loc d ↦{tk c i} m (w2Loc d))
    ∗ (oLoc d ↦[oRegion (tileL c i)]{fullShare} GTm m d))

instance goA_storable (d : Dev nD) (c : Fin 2) (i : Fin 16) : BI.Storable (upEmb : UEmb _ 𝕄) (goA m d c i) := by unfold goA; infer_instance
instance tdA_storable (d : Dev nD) (c : Fin 2) (i : Fin 16) : BI.Storable (upEmb : UEmb _ 𝕄) (tdA m d c i) := by unfold tdA; infer_instance

/-- The one call: a SparseCore is handed its sixteen tiles' tasks and hands them back done. -/
def P : (K (F := F)).Pay (nD := nD) (Val := Elt F) (Name := ℕ) (U := UU) where
  st := fun q d c => match q with | 0 => bigSep Finset.univ fun i : Fin 16 => goA m d (Fin.cast nCore_zero c) i
  dn := fun q d c => match q with | 0 => bigSep Finset.univ fun i : Fin 16 => tdA m d (Fin.cast nCore_zero c) i
  go := fun q d c i => match q with | 0 => goA m d (Fin.cast nCore_zero c) (Fin.cast nSub_zero i)
  td := fun q d c i => match q with | 0 => tdA m d (Fin.cast nCore_zero c) (Fin.cast nSub_zero i)
  x := fun _ _ => iprop(emp)

instance P_storable : (P (F := F) m).IsStorable where
  st q d c := match q with | 0 => (inferInstance : BI.Storable (upEmb : UEmb _ 𝕄) (bigSep Finset.univ fun i : Fin 16 => goA m d (Fin.cast nCore_zero c) i))
  dn q d c := match q with | 0 => (inferInstance : BI.Storable (upEmb : UEmb _ 𝕄) (bigSep Finset.univ fun i : Fin 16 => tdA m d (Fin.cast nCore_zero c) i))
  go q d c i := match q with | 0 => (inferInstance : BI.Storable (upEmb : UEmb _ 𝕄) (goA m d (Fin.cast nCore_zero c) (Fin.cast nSub_zero i)))
  td q d c i := match q with | 0 => (inferInstance : BI.Storable (upEmb : UEmb _ 𝕄) (tdA m d (Fin.cast nCore_zero c) (Fin.cast nSub_zero i)))

theorem P_st (d : Dev nD) (c : Fin ((K (F := F)).nCore 0)) :
    (P m).st 0 d c = bigSep Finset.univ fun i : Fin 16 => goA m d (Fin.cast nCore_zero c) i := rfl
theorem P_dn (d : Dev nD) (c : Fin ((K (F := F)).nCore 0)) :
    (P m).dn 0 d c = bigSep Finset.univ fun i : Fin 16 => tdA m d (Fin.cast nCore_zero c) i := rfl
theorem P_go (d : Dev nD) (c : Fin ((K (F := F)).nCore 0)) (i : Fin ((K (F := F)).nSub 0)) :
    (P m).go 0 d c i = goA m d (Fin.cast nCore_zero c) (Fin.cast nSub_zero i) := rfl
theorem P_td (d : Dev nD) (c : Fin ((K (F := F)).nCore 0)) (i : Fin ((K (F := F)).nSub 0)) :
    (P m).td 0 d c i = tdA m d (Fin.cast nCore_zero c) (Fin.cast nSub_zero i) := rfl

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's operands are its tiles' tasks as they stand. -/
theorem vecSplit : (K (F := F)).VecSplit' (P m) 0 := by
  intro d c
  rw [P_st, P_dn]
  simp only [P_go, P_td]
  rw [bigSep_tasks (F := F) (fun i => goA m d (Fin.cast nCore_zero c) i), bigSep_tasks (F := F) (fun i => tdA m d (Fin.cast nCore_zero c) i)]
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.KI

end
-- ==== Proof.KILaunchB.lean ====
/-
  The launch of the idealized kernel, second part: a tile's task, from the body's obligation over explicit resources.
  The tile's scoped storage is its eight scratch buffers and seven transfer semaphores beside a rest the body never
  touches; the body's obligation is met with the rest framed.
-/
import proofs.«203793_g3813930959492_cont_8to1_b_1292_12_alg».proof.Proof.KILaunchA

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-! ## Members taken out of a `bigSep` -/

/-- The summands at `n` distinct members of the index set, and the rest. -/
theorem bigSep_take {I : Type} [DecidableEq I] {n : ℕ} (s : Finset I) (Φ : I → sProp 𝕄) (g : Fin n → I)
    (hinj : Function.Injective g) (hmem : ∀ k, g k ∈ s) :
    bigSep s Φ = iprop((bigSep Finset.univ fun k : Fin n => Φ (g k)) ∗ bigSep (s \ Finset.univ.image g) Φ) := by
  rw [SparseCore.bigSep_sdiff_split' (t := Finset.univ.image g) (s := s) (fun x hx => by
      obtain ⟨k, -, rfl⟩ := Finset.mem_image.mp hx; exact hmem k),
    bigSep_image_of_injOn hinj.injOn]

theorem bigSep_fin7 (Φ : Fin 7 → sProp 𝕄) : bigSep Finset.univ Φ = iprop(Φ 0 ∗ Φ 1 ∗ Φ 2 ∗ Φ 3 ∗ Φ 4 ∗ Φ 5 ∗ Φ 6) := by
  rw [show (Finset.univ : Finset (Fin 7)) = {0, 1, 2, 3, 4, 5, 6} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-! ## A tile's scoped storage -/

/-- The kernel's seven transfer semaphores. -/
def semOf : Fin 7 → SemLoc sig :=
  ![.dma cc0_scratch8.sem, .dma cc0_scratch9.sem, .dma cc0_scratch10.sem, .dma cc0_scratch11.sem, .dma cc0_scoped0.sem, .dma cc0_scoped1.sem, .dma cc0_scoped2.sem]

theorem semOf_inj : Function.Injective semOf := by decide
theorem semOf_scoped : ∀ k, (semOf k).isScoped .scVector = true := by decide

/-- The kernel's eight scratch buffers. -/
def scr : Fin 8 → Ref sig .scVector :=
  ![cc0_scratch0, cc0_scratch1, cc0_scratch2, cc0_scratch3, cc0_scratch4, cc0_scratch5, cc0_scratch6, cc0_scratch7]

theorem scr_inj : Function.Injective scr := by decide

section Tile

variable (d : Dev nD) (L : grid0.Coords)

/-- The seven semaphores are among the tile's own scoped cells: they are them, at zero, and the rest. -/
theorem ownSems0_V7 :
    (ownSems0 (thr d L) : sProp 𝕄)
      = iprop((semVal (thr d L, SemLoc.dma cc0_scratch8.sem) 0 ∗ semVal (thr d L, SemLoc.dma cc0_scratch9.sem) 0
            ∗ semVal (thr d L, SemLoc.dma cc0_scratch10.sem) 0 ∗ semVal (thr d L, SemLoc.dma cc0_scratch11.sem) 0
            ∗ semVal (thr d L, SemLoc.dma cc0_scoped0.sem) 0 ∗ semVal (thr d L, SemLoc.dma cc0_scoped1.sem) 0
            ∗ semVal (thr d L, SemLoc.dma cc0_scoped2.sem) 0)
          ∗ bigSep (ownCells (thr d L) \ Finset.univ.image fun k => ((thr d L, semOf k) : GSem nD τ sig)) fun g => semVal g 0) := by
  unfold SparseCore.Cfg.ownSems0
  rw [bigSep_take (F := F) _ _ (fun k => ((thr d L, semOf k) : GSem nD τ sig)) (fun a b e => semOf_inj (Prod.mk.inj e).2)
    (fun k => mem_ownCells.mpr ⟨rfl, semOf_scoped k⟩), bigSep_fin7]
  rfl

/-- The eight scratch buffers are among the tile's own: they are them, at some contents, and the rest. -/
theorem ownBufs_V8 :
    (ownBufs (thr d L) : sProp 𝕄)
      = iprop(((∃ f, (thr d L).loc cc0_scratch0 ↦{fullShare} f) ∗ (∃ f, (thr d L).loc cc0_scratch1 ↦{fullShare} f)
            ∗ (∃ f, (thr d L).loc cc0_scratch2 ↦{fullShare} f) ∗ (∃ f, (thr d L).loc cc0_scratch3 ↦{fullShare} f)
            ∗ (∃ f, (thr d L).loc cc0_scratch4 ↦{fullShare} f) ∗ (∃ f, (thr d L).loc cc0_scratch5 ↦{fullShare} f)
            ∗ (∃ f, (thr d L).loc cc0_scratch6 ↦{fullShare} f) ∗ (∃ f, (thr d L).loc cc0_scratch7 ↦{fullShare} f))
          ∗ bigSep (ownRefs (τ := τ) (sig := sig) (.scVector (cV L) (jV L)) \ Finset.univ.image fun k => (Proc.scVector (cV L) (jV L)).devRef (scr k))
              fun b => iprop(∃ f, ((d, b) : Loc nD τ sig) ↦{fullShare} f)) := by
  unfold SparseCore.Cfg.ownBufs
  rw [bigSep_take (F := F) _ _ (fun k => (Proc.scVector (cV L) (jV L)).devRef (scr k)) (fun a b e => scr_inj (Proc.devRef_injective _ e))
    (fun k => by fin_cases k <;> exact SparseCore.Cfg.mem_ownRefs_of_owner rfl), bigSep_fin8]
  rfl

end Tile

/-! ## The task -/

variable [FloatOps F] (m : (ℓ : Loc nD τ sig) → Buf (Elt F) ℓ)

theorem tile_body (hcore : TileCore (F := F)) (h01 : ∀ c : Dev nD, Cert.Spec.Attr01 (m ((c.tc : Thread nD τ).loc main_arg0)))
    (d : Dev nD) (c : Fin 2) (i : Fin 16) (O : CellTallies nD τ sig (HIx 1)) (W : Waits sig (HIx 1)) (hO : ∀ g, O g none = 0) :
    iprop(levAts (K (F := F)).L (K (F := F)).lev ∗ emp ∗ goA m d c i ∗ scopedBufs (thr d (tileL c i)) ∗ scopedSems0 (thr d (tileL c i))
        ∗ owes (thr d (tileL c i)) O W)
      ⊢ wp frame (wpE (defs₀ (F := F)) 𝒱₀ (thr d (tileL c i)) none) Set.univ (body (F := F) (tileL c i)) fun _ =>
          iprop(tdA m d c i ∗ scopedBufs (thr d (tileL c i)) ∗ scopedSems0 (thr d (tileL c i))
            ∗ ∃ W', ⌜∀ p ∈ W', p ∈ W ∨ p.2 = none⌝ ∗ owes (thr d (tileL c i)) O W') := by
  rw [(K (F := F)).scopedBufs_V facts d (cV (tileL c i)) (jV (tileL c i)),
    SparseCore.Cfg.scopedSems0_V (Val := Elt F) d (cV (tileL c i)) (jV (tileL c i)), ownSems0_V7, ownBufs_V8]
  unfold goA tdA
  iintro ⟨#Hlv, -, ⟨Ha, H0, H1, H2, Ho⟩, ⟨⟨Hb0, Hb1, Hb2, Hb3, Hb4, Hb5, Hb6, Hb7⟩, Hbufs⟩, ⟨⟨Hs0, Hs1, Hs2, Hs3, Hs4, Hs5, Hs6⟩, Hsems⟩, HO⟩
  iapply (wp_wand_r frame _ Set.univ)
  isplitl [Ha H0 H1 H2 Ho Hb0 Hb1 Hb2 Hb3 Hb4 Hb5 Hb6 Hb7 Hs0 Hs1 Hs2 Hs3 Hs4 Hs5 Hs6 HO]
  · iapply (hcore d (tileL c i) O W hO (tk c i) (ATm m d) (AT_01 (h01 d)) (m (w0Loc d)) (m (w1Loc d)) (m (w2Loc d)) (m (oLoc d)))
    isplitr; · iexact Hlv
    isplitl [Ha]; · iexact Ha
    isplitl [H0]; · iexact H0
    isplitl [H1]; · iexact H1
    isplitl [H2]; · iexact H2
    isplitl [Ho]; · iexact Ho
    isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    isplitl [Hb7]; · iexact Hb7
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    iexact HO
  iintro %_ ⟨Ha, H0, H1, H2, Ho, Hb0, Hb1, Hb2, Hb3, Hb4, Hb5, Hb6, Hb7, Hs0, Hs1, Hs2, Hs3, Hs4, Hs5, Hs6, HO⟩
  isplitl [Ha H0 H1 H2 Ho]
  · isplitl [Ha]; · iexact Ha
    isplitl [H0]; · iexact H0
    isplitl [H1]; · iexact H1
    isplitl [H2]; · iexact H2
    iexact Ho
  isplitl [Hb0 Hb1 Hb2 Hb3 Hb4 Hb5 Hb6 Hb7 Hbufs]
  · isplitr [Hbufs]
    · isplitl [Hb0]; · iexact Hb0
      isplitl [Hb1]; · iexact Hb1
      isplitl [Hb2]; · iexact Hb2
      isplitl [Hb3]; · iexact Hb3
      isplitl [Hb4]; · iexact Hb4
      isplitl [Hb5]; · iexact Hb5
      isplitl [Hb6]; · iexact Hb6
      iexact Hb7
    · iexact Hbufs
  isplitl [Hs0 Hs1 Hs2 Hs3 Hs4 Hs5 Hs6 Hsems]
  · isplitr [Hsems]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      iexact Hs6
    · iexact Hsems
  iexact HO

/-! ## The launch theorem's obligation -/

theorem defs₀_vector (c : Fin τ.nSC) (s : Fin τ.nSub) :
    defs₀ (F := F) (.scVector c s) 0 () = SparseCore.onTile hcore0 hsub0 (fun c s => body (F := F) (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hcore : TileCore (F := F)) (h01 : ∀ c : Dev nD, Cert.Spec.Attr01 (m ((c.tc : Thread nD τ).loc main_arg0))) :
    (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m hcore h01 d (Fin.cast nCore_zero c) (Fin.cast nSub_zero i) O W hO).trans (wp_mono frame _ _ fun _ => obl_post)

end Cert.Proof.KI

end
-- ==== Proof.KILaunch.lean ====
/-
  The launch of the idealized kernel, third part: @main on the TensorCore — the index array transposed, the read shares
  and the result's columns dealt to the 32 tiles and gathered back, the result transposed —, what the final memory
  then reads, and the run of the whole program with the result named.
-/
import proofs.«203793_g3813930959492_cont_8to1_b_1292_12_alg».proof.Proof.KILaunchA
import proofs.«203793_g3813930959492_cont_8to1_b_1292_12_alg».proof.Proof.KILaunchB

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.StableHlo (held held_split held_sdiff_result wp_hlo_within)

variable {F : FTy → Type}

local notation "𝕄" => MT nD τ sig (HIx 1) (Elt F) ℕ UU ℕ

variable [FloatOps F] (m : (ℓ : Loc nD τ sig) → Buf (Elt F) ℓ) (ρ : Dev nD → PrngReg)

/-! ## The two host operations -/

abbrev a0' : DevRef τ sig := Proc.devRef .tc (main_arg0 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)

abbrev a0Loc (d : Dev nD) : Loc nD τ sig := (SparseCore.T d).loc main_arg0
abbrev v2Loc (d : Dev nD) : Loc nD τ sig := (SparseCore.T d).loc main_v2

/-- The index array transposed into @main's first value. -/
abbrev op1 : HloOp τ sig (Elt F) :=
  StableHlo.unary main_arg0 main_v0 ((transpose S3x800000 [1, 0] · transposes_S800000x3_S3x800000_1_0) : (⟨S800000x3, .i32⟩ : BufTy).Contents (Elt F) → (⟨S3x800000, .i32⟩ : BufTy).Contents (Elt F))
/-- The kernel's result transposed into @main's result. -/
abbrev op2 : HloOp τ sig (Elt F) :=
  StableHlo.unary main_v1 main_v2 ((transpose S800000x64 [1, 0] · transposes_S64x800000_S800000x64_1_0) : (⟨S64x800000, .f32⟩ : BufTy).Contents (Elt F) → (⟨S800000x64, .f32⟩ : BufTy).Contents (Elt F))

abbrev S1 : Finset (DevRef τ sig) := {a0', v0'}
abbrev S2 : Finset (DevRef τ sig) := {v1', v2'}

omit [FloatOps F] in
theorem hS1 : (op1 (F := F)).bufs ⊆ S1 := show ({a0', v0'} : Finset (DevRef τ sig)) ⊆ S1 by decide
omit [FloatOps F] in
theorem hS2 : (op2 (F := F)).bufs ⊆ S2 := show ({v1', v2'} : Finset (DevRef τ sig)) ⊆ S2 by decide

omit [FloatOps F] in
theorem held_S1 (d : Dev nD) (W : Valuation τ sig (Elt F)) :
    (held (T d) S1 W : sProp 𝕄) = iprop((a0Loc d ↦{fullShare} W a0') ∗ aLoc d ↦{fullShare} W v0') := by
  unfold held S1
  rw [SparseCore.bigSep_insert' (by decide), bigSep_singleton]
omit [FloatOps F] in
theorem held_S2 (d : Dev nD) (W : Valuation τ sig (Elt F)) :
    (held (T d) S2 W : sProp 𝕄) = iprop((oLoc d ↦{fullShare} W v1') ∗ v2Loc d ↦{fullShare} W v2') := by
  unfold held S2
  rw [SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (w0Loc d ↦{fullShare} W main_arg1) ∗ (w1Loc d ↦{fullShare} W main_arg2)
      ∗ (w2Loc d ↦{fullShare} W main_arg3) ∗ (aLoc d ↦{fullShare} W main_v0) ∗ (oLoc d ↦{fullShare} W main_v1) ∗ v2Loc d ↦{fullShare} W main_v2) := by
  unfold unscopedBufs
  rw [show (Finset.univ.filter fun b : Ref sig .tc => ¬ b.isScoped) = {main_arg0, main_arg1, main_arg2, main_arg3, main_v0, main_v1, main_v2} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch valuation; before the second transpose, the kernel's result array at what the tiles left. -/
def V0 (d : Dev nD) : Valuation τ sig (Elt F) := fun b => m (d, b)
def V2 (d : Dev nD) : Valuation τ sig (Elt F) := Function.update (V0 m d) v1' (GTm m d)

theorem V2_v1 (d : Dev nD) : V2 m d v1' = GTm m d := Function.update_self _ _ _
theorem V2_v2 (d : Dev nD) : V2 m d v2' = m (v2Loc d) := Function.update_of_ne (show v2' ≠ v1' by decide) _ _

/-- After the first transpose: the index array unchanged, its transpose in the first value. -/
theorem held_after1 (d : Dev nD) :
    (held (T d) S1 ((op1 (F := F)).result (V0 m d)) : sProp 𝕄) = iprop((a0Loc d ↦{fullShare} m (a0Loc d)) ∗ aLoc d ↦{fullShare} ATm m d) := by
  rw [held_S1, (op1 (F := F)).result_of_not_mem (V0 m d) (b := a0') (show a0' ∉ ({v0'} : Finset (DevRef τ sig)) by decide)]
  rw [show (op1 (F := F)).result (V0 m d) v0' = ATm m d from StableHlo.unary_result main_arg0 main_v0 _ _ _ (V0 m d)]
  rfl

/-- What the second transpose leaves in @main's result. -/
abbrev RES (d : Dev nD) : Buf (Elt F) (v2Loc d) := transpose S800000x64 [1, 0] (GTm m d) transposes_S64x800000_S800000x64_1_0

theorem held_after2 (d : Dev nD) :
    (held (T d) S2 ((op2 (F := F)).result (V2 m d)) : sProp 𝕄) = iprop((oLoc d ↦{fullShare} GTm m d) ∗ v2Loc d ↦{fullShare} RES m d) := by
  rw [held_S2, (op2 (F := F)).result_of_not_mem (V2 m d) (b := v1') (show v1' ∉ ({v2'} : Finset (DevRef τ sig)) by decide), V2_v1]
  rw [show (op2 (F := F)).result (V2 m d) v2' = RES m d from
    (StableHlo.unary_result main_v1 main_v2 _ _ _ (V2 m d)).trans (by rw [V2_v1])]

/-! ## What the call takes for the two SparseCores, and what it hands back -/

theorem st0_eq (d : Dev nD) : (bigSep Finset.univ fun c : Fin ((K (F := F)).nCore 0) => (P m).st 0 d c)
    = iprop((bigSep Finset.univ fun c : Fin 2 => bigSep Finset.univ fun i : Fin 16 => aLoc d ↦{tk c i} ATm m d)
        ∗ (bigSep Finset.univ fun c : Fin 2 => bigSep Finset.univ fun i : Fin 16 => w0Loc d ↦{tk c i} m (w0Loc d))
        ∗ (bigSep Finset.univ fun c : Fin 2 => bigSep Finset.univ fun i : Fin 16 => w1Loc d ↦{tk c i} m (w1Loc d))
        ∗ (bigSep Finset.univ fun c : Fin 2 => bigSep Finset.univ fun i : Fin 16 => w2Loc d ↦{tk c i} m (w2Loc d))
        ∗ bigSep Finset.univ fun c : Fin 2 => bigSep Finset.univ fun i : Fin 16 => oLoc d ↦[oRegion (tileL c i)]{fullShare} m (oLoc d)) := by
  simp only [P_st]
  rw [bigSep_cores (F := F) (fun c => bigSep Finset.univ fun i : Fin 16 => goA m d c i)]
  unfold goA
  simp only [bigSep_sep']

theorem dn0_eq (d : Dev nD) : (bigSep Finset.univ fun c : Fin ((K (F := F)).nCore 0) => (P m).dn 0 d c)
    = iprop((bigSep Finset.univ fun c : Fin 2 => bigSep Finset.univ fun i : Fin 16 => aLoc d ↦{tk c i} ATm m d)
        ∗ (bigSep Finset.univ fun c : Fin 2 => bigSep Finset.univ fun i : Fin 16 => w0Loc d ↦{tk c i} m (w0Loc d))
        ∗ (bigSep Finset.univ fun c : Fin 2 => bigSep Finset.univ fun i : Fin 16 => w1Loc d ↦{tk c i} m (w1Loc d))
        ∗ (bigSep Finset.univ fun c : Fin 2 => bigSep Finset.univ fun i : Fin 16 => w2Loc d ↦{tk c i} m (w2Loc d))
        ∗ bigSep Finset.univ fun c : Fin 2 => bigSep Finset.univ fun i : Fin 16 => oLoc d ↦[oRegion (tileL c i)]{fullShare} GTm m d) := by
  simp only [P_dn]
  rw [bigSep_cores (F := F) (fun c => bigSep Finset.univ fun i : Fin 16 => tdA m d c i)]
  unfold tdA
  simp only [bigSep_sep']

omit [FloatOps F] in
/-- The result array as the 32 tiles' columns. -/
theorem o_tiles (d : Dev nD) (f : Buf (Elt F) (oLoc d)) :
    (oLoc d ↦{fullShare} f : sProp 𝕄) = bigSep Finset.univ fun c : Fin 2 => bigSep Finset.univ fun i : Fin 16 => oLoc d ↦[oRegion (tileL c i)]{fullShare} f :=
  pointsTo_nested f (fun c i => oRegion (tileL c i)) (fun _ _ _ _ h => oRegion_disj h) oRegion_cover

/-! ## @main on the TensorCore -/

/-- What @main leaves the claim: the four arguments at their launch contents, the result at the transposed sums. -/
abbrev FIN (d : Dev nD) : sProp 𝕄 :=
  iprop((a0Loc d ↦{fullShare} m (a0Loc d)) ∗ (w0Loc d ↦{fullShare} m (w0Loc d)) ∗ (w1Loc d ↦{fullShare} m (w1Loc d)) ∗ (w2Loc d ↦{fullShare} m (w2Loc d))
    ∗ v2Loc d ↦{fullShare} RES m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha0, Hw0, Hw1, Hw2, Hv0, Hv1, Hv2⟩, -, -⟩, -⟩
  -- the index array transposed
  iapply (wp_hlo_within 𝒱 (SparseCore.T d) none Set.univ (op := op1) (S := S1) hS1 (V := V0 m d)) $$ [Hb Ha0 Hv0]
  · isplitl [Hb]; · iexact Hb
    rw [held_S1]
    isplitl [Ha0]; · iexact Ha0
    iexact Hv0
  iintro ⟨Hb, Hheld⟩
  ihave Hh := (Entails.of_eq (held_after1 (F := F) m d)) $$ Hheld
  icases Hh with ⟨Ha0, Hv0⟩
  rw [wp_ret]; imodintro
  -- the read shares and the result's columns, per tile
  ihave Hs := (toks_split (F := F) (aLoc d) (ATm m d)) $$ Hv0
  icases Hs with ⟨Rv0, Tv0⟩
  ihave Hs := (toks_split (F := F) (w0Loc d) (m (w0Loc d))) $$ Hw0
  icases Hs with ⟨Rw0, Tw0⟩
  ihave Hs := (toks_split (F := F) (w1Loc d) (m (w1Loc d))) $$ Hw1
  icases Hs with ⟨Rw1, Tw1⟩
  ihave Hs := (toks_split (F := F) (w2Loc d) (m (w2Loc d))) $$ Hw2
  icases Hs with ⟨Rw2, Tw2⟩
  ihave To := (Entails.of_eq (o_tiles (F := F) d (m (oLoc d)))) $$ Hv1
  -- the call
  iapply ((K (F := F)).wp_run (D (F := F)) 𝒱 (EH := EH) (P := P m) κ d 0) $$ [Hst Hb Ha0 Hv2 Rv0 Tv0 Rw0 Tw0 Rw1 Tw1 Rw2 Tw2 To]
  isplitr; · iexact Hctx
  isplitl [Hst]; · iexact Hst
  isplitl [Tv0 Tw0 Tw1 Tw2 To]
  · rw [st0_eq]
    isplitl [Tv0]; · iexact Tv0
    isplitl [Tw0]; · iexact Tw0
    isplitl [Tw1]; · iexact Tw1
    isplitl [Tw2]; · iexact Tw2
    iexact To
  iintro ⟨Hst, Hdn⟩
  ihave Hdn' := (Entails.of_eq (dn0_eq m d)) $$ Hdn
  icases Hdn' with ⟨Tv0, Tw0, Tw1, Tw2, To⟩
  ihave Hv0 := (toks_join (F := F) (aLoc d) (ATm m d)) $$ [Rv0 Tv0]
  · isplitl [Rv0] <;> iassumption
  ihave Hw0 := (toks_join (F := F) (w0Loc d) (m (w0Loc d))) $$ [Rw0 Tw0]
  · isplitl [Rw0] <;> iassumption
  ihave Hw1 := (toks_join (F := F) (w1Loc d) (m (w1Loc d))) $$ [Rw1 Tw1]
  · isplitl [Rw1] <;> iassumption
  ihave Hw2 := (toks_join (F := F) (w2Loc d) (m (w2Loc d))) $$ [Rw2 Tw2]
  · isplitl [Rw2] <;> iassumption
  ihave Hv1 := (Entails.of_eq (o_tiles (F := F) d (GTm m d)).symm) $$ To
  -- the result transposed
  iapply (wp_hlo_within 𝒱 (SparseCore.T d) none Set.univ (op := op2) (S := S2) hS2 (V := V2 m d)) $$ [Hb Hv1 Hv2]
  · isplitl [Hb]; · iexact Hb
    rw [held_S2, V2_v1, V2_v2]
    isplitl [Hv1]; · iexact Hv1
    iexact Hv2
  iintro ⟨Hb, Hheld⟩
  ihave Hh := (Entails.of_eq (held_after2 (F := F) m d)) $$ Hheld
  icases Hh with ⟨-, Hv2⟩
  rw [wp_ret]; imodintro; imodintro
  isplitl [Hst]; · iexact Hst
  isplitl [Ha0]; · iexact Ha0
  isplitl [Hw0]; · iexact Hw0
  isplitl [Hw1]; · iexact Hw1
  isplitl [Hw2]; · iexact Hw2
  iexact Hv2

/-! ## What the final memory reads -/

def fq (d : Dev nD) (s' : Phys nD τ sig (Elt F)) : Prop :=
  s'.mem.mem (v2Loc d) = RES m d ∧ s'.mem.mem (a0Loc d) = m (a0Loc d) ∧ s'.mem.mem (w0Loc d) = m (w0Loc d)
    ∧ s'.mem.mem (w1Loc d) = m (w1Loc d) ∧ s'.mem.mem (w2Loc d) = m (w2Loc d)

theorem hfin (d : Dev nD) (s' : Phys nD τ sig (Elt F)) : iprop(FIN m d ∗ SI s') ⊢ (⌜fq m d s'⌝ : sProp 𝕄) := by
  iintro ⟨⟨Ha0, Hw0, Hw1, Hw2, Hv2⟩, HSI⟩
  ihave H := (persistent_entails_right (SI_pointsTo_agree (st := s') (ℓ := a0Loc d) (I := Finset.univ) (q := fullShare) (f := m (a0Loc d)))) $$ [HSI Ha0]
  · isplitl [HSI] <;> iassumption
  icases H with ⟨%h1, HSI, -⟩
  ihave H := (persistent_entails_right (SI_pointsTo_agree (st := s') (ℓ := w0Loc d) (I := Finset.univ) (q := fullShare) (f := m (w0Loc d)))) $$ [HSI Hw0]
  · isplitl [HSI] <;> iassumption
  icases H with ⟨%h2, HSI, -⟩
  ihave H := (persistent_entails_right (SI_pointsTo_agree (st := s') (ℓ := w1Loc d) (I := Finset.univ) (q := fullShare) (f := m (w1Loc d)))) $$ [HSI Hw1]
  · isplitl [HSI] <;> iassumption
  icases H with ⟨%h3, HSI, -⟩
  ihave H := (persistent_entails_right (SI_pointsTo_agree (st := s') (ℓ := w2Loc d) (I := Finset.univ) (q := fullShare) (f := m (w2Loc d)))) $$ [HSI Hw2]
  · isplitl [HSI] <;> iassumption
  icases H with ⟨%h4, HSI, -⟩
  ihave H := (SI_pointsTo_agree (st := s') (ℓ := v2Loc d) (I := Finset.univ) (q := fullShare) (f := RES m d)) $$ [HSI Hv2]
  · isplitl [HSI] <;> iassumption
  icases H with %h5
  ipureintro
  exact ⟨funext fun i => h5 i (Finset.mem_univ i), funext fun i => h1 i (Finset.mem_univ i), funext fun i => h2 i (Finset.mem_univ i),
    funext fun i => h3 i (Finset.mem_univ i), funext fun i => h4 i (Finset.mem_univ i)⟩

/-! ## The program's run -/

theorem run_main [∀ e, Nonempty (Elt F e)] (hcore : TileCore (F := F)) (m : (ℓ : Loc nD τ sig) → Buf (Elt F) ℓ) (ρ : Dev nD → PrngReg)
    (h01 : ∀ c : Dev nD, Cert.Spec.Attr01 (m ((c.tc : Thread nD τ).loc main_arg0))) :
    θ_run (Cert.KernelIdeal.defs (F := F)) (Cert.KernelIdeal.threads (F := F)) ⟨m, fun _ => 0, ρ⟩ (fun r => ∀ c : Dev nD,
        r.2.mem ((c.tc : Thread nD τ).loc main_v2) = Cert.Spec.G (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3)) :=
  SparseCore.Cfg.θ_run_sc (K := K (F := F)) (D := D (F := F)) (𝒱 := 𝒱) (EH := EH) (P := P m) facts v₀
    (fun q hq => match q with | 0 => nomatch hq)
    (fun q _ => match q with | 0 => tileObl m hcore h01)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _
    (fun s' h c => ⟨(h c).1.trans (GT_transpose (F := F) _ _ _ _), (h c).2.1, (h c).2.2.1, (h c).2.2.2.1, (h c).2.2.2.2⟩)

end Cert.Proof.KI

end
-- ==== Proof.KISets.lean ====
/-
  The sets of result columns a tile moves through, and the program's slices of the two big arrays.
-/
import proofs.«203793_g3813930959492_cont_8to1_b_1292_12_alg».proof.Proof.KIDefs

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The 640 columns of chunk `n` of the result array. -/
def chunkSet (n : ℕ) : Finset S64x800000.Idx := Finset.univ.filter fun idx => (idx 1 : Fin 800000).val / 640 = n

/-- The tile's columns in its chunks numbered `t` and later (chunk `t` of the tile is chunk `wid L + 32 t` of the array). -/
def todoFrom (L : grid0.Coords) (t : ℕ) : Finset S64x800000.Idx :=
  Finset.univ.filter fun idx => ((idx 1 : Fin 800000).val / 640) % 32 = wid L ∧ t ≤ ((idx 1 : Fin 800000).val / 640) / 32

/-- The tile's columns in its chunks numbered below `t`. -/
def doneUpto (L : grid0.Coords) (t : ℕ) : Finset S64x800000.Idx :=
  Finset.univ.filter fun idx => ((idx 1 : Fin 800000).val / 640) % 32 = wid L ∧ ((idx 1 : Fin 800000).val / 640) / 32 < t

/-- A 64 × 640 slice of the result array at the offsets `off`, as the program slices it. -/
abbrev oSl (off : Fin 2 → ℕ) (h : ∀ a, off a + S64x640.size a ≤ S64x800000.size a) : Memref sig .scVector .hbm S64x640 .f32 :=
  (oV : Memref sig .scVector .hbm S64x800000 .f32).slice (Rect.unit (s := S64x800000) off S64x640.size h) (fun _ => rfl)

/-- A 3 × 640 slice of the transposed index array at the offsets `off`, as the program slices it. -/
abbrev aSl (off : Fin 2 → ℕ) (h : ∀ a, off a + S3x640.size a ≤ S3x800000.size a) : Memref sig .scVector .hbm S3x640 .i32 :=
  (aV : Memref sig .scVector .hbm S3x800000 .i32).slice (Rect.unit (s := S3x800000) off S3x640.size h) (fun _ => rfl)

end Cert.Proof.KI

end
-- ==== Proof.KIChk.lean ====
import proofs.«203793_g3813930959492_cont_8to1_b_1292_12_alg».proof.Proof.KIDefs

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The three index words of a group, each 0 or 1, make a table column number below 8; with a row number below 64 the
    indexed load's side condition holds. -/
theorem chk_pay1 (l0 l1 l2 : Vec F S1x16 .i32) (h0 : ∀ y, l0 y = 0#32 ∨ l0 y = 1#32) (h1 : ∀ y, l1 y = 0#32 ∨ l1 y = 1#32)
    (h2 : ∀ y, l2 y = 0#32 ∨ l2 y = 1#32) (j : ℕ) (hj : j < 64) :
    ∀ a x, ((![broadcast S16 (BitVec.ofNat 32 j), k0_pay1 (F := F) l0 l1 l2] : Fin 2 → IVec S16 32) a x).toNat < S64x16.size a := by
  intro a x
  match a with
  | 0 =>
    show (BitVec.ofNat 32 j).toNat < 64
    rw [BitVec.toNat_ofNat]; exact lt_of_le_of_lt (Nat.mod_le _ _) hj
  | 1 =>
    show (IntOp.addi (IntOp.addi (IntOp.muli (l0 _) 4#32) (IntOp.muli (l1 _) 2#32)) (l2 _)).toNat < 16
    rcases h0 (Shape.reshapeEquiv shapeCasts_S1x16_S16 x) with e0 | e0 <;> rcases h1 (Shape.reshapeEquiv shapeCasts_S1x16_S16 x) with e1 | e1 <;>
      rcases h2 (Shape.reshapeEquiv shapeCasts_S1x16_S16 x) with e2 | e2 <;> rw [e0, e1, e2] <;> decide

omit [FloatOps F] in
/-- A 16-word load out of an index scratch whose words are all 0 or 1 reads words that are 0 or 1. -/
theorem rd01_A0 (d : Dev nD) (cc : Fin τ.nSC) (ii : Fin τ.nSub) (AA : Buf (Elt F) ((sA0 : Memref sig .scVector .vmem S3x640 .i32).view.loc (V d cc ii)))
    (hAA : ∀ i, AA i = 0#32 ∨ AA i = 1#32) (off : Fin 2 → Nat) (h : ∀ a, off a + S1x16.size a ≤ S3x640.size a) :
    ∀ y : S1x16.Idx, (sA0 : Memref sig .scVector .vmem S3x640 .i32).view.readAt (Elt F) (Rect.unit (s := S3x640) off S1x16.size h).toLoadRect AA y = 0#32
      ∨ (sA0 : Memref sig .scVector .vmem S3x640 .i32).view.readAt (Elt F) (Rect.unit (s := S3x640) off S1x16.size h).toLoadRect AA y = 1#32 := by
  intro y
  have e : (sA0 : Memref sig .scVector .vmem S3x640 .i32).view.readAt (Elt F) (Rect.unit (s := S3x640) off S1x16.size h).toLoadRect AA y
      = AA ((sA0 : Memref sig .scVector .vmem S3x640 .i32).view.emb ((Rect.unit (s := S3x640) off S1x16.size h).toLoadRect.idx y)) :=
    (View.read_apply _ _).trans (cast_eq _ _)
  rw [e]; exact hAA _

omit [FloatOps F] in
/-- A 16-word load out of an index scratch whose words are all 0 or 1 reads words that are 0 or 1. -/
theorem rd01_A1 (d : Dev nD) (cc : Fin τ.nSC) (ii : Fin τ.nSub) (AA : Buf (Elt F) ((sA1 : Memref sig .scVector .vmem S3x640 .i32).view.loc (V d cc ii)))
    (hAA : ∀ i, AA i = 0#32 ∨ AA i = 1#32) (off : Fin 2 → Nat) (h : ∀ a, off a + S1x16.size a ≤ S3x640.size a) :
    ∀ y : S1x16.Idx, (sA1 : Memref sig .scVector .vmem S3x640 .i32).view.readAt (Elt F) (Rect.unit (s := S3x640) off S1x16.size h).toLoadRect AA y = 0#32
      ∨ (sA1 : Memref sig .scVector .vmem S3x640 .i32).view.readAt (Elt F) (Rect.unit (s := S3x640) off S1x16.size h).toLoadRect AA y = 1#32 := by
  intro y
  have e : (sA1 : Memref sig .scVector .vmem S3x640 .i32).view.readAt (Elt F) (Rect.unit (s := S3x640) off S1x16.size h).toLoadRect AA y
      = AA ((sA1 : Memref sig .scVector .vmem S3x640 .i32).view.emb ((Rect.unit (s := S3x640) off S1x16.size h).toLoadRect.idx y)) :=
    (View.read_apply _ _).trans (cast_eq _ _)
  rw [e]; exact hAA _

end Cert.Proof.KI

end
-- ==== Proof.KIGather.lean ====
/-
  What one pass over a chunk leaves in a tile's output scratch: for each of the chunk's 640 edges the table column its
  three index words name, copied row by row.
-/
import proofs.«203793_g3813930959492_cont_8to1_b_1292_12_alg».proof.Proof.KIChk

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The table column that the three index words in column `e` of an index scratch name: `4 a0 + 2 a1 + a2` as the
    kernel computes it on 32-bit words (below 8 when the words are 0 or 1; cut to the table's 16 columns otherwise). -/
def kcol (AA : IVec S3x640 32) (e : Fin 640) : Fin 16 :=
  ⟨(IntOp.addi (IntOp.addi (IntOp.muli (AA (ValueIdx.ix2 (0 : Fin 3) e)) 4#32) (IntOp.muli (AA (ValueIdx.ix2 (1 : Fin 3) e)) 2#32))
      (AA (ValueIdx.ix2 (2 : Fin 3) e))).toNat % 16, Nat.mod_lt _ (by decide)⟩

/-- The output scratch after a pass: row `j`, column `e` holds the table's entry `(j, kcol AA e)`. -/
def gathered (AA : IVec S3x640 32) (TT : FVec F S64x16 .f32) : FVec F S64x640 .f32 :=
  fun y => TT (ValueIdx.ix2 (y 0 : Fin 64) (kcol AA (y 1 : Fin 640)))

end Cert.Proof.KI

end
-- ==== Proof.KIInv.lean ====
/-
  The state of a tile between two rounds of its pair loop: which copies are under way, on which semaphore, carrying what.

  Chunk `i` of the tile (`i` = 0 … 39) is chunk `wid L + 32 i` of the arrays, when that is below 1250. Even chunks go
  through the first index scratch and the first output scratch, odd ones through the second pair. Before round `p`
  (`p` = 0 … 19): the copy-in of chunk `2p+1` is under way (if that chunk exists); the copy-out of chunk `2p` is under
  way; so is the copy-out of chunk `2p-1` when `p ≥ 1`; the chunks below `2p-1` have come back at their final
  contents and the chunks above `2p` have not been touched.
-/
import proofs.«203793_g3813930959492_cont_8to1_b_1292_12_alg».proof.Proof.KISets
import proofs.«203793_g3813930959492_cont_8to1_b_1292_12_alg».proof.Proof.KIGather

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The offsets of the tile's chunk `i` in the big arrays: row 0, column `640 (wid L + 32 i)`, in the form the
    printed offset functions reduce to. -/
def offI (L : grid0.Coords) (i : ℕ) : Fin 2 → ℕ := ![0, 1280 * (L 1).val + 640 * (L 0).val + 20480 * i]

omit [FloatOps F] in
theorem offI_inbO (L : grid0.Coords) (i : ℕ) (h : wid L + 32 * i < 1250) : ∀ a, offI L i a + S64x640.size a ≤ S64x800000.size a := by
  intro a
  match a with
  | 0 => show 0 + 64 ≤ 64; omega
  | 1 => show 1280 * (L 1).val + 640 * (L 0).val + 20480 * i + 640 ≤ 800000; unfold wid at h; omega

omit [FloatOps F] in
theorem offI_inbA (L : grid0.Coords) (i : ℕ) (h : wid L + 32 * i < 1250) : ∀ a, offI L i a + S3x640.size a ≤ S3x800000.size a := by
  intro a
  match a with
  | 0 => show 0 + 3 ≤ 3; omega
  | 1 => show 1280 * (L 1).val + 640 * (L 0).val + 20480 * i + 640 ≤ 800000; unfold wid at h; omega

/-- The tile's chunk `i` of the result array and of the transposed index array, as slices. -/
abbrev oCh (L : grid0.Coords) (i : ℕ) (h : wid L + 32 * i < 1250) : Memref sig .scVector .hbm S64x640 .f32 := oSl (offI L i) (offI_inbO L i h)
abbrev aCh (L : grid0.Coords) (i : ℕ) (h : wid L + 32 * i < 1250) : Memref sig .scVector .hbm S3x640 .i32 := aSl (offI L i) (offI_inbA L i h)

section Inv

variable (d : Dev nD) (L : grid0.Coords) (q : PosShare TreeShare) (A : Buf (Elt F) (aLoc d))
  (B0 : Buf (Elt F) (w0Loc d)) (B1 : Buf (Elt F) (w1Loc d)) (B2 : Buf (Elt F) (w2Loc d))
  (TT : Buf (Elt F) ((thr d L).loc cc0_scratch7)) (O : CellTallies nD τ sig (HIx 1)) (W : Waits sig (HIx 1))

omit [FloatOps F] in
/-- What a copy-in lands: the slice's words. -/
def payA (off : Fin 2 → ℕ) (h : ∀ a, off a + S3x640.size a ≤ S3x800000.size a) : S3x640.Idx → Elt F .i32 :=
  ReadAs.same.apply (View.read (Elt F) (aSl off h).view A)

/-- The copy-in of chunk `i` into the FIRST index scratch, under way: its landing hands over the scratch at the chunk's
    words and the lent columns of the index array; beside it, the rest of the index array. -/
def InFl0 (off : Fin 2 → ℕ) (h : ∀ a, off a + S3x640.size a ≤ S3x800000.size a) : sProp 𝕄 :=
  iprop((∃ fA : Buf (Elt F) ((thr d L).loc cc0_scratch0),
      Transfers.Flight countersEmb (thr d L) (SemLoc.dma cc0_scratch8.sem) default 61440
        iprop(((sA0 : Memref sig .scVector .vmem S3x640 .i32).view.loc (thr d L) ↦{fullShare}
              View.write (Elt F) (sA0 : Memref sig .scVector .vmem S3x640 .i32).view fA (payA d A off h) Finset.univ)
          ∗ ((aV : Memref sig .scVector .hbm S3x800000 .i32).view.loc (thr d L) ↦[(aSl off h).view.set]{q} A)))
    ∗ ((aV : Memref sig .scVector .hbm S3x800000 .i32).view.loc (thr d L) ↦[Finset.univ \ (aSl off h).view.set]{q} A))

/-- The same into the SECOND index scratch. -/
def InFl1 (off : Fin 2 → ℕ) (h : ∀ a, off a + S3x640.size a ≤ S3x800000.size a) : sProp 𝕄 :=
  iprop((∃ fA : Buf (Elt F) ((thr d L).loc cc0_scratch1),
      Transfers.Flight countersEmb (thr d L) (SemLoc.dma cc0_scratch9.sem) default 61440
        iprop(((sA1 : Memref sig .scVector .vmem S3x640 .i32).view.loc (thr d L) ↦{fullShare}
              View.write (Elt F) (sA1 : Memref sig .scVector .vmem S3x640 .i32).view fA (payA d A off h) Finset.univ)
          ∗ ((aV : Memref sig .scVector .hbm S3x800000 .i32).view.loc (thr d L) ↦[(aSl off h).view.set]{q} A)))
    ∗ ((aV : Memref sig .scVector .hbm S3x800000 .i32).view.loc (thr d L) ↦[Finset.univ \ (aSl off h).view.set]{q} A))

/-- The copy-out of chunk `i` from the FIRST output scratch, under way: its landing hands over the chunk's columns of
    the result at their final contents and the scratch. -/
def OutFl0 (off : Fin 2 → ℕ) (h : ∀ a, off a + S64x640.size a ≤ S64x800000.size a) : sProp 𝕄 :=
  iprop(∃ AA : Buf (Elt F) ((thr d L).loc cc0_scratch0),
    Transfers.Flight countersEmb (thr d L) (SemLoc.dma cc0_scratch10.sem) default 1310720
        iprop(((oSl off h).view.loc (thr d L) ↦[(oSl off h).view.set]{fullShare} GT (F := F) A B0 B1 B2)
          ∗ ((sO0 : Memref sig .scVector .vmem S64x640 .f32).view.loc (thr d L) ↦[(sO0 : Memref sig .scVector .vmem S64x640 .f32).view.set]{fullShare} gathered (F := F) AA TT))
      ∗ ((sO0 : Memref sig .scVector .vmem S64x640 .f32).view.loc (thr d L) ↦[Finset.univ \ (sO0 : Memref sig .scVector .vmem S64x640 .f32).view.set]{fullShare} gathered (F := F) AA TT))

/-- The same from the SECOND output scratch. -/
def OutFl1 (off : Fin 2 → ℕ) (h : ∀ a, off a + S64x640.size a ≤ S64x800000.size a) : sProp 𝕄 :=
  iprop(∃ AA : Buf (Elt F) ((thr d L).loc cc0_scratch1),
    Transfers.Flight countersEmb (thr d L) (SemLoc.dma cc0_scratch11.sem) default 1310720
        iprop(((oSl off h).view.loc (thr d L) ↦[(oSl off h).view.set]{fullShare} GT (F := F) A B0 B1 B2)
          ∗ ((sO1 : Memref sig .scVector .vmem S64x640 .f32).view.loc (thr d L) ↦[(sO1 : Memref sig .scVector .vmem S64x640 .f32).view.set]{fullShare} gathered (F := F) AA TT))
      ∗ ((sO1 : Memref sig .scVector .vmem S64x640 .f32).view.loc (thr d L) ↦[Finset.univ \ (sO1 : Memref sig .scVector .vmem S64x640 .f32).view.set]{fullShare} gathered (F := F) AA TT))

/-- The second index scratch and its semaphore at rest, the index array whole. -/
def InRest1 : sProp 𝕄 :=
  iprop((∃ f, (sA1 : Memref sig .scVector .vmem S3x640 .i32).view.loc (thr d L) ↦{fullShare} f)
    ∗ semVal (thr d L, SemLoc.dma cc0_scratch9.sem) 0
    ∗ ((aV : Memref sig .scVector .hbm S3x800000 .i32).view.loc (thr d L) ↦{q} A))

/-- The second output scratch and its semaphore at rest. -/
def OutRest1 : sProp 𝕄 :=
  iprop((∃ f, (sO1 : Memref sig .scVector .vmem S64x640 .f32).view.loc (thr d L) ↦{fullShare} f)
    ∗ semVal (thr d L, SemLoc.dma cc0_scratch11.sem) 0)

/-- What every round keeps as it is: the table, the first index scratch at rest, the wait evidence, what the tile owes. -/
def Common : sProp 𝕄 :=
  iprop(Transfers.MayWaits (thr d L) (none : HIx 1) O
    ∗ ((sT : Memref sig .scVector .vmem S64x16 .f32).view.loc (thr d L) ↦{fullShare} TT)
    ∗ (∃ f, (sA0 : Memref sig .scVector .vmem S3x640 .i32).view.loc (thr d L) ↦{fullShare} f)
    ∗ semVal (thr d L, SemLoc.dma cc0_scratch8.sem) 0
    ∗ ∃ W', ⌜∀ x ∈ W', x ∈ W ∨ x.2 = none⌝ ∗ owes (thr d L) O W')

/-- Before round `p` (`p ≤ 19`). The copies under way are named by the offsets of their slices, equal to the chunk's. -/
def headInv (p : ℕ) : sProp 𝕄 :=
  iprop(Common d L TT O W
    ∗ (if wid L + 32 * (2 * p + 1) < 1250 then iprop(∃ off h, ⌜off = offI L (2 * p + 1)⌝ ∗ InFl1 d L q A off h) else InRest1 d L q A)
    ∗ (∃ off h, ⌜off = offI L (2 * p)⌝ ∗ OutFl0 d L A B0 B1 B2 TT off h)
    ∗ (if p = 0 then OutRest1 d L else iprop(∃ off h, ⌜off = offI L (2 * p - 1)⌝ ∗ OutFl1 d L A B0 B1 B2 TT off h))
    ∗ (∃ f, oLoc d ↦[todoFrom L (2 * p + 1)]{fullShare} f)
    ∗ (oLoc d ↦[doneUpto L (2 * p - 1)]{fullShare} GT (F := F) A B0 B1 B2))

/-- After the last round: the last even chunk (38) and the last odd chunk (37, or 39 for the two tiles that have one)
    are on their way out; everything below has come back. -/
def exitInv : sProp 𝕄 :=
  iprop(Common d L TT O W
    ∗ InRest1 d L q A
    ∗ (∃ off h, ⌜off = offI L 38⌝ ∗ OutFl0 d L A B0 B1 B2 TT off h)
    ∗ (∃ (j lo : ℕ) (off : Fin 2 → ℕ) (h : ∀ a, off a + S64x640.size a ≤ S64x800000.size a),
        ⌜((j = 37 ∧ lo = 37) ∨ (j = 39 ∧ lo = 38)) ∧ 1250 ≤ wid L + 32 * (lo + 2) ∧ wid L + 32 * j < 1250 ∧ off = offI L j⌝
        ∗ OutFl1 d L A B0 B1 B2 TT off h
        ∗ (oLoc d ↦[doneUpto L lo]{fullShare} GT (F := F) A B0 B1 B2)))

/-- The pair loop's invariant. -/
def pairInv (p : ℕ) (_ : BitVec 32) : sProp 𝕄 :=
  if p < 20 then headInv d L q A B0 B1 B2 TT O W p else exitInv d L q A B0 B1 B2 TT O W

end Inv

end Cert.Proof.KI

end
-- ==== Proof.KIIface.lean ====
/-
  Two statements the modules about a tile's run share: what it means for a tile's scratch to hold the lookup table,
  and the pair loop as one step from the state before its first round to the state after its last.
-/
import proofs.«203793_g3813930959492_cont_8to1_b_1292_12_alg».proof.Proof.KIInv

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The scratch holds the lookup table: column `r < 8`, row `j` is `(W0[r/4 % 2, j] + W1[r/2 % 2, j]) + W2[r % 2, j]`. -/
def IsTable (B0 : FVec F S20x64 .f32) (B1 : FVec F S10x64 .f32) (B2 : FVec F S2x64 .f32) (TT : FVec F S64x16 .f32) : Prop :=
  ∀ (j : Fin 64) (r : Fin 16), r.val < 8 →
    TT (ValueIdx.ix2 j r) = FloatOps.addf
      (FloatOps.addf (B0 (ValueIdx.ix2 (⟨r.val / 4 % 2, by omega⟩ : Fin 20) j)) (B1 (ValueIdx.ix2 (⟨r.val / 2 % 2, by omega⟩ : Fin 10) j)))
      (B2 (ValueIdx.ix2 (⟨r.val % 2, by omega⟩ : Fin 2) j))

/-- The pair loop, as a step of a run: from the state before round 0, the rest of the program runs from the state after
    round 19. -/
def PairLoop : Prop :=
  ∀ (d : Dev nD) (L : grid0.Coords) (q : PosShare TreeShare) (A : Buf (Elt F) (aLoc d)), (∀ i, A i = 0#32 ∨ A i = 1#32) →
  ∀ (B0 : Buf (Elt F) (w0Loc d)) (B1 : Buf (Elt F) (w1Loc d)) (B2 : Buf (Elt F) (w2Loc d)) (TT : Buf (Elt F) ((thr d L).loc cc0_scratch7)),
    IsTable (F := F) B0 B1 B2 TT →
  ∀ (O : CellTallies nD τ sig (HIx 1)) (W : Waits sig (HIx 1)), (∀ g, O g none = 0) →
  ∀ (α : Type) (k : BitVec 32 → Prog (TpuEff nD τ sig (Elt F) Λ₀ (.scVector (cV L) (jV L))) α) (Q : α → sProp 𝕄),
    (iprop(pairInv d L q A B0 B1 B2 TT O W 0 0#32
        ∗ (∀ acc, pairInv d L q A B0 B1 B2 TT O W 20 acc -∗ wp frame (wpE (defs₀ (F := F)) 𝒱₀ (thr d L) none) Set.univ (k acc) Q)) : sProp 𝕄)
      ⊢ wp frame (wpE (defs₀ (F := F)) 𝒱₀ (thr d L) none) Set.univ
          (Scf.Loop.for k0_t2_loop k0_t2_ok 0#32 (k0_t2_body (F := F) L aV (Memref.isWhole_whole _) w0V (Memref.isWhole_whole _) w1V (Memref.isWhole_whole _) w2V (Memref.isWhole_whole _) oV (Memref.isWhole_whole _) sA0 (Memref.isWhole_whole _) sA1 (Memref.isWhole_whole _) sO0 (Memref.isWhole_whole _) sO1 (Memref.isWhole_whole _) sW0 (Memref.isWhole_whole _) sW1 (Memref.isWhole_whole _) sW2 (Memref.isWhole_whole _) sT (Memref.isWhole_whole _) cc0_scratch8 cc0_scratch9 cc0_scratch10 cc0_scratch11 cc0_scoped0 cc0_scoped1 cc0_scoped2) >>= k) Q

end Cert.Proof.KI

end
-- ==== Proof.KIChunks.lean ====
/-
  Set algebra over the result array's columns.

  A tile numbered `w` works through the chunks `w, w + 32, w + 64, …` (each 640 columns; 1250 chunks in all). Its columns
  not yet written (`todoFrom L t`: chunks `t` and later of the tile) lose chunk `w + 32 t` and become `todoFrom L (t + 1)`;
  its columns already written (`doneUpto L t`) gain that chunk and become `doneUpto L (t + 1)`. Before the first chunk
  the former is the tile's whole region and the latter is empty; once `w + 32 t` passes the last chunk it is the other
  way round. All of it is arithmetic on the column's chunk number `c = e / 640 < 1250`: `c % 32 = w` and `c / 32`.
-/
import proofs.«203793_g3813930959492_cont_8to1_b_1292_12_alg».proof.Proof.KISets

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## Membership, and a column's chunk number -/

/-- A column's chunk number is below 1250. -/
theorem chunk_lt (idx : S64x800000.Idx) : (idx 1 : Fin 800000).val / 640 < 1250 := by
  have h : (idx 1 : Fin 800000).val < 800000 := (idx 1 : Fin 800000).isLt
  omega

theorem mem_chunkSet {n : ℕ} {idx : S64x800000.Idx} : idx ∈ chunkSet n ↔ (idx 1 : Fin 800000).val / 640 = n := by
  unfold chunkSet
  rw [Finset.mem_filter]
  exact ⟨fun h => h.2, fun h => ⟨Finset.mem_univ _, h⟩⟩

theorem mem_todoFrom {L : grid0.Coords} {t : ℕ} {idx : S64x800000.Idx} :
    idx ∈ todoFrom L t ↔ ((idx 1 : Fin 800000).val / 640) % 32 = wid L ∧ t ≤ ((idx 1 : Fin 800000).val / 640) / 32 := by
  unfold todoFrom
  rw [Finset.mem_filter]
  exact ⟨fun h => h.2, fun h => ⟨Finset.mem_univ _, h⟩⟩

theorem mem_doneUpto {L : grid0.Coords} {t : ℕ} {idx : S64x800000.Idx} :
    idx ∈ doneUpto L t ↔ ((idx 1 : Fin 800000).val / 640) % 32 = wid L ∧ ((idx 1 : Fin 800000).val / 640) / 32 < t := by
  unfold doneUpto
  rw [Finset.mem_filter]
  exact ⟨fun h => h.2, fun h => ⟨Finset.mem_univ _, h⟩⟩

theorem mem_oRegion {L : grid0.Coords} {idx : S64x800000.Idx} :
    idx ∈ oRegion L ↔ ((idx 1 : Fin 800000).val / 640) % 32 = wid L := by
  unfold oRegion
  rw [Finset.mem_filter]
  exact ⟨fun h => h.2, fun h => ⟨Finset.mem_univ _, h⟩⟩

/-! ## The sets at the ends -/

/-- Before the first chunk everything is still to do. -/
theorem todoFrom_zero (L : grid0.Coords) : todoFrom L 0 = oRegion L := by
  ext idx
  rw [mem_todoFrom, mem_oRegion]
  exact ⟨fun h => h.1, fun h => ⟨h, Nat.zero_le _⟩⟩

/-- Before the first chunk nothing is done. -/
theorem doneUpto_zero (L : grid0.Coords) : doneUpto L 0 = ∅ := by
  ext idx
  rw [mem_doneUpto]
  exact ⟨fun h => absurd h.2 (Nat.not_lt_zero _), fun h => absurd h (Finset.notMem_empty _)⟩

/-- Past the last chunk everything is done. -/
theorem doneUpto_all (L : grid0.Coords) (t : ℕ) (h : 1250 ≤ wid L + 32 * t) : doneUpto L t = oRegion L := by
  ext idx
  have hc := chunk_lt idx
  rw [mem_doneUpto, mem_oRegion]
  constructor
  · exact fun h => h.1
  · intro hm
    refine ⟨hm, ?_⟩
    omega

/-- Past the last chunk nothing is left to do. -/
theorem todo_drop (L : grid0.Coords) (t : ℕ) (h : 1250 ≤ wid L + 32 * t) : todoFrom L t = ∅ := by
  ext idx
  have hc := chunk_lt idx
  rw [mem_todoFrom]
  constructor
  · intro hm
    exfalso
    omega
  · exact fun h => absurd h (Finset.notMem_empty _)

/-! ## One chunk moves from "to do" to "done" -/

/-- What is to do from chunk `t` on is chunk `t` of the tile and what is to do from chunk `t + 1` on. -/
theorem todoFrom_split (L : grid0.Coords) (t : ℕ) : todoFrom L t = chunkSet (wid L + 32 * t) ∪ todoFrom L (t + 1) := by
  ext idx
  have hw := wid_lt L
  rw [Finset.mem_union, mem_todoFrom, mem_todoFrom, mem_chunkSet]
  omega

theorem chunk_disjoint_todo (L : grid0.Coords) (t : ℕ) : Disjoint (chunkSet (wid L + 32 * t)) (todoFrom L (t + 1)) := by
  rw [Finset.disjoint_left]
  intro idx h1 h2
  have hw := wid_lt L
  rw [mem_chunkSet] at h1
  rw [mem_todoFrom] at h2
  omega

/-- What is done below chunk `t + 1` is what is done below chunk `t` and chunk `t` of the tile. -/
theorem doneUpto_split (L : grid0.Coords) (t : ℕ) : doneUpto L (t + 1) = doneUpto L t ∪ chunkSet (wid L + 32 * t) := by
  ext idx
  have hw := wid_lt L
  rw [Finset.mem_union, mem_doneUpto, mem_doneUpto, mem_chunkSet]
  omega

theorem done_disjoint_chunk (L : grid0.Coords) (t : ℕ) : Disjoint (doneUpto L t) (chunkSet (wid L + 32 * t)) := by
  rw [Finset.disjoint_left]
  intro idx h1 h2
  have hw := wid_lt L
  rw [mem_doneUpto] at h1
  rw [mem_chunkSet] at h2
  omega

/-- Taking the tile's chunk `t` out of what is still to do (whatever it holds). -/
theorem todo_take (d : Dev nD) (L : grid0.Coords) (t : ℕ) (h : wid L + 32 * t < 1250) :
    (iprop(∃ f, oLoc d ↦[todoFrom L t]{fullShare} f) : sProp 𝕄)
      ⊢ iprop((∃ f, oLoc d ↦[chunkSet (wid L + 32 * t)]{fullShare} f) ∗ ∃ f, oLoc d ↦[todoFrom L (t + 1)]{fullShare} f) := by
  rw [todoFrom_split L t]
  iintro ⟨%f, H⟩
  ihave H2 := (pointsTo_union (chunk_disjoint_todo L t)).1 $$ H
  icases H2 with ⟨Ha, Hb⟩
  isplitl [Ha]
  · iexists f; iexact Ha
  · iexists f; iexact Hb

/-- Putting the tile's chunk `t`, written at `g`, with what is already done at `g`. -/
theorem done_put (d : Dev nD) (L : grid0.Coords) (t : ℕ) (g : Buf (Elt F) (oLoc d)) :
    (iprop((oLoc d ↦[doneUpto L t]{fullShare} g) ∗ (oLoc d ↦[chunkSet (wid L + 32 * t)]{fullShare} g)) : sProp 𝕄)
      ⊢ (oLoc d ↦[doneUpto L (t + 1)]{fullShare} g) := by
  rw [doneUpto_split L t]
  exact (pointsTo_union (done_disjoint_chunk L t)).2

/-! ## The program's slices of the two big arrays -/

/-- The program's 64 × 640 slice of the result array at column offset `640 n` covers exactly chunk `n`. -/
theorem oSl_set (off : Fin 2 → ℕ) (h : ∀ a, off a + S64x640.size a ≤ S64x800000.size a) (n : ℕ) (e : off = ![0, 640 * n]) :
    (oSl off h).view.set = chunkSet n := by
  subst e
  ext idx
  rw [mem_chunkSet]
  show idx ∈ ((View.whole main_v1_scv).slice (Rect.unit (s := S64x800000) ![0, 640 * n] S64x640.size h)).set ↔ _
  rw [View.set_slice_whole, Rect.mem_set_unit]
  refine Fin.forall_fin_two.trans ?_
  show ((0 : ℕ) ≤ (idx 0 : Fin 64).val ∧ (idx 0 : Fin 64).val < 0 + 64)
      ∧ (640 * n ≤ (idx 1 : Fin 800000).val ∧ (idx 1 : Fin 800000).val < 640 * n + 640) ↔ _
  have h0 : (idx 0 : Fin 64).val < 64 := (idx 0 : Fin 64).isLt
  omega

/-- Slices of the result array at equal offsets are equal, whatever their in-bounds evidence. -/
theorem oSl_congr (off off' : Fin 2 → ℕ) (h : ∀ a, off a + S64x640.size a ≤ S64x800000.size a)
    (h' : ∀ a, off' a + S64x640.size a ≤ S64x800000.size a) (e : off = off') : oSl off h = oSl off' h' := by
  subst e; rfl

/-- The program's 3 × 640 slice of the transposed index array at column offset `640 n` covers exactly the columns of chunk `n`. -/
theorem aSl_mem_set (off : Fin 2 → ℕ) (h : ∀ a, off a + S3x640.size a ≤ S3x800000.size a) (n : ℕ) (e : off = ![0, 640 * n])
    (idx : S3x800000.Idx) : idx ∈ (aSl off h).view.set ↔ (idx 1 : Fin 800000).val / 640 = n := by
  subst e
  show idx ∈ ((View.whole main_v0_scv).slice (Rect.unit (s := S3x800000) ![0, 640 * n] S3x640.size h)).set ↔ _
  rw [View.set_slice_whole, Rect.mem_set_unit]
  refine Fin.forall_fin_two.trans ?_
  show ((0 : ℕ) ≤ (idx 0 : Fin 3).val ∧ (idx 0 : Fin 3).val < 0 + 3)
      ∧ (640 * n ≤ (idx 1 : Fin 800000).val ∧ (idx 1 : Fin 800000).val < 640 * n + 640) ↔ _
  have h0 : (idx 0 : Fin 3).val < 3 := (idx 0 : Fin 3).isLt
  omega

/-- Slices of the index array at equal offsets are equal, whatever their in-bounds evidence. -/
theorem aSl_congr (off off' : Fin 2 → ℕ) (h : ∀ a, off a + S3x640.size a ≤ S3x800000.size a)
    (h' : ∀ a, off' a + S3x640.size a ≤ S3x800000.size a) (e : off = off') : aSl off h = aSl off' h' := by
  subst e; rfl

end Cert.Proof.KI

end
-- ==== Proof.KIMath.lean ====
/-
  The vector subcore's indexed store and load, read at one element: a table of 64 rows and 16 columns is filled column
  block by column block with indexed stores whose sixteen lanes name sixteen different rows of one column, and is
  read back with indexed loads whose row is fixed and whose column is a computed word below 8.
-/
import Idealize.ShloMosaic.PureOps
import Idealize.ShloMosaic.Lib.ValueIdx
import proofs.«203793_g3813930959492_cont_8to1_b_1292_12_alg».proof.Proof.Spec

noncomputable section

namespace Cert.Proof.KIMath

open Idealize.ShloMosaic Idealize.ShloMosaic.ValueIdx

variable {F : FTy → Type} [FloatOps F]

abbrev S16 : Shape := ⟨1, ![16]⟩
abbrev S64x16 : Shape := ⟨2, ![64, 16]⟩

/-! ## An unmasked indexed store without add, lane by lane -/

section General
variable {s : Shape} {e : EltTy} {d : Fin 1 → Nat}

/-- What one lane of an unmasked indexed store without add does to the memory's contents: the element the lane names
    takes the lane's value, every other element stays. -/
def storeLane (idxs : Fin s.rank → IVec ⟨1, d⟩ 32) (v : Vec F ⟨1, d⟩ e) (g : Vec F s e) (k : Fin (d 0)) : Vec F s e :=
  fun j => if (∀ a, (j a).val = (idxs a (Shape.ofLane k)).toNat) then v (Shape.ofLane k) else g j

/-- The unmasked store without add is the fold of the lanes' single writes. -/
theorem storeIdx_eq_foldl (f : Vec F s e) (idxs : Fin s.rank → IVec ⟨1, d⟩ 32) (v : Vec F ⟨1, d⟩ e)
    (h : ∀ a x, (idxs a x).toNat < s.size a) :
    storeIdx f idxs v (fun _ => 1#1) false h = (List.finRange (d 0)).foldl (storeLane idxs v) f := by
  unfold storeIdx
  congr 1

/-- An element none of the lanes in the list names keeps its value. -/
theorem foldl_storeLane_miss (idxs : Fin s.rank → IVec ⟨1, d⟩ 32) (v : Vec F ⟨1, d⟩ e) (l : List (Fin (d 0)))
    (f : Vec F s e) (j : s.Idx) (hj : ∀ k ∈ l, ¬ ∀ a, (j a).val = (idxs a (Shape.ofLane k)).toNat) :
    l.foldl (storeLane idxs v) f j = f j := by
  induction l generalizing f with
  | nil => rfl
  | cons k l ih =>
    rw [List.foldl_cons, ih _ (fun k' hk' => hj k' (List.mem_cons_of_mem _ hk'))]
    exact if_neg (hj k (by simp))

/-- When different lanes name different elements, the element a lane of the list names holds that lane's value. -/
theorem foldl_storeLane_hit (idxs : Fin s.rank → IVec ⟨1, d⟩ 32) (v : Vec F ⟨1, d⟩ e) (l : List (Fin (d 0)))
    (hnd : l.Nodup)
    (hinj : ∀ k k' : Fin (d 0), (∀ a, (idxs a (Shape.ofLane k)).toNat = (idxs a (Shape.ofLane k')).toNat) → k = k')
    (f : Vec F s e) (j : s.Idx) (k : Fin (d 0)) (hk : k ∈ l)
    (hj : ∀ a, (j a).val = (idxs a (Shape.ofLane k)).toNat) :
    l.foldl (storeLane idxs v) f j = v (Shape.ofLane k) := by
  induction l generalizing f with
  | nil => simp at hk
  | cons k0 l ih =>
    rw [List.foldl_cons]
    rcases List.mem_cons.1 hk with rfl | hk'
    · rw [foldl_storeLane_miss]
      · exact if_pos hj
      · intro k' hk' hhit
        have : k = k' := hinj k k' (fun a => (hj a).symm.trans (hhit a))
        subst this
        exact (List.nodup_cons.1 hnd).1 hk'
    · exact ih (List.nodup_cons.1 hnd).2 _ hk'

/-- An unmasked indexed store without add whose lanes name pairwise different elements, read at the element that lane k
    names: the value of lane k. -/
theorem storeIdx_apply_lane (f : Vec F s e) (idxs : Fin s.rank → IVec ⟨1, d⟩ 32) (v : Vec F ⟨1, d⟩ e)
    (h : ∀ a x, (idxs a x).toNat < s.size a)
    (hinj : ∀ k k' : Fin (d 0), (∀ a, (idxs a (Shape.ofLane k)).toNat = (idxs a (Shape.ofLane k')).toNat) → k = k')
    (j : s.Idx) (k : Fin (d 0)) (hj : ∀ a, (j a).val = (idxs a (Shape.ofLane k)).toNat) :
    storeIdx f idxs v (fun _ => 1#1) false h j = v (Shape.ofLane k) := by
  rw [storeIdx_eq_foldl]
  exact foldl_storeLane_hit idxs v _ (List.nodup_finRange _) hinj f j k (List.mem_finRange k) hj

/-- An unmasked indexed store without add, read at an element no lane names: the old value. -/
theorem storeIdx_apply_other (f : Vec F s e) (idxs : Fin s.rank → IVec ⟨1, d⟩ 32) (v : Vec F ⟨1, d⟩ e)
    (h : ∀ a x, (idxs a x).toNat < s.size a) (j : s.Idx)
    (hj : ∀ k : Fin (d 0), ¬ ∀ a, (j a).val = (idxs a (Shape.ofLane k)).toNat) :
    storeIdx f idxs v (fun _ => 1#1) false h j = f j := by
  rw [storeIdx_eq_foldl]
  exact foldl_storeLane_miss idxs v _ f j (fun k _ => hj k)

end General

/-! ## The table's stores -/

abbrev lane (x : Fin 16) : S16.Idx := ValueIdx.ix1 x

/-- The row index vector of block b: lane x names row 16 b + x. -/
def rowIdx (b : ℕ) (io : IVec S16 32) : IVec S16 32 := addi (broadcast S16 (BitVec.ofNat 32 (16 * b))) io
/-- The column index vector: every lane names column r. -/
def colIdx (r : ℕ) : IVec S16 32 := broadcast S16 (BitVec.ofNat 32 r)

/-- The table after one store: rows 16 b … 16 b + 15 of column r hold the sixteen lanes of v, the rest is as before. -/
def tblStep (f : Vec F S64x16 .f32) (b r : ℕ) (v : Vec F S16 .f32) : Vec F S64x16 .f32 :=
  fun j => if (j 1 : Fin 16).val = r ∧ (j 0 : Fin 64).val / 16 = b then v (lane ⟨(j 0 : Fin 64).val % 16, Nat.mod_lt _ (by decide)⟩) else f j

/-- The lane sequence of one register: lane x holds the word x. -/
theorem iota16_apply (h : S16.Iotas .scVector 32 [0]) (x : S16.Idx) :
    iota .scVector S16 32 [0] h x = BitVec.ofNat 32 (x 0 : Fin 16).val := by
  simp [iota]

theorem ofLane_eq_lane (k : Fin 16) : (Shape.ofLane (d := ![16]) k : S16.Idx) = lane k := by
  funext a; match a with | ⟨0, _⟩ => rfl

theorem rowIdx_toNat (io : IVec S16 32) (hio : ∀ x : S16.Idx, io x = BitVec.ofNat 32 (x 0 : Fin 16).val) (b : ℕ) (hb : b < 4)
    (x : S16.Idx) : (rowIdx b io x).toNat = 16 * b + (x 0 : Fin 16).val := by
  have hx : (x 0 : Fin 16).val < 16 := (x 0 : Fin 16).isLt
  simp only [rowIdx, addi, IntOp.addi, broadcast, hio, BitVec.toNat_add, BitVec.toNat_ofNat]
  omega

theorem colIdx_toNat (r : ℕ) (hr : r < 16) (x : S16.Idx) : (colIdx r x).toNat = r := by
  simp only [colIdx, broadcast, BitVec.toNat_ofNat]
  omega

/-- One of the table's stores, read element by element: its sixteen lanes name the sixteen different rows
    16 b + x of column r, so each of those elements takes its lane's value and every other element stays. -/
theorem storeIdx_tblStep (io : IVec S16 32) (hio : ∀ x : S16.Idx, io x = BitVec.ofNat 32 (x 0 : Fin 16).val)
    (f : Vec F S64x16 .f32) (b r : ℕ) (hb : b < 4) (hr : r < 16) (v : Vec F S16 .f32)
    (h : ∀ a x, ((![rowIdx b io, colIdx r] : Fin 2 → IVec S16 32) a x).toNat < S64x16.size a) :
    storeIdx f ![rowIdx b io, colIdx r] v (fun _ => 1#1) false h = tblStep f b r v := by
  funext j
  have h0 : ∀ k : Fin 16, ((![rowIdx b io, colIdx r] : Fin 2 → IVec S16 32) 0 (Shape.ofLane (d := ![16]) k)).toNat
      = 16 * b + k.val := fun k => rowIdx_toNat io hio b hb _
  have h1 : ∀ k : Fin 16, ((![rowIdx b io, colIdx r] : Fin 2 → IVec S16 32) 1 (Shape.ofLane (d := ![16]) k)).toNat
      = r := fun k => colIdx_toNat r hr (Shape.ofLane (d := ![16]) k)
  have hiff : ∀ k : Fin 16,
      (∀ a, (j a).val = ((![rowIdx b io, colIdx r] : Fin 2 → IVec S16 32) a (Shape.ofLane (d := ![16]) k)).toNat) ↔
        ((j 0 : Fin 64).val = 16 * b + k.val ∧ (j 1 : Fin 16).val = r) := by
    intro k
    constructor
    · intro hh
      exact ⟨(hh 0).trans (h0 k), (hh 1).trans (h1 k)⟩
    · rintro ⟨ha, hc⟩ a
      match a with
      | ⟨0, _⟩ => exact ha.trans (h0 k).symm
      | ⟨1, _⟩ => exact hc.trans (h1 k).symm
  unfold tblStep
  split_ifs with hc
  · have hq : (j 0 : Fin 64).val = 16 * b + (j 0 : Fin 64).val % 16 := by omega
    rw [storeIdx_apply_lane f _ v h ?_ j ⟨(j 0 : Fin 64).val % 16, Nat.mod_lt _ (by decide)⟩ ((hiff _).2 ⟨hq, hc.1⟩)]
    · exact congrArg v (ofLane_eq_lane _)
    · intro k k' hkk
      have e0 := (h0 k).symm.trans ((hkk 0).trans (h0 k'))
      exact Fin.ext (by omega)
  · apply storeIdx_apply_other
    intro k hk
    obtain ⟨ha, hc'⟩ := (hiff k).1 hk
    have hk16 : k.val < 16 := k.isLt
    exact hc ⟨hc', by omega⟩

/-! ## The table's loads -/

/-- An indexed load at a fixed row j and a computed column k, lane by lane. -/
theorem loadIdx_col (T : Vec F S64x16 .f32) (j : ℕ) (hj : j < 64) (k : IVec S16 32) (hk : ∀ x, (k x).toNat < 16)
    (h : ∀ a x, ((![broadcast S16 (BitVec.ofNat 32 j), k] : Fin 2 → IVec S16 32) a x).toNat < S64x16.size a) (x : S16.Idx) :
    loadIdx T ![broadcast S16 (BitVec.ofNat 32 j), k] h x
      = T (ValueIdx.ix2 (⟨j, hj⟩ : Fin 64) (⟨(k x).toNat, hk x⟩ : Fin 16)) := by
  unfold loadIdx
  congr 1
  funext a
  match a with
  | ⟨0, _⟩ =>
    apply Fin.ext
    show (BitVec.ofNat 32 j).toNat = j
    rw [BitVec.toNat_ofNat]
    omega
  | ⟨1, _⟩ => rfl

/-- The column word of a lane: 4 a0 + 2 a1 + a2. -/
def kvec (a0 a1 a2 : IVec S16 32) : IVec S16 32 :=
  addi (addi (muli a0 (broadcast S16 4#32)) (muli a1 (broadcast S16 2#32))) a2

theorem kvec_toNat (a0 a1 a2 : IVec S16 32) (h0 : ∀ x, a0 x = 0#32 ∨ a0 x = 1#32) (h1 : ∀ x, a1 x = 0#32 ∨ a1 x = 1#32)
    (h2 : ∀ x, a2 x = 0#32 ∨ a2 x = 1#32) (x : S16.Idx) :
    (kvec a0 a1 a2 x).toNat
      = 4 * (Cert.Spec.sel (a0 x)).val + 2 * (Cert.Spec.sel (a1 x)).val + (Cert.Spec.sel (a2 x)).val := by
  have e : kvec a0 a1 a2 x = (a0 x * 4#32 + a1 x * 2#32) + a2 x := rfl
  rw [e]
  rcases h0 x with p0 | p0 <;> rcases h1 x with p1 | p1 <;> rcases h2 x with p2 | p2 <;>
    rw [p0, p1, p2] <;> decide

theorem kvec_lt (a0 a1 a2 : IVec S16 32) (h0 : ∀ x, a0 x = 0#32 ∨ a0 x = 1#32) (h1 : ∀ x, a1 x = 0#32 ∨ a1 x = 1#32)
    (h2 : ∀ x, a2 x = 0#32 ∨ a2 x = 1#32) (x : S16.Idx) : (kvec a0 a1 a2 x).toNat < 8 := by
  rw [kvec_toNat a0 a1 a2 h0 h1 h2 x]
  have := (Cert.Spec.sel (a0 x)).isLt
  have := (Cert.Spec.sel (a1 x)).isLt
  have := (Cert.Spec.sel (a2 x)).isLt
  omega

/-- A fixed row below 64 and column words below 8 are in range for the 64 by 16 table. -/
theorem chk_col (j : ℕ) (hj : j < 64) (k : IVec S16 32) (hk : ∀ x, (k x).toNat < 8) :
    ∀ a x, ((![broadcast S16 (BitVec.ofNat 32 j), k] : Fin 2 → IVec S16 32) a x).toNat < S64x16.size a := by
  intro a x
  match a with
  | ⟨0, _⟩ =>
    show (BitVec.ofNat 32 j).toNat < 64
    rw [BitVec.toNat_ofNat]
    omega
  | ⟨1, _⟩ =>
    show (k x).toNat < 16
    have := hk x
    omega

/-! ## The whole table -/

/-- Column r after its four stores, one per block of sixteen rows. -/
def tblCol (f : Vec F S64x16 .f32) (V : ℕ → ℕ → Vec F S16 .f32) (r : ℕ) : Vec F S64x16 .f32 :=
  tblStep (tblStep (tblStep (tblStep f 0 r (V r 0)) 1 r (V r 1)) 2 r (V r 2)) 3 r (V r 3)

/-- The table after all 32 stores: column r below 8 holds, at row q, lane q mod 16 of the vector stored for column r
    and block q / 16; columns 8 to 15 are as before. -/
def tblOf (V : ℕ → ℕ → Vec F S16 .f32) (f0 : Vec F S64x16 .f32) : Vec F S64x16 .f32 :=
  fun j => if (j 1 : Fin 16).val < 8 then V (j 1 : Fin 16).val ((j 0 : Fin 64).val / 16) (lane ⟨(j 0 : Fin 64).val % 16, Nat.mod_lt _ (by decide)⟩) else f0 j

/-- The four stores of one column rewrite exactly that column. -/
theorem tblCol_apply (f : Vec F S64x16 .f32) (V : ℕ → ℕ → Vec F S16 .f32) (r : ℕ) (j : S64x16.Idx) :
    tblCol f V r j = if (j 1 : Fin 16).val = r then
      V r ((j 0 : Fin 64).val / 16) (lane ⟨(j 0 : Fin 64).val % 16, Nat.mod_lt _ (by decide)⟩) else f j := by
  have hq : (j 0 : Fin 64).val / 16 < 4 := by
    have h64 : (j 0 : Fin 64).val < 64 := (j 0 : Fin 64).isLt
    omega
  unfold tblCol tblStep
  by_cases hr : (j 1 : Fin 16).val = r
  · simp only [hr, true_and, if_true]
    interval_cases hq' : (j 0 : Fin 64).val / 16 <;> simp
  · simp only [hr, false_and, if_false]

theorem tbl_all (V : ℕ → ℕ → Vec F S16 .f32) (f0 : Vec F S64x16 .f32) :
    tblCol (tblCol (tblCol (tblCol (tblCol (tblCol (tblCol (tblCol f0 V 0) V 1) V 2) V 3) V 4) V 5) V 6) V 7
      = tblOf V f0 := by
  funext j
  simp only [tblCol_apply]
  unfold tblOf
  have hc : (j 1 : Fin 16).val < 16 := (j 1 : Fin 16).isLt
  interval_cases hc' : (j 1 : Fin 16).val <;> simp

end Cert.Proof.KIMath

end
-- ==== Proof.KIValue.lean ====
/-
  Values and offsets of a tile's chunks.

  The program's chunk offsets in closed form: chunk `i` of tile `w` starts at column `640 (w + 32 i)`. What a copy-in
  lands in an index scratch is words of the index array, so 0 or 1. What a copy-out lands in the result array is, at row
  `j` and column `640 (w + 32 i) + x`, the table's entry `(j, 4 a0 + 2 a1 + a2)` for the three index words of that column,
  which is the sum of the three weight rows those words name.
-/
import proofs.«203793_g3813930959492_cont_8to1_b_1292_12_alg».proof.Proof.KIIface
import proofs.«203793_g3813930959492_cont_8to1_b_1292_12_alg».proof.Proof.KIChunks
import proofs.«203793_g3813930959492_cont_8to1_b_1292_12_alg».proof.Proof.KIMath

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The chunk offsets in closed form -/

theorem vec2_congr {x y : ℕ} (h : x = y) : (![0, x] : Fin 2 → ℕ) = ![0, y] := by rw [h]

/-- Chunk `i` of the tile starts at column `640 (wid L + 32 i)`. -/
theorem offI_eq (L : grid0.Coords) (i : ℕ) : offI L i = ![0, 640 * (wid L + 32 * i)] := by
  unfold offI wid
  exact vec2_congr (by omega)

theorem off1_eq (L : grid0.Coords) : k0_off1 L = offI L 0 := by
  rw [k0_off1_eq]; unfold offI; exact vec2_congr (by omega)

theorem off2_eq (L : grid0.Coords) : k0_off2 L = offI L 1 := by
  rw [k0_off2_eq]; unfold offI; exact vec2_congr (by omega)

theorem off70_eq (L : grid0.Coords) : k0_off70 L = offI L 0 := by
  rw [k0_off70_eq]; unfold offI; exact vec2_congr (by omega)

theorem off71_eq (L : grid0.Coords) (p : Fin k0_t2_loop.trips) : k0_off71 L p = offI L (2 * p.val + 2) := by
  rw [k0_off71_eq]; unfold offI; exact vec2_congr (by omega)

theorem off139_eq (L : grid0.Coords) (p : Fin k0_t2_loop.trips) : k0_off139 L p = offI L (2 * p.val + 1) := by
  rw [k0_off139_eq]; unfold offI; exact vec2_congr (by omega)

theorem off140_eq (L : grid0.Coords) (p : Fin k0_t2_loop.trips) : k0_off140 L p = offI L (2 * p.val + 3) := by
  rw [k0_off140_eq]; unfold offI; exact vec2_congr (by omega)

theorem off208_eq (L : grid0.Coords) (p : Fin k0_t2_loop.trips) : k0_off208 L p = offI L (2 * p.val + 2) := by
  rw [k0_off208_eq]; unfold offI; exact vec2_congr (by omega)

/-! ## What a copy-in lands -/

/-- What a copy-in carries, element by element: the index array's word under the slice's element. -/
theorem payA_apply (d : Dev nD) (A : Buf (Elt F) (aLoc d)) (off : Fin 2 → ℕ)
    (h : ∀ a, off a + S3x640.size a ≤ S3x800000.size a) (x : S3x640.Idx) :
    payA d A off h x = A ((aSl off h).view.emb x) :=
  (View.read_apply _ _).trans (cast_eq _ _)

/-- The first index scratch after a copy-in holds what the copy-in carries. -/
theorem write_A0 (d : Dev nD) (L : grid0.Coords) (A : Buf (Elt F) (aLoc d)) (fA : Buf (Elt F) ((thr d L).loc cc0_scratch0))
    (off : Fin 2 → ℕ) (h : ∀ a, off a + S3x640.size a ≤ S3x800000.size a) :
    View.write (Elt F) (sA0 : Memref sig .scVector .vmem S3x640 .i32).view fA (payA d A off h) Finset.univ = payA d A off h :=
  View.write_whole_univ _ _ _

theorem write_A1 (d : Dev nD) (L : grid0.Coords) (A : Buf (Elt F) (aLoc d)) (fA : Buf (Elt F) ((thr d L).loc cc0_scratch1))
    (off : Fin 2 → ℕ) (h : ∀ a, off a + S3x640.size a ≤ S3x800000.size a) :
    View.write (Elt F) (sA1 : Memref sig .scVector .vmem S3x640 .i32).view fA (payA d A off h) Finset.univ = payA d A off h :=
  View.write_whole_univ _ _ _

/-- A copy-in of an index array of 0/1 words leaves 0/1 words in the first index scratch. -/
theorem in01_A0 (d : Dev nD) (L : grid0.Coords) (A : Buf (Elt F) (aLoc d)) (hA : ∀ i, A i = 0#32 ∨ A i = 1#32)
    (fA : Buf (Elt F) ((thr d L).loc cc0_scratch0)) (off : Fin 2 → ℕ) (h : ∀ a, off a + S3x640.size a ≤ S3x800000.size a) :
    ∀ i, (View.write (Elt F) (sA0 : Memref sig .scVector .vmem S3x640 .i32).view fA (payA d A off h) Finset.univ) i = 0#32
      ∨ (View.write (Elt F) (sA0 : Memref sig .scVector .vmem S3x640 .i32).view fA (payA d A off h) Finset.univ) i = 1#32 := by
  intro i
  rw [write_A0 d L A fA off h]
  have e := payA_apply d A off h i
  rw [e]
  exact hA _

/-- The same for the second index scratch. -/
theorem in01_A1 (d : Dev nD) (L : grid0.Coords) (A : Buf (Elt F) (aLoc d)) (hA : ∀ i, A i = 0#32 ∨ A i = 1#32)
    (fA : Buf (Elt F) ((thr d L).loc cc0_scratch1)) (off : Fin 2 → ℕ) (h : ∀ a, off a + S3x640.size a ≤ S3x800000.size a) :
    ∀ i, (View.write (Elt F) (sA1 : Memref sig .scVector .vmem S3x640 .i32).view fA (payA d A off h) Finset.univ) i = 0#32
      ∨ (View.write (Elt F) (sA1 : Memref sig .scVector .vmem S3x640 .i32).view fA (payA d A off h) Finset.univ) i = 1#32 := by
  intro i
  rw [write_A1 d L A fA off h]
  have e := payA_apply d A off h i
  rw [e]
  exact hA _

/-! ## What a copy-out lands -/

/-- The kernel's column word of three index words that are 0 or 1: `4 a0 + 2 a1 + a2`. -/
theorem kword_toNat (w0 w1 w2 : BitVec 32) (h0 : w0 = 0#32 ∨ w0 = 1#32) (h1 : w1 = 0#32 ∨ w1 = 1#32) (h2 : w2 = 0#32 ∨ w2 = 1#32) :
    (IntOp.addi (IntOp.addi (IntOp.muli w0 4#32) (IntOp.muli w1 2#32)) w2).toNat
      = 4 * (Cert.Spec.sel w0).val + 2 * (Cert.Spec.sel w1).val + (Cert.Spec.sel w2).val := by
  rcases h0 with rfl | rfl <;> rcases h1 with rfl | rfl <;> rcases h2 with rfl | rfl <;> decide

/-- The table column an index scratch of 0/1 words names at column `e`. -/
theorem kcol_val (AA : IVec S3x640 32) (hAA : ∀ k, AA k = 0#32 ∨ AA k = 1#32) (e : Fin 640) :
    (kcol AA e).val = 4 * (Cert.Spec.sel (AA (ValueIdx.ix2 (0 : Fin 3) e))).val
      + 2 * (Cert.Spec.sel (AA (ValueIdx.ix2 (1 : Fin 3) e))).val + (Cert.Spec.sel (AA (ValueIdx.ix2 (2 : Fin 3) e))).val := by
  have h := kword_toNat (AA (ValueIdx.ix2 (0 : Fin 3) e)) (AA (ValueIdx.ix2 (1 : Fin 3) e)) (AA (ValueIdx.ix2 (2 : Fin 3) e))
    (hAA _) (hAA _) (hAA _)
  have s0 := (Cert.Spec.sel (AA (ValueIdx.ix2 (0 : Fin 3) e))).isLt
  have s1 := (Cert.Spec.sel (AA (ValueIdx.ix2 (1 : Fin 3) e))).isLt
  have s2 := (Cert.Spec.sel (AA (ValueIdx.ix2 (2 : Fin 3) e))).isLt
  show (IntOp.addi (IntOp.addi (IntOp.muli (AA (ValueIdx.ix2 (0 : Fin 3) e)) 4#32) (IntOp.muli (AA (ValueIdx.ix2 (1 : Fin 3) e)) 2#32))
      (AA (ValueIdx.ix2 (2 : Fin 3) e))).toNat % 16 = _
  rw [h]
  omega

/-- With the table in place, a pass over an index scratch of 0/1 words leaves, at row `j` and column `e`, the sum of the
    three weight rows the column's three words name. -/
theorem gathered_apply (B0 : FVec F S20x64 .f32) (B1 : FVec F S10x64 .f32) (B2 : FVec F S2x64 .f32) (TT : FVec F S64x16 .f32)
    (hTT : IsTable (F := F) B0 B1 B2 TT) (AA : IVec S3x640 32) (hAA : ∀ k, AA k = 0#32 ∨ AA k = 1#32) (y : S64x640.Idx) :
    gathered (F := F) AA TT y = FloatOps.addf
      (FloatOps.addf
        (B0 (ValueIdx.ix2 ((Cert.Spec.sel (AA (ValueIdx.ix2 (0 : Fin 3) (y 1 : Fin 640)))).castLE (by decide) : Fin 20) (y 0 : Fin 64)))
        (B1 (ValueIdx.ix2 ((Cert.Spec.sel (AA (ValueIdx.ix2 (1 : Fin 3) (y 1 : Fin 640)))).castLE (by decide) : Fin 10) (y 0 : Fin 64))))
      (B2 (ValueIdx.ix2 (Cert.Spec.sel (AA (ValueIdx.ix2 (2 : Fin 3) (y 1 : Fin 640))) : Fin 2) (y 0 : Fin 64))) := by
  have hk := kcol_val AA hAA (y 1 : Fin 640)
  have s0 := (Cert.Spec.sel (AA (ValueIdx.ix2 (0 : Fin 3) (y 1 : Fin 640)))).isLt
  have s1 := (Cert.Spec.sel (AA (ValueIdx.ix2 (1 : Fin 3) (y 1 : Fin 640)))).isLt
  have s2 := (Cert.Spec.sel (AA (ValueIdx.ix2 (2 : Fin 3) (y 1 : Fin 640)))).isLt
  have f0 : (⟨(kcol AA (y 1 : Fin 640)).val / 4 % 2, by omega⟩ : Fin 20)
      = (Cert.Spec.sel (AA (ValueIdx.ix2 (0 : Fin 3) (y 1 : Fin 640)))).castLE (by decide) :=
    Fin.ext (by show (kcol AA (y 1 : Fin 640)).val / 4 % 2 = (Cert.Spec.sel (AA (ValueIdx.ix2 (0 : Fin 3) (y 1 : Fin 640)))).val; omega)
  have f1 : (⟨(kcol AA (y 1 : Fin 640)).val / 2 % 2, by omega⟩ : Fin 10)
      = (Cert.Spec.sel (AA (ValueIdx.ix2 (1 : Fin 3) (y 1 : Fin 640)))).castLE (by decide) :=
    Fin.ext (by show (kcol AA (y 1 : Fin 640)).val / 2 % 2 = (Cert.Spec.sel (AA (ValueIdx.ix2 (1 : Fin 3) (y 1 : Fin 640)))).val; omega)
  have f2 : (⟨(kcol AA (y 1 : Fin 640)).val % 2, by omega⟩ : Fin 2)
      = Cert.Spec.sel (AA (ValueIdx.ix2 (2 : Fin 3) (y 1 : Fin 640))) :=
    Fin.ext (by show (kcol AA (y 1 : Fin 640)).val % 2 = (Cert.Spec.sel (AA (ValueIdx.ix2 (2 : Fin 3) (y 1 : Fin 640)))).val; omega)
  unfold gathered
  rw [hTT (y 0 : Fin 64) (kcol AA (y 1 : Fin 640)) (by omega), f0, f1, f2]

/-- `GT` at an index whose row and whose column's three index words are named. -/
theorem GT_eq_of (A : IVec S3x800000 32) (B0 : FVec F S20x64 .f32) (B1 : FVec F S10x64 .f32) (B2 : FVec F S2x64 .f32)
    (idx : S64x800000.Idx) (j : Fin 64) (a0 a1 a2 : BitVec 32) (hj : (idx 0 : Fin 64) = j)
    (h0 : A (ValueIdx.ix2 (0 : Fin 3) (idx 1 : Fin 800000)) = a0) (h1 : A (ValueIdx.ix2 (1 : Fin 3) (idx 1 : Fin 800000)) = a1)
    (h2 : A (ValueIdx.ix2 (2 : Fin 3) (idx 1 : Fin 800000)) = a2) :
    GT (F := F) A B0 B1 B2 idx = FloatOps.addf
      (FloatOps.addf (B0 (ValueIdx.ix2 ((Cert.Spec.sel a0).castLE (by decide) : Fin 20) j))
        (B1 (ValueIdx.ix2 ((Cert.Spec.sel a1).castLE (by decide) : Fin 10) j)))
      (B2 (ValueIdx.ix2 (Cert.Spec.sel a2 : Fin 2) j)) := by
  subst hj h0 h1 h2
  rfl

/-- The index array's element under element `(c, x)` of the tile's chunk `i` is `(c, column of the chunk + x)`, the column
    the result array's chunk has under its element `(·, x)`. -/
theorem chunk_emb (L : grid0.Coords) (i : ℕ) (hi : wid L + 32 * i < 1250) (c : Fin 3) (y : S64x640.Idx) :
    (aSl (offI L i) (offI_inbA L i hi)).view.emb (ValueIdx.ix2 c (y 1 : Fin 640))
      = ValueIdx.ix2 c (((oCh L i hi).view.emb y) 1 : Fin 800000) := by
  funext a
  refine Fin.ext ?_
  match a with
  | ⟨0, _⟩ => show 0 + 1 * c.val = c.val; omega
  | ⟨1, _⟩ => rfl

/-- What one whole-chunk write leaves in the result array under the chunk's element `y`, when what is written is the output
    scratch after a pass over an index scratch holding the chunk's index words: `GT` there. -/
theorem out_val_core (d : Dev nD) (L : grid0.Coords) (A : Buf (Elt F) (aLoc d)) (hA : ∀ i, A i = 0#32 ∨ A i = 1#32)
    (B0 : Buf (Elt F) (w0Loc d)) (B1 : Buf (Elt F) (w1Loc d)) (B2 : Buf (Elt F) (w2Loc d))
    (TT : Buf (Elt F) ((thr d L).loc cc0_scratch7)) (hTT : IsTable (F := F) B0 B1 B2 TT)
    (i : ℕ) (hi : wid L + 32 * i < 1250) (o : Buf (Elt F) (oLoc d))
    (AA : IVec S3x640 32) (hAA : ∀ k, AA k = payA d A (offI L i) (offI_inbA L i hi) k)
    (w : S64x640.Idx → Elt F .f32) (hw : ∀ y, w y = gathered (F := F) AA TT y) :
    ∀ idx ∈ (oCh L i hi).view.set,
      ((oCh L i hi).view.writes (Elt F) o [⟨Rect.whole S64x640, w⟩]) idx = GT (F := F) A B0 B1 B2 idx := by
  intro idx hidx
  obtain ⟨y, -, rfl⟩ := Finset.mem_map.mp hidx
  have h01 : ∀ k, AA k = 0#32 ∨ AA k = 1#32 := fun k => by
    rw [hAA k, payA_apply]; exact hA _
  have h1 := View.read_writes_cons_emb (oCh L i hi).view o (Rect.whole S64x640) w [] y
  rw [Rect.emb_whole_apply, View.read_apply] at h1
  have h2 : ((oCh L i hi).view.writes (Elt F) o [⟨Rect.whole S64x640, w⟩]) ((oCh L i hi).view.emb y) = w y :=
    (cast_eq _ _).symm.trans h1
  rw [h2, hw y, gathered_apply B0 B1 B2 TT hTT AA h01 y]
  refine (GT_eq_of (F := F) A B0 B1 B2 _ (y 0 : Fin 64) _ _ _ ?_ ?_ ?_ ?_).symm
  · exact Fin.ext (by show 0 + 1 * (y 0 : Fin 64).val = (y 0 : Fin 64).val; omega)
  · rw [hAA, payA_apply, chunk_emb L i hi 0 y]; rfl
  · rw [hAA, payA_apply, chunk_emb L i hi 1 y]; rfl
  · rw [hAA, payA_apply, chunk_emb L i hi 2 y]; rfl

/-- What the copy-out of chunk `i` from the FIRST output scratch lands is `GT` on the chunk's columns. -/
theorem out_val0 (d : Dev nD) (L : grid0.Coords) (A : Buf (Elt F) (aLoc d)) (hA : ∀ i, A i = 0#32 ∨ A i = 1#32)
    (B0 : Buf (Elt F) (w0Loc d)) (B1 : Buf (Elt F) (w1Loc d)) (B2 : Buf (Elt F) (w2Loc d))
    (TT : Buf (Elt F) ((thr d L).loc cc0_scratch7)) (hTT : IsTable (F := F) B0 B1 B2 TT)
    (i : ℕ) (hi : wid L + 32 * i < 1250) (fA : Buf (Elt F) ((thr d L).loc cc0_scratch0)) (o : Buf (Elt F) (oLoc d)) :
    ∀ idx ∈ (oCh L i hi).view.set,
      ((oCh L i hi).view.writes (Elt F) o [⟨Rect.whole S64x640,
        ReadAs.same.apply (View.read (Elt F) (sO0 : Memref sig .scVector .vmem S64x640 .f32).view
          (gathered (F := F) (View.write (Elt F) (sA0 : Memref sig .scVector .vmem S3x640 .i32).view fA
            (payA d A (offI L i) (offI_inbA L i hi)) Finset.univ) TT))⟩]) idx
        = GT (F := F) A B0 B1 B2 idx :=
  out_val_core d L A hA B0 B1 B2 TT hTT i hi o _ (fun k => congrFun (write_A0 d L A fA _ _) k) _
    (fun y => (View.read_apply _ _).trans (cast_eq _ _))

/-- The same from the SECOND output scratch. -/
theorem out_val1 (d : Dev nD) (L : grid0.Coords) (A : Buf (Elt F) (aLoc d)) (hA : ∀ i, A i = 0#32 ∨ A i = 1#32)
    (B0 : Buf (Elt F) (w0Loc d)) (B1 : Buf (Elt F) (w1Loc d)) (B2 : Buf (Elt F) (w2Loc d))
    (TT : Buf (Elt F) ((thr d L).loc cc0_scratch7)) (hTT : IsTable (F := F) B0 B1 B2 TT)
    (i : ℕ) (hi : wid L + 32 * i < 1250) (fA : Buf (Elt F) ((thr d L).loc cc0_scratch1)) (o : Buf (Elt F) (oLoc d)) :
    ∀ idx ∈ (oCh L i hi).view.set,
      ((oCh L i hi).view.writes (Elt F) o [⟨Rect.whole S64x640,
        ReadAs.same.apply (View.read (Elt F) (sO1 : Memref sig .scVector .vmem S64x640 .f32).view
          (gathered (F := F) (View.write (Elt F) (sA1 : Memref sig .scVector .vmem S3x640 .i32).view fA
            (payA d A (offI L i) (offI_inbA L i hi)) Finset.univ) TT))⟩]) idx
        = GT (F := F) A B0 B1 B2 idx :=
  out_val_core d L A hA B0 B1 B2 TT hTT i hi o _ (fun k => congrFun (write_A1 d L A fA _ _) k) _
    (fun y => (View.read_apply _ _).trans (cast_eq _ _))

/-- The held destination of the copy-out from the first output scratch, restated at `GT`. -/
theorem out_pts0 (d : Dev nD) (L : grid0.Coords) (A : Buf (Elt F) (aLoc d)) (hA : ∀ i, A i = 0#32 ∨ A i = 1#32)
    (B0 : Buf (Elt F) (w0Loc d)) (B1 : Buf (Elt F) (w1Loc d)) (B2 : Buf (Elt F) (w2Loc d))
    (TT : Buf (Elt F) ((thr d L).loc cc0_scratch7)) (hTT : IsTable (F := F) B0 B1 B2 TT)
    (i : ℕ) (hi : wid L + 32 * i < 1250) (fA : Buf (Elt F) ((thr d L).loc cc0_scratch0)) (o : Buf (Elt F) (oLoc d)) :
    ((oCh L i hi).view.loc (thr d L) ↦[(oCh L i hi).view.set]{fullShare}
        (oCh L i hi).view.writes (Elt F) o [⟨Rect.whole S64x640,
          ReadAs.same.apply (View.read (Elt F) (sO0 : Memref sig .scVector .vmem S64x640 .f32).view
            (gathered (F := F) (View.write (Elt F) (sA0 : Memref sig .scVector .vmem S3x640 .i32).view fA
              (payA d A (offI L i) (offI_inbA L i hi)) Finset.univ) TT))⟩] : sProp 𝕄)
      = ((oCh L i hi).view.loc (thr d L) ↦[(oCh L i hi).view.set]{fullShare} GT (F := F) A B0 B1 B2) :=
  pointsTo_congr (out_val0 d L A hA B0 B1 B2 TT hTT i hi fA o)

/-- The same for the second output scratch. -/
theorem out_pts1 (d : Dev nD) (L : grid0.Coords) (A : Buf (Elt F) (aLoc d)) (hA : ∀ i, A i = 0#32 ∨ A i = 1#32)
    (B0 : Buf (Elt F) (w0Loc d)) (B1 : Buf (Elt F) (w1Loc d)) (B2 : Buf (Elt F) (w2Loc d))
    (TT : Buf (Elt F) ((thr d L).loc cc0_scratch7)) (hTT : IsTable (F := F) B0 B1 B2 TT)
    (i : ℕ) (hi : wid L + 32 * i < 1250) (fA : Buf (Elt F) ((thr d L).loc cc0_scratch1)) (o : Buf (Elt F) (oLoc d)) :
    ((oCh L i hi).view.loc (thr d L) ↦[(oCh L i hi).view.set]{fullShare}
        (oCh L i hi).view.writes (Elt F) o [⟨Rect.whole S64x640,
          ReadAs.same.apply (View.read (Elt F) (sO1 : Memref sig .scVector .vmem S64x640 .f32).view
            (gathered (F := F) (View.write (Elt F) (sA1 : Memref sig .scVector .vmem S3x640 .i32).view fA
              (payA d A (offI L i) (offI_inbA L i hi)) Finset.univ) TT))⟩] : sProp 𝕄)
      = ((oCh L i hi).view.loc (thr d L) ↦[(oCh L i hi).view.set]{fullShare} GT (F := F) A B0 B1 B2) :=
  pointsTo_congr (out_val1 d L A hA B0 B1 B2 TT hTT i hi fA o)

/-! ## The same at offsets given by equations -/

/-- `out_val_core` for slices whose offsets are given by their coordinates: row 0 for both, the same column. -/
theorem out_val_gen (d : Dev nD) (L : grid0.Coords) (A : Buf (Elt F) (aLoc d)) (hA : ∀ i, A i = 0#32 ∨ A i = 1#32)
    (B0 : Buf (Elt F) (w0Loc d)) (B1 : Buf (Elt F) (w1Loc d)) (B2 : Buf (Elt F) (w2Loc d))
    (TT : FVec F S64x16 .f32) (hTT : IsTable (F := F) B0 B1 B2 TT)
    (offA : Fin 2 → ℕ) (hoA : ∀ a, offA a + S3x640.size a ≤ S3x800000.size a)
    (offO : Fin 2 → ℕ) (hoO : ∀ a, offO a + S64x640.size a ≤ S64x800000.size a)
    (e0A : offA 0 = 0) (e0O : offO 0 = 0) (e1 : offA 1 = offO 1) (o : Buf (Elt F) (oLoc d))
    (AA : IVec S3x640 32) (hAA : ∀ k, AA k = payA d A offA hoA k)
    (w : S64x640.Idx → Elt F .f32) (hw : ∀ y, w y = gathered (F := F) AA TT y) :
    ∀ idx ∈ (oSl offO hoO).view.set,
      ((oSl offO hoO).view.writes (Elt F) o [⟨Rect.whole S64x640, w⟩]) idx = GT (F := F) A B0 B1 B2 idx := by
  intro idx hidx
  obtain ⟨y, -, rfl⟩ := Finset.mem_map.mp hidx
  have h01 : ∀ k, AA k = 0#32 ∨ AA k = 1#32 := fun k => by
    rw [hAA k, payA_apply]; exact hA _
  have hemb : ∀ c : Fin 3, (aSl offA hoA).view.emb (ValueIdx.ix2 c (y 1 : Fin 640))
      = ValueIdx.ix2 c (((oSl offO hoO).view.emb y) 1 : Fin 800000) := fun c => by
    funext a
    refine Fin.ext ?_
    match a with
    | ⟨0, _⟩ => show offA 0 + 1 * c.val = c.val; omega
    | ⟨1, _⟩ => show offA 1 + 1 * (y 1 : Fin 640).val = offO 1 + 1 * (y 1 : Fin 640).val; omega
  have h1 := View.read_writes_cons_emb (oSl offO hoO).view o (Rect.whole S64x640) w [] y
  rw [Rect.emb_whole_apply, View.read_apply] at h1
  have h2 : ((oSl offO hoO).view.writes (Elt F) o [⟨Rect.whole S64x640, w⟩]) ((oSl offO hoO).view.emb y) = w y :=
    (cast_eq _ _).symm.trans h1
  rw [h2, hw y, gathered_apply B0 B1 B2 TT hTT AA h01 y]
  refine (GT_eq_of (F := F) A B0 B1 B2 _ (y 0 : Fin 64) _ _ _ ?_ ?_ ?_ ?_).symm
  · exact Fin.ext (by show offO 0 + 1 * (y 0 : Fin 64).val = (y 0 : Fin 64).val; omega)
  · rw [hAA, payA_apply, hemb 0]; rfl
  · rw [hAA, payA_apply, hemb 1]; rfl
  · rw [hAA, payA_apply, hemb 2]; rfl

/-- The copy-out from the FIRST output scratch, the two slices at column offset `640 n`: what lands is `GT`. -/
theorem out_val0_at (d : Dev nD) (L : grid0.Coords) (A : Buf (Elt F) (aLoc d)) (hA : ∀ i, A i = 0#32 ∨ A i = 1#32)
    (B0 : Buf (Elt F) (w0Loc d)) (B1 : Buf (Elt F) (w1Loc d)) (B2 : Buf (Elt F) (w2Loc d))
    (TT : FVec F S64x16 .f32) (hT : IsTable (F := F) B0 B1 B2 TT)
    (fA : Buf (Elt F) ((thr d L).loc cc0_scratch0)) (oc : Buf (Elt F) (oLoc d))
    (offA : Fin 2 → ℕ) (hoA : ∀ a, offA a + S3x640.size a ≤ S3x800000.size a)
    (offO : Fin 2 → ℕ) (hoO : ∀ a, offO a + S64x640.size a ≤ S64x800000.size a)
    (n : ℕ) (eA : offA = ![0, 640 * n]) (eO : offO = ![0, 640 * n]) :
    ∀ idx ∈ (oSl offO hoO).view.set,
      ((oSl offO hoO).view.writes (Elt F) oc [⟨Rect.whole S64x640,
        ReadAs.same.apply (View.read (Elt F) (sO0 : Memref sig .scVector .vmem S64x640 .f32).view
          (gathered (F := F) (View.write (Elt F) (sA0 : Memref sig .scVector .vmem S3x640 .i32).view fA
            (payA d A offA hoA) Finset.univ) TT))⟩]) idx
        = GT (F := F) A B0 B1 B2 idx :=
  out_val_gen d L A hA B0 B1 B2 TT hT offA hoA offO hoO (by rw [eA]; rfl) (by rw [eO]; rfl) (by rw [eA, eO]) oc _
    (fun k => congrFun (write_A0 d L A fA _ _) k) _ (fun y => (View.read_apply _ _).trans (cast_eq _ _))

/-- The same from the SECOND output scratch. -/
theorem out_val1_at (d : Dev nD) (L : grid0.Coords) (A : Buf (Elt F) (aLoc d)) (hA : ∀ i, A i = 0#32 ∨ A i = 1#32)
    (B0 : Buf (Elt F) (w0Loc d)) (B1 : Buf (Elt F) (w1Loc d)) (B2 : Buf (Elt F) (w2Loc d))
    (TT : FVec F S64x16 .f32) (hT : IsTable (F := F) B0 B1 B2 TT)
    (fA : Buf (Elt F) ((thr d L).loc cc0_scratch1)) (oc : Buf (Elt F) (oLoc d))
    (offA : Fin 2 → ℕ) (hoA : ∀ a, offA a + S3x640.size a ≤ S3x800000.size a)
    (offO : Fin 2 → ℕ) (hoO : ∀ a, offO a + S64x640.size a ≤ S64x800000.size a)
    (n : ℕ) (eA : offA = ![0, 640 * n]) (eO : offO = ![0, 640 * n]) :
    ∀ idx ∈ (oSl offO hoO).view.set,
      ((oSl offO hoO).view.writes (Elt F) oc [⟨Rect.whole S64x640,
        ReadAs.same.apply (View.read (Elt F) (sO1 : Memref sig .scVector .vmem S64x640 .f32).view
          (gathered (F := F) (View.write (Elt F) (sA1 : Memref sig .scVector .vmem S3x640 .i32).view fA
            (payA d A offA hoA) Finset.univ) TT))⟩]) idx
        = GT (F := F) A B0 B1 B2 idx :=
  out_val_gen d L A hA B0 B1 B2 TT hT offA hoA offO hoO (by rw [eA]; rfl) (by rw [eO]; rfl) (by rw [eA, eO]) oc _
    (fun k => congrFun (write_A1 d L A fA _ _) k) _ (fun y => (View.read_apply _ _).trans (cast_eq _ _))

/-- The held destination of the copy-out from the first output scratch, at column offset `640 n`, restated at `GT`. -/
theorem out_pts0_at (d : Dev nD) (L : grid0.Coords) (A : Buf (Elt F) (aLoc d)) (hA : ∀ i, A i = 0#32 ∨ A i = 1#32)
    (B0 : Buf (Elt F) (w0Loc d)) (B1 : Buf (Elt F) (w1Loc d)) (B2 : Buf (Elt F) (w2Loc d))
    (TT : FVec F S64x16 .f32) (hT : IsTable (F := F) B0 B1 B2 TT)
    (fA : Buf (Elt F) ((thr d L).loc cc0_scratch0)) (oc : Buf (Elt F) (oLoc d))
    (offA : Fin 2 → ℕ) (hoA : ∀ a, offA a + S3x640.size a ≤ S3x800000.size a)
    (offO : Fin 2 → ℕ) (hoO : ∀ a, offO a + S64x640.size a ≤ S64x800000.size a)
    (n : ℕ) (eA : offA = ![0, 640 * n]) (eO : offO = ![0, 640 * n]) :
    ((oSl offO hoO).view.loc (thr d L) ↦[(oSl offO hoO).view.set]{fullShare}
        (oSl offO hoO).view.writes (Elt F) oc [⟨Rect.whole S64x640,
          ReadAs.same.apply (View.read (Elt F) (sO0 : Memref sig .scVector .vmem S64x640 .f32).view
            (gathered (F := F) (View.write (Elt F) (sA0 : Memref sig .scVector .vmem S3x640 .i32).view fA
              (payA d A offA hoA) Finset.univ) TT))⟩] : sProp 𝕄)
      = ((oSl offO hoO).view.loc (thr d L) ↦[(oSl offO hoO).view.set]{fullShare} GT (F := F) A B0 B1 B2) :=
  pointsTo_congr (out_val0_at d L A hA B0 B1 B2 TT hT fA oc offA hoA offO hoO n eA eO)

/-- The same for the second output scratch. -/
theorem out_pts1_at (d : Dev nD) (L : grid0.Coords) (A : Buf (Elt F) (aLoc d)) (hA : ∀ i, A i = 0#32 ∨ A i = 1#32)
    (B0 : Buf (Elt F) (w0Loc d)) (B1 : Buf (Elt F) (w1Loc d)) (B2 : Buf (Elt F) (w2Loc d))
    (TT : FVec F S64x16 .f32) (hT : IsTable (F := F) B0 B1 B2 TT)
    (fA : Buf (Elt F) ((thr d L).loc cc0_scratch1)) (oc : Buf (Elt F) (oLoc d))
    (offA : Fin 2 → ℕ) (hoA : ∀ a, offA a + S3x640.size a ≤ S3x800000.size a)
    (offO : Fin 2 → ℕ) (hoO : ∀ a, offO a + S64x640.size a ≤ S64x800000.size a)
    (n : ℕ) (eA : offA = ![0, 640 * n]) (eO : offO = ![0, 640 * n]) :
    ((oSl offO hoO).view.loc (thr d L) ↦[(oSl offO hoO).view.set]{fullShare}
        (oSl offO hoO).view.writes (Elt F) oc [⟨Rect.whole S64x640,
          ReadAs.same.apply (View.read (Elt F) (sO1 : Memref sig .scVector .vmem S64x640 .f32).view
            (gathered (F := F) (View.write (Elt F) (sA1 : Memref sig .scVector .vmem S3x640 .i32).view fA
              (payA d A offA hoA) Finset.univ) TT))⟩] : sProp 𝕄)
      = ((oSl offO hoO).view.loc (thr d L) ↦[(oSl offO hoO).view.set]{fullShare} GT (F := F) A B0 B1 B2) :=
  pointsTo_congr (out_val1_at d L A hA B0 B1 B2 TT hT fA oc offA hoA offO hoO n eA eO)

end Cert.Proof.KI

end
-- ==== Proof.KICond.lean ====
/-
  The pair loop's conditions in closed form: round `p` works on the tile's chunks `2p+1` and `2p+2`, each only if its
  number `wid L + 32 i` is below 1250, and prefetches the next one under the same test.
-/
import proofs.«203793_g3813930959492_cont_8to1_b_1292_12_alg».proof.Proof.KIDefs

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

omit [FloatOps F] in
theorem cond1_eq : ∀ L : grid0.Coords, k0_cond1 L = 1#1 := by decide +kernel
omit [FloatOps F] in
theorem cond2_eq : ∀ (L : grid0.Coords) (p : Fin k0_t2_loop.trips), k0_cond2 L p = if wid L + 32 * (2 * p.val + 1) < 1250 then 1#1 else 0#1 := by
  unfold wid; decide +kernel
omit [FloatOps F] in
theorem cond3_eq : ∀ (L : grid0.Coords) (p : Fin k0_t2_loop.trips), k0_cond3 L p = if wid L + 32 * (2 * p.val + 2) < 1250 then 1#1 else 0#1 := by
  unfold wid; decide +kernel
omit [FloatOps F] in
theorem cond5_eq : ∀ (L : grid0.Coords) (p : Fin k0_t2_loop.trips), k0_cond5 L p = if wid L + 32 * (2 * p.val + 2) < 1250 then 1#1 else 0#1 := by
  unfold wid; decide +kernel
omit [FloatOps F] in
theorem cond6_eq : ∀ (L : grid0.Coords) (p : Fin k0_t2_loop.trips), k0_cond6 L p = if wid L + 32 * (2 * p.val + 3) < 1250 then 1#1 else 0#1 := by
  unfold wid; decide +kernel

end Cert.Proof.KI

end
-- ==== Proof.KIFacts.lean ====
/-
  The printed chunk offsets are the tile's chunk offsets; slices of the index array at different chunks do not meet.
-/
import proofs.«203793_g3813930959492_cont_8to1_b_1292_12_alg».proof.Proof.KIIface
import proofs.«203793_g3813930959492_cont_8to1_b_1292_12_alg».proof.Proof.KIChunks

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

omit [FloatOps F] in
theorem offI_chunk (L : grid0.Coords) (i : ℕ) : offI L i = ![0, 640 * (wid L + 32 * i)] := by
  unfold offI wid
  rw [show 1280 * (L 1).val + 640 * (L 0).val + 20480 * i = 640 * ((L 1).val * 2 + (L 0).val + 32 * i) by ring]

omit [FloatOps F] in
theorem offP71 (L : grid0.Coords) (p : Fin k0_t2_loop.trips) : k0_off71 L p = offI L (2 * p.val + 2) := by
  rw [k0_off71_eq]; unfold offI
  rw [show 1280 * (L 1).val + 640 * (L 0).val + 40960 * p.val + 40960 = 1280 * (L 1).val + 640 * (L 0).val + 20480 * (2 * p.val + 2) by ring]
omit [FloatOps F] in
theorem offP140 (L : grid0.Coords) (p : Fin k0_t2_loop.trips) : k0_off140 L p = offI L (2 * p.val + 3) := by
  rw [k0_off140_eq]; unfold offI
  rw [show 1280 * (L 1).val + 640 * (L 0).val + 40960 * p.val + 61440 = 1280 * (L 1).val + 640 * (L 0).val + 20480 * (2 * p.val + 3) by ring]
omit [FloatOps F] in
theorem offP139 (L : grid0.Coords) (p : Fin k0_t2_loop.trips) : k0_off139 L p = offI L (2 * p.val + 1) := by
  rw [k0_off139_eq]; unfold offI
  rw [show 1280 * (L 1).val + 640 * (L 0).val + 40960 * p.val + 20480 = 1280 * (L 1).val + 640 * (L 0).val + 20480 * (2 * p.val + 1) by ring]
omit [FloatOps F] in
theorem offP208 (L : grid0.Coords) (p : Fin k0_t2_loop.trips) : k0_off208 L p = offI L (2 * p.val + 2) := by
  rw [k0_off208_eq]; unfold offI
  rw [show 1280 * (L 1).val + 640 * (L 0).val + 40960 * p.val + 40960 = 1280 * (L 1).val + 640 * (L 0).val + 20480 * (2 * p.val + 2) by ring]

omit [FloatOps F] in
/-- Slices of the index array at two different chunks share no element. -/
theorem aSl_disjoint (off off' : Fin 2 → ℕ) (h : ∀ a, off a + S3x640.size a ≤ S3x800000.size a) (h' : ∀ a, off' a + S3x640.size a ≤ S3x800000.size a)
    (n n' : ℕ) (e : off = ![0, 640 * n]) (e' : off' = ![0, 640 * n']) (hne : n ≠ n') :
    Disjoint (aSl off h).view.set (aSl off' h').view.set := by
  refine Finset.disjoint_left.mpr fun idx h1 h2 => hne ?_
  rw [aSl_mem_set off h n e] at h1
  rw [aSl_mem_set off' h' n' e'] at h2
  omega

end Cert.Proof.KI

end
-- ==== Proof.KITable.lean ====
/-
  The lookup table a tile builds before its first chunk.

  The prologue copies rows 0 and 1 of the three weight tables into three scratches and then, for every column
  `r = 0 … 7` and every block `b = 0 … 3` of sixteen rows, stores into the table scratch's column `r`, rows
  `16 b … 16 b + 15`, the sixteen sums `(W0[a0, j] + W1[a1, j]) + W2[a2, j]`, `j = 16 b … 16 b + 15`, where
  `(a0, a1, a2) = (r / 4 % 2, r / 2 % 2, r % 2)` are the three bits of `r`. Each store is a whole-buffer write over
  the read-back of the stores before it, so the 32 stores leave the 32 updates applied in turn: the table.
-/
import proofs.«203793_g3813930959492_cont_8to1_b_1292_12_alg».proof.Proof.KIValue
import proofs.«203793_g3813930959492_cont_8to1_b_1292_12_alg».proof.Proof.KIMath
import Idealize.ShloMosaic.Lib.ValueLayout
import Idealize.ShloMosaic.Lib.Pipeline.FrameBody

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The pieces of one store -/

/-- The lane register: lane `x` holds the word `x`. -/
abbrev tIo : IVec S16 32 := iota .scVector S16 32 [0] iota_S16_d0_w32_scVector

theorem tIo_apply (x : S16.Idx) : tIo x = BitVec.ofNat 32 (x 0 : Fin 16).val :=
  KIMath.iota16_apply iota_S16_d0_w32_scVector x

theorem ldW_inb (a c : ℕ) : ∀ x, (![a % 2, c % 49] : Fin 2 → ℕ) x + S1x16.size x ≤ S2x64.size x :=
  Rect.inb₂ (d := ![2, 64]) (off := ![a % 2, c % 49]) (size := ![1, 16])
    (by show a % 2 + 1 ≤ 2; omega) (by show c % 49 + 16 ≤ 64; omega)

/-- Sixteen consecutive entries of a row of a weight scratch: row `a` (0 or 1), columns `c … c + 15` (`c ≤ 48`). -/
def ldW (v : View sig .scVector .vmem S2x64 .f32) (Ws : v.ty.Contents (Elt F)) (a c : ℕ) : Vec F S1x16 .f32 :=
  View.readAt (Elt F) v (Rect.unit (s := S2x64) ![a % 2, c % 49] S1x16.size (ldW_inb a c)).toLoadRect Ws

/-- The sum of three such loads, lane by lane. -/
def payOf (l0 l1 l2 : Vec F S1x16 .f32) : FVec F S16 .f32 :=
  have v15 : Vec F S16 .f32 := shapeCast S16 l0 shapeCasts_S1x16_S16
  have v17 : Vec F S16 .f32 := shapeCast S16 l1 shapeCasts_S1x16_S16
  have v18 : FVec F S16 .f32 := addf v15 v17
  have v20 : Vec F S16 .f32 := shapeCast S16 l2 shapeCasts_S1x16_S16
  have v21 : FVec F S16 .f32 := addf v18 v20
  v21

/-- What is stored into column `r`, block `b`: the three rows the bits of `r` name, lanes `16 b … 16 b + 15`, added. -/
def tV (W0s : (sW0 : Memref sig .scVector .vmem S2x64 .f32).view.ty.Contents (Elt F))
    (W1s : (sW1 : Memref sig .scVector .vmem S2x64 .f32).view.ty.Contents (Elt F))
    (W2s : (sW2 : Memref sig .scVector .vmem S2x64 .f32).view.ty.Contents (Elt F)) (r b : ℕ) : Vec F S16 .f32 :=
  payOf (ldW (sW0 : Memref sig .scVector .vmem S2x64 .f32).view W0s (r / 4 % 2) (16 * b))
    (ldW (sW1 : Memref sig .scVector .vmem S2x64 .f32).view W1s (r / 2 % 2) (16 * b))
    (ldW (sW2 : Memref sig .scVector .vmem S2x64 .f32).view W2s (r % 2) (16 * b))

/-- A store's indices are inside the table: rows `16 b + x < 64`, column `r < 16`. -/
theorem tInb (r b : ℕ) (hr : r < 16) (hb : b < 4) :
    ∀ a x, ((![KIMath.rowIdx b tIo, KIMath.colIdx r] : Fin 2 → IVec S16 32) a x).toNat < S64x16.size a := by
  intro a x
  match a with
  | ⟨0, _⟩ =>
    show (KIMath.rowIdx b tIo x).toNat < 64
    rw [KIMath.rowIdx_toNat tIo tIo_apply b hb x]
    have hx : (x 0 : Fin 16).val < 16 := (x 0 : Fin 16).isLt
    omega
  | ⟨1, _⟩ =>
    show (KIMath.colIdx r x).toNat < 16
    rw [KIMath.colIdx_toNat r hr x]
    exact hr

/-- The read-back after a store over the read-back `f` of the earlier ones is the earlier contents with one block of one
    column replaced. -/
theorem tF_step (Lprev : List (View.Piece (Elt F) S64x16 .f32)) (f g : Vec F S64x16 .f32) (r b : ℕ) (hr : r < 16) (hb : b < 4)
    (W0s : (sW0 : Memref sig .scVector .vmem S2x64 .f32).view.ty.Contents (Elt F))
    (W1s : (sW1 : Memref sig .scVector .vmem S2x64 .f32).view.ty.Contents (Elt F))
    (W2s : (sW2 : Memref sig .scVector .vmem S2x64 .f32).view.ty.Contents (Elt F)) (hfg : f = g) :
    (sT : Memref sig .scVector .vmem S64x16 .f32).view.readCov
        (⟨Rect.whole S64x16, storeIdx f ![KIMath.rowIdx b tIo, KIMath.colIdx r] (tV W0s W1s W2s r b) (fun _ => 1#1) false
          (tInb r b hr hb)⟩ :: Lprev) (LoadRect.whole S64x16)
      = KIMath.tblStep g b r (tV W0s W1s W2s r b) := by
  subst hfg
  have h := View.readCov_cons_toLoadRect (Val := Elt F) (sT : Memref sig .scVector .vmem S64x16 .f32).view (Rect.whole S64x16)
    (storeIdx f ![KIMath.rowIdx b tIo, KIMath.colIdx r] (tV W0s W1s W2s r b) (fun _ => 1#1) false (tInb r b hr hb)) Lprev
  exact h.trans (KIMath.storeIdx_tblStep tIo tIo_apply f b r hb hr (tV W0s W1s W2s r b) (tInb r b hr hb))

/-! ## The 32 stores as a chain, each over the read-back of the ones before -/

/-- Store number `k` (0 … 31) over the read-back `f`: column `k / 4`, block `k % 4`. -/
def tPiece (W0s : (sW0 : Memref sig .scVector .vmem S2x64 .f32).view.ty.Contents (Elt F))
    (W1s : (sW1 : Memref sig .scVector .vmem S2x64 .f32).view.ty.Contents (Elt F))
    (W2s : (sW2 : Memref sig .scVector .vmem S2x64 .f32).view.ty.Contents (Elt F)) (k : ℕ) (hk : k < 32) (f : Vec F S64x16 .f32) : View.Piece (Elt F) S64x16 .f32 :=
  ⟨Rect.whole S64x16, storeIdx f ![KIMath.rowIdx (k % 4) tIo, KIMath.colIdx (k / 4)] (tV W0s W1s W2s (k / 4) (k % 4)) (fun _ => 1#1) false
    (tInb (k / 4) (k % 4) (by omega) (by omega))⟩

/-- What the table scratch reads after the first `k` stores, as updates applied in turn to its first contents `f0`. -/
def gOf (W0s : (sW0 : Memref sig .scVector .vmem S2x64 .f32).view.ty.Contents (Elt F))
    (W1s : (sW1 : Memref sig .scVector .vmem S2x64 .f32).view.ty.Contents (Elt F))
    (W2s : (sW2 : Memref sig .scVector .vmem S2x64 .f32).view.ty.Contents (Elt F)) (f0 : Vec F S64x16 .f32) : ℕ → Vec F S64x16 .f32
  | 0 => f0
  | k + 1 => KIMath.tblStep (gOf W0s W1s W2s f0 k) (k % 4) (k / 4) (tV W0s W1s W2s (k / 4) (k % 4))

/-- `IsChain … k P`: the list `P` (newest first) is the first `k` stores, each a whole-buffer write of the indexed store over
    the read-back of the list before it (the first over the scratch's first contents `f0`). -/
inductive IsChain (W0s : (sW0 : Memref sig .scVector .vmem S2x64 .f32).view.ty.Contents (Elt F))
    (W1s : (sW1 : Memref sig .scVector .vmem S2x64 .f32).view.ty.Contents (Elt F))
    (W2s : (sW2 : Memref sig .scVector .vmem S2x64 .f32).view.ty.Contents (Elt F)) (f0 : Vec F S64x16 .f32) : ℕ → List (View.Piece (Elt F) S64x16 .f32) → Prop
  | nil : IsChain W0s W1s W2s f0 0 []
  | cons {k : ℕ} {P : List (View.Piece (Elt F) S64x16 .f32)} {f : Vec F S64x16 .f32} (hk : k < 32)
      (hc : IsChain W0s W1s W2s f0 k P) (p : View.Piece (Elt F) S64x16 .f32) (hp : p = tPiece W0s W1s W2s k hk f)
      (hf : f = if k = 0 then f0 else (sT : Memref sig .scVector .vmem S64x16 .f32).view.readCov P (LoadRect.whole S64x16)) :
      IsChain W0s W1s W2s f0 (k + 1) (p :: P)

/-- After a chain of `k` stores the scratch reads `gOf k`. -/
theorem IsChain.readback (W0s : (sW0 : Memref sig .scVector .vmem S2x64 .f32).view.ty.Contents (Elt F))
    (W1s : (sW1 : Memref sig .scVector .vmem S2x64 .f32).view.ty.Contents (Elt F))
    (W2s : (sW2 : Memref sig .scVector .vmem S2x64 .f32).view.ty.Contents (Elt F)) (f0 : Vec F S64x16 .f32) {k : ℕ} {P : List (View.Piece (Elt F) S64x16 .f32)}
    (h : IsChain W0s W1s W2s f0 k P) :
    (if k = 0 then f0 else ((sT : Memref sig .scVector .vmem S64x16 .f32).view.readCov P (LoadRect.whole S64x16) : Vec F S64x16 .f32))
      = gOf W0s W1s W2s f0 k := by
  induction h with
  | nil => rfl
  | cons hk hc p hp hf ih =>
    rw [if_neg (Nat.succ_ne_zero _)]
    subst hp
    exact tF_step _ _ _ _ _ (by omega) (by omega) W0s W1s W2s (hf.trans ih)

/-! ## What the stores leave, element by element -/

theorem whole_idx (x : (LoadRect.whole S64x16).shape.Idx) : (LoadRect.whole S64x16).idx x = x := by
  funext a
  refine Fin.ext ?_
  rw [LoadRect.idx_apply]
  show 0 + 1 * (x a).val = (x a).val
  omega

/-- After a chain of 32 stores the scratch holds the 32 updates applied in turn. -/
theorem tFinal (W0s : (sW0 : Memref sig .scVector .vmem S2x64 .f32).view.ty.Contents (Elt F))
    (W1s : (sW1 : Memref sig .scVector .vmem S2x64 .f32).view.ty.Contents (Elt F))
    (W2s : (sW2 : Memref sig .scVector .vmem S2x64 .f32).view.ty.Contents (Elt F)) (f0 : Vec F S64x16 .f32) (P : List (View.Piece (Elt F) S64x16 .f32)) (hP : IsChain W0s W1s W2s f0 32 P) (i : S64x16.Idx) :
    ((sT : Memref sig .scVector .vmem S64x16 .f32).view.writes (Elt F) (sT : Memref sig .scVector .vmem S64x16 .f32).view.junk P) i
      = gOf W0s W1s W2s f0 32 i := by
  have h := congrFun (hP.readback W0s W1s W2s f0) i
  rw [if_neg (by decide)] at h
  have e : ((sT : Memref sig .scVector .vmem S64x16 .f32).view.readCov P (LoadRect.whole S64x16) : Vec F S64x16 .f32) i
      = ((sT : Memref sig .scVector .vmem S64x16 .f32).view.writes (Elt F) (sT : Memref sig .scVector .vmem S64x16 .f32).view.junk P) i := by
    show View.readAt (Elt F) (sT : Memref sig .scVector .vmem S64x16 .f32).view (LoadRect.whole S64x16)
      ((sT : Memref sig .scVector .vmem S64x16 .f32).view.writes (Elt F) (sT : Memref sig .scVector .vmem S64x16 .f32).view.junk P) i = _
    rw [View.readAt_apply, View.read_apply, whole_idx]
    exact cast_eq _ _
  exact e.symm.trans h

/-- The 32 updates applied in turn fill columns 0 to 7 with the stored vectors and leave the other columns. -/
theorem gOf32_eq (W0s : (sW0 : Memref sig .scVector .vmem S2x64 .f32).view.ty.Contents (Elt F))
    (W1s : (sW1 : Memref sig .scVector .vmem S2x64 .f32).view.ty.Contents (Elt F))
    (W2s : (sW2 : Memref sig .scVector .vmem S2x64 .f32).view.ty.Contents (Elt F)) (f0 : Vec F S64x16 .f32) :
    gOf W0s W1s W2s f0 32 = KIMath.tblOf (tV W0s W1s W2s) f0 :=
  KIMath.tbl_all (tV W0s W1s W2s) f0

theorem ldW0_apply (Ws : (sW0 : Memref sig .scVector .vmem S2x64 .f32).view.ty.Contents (Elt F)) (a c : ℕ) (x : Fin 16) :
    ldW (sW0 : Memref sig .scVector .vmem S2x64 .f32).view Ws a c (ValueIdx.ix2 (0 : Fin 1) x)
      = Ws (ValueIdx.ix2 (⟨a % 2, Nat.mod_lt _ (by decide)⟩ : Fin 2) (⟨c % 49 + x.val, by have := x.isLt; omega⟩ : Fin 64)) := by
  unfold ldW
  rw [View.readAt_apply, View.read_apply]
  refine (cast_eq _ _).trans (congrArg Ws ?_)
  funext a'
  refine Fin.ext ?_
  match a' with
  | ⟨0, _⟩ => show a % 2 + 1 * 0 = a % 2; omega
  | ⟨1, _⟩ => show c % 49 + 1 * x.val = c % 49 + x.val; omega

theorem ldW1_apply (Ws : (sW1 : Memref sig .scVector .vmem S2x64 .f32).view.ty.Contents (Elt F)) (a c : ℕ) (x : Fin 16) :
    ldW (sW1 : Memref sig .scVector .vmem S2x64 .f32).view Ws a c (ValueIdx.ix2 (0 : Fin 1) x)
      = Ws (ValueIdx.ix2 (⟨a % 2, Nat.mod_lt _ (by decide)⟩ : Fin 2) (⟨c % 49 + x.val, by have := x.isLt; omega⟩ : Fin 64)) := by
  unfold ldW
  rw [View.readAt_apply, View.read_apply]
  refine (cast_eq _ _).trans (congrArg Ws ?_)
  funext a'
  refine Fin.ext ?_
  match a' with
  | ⟨0, _⟩ => show a % 2 + 1 * 0 = a % 2; omega
  | ⟨1, _⟩ => show c % 49 + 1 * x.val = c % 49 + x.val; omega

theorem ldW2_apply (Ws : (sW2 : Memref sig .scVector .vmem S2x64 .f32).view.ty.Contents (Elt F)) (a c : ℕ) (x : Fin 16) :
    ldW (sW2 : Memref sig .scVector .vmem S2x64 .f32).view Ws a c (ValueIdx.ix2 (0 : Fin 1) x)
      = Ws (ValueIdx.ix2 (⟨a % 2, Nat.mod_lt _ (by decide)⟩ : Fin 2) (⟨c % 49 + x.val, by have := x.isLt; omega⟩ : Fin 64)) := by
  unfold ldW
  rw [View.readAt_apply, View.read_apply]
  refine (cast_eq _ _).trans (congrArg Ws ?_)
  funext a'
  refine Fin.ext ?_
  match a' with
  | ⟨0, _⟩ => show a % 2 + 1 * 0 = a % 2; omega
  | ⟨1, _⟩ => show c % 49 + 1 * x.val = c % 49 + x.val; omega

/-- Lane `x` of what is stored into column `r`, block `b`. -/
theorem tV_apply (W0s : (sW0 : Memref sig .scVector .vmem S2x64 .f32).view.ty.Contents (Elt F))
    (W1s : (sW1 : Memref sig .scVector .vmem S2x64 .f32).view.ty.Contents (Elt F))
    (W2s : (sW2 : Memref sig .scVector .vmem S2x64 .f32).view.ty.Contents (Elt F)) (r b : ℕ) (x : Fin 16) :
    tV W0s W1s W2s r b (KIMath.lane x) = FloatOps.addf
      (FloatOps.addf
        (W0s (ValueIdx.ix2 (⟨r / 4 % 2 % 2, Nat.mod_lt _ (by decide)⟩ : Fin 2) (⟨16 * b % 49 + x.val, by have := x.isLt; omega⟩ : Fin 64)))
        (W1s (ValueIdx.ix2 (⟨r / 2 % 2 % 2, Nat.mod_lt _ (by decide)⟩ : Fin 2) (⟨16 * b % 49 + x.val, by have := x.isLt; omega⟩ : Fin 64))))
      (W2s (ValueIdx.ix2 (⟨r % 2 % 2, Nat.mod_lt _ (by decide)⟩ : Fin 2) (⟨16 * b % 49 + x.val, by have := x.isLt; omega⟩ : Fin 64))) := by
  unfold tV payOf
  show FloatOps.addf
      (FloatOps.addf
        (shapeCast S16 (ldW (sW0 : Memref sig .scVector .vmem S2x64 .f32).view W0s (r / 4 % 2) (16 * b)) shapeCasts_S1x16_S16 (ValueIdx.ix1 x))
        (shapeCast S16 (ldW (sW1 : Memref sig .scVector .vmem S2x64 .f32).view W1s (r / 2 % 2) (16 * b)) shapeCasts_S1x16_S16 (ValueIdx.ix1 x)))
      (shapeCast S16 (ldW (sW2 : Memref sig .scVector .vmem S2x64 .f32).view W2s (r % 2) (16 * b)) shapeCasts_S1x16_S16 (ValueIdx.ix1 x)) = _
  rw [ValueIdx.shapeCast_1a_a_apply, ValueIdx.shapeCast_1a_a_apply, ValueIdx.shapeCast_1a_a_apply, ldW0_apply, ldW1_apply, ldW2_apply]

/-- Weight scratch 0 after its copy-in: rows 0 and 1 of weight table 0. -/
def wS0 (d : Dev nD) (L : grid0.Coords) (B : Buf (Elt F) (w0Loc d)) (fW : Buf (Elt F) ((thr d L).loc cc0_scratch4)) :
    (sW0 : Memref sig .scVector .vmem S2x64 .f32).view.ty.Contents (Elt F) :=
  View.write (Elt F) (sW0 : Memref sig .scVector .vmem S2x64 .f32).view fW
    (ReadAs.same.apply (View.read (Elt F)
      ((w0V : Memref sig .scVector .hbm S20x64 .f32).slice (Rect.unit (s := S20x64) ![0, 0] S2x64.size inb_S20x64_S2x64_0_0) (fun _ => rfl)).view B))
    Finset.univ

theorem wS0_apply (d : Dev nD) (L : grid0.Coords) (B : Buf (Elt F) (w0Loc d)) (fW : Buf (Elt F) ((thr d L).loc cc0_scratch4))
    (a : Fin 2) (c : Fin 64) :
    wS0 d L B fW (ValueIdx.ix2 a c) = B (ValueIdx.ix2 ((a.castLE (by decide) : Fin 20)) c) := by
  have e : wS0 d L B fW = ReadAs.same.apply (View.read (Elt F)
      ((w0V : Memref sig .scVector .hbm S20x64 .f32).slice (Rect.unit (s := S20x64) ![0, 0] S2x64.size inb_S20x64_S2x64_0_0) (fun _ => rfl)).view B) :=
    View.write_whole_univ _ _ _
  rw [e]
  refine ((View.read_apply _ _).trans (cast_eq _ _)).trans (congrArg B ?_)
  funext a'
  refine Fin.ext ?_
  match a' with
  | ⟨0, _⟩ => show 0 + 1 * a.val = a.val; omega
  | ⟨1, _⟩ => show 0 + 1 * c.val = c.val; omega

/-- Weight scratch 1 after its copy-in: rows 0 and 1 of weight table 1. -/
def wS1 (d : Dev nD) (L : grid0.Coords) (B : Buf (Elt F) (w1Loc d)) (fW : Buf (Elt F) ((thr d L).loc cc0_scratch5)) :
    (sW1 : Memref sig .scVector .vmem S2x64 .f32).view.ty.Contents (Elt F) :=
  View.write (Elt F) (sW1 : Memref sig .scVector .vmem S2x64 .f32).view fW
    (ReadAs.same.apply (View.read (Elt F)
      ((w1V : Memref sig .scVector .hbm S10x64 .f32).slice (Rect.unit (s := S10x64) ![0, 0] S2x64.size inb_S10x64_S2x64_0_0) (fun _ => rfl)).view B))
    Finset.univ

theorem wS1_apply (d : Dev nD) (L : grid0.Coords) (B : Buf (Elt F) (w1Loc d)) (fW : Buf (Elt F) ((thr d L).loc cc0_scratch5))
    (a : Fin 2) (c : Fin 64) :
    wS1 d L B fW (ValueIdx.ix2 a c) = B (ValueIdx.ix2 ((a.castLE (by decide) : Fin 10)) c) := by
  have e : wS1 d L B fW = ReadAs.same.apply (View.read (Elt F)
      ((w1V : Memref sig .scVector .hbm S10x64 .f32).slice (Rect.unit (s := S10x64) ![0, 0] S2x64.size inb_S10x64_S2x64_0_0) (fun _ => rfl)).view B) :=
    View.write_whole_univ _ _ _
  rw [e]
  refine ((View.read_apply _ _).trans (cast_eq _ _)).trans (congrArg B ?_)
  funext a'
  refine Fin.ext ?_
  match a' with
  | ⟨0, _⟩ => show 0 + 1 * a.val = a.val; omega
  | ⟨1, _⟩ => show 0 + 1 * c.val = c.val; omega

/-- Weight scratch 2 after its copy-in: rows 0 and 1 of weight table 2. -/
def wS2 (d : Dev nD) (L : grid0.Coords) (B : Buf (Elt F) (w2Loc d)) (fW : Buf (Elt F) ((thr d L).loc cc0_scratch6)) :
    (sW2 : Memref sig .scVector .vmem S2x64 .f32).view.ty.Contents (Elt F) :=
  View.write (Elt F) (sW2 : Memref sig .scVector .vmem S2x64 .f32).view fW
    (ReadAs.same.apply (View.read (Elt F)
      ((w2V : Memref sig .scVector .hbm S2x64 .f32).slice (Rect.unit (s := S2x64) ![0, 0] S2x64.size inb_S2x64_S2x64_0_0) (fun _ => rfl)).view B))
    Finset.univ

theorem wS2_apply (d : Dev nD) (L : grid0.Coords) (B : Buf (Elt F) (w2Loc d)) (fW : Buf (Elt F) ((thr d L).loc cc0_scratch6))
    (a : Fin 2) (c : Fin 64) :
    wS2 d L B fW (ValueIdx.ix2 a c) = B (ValueIdx.ix2 (a) c) := by
  have e : wS2 d L B fW = ReadAs.same.apply (View.read (Elt F)
      ((w2V : Memref sig .scVector .hbm S2x64 .f32).slice (Rect.unit (s := S2x64) ![0, 0] S2x64.size inb_S2x64_S2x64_0_0) (fun _ => rfl)).view B) :=
    View.write_whole_univ _ _ _
  rw [e]
  refine ((View.read_apply _ _).trans (cast_eq _ _)).trans (congrArg B ?_)
  funext a'
  refine Fin.ext ?_
  match a' with
  | ⟨0, _⟩ => show 0 + 1 * a.val = a.val; omega
  | ⟨1, _⟩ => show 0 + 1 * c.val = c.val; omega

theorem B_congr {n : ℕ} (B : FVec F ⟨2, ![n, 64]⟩ .f32) {a a' : Fin n} {c c' : Fin 64} (ha : a.val = a'.val) (hc : c.val = c'.val) :
    B (ValueIdx.ix2 a c) = B (ValueIdx.ix2 a' c') := by
  obtain rfl := Fin.ext ha
  obtain rfl := Fin.ext hc
  rfl

/-! ## The table -/

/-- What a chain of the prologue's 32 indexed stores leaves in the table scratch is the table. -/
theorem table_of_chain (d : Dev nD) (L : grid0.Coords) (B0 : Buf (Elt F) (w0Loc d)) (B1 : Buf (Elt F) (w1Loc d)) (B2 : Buf (Elt F) (w2Loc d))
    (fW0 : Buf (Elt F) ((thr d L).loc cc0_scratch4)) (fW1 : Buf (Elt F) ((thr d L).loc cc0_scratch5))
    (fW2 : Buf (Elt F) ((thr d L).loc cc0_scratch6)) (fT : Buf (Elt F) ((thr d L).loc cc0_scratch7))
    (P : List (View.Piece (Elt F) S64x16 .f32))
    (hP : IsChain (wS0 d L B0 fW0) (wS1 d L B1 fW1) (wS2 d L B2 fW2)
      (View.readAt (Elt F) (sT : Memref sig .scVector .vmem S64x16 .f32).view (LoadRect.whole S64x16) fT) 32 P) :
    IsTable (F := F) B0 B1 B2
      ((sT : Memref sig .scVector .vmem S64x16 .f32).view.writes (Elt F) (sT : Memref sig .scVector .vmem S64x16 .f32).view.junk P) := by
  intro j r hr
  have hj : j.val < 64 := j.isLt
  rw [tFinal _ _ _ _ P hP, gOf32_eq]
  unfold KIMath.tblOf
  rw [if_pos (show ((ValueIdx.ix2 j r : S64x16.Idx) 1 : Fin 16).val < 8 from hr)]
  show tV (wS0 d L B0 fW0) (wS1 d L B1 fW1) (wS2 d L B2 fW2) r.val (j.val / 16)
      (KIMath.lane ⟨j.val % 16, Nat.mod_lt _ (by decide)⟩) = _
  rw [tV_apply, wS0_apply, wS1_apply, wS2_apply]
  exact congrArg₂ FloatOps.addf
    (congrArg₂ FloatOps.addf
      (B_congr B0 (by show r.val / 4 % 2 % 2 = r.val / 4 % 2; omega) (by show 16 * (j.val / 16) % 49 + j.val % 16 = j.val; omega))
      (B_congr B1 (by show r.val / 2 % 2 % 2 = r.val / 2 % 2; omega) (by show 16 * (j.val / 16) % 49 + j.val % 16 = j.val; omega)))
    (B_congr B2 (by show r.val % 2 % 2 = r.val % 2; omega) (by show 16 * (j.val / 16) % 49 + j.val % 16 = j.val; omega))

/-- How to use `table_of_chain` on a list of 32 pieces given as a literal: one `IsChain.cons` per piece, newest first; the
    piece's indices and payload and the read-back it is over are matched by unfolding (one level each). -/
macro "table_chain" : tactic =>
  `(tactic| repeat (first | exact IsChain.nil | refine IsChain.cons (by decide) ?_ _ rfl rfl))

end Cert.Proof.KI

end
-- ==== Proof.KITile.lean ====
/-
  A tile's whole task from its two loops: the three weight rows are copied in and the table of the eight sums is built;
  the first chunk's index words arrive, the first pass gathers its columns and the first copy-out starts; the pair loop
  takes the state before its first round to the state after its last; the two copies still on their way out land, and
  the tile's columns of the result all hold the sums.
-/
import proofs.«203793_g3813930959492_cont_8to1_b_1292_12_alg».proof.Proof.KIValue
import proofs.«203793_g3813930959492_cont_8to1_b_1292_12_alg».proof.Proof.KICond
import proofs.«203793_g3813930959492_cont_8to1_b_1292_12_alg».proof.Proof.KIFacts
import proofs.«203793_g3813930959492_cont_8to1_b_1292_12_alg».proof.Proof.KITable

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- The first pass over a chunk, as a step of a run: from the first index scratch, the table and the first output scratch
    the rest of the program runs with the output scratch holding the gathered table entries. -/
def ComputeT1 : Prop :=
  ∀ (d : Dev nD) (L : grid0.Coords) (AA : Buf (Elt F) ((thr d L).loc cc0_scratch0)), (∀ i, AA i = 0#32 ∨ AA i = 1#32) →
  ∀ (TT : Buf (Elt F) ((thr d L).loc cc0_scratch7)) (fO : Buf (Elt F) ((thr d L).loc cc0_scratch2))
    (α : Type) (k : BitVec 32 → Prog (TpuEff nD τ sig (Elt F) Λ₀ (.scVector (cV L) (jV L))) α) (Q : α → sProp 𝕄),
    (iprop(((sA0 : Memref sig .scVector .vmem S3x640 .i32).view.loc (thr d L) ↦{fullShare} AA)
        ∗ ((sT : Memref sig .scVector .vmem S64x16 .f32).view.loc (thr d L) ↦{fullShare} TT)
        ∗ ((sO0 : Memref sig .scVector .vmem S64x640 .f32).view.loc (thr d L) ↦{fullShare} fO)
        ∗ (∀ acc, iprop(((sA0 : Memref sig .scVector .vmem S3x640 .i32).view.loc (thr d L) ↦{fullShare} AA)
              ∗ ((sT : Memref sig .scVector .vmem S64x16 .f32).view.loc (thr d L) ↦{fullShare} TT)
              ∗ ((sO0 : Memref sig .scVector .vmem S64x640 .f32).view.loc (thr d L) ↦{fullShare} gathered (F := F) AA TT))
            -∗ wp frame (wpE (defs₀ (F := F)) 𝒱₀ (thr d L) none) Set.univ (k acc) Q)) : sProp 𝕄)
      ⊢ wp frame (wpE (defs₀ (F := F)) 𝒱₀ (thr d L) none) Set.univ
          (Scf.Loop.for k0_t1_loop k0_t1_ok 0#32 (k0_t1_body (F := F) L aV (Memref.isWhole_whole _) w0V (Memref.isWhole_whole _) w1V (Memref.isWhole_whole _) w2V (Memref.isWhole_whole _) oV (Memref.isWhole_whole _) sA0 (Memref.isWhole_whole _) sA1 (Memref.isWhole_whole _) sO0 (Memref.isWhole_whole _) sO1 (Memref.isWhole_whole _) sW0 (Memref.isWhole_whole _) sW1 (Memref.isWhole_whole _) sW2 (Memref.isWhole_whole _) sT (Memref.isWhole_whole _) cc0_scratch8 cc0_scratch9 cc0_scratch10 cc0_scratch11 cc0_scoped0 cc0_scoped1 cc0_scoped2) >>= k) Q

section Pts
variable (d : Dev nD) (L : grid0.Coords) (q : PosShare TreeShare)
omit [FloatOps F] in
theorem pts_a (f : Buf (Elt F) (aLoc d)) : ((aV : Memref sig .scVector .hbm S3x800000 .i32).view.loc (thr d L) ↦{q} f : sProp 𝕄) = (aLoc d ↦{q} f) := rfl
omit [FloatOps F] in
theorem pts_w0 (f : Buf (Elt F) (w0Loc d)) : ((w0V : Memref sig .scVector .hbm S20x64 .f32).view.loc (thr d L) ↦{q} f : sProp 𝕄) = (w0Loc d ↦{q} f) := rfl
omit [FloatOps F] in
theorem pts_w1 (f : Buf (Elt F) (w1Loc d)) : ((w1V : Memref sig .scVector .hbm S10x64 .f32).view.loc (thr d L) ↦{q} f : sProp 𝕄) = (w1Loc d ↦{q} f) := rfl
omit [FloatOps F] in
theorem pts_w2 (f : Buf (Elt F) (w2Loc d)) : ((w2V : Memref sig .scVector .hbm S2x64 .f32).view.loc (thr d L) ↦{q} f : sProp 𝕄) = (w2Loc d ↦{q} f) := rfl
omit [FloatOps F] in
theorem pts_sA0 (f : Buf (Elt F) ((thr d L).loc cc0_scratch0)) : ((sA0 : Memref sig .scVector .vmem S3x640 .i32).view.loc (thr d L) ↦{q} f : sProp 𝕄) = ((thr d L).loc cc0_scratch0 ↦{q} f) := rfl
omit [FloatOps F] in
theorem pts_sA1 (f : Buf (Elt F) ((thr d L).loc cc0_scratch1)) : ((sA1 : Memref sig .scVector .vmem S3x640 .i32).view.loc (thr d L) ↦{q} f : sProp 𝕄) = ((thr d L).loc cc0_scratch1 ↦{q} f) := rfl
omit [FloatOps F] in
theorem pts_sO0 (f : Buf (Elt F) ((thr d L).loc cc0_scratch2)) : ((sO0 : Memref sig .scVector .vmem S64x640 .f32).view.loc (thr d L) ↦{q} f : sProp 𝕄) = ((thr d L).loc cc0_scratch2 ↦{q} f) := rfl
omit [FloatOps F] in
theorem pts_sO1 (f : Buf (Elt F) ((thr d L).loc cc0_scratch3)) : ((sO1 : Memref sig .scVector .vmem S64x640 .f32).view.loc (thr d L) ↦{q} f : sProp 𝕄) = ((thr d L).loc cc0_scratch3 ↦{q} f) := rfl
omit [FloatOps F] in
theorem pts_sW0 (f : Buf (Elt F) ((thr d L).loc cc0_scratch4)) : ((sW0 : Memref sig .scVector .vmem S2x64 .f32).view.loc (thr d L) ↦{q} f : sProp 𝕄) = ((thr d L).loc cc0_scratch4 ↦{q} f) := rfl
omit [FloatOps F] in
theorem pts_sW1 (f : Buf (Elt F) ((thr d L).loc cc0_scratch5)) : ((sW1 : Memref sig .scVector .vmem S2x64 .f32).view.loc (thr d L) ↦{q} f : sProp 𝕄) = ((thr d L).loc cc0_scratch5 ↦{q} f) := rfl
omit [FloatOps F] in
theorem pts_sW2 (f : Buf (Elt F) ((thr d L).loc cc0_scratch6)) : ((sW2 : Memref sig .scVector .vmem S2x64 .f32).view.loc (thr d L) ↦{q} f : sProp 𝕄) = ((thr d L).loc cc0_scratch6 ↦{q} f) := rfl
omit [FloatOps F] in
theorem pts_sT (f : Buf (Elt F) ((thr d L).loc cc0_scratch7)) : ((sT : Memref sig .scVector .vmem S64x16 .f32).view.loc (thr d L) ↦{q} f : sProp 𝕄) = ((thr d L).loc cc0_scratch7 ↦{q} f) := rfl

omit [FloatOps F] in
/-- The tile's first chunk of the result array, spelt through the program's slice of it. -/
theorem pts_oc0 (f : Buf (Elt F) (oLoc d)) :
    ((oSl (k0_off70 L) (k0_off70_inb L)).view.loc (thr d L) ↦[(oSl (k0_off70 L) (k0_off70_inb L)).view.set]{fullShare} f : sProp 𝕄)
      = (oLoc d ↦[chunkSet (wid L + 32 * 0)]{fullShare} f) := by
  rw [oSl_set (k0_off70 L) (k0_off70_inb L) (wid L + 32 * 0) (by rw [off70_eq, offI_eq])]

omit [FloatOps F] in
/-- A chunk of the result array, spelt through a slice of it at the chunk's offsets. -/
theorem pts_och (off : Fin 2 → ℕ) (h : ∀ a, off a + S64x640.size a ≤ S64x800000.size a) (n : ℕ) (e : off = ![0, 640 * n]) (f : Buf (Elt F) (oLoc d)) :
    ((oSl off h).view.loc (thr d L) ↦[(oSl off h).view.set]{fullShare} f : sProp 𝕄) = (oLoc d ↦[chunkSet n]{fullShare} f) := by
  rw [oSl_set off h n e]
end Pts

omit [FloatOps F] in
/-- A wait on one of the tile's own semaphores records a pair at the index `none`. -/
theorem waits_ins {W W' : Waits sig (HIx 1)} (s : SemLoc sig) (h : ∀ x ∈ W', x ∈ W ∨ x.2 = none) :
    ∀ x ∈ insert (s, (default : HIx 1)) W', x ∈ W ∨ x.2 = none := by
  intro x hx
  rcases Finset.mem_insert.mp hx with rfl | hx
  · exact Or.inr rfl
  · exact h x hx
omit [FloatOps F] in
theorem waits_base (W : Waits sig (HIx 1)) : ∀ x ∈ W, x ∈ W ∨ x.2 = none := fun _ h => Or.inl h

set_option maxHeartbeats 16000000 in
/-- The tile body's obligation, from the first pass and the pair loop as steps of a run. -/
theorem tile_core (hC1 : ComputeT1 (F := F)) (hPL : PairLoop (F := F)) : TileCore (F := F) := by
  intro d L O W hO q A hA B0 B1 B2 o0
  have k0_h1 : k0_cond1 L = 1#1 := cond1_eq L
  have hw := wid_lt L
  unfold body
  simp only [cc0__body_eq_skeleton]; unfold cc0__body_skel
  iintro ⟨#Hlv, HA, HB0, HB1, HB2, Ho, ⟨%fA0, HsA0⟩, ⟨%fA1, HsA1⟩, ⟨%fO0, HsO0⟩, ⟨%fO1, HsO1⟩, ⟨%fW0, HsW0⟩, ⟨%fW1, HsW1⟩, ⟨%fW2, HsW2⟩, ⟨%fT, HsT⟩,
    Hs8, Hs9, Hs10, Hs11, Hc0, Hc1, Hc2, HO⟩
  ihave Hmw := ((K (F := F)).mayWaits_none (thr := thr d L) hO) $$ Hlv
  -- the tile's columns: its first chunk, and the rest
  ihave Ho := (Entails.of_eq (congrArg (fun s => (oLoc d ↦[s]{fullShare} o0 : sProp 𝕄)) (todoFrom_zero L).symm)) $$ Ho
  ihave Ho2 := (todo_take (F := F) d L 0 (by omega)) $$ [Ho]
  · iexists o0; iexact Ho
  icases Ho2 with ⟨⟨%oc, Hoc⟩, Htodo⟩
  ihave Hoc := (Entails.of_eq (pts_oc0 (F := F) d L oc).symm) $$ Hoc
  ihave HA := (Entails.of_eq (pts_a (F := F) d L q _).symm) $$ HA
  ihave HB0 := (Entails.of_eq (pts_w0 (F := F) d L q _).symm) $$ HB0
  ihave HB1 := (Entails.of_eq (pts_w1 (F := F) d L q _).symm) $$ HB1
  ihave HB2 := (Entails.of_eq (pts_w2 (F := F) d L q _).symm) $$ HB2
  ihave HsA0 := (Entails.of_eq (pts_sA0 (F := F) d L fullShare _).symm) $$ HsA0
  ihave HsA1 := (Entails.of_eq (pts_sA1 (F := F) d L fullShare _).symm) $$ HsA1
  ihave HsO0 := (Entails.of_eq (pts_sO0 (F := F) d L fullShare _).symm) $$ HsO0
  ihave HsO1 := (Entails.of_eq (pts_sO1 (F := F) d L fullShare _).symm) $$ HsO1
  ihave HsW0 := (Entails.of_eq (pts_sW0 (F := F) d L fullShare _).symm) $$ HsW0
  ihave HsW1 := (Entails.of_eq (pts_sW1 (F := F) d L fullShare _).symm) $$ HsW1
  ihave HsW2 := (Entails.of_eq (pts_sW2 (F := F) d L fullShare _).symm) $$ HsW2
  ihave HsT := (Entails.of_eq (pts_sT (F := F) d L fullShare _).symm) $$ HsT
  sl_exec
  repeat (rw [SparseCore.vectorStoreIdx_bind (thr d L)]; sl_exec)
  iapply (hC1 d L _ (in01_A0 (F := F) d L A hA fA0 (k0_off1 L) (k0_off1_inb L)) _ _ _ _ _)
  isplitl [HsA0]; · iexact HsA0
  isplitl [HsT]; · iexact HsT
  isplitl [HsO0]; · iexact HsO0
  iintro %acc ⟨HsA0, HsT, HsO0⟩
  sl_exec
  -- the table holds the eight sums
  have hT : IsTable (F := F) B0 B1 B2 (sT.view.writes (Elt F) sT.view.junk (tile_core.sl.HsT_32 d L B0 B1 B2 fW0 fW1 fW2 fT)) :=
    table_of_chain (F := F) d L B0 B1 B2 fW0 fW1 fW2 fT _ (by unfold tile_core.sl.HsT_32; table_chain)
  -- what the first copy-out delivers is the tile's first chunk at its final contents
  have hD : ((oSl (k0_off70 L) (k0_off70_inb L)).view.loc (thr d L) ↦[(oSl (k0_off70 L) (k0_off70_inb L)).view.set]{fullShare}
        (oSl (k0_off70 L) (k0_off70_inb L)).view.writes (Elt F) oc [⟨Rect.whole S64x640, tile_core.sl.dma0_3 d L A B0 B1 B2 fA0 fW0 fW1 fW2 fT⟩] : sProp 𝕄)
      ⊢ ((oSl (k0_off70 L) (k0_off70_inb L)).view.loc (thr d L) ↦[(oSl (k0_off70 L) (k0_off70_inb L)).view.set]{fullShare} GT (F := F) A B0 B1 B2) :=
    Entails.of_eq (out_pts0_at (F := F) d L A hA B0 B1 B2 _ hT fA0 oc (k0_off1 L) (k0_off1_inb L) (k0_off70 L) (k0_off70_inb L) (wid L + 32 * 0)
      ((off1_eq L).trans (offI_eq L 0)) ((off70_eq L).trans (offI_eq L 0)))
  -- the pair loop, from the state before its first round
  iapply (hPL d L q A hA B0 B1 B2 _ hT O W hO _ _ _)
  isplitl [HsT HsA0 Hs8 HO Hs9 HA Hs10 HsO0 HsO1 Hs11 Htodo]
  · rw [show pairInv d L q A B0 B1 B2 _ O W 0 0#32 = headInv d L q A B0 B1 B2 _ O W 0 from if_pos (by decide)]
    unfold headInv
    rw [if_pos (show wid L + 32 * (2 * 0 + 1) < 1250 by omega), if_pos (rfl : (0 : ℕ) = 0)]
    isplitl [HsT HsA0 Hs8 HO]
    · unfold Common
      isplitr; · iexact Hmw
      isplitl [HsT]; · iexact HsT
      isplitl [HsA0]; · iexists _; iexact HsA0
      isplitl [Hs8]; · iexact Hs8
      iexists _; isplitr
      rotate_left
      · iexact HO
      · ipureintro; exact waits_ins _ (waits_ins _ (waits_ins _ (waits_ins _ (waits_base W))))
    isplitl [Hs9 HA]
    · iexists (k0_off2 L), (k0_off2_inb L k0_h1)
      isplitr; · ipureintro; exact off2_eq L
      unfold InFl1
      isplitl [Hs9]
      · iexists fA1; iexact Hs9
      · iexact HA
    isplitl [Hs10 HsO0]
    · iexists (k0_off70 L), (k0_off70_inb L)
      isplitr; · ipureintro; exact off70_eq L
      unfold OutFl0
      iexists _
      isplitl [Hs10]
      · iapply (Transfers.Flight_mono countersEmb (thr d L) (sep_mono_left hD)) $$ Hs10
      · iexact HsO0
    isplitl [HsO1 Hs11]
    · unfold OutRest1
      isplitl [HsO1]; · iexists _; iexact HsO1
      iexact Hs11
    isplitl [Htodo]; · iexact Htodo
    rw [show 2 * 0 - 1 = 0 from rfl, doneUpto_zero, pointsTo_empty]; iempintro
  -- after the last round: the two copies still on their way out
  iintro %acc2 Hinv
  ihave Hinv := (Entails.of_eq (show pairInv d L q A B0 B1 B2 _ O W 20 acc2 = exitInv d L q A B0 B1 B2 _ O W from if_neg (by decide))) $$ Hinv
  unfold exitInv Common InRest1 OutFl0 OutFl1
  icases Hinv with ⟨⟨-, HsT, ⟨%fa0, HsA0⟩, Hs8, ⟨%W2, %hW2, HO⟩⟩, ⟨⟨%fa1, HsA1⟩, Hs9, HA⟩, ⟨%offE, %hoffE, %eoffE, ⟨%AAe, Hs10, HsO0⟩⟩,
    ⟨%j, %lo, %offJ, %hoffJ, %hJ, ⟨%AAj, Hs11, HsO1⟩, Hdone⟩⟩
  sl_exec
  rw [wp_ret]; imodintro
  obtain ⟨hcase, hbig, hjlt, eJ⟩ := hJ
  ihave HcE := (Entails.of_eq (pts_och (F := F) d L offE hoffE (wid L + 32 * 38) (eoffE.trans (offI_eq L 38)) _)) $$ Hs10_dst
  ihave HcJ := (Entails.of_eq (pts_och (F := F) d L offJ hoffJ (wid L + 32 * j) (eJ.trans (offI_eq L j)) _)) $$ Hs11_dst
  isplitl [HA]; · iexact HA
  isplitl [HB0]; · iexact HB0
  isplitl [HB1]; · iexact HB1
  isplitl [HB2]; · iexact HB2
  isplitl [Hdone HcE HcJ]
  · rcases hcase with ⟨rfl, rfl⟩ | ⟨rfl, rfl⟩
    · ihave H38 := (done_put (F := F) d L 37 _) $$ [Hdone HcJ]
      · isplitl [Hdone] <;> iassumption
      ihave H39 := (done_put (F := F) d L 38 _) $$ [H38 HcE]
      · isplitl [H38] <;> iassumption
      iapply (Entails.of_eq (congrArg (fun s => (oLoc d ↦[s]{fullShare} GT (F := F) A B0 B1 B2 : sProp 𝕄)) (doneUpto_all L 39 (by omega)))) $$ H39
    · ihave H39 := (done_put (F := F) d L 38 _) $$ [Hdone HcE]
      · isplitl [Hdone] <;> iassumption
      ihave H40 := (done_put (F := F) d L 39 _) $$ [H39 HcJ]
      · isplitl [H39] <;> iassumption
      iapply (Entails.of_eq (congrArg (fun s => (oLoc d ↦[s]{fullShare} GT (F := F) A B0 B1 B2 : sProp 𝕄)) (doneUpto_all L 40 (by omega)))) $$ H40
  isplitl [HsA0]; · iexists _; iexact HsA0
  isplitl [HsA1]; · iexists _; iexact HsA1
  isplitl [HsO0]; · iexists _; iexact HsO0
  isplitl [HsO1]; · iexists _; iexact HsO1
  isplitl [HsW0]; · iexists _; iexact HsW0
  isplitl [HsW1]; · iexists _; iexact HsW1
  isplitl [HsW2]; · iexists _; iexact HsW2
  isplitl [HsT]; · iexists _; iexact HsT
  isplitl [Hs8]; · iexact Hs8
  isplitl [Hs9]; · iexact Hs9
  isplitl [Hs10]; · iexact Hs10
  isplitl [Hs11]; · iexact Hs11
  isplitl [Hc0]; · iexact Hc0
  isplitl [Hc1]; · iexact Hc1
  isplitl [Hc2]; · iexact Hc2
  iexists _; isplitr
  rotate_left
  · iexact HO
  · ipureintro; exact waits_ins _ (waits_ins _ hW2)

end Cert.Proof.KI

end
-- ==== Proof.KIPiece.lean ====
/-
  One pass over a chunk fills the output scratch sixteen columns at a time: in trip g it writes, for each of the 64
  rows j, the sixteen entries of row j in columns 16 g … 16 g + 15, each read out of the table at row j and at the
  column the edge's three index words name. These are the facts about one such write and about all 64 of a trip.
-/
import proofs.«203793_g3813930959492_cont_8to1_b_1292_12_alg».proof.Proof.KIGather
import proofs.«203793_g3813930959492_cont_8to1_b_1292_12_alg».proof.Proof.KIMath
import Idealize.ShloMosaic.Lib.Writes

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## One row of sixteen and sixteen lanes -/

omit [FloatOps F] in
/-- Lane x of a sixteen-lane vector is entry (0, x) of the one-row block with the same elements. -/
theorem reshape_lane_to_row (h : S16.numel = S1x16.numel) (x : S16.Idx) :
    Shape.reshapeEquiv h x = (ValueIdx.ix2 (0 : Fin 1) (x 0 : Fin 16) : S1x16.Idx) := by
  apply Shape.reshapeEquiv_eq_of_rowMajor
  rw [Shape.rowMajor_val_one, Shape.rowMajor_val_two]
  simp

omit [FloatOps F] in
/-- Entry (0, c) of a one-row block is lane c of the sixteen-lane vector with the same elements. -/
theorem reshape_row_to_lane (h : S1x16.numel = S16.numel) (x : S1x16.Idx) :
    Shape.reshapeEquiv h x = (ValueIdx.ix1 (x 1 : Fin 16) : S16.Idx) := by
  apply Shape.reshapeEquiv_eq_of_rowMajor
  rw [Shape.rowMajor_val_one, Shape.rowMajor_val_two]
  have h0 : (x 0 : Fin 1).val = 0 := by
    have h1 : (x 0 : Fin 1).val < 1 := (x 0 : Fin 1).isLt
    omega
  show (x 1 : Fin 16).val = (x 0 : Fin 1).val * 16 + (x 1 : Fin 16).val
  omega

/-! ## A block of sixteen columns written row by row -/

omit [FloatOps F] in
theorem forall₂_right {α β : Type*} {R : α → β → Prop} {l₁ : List α} {l₂ : List β} (h : List.Forall₂ R l₁ l₂) :
    ∀ b ∈ l₂, ∃ a ∈ l₁, R a b := by
  induction h with
  | nil => intro b hb; cases hb
  | cons hab _ ih =>
    intro b hb
    rcases List.mem_cons.1 hb with rfl | hb
    · exact ⟨_, by simp, hab⟩
    · obtain ⟨a, ha, r⟩ := ih b hb
      exact ⟨a, List.mem_cons_of_mem _ ha, r⟩

omit [FloatOps F] in
theorem forall₂_left {α β : Type*} {R : α → β → Prop} {l₁ : List α} {l₂ : List β} (h : List.Forall₂ R l₁ l₂) :
    ∀ a ∈ l₁, ∃ b ∈ l₂, R a b := by
  induction h with
  | nil => intro a ha; cases ha
  | cons hab _ ih =>
    intro a ha
    rcases List.mem_cons.1 ha with rfl | ha
    · exact ⟨_, by simp, hab⟩
    · obtain ⟨b, hb, r⟩ := ih a ha
      exact ⟨b, List.mem_cons_of_mem _ hb, r⟩

omit [FloatOps F] in
/-- After writes that all lie in columns 16 g … 16 g + 15, agree there with one function G and cover every entry
    of those columns, every entry in a column below 16 (g + 1) holds G, provided the columns below 16 g did before. -/
theorem read_writes_colblock {sig : RefSig} {κ : Kind} {sp : Space} {e : EltTy} {Val : EltTy → Type}
    (v : View sig κ sp S64x640 e) (f : v.ty.Contents Val) (G : S64x640.Idx → Val e) (g : ℕ)
    (L : List (View.Piece Val S64x640 e))
    (hold : ∀ y : S64x640.Idx, (y 1 : Fin 640).val < 16 * g → v.read Val f y = G y)
    (hL : ∀ p ∈ L, (∀ x, p.2 x = G (p.1.emb x)) ∧ ∀ y ∈ p.1.set, 16 * g ≤ (y 1 : Fin 640).val)
    (hcov : ∀ y : S64x640.Idx, 16 * g ≤ (y 1 : Fin 640).val → (y 1 : Fin 640).val < 16 * (g + 1) →
      ∃ p ∈ L, y ∈ p.1.set)
    (y : S64x640.Idx) (hy : (y 1 : Fin 640).val < 16 * (g + 1)) : v.read Val (v.writes Val f L) y = G y := by
  by_cases h : (y 1 : Fin 640).val < 16 * g
  · rw [View.read_writes_apply_of_forall_not_mem v f y L (fun p hp hm => by have := (hL p hp).2 y hm; omega)]
    exact hold y h
  · exact View.read_writes_apply_of_pieces v f G L (fun p hp => (hL p hp).1) y (hcov y (by omega) hy)

/-- What is asked of the write for row j in trip g: it holds G on its rectangle, and its rectangle is row j,
    columns 16 g … 16 g + 15. -/
def AtRow {e : EltTy} {Val : EltTy → Type} (G : S64x640.Idx → Val e) (g j : ℕ) (p : View.Piece Val S64x640 e) : Prop :=
  (∀ x, p.2 x = G (p.1.emb x)) ∧
    ∀ y : S64x640.Idx, y ∈ p.1.set ↔
      ((y 0 : Fin 64).val = j ∧ 16 * g ≤ (y 1 : Fin 640).val ∧ (y 1 : Fin 640).val < 16 * g + 16)

omit [FloatOps F] in
/-- A list of writes, one per row of a list naming every row. -/
theorem colblock_of_rows {sig : RefSig} {κ : Kind} {sp : Space} {e : EltTy} {Val : EltTy → Type}
    (v : View sig κ sp S64x640 e) (f : v.ty.Contents Val) (G : S64x640.Idx → Val e) (g : ℕ)
    (rows : List ℕ) (L : List (View.Piece Val S64x640 e)) (hrows : ∀ j, j < 64 → j ∈ rows)
    (hL : List.Forall₂ (AtRow G g) rows L)
    (hold : ∀ y : S64x640.Idx, (y 1 : Fin 640).val < 16 * g → v.read Val f y = G y)
    (y : S64x640.Idx) (hy : (y 1 : Fin 640).val < 16 * (g + 1)) : v.read Val (v.writes Val f L) y = G y := by
  refine read_writes_colblock v f G g L hold ?_ ?_ y hy
  · intro p hp
    obtain ⟨j, -, hj⟩ := forall₂_right hL p hp
    exact ⟨hj.1, fun y hm => ((hj.2 y).1 hm).2.1⟩
  · intro y h1 h2
    obtain ⟨p, hp, hj⟩ := forall₂_left hL _ (hrows _ (y 0 : Fin 64).isLt)
    exact ⟨p, hp, (hj.2 y).2 ⟨rfl, h1, by omega⟩⟩

/-! ## One write of a trip -/

omit [FloatOps F] in
/-- A one-by-sixteen block at row j inside the 64 by 640 array has j below 64. -/
theorem row_lt {g j : ℕ} {off : Fin 2 → ℕ} (hoff : off = ![j, 16 * g])
    (hinb : ∀ a, off a + S1x16.size a ≤ S64x640.size a) : j < 64 := by
  subst hoff
  have h0 : j + 1 ≤ 64 := hinb 0
  omega

omit [FloatOps F] in
/-- The write for row j in trip g, whose sixteen lanes are the table's entries of row j at the columns the sixteen
    edges 16 g … 16 g + 15 name. -/
theorem atRow_piece (AA : IVec S3x640 32) (TT : FVec F S64x16 .f32) (g j : ℕ)
    (off : Fin 2 → ℕ) (hinb : ∀ a, off a + S1x16.size a ≤ S64x640.size a)
    (w : Vec F S16 .f32) (hsc : S16.ShapeCasts S1x16) (hoff : off = ![j, 16 * g])
    (hw : ∀ (c : Fin 16) (hc : 16 * g + c.val < 640),
      w (ValueIdx.ix1 c) = TT (ValueIdx.ix2 (⟨j, row_lt hoff hinb⟩ : Fin 64) (kcol AA ⟨16 * g + c.val, hc⟩))) :
    AtRow (gathered AA TT) g j ⟨Rect.unit (s := S64x640) off S1x16.size hinb, shapeCast S1x16 w hsc⟩ := by
  have hj : j < 64 := row_lt hoff hinb
  subst hoff
  constructor
  · intro x
    have hx0 : (x 0 : Fin 1).val < 1 := (x 0 : Fin 1).isLt
    have hx1 : (x 1 : Fin 16).val < 16 := (x 1 : Fin 16).isLt
    have hb := hinb 1
    have hb' : 16 * g + 16 ≤ 640 := hb
    show w (Shape.reshapeEquiv hsc x) = gathered AA TT ((Rect.unit (s := S64x640) ![j, 16 * g] S1x16.size hinb).emb x)
    rw [reshape_row_to_lane, hw (x 1 : Fin 16) (show 16 * g + (x 1 : Fin 16).val < 640 by omega)]
    unfold gathered
    congr 1
    have e0 : (((Rect.unit (s := S64x640) ![j, 16 * g] S1x16.size hinb).emb x) 0 : Fin 64) = ⟨j, hj⟩ :=
      Fin.ext (by show j + 1 * (x 0 : Fin 1).val = j; omega)
    have e1 : (((Rect.unit (s := S64x640) ![j, 16 * g] S1x16.size hinb).emb x) 1 : Fin 640)
        = ⟨16 * g + (x 1 : Fin 16).val, (show 16 * g + (x 1 : Fin 16).val < 640 by omega)⟩ :=
      Fin.ext (by show 16 * g + 1 * (x 1 : Fin 16).val = 16 * g + (x 1 : Fin 16).val; omega)
    rw [e0, e1]
    rfl
  · intro y
    rw [Rect.mem_set_unit]
    constructor
    · intro h
      have h0 := h 0
      have h1 := h 1
      have h0' : j ≤ (y 0 : Fin 64).val ∧ (y 0 : Fin 64).val < j + 1 := h0
      have h1' : 16 * g ≤ (y 1 : Fin 640).val ∧ (y 1 : Fin 640).val < 16 * g + 16 := h1
      omega
    · rintro ⟨h0, h1, h2⟩ a
      match a with
      | ⟨0, _⟩ =>
        show j ≤ (y 0 : Fin 64).val ∧ (y 0 : Fin 64).val < j + 1
        omega
      | ⟨1, _⟩ =>
        show 16 * g ≤ (y 1 : Fin 640).val ∧ (y 1 : Fin 640).val < 16 * g + 16
        omega

/-! ## The words a trip reads -/

omit [FloatOps F] in
/-- A load of sixteen words of row r of an index scratch, columns 16 g … 16 g + 15, entry by entry. -/
theorem readAt_row {κ : Kind} {sp : Space} (v : View sig κ sp S3x640 .i32) (A : v.ty.Contents (Elt F)) (AA : IVec S3x640 32)
    (r : ℕ) (hr : r < 3) (g : ℕ)
    (off : Fin 2 → ℕ) (hinb : ∀ a, off a + S1x16.size a ≤ S3x640.size a)
    (y : S1x16.Idx) (hc : 16 * g + (y 1 : Fin 16).val < 640) (hv : ∀ y, v.read (Elt F) A y = AA y) (hoff : off = ![r, 16 * g]) :
    v.readAt (Elt F) (Rect.unit (s := S3x640) off S1x16.size hinb).toLoadRect A y
      = AA (ValueIdx.ix2 (⟨r, hr⟩ : Fin 3) (⟨16 * g + (y 1 : Fin 16).val, hc⟩ : Fin 640)) := by
  subst hoff
  have hy0 : (y 0 : Fin 1).val < 1 := (y 0 : Fin 1).isLt
  show v.read (Elt F) A ((Rect.unit (s := S3x640) ![r, 16 * g] S1x16.size hinb).toLoadRect.idx y) = _
  rw [hv]
  congr 1
  funext a
  match a with
  | ⟨0, _⟩ => exact Fin.ext (by show r + 1 * (y 0 : Fin 1).val = r; omega)
  | ⟨1, _⟩ => exact Fin.ext (by show 16 * g + 1 * (y 1 : Fin 16).val = 16 * g + (y 1 : Fin 16).val; omega)

/-- One indexed load of a trip, lane by lane: row j of the table at the column the lane's edge names. -/
theorem loadIdx_gather (AA : IVec S3x640 32) (TT : FVec F S64x16 .f32) (g j : ℕ) (hj : j < 64)
    (T : Vec F S64x16 .f32) (l0 l1 l2 : Vec F S1x16 .i32) (kk : IVec S16 32)
    (h : ∀ a x, ((![broadcast S16 (BitVec.ofNat 32 j), kk] : Fin 2 → IVec S16 32) a x).toNat < S64x16.size a)
    (c : Fin 16) (hc : 16 * g + c.val < 640) (hT : T = TT)
    (hkk : ∀ x : S16.Idx, kk x
      = IntOp.addi (IntOp.addi (IntOp.muli (l0 (Shape.reshapeEquiv shapeCasts_S1x16_S16 x)) 4#32)
          (IntOp.muli (l1 (Shape.reshapeEquiv shapeCasts_S1x16_S16 x)) 2#32))
          (l2 (Shape.reshapeEquiv shapeCasts_S1x16_S16 x)))
    (hl0 : ∀ (y : S1x16.Idx) (hc : 16 * g + (y 1 : Fin 16).val < 640),
      l0 y = AA (ValueIdx.ix2 (0 : Fin 3) (⟨16 * g + (y 1 : Fin 16).val, hc⟩ : Fin 640)))
    (hl1 : ∀ (y : S1x16.Idx) (hc : 16 * g + (y 1 : Fin 16).val < 640),
      l1 y = AA (ValueIdx.ix2 (1 : Fin 3) (⟨16 * g + (y 1 : Fin 16).val, hc⟩ : Fin 640)))
    (hl2 : ∀ (y : S1x16.Idx) (hc : 16 * g + (y 1 : Fin 16).val < 640),
      l2 y = AA (ValueIdx.ix2 (2 : Fin 3) (⟨16 * g + (y 1 : Fin 16).val, hc⟩ : Fin 640)))
    :
    loadIdx T ![broadcast S16 (BitVec.ofNat 32 j), kk] h (ValueIdx.ix1 c)
      = TT (ValueIdx.ix2 (⟨j, hj⟩ : Fin 64) (kcol AA ⟨16 * g + c.val, hc⟩)) := by
  subst hT
  have hk : ∀ x : S16.Idx, (kk x).toNat < 16 := fun x => h 1 x
  rw [Cert.Proof.KIMath.loadIdx_col T j hj kk hk h (ValueIdx.ix1 c)]
  congr 2
  apply Fin.ext
  have e := hkk (ValueIdx.ix1 c)
  have hlt := hk (ValueIdx.ix1 c)
  show (kk (ValueIdx.ix1 c)).toNat = (kcol AA ⟨16 * g + c.val, hc⟩).val
  unfold kcol
  rw [e] at hlt ⊢
  rw [reshape_lane_to_row] at hlt ⊢
  rw [hl0 _ hc, hl1 _ hc, hl2 _ hc] at hlt ⊢
  exact (Nat.mod_eq_of_lt hlt).symm

/-! ## The rows of a trip, last written first -/

/-- The 64 rows in the order a trip's writes are listed: the last written first. -/
def rows64 : List ℕ := [63, 62, 61, 60, 59, 58, 57, 56, 55, 54, 53, 52, 51, 50, 49, 48, 47, 46, 45, 44, 43, 42, 41, 40, 39, 38, 37, 36, 35, 34, 33, 32, 31, 30, 29, 28, 27, 26, 25, 24, 23, 22, 21, 20, 19, 18, 17, 16, 15, 14, 13, 12, 11, 10, 9, 8, 7, 6, 5, 4, 3, 2, 1, 0]

omit [FloatOps F] in
theorem rows64_all : ∀ j, j < 64 → j ∈ rows64 := by
  intro j hj
  unfold rows64
  interval_cases j <;> decide

end Cert.Proof.KI

end
-- ==== Proof.KIRegion1.lean ====
/-
  The first pass over a chunk: forty trips, each gathering sixteen more columns of the tile's first output scratch
  from the table, by the three index words of each edge in the first index scratch.
-/
import proofs.«203793_g3813930959492_cont_8to1_b_1292_12_alg».proof.Proof.KIPiece

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The writes of one trip into this pass's output scratch, read entry by entry. -/
theorem colblock_t1 (f : (sO0 : Memref sig .scVector .vmem S64x640 .f32).view.ty.Contents (Elt F)) (G : S64x640.Idx → F .f32) (g : ℕ)
    (Lp : List (View.Piece (Elt F) S64x640 .f32)) (hL : List.Forall₂ (AtRow G g) rows64 Lp)
    (hold : ∀ y : S64x640.Idx, (y 1 : Fin 640).val < 16 * g → f y = G y)
    (y : S64x640.Idx) (hy : (y 1 : Fin 640).val < 16 * (g + 1)) :
    ((sO0 : Memref sig .scVector .vmem S64x640 .f32).view.writes (Elt F) f Lp) y = G y :=
  colblock_of_rows (sO0 : Memref sig .scVector .vmem S64x640 .f32).view f G g rows64 Lp rows64_all hL hold y hy

/-- Before trip g of the pass: the index scratch and the table as they were, and the output scratch holding the
    gathered table entries in every column below 16 g. -/
def invt1 (d : Dev nD) (L : grid0.Coords) (AA : Buf (Elt F) ((thr d L).loc cc0_scratch0))
    (TT : Buf (Elt F) ((thr d L).loc cc0_scratch7)) (g : ℕ) (_ : BitVec 32) : sProp 𝕄 :=
  iprop(((sA0 : Memref sig .scVector .vmem S3x640 .i32).view.loc (thr d L) ↦{fullShare} AA) ∗ ((sT : Memref sig .scVector .vmem S64x16 .f32).view.loc (thr d L) ↦{fullShare} TT)
    ∗ ∃ f : Buf (Elt F) ((thr d L).loc cc0_scratch2), ((sO0 : Memref sig .scVector .vmem S64x640 .f32).view.loc (thr d L) ↦{fullShare} f)
        ∗ ⌜∀ y : S64x640.Idx, (y 1 : Fin 640).val < 16 * g → f y = gathered (F := F) AA TT y⌝)

set_option maxHeartbeats 16000000 in
set_option sl_exec.dischHeartbeats 400000 in
/-- One trip: sixteen more columns of the output scratch are gathered. -/
theorem region_t1 (d : Dev nD) (L : grid0.Coords) (AA : Buf (Elt F) ((thr d L).loc cc0_scratch0))
    (hAA : ∀ i, AA i = 0#32 ∨ AA i = 1#32) (TT : Buf (Elt F) ((thr d L).loc cc0_scratch7))
    (g : Fin k0_t1_loop.trips) (acc : BitVec 32) :
    invt1 (F := F) d L AA TT g.val acc
      ⊢ wp frame (wpE (defs₀ (F := F)) 𝒱₀ (thr d L) none) Set.univ ((k0_t1_body (F := F) L aV (Memref.isWhole_whole _) w0V (Memref.isWhole_whole _) w1V (Memref.isWhole_whole _) w2V (Memref.isWhole_whole _) oV (Memref.isWhole_whole _) sA0 (Memref.isWhole_whole _) sA1 (Memref.isWhole_whole _) sO0 (Memref.isWhole_whole _) sO1 (Memref.isWhole_whole _) sW0 (Memref.isWhole_whole _) sW1 (Memref.isWhole_whole _) sW2 (Memref.isWhole_whole _) sT (Memref.isWhole_whole _) cc0_scratch8 cc0_scratch9 cc0_scratch10 cc0_scratch11 cc0_scoped0 cc0_scoped1 cc0_scoped2) g acc)
          (invt1 (F := F) d L AA TT (g.val + 1)) := by
  unfold invt1 k0_t1_body
  iintro ⟨HsA, HsT, %fO, HsO, %hold⟩
  sl_exec (disch := exact chk_pay1 _ _ _ (rd01_A0 d _ _ AA hAA _ _) (rd01_A0 d _ _ AA hAA _ _) (rd01_A0 d _ _ AA hAA _ _) _ (by decide))
  repeat (rw [SparseCore.vectorLoadIdx_bind (thr d L)]; sl_exec (disch := exact chk_pay1 _ _ _ (rd01_A0 d _ _ AA hAA _ _) (rd01_A0 d _ _ AA hAA _ _) (rd01_A0 d _ _ AA hAA _ _) _ (by decide)))
  sl_step
  isplitl [HsA]; · iexact HsA
  isplitl [HsT]; · iexact HsT
  iexists _
  isplitl [HsO]; · iexact HsO
  ipureintro
  intro y hy
  sl_unfold_run_names
  refine colblock_t1 fO (gathered (F := F) AA TT) g.val _ ?_ hold y hy
  unfold rows64
  repeat' (first | exact List.Forall₂.nil | refine List.Forall₂.cons ?_ ?_)
  all_goals
    (refine atRow_piece AA TT g.val _ _ _ _ _ ?_ ?_
     · exact ClosedOff.eq
     · exact fun c hc =>
        loadIdx_gather AA TT g.val _ _ _ _ _ _ _ _ c hc (Memref.readAt_whole (Elt F) cc0_scratch7 TT) (fun _ => rfl)
          (fun y hc => readAt_row (sA0 : Memref sig .scVector .vmem S3x640 .i32).view AA AA 0 (by decide) g.val _ _ y hc (fun _ => rfl) (k0_off3_eq g))
          (fun y hc => readAt_row (sA0 : Memref sig .scVector .vmem S3x640 .i32).view AA AA 1 (by decide) g.val _ _ y hc (fun _ => rfl) (k0_off4_eq g))
          (fun y hc => readAt_row (sA0 : Memref sig .scVector .vmem S3x640 .i32).view AA AA 2 (by decide) g.val _ _ y hc (fun _ => rfl) (k0_off5_eq g)))

end Cert.Proof.KI

end
-- ==== Proof.KICompute1.lean ====
/-
  The first pass over a chunk as one step of the tile's run: the loop of forty trips by its invariant.
-/
import proofs.«203793_g3813930959492_cont_8to1_b_1292_12_alg».proof.Proof.KIRegion1

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The whole pass: from any contents of the output scratch to the gathered table entries, the index scratch and the
    table unchanged; the program after the loop runs from there. -/
theorem compute_t1 (d : Dev nD) (L : grid0.Coords) (AA : Buf (Elt F) ((thr d L).loc cc0_scratch0))
    (hAA : ∀ i, AA i = 0#32 ∨ AA i = 1#32) (TT : Buf (Elt F) ((thr d L).loc cc0_scratch7))
    (fO : Buf (Elt F) ((thr d L).loc cc0_scratch2))
    {α : Type} (k : BitVec 32 → Prog (TpuEff nD τ sig (Elt F) Λ₀ (.scVector (cV L) (jV L))) α) (Q : α → sProp 𝕄) :
    iprop(((sA0 : Memref sig .scVector .vmem S3x640 .i32).view.loc (thr d L) ↦{fullShare} AA) ∗ ((sT : Memref sig .scVector .vmem S64x16 .f32).view.loc (thr d L) ↦{fullShare} TT)
        ∗ ((sO0 : Memref sig .scVector .vmem S64x640 .f32).view.loc (thr d L) ↦{fullShare} fO)
        ∗ (∀ acc, iprop(((sA0 : Memref sig .scVector .vmem S3x640 .i32).view.loc (thr d L) ↦{fullShare} AA) ∗ ((sT : Memref sig .scVector .vmem S64x16 .f32).view.loc (thr d L) ↦{fullShare} TT)
              ∗ ((sO0 : Memref sig .scVector .vmem S64x640 .f32).view.loc (thr d L) ↦{fullShare} gathered (F := F) AA TT))
            -∗ wp frame (wpE (defs₀ (F := F)) 𝒱₀ (thr d L) none) Set.univ (k acc) Q))
      ⊢ wp frame (wpE (defs₀ (F := F)) 𝒱₀ (thr d L) none) Set.univ
          (Scf.Loop.for k0_t1_loop k0_t1_ok 0#32 (k0_t1_body (F := F) L aV (Memref.isWhole_whole _) w0V (Memref.isWhole_whole _) w1V (Memref.isWhole_whole _) w2V (Memref.isWhole_whole _) oV (Memref.isWhole_whole _) sA0 (Memref.isWhole_whole _) sA1 (Memref.isWhole_whole _) sO0 (Memref.isWhole_whole _) sO1 (Memref.isWhole_whole _) sW0 (Memref.isWhole_whole _) sW1 (Memref.isWhole_whole _) sW2 (Memref.isWhole_whole _) sT (Memref.isWhole_whole _) cc0_scratch8 cc0_scratch9 cc0_scratch10 cc0_scratch11 cc0_scoped0 cc0_scoped1 cc0_scoped2) >>= k) Q := by
  iintro ⟨HA, HT, HO, HK⟩
  iapply (Scf.wp_for_bind frame (wpE (defs₀ (F := F)) 𝒱₀ (thr d L) none) Set.univ k0_t1_loop.lb k0_t1_loop.ub k0_t1_loop.st
    k0_t1_ok 0#32 (k0_t1_body (F := F) L aV (Memref.isWhole_whole _) w0V (Memref.isWhole_whole _) w1V (Memref.isWhole_whole _) w2V (Memref.isWhole_whole _) oV (Memref.isWhole_whole _) sA0 (Memref.isWhole_whole _) sA1 (Memref.isWhole_whole _) sO0 (Memref.isWhole_whole _) sO1 (Memref.isWhole_whole _) sW0 (Memref.isWhole_whole _) sW1 (Memref.isWhole_whole _) sW2 (Memref.isWhole_whole _) sT (Memref.isWhole_whole _) cc0_scratch8 cc0_scratch9 cc0_scratch10 cc0_scratch11 cc0_scoped0 cc0_scoped1 cc0_scoped2) (invt1 (F := F) d L AA TT)
    (region_t1 d L AA hAA TT)) $$ [HA HT HO]
  · unfold invt1
    isplitl [HA]; · iexact HA
    isplitl [HT]; · iexact HT
    iexists fO
    isplitl [HO]; · iexact HO
    ipureintro
    intro y hy
    exact absurd hy (by omega)
  iintro %acc HI
  unfold invt1
  icases HI with ⟨HA, HT, %f, HO, %hf⟩
  have htrips : Scf.trips k0_t1_loop.lb k0_t1_loop.ub k0_t1_loop.st = 40 := by decide
  have hfe : f = gathered (F := F) AA TT := by
    funext y
    have hy : (y 1 : Fin 640).val < 640 := (y 1 : Fin 640).isLt
    exact hf y (by rw [htrips]; omega)
  subst hfe
  iapply HK
  isplitl [HA]; · iexact HA
  isplitl [HT]; · iexact HT
  iexact HO

end Cert.Proof.KI

end
-- ==== Proof.KIPairLoop.lean ====
/-
  The pair loop from its rounds: each round takes the state before it to the state before the next, and the state
  "before round 20" is the state after the last round; so the twenty rounds take the state before round 0 to the state
  after round 19. Which lemma serves a round depends on its number and on whether the tile still has the chunks the
  round would work on: round 0; rounds 1 … 18 with a chunk 2p+3 to prefetch; round 18 without one; round 19 with a
  chunk 39 and without.
-/
import proofs.«203793_g3813930959492_cont_8to1_b_1292_12_alg».proof.Proof.KIIface

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

omit [FloatOps F] in
/-- The pair loop has twenty rounds. -/
theorem t2_trips : k0_t2_loop.trips = 20 := by decide +kernel

/-- A round of the pair loop takes the invariant before it to the invariant after it, for the tiles and round numbers
    picked out by `side`. -/
abbrev RoundOK (side : grid0.Coords → ℕ → Prop) : Prop :=
  ∀ (d : Dev nD) (L : grid0.Coords) (q : PosShare TreeShare) (A : Buf (Elt F) (aLoc d)) (_ : ∀ i, A i = 0#32 ∨ A i = 1#32)
    (B0 : Buf (Elt F) (w0Loc d)) (B1 : Buf (Elt F) (w1Loc d)) (B2 : Buf (Elt F) (w2Loc d)) (TT : Buf (Elt F) ((thr d L).loc cc0_scratch7))
    (_ : IsTable (F := F) B0 B1 B2 TT)
    (O : CellTallies nD τ sig (HIx 1)) (W : Waits sig (HIx 1)) (_ : ∀ g, O g none = 0)
    (p : Fin k0_t2_loop.trips) (_ : side L p.val) (acc : BitVec 32),
    pairInv d L q A B0 B1 B2 TT O W p.val acc
      ⊢ wp frame (wpE (defs₀ (F := F)) 𝒱₀ (thr d L) none) Set.univ (k0_t2_body (F := F) L aV (Memref.isWhole_whole _) w0V (Memref.isWhole_whole _) w1V (Memref.isWhole_whole _) w2V (Memref.isWhole_whole _) oV (Memref.isWhole_whole _) sA0 (Memref.isWhole_whole _) sA1 (Memref.isWhole_whole _) sO0 (Memref.isWhole_whole _) sO1 (Memref.isWhole_whole _) sW0 (Memref.isWhole_whole _) sW1 (Memref.isWhole_whole _) sW2 (Memref.isWhole_whole _) sT (Memref.isWhole_whole _) cc0_scratch8 cc0_scratch9 cc0_scratch10 cc0_scratch11 cc0_scoped0 cc0_scoped1 cc0_scoped2 p acc)
          (pairInv d L q A B0 B1 B2 TT O W (p.val + 1))

set_option maxHeartbeats 4000000 in
/-- The pair loop from its five kinds of round. -/
theorem pair_loop_of
    (h0 : RoundOK (F := F) fun _ p => p = 0)
    (hm : RoundOK (F := F) fun L p => 1 ≤ p ∧ p ≤ 18 ∧ wid L + 32 * (2 * p + 3) < 1250)
    (h18 : RoundOK (F := F) fun L p => p = 18 ∧ 1250 ≤ wid L + 32 * (2 * p + 3))
    (h19s : RoundOK (F := F) fun L p => p = 19 ∧ wid L + 32 * (2 * p + 1) < 1250)
    (h19n : RoundOK (F := F) fun L p => p = 19 ∧ 1250 ≤ wid L + 32 * (2 * p + 1)) : PairLoop (F := F) := by
  intro d L q A hA B0 B1 B2 TT hTT O W hO α k Q
  have step : ∀ (p : Fin k0_t2_loop.trips) (acc : BitVec 32),
      pairInv d L q A B0 B1 B2 TT O W p.val acc
        ⊢ wp frame (wpE (defs₀ (F := F)) 𝒱₀ (thr d L) none) Set.univ (k0_t2_body (F := F) L aV (Memref.isWhole_whole _) w0V (Memref.isWhole_whole _) w1V (Memref.isWhole_whole _) w2V (Memref.isWhole_whole _) oV (Memref.isWhole_whole _) sA0 (Memref.isWhole_whole _) sA1 (Memref.isWhole_whole _) sO0 (Memref.isWhole_whole _) sO1 (Memref.isWhole_whole _) sW0 (Memref.isWhole_whole _) sW1 (Memref.isWhole_whole _) sW2 (Memref.isWhole_whole _) sT (Memref.isWhole_whole _) cc0_scratch8 cc0_scratch9 cc0_scratch10 cc0_scratch11 cc0_scoped0 cc0_scoped1 cc0_scoped2 p acc)
            (pairInv d L q A B0 B1 B2 TT O W (p.val + 1)) := by
    intro p acc
    have hw := wid_lt L
    have hlt : p.val < 20 := lt_of_lt_of_eq p.isLt t2_trips
    by_cases e0 : p.val = 0
    · exact h0 d L q A hA B0 B1 B2 TT hTT O W hO p e0 acc
    by_cases l17 : p.val ≤ 17
    · exact hm d L q A hA B0 B1 B2 TT hTT O W hO p ⟨by omega, by omega, by omega⟩ acc
    by_cases e18 : p.val = 18
    · by_cases c3 : wid L + 32 * (2 * p.val + 3) < 1250
      · exact hm d L q A hA B0 B1 B2 TT hTT O W hO p ⟨by omega, by omega, c3⟩ acc
      · exact h18 d L q A hA B0 B1 B2 TT hTT O W hO p ⟨e18, by omega⟩ acc
    have e19 : p.val = 19 := by omega
    by_cases c1 : wid L + 32 * (2 * p.val + 1) < 1250
    · exact h19s d L q A hA B0 B1 B2 TT hTT O W hO p ⟨e19, c1⟩ acc
    · exact h19n d L q A hA B0 B1 B2 TT hTT O W hO p ⟨e19, by omega⟩ acc
  have e20 : ∀ acc, pairInv d L q A B0 B1 B2 TT O W (Scf.trips k0_t2_loop.lb k0_t2_loop.ub k0_t2_loop.st) acc
      = pairInv d L q A B0 B1 B2 TT O W 20 acc :=
    fun acc => congrArg (fun n => pairInv d L q A B0 B1 B2 TT O W n acc) t2_trips
  iintro ⟨HI, HK⟩
  iapply (Scf.wp_for_bind frame (wpE (defs₀ (F := F)) 𝒱₀ (thr d L) none) Set.univ k0_t2_loop.lb k0_t2_loop.ub k0_t2_loop.st k0_t2_ok 0#32
    (k0_t2_body (F := F) L aV (Memref.isWhole_whole _) w0V (Memref.isWhole_whole _) w1V (Memref.isWhole_whole _) w2V (Memref.isWhole_whole _) oV (Memref.isWhole_whole _) sA0 (Memref.isWhole_whole _) sA1 (Memref.isWhole_whole _) sO0 (Memref.isWhole_whole _) sO1 (Memref.isWhole_whole _) sW0 (Memref.isWhole_whole _) sW1 (Memref.isWhole_whole _) sW2 (Memref.isWhole_whole _) sT (Memref.isWhole_whole _) cc0_scratch8 cc0_scratch9 cc0_scratch10 cc0_scratch11 cc0_scoped0 cc0_scoped1 cc0_scoped2)
    (fun n acc => pairInv d L q A B0 B1 B2 TT O W n acc) step) $$ [HI]
  · iexact HI
  iintro %acc Hinv
  iapply HK
  iapply (Entails.of_eq (e20 acc)) $$ Hinv

end Cert.Proof.KI

end
-- ==== Proof.KIRoundLib.lean ====
/-
  Lemmas the rounds of the pair loop share: a chunk's columns of the result restated over the program's slice, and a
  copy-out's landing restated at the final contents whatever offsets spell its slices.
-/
import proofs.«203793_g3813930959492_cont_8to1_b_1292_12_alg».proof.Proof.KIIface
import proofs.«203793_g3813930959492_cont_8to1_b_1292_12_alg».proof.Proof.KICond
import proofs.«203793_g3813930959492_cont_8to1_b_1292_12_alg».proof.Proof.KIFacts
import proofs.«203793_g3813930959492_cont_8to1_b_1292_12_alg».proof.Proof.KIValue

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

omit [FloatOps F] in
theorem pts_oSl (d : Dev nD) (L : grid0.Coords) (off : Fin 2 → ℕ) (h : ∀ a, off a + S64x640.size a ≤ S64x800000.size a) (n : ℕ) (e : off = ![0, 640 * n])
    (f : Buf (Elt F) (oLoc d)) :
    ((oSl off h).view.loc (thr d L) ↦[(oSl off h).view.set]{fullShare} f : sProp 𝕄) = (oLoc d ↦[chunkSet n]{fullShare} f) := by
  rw [oSl_set off h n e]

theorem out_pts0' (d : Dev nD) (L : grid0.Coords) (A : Buf (Elt F) (aLoc d)) (hA : ∀ i, A i = 0#32 ∨ A i = 1#32)
    (B0 : Buf (Elt F) (w0Loc d)) (B1 : Buf (Elt F) (w1Loc d)) (B2 : Buf (Elt F) (w2Loc d)) (TT : Buf (Elt F) ((thr d L).loc cc0_scratch7))
    (hTT : IsTable (F := F) B0 B1 B2 TT) (i : ℕ) (hi : wid L + 32 * i < 1250)
    (offo : Fin 2 → ℕ) (ho : ∀ a, offo a + S64x640.size a ≤ S64x800000.size a) (offa : Fin 2 → ℕ) (ha : ∀ a, offa a + S3x640.size a ≤ S3x800000.size a)
    (eo : offo = offI L i) (ea : offa = offI L i) (fA : Buf (Elt F) ((thr d L).loc cc0_scratch0)) (o : Buf (Elt F) (oLoc d)) :
    ((oSl offo ho).view.loc (thr d L) ↦[(oSl offo ho).view.set]{fullShare}
        (oSl offo ho).view.writes (Elt F) o [⟨Rect.whole S64x640, ReadAs.same.apply (View.read (Elt F) (sO0 : Memref sig .scVector .vmem S64x640 .f32).view
          (gathered (F := F) (View.write (Elt F) (sA0 : Memref sig .scVector .vmem S3x640 .i32).view fA (payA d A offa ha) Finset.univ) TT))⟩] : sProp 𝕄)
      = ((oSl offo ho).view.loc (thr d L) ↦[(oSl offo ho).view.set]{fullShare} GT (F := F) A B0 B1 B2) := by
  subst eo; subst ea
  exact out_pts0 (F := F) d L A hA B0 B1 B2 TT hTT i hi fA o

theorem out_pts1' (d : Dev nD) (L : grid0.Coords) (A : Buf (Elt F) (aLoc d)) (hA : ∀ i, A i = 0#32 ∨ A i = 1#32)
    (B0 : Buf (Elt F) (w0Loc d)) (B1 : Buf (Elt F) (w1Loc d)) (B2 : Buf (Elt F) (w2Loc d)) (TT : Buf (Elt F) ((thr d L).loc cc0_scratch7))
    (hTT : IsTable (F := F) B0 B1 B2 TT) (i : ℕ) (hi : wid L + 32 * i < 1250)
    (offo : Fin 2 → ℕ) (ho : ∀ a, offo a + S64x640.size a ≤ S64x800000.size a) (offa : Fin 2 → ℕ) (ha : ∀ a, offa a + S3x640.size a ≤ S3x800000.size a)
    (eo : offo = offI L i) (ea : offa = offI L i) (fA : Buf (Elt F) ((thr d L).loc cc0_scratch1)) (o : Buf (Elt F) (oLoc d)) :
    ((oSl offo ho).view.loc (thr d L) ↦[(oSl offo ho).view.set]{fullShare}
        (oSl offo ho).view.writes (Elt F) o [⟨Rect.whole S64x640, ReadAs.same.apply (View.read (Elt F) (sO1 : Memref sig .scVector .vmem S64x640 .f32).view
          (gathered (F := F) (View.write (Elt F) (sA1 : Memref sig .scVector .vmem S3x640 .i32).view fA (payA d A offa ha) Finset.univ) TT))⟩] : sProp 𝕄)
      = ((oSl offo ho).view.loc (thr d L) ↦[(oSl offo ho).view.set]{fullShare} GT (F := F) A B0 B1 B2) := by
  subst eo; subst ea
  exact out_pts1 (F := F) d L A hA B0 B1 B2 TT hTT i hi fA o

end Cert.Proof.KI

end
-- ==== Proof.KIRegion3.lean ====
/-
  The pass over the second index scratch inside the pair loop: forty trips, each gathering sixteen more columns of the
  tile's second output scratch from the table, by the three index words of each edge.
-/
import proofs.«203793_g3813930959492_cont_8to1_b_1292_12_alg».proof.Proof.KIPiece

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The three index words of a group, each 0 or 1, make a table column number below 8; with a row number below 64 the
    indexed load's side condition holds. -/
theorem chk_pay2 (l0 l1 l2 : Vec F S1x16 .i32) (h0 : ∀ y, l0 y = 0#32 ∨ l0 y = 1#32) (h1 : ∀ y, l1 y = 0#32 ∨ l1 y = 1#32)
    (h2 : ∀ y, l2 y = 0#32 ∨ l2 y = 1#32) (j : ℕ) (hj : j < 64) :
    ∀ a x, ((![broadcast S16 (BitVec.ofNat 32 j), k0_pay2 (F := F) l0 l1 l2] : Fin 2 → IVec S16 32) a x).toNat < S64x16.size a := by
  intro a x
  match a with
  | 0 =>
    show (BitVec.ofNat 32 j).toNat < 64
    rw [BitVec.toNat_ofNat]; exact lt_of_le_of_lt (Nat.mod_le _ _) hj
  | 1 =>
    show (IntOp.addi (IntOp.addi (IntOp.muli (l0 _) 4#32) (IntOp.muli (l1 _) 2#32)) (l2 _)).toNat < 16
    rcases h0 (Shape.reshapeEquiv shapeCasts_S1x16_S16 x) with e0 | e0 <;> rcases h1 (Shape.reshapeEquiv shapeCasts_S1x16_S16 x) with e1 | e1 <;>
      rcases h2 (Shape.reshapeEquiv shapeCasts_S1x16_S16 x) with e2 | e2 <;> rw [e0, e1, e2] <;> decide

/-- The writes of one trip into this pass's output scratch, read entry by entry. -/
theorem colblock_t3 (f : (sO1 : Memref sig .scVector .vmem S64x640 .f32).view.ty.Contents (Elt F)) (G : S64x640.Idx → F .f32) (g : ℕ)
    (Lp : List (View.Piece (Elt F) S64x640 .f32)) (hL : List.Forall₂ (AtRow G g) rows64 Lp)
    (hold : ∀ y : S64x640.Idx, (y 1 : Fin 640).val < 16 * g → f y = G y)
    (y : S64x640.Idx) (hy : (y 1 : Fin 640).val < 16 * (g + 1)) :
    ((sO1 : Memref sig .scVector .vmem S64x640 .f32).view.writes (Elt F) f Lp) y = G y :=
  colblock_of_rows (sO1 : Memref sig .scVector .vmem S64x640 .f32).view f G g rows64 Lp rows64_all hL hold y hy

/-- Before trip g of the pass: the index scratch and the table as they were, and the output scratch holding the
    gathered table entries in every column below 16 g. -/
def invt3 (d : Dev nD) (L : grid0.Coords) (AA : Buf (Elt F) ((thr d L).loc cc0_scratch1))
    (TT : Buf (Elt F) ((thr d L).loc cc0_scratch7)) (g : ℕ) (_ : BitVec 32) : sProp 𝕄 :=
  iprop(((sA1 : Memref sig .scVector .vmem S3x640 .i32).view.loc (thr d L) ↦{fullShare} AA) ∗ ((sT : Memref sig .scVector .vmem S64x16 .f32).view.loc (thr d L) ↦{fullShare} TT)
    ∗ ∃ f : Buf (Elt F) ((thr d L).loc cc0_scratch3), ((sO1 : Memref sig .scVector .vmem S64x640 .f32).view.loc (thr d L) ↦{fullShare} f)
        ∗ ⌜∀ y : S64x640.Idx, (y 1 : Fin 640).val < 16 * g → f y = gathered (F := F) AA TT y⌝)

set_option maxHeartbeats 16000000 in
set_option sl_exec.dischHeartbeats 400000 in
/-- One trip: sixteen more columns of the output scratch are gathered. -/
theorem region_t3 (d : Dev nD) (L : grid0.Coords) (AA : Buf (Elt F) ((thr d L).loc cc0_scratch1))
    (hAA : ∀ i, AA i = 0#32 ∨ AA i = 1#32) (TT : Buf (Elt F) ((thr d L).loc cc0_scratch7))
    (p : Fin k0_t2_loop.trips) (h2 : k0_cond2 L p = 1#1)
    (g : Fin k0_t3_loop.trips) (acc : BitVec 32) :
    invt3 (F := F) d L AA TT g.val acc
      ⊢ wp frame (wpE (defs₀ (F := F)) 𝒱₀ (thr d L) none) Set.univ ((k0_t3_body (F := F) L aV (Memref.isWhole_whole _) w0V (Memref.isWhole_whole _) w1V (Memref.isWhole_whole _) w2V (Memref.isWhole_whole _) oV (Memref.isWhole_whole _) sA0 (Memref.isWhole_whole _) sA1 (Memref.isWhole_whole _) sO0 (Memref.isWhole_whole _) sO1 (Memref.isWhole_whole _) sW0 (Memref.isWhole_whole _) sW1 (Memref.isWhole_whole _) sW2 (Memref.isWhole_whole _) sT (Memref.isWhole_whole _) cc0_scratch8 cc0_scratch9 cc0_scratch10 cc0_scratch11 cc0_scoped0 cc0_scoped1 cc0_scoped2 p h2) g acc)
          (invt3 (F := F) d L AA TT (g.val + 1)) := by
  unfold invt3 k0_t3_body
  iintro ⟨HsA, HsT, %fO, HsO, %hold⟩
  sl_exec (disch := exact fun _ => chk_pay2 _ _ _ (rd01_A1 d _ _ AA hAA _ _) (rd01_A1 d _ _ AA hAA _ _) (rd01_A1 d _ _ AA hAA _ _) _ (by decide))
  repeat (rw [SparseCore.vectorLoadIdx_bind (thr d L)]; sl_exec (disch := exact fun _ => chk_pay2 _ _ _ (rd01_A1 d _ _ AA hAA _ _) (rd01_A1 d _ _ AA hAA _ _) (rd01_A1 d _ _ AA hAA _ _) _ (by decide)))
  sl_step
  isplitl [HsA]; · iexact HsA
  isplitl [HsT]; · iexact HsT
  iexists _
  isplitl [HsO]; · iexact HsO
  ipureintro
  intro y hy
  sl_unfold_run_names
  refine colblock_t3 fO (gathered (F := F) AA TT) g.val _ ?_ hold y hy
  unfold rows64
  repeat' (first | exact List.Forall₂.nil | refine List.Forall₂.cons ?_ ?_)
  all_goals
    (refine atRow_piece AA TT g.val _ _ _ _ _ ?_ ?_
     · exact ClosedOff.eq
     · exact fun c hc =>
        loadIdx_gather AA TT g.val _ _ _ _ _ _ _ _ c hc (Memref.readAt_whole (Elt F) cc0_scratch7 TT) (fun _ => rfl)
          (fun y hc => readAt_row (sA1 : Memref sig .scVector .vmem S3x640 .i32).view AA AA 0 (by decide) g.val _ _ y hc (fun _ => rfl) (k0_off72_eq g))
          (fun y hc => readAt_row (sA1 : Memref sig .scVector .vmem S3x640 .i32).view AA AA 1 (by decide) g.val _ _ y hc (fun _ => rfl) (k0_off73_eq g))
          (fun y hc => readAt_row (sA1 : Memref sig .scVector .vmem S3x640 .i32).view AA AA 2 (by decide) g.val _ _ y hc (fun _ => rfl) (k0_off74_eq g)))

end Cert.Proof.KI

end
-- ==== Proof.KICompute3.lean ====
/-
  The pass over the second index scratch as one step of the tile's run: the loop of forty trips by its invariant.
-/
import proofs.«203793_g3813930959492_cont_8to1_b_1292_12_alg».proof.Proof.KIRegion3

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The whole pass: from any contents of the output scratch to the gathered table entries, the index scratch and the
    table unchanged; the program after the loop runs from there. -/
theorem compute_t3 (d : Dev nD) (L : grid0.Coords) (AA : Buf (Elt F) ((thr d L).loc cc0_scratch1))
    (hAA : ∀ i, AA i = 0#32 ∨ AA i = 1#32) (TT : Buf (Elt F) ((thr d L).loc cc0_scratch7))
    (fO : Buf (Elt F) ((thr d L).loc cc0_scratch3))
    (p : Fin k0_t2_loop.trips) (h2 : k0_cond2 L p = 1#1)
    {α : Type} (k : BitVec 32 → Prog (TpuEff nD τ sig (Elt F) Λ₀ (.scVector (cV L) (jV L))) α) (Q : α → sProp 𝕄) :
    iprop(((sA1 : Memref sig .scVector .vmem S3x640 .i32).view.loc (thr d L) ↦{fullShare} AA) ∗ ((sT : Memref sig .scVector .vmem S64x16 .f32).view.loc (thr d L) ↦{fullShare} TT)
        ∗ ((sO1 : Memref sig .scVector .vmem S64x640 .f32).view.loc (thr d L) ↦{fullShare} fO)
        ∗ (∀ acc, iprop(((sA1 : Memref sig .scVector .vmem S3x640 .i32).view.loc (thr d L) ↦{fullShare} AA) ∗ ((sT : Memref sig .scVector .vmem S64x16 .f32).view.loc (thr d L) ↦{fullShare} TT)
              ∗ ((sO1 : Memref sig .scVector .vmem S64x640 .f32).view.loc (thr d L) ↦{fullShare} gathered (F := F) AA TT))
            -∗ wp frame (wpE (defs₀ (F := F)) 𝒱₀ (thr d L) none) Set.univ (k acc) Q))
      ⊢ wp frame (wpE (defs₀ (F := F)) 𝒱₀ (thr d L) none) Set.univ
          (Scf.Loop.for k0_t3_loop (k0_t3_ok L p h2) 0#32 (k0_t3_body (F := F) L aV (Memref.isWhole_whole _) w0V (Memref.isWhole_whole _) w1V (Memref.isWhole_whole _) w2V (Memref.isWhole_whole _) oV (Memref.isWhole_whole _) sA0 (Memref.isWhole_whole _) sA1 (Memref.isWhole_whole _) sO0 (Memref.isWhole_whole _) sO1 (Memref.isWhole_whole _) sW0 (Memref.isWhole_whole _) sW1 (Memref.isWhole_whole _) sW2 (Memref.isWhole_whole _) sT (Memref.isWhole_whole _) cc0_scratch8 cc0_scratch9 cc0_scratch10 cc0_scratch11 cc0_scoped0 cc0_scoped1 cc0_scoped2 p h2) >>= k) Q := by
  iintro ⟨HA, HT, HO, HK⟩
  iapply (Scf.wp_for_bind frame (wpE (defs₀ (F := F)) 𝒱₀ (thr d L) none) Set.univ k0_t3_loop.lb k0_t3_loop.ub k0_t3_loop.st
    (k0_t3_ok L p h2) 0#32 (k0_t3_body (F := F) L aV (Memref.isWhole_whole _) w0V (Memref.isWhole_whole _) w1V (Memref.isWhole_whole _) w2V (Memref.isWhole_whole _) oV (Memref.isWhole_whole _) sA0 (Memref.isWhole_whole _) sA1 (Memref.isWhole_whole _) sO0 (Memref.isWhole_whole _) sO1 (Memref.isWhole_whole _) sW0 (Memref.isWhole_whole _) sW1 (Memref.isWhole_whole _) sW2 (Memref.isWhole_whole _) sT (Memref.isWhole_whole _) cc0_scratch8 cc0_scratch9 cc0_scratch10 cc0_scratch11 cc0_scoped0 cc0_scoped1 cc0_scoped2 p h2) (invt3 (F := F) d L AA TT)
    (region_t3 d L AA hAA TT p h2)) $$ [HA HT HO]
  · unfold invt3
    isplitl [HA]; · iexact HA
    isplitl [HT]; · iexact HT
    iexists fO
    isplitl [HO]; · iexact HO
    ipureintro
    intro y hy
    exact absurd hy (by omega)
  iintro %acc HI
  unfold invt3
  icases HI with ⟨HA, HT, %f, HO, %hf⟩
  have htrips : Scf.trips k0_t3_loop.lb k0_t3_loop.ub k0_t3_loop.st = 40 := by decide
  have hfe : f = gathered (F := F) AA TT := by
    funext y
    have hy : (y 1 : Fin 640).val < 640 := (y 1 : Fin 640).isLt
    exact hf y (by rw [htrips]; omega)
  subst hfe
  iapply HK
  isplitl [HA]; · iexact HA
  isplitl [HT]; · iexact HT
  iexact HO

end Cert.Proof.KI

end
-- ==== Proof.KIRegion4.lean ====
/-
  The pass over the first index scratch inside the pair loop: forty trips, each gathering sixteen more columns of the
  tile's first output scratch from the table, by the three index words of each edge.
-/
import proofs.«203793_g3813930959492_cont_8to1_b_1292_12_alg».proof.Proof.KIPiece

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The three index words of a group, each 0 or 1, make a table column number below 8; with a row number below 64 the
    indexed load's side condition holds. -/
theorem chk_pay3 (l0 l1 l2 : Vec F S1x16 .i32) (h0 : ∀ y, l0 y = 0#32 ∨ l0 y = 1#32) (h1 : ∀ y, l1 y = 0#32 ∨ l1 y = 1#32)
    (h2 : ∀ y, l2 y = 0#32 ∨ l2 y = 1#32) (j : ℕ) (hj : j < 64) :
    ∀ a x, ((![broadcast S16 (BitVec.ofNat 32 j), k0_pay3 (F := F) l0 l1 l2] : Fin 2 → IVec S16 32) a x).toNat < S64x16.size a := by
  intro a x
  match a with
  | 0 =>
    show (BitVec.ofNat 32 j).toNat < 64
    rw [BitVec.toNat_ofNat]; exact lt_of_le_of_lt (Nat.mod_le _ _) hj
  | 1 =>
    show (IntOp.addi (IntOp.addi (IntOp.muli (l0 _) 4#32) (IntOp.muli (l1 _) 2#32)) (l2 _)).toNat < 16
    rcases h0 (Shape.reshapeEquiv shapeCasts_S1x16_S16 x) with e0 | e0 <;> rcases h1 (Shape.reshapeEquiv shapeCasts_S1x16_S16 x) with e1 | e1 <;>
      rcases h2 (Shape.reshapeEquiv shapeCasts_S1x16_S16 x) with e2 | e2 <;> rw [e0, e1, e2] <;> decide

/-- The writes of one trip into this pass's output scratch, read entry by entry. -/
theorem colblock_t4 (f : (sO0 : Memref sig .scVector .vmem S64x640 .f32).view.ty.Contents (Elt F)) (G : S64x640.Idx → F .f32) (g : ℕ)
    (Lp : List (View.Piece (Elt F) S64x640 .f32)) (hL : List.Forall₂ (AtRow G g) rows64 Lp)
    (hold : ∀ y : S64x640.Idx, (y 1 : Fin 640).val < 16 * g → f y = G y)
    (y : S64x640.Idx) (hy : (y 1 : Fin 640).val < 16 * (g + 1)) :
    ((sO0 : Memref sig .scVector .vmem S64x640 .f32).view.writes (Elt F) f Lp) y = G y :=
  colblock_of_rows (sO0 : Memref sig .scVector .vmem S64x640 .f32).view f G g rows64 Lp rows64_all hL hold y hy

/-- Before trip g of the pass: the index scratch and the table as they were, and the output scratch holding the
    gathered table entries in every column below 16 g. -/
def invt4 (d : Dev nD) (L : grid0.Coords) (AA : Buf (Elt F) ((thr d L).loc cc0_scratch0))
    (TT : Buf (Elt F) ((thr d L).loc cc0_scratch7)) (g : ℕ) (_ : BitVec 32) : sProp 𝕄 :=
  iprop(((sA0 : Memref sig .scVector .vmem S3x640 .i32).view.loc (thr d L) ↦{fullShare} AA) ∗ ((sT : Memref sig .scVector .vmem S64x16 .f32).view.loc (thr d L) ↦{fullShare} TT)
    ∗ ∃ f : Buf (Elt F) ((thr d L).loc cc0_scratch2), ((sO0 : Memref sig .scVector .vmem S64x640 .f32).view.loc (thr d L) ↦{fullShare} f)
        ∗ ⌜∀ y : S64x640.Idx, (y 1 : Fin 640).val < 16 * g → f y = gathered (F := F) AA TT y⌝)

set_option maxHeartbeats 16000000 in
set_option sl_exec.dischHeartbeats 400000 in
/-- One trip: sixteen more columns of the output scratch are gathered. -/
theorem region_t4 (d : Dev nD) (L : grid0.Coords) (AA : Buf (Elt F) ((thr d L).loc cc0_scratch0))
    (hAA : ∀ i, AA i = 0#32 ∨ AA i = 1#32) (TT : Buf (Elt F) ((thr d L).loc cc0_scratch7))
    (p : Fin k0_t2_loop.trips) (h5 : k0_cond5 L p = 1#1)
    (g : Fin k0_t4_loop.trips) (acc : BitVec 32) :
    invt4 (F := F) d L AA TT g.val acc
      ⊢ wp frame (wpE (defs₀ (F := F)) 𝒱₀ (thr d L) none) Set.univ ((k0_t4_body (F := F) L aV (Memref.isWhole_whole _) w0V (Memref.isWhole_whole _) w1V (Memref.isWhole_whole _) w2V (Memref.isWhole_whole _) oV (Memref.isWhole_whole _) sA0 (Memref.isWhole_whole _) sA1 (Memref.isWhole_whole _) sO0 (Memref.isWhole_whole _) sO1 (Memref.isWhole_whole _) sW0 (Memref.isWhole_whole _) sW1 (Memref.isWhole_whole _) sW2 (Memref.isWhole_whole _) sT (Memref.isWhole_whole _) cc0_scratch8 cc0_scratch9 cc0_scratch10 cc0_scratch11 cc0_scoped0 cc0_scoped1 cc0_scoped2 p h5) g acc)
          (invt4 (F := F) d L AA TT (g.val + 1)) := by
  unfold invt4 k0_t4_body
  iintro ⟨HsA, HsT, %fO, HsO, %hold⟩
  sl_exec (disch := exact fun _ => chk_pay3 _ _ _ (rd01_A0 d _ _ AA hAA _ _) (rd01_A0 d _ _ AA hAA _ _) (rd01_A0 d _ _ AA hAA _ _) _ (by decide))
  repeat (rw [SparseCore.vectorLoadIdx_bind (thr d L)]; sl_exec (disch := exact fun _ => chk_pay3 _ _ _ (rd01_A0 d _ _ AA hAA _ _) (rd01_A0 d _ _ AA hAA _ _) (rd01_A0 d _ _ AA hAA _ _) _ (by decide)))
  sl_step
  isplitl [HsA]; · iexact HsA
  isplitl [HsT]; · iexact HsT
  iexists _
  isplitl [HsO]; · iexact HsO
  ipureintro
  intro y hy
  sl_unfold_run_names
  refine colblock_t4 fO (gathered (F := F) AA TT) g.val _ ?_ hold y hy
  unfold rows64
  repeat' (first | exact List.Forall₂.nil | refine List.Forall₂.cons ?_ ?_)
  all_goals
    (refine atRow_piece AA TT g.val _ _ _ _ _ ?_ ?_
     · exact ClosedOff.eq
     · exact fun c hc =>
        loadIdx_gather AA TT g.val _ _ _ _ _ _ _ _ c hc (Memref.readAt_whole (Elt F) cc0_scratch7 TT) (fun _ => rfl)
          (fun y hc => readAt_row (sA0 : Memref sig .scVector .vmem S3x640 .i32).view AA AA 0 (by decide) g.val _ _ y hc (fun _ => rfl) (k0_off141_eq g))
          (fun y hc => readAt_row (sA0 : Memref sig .scVector .vmem S3x640 .i32).view AA AA 1 (by decide) g.val _ _ y hc (fun _ => rfl) (k0_off142_eq g))
          (fun y hc => readAt_row (sA0 : Memref sig .scVector .vmem S3x640 .i32).view AA AA 2 (by decide) g.val _ _ y hc (fun _ => rfl) (k0_off143_eq g)))

end Cert.Proof.KI

end
-- ==== Proof.KICompute4.lean ====
/-
  The pass over the first index scratch inside the pair loop as one step of the tile's run: the loop of forty trips by
  its invariant.
-/
import proofs.«203793_g3813930959492_cont_8to1_b_1292_12_alg».proof.Proof.KIRegion4

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The whole pass: from any contents of the output scratch to the gathered table entries, the index scratch and the
    table unchanged; the program after the loop runs from there. -/
theorem compute_t4 (d : Dev nD) (L : grid0.Coords) (AA : Buf (Elt F) ((thr d L).loc cc0_scratch0))
    (hAA : ∀ i, AA i = 0#32 ∨ AA i = 1#32) (TT : Buf (Elt F) ((thr d L).loc cc0_scratch7))
    (fO : Buf (Elt F) ((thr d L).loc cc0_scratch2))
    (p : Fin k0_t2_loop.trips) (h5 : k0_cond5 L p = 1#1)
    {α : Type} (k : BitVec 32 → Prog (TpuEff nD τ sig (Elt F) Λ₀ (.scVector (cV L) (jV L))) α) (Q : α → sProp 𝕄) :
    iprop(((sA0 : Memref sig .scVector .vmem S3x640 .i32).view.loc (thr d L) ↦{fullShare} AA) ∗ ((sT : Memref sig .scVector .vmem S64x16 .f32).view.loc (thr d L) ↦{fullShare} TT)
        ∗ ((sO0 : Memref sig .scVector .vmem S64x640 .f32).view.loc (thr d L) ↦{fullShare} fO)
        ∗ (∀ acc, iprop(((sA0 : Memref sig .scVector .vmem S3x640 .i32).view.loc (thr d L) ↦{fullShare} AA) ∗ ((sT : Memref sig .scVector .vmem S64x16 .f32).view.loc (thr d L) ↦{fullShare} TT)
              ∗ ((sO0 : Memref sig .scVector .vmem S64x640 .f32).view.loc (thr d L) ↦{fullShare} gathered (F := F) AA TT))
            -∗ wp frame (wpE (defs₀ (F := F)) 𝒱₀ (thr d L) none) Set.univ (k acc) Q))
      ⊢ wp frame (wpE (defs₀ (F := F)) 𝒱₀ (thr d L) none) Set.univ
          (Scf.Loop.for k0_t4_loop (k0_t4_ok L p h5) 0#32 (k0_t4_body (F := F) L aV (Memref.isWhole_whole _) w0V (Memref.isWhole_whole _) w1V (Memref.isWhole_whole _) w2V (Memref.isWhole_whole _) oV (Memref.isWhole_whole _) sA0 (Memref.isWhole_whole _) sA1 (Memref.isWhole_whole _) sO0 (Memref.isWhole_whole _) sO1 (Memref.isWhole_whole _) sW0 (Memref.isWhole_whole _) sW1 (Memref.isWhole_whole _) sW2 (Memref.isWhole_whole _) sT (Memref.isWhole_whole _) cc0_scratch8 cc0_scratch9 cc0_scratch10 cc0_scratch11 cc0_scoped0 cc0_scoped1 cc0_scoped2 p h5) >>= k) Q := by
  iintro ⟨HA, HT, HO, HK⟩
  iapply (Scf.wp_for_bind frame (wpE (defs₀ (F := F)) 𝒱₀ (thr d L) none) Set.univ k0_t4_loop.lb k0_t4_loop.ub k0_t4_loop.st
    (k0_t4_ok L p h5) 0#32 (k0_t4_body (F := F) L aV (Memref.isWhole_whole _) w0V (Memref.isWhole_whole _) w1V (Memref.isWhole_whole _) w2V (Memref.isWhole_whole _) oV (Memref.isWhole_whole _) sA0 (Memref.isWhole_whole _) sA1 (Memref.isWhole_whole _) sO0 (Memref.isWhole_whole _) sO1 (Memref.isWhole_whole _) sW0 (Memref.isWhole_whole _) sW1 (Memref.isWhole_whole _) sW2 (Memref.isWhole_whole _) sT (Memref.isWhole_whole _) cc0_scratch8 cc0_scratch9 cc0_scratch10 cc0_scratch11 cc0_scoped0 cc0_scoped1 cc0_scoped2 p h5) (invt4 (F := F) d L AA TT)
    (region_t4 d L AA hAA TT p h5)) $$ [HA HT HO]
  · unfold invt4
    isplitl [HA]; · iexact HA
    isplitl [HT]; · iexact HT
    iexists fO
    isplitl [HO]; · iexact HO
    ipureintro
    intro y hy
    exact absurd hy (by omega)
  iintro %acc HI
  unfold invt4
  icases HI with ⟨HA, HT, %f, HO, %hf⟩
  have htrips : Scf.trips k0_t4_loop.lb k0_t4_loop.ub k0_t4_loop.st = 40 := by decide
  have hfe : f = gathered (F := F) AA TT := by
    funext y
    have hy : (y 1 : Fin 640).val < 640 := (y 1 : Fin 640).isLt
    exact hf y (by rw [htrips]; omega)
  subst hfe
  iapply HK
  isplitl [HA]; · iexact HA
  isplitl [HT]; · iexact HT
  iexact HO

end Cert.Proof.KI

end
-- ==== Proof.KIRound0.lean ====
/-
  The first round of the pair loop.

  Before it the copy-in of chunk 1 and the copy-out of chunk 0 are under way, and the second output scratch is at rest.
  The round prefetches chunk 2, waits for chunk 1 (there is no earlier copy-out of the second output scratch to wait
  for), gathers chunk 1 and sends it out; then prefetches chunk 3, waits for chunk 2 and for the copy-out of chunk 0,
  gathers chunk 2 and sends it out. Every tile has these chunks: its number is below 32, so 32 + 96 < 1250.
-/
import proofs.«203793_g3813930959492_cont_8to1_b_1292_12_alg».proof.Proof.KIIface
import proofs.«203793_g3813930959492_cont_8to1_b_1292_12_alg».proof.Proof.KICond
import proofs.«203793_g3813930959492_cont_8to1_b_1292_12_alg».proof.Proof.KIFacts
import proofs.«203793_g3813930959492_cont_8to1_b_1292_12_alg».proof.Proof.KIValue
import proofs.«203793_g3813930959492_cont_8to1_b_1292_12_alg».proof.Proof.KIRoundLib
import proofs.«203793_g3813930959492_cont_8to1_b_1292_12_alg».proof.Proof.KICompute3
import proofs.«203793_g3813930959492_cont_8to1_b_1292_12_alg».proof.Proof.KICompute4

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

set_option maxHeartbeats 8000000 in
theorem round_zero (d : Dev nD) (L : grid0.Coords) (q : PosShare TreeShare) (A : Buf (Elt F) (aLoc d)) (hA : ∀ i, A i = 0#32 ∨ A i = 1#32)
    (B0 : Buf (Elt F) (w0Loc d)) (B1 : Buf (Elt F) (w1Loc d)) (B2 : Buf (Elt F) (w2Loc d)) (TT : Buf (Elt F) ((thr d L).loc cc0_scratch7))
    (hTT : IsTable (F := F) B0 B1 B2 TT)
    (O : CellTallies nD τ sig (HIx 1)) (W : Waits sig (HIx 1)) (hO : ∀ g, O g none = 0)
    (p : Fin k0_t2_loop.trips) (hp : p.val = 0) (acc : BitVec 32) :
    pairInv d L q A B0 B1 B2 TT O W p.val acc
      ⊢ wp frame (wpE (defs₀ (F := F)) 𝒱₀ (thr d L) none) Set.univ (k0_t2_body (F := F) L aV (Memref.isWhole_whole _) w0V (Memref.isWhole_whole _) w1V (Memref.isWhole_whole _) w2V (Memref.isWhole_whole _) oV (Memref.isWhole_whole _) sA0 (Memref.isWhole_whole _) sA1 (Memref.isWhole_whole _) sO0 (Memref.isWhole_whole _) sO1 (Memref.isWhole_whole _) sW0 (Memref.isWhole_whole _) sW1 (Memref.isWhole_whole _) sW2 (Memref.isWhole_whole _) sT (Memref.isWhole_whole _) cc0_scratch8 cc0_scratch9 cc0_scratch10 cc0_scratch11 cc0_scoped0 cc0_scoped1 cc0_scoped2 p acc)
          (pairInv d L q A B0 B1 B2 TT O W (p.val + 1)) := by
  have hw := wid_lt L
  have hp20 : p.val < 20 := by omega
  have hp21 : p.val + 1 < 20 := by omega
  have c1 : wid L + 32 * (2 * p.val + 1) < 1250 := by omega
  have c2 : wid L + 32 * (2 * p.val + 2) < 1250 := by omega
  have c3 : wid L + 32 * (2 * p.val + 3) < 1250 := by omega
  have c3' : wid L + 32 * (2 * (p.val + 1) + 1) < 1250 := by omega
  have k0_h2 : k0_cond2 L p = 1#1 := (cond2_eq L p).trans (if_pos c1)
  have k0_h3 : k0_cond3 L p = 1#1 := (cond3_eq L p).trans (if_pos c2)
  have k0_h5 : k0_cond5 L p = 1#1 := (cond5_eq L p).trans (if_pos c2)
  have k0_h6 : k0_cond6 L p = 1#1 := (cond6_eq L p).trans (if_pos c3)
  have hp10 : ¬ p.val + 1 = 0 := by omega
  unfold pairInv; rw [if_pos hp20, if_pos hp21]
  unfold headInv; rw [if_pos c1, if_pos hp, if_pos c3', if_neg hp10]
  unfold Common InFl1 OutFl0 OutFl1 OutRest1
  unfold k0_t2_body
  iintro ⟨⟨#Hmw, HsT, ⟨%fA0, HsA0⟩, Hs8, %W', %hW', HO⟩, ⟨%offa, %ha, %ea, ⟨%fA1, Hs9⟩, HA⟩, ⟨%offo0, %ho0, %eo0, %AA0, Hs10, HsO0r⟩,
    ⟨⟨%fO1, HsO1r⟩, Hs11⟩, Htodo, Hdone⟩
  subst ea; subst eo0
  have hdA1 : Disjoint (aSl (k0_off71 L p) (k0_off71_inb L p k0_h2 k0_h3)).view.set (aSl (offI L (2 * p.val + 1)) ha).view.set :=
    aSl_disjoint _ _ _ _ (wid L + 32 * (2 * p.val + 2)) (wid L + 32 * (2 * p.val + 1)) ((offP71 L p).trans (offI_chunk L _)) (offI_chunk _ _) (by omega)
  have hdA2 : Disjoint (aSl (k0_off140 L p) (k0_off140_inb L p k0_h5 k0_h6)).view.set (aSl (k0_off71 L p) (k0_off71_inb L p k0_h2 k0_h3)).view.set :=
    aSl_disjoint _ _ _ _ (wid L + 32 * (2 * p.val + 3)) (wid L + 32 * (2 * p.val + 2)) ((offP140 L p).trans (offI_chunk L _)) ((offP71 L p).trans (offI_chunk L _)) (by omega)
  ihave Ht := (todo_take (F := F) d L (2 * p.val + 1) c1) $$ Htodo
  icases Ht with ⟨⟨%f1, Hc1⟩, Htodo⟩
  ihave Ht := (todo_take (F := F) d L (2 * p.val + 1 + 1) (by omega)) $$ Htodo
  icases Ht with ⟨⟨%f2, Hc2⟩, Htodo⟩
  ihave Hc1 := (Entails.of_eq (pts_oSl (F := F) d L (k0_off139 L p) (k0_off139_inb L p k0_h2) (wid L + 32 * (2 * p.val + 1)) ((offP139 L p).trans (offI_chunk L _)) f1).symm) $$ Hc1
  ihave Hc2 := (Entails.of_eq (pts_oSl (F := F) d L (k0_off208 L p) (k0_off208_inb L p k0_h5) (wid L + 32 * (2 * p.val + 1 + 1)) ((offP208 L p).trans (offI_chunk L _)) f2).symm) $$ Hc2
  sl_exec (disch := (clear * - hp; decide +kernel +revert))

  iapply (compute_t3 (F := F) d L _ (in01_A1 (F := F) d L A hA fA1 _ _) _ _ p k0_h2 _ _)
  isplitl [Hs9_dst]; · iexact Hs9_dst
  isplitl [HsT]; · iexact HsT
  isplitl [HsO1r]; · iexact HsO1r
  iintro %acc1 ⟨HsA1, HsT, HsO1⟩
  sl_exec (disch := (clear * - hp; decide +kernel +revert))

  iapply (compute_t4 (F := F) d L _ (in01_A0 (F := F) d L A hA fA0 _ _) _ _ p k0_h5 _ _)
  isplitl [HsA0]; · iexact HsA0
  isplitl [HsT]; · iexact HsT
  isplitl [HsO0r]; · iexact HsO0r
  iintro %acc2 ⟨HsA0, HsT, HsO0⟩
  sl_exec
  sl_step

  have e140 : k0_off140 L p = offI L (2 * (p.val + 1) + 1) := (offP140 L p).trans (congrArg (offI L) (by omega))
  have e208 : k0_off208 L p = offI L (2 * (p.val + 1)) := (offP208 L p).trans (congrArg (offI L) (by omega))
  have e139 : k0_off139 L p = offI L (2 * (p.val + 1) - 1) := (offP139 L p).trans (congrArg (offI L) (by omega))
  -- the table, the first index scratch at rest, what the tile owes
  isplitl [HsT HsA0 Hs8 HO]
  · isplitr; · iexact Hmw
    isplitl [HsT]; · iexact HsT
    isplitl [HsA0]; · iexists _; iexact HsA0
    isplitl [Hs8]; · iexact Hs8
    iexists _; isplitr
    swap
    · iexact HO
    · ipureintro; intro x hx
      rcases Finset.mem_insert.mp hx with hx | hx
      · subst hx; exact Or.inr rfl
      rcases Finset.mem_insert.mp hx with hx | hx
      · subst hx; exact Or.inr rfl
      rcases Finset.mem_insert.mp hx with hx | hx
      · subst hx; exact Or.inr rfl
      exact hW' x hx
  -- the next odd chunk on its way in
  isplitl [Hs9 HA]
  · iexists (k0_off140 L p), (k0_off140_inb L p k0_h5 k0_h6); isplitr
    · ipureintro; exact e140
    isplitl [Hs9]
    · iexists _; iexact Hs9
    · iexact HA
  -- the even chunk on its way out
  isplitl [Hs10 HsO0]
  · iexists (k0_off208 L p), (k0_off208_inb L p k0_h5); isplitr
    · ipureintro; exact e208
    iexists _
    isplitl [Hs10]
    · iapply (Transfers.Flight_mono countersEmb (thr d L) ?hm0) $$ Hs10
      case hm0 => exact sep_mono_left (Entails.of_eq (out_pts0' (F := F) d L A hA B0 B1 B2 TT hTT (2 * p.val + 2) c2 _ _ _ _ (offP208 L p) (offP71 L p) fA0 f2))
    · iexact HsO0
  -- the odd chunk on its way out
  isplitl [Hs11 HsO1]
  · iexists (k0_off139 L p), (k0_off139_inb L p k0_h2); isplitr
    · ipureintro; exact e139
    iexists _
    isplitl [Hs11]
    · iapply (Transfers.Flight_mono countersEmb (thr d L) ?hm1) $$ Hs11
      case hm1 => exact sep_mono_left (Entails.of_eq (out_pts1' (F := F) d L A hA B0 B1 B2 TT hTT (2 * p.val + 1) c1 _ _ _ _ (offP139 L p) rfl fA1 f1))
    · iexact HsO1
  -- what is left to do
  isplitl [Htodo]
  · rw [show 2 * (p.val + 1) + 1 = 2 * p.val + 1 + 1 + 1 by omega]; iexact Htodo
  -- what has come back: chunk 0 joins the (empty) set of finished chunks
  rw [show 2 * p.val - 1 = 2 * p.val by omega]
  ihave Hd2 := (Entails.of_eq (pts_oSl (F := F) d L (offI L (2 * p.val)) ho0 (wid L + 32 * (2 * p.val)) (offI_chunk L _) _)) $$ Hs10_dst
  ihave Hdone := (done_put (F := F) d L (2 * p.val) _) $$ [Hdone Hd2]
  · isplitl [Hdone] <;> iassumption
  rw [show 2 * (p.val + 1) - 1 = 2 * p.val + 1 by omega]
  iexact Hdone

end Cert.Proof.KI

end
-- ==== Proof.KIRoundMid.lean ====
/-
  A round of the pair loop in the middle of the run (rounds 1 … 18, when the tile still has a chunk 2p+3 to prefetch).

  Before the round the copy-in of chunk 2p+1 and the copy-outs of chunks 2p-1 and 2p are under way. The round prefetches
  chunk 2p+2, waits for chunk 2p+1 and for the copy-out of 2p-1, gathers chunk 2p+1 and sends it out; then prefetches
  chunk 2p+3, waits for chunk 2p+2 and for the copy-out of 2p, gathers chunk 2p+2 and sends it out.
-/
import proofs.«203793_g3813930959492_cont_8to1_b_1292_12_alg».proof.Proof.KIIface
import proofs.«203793_g3813930959492_cont_8to1_b_1292_12_alg».proof.Proof.KICond
import proofs.«203793_g3813930959492_cont_8to1_b_1292_12_alg».proof.Proof.KIFacts
import proofs.«203793_g3813930959492_cont_8to1_b_1292_12_alg».proof.Proof.KIValue
import proofs.«203793_g3813930959492_cont_8to1_b_1292_12_alg».proof.Proof.KIRoundLib
import proofs.«203793_g3813930959492_cont_8to1_b_1292_12_alg».proof.Proof.KICompute3
import proofs.«203793_g3813930959492_cont_8to1_b_1292_12_alg».proof.Proof.KICompute4

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

set_option maxHeartbeats 8000000 in
theorem round_mid (d : Dev nD) (L : grid0.Coords) (q : PosShare TreeShare) (A : Buf (Elt F) (aLoc d)) (hA : ∀ i, A i = 0#32 ∨ A i = 1#32)
    (B0 : Buf (Elt F) (w0Loc d)) (B1 : Buf (Elt F) (w1Loc d)) (B2 : Buf (Elt F) (w2Loc d)) (TT : Buf (Elt F) ((thr d L).loc cc0_scratch7))
    (hTT : IsTable (F := F) B0 B1 B2 TT)
    (O : CellTallies nD τ sig (HIx 1)) (W : Waits sig (HIx 1)) (hO : ∀ g, O g none = 0)
    (p : Fin k0_t2_loop.trips) (hp1 : 1 ≤ p.val) (hp18 : p.val ≤ 18) (c3 : wid L + 32 * (2 * p.val + 3) < 1250) (acc : BitVec 32) :
    pairInv d L q A B0 B1 B2 TT O W p.val acc
      ⊢ wp frame (wpE (defs₀ (F := F)) 𝒱₀ (thr d L) none) Set.univ (k0_t2_body (F := F) L aV (Memref.isWhole_whole _) w0V (Memref.isWhole_whole _) w1V (Memref.isWhole_whole _) w2V (Memref.isWhole_whole _) oV (Memref.isWhole_whole _) sA0 (Memref.isWhole_whole _) sA1 (Memref.isWhole_whole _) sO0 (Memref.isWhole_whole _) sO1 (Memref.isWhole_whole _) sW0 (Memref.isWhole_whole _) sW1 (Memref.isWhole_whole _) sW2 (Memref.isWhole_whole _) sT (Memref.isWhole_whole _) cc0_scratch8 cc0_scratch9 cc0_scratch10 cc0_scratch11 cc0_scoped0 cc0_scoped1 cc0_scoped2 p acc)
          (pairInv d L q A B0 B1 B2 TT O W (p.val + 1)) := by
  have hw := wid_lt L
  have hp20 : p.val < 20 := by omega
  have hp21 : p.val + 1 < 20 := by omega
  have c1 : wid L + 32 * (2 * p.val + 1) < 1250 := by omega
  have c2 : wid L + 32 * (2 * p.val + 2) < 1250 := by omega
  have c3' : wid L + 32 * (2 * (p.val + 1) + 1) < 1250 := by omega
  have k0_h2 : k0_cond2 L p = 1#1 := (cond2_eq L p).trans (if_pos c1)
  have k0_h3 : k0_cond3 L p = 1#1 := (cond3_eq L p).trans (if_pos c2)
  have k0_h5 : k0_cond5 L p = 1#1 := (cond5_eq L p).trans (if_pos c2)
  have k0_h6 : k0_cond6 L p = 1#1 := (cond6_eq L p).trans (if_pos c3)
  have hp0 : ¬ p.val = 0 := by omega
  have hp10 : ¬ p.val + 1 = 0 := by omega
  unfold pairInv; rw [if_pos hp20, if_pos hp21]
  unfold headInv; rw [if_pos c1, if_neg hp0, if_pos c3', if_neg hp10]
  unfold Common InFl1 OutFl0 OutFl1
  unfold k0_t2_body
  iintro ⟨⟨#Hmw, HsT, ⟨%fA0, HsA0⟩, Hs8, %W', %hW', HO⟩, ⟨%offa, %ha, %ea, ⟨%fA1, Hs9⟩, HA⟩, ⟨%offo0, %ho0, %eo0, %AA0, Hs10, HsO0r⟩,
    ⟨%offo1, %ho1, %eo1, %AA1, Hs11, HsO1r⟩, Htodo, Hdone⟩
  subst ea; subst eo0; subst eo1
  have hdA1 : Disjoint (aSl (k0_off71 L p) (k0_off71_inb L p k0_h2 k0_h3)).view.set (aSl (offI L (2 * p.val + 1)) ha).view.set :=
    aSl_disjoint _ _ _ _ (wid L + 32 * (2 * p.val + 2)) (wid L + 32 * (2 * p.val + 1)) ((offP71 L p).trans (offI_chunk L _)) (offI_chunk _ _) (by omega)
  have hdA2 : Disjoint (aSl (k0_off140 L p) (k0_off140_inb L p k0_h5 k0_h6)).view.set (aSl (k0_off71 L p) (k0_off71_inb L p k0_h2 k0_h3)).view.set :=
    aSl_disjoint _ _ _ _ (wid L + 32 * (2 * p.val + 3)) (wid L + 32 * (2 * p.val + 2)) ((offP140 L p).trans (offI_chunk L _)) ((offP71 L p).trans (offI_chunk L _)) (by omega)
  ihave Ht := (todo_take (F := F) d L (2 * p.val + 1) c1) $$ Htodo
  icases Ht with ⟨⟨%f1, Hc1⟩, Htodo⟩
  ihave Ht := (todo_take (F := F) d L (2 * p.val + 1 + 1) (by omega)) $$ Htodo
  icases Ht with ⟨⟨%f2, Hc2⟩, Htodo⟩
  ihave Hc1 := (Entails.of_eq (pts_oSl (F := F) d L (k0_off139 L p) (k0_off139_inb L p k0_h2) (wid L + 32 * (2 * p.val + 1)) ((offP139 L p).trans (offI_chunk L _)) f1).symm) $$ Hc1
  ihave Hc2 := (Entails.of_eq (pts_oSl (F := F) d L (k0_off208 L p) (k0_off208_inb L p k0_h5) (wid L + 32 * (2 * p.val + 1 + 1)) ((offP208 L p).trans (offI_chunk L _)) f2).symm) $$ Hc2
  sl_exec (disch := (clear * - hp1; decide +kernel +revert))
  iapply (compute_t3 (F := F) d L _ (in01_A1 (F := F) d L A hA fA1 _ _) _ _ p k0_h2 _ _)
  isplitl [Hs9_dst]; · iexact Hs9_dst
  isplitl [HsT]; · iexact HsT
  isplitl [HsO1r]; · iexact HsO1r
  iintro %acc1 ⟨HsA1, HsT, HsO1⟩
  sl_exec (disch := (clear * - hp1; decide +kernel +revert))
  iapply (compute_t4 (F := F) d L _ (in01_A0 (F := F) d L A hA fA0 _ _) _ _ p k0_h5 _ _)
  isplitl [HsA0]; · iexact HsA0
  isplitl [HsT]; · iexact HsT
  isplitl [HsO0r]; · iexact HsO0r
  iintro %acc2 ⟨HsA0, HsT, HsO0⟩
  sl_exec
  sl_step
  have e140 : k0_off140 L p = offI L (2 * (p.val + 1) + 1) := (offP140 L p).trans (congrArg (offI L) (by omega))
  have e208 : k0_off208 L p = offI L (2 * (p.val + 1)) := (offP208 L p).trans (congrArg (offI L) (by omega))
  have e139 : k0_off139 L p = offI L (2 * (p.val + 1) - 1) := (offP139 L p).trans (congrArg (offI L) (by omega))
  -- the table, the first index scratch at rest, what the tile owes
  isplitl [HsT HsA0 Hs8 HO]
  · isplitr; · iexact Hmw
    isplitl [HsT]; · iexact HsT
    isplitl [HsA0]; · iexists _; iexact HsA0
    isplitl [Hs8]; · iexact Hs8
    iexists _; isplitr
    swap
    · iexact HO
    · ipureintro; intro x hx
      rcases Finset.mem_insert.mp hx with hx | hx
      · subst hx; exact Or.inr rfl
      rcases Finset.mem_insert.mp hx with hx | hx
      · subst hx; exact Or.inr rfl
      rcases Finset.mem_insert.mp hx with hx | hx
      · subst hx; exact Or.inr rfl
      rcases Finset.mem_insert.mp hx with hx | hx
      · subst hx; exact Or.inr rfl
      exact hW' x hx
  -- the next odd chunk on its way in
  isplitl [Hs9 HA]
  · iexists (k0_off140 L p), (k0_off140_inb L p k0_h5 k0_h6); isplitr
    · ipureintro; exact e140
    isplitl [Hs9]
    · iexists _; iexact Hs9
    · iexact HA
  -- the even chunk on its way out
  isplitl [Hs10 HsO0]
  · iexists (k0_off208 L p), (k0_off208_inb L p k0_h5); isplitr
    · ipureintro; exact e208
    iexists _
    isplitl [Hs10]
    · iapply (Transfers.Flight_mono countersEmb (thr d L) ?hm0) $$ Hs10
      case hm0 => exact sep_mono_left (Entails.of_eq (out_pts0' (F := F) d L A hA B0 B1 B2 TT hTT (2 * p.val + 2) c2 _ _ _ _ (offP208 L p) (offP71 L p) fA0 f2))
    · iexact HsO0
  -- the odd chunk on its way out
  isplitl [Hs11 HsO1]
  · iexists (k0_off139 L p), (k0_off139_inb L p k0_h2); isplitr
    · ipureintro; exact e139
    iexists _
    isplitl [Hs11]
    · iapply (Transfers.Flight_mono countersEmb (thr d L) ?hm1) $$ Hs11
      case hm1 => exact sep_mono_left (Entails.of_eq (out_pts1' (F := F) d L A hA B0 B1 B2 TT hTT (2 * p.val + 1) c1 _ _ _ _ (offP139 L p) rfl fA1 f1))
    · iexact HsO1
  -- what is left to do
  isplitl [Htodo]
  · rw [show 2 * (p.val + 1) + 1 = 2 * p.val + 1 + 1 + 1 by omega]; iexact Htodo
  -- what has come back
  ihave Hd1 := (Entails.of_eq (pts_oSl (F := F) d L (offI L (2 * p.val - 1)) ho1 (wid L + 32 * (2 * p.val - 1)) (offI_chunk L _) _)) $$ Hs11_dst
  ihave Hdone := (done_put (F := F) d L (2 * p.val - 1) _) $$ [Hdone Hd1]
  · isplitl [Hdone] <;> iassumption
  rw [show 2 * p.val - 1 + 1 = 2 * p.val by omega]
  ihave Hd2 := (Entails.of_eq (pts_oSl (F := F) d L (offI L (2 * p.val)) ho0 (wid L + 32 * (2 * p.val)) (offI_chunk L _) _)) $$ Hs10_dst
  ihave Hdone := (done_put (F := F) d L (2 * p.val) _) $$ [Hdone Hd2]
  · isplitl [Hdone] <;> iassumption
  rw [show 2 * (p.val + 1) - 1 = 2 * p.val + 1 by omega]
  iexact Hdone

end Cert.Proof.KI

end
-- ==== Proof.KIRound18.lean ====
/-
  Round 18 of the pair loop for a tile that has no chunk 39 (the tile's number is 2 or more).

  Before the round the copy-in of chunk 37 and the copy-outs of chunks 35 and 36 are under way. The round prefetches
  chunk 38, waits for chunk 37 and for the copy-out of 35, gathers chunk 37 and sends it out; then, there being no
  chunk 39 to prefetch, waits for chunk 38 and for the copy-out of 36, gathers chunk 38 and sends it out. Afterwards
  the second index scratch and its semaphore are at rest and the index array is whole again.
-/
import proofs.«203793_g3813930959492_cont_8to1_b_1292_12_alg».proof.Proof.KIIface
import proofs.«203793_g3813930959492_cont_8to1_b_1292_12_alg».proof.Proof.KICond
import proofs.«203793_g3813930959492_cont_8to1_b_1292_12_alg».proof.Proof.KIFacts
import proofs.«203793_g3813930959492_cont_8to1_b_1292_12_alg».proof.Proof.KIValue
import proofs.«203793_g3813930959492_cont_8to1_b_1292_12_alg».proof.Proof.KIRoundLib
import proofs.«203793_g3813930959492_cont_8to1_b_1292_12_alg».proof.Proof.KICompute3
import proofs.«203793_g3813930959492_cont_8to1_b_1292_12_alg».proof.Proof.KICompute4

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

set_option maxHeartbeats 8000000 in
theorem round_18 (d : Dev nD) (L : grid0.Coords) (q : PosShare TreeShare) (A : Buf (Elt F) (aLoc d)) (hA : ∀ i, A i = 0#32 ∨ A i = 1#32)
    (B0 : Buf (Elt F) (w0Loc d)) (B1 : Buf (Elt F) (w1Loc d)) (B2 : Buf (Elt F) (w2Loc d)) (TT : Buf (Elt F) ((thr d L).loc cc0_scratch7))
    (hTT : IsTable (F := F) B0 B1 B2 TT)
    (O : CellTallies nD τ sig (HIx 1)) (W : Waits sig (HIx 1)) (hO : ∀ g, O g none = 0)
    (p : Fin k0_t2_loop.trips) (hp : p.val = 18) (nc3 : 1250 ≤ wid L + 32 * (2 * p.val + 3)) (acc : BitVec 32) :
    pairInv d L q A B0 B1 B2 TT O W p.val acc
      ⊢ wp frame (wpE (defs₀ (F := F)) 𝒱₀ (thr d L) none) Set.univ (k0_t2_body (F := F) L aV (Memref.isWhole_whole _) w0V (Memref.isWhole_whole _) w1V (Memref.isWhole_whole _) w2V (Memref.isWhole_whole _) oV (Memref.isWhole_whole _) sA0 (Memref.isWhole_whole _) sA1 (Memref.isWhole_whole _) sO0 (Memref.isWhole_whole _) sO1 (Memref.isWhole_whole _) sW0 (Memref.isWhole_whole _) sW1 (Memref.isWhole_whole _) sW2 (Memref.isWhole_whole _) sT (Memref.isWhole_whole _) cc0_scratch8 cc0_scratch9 cc0_scratch10 cc0_scratch11 cc0_scoped0 cc0_scoped1 cc0_scoped2 p acc)
          (pairInv d L q A B0 B1 B2 TT O W (p.val + 1)) := by
  have hw := wid_lt L
  have hp20 : p.val < 20 := by omega
  have hp21 : p.val + 1 < 20 := by omega
  have c1 : wid L + 32 * (2 * p.val + 1) < 1250 := by omega
  have c2 : wid L + 32 * (2 * p.val + 2) < 1250 := by omega
  have nc3p : ¬ wid L + 32 * (2 * p.val + 3) < 1250 := by omega
  have nc3' : ¬ wid L + 32 * (2 * (p.val + 1) + 1) < 1250 := by omega
  have k0_h2 : k0_cond2 L p = 1#1 := (cond2_eq L p).trans (if_pos c1)
  have k0_h3 : k0_cond3 L p = 1#1 := (cond3_eq L p).trans (if_pos c2)
  have k0_h5 : k0_cond5 L p = 1#1 := (cond5_eq L p).trans (if_pos c2)
  have k0_h6 : ¬ k0_cond6 L p = 1#1 := by rw [(cond6_eq L p).trans (if_neg nc3p)]; decide
  have hp0 : ¬ p.val = 0 := by omega
  have hp10 : ¬ p.val + 1 = 0 := by omega
  unfold pairInv; rw [if_pos hp20, if_pos hp21]
  unfold headInv; rw [if_pos c1, if_neg hp0, if_neg nc3', if_neg hp10]
  unfold Common InFl1 OutFl0 OutFl1 InRest1
  unfold k0_t2_body
  iintro ⟨⟨#Hmw, HsT, ⟨%fA0, HsA0⟩, Hs8, %W', %hW', HO⟩, ⟨%offa, %ha, %ea, ⟨%fA1, Hs9⟩, HA⟩, ⟨%offo0, %ho0, %eo0, %AA0, Hs10, HsO0r⟩,
    ⟨%offo1, %ho1, %eo1, %AA1, Hs11, HsO1r⟩, Htodo, Hdone⟩
  subst ea; subst eo0; subst eo1
  have hdA1 : Disjoint (aSl (k0_off71 L p) (k0_off71_inb L p k0_h2 k0_h3)).view.set (aSl (offI L (2 * p.val + 1)) ha).view.set :=
    aSl_disjoint _ _ _ _ (wid L + 32 * (2 * p.val + 2)) (wid L + 32 * (2 * p.val + 1)) ((offP71 L p).trans (offI_chunk L _)) (offI_chunk _ _) (by omega)
  ihave Ht := (todo_take (F := F) d L (2 * p.val + 1) c1) $$ Htodo
  icases Ht with ⟨⟨%f1, Hc1⟩, Htodo⟩
  ihave Ht := (todo_take (F := F) d L (2 * p.val + 1 + 1) (by omega)) $$ Htodo
  icases Ht with ⟨⟨%f2, Hc2⟩, Htodo⟩
  ihave Hc1 := (Entails.of_eq (pts_oSl (F := F) d L (k0_off139 L p) (k0_off139_inb L p k0_h2) (wid L + 32 * (2 * p.val + 1)) ((offP139 L p).trans (offI_chunk L _)) f1).symm) $$ Hc1
  ihave Hc2 := (Entails.of_eq (pts_oSl (F := F) d L (k0_off208 L p) (k0_off208_inb L p k0_h5) (wid L + 32 * (2 * p.val + 1 + 1)) ((offP208 L p).trans (offI_chunk L _)) f2).symm) $$ Hc2
  sl_exec (disch := (clear * - hp; decide +kernel +revert))

  iapply (compute_t3 (F := F) d L _ (in01_A1 (F := F) d L A hA fA1 _ _) _ _ p k0_h2 _ _)
  isplitl [Hs9_dst]; · iexact Hs9_dst
  isplitl [HsT]; · iexact HsT
  isplitl [HsO1r]; · iexact HsO1r
  iintro %acc1 ⟨HsA1, HsT, HsO1⟩
  sl_exec (disch := (clear * - hp; decide +kernel +revert))

  iapply (compute_t4 (F := F) d L _ (in01_A0 (F := F) d L A hA fA0 _ _) _ _ p k0_h5 _ _)
  isplitl [HsA0]; · iexact HsA0
  isplitl [HsT]; · iexact HsT
  isplitl [HsO0r]; · iexact HsO0r
  iintro %acc2 ⟨HsA0, HsT, HsO0⟩
  sl_exec
  sl_step

  have e208 : k0_off208 L p = offI L (2 * (p.val + 1)) := (offP208 L p).trans (congrArg (offI L) (by omega))
  have e139 : k0_off139 L p = offI L (2 * (p.val + 1) - 1) := (offP139 L p).trans (congrArg (offI L) (by omega))
  -- the table, the first index scratch at rest, what the tile owes
  isplitl [HsT HsA0 Hs8 HO]
  · isplitr; · iexact Hmw
    isplitl [HsT]; · iexact HsT
    isplitl [HsA0]; · iexists _; iexact HsA0
    isplitl [Hs8]; · iexact Hs8
    iexists _; isplitr
    swap
    · iexact HO
    · ipureintro; intro x hx
      rcases Finset.mem_insert.mp hx with hx | hx
      · subst hx; exact Or.inr rfl
      rcases Finset.mem_insert.mp hx with hx | hx
      · subst hx; exact Or.inr rfl
      rcases Finset.mem_insert.mp hx with hx | hx
      · subst hx; exact Or.inr rfl
      rcases Finset.mem_insert.mp hx with hx | hx
      · subst hx; exact Or.inr rfl
      exact hW' x hx
  -- the second index scratch and its semaphore at rest, the index array whole
  isplitl [HsA1 Hs9 HA]
  · isplitl [HsA1]; · iexists _; iexact HsA1
    isplitl [Hs9]; · iexact Hs9
    iexact HA
  -- the even chunk on its way out
  isplitl [Hs10 HsO0]
  · iexists (k0_off208 L p), (k0_off208_inb L p k0_h5); isplitr
    · ipureintro; exact e208
    iexists _
    isplitl [Hs10]
    · iapply (Transfers.Flight_mono countersEmb (thr d L) ?hm0) $$ Hs10
      case hm0 => exact sep_mono_left (Entails.of_eq (out_pts0' (F := F) d L A hA B0 B1 B2 TT hTT (2 * p.val + 2) c2 _ _ _ _ (offP208 L p) (offP71 L p) fA0 f2))
    · iexact HsO0
  -- the odd chunk on its way out
  isplitl [Hs11 HsO1]
  · iexists (k0_off139 L p), (k0_off139_inb L p k0_h2); isplitr
    · ipureintro; exact e139
    iexists _
    isplitl [Hs11]
    · iapply (Transfers.Flight_mono countersEmb (thr d L) ?hm1) $$ Hs11
      case hm1 => exact sep_mono_left (Entails.of_eq (out_pts1' (F := F) d L A hA B0 B1 B2 TT hTT (2 * p.val + 1) c1 _ _ _ _ (offP139 L p) rfl fA1 f1))
    · iexact HsO1
  -- what is left to do
  isplitl [Htodo]
  · rw [show 2 * (p.val + 1) + 1 = 2 * p.val + 1 + 1 + 1 by omega]; iexact Htodo
  -- what has come back
  ihave Hd1 := (Entails.of_eq (pts_oSl (F := F) d L (offI L (2 * p.val - 1)) ho1 (wid L + 32 * (2 * p.val - 1)) (offI_chunk L _) _)) $$ Hs11_dst
  ihave Hdone := (done_put (F := F) d L (2 * p.val - 1) _) $$ [Hdone Hd1]
  · isplitl [Hdone] <;> iassumption
  rw [show 2 * p.val - 1 + 1 = 2 * p.val by omega]
  ihave Hd2 := (Entails.of_eq (pts_oSl (F := F) d L (offI L (2 * p.val)) ho0 (wid L + 32 * (2 * p.val)) (offI_chunk L _) _)) $$ Hs10_dst
  ihave Hdone := (done_put (F := F) d L (2 * p.val) _) $$ [Hdone Hd2]
  · isplitl [Hdone] <;> iassumption
  rw [show 2 * (p.val + 1) - 1 = 2 * p.val + 1 by omega]
  iexact Hdone

end Cert.Proof.KI

end
-- ==== Proof.KIRound19.lean ====
/-
  The last round of the pair loop (round 19), in its two forms.

  Before it the copy-outs of chunks 37 and 38 are under way, and so is the copy-in of chunk 39 for the two tiles that
  have one (chunk 39 of tile `w` is chunk `w + 1248` of the arrays, which exists for `w < 2`). Such a tile waits for
  chunk 39 and for the copy-out of chunk 37, gathers chunk 39 and sends it out; it prefetches nothing (there is no
  chunk 40) and its second half does not run. Every other tile does nothing in this round.
-/
import proofs.«203793_g3813930959492_cont_8to1_b_1292_12_alg».proof.Proof.KIIface
import proofs.«203793_g3813930959492_cont_8to1_b_1292_12_alg».proof.Proof.KICond
import proofs.«203793_g3813930959492_cont_8to1_b_1292_12_alg».proof.Proof.KIFacts
import proofs.«203793_g3813930959492_cont_8to1_b_1292_12_alg».proof.Proof.KIValue
import proofs.«203793_g3813930959492_cont_8to1_b_1292_12_alg».proof.Proof.KIRoundLib
import proofs.«203793_g3813930959492_cont_8to1_b_1292_12_alg».proof.Proof.KICompute3

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
set_option maxHeartbeats 8000000 in
/-- Round 19 of a tile with a chunk 39: it waits for chunk 39 and for the copy-out of chunk 37, gathers chunk 39 and
    sends it out; nothing is prefetched and the second half does not run. -/
theorem round_19_some (d : Dev nD) (L : grid0.Coords) (q : PosShare TreeShare) (A : Buf (Elt F) (aLoc d)) (hA : ∀ i, A i = 0#32 ∨ A i = 1#32)
    (B0 : Buf (Elt F) (w0Loc d)) (B1 : Buf (Elt F) (w1Loc d)) (B2 : Buf (Elt F) (w2Loc d)) (TT : Buf (Elt F) ((thr d L).loc cc0_scratch7))
    (hTT : IsTable (F := F) B0 B1 B2 TT)
    (O : CellTallies nD τ sig (HIx 1)) (W : Waits sig (HIx 1)) (hO : ∀ g, O g none = 0)
    (p : Fin k0_t2_loop.trips) (hp : p.val = 19) (c1 : wid L + 32 * (2 * p.val + 1) < 1250) (acc : BitVec 32) :
    pairInv d L q A B0 B1 B2 TT O W p.val acc
      ⊢ wp frame (wpE (defs₀ (F := F)) 𝒱₀ (thr d L) none) Set.univ (k0_t2_body (F := F) L aV (Memref.isWhole_whole _) w0V (Memref.isWhole_whole _) w1V (Memref.isWhole_whole _) w2V (Memref.isWhole_whole _) oV (Memref.isWhole_whole _) sA0 (Memref.isWhole_whole _) sA1 (Memref.isWhole_whole _) sO0 (Memref.isWhole_whole _) sO1 (Memref.isWhole_whole _) sW0 (Memref.isWhole_whole _) sW1 (Memref.isWhole_whole _) sW2 (Memref.isWhole_whole _) sT (Memref.isWhole_whole _) cc0_scratch8 cc0_scratch9 cc0_scratch10 cc0_scratch11 cc0_scoped0 cc0_scoped1 cc0_scoped2 p acc)
          (pairInv d L q A B0 B1 B2 TT O W (p.val + 1)) := by
  have hw := wid_lt L
  have hp20 : p.val < 20 := by omega
  have hp21 : ¬ p.val + 1 < 20 := by omega
  have nc2 : ¬ wid L + 32 * (2 * p.val + 2) < 1250 := by omega
  have k0_h2 : k0_cond2 L p = 1#1 := (cond2_eq L p).trans (if_pos c1)
  have k0_h3 : ¬ k0_cond3 L p = 1#1 := by rw [cond3_eq L p, if_neg nc2]; decide
  have k0_h5 : ¬ k0_cond5 L p = 1#1 := by rw [cond5_eq L p, if_neg nc2]; decide
  have hp0 : ¬ p.val = 0 := by omega
  unfold pairInv; rw [if_pos hp20, if_neg hp21]
  unfold headInv exitInv; rw [if_pos c1, if_neg hp0]
  unfold Common InFl1 OutFl1 InRest1
  unfold k0_t2_body
  iintro ⟨⟨#Hmw, HsT, ⟨%fA0, HsA0⟩, Hs8, %W', %hW', HO⟩, ⟨%offa, %ha, %ea, ⟨%fA1, Hs9⟩, HA⟩, HO0,
    ⟨%offo1, %ho1, %eo1, %AA1, Hs11, HsO1r⟩, Htodo, Hdone⟩
  subst ea; subst eo1
  ihave Ht := (todo_take (F := F) d L (2 * p.val + 1) c1) $$ Htodo
  icases Ht with ⟨⟨%f1, Hc1⟩, Htodo⟩
  ihave Hc1 := (Entails.of_eq (pts_oSl (F := F) d L (k0_off139 L p) (k0_off139_inb L p k0_h2) (wid L + 32 * (2 * p.val + 1)) ((offP139 L p).trans (offI_chunk L _)) f1).symm) $$ Hc1
  sl_exec (disch := (clear * - hp; decide +kernel +revert))
  iapply (compute_t3 (F := F) d L _ (in01_A1 (F := F) d L A hA fA1 _ _) _ _ p k0_h2 _ _)
  isplitl [Hs9_dst]; · iexact Hs9_dst
  isplitl [HsT]; · iexact HsT
  isplitl [HsO1r]; · iexact HsO1r
  iintro %acc1 ⟨HsA1, HsT, HsO1⟩
  sl_exec
  sl_step
  -- the table, the first index scratch at rest, what the tile owes
  isplitl [HsT HsA0 Hs8 HO]
  · isplitr; · iexact Hmw
    isplitl [HsT]; · iexact HsT
    isplitl [HsA0]; · iexists _; iexact HsA0
    isplitl [Hs8]; · iexact Hs8
    iexists _; isplitr
    swap
    · iexact HO
    · ipureintro; intro x hx
      rcases Finset.mem_insert.mp hx with hx | hx
      · subst hx; exact Or.inr rfl
      rcases Finset.mem_insert.mp hx with hx | hx
      · subst hx; exact Or.inr rfl
      exact hW' x hx
  -- the second index scratch at rest, the index array whole again
  isplitl [HsA1 Hs9 HA]
  · isplitl [HsA1]; · iexists _; iexact HsA1
    isplitl [Hs9]; · iexact Hs9
    iexact HA
  -- the copy-out of chunk 38 as it was
  isplitl [HO0]
  · icases HO0 with ⟨%off0, %h0, %e0, HO0⟩
    iexists off0, h0; isplitr
    · ipureintro; exact e0.trans (congrArg (offI L) (by omega))
    iexact HO0
  -- chunk 39 on its way out
  iexists 39, 38, (k0_off139 L p), (k0_off139_inb L p k0_h2)
  isplitr
  · ipureintro; exact ⟨Or.inr ⟨rfl, rfl⟩, by omega, by omega, (offP139 L p).trans (congrArg (offI L) (by omega))⟩
  isplitl [Hs11 HsO1]
  · iexists _
    isplitl [Hs11]
    · iapply (Transfers.Flight_mono countersEmb (thr d L) ?hm1) $$ Hs11
      case hm1 => exact sep_mono_left (Entails.of_eq (out_pts1' (F := F) d L A hA B0 B1 B2 TT hTT (2 * p.val + 1) c1 _ _ _ _ (offP139 L p) rfl fA1 f1))
    · iexact HsO1
  -- chunk 37 has come back: everything below chunk 38 is at its final contents
  ihave Hd1 := (Entails.of_eq (pts_oSl (F := F) d L (offI L (2 * p.val - 1)) ho1 (wid L + 32 * (2 * p.val - 1)) (offI_chunk L _) _)) $$ Hs11_dst
  ihave Hdone := (done_put (F := F) d L (2 * p.val - 1) _) $$ [Hdone Hd1]
  · isplitl [Hdone] <;> iassumption
  rw [show 2 * p.val - 1 + 1 = 38 by omega]
  iexact Hdone

set_option maxHeartbeats 8000000 in
/-- Round 19 of a tile without a chunk 39: neither half runs, and the state before the round is the state after it. -/
theorem round_19_none (d : Dev nD) (L : grid0.Coords) (q : PosShare TreeShare) (A : Buf (Elt F) (aLoc d)) (hA : ∀ i, A i = 0#32 ∨ A i = 1#32)
    (B0 : Buf (Elt F) (w0Loc d)) (B1 : Buf (Elt F) (w1Loc d)) (B2 : Buf (Elt F) (w2Loc d)) (TT : Buf (Elt F) ((thr d L).loc cc0_scratch7))
    (hTT : IsTable (F := F) B0 B1 B2 TT)
    (O : CellTallies nD τ sig (HIx 1)) (W : Waits sig (HIx 1)) (hO : ∀ g, O g none = 0)
    (p : Fin k0_t2_loop.trips) (hp : p.val = 19) (nc1 : 1250 ≤ wid L + 32 * (2 * p.val + 1)) (acc : BitVec 32) :
    pairInv d L q A B0 B1 B2 TT O W p.val acc
      ⊢ wp frame (wpE (defs₀ (F := F)) 𝒱₀ (thr d L) none) Set.univ (k0_t2_body (F := F) L aV (Memref.isWhole_whole _) w0V (Memref.isWhole_whole _) w1V (Memref.isWhole_whole _) w2V (Memref.isWhole_whole _) oV (Memref.isWhole_whole _) sA0 (Memref.isWhole_whole _) sA1 (Memref.isWhole_whole _) sO0 (Memref.isWhole_whole _) sO1 (Memref.isWhole_whole _) sW0 (Memref.isWhole_whole _) sW1 (Memref.isWhole_whole _) sW2 (Memref.isWhole_whole _) sT (Memref.isWhole_whole _) cc0_scratch8 cc0_scratch9 cc0_scratch10 cc0_scratch11 cc0_scoped0 cc0_scoped1 cc0_scoped2 p acc)
          (pairInv d L q A B0 B1 B2 TT O W (p.val + 1)) := by
  have hw := wid_lt L
  have hp20 : p.val < 20 := by omega
  have hp21 : ¬ p.val + 1 < 20 := by omega
  have nc1' : ¬ wid L + 32 * (2 * p.val + 1) < 1250 := by omega
  have nc2' : ¬ wid L + 32 * (2 * p.val + 2) < 1250 := by omega
  have k0_h2 : ¬ k0_cond2 L p = 1#1 := by rw [cond2_eq L p, if_neg nc1']; decide
  have k0_h5 : ¬ k0_cond5 L p = 1#1 := by rw [cond5_eq L p, if_neg nc2']; decide
  have hp0 : ¬ p.val = 0 := by omega
  unfold pairInv; rw [if_pos hp20, if_neg hp21]
  unfold headInv exitInv; rw [if_neg nc1', if_neg hp0]
  rw [show 2 * p.val - 1 = 37 by omega, show 2 * p.val = 38 by omega]
  unfold k0_t2_body
  iintro ⟨HC, HR, HO0, ⟨%offo1, %ho1, %eo1, HO1⟩, Htodo, Hdone⟩
  sl_exec
  sl_step
  isplitl [HC]; · iexact HC
  isplitl [HR]; · iexact HR
  isplitl [HO0]; · iexact HO0
  -- the odd chunk on its way out is chunk 37, and the chunks below it have come back
  iexists 37, 37, offo1, ho1
  isplitr
  · ipureintro; exact ⟨Or.inl ⟨rfl, rfl⟩, by omega, by omega, eo1⟩
  isplitl [HO1]; · iexact HO1
  iexact Hdone

end Cert.Proof.KI

end
-- ==== Proof.KIPairLoopAll.lean ====
/-
  The pair loop as one step of a tile's run, from its five kinds of round.
-/
import proofs.«203793_g3813930959492_cont_8to1_b_1292_12_alg».proof.Proof.KIPairLoop
import proofs.«203793_g3813930959492_cont_8to1_b_1292_12_alg».proof.Proof.KIRound0
import proofs.«203793_g3813930959492_cont_8to1_b_1292_12_alg».proof.Proof.KIRoundMid
import proofs.«203793_g3813930959492_cont_8to1_b_1292_12_alg».proof.Proof.KIRound18
import proofs.«203793_g3813930959492_cont_8to1_b_1292_12_alg».proof.Proof.KIRound19

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

set_option maxHeartbeats 4000000 in
/-- The twenty rounds take the state before round 0 to the state after round 19. -/
theorem pair_loop : PairLoop (F := F) :=
  pair_loop_of
    (fun d L q A hA B0 B1 B2 TT hTT O W hO p h acc => round_zero d L q A hA B0 B1 B2 TT hTT O W hO p h acc)
    (fun d L q A hA B0 B1 B2 TT hTT O W hO p h acc => round_mid d L q A hA B0 B1 B2 TT hTT O W hO p h.1 h.2.1 h.2.2 acc)
    (fun d L q A hA B0 B1 B2 TT hTT O W hO p h acc => round_18 d L q A hA B0 B1 B2 TT hTT O W hO p h.1 h.2 acc)
    (fun d L q A hA B0 B1 B2 TT hTT O W hO p h acc => round_19_some d L q A hA B0 B1 B2 TT hTT O W hO p h.1 h.2 acc)
    (fun d L q A hA B0 B1 B2 TT hTT O W hO p h acc => round_19_none d L q A hA B0 B1 B2 TT hTT O W hO p h.1 h.2 acc)

end Cert.Proof.KI

end
-- ==== Proof.KIAll.lean ====
/-
  The kernel's run, assembled: the first gather loop, the pair loop and the rest of a tile's body give the tile's
  obligation; the launch turns it into the run of the whole program with the result named.
-/
import proofs.«203793_g3813930959492_cont_8to1_b_1292_12_alg».proof.Proof.KILaunch
import proofs.«203793_g3813930959492_cont_8to1_b_1292_12_alg».proof.Proof.KITile
import proofs.«203793_g3813930959492_cont_8to1_b_1292_12_alg».proof.Proof.KICompute1
import proofs.«203793_g3813930959492_cont_8to1_b_1292_12_alg».proof.Proof.KIPairLoopAll

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- Every tile's body leaves the tile's columns of the result at their final contents. -/
theorem tile_core_all : TileCore (F := F) :=
  tile_core (F := F) (fun d L AA hAA TT fO α k Q => compute_t1 (F := F) d L AA hAA TT fO k Q) (pair_loop (F := F))

/-- The program's run: the result is the looked-up sum of the arguments, which are left unchanged. -/
theorem run_all [∀ e, Nonempty (Elt F e)] (m : (ℓ : Loc nD τ sig) → Buf (Elt F) ℓ) (ρ : Dev nD → PrngReg)
    (h01 : ∀ c : Dev nD, Cert.Spec.Attr01 (m ((c.tc : Thread nD τ).loc main_arg0))) :
    θ_run (Cert.KernelIdeal.defs (F := F)) (Cert.KernelIdeal.threads (F := F)) ⟨m, fun _ => 0, ρ⟩ (fun r => ∀ c : Dev nD,
        r.2.mem ((c.tc : Thread nD τ).loc main_v2) = Cert.Spec.G (F := F) (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3)) :=
  run_main (F := F) (tile_core_all (F := F)) m ρ h01

end Cert.Proof.KI

end
-- ==== Proof.KBSetup.lean ====
/-
  The vocabulary shared by the modules about the idealized kernel's run: the program as the launch theorem reads it,
  the resource algebra (the launch handshakes' rounds beside the transfers' counters), the kernel's memrefs in the
  spelling the body table passes them, and a tile's number.
-/
import proofs.«203793_g3813930959492_cont_8to1_b_1292_12_alg».proof.Kernel
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«203793_g3813930959492_cont_8to1_b_1292_12_alg».proof.Proof.Gen.Kernel
import proofs.«203793_g3813930959492_cont_8to1_b_1292_12_alg».proof.Proof.Gen.Kernel.Skeleton
import proofs.«203793_g3813930959492_cont_8to1_b_1292_12_alg».proof.Proof.Spec

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra -/

abbrev UH : Type := URounds (GSem nD τ sig) ℕ
abbrev UU : Type := UH × Counters

abbrev MM (F : FTy → Type) : Type := MT nD τ sig (HIx 1) (Elt F) ℕ UU ℕ

abbrev EH : Emb UH (MT nD τ sig (HIx 1) (Elt F) ℕ UU ℕ) := embL

/-! ## The kernel's memrefs, as the body table passes them -/

abbrev aV : Memref sig .scVector .hbm S3x800000 .i32 := Memref.whole main_v0_scv
abbrev w0V : Memref sig .scVector .hbm S20x64 .f32 := Memref.whole main_arg1_scv
abbrev w1V : Memref sig .scVector .hbm S10x64 .f32 := Memref.whole main_arg2_scv
abbrev w2V : Memref sig .scVector .hbm S2x64 .f32 := Memref.whole main_arg3_scv
abbrev oV : Memref sig .scVector .hbm S64x800000 .f32 := Memref.whole main_v1_scv
abbrev sA0 : Memref sig .scVector .vmem S3x640 .i32 := Memref.whole cc0_scratch0
abbrev sA1 : Memref sig .scVector .vmem S3x640 .i32 := Memref.whole cc0_scratch1
abbrev sO0 : Memref sig .scVector .vmem S64x640 .f32 := Memref.whole cc0_scratch2
abbrev sO1 : Memref sig .scVector .vmem S64x640 .f32 := Memref.whole cc0_scratch3
abbrev sW0 : Memref sig .scVector .vmem S2x64 .f32 := Memref.whole cc0_scratch4
abbrev sW1 : Memref sig .scVector .vmem S2x64 .f32 := Memref.whole cc0_scratch5
abbrev sW2 : Memref sig .scVector .vmem S2x64 .f32 := Memref.whole cc0_scratch6
abbrev sT : Memref sig .scVector .vmem S64x16 .f32 := Memref.whole cc0_scratch7

/-- A tile's place: SparseCore `L 0`, vector subcore `L 1`. -/
abbrev cV (L : grid0.Coords) : Fin τ.nSC := (L 0).castLE hcore0
abbrev jV (L : grid0.Coords) : Fin τ.nSub := (L 1).castLE hsub0

/-- The kernel's function at a tile, on the whole arrays and the tile's scratch. -/
abbrev body [FloatOps F] (L : grid0.Coords) :=
  cc0__body (F := F) L aV (Memref.isWhole_whole _) w0V (Memref.isWhole_whole _) w1V (Memref.isWhole_whole _) w2V (Memref.isWhole_whole _)
    oV (Memref.isWhole_whole _) sA0 (Memref.isWhole_whole _) sA1 (Memref.isWhole_whole _) sO0 (Memref.isWhole_whole _) sO1 (Memref.isWhole_whole _)
    sW0 (Memref.isWhole_whole _) sW1 (Memref.isWhole_whole _) sW2 (Memref.isWhole_whole _) sT (Memref.isWhole_whole _)
    cc0_scratch8 cc0_scratch9 cc0_scratch10 cc0_scratch11 cc0_scoped0 cc0_scoped1 cc0_scoped2

end Cert.Proof.KB

end
-- ==== Proof.KBDefs.lean ====
/-
  What one tile is handed and what it hands back, stated over plain arrays.

  Tile `(c, s)` has the number `w = 2 s + c` (0 … 31). The edges are cut in 1250 chunks of 640; the tile works on the
  chunks whose number is `w` modulo 32, so of the result array (64 rows, one column per edge) it owns the columns `e`
  with `(e / 640) % 32 = w`. What it leaves there is, per column `e` and row `j`, the sum of the three weight rows
  the edge's index words name.
-/
import proofs.«203793_g3813930959492_cont_8to1_b_1292_12_alg».proof.Proof.KBSetup

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

abbrev thr (d : Dev nD) (L : grid0.Coords) : Thread nD τ := V d (cV L) (jV L)
abbrev aLoc (d : Dev nD) : Loc nD τ sig := (SparseCore.T d).loc main_v0
abbrev w0Loc (d : Dev nD) : Loc nD τ sig := (SparseCore.T d).loc main_arg1
abbrev w1Loc (d : Dev nD) : Loc nD τ sig := (SparseCore.T d).loc main_arg2
abbrev w2Loc (d : Dev nD) : Loc nD τ sig := (SparseCore.T d).loc main_arg3
abbrev oLoc (d : Dev nD) : Loc nD τ sig := (SparseCore.T d).loc main_v1

/-- The tile's number: twice its subcore index plus its SparseCore's. -/
def wid (L : grid0.Coords) : ℕ := (L 1).val * 2 + (L 0).val

omit [FloatOps F] in
theorem wid_lt (L : grid0.Coords) : wid L < 32 := by
  have h0 : (L 0).val < 2 := (L 0).isLt
  have h1 : (L 1).val < 16 := (L 1).isLt
  unfold wid; omega

/-- The columns of the result the tile owns: those of the chunks numbered `wid L` modulo 32. -/
def oRegion (L : grid0.Coords) : Finset S64x800000.Idx :=
  Finset.univ.filter fun idx => ((idx 1 : Fin 800000).val / 640) % 32 = wid L

/-- What the kernel leaves in the result array (64 × 800000, one column per edge) as a function of the transposed
    index array `A` (3 × 800000) and the three weight tables: at row `j`, column `e`,
    `(W0[sel A[0,e], j] + W1[sel A[1,e], j]) + W2[sel A[2,e], j]`. -/
def GT (A : IVec S3x800000 32) (B0 : FVec F S20x64 .f32) (B1 : FVec F S10x64 .f32) (B2 : FVec F S2x64 .f32) :
    FVec F S64x800000 .f32 :=
  fun idx =>
    FloatOps.addf
      (FloatOps.addf
        (B0 (ValueIdx.ix2 ((Cert.Spec.sel (A (ValueIdx.ix2 (0 : Fin 3) (idx 1 : Fin 800000)))).castLE (by decide) : Fin 20) (idx 0 : Fin 64)))
        (B1 (ValueIdx.ix2 ((Cert.Spec.sel (A (ValueIdx.ix2 (1 : Fin 3) (idx 1 : Fin 800000)))).castLE (by decide) : Fin 10) (idx 0 : Fin 64))))
      (B2 (ValueIdx.ix2 (Cert.Spec.sel (A (ValueIdx.ix2 (2 : Fin 3) (idx 1 : Fin 800000))) : Fin 2) (idx 0 : Fin 64)))

/-- The body's obligation at a tile, over explicit resources: a read share `q` of the transposed index array and of
    the three tables, the tile's columns of the result, its eight scratch buffers and seven transfer semaphores at
    zero; it returns the same with the tile's columns at `GT`. -/
def TileCore : Prop :=
  ∀ (d : Dev nD) (L : grid0.Coords) (O : CellTallies nD τ sig (HIx 1)) (W : Waits sig (HIx 1)), (∀ g, O g none = 0) →
  ∀ (q : PosShare TreeShare) (A : Buf (Elt F) (aLoc d)), (∀ i, A i = 0#32 ∨ A i = 1#32) →
  ∀ (B0 : Buf (Elt F) (w0Loc d)) (B1 : Buf (Elt F) (w1Loc d)) (B2 : Buf (Elt F) (w2Loc d)) (o0 : Buf (Elt F) (oLoc d)),
    (iprop(levAts (K (F := F)).L (K (F := F)).lev
        ∗ (aLoc d ↦{q} A) ∗ (w0Loc d ↦{q} B0) ∗ (w1Loc d ↦{q} B1) ∗ (w2Loc d ↦{q} B2)
        ∗ (oLoc d ↦[oRegion L]{fullShare} o0)
        ∗ (∃ f, (thr d L).loc cc0_scratch0 ↦{fullShare} f) ∗ (∃ f, (thr d L).loc cc0_scratch1 ↦{fullShare} f)
        ∗ (∃ f, (thr d L).loc cc0_scratch2 ↦{fullShare} f) ∗ (∃ f, (thr d L).loc cc0_scratch3 ↦{fullShare} f)
        ∗ (∃ f, (thr d L).loc cc0_scratch4 ↦{fullShare} f) ∗ (∃ f, (thr d L).loc cc0_scratch5 ↦{fullShare} f)
        ∗ (∃ f, (thr d L).loc cc0_scratch6 ↦{fullShare} f) ∗ (∃ f, (thr d L).loc cc0_scratch7 ↦{fullShare} f)
        ∗ semVal (thr d L, SemLoc.dma cc0_scratch8.sem) 0 ∗ semVal (thr d L, SemLoc.dma cc0_scratch9.sem) 0
        ∗ semVal (thr d L, SemLoc.dma cc0_scratch10.sem) 0 ∗ semVal (thr d L, SemLoc.dma cc0_scratch11.sem) 0
        ∗ semVal (thr d L, SemLoc.dma cc0_scoped0.sem) 0 ∗ semVal (thr d L, SemLoc.dma cc0_scoped1.sem) 0
        ∗ semVal (thr d L, SemLoc.dma cc0_scoped2.sem) 0
        ∗ owes (thr d L) O W) : sProp 𝕄)
      ⊢ wp frame (wpE (defs₀ (F := F)) 𝒱₀ (thr d L) none) Set.univ (body (F := F) L) fun _ =>
          iprop((aLoc d ↦{q} A) ∗ (w0Loc d ↦{q} B0) ∗ (w1Loc d ↦{q} B1) ∗ (w2Loc d ↦{q} B2)
            ∗ (oLoc d ↦[oRegion L]{fullShare} GT (F := F) A B0 B1 B2)
            ∗ (∃ f, (thr d L).loc cc0_scratch0 ↦{fullShare} f) ∗ (∃ f, (thr d L).loc cc0_scratch1 ↦{fullShare} f)
            ∗ (∃ f, (thr d L).loc cc0_scratch2 ↦{fullShare} f) ∗ (∃ f, (thr d L).loc cc0_scratch3 ↦{fullShare} f)
            ∗ (∃ f, (thr d L).loc cc0_scratch4 ↦{fullShare} f) ∗ (∃ f, (thr d L).loc cc0_scratch5 ↦{fullShare} f)
            ∗ (∃ f, (thr d L).loc cc0_scratch6 ↦{fullShare} f) ∗ (∃ f, (thr d L).loc cc0_scratch7 ↦{fullShare} f)
            ∗ semVal (thr d L, SemLoc.dma cc0_scratch8.sem) 0 ∗ semVal (thr d L, SemLoc.dma cc0_scratch9.sem) 0
            ∗ semVal (thr d L, SemLoc.dma cc0_scratch10.sem) 0 ∗ semVal (thr d L, SemLoc.dma cc0_scratch11.sem) 0
            ∗ semVal (thr d L, SemLoc.dma cc0_scoped0.sem) 0 ∗ semVal (thr d L, SemLoc.dma cc0_scoped1.sem) 0
            ∗ semVal (thr d L, SemLoc.dma cc0_scoped2.sem) 0
            ∗ ∃ W', ⌜∀ p ∈ W', p ∈ W ∨ p.2 = none⌝ ∗ owes (thr d L) O W')

end Cert.Proof.KB

end
-- ==== Proof.KBLaunchA.lean ====
/-
  The launch of the idealized kernel, first part: the side conditions of the launch configuration, the transposed index
  array and the two index equations that carry the kernel's result to the stated function, the cut of the result array
  into the 32 tiles' columns, the read shares the tiles are handed, and what the launch handshakes carry.
-/
import proofs.«203793_g3813930959492_cont_8to1_b_1292_12_alg».proof.Proof.KBDefs
import Idealize.ShloMosaic.Lib.ValueLayout

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.Transfers (shareTok shareDrop pointsTo_toks)

variable {F : FTy → Type}

local notation "𝕄" => MT nD τ sig (HIx 1) (Elt F) ℕ UU ℕ

/-! ## The configuration -/

theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- A tile's coordinates from its SparseCore and subcore indices. -/
def coordsV (c : Fin (grid0.bound 0)) (s : Fin (grid0.bound 1)) : grid0.Coords :=
  fun | 0 => c | 1 => s | ⟨_ + 2, h⟩ => absurd h (Nat.not_lt.2 (Nat.le_add_left _ _))

/-- The tile of SparseCore `c`, subcore `i`. -/
def tileL (c : Fin 2) (i : Fin 16) : grid0.Coords := coordsV ⟨c.val, c.isLt⟩ ⟨i.val, i.isLt⟩

theorem wid_tileL (c : Fin 2) (i : Fin 16) : wid (tileL c i) = i.val * 2 + c.val := rfl

/-! ## The transposed index array, and the result read back through the second transpose -/

/-- The index array with its two axes exchanged: entry `(k, e)` is the `k`-th index word of edge `e`. -/
def AT (a : IVec S800000x3 32) : IVec S3x800000 32 := transpose S3x800000 [1, 0] a transposes_S800000x3_S3x800000_1_0

theorem AT_apply (a : IVec S800000x3 32) (k : Fin 3) (e : Fin 800000) : AT a (ix2 k e) = a (ix2 e k) := by
  unfold AT; exact transpose_ix2_apply a _ k e

/-- Its entries are 0 or 1 when the index array's are. -/
theorem AT_01 {a : IVec S800000x3 32} (h : Cert.Spec.Attr01 a) (i : S3x800000.Idx) : AT a i = 0#32 ∨ AT a i = 1#32 := by
  unfold AT transpose; exact h _

/-- Entry `(j, e)` of the kernel's result is entry `(e, j)` of the stated function. -/
theorem GT_AT_apply [FloatOps F] (a : IVec S800000x3 32) (B0 : FVec F S20x64 .f32) (B1 : FVec F S10x64 .f32) (B2 : FVec F S2x64 .f32)
    (j : Fin 64) (e : Fin 800000) :
    GT (F := F) (AT a) B0 B1 B2 (ix2 j e) = Cert.Spec.G (F := F) a B0 B1 B2 (ix2 e j) := by
  unfold GT Cert.Spec.G
  show FloatOps.addf (FloatOps.addf
        (B0 (ix2 ((Cert.Spec.sel (AT a (ix2 (0 : Fin 3) e))).castLE (by decide) : Fin 20) j))
        (B1 (ix2 ((Cert.Spec.sel (AT a (ix2 (1 : Fin 3) e))).castLE (by decide) : Fin 10) j)))
      (B2 (ix2 (Cert.Spec.sel (AT a (ix2 (2 : Fin 3) e)) : Fin 2) j)) = _
  rw [AT_apply, AT_apply, AT_apply]

/-- The kernel's result (one column per edge), transposed back to one row per edge, is the stated function. -/
theorem GT_transpose [FloatOps F] (a : IVec S800000x3 32) (B0 : FVec F S20x64 .f32) (B1 : FVec F S10x64 .f32) (B2 : FVec F S2x64 .f32) :
    transpose S800000x64 [1, 0] (GT (F := F) (AT a) B0 B1 B2) transposes_S64x800000_S800000x64_1_0 = Cert.Spec.G (F := F) a B0 B1 B2 := by
  funext idx
  have e : idx = ix2 (n0 := 800000) (n1 := 64) (idx 0) (idx 1) := eq_ix2 idx
  calc transpose S800000x64 [1, 0] (GT (F := F) (AT a) B0 B1 B2) transposes_S64x800000_S800000x64_1_0 idx
      = transpose S800000x64 [1, 0] (GT (F := F) (AT a) B0 B1 B2) transposes_S64x800000_S800000x64_1_0
          (ix2 (n0 := 800000) (n1 := 64) (idx 0) (idx 1)) := congrArg _ e
    _ = GT (F := F) (AT a) B0 B1 B2 (ix2 (n0 := 64) (n1 := 800000) (idx 1) (idx 0)) :=
        transpose_ix2_apply (a := 64) (b := 800000) _ _ (idx 0) (idx 1)
    _ = Cert.Spec.G (F := F) a B0 B1 B2 (ix2 (n0 := 800000) (n1 := 64) (idx 0) (idx 1)) := GT_AT_apply a B0 B1 B2 (idx 1) (idx 0)
    _ = Cert.Spec.G (F := F) a B0 B1 B2 idx := (congrArg _ e).symm

/-! ## The result array cut into the tiles' columns -/

theorem oRegion_disj {c c' : Fin 2} {i i' : Fin 16} (h : (c, i) ≠ (c', i')) : Disjoint (oRegion (tileL c i)) (oRegion (tileL c' i')) := by
  unfold oRegion
  rw [Finset.disjoint_filter]
  intro x _ h1 h2
  rw [wid_tileL] at h1 h2
  apply h
  have hc := c.isLt; have hc' := c'.isLt
  have e : i.val * 2 + c.val = i'.val * 2 + c'.val := h1.symm.trans h2
  have e1 : c = c' := Fin.ext (by omega)
  have e2 : i = i' := Fin.ext (by omega)
  rw [e1, e2]

theorem oRegion_cover (x : S64x800000.Idx) : ∃ (c : Fin 2) (i : Fin 16), x ∈ oRegion (tileL c i) := by
  have hw : ((x 1 : Fin 800000).val / 640) % 32 < 32 := Nat.mod_lt _ (by decide)
  refine ⟨⟨(((x 1 : Fin 800000).val / 640) % 32) % 2, Nat.mod_lt _ (by decide)⟩, ⟨(((x 1 : Fin 800000).val / 640) % 32) / 2, by omega⟩, ?_⟩
  unfold oRegion
  rw [Finset.mem_filter, wid_tileL]
  refine ⟨Finset.mem_univ _, ?_⟩
  show _ = (((x 1 : Fin 800000).val / 640) % 32) / 2 * 2 + (((x 1 : Fin 800000).val / 640) % 32) % 2
  omega

/-- A whole array as a family of pairwise disjoint parts that cover it, indexed by SparseCore and subcore. -/
theorem pointsTo_nested {ℓ : Loc nD τ sig} {q : PosShare TreeShare} (f : Buf (Elt F) ℓ) (R : Fin 2 → Fin 16 → Finset (Idx ℓ))
    (hd : ∀ c c' i i', (c, i) ≠ (c', i') → Disjoint (R c i) (R c' i')) (hc : ∀ x, ∃ c i, x ∈ R c i) :
    (ℓ ↦{q} f : sProp 𝕄) = bigSep Finset.univ fun c : Fin 2 => bigSep Finset.univ fun i : Fin 16 => ℓ ↦[R c i]{q} f := by
  have hin : ∀ c : Fin 2, (ℓ ↦[Finset.univ.biUnion (R c)]{q} f : sProp 𝕄) = bigSep Finset.univ fun i : Fin 16 => ℓ ↦[R c i]{q} f := fun c =>
    pointsTo_biUnion Finset.univ (R c) fun i _ i' _ hne => hd c c i i' fun e => hne (Prod.mk.inj e).2
  have hout : (ℓ ↦[Finset.univ.biUnion fun c : Fin 2 => Finset.univ.biUnion (R c)]{q} f : sProp 𝕄)
      = bigSep Finset.univ fun c : Fin 2 => ℓ ↦[Finset.univ.biUnion (R c)]{q} f :=
    pointsTo_biUnion Finset.univ (fun c : Fin 2 => Finset.univ.biUnion (R c)) fun c _ c' _ hne => by
      rw [Finset.disjoint_biUnion_left]; intro i _
      rw [Finset.disjoint_biUnion_right]; intro i' _
      exact hd c c' i i' fun e => hne (Prod.mk.inj e).1
  have hcov : (Finset.univ.biUnion fun c : Fin 2 => Finset.univ.biUnion (R c)) = (Finset.univ : Finset (Idx ℓ)) := by
    ext x; simp only [Finset.mem_biUnion, Finset.mem_univ, true_and, iff_true]; exact hc x
  rw [← hcov, hout]
  exact bigSep_congr fun c _ => hin c

/-! ## The read shares -/

/-- The share of an array that tile `(c, i)` reads under: the full share cut once per SparseCore, then once per subcore. -/
def tk (c : Fin 2) (i : Fin 16) : PosShare TreeShare := shareTok (shareTok fullShare 2 c) 16 i

/-- What is left of the full share beside the 32 tiles' shares. -/
def Rem (ℓ : Loc nD τ sig) (f : Buf (Elt F) ℓ) : sProp 𝕄 :=
  iprop((ℓ ↦{shareDrop fullShare 2} f) ∗ bigSep Finset.univ fun c : Fin 2 => ℓ ↦{shareDrop (shareTok fullShare 2 c) 16} f)

theorem toks_eq (ℓ : Loc nD τ sig) (f : Buf (Elt F) ℓ) :
    (ℓ ↦{fullShare} f : sProp 𝕄)
      = iprop((ℓ ↦{shareDrop fullShare 2} f) ∗ (bigSep Finset.univ fun c : Fin 2 => ℓ ↦{shareDrop (shareTok fullShare 2 c) 16} f)
          ∗ bigSep Finset.univ fun c : Fin 2 => bigSep Finset.univ fun i : Fin 16 => ℓ ↦{tk c i} f) := by
  have h1 : (ℓ ↦{fullShare} f : sProp 𝕄)
      = iprop((ℓ ↦{shareDrop fullShare 2} f) ∗ bigSep Finset.univ fun c : Fin 2 => ℓ ↦{shareTok fullShare 2 c} f) :=
    BI.equiv_iff.mp ⟨(pointsTo_toks fullShare 2).1, (pointsTo_toks fullShare 2).2⟩
  have h2 : ∀ c : Fin 2, (ℓ ↦{shareTok fullShare 2 c} f : sProp 𝕄)
      = iprop((ℓ ↦{shareDrop (shareTok fullShare 2 c) 16} f) ∗ bigSep Finset.univ fun i : Fin 16 => ℓ ↦{tk c i} f) := fun c =>
    BI.equiv_iff.mp ⟨(pointsTo_toks (shareTok fullShare 2 c) 16).1, (pointsTo_toks (shareTok fullShare 2 c) 16).2⟩
  rw [h1, bigSep_congr fun c _ => h2 c, bigSep_sep']

theorem toks_split (ℓ : Loc nD τ sig) (f : Buf (Elt F) ℓ) :
    (ℓ ↦{fullShare} f : sProp 𝕄) ⊢ iprop(Rem ℓ f ∗ bigSep Finset.univ fun c : Fin 2 => bigSep Finset.univ fun i : Fin 16 => ℓ ↦{tk c i} f) := by
  rw [toks_eq]; unfold Rem
  iintro ⟨Hd, Hc, Ht⟩
  isplitl [Hd Hc]
  · isplitl [Hd] <;> iassumption
  · iexact Ht

theorem toks_join (ℓ : Loc nD τ sig) (f : Buf (Elt F) ℓ) :
    iprop(Rem ℓ f ∗ bigSep Finset.univ fun c : Fin 2 => bigSep Finset.univ fun i : Fin 16 => ℓ ↦{tk c i} f) ⊢ (ℓ ↦{fullShare} f : sProp 𝕄) := by
  rw [toks_eq]; unfold Rem
  iintro ⟨⟨Hd, Hc⟩, Ht⟩
  isplitl [Hd]; · iexact Hd
  isplitl [Hc] <;> iassumption

/-! ## What the handshakes carry -/

variable [FloatOps F] (m : (ℓ : Loc nD τ sig) → Buf (Elt F) ℓ)

/-- The transposed index array of the launch memory: what @main's first operation leaves in its result. -/
abbrev ATm (d : Dev nD) : Buf (Elt F) (aLoc d) := AT (m ((SparseCore.T d).loc main_arg0))

/-- What the kernel leaves in its result array, from the launch memory. -/
abbrev GTm (d : Dev nD) : Buf (Elt F) (oLoc d) := GT (F := F) (ATm m d) (m (w0Loc d)) (m (w1Loc d)) (m (w2Loc d))

/-- A tile's task: its read shares of the transposed index array and the three tables, and its columns of the result. -/
def goA (d : Dev nD) (c : Fin 2) (i : Fin 16) : sProp 𝕄 :=
  iprop((aLoc d ↦{tk c i} ATm m d) ∗ (w0Loc d ↦{tk c i} m (w0Loc d)) ∗ (w1Loc d ↦{tk c i} m (w1Loc d)) ∗ (w2Loc d ↦{tk c i} m (w2Loc d))
    ∗ (oLoc d ↦[oRegion (tileL c i)]{fullShare} m (oLoc d)))

/-- What it hands back: the same, its columns holding the sums. -/
def tdA (d : Dev nD) (c : Fin 2) (i : Fin 16) : sProp 𝕄 :=
  iprop((aLoc d ↦{tk c i} ATm m d) ∗ (w0Loc d ↦{tk c i} m (w0Loc d)) ∗ (w1Loc d ↦{tk c i} m (w1Loc d)) ∗ (w2Loc d ↦{tk c i} m (w2Loc d))
    ∗ (oLoc d ↦[oRegion (tileL c i)]{fullShare} GTm m d))

instance goA_storable (d : Dev nD) (c : Fin 2) (i : Fin 16) : BI.Storable (upEmb : UEmb _ 𝕄) (goA m d c i) := by unfold goA; infer_instance
instance tdA_storable (d : Dev nD) (c : Fin 2) (i : Fin 16) : BI.Storable (upEmb : UEmb _ 𝕄) (tdA m d c i) := by unfold tdA; infer_instance

/-- The one call: a SparseCore is handed its sixteen tiles' tasks and hands them back done. -/
def P : (K (F := F)).Pay (nD := nD) (Val := Elt F) (Name := ℕ) (U := UU) where
  st := fun q d c => match q with | 0 => bigSep Finset.univ fun i : Fin 16 => goA m d (Fin.cast nCore_zero c) i
  dn := fun q d c => match q with | 0 => bigSep Finset.univ fun i : Fin 16 => tdA m d (Fin.cast nCore_zero c) i
  go := fun q d c i => match q with | 0 => goA m d (Fin.cast nCore_zero c) (Fin.cast nSub_zero i)
  td := fun q d c i => match q with | 0 => tdA m d (Fin.cast nCore_zero c) (Fin.cast nSub_zero i)
  x := fun _ _ => iprop(emp)

instance P_storable : (P (F := F) m).IsStorable where
  st q d c := match q with | 0 => (inferInstance : BI.Storable (upEmb : UEmb _ 𝕄) (bigSep Finset.univ fun i : Fin 16 => goA m d (Fin.cast nCore_zero c) i))
  dn q d c := match q with | 0 => (inferInstance : BI.Storable (upEmb : UEmb _ 𝕄) (bigSep Finset.univ fun i : Fin 16 => tdA m d (Fin.cast nCore_zero c) i))
  go q d c i := match q with | 0 => (inferInstance : BI.Storable (upEmb : UEmb _ 𝕄) (goA m d (Fin.cast nCore_zero c) (Fin.cast nSub_zero i)))
  td q d c i := match q with | 0 => (inferInstance : BI.Storable (upEmb : UEmb _ 𝕄) (tdA m d (Fin.cast nCore_zero c) (Fin.cast nSub_zero i)))

theorem P_st (d : Dev nD) (c : Fin ((K (F := F)).nCore 0)) :
    (P m).st 0 d c = bigSep Finset.univ fun i : Fin 16 => goA m d (Fin.cast nCore_zero c) i := rfl
theorem P_dn (d : Dev nD) (c : Fin ((K (F := F)).nCore 0)) :
    (P m).dn 0 d c = bigSep Finset.univ fun i : Fin 16 => tdA m d (Fin.cast nCore_zero c) i := rfl
theorem P_go (d : Dev nD) (c : Fin ((K (F := F)).nCore 0)) (i : Fin ((K (F := F)).nSub 0)) :
    (P m).go 0 d c i = goA m d (Fin.cast nCore_zero c) (Fin.cast nSub_zero i) := rfl
theorem P_td (d : Dev nD) (c : Fin ((K (F := F)).nCore 0)) (i : Fin ((K (F := F)).nSub 0)) :
    (P m).td 0 d c i = tdA m d (Fin.cast nCore_zero c) (Fin.cast nSub_zero i) := rfl

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's operands are its tiles' tasks as they stand. -/
theorem vecSplit : (K (F := F)).VecSplit' (P m) 0 := by
  intro d c
  rw [P_st, P_dn]
  simp only [P_go, P_td]
  rw [bigSep_tasks (F := F) (fun i => goA m d (Fin.cast nCore_zero c) i), bigSep_tasks (F := F) (fun i => tdA m d (Fin.cast nCore_zero c) i)]
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.KB

end
-- ==== Proof.KBLaunchB.lean ====
/-
  The launch of the idealized kernel, second part: a tile's task, from the body's obligation over explicit resources.
  The tile's scoped storage is its eight scratch buffers and seven transfer semaphores beside a rest the body never
  touches; the body's obligation is met with the rest framed.
-/
import proofs.«203793_g3813930959492_cont_8to1_b_1292_12_alg».proof.Proof.KBLaunchA

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-! ## Members taken out of a `bigSep` -/

/-- The summands at `n` distinct members of the index set, and the rest. -/
theorem bigSep_take {I : Type} [DecidableEq I] {n : ℕ} (s : Finset I) (Φ : I → sProp 𝕄) (g : Fin n → I)
    (hinj : Function.Injective g) (hmem : ∀ k, g k ∈ s) :
    bigSep s Φ = iprop((bigSep Finset.univ fun k : Fin n => Φ (g k)) ∗ bigSep (s \ Finset.univ.image g) Φ) := by
  rw [SparseCore.bigSep_sdiff_split' (t := Finset.univ.image g) (s := s) (fun x hx => by
      obtain ⟨k, -, rfl⟩ := Finset.mem_image.mp hx; exact hmem k),
    bigSep_image_of_injOn hinj.injOn]

theorem bigSep_fin7 (Φ : Fin 7 → sProp 𝕄) : bigSep Finset.univ Φ = iprop(Φ 0 ∗ Φ 1 ∗ Φ 2 ∗ Φ 3 ∗ Φ 4 ∗ Φ 5 ∗ Φ 6) := by
  rw [show (Finset.univ : Finset (Fin 7)) = {0, 1, 2, 3, 4, 5, 6} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-! ## A tile's scoped storage -/

/-- The kernel's seven transfer semaphores. -/
def semOf : Fin 7 → SemLoc sig :=
  ![.dma cc0_scratch8.sem, .dma cc0_scratch9.sem, .dma cc0_scratch10.sem, .dma cc0_scratch11.sem, .dma cc0_scoped0.sem, .dma cc0_scoped1.sem, .dma cc0_scoped2.sem]

theorem semOf_inj : Function.Injective semOf := by decide
theorem semOf_scoped : ∀ k, (semOf k).isScoped .scVector = true := by decide

/-- The kernel's eight scratch buffers. -/
def scr : Fin 8 → Ref sig .scVector :=
  ![cc0_scratch0, cc0_scratch1, cc0_scratch2, cc0_scratch3, cc0_scratch4, cc0_scratch5, cc0_scratch6, cc0_scratch7]

theorem scr_inj : Function.Injective scr := by decide

section Tile

variable (d : Dev nD) (L : grid0.Coords)

/-- The seven semaphores are among the tile's own scoped cells: they are them, at zero, and the rest. -/
theorem ownSems0_V7 :
    (ownSems0 (thr d L) : sProp 𝕄)
      = iprop((semVal (thr d L, SemLoc.dma cc0_scratch8.sem) 0 ∗ semVal (thr d L, SemLoc.dma cc0_scratch9.sem) 0
            ∗ semVal (thr d L, SemLoc.dma cc0_scratch10.sem) 0 ∗ semVal (thr d L, SemLoc.dma cc0_scratch11.sem) 0
            ∗ semVal (thr d L, SemLoc.dma cc0_scoped0.sem) 0 ∗ semVal (thr d L, SemLoc.dma cc0_scoped1.sem) 0
            ∗ semVal (thr d L, SemLoc.dma cc0_scoped2.sem) 0)
          ∗ bigSep (ownCells (thr d L) \ Finset.univ.image fun k => ((thr d L, semOf k) : GSem nD τ sig)) fun g => semVal g 0) := by
  unfold SparseCore.Cfg.ownSems0
  rw [bigSep_take (F := F) _ _ (fun k => ((thr d L, semOf k) : GSem nD τ sig)) (fun a b e => semOf_inj (Prod.mk.inj e).2)
    (fun k => mem_ownCells.mpr ⟨rfl, semOf_scoped k⟩), bigSep_fin7]
  rfl

/-- The eight scratch buffers are among the tile's own: they are them, at some contents, and the rest. -/
theorem ownBufs_V8 :
    (ownBufs (thr d L) : sProp 𝕄)
      = iprop(((∃ f, (thr d L).loc cc0_scratch0 ↦{fullShare} f) ∗ (∃ f, (thr d L).loc cc0_scratch1 ↦{fullShare} f)
            ∗ (∃ f, (thr d L).loc cc0_scratch2 ↦{fullShare} f) ∗ (∃ f, (thr d L).loc cc0_scratch3 ↦{fullShare} f)
            ∗ (∃ f, (thr d L).loc cc0_scratch4 ↦{fullShare} f) ∗ (∃ f, (thr d L).loc cc0_scratch5 ↦{fullShare} f)
            ∗ (∃ f, (thr d L).loc cc0_scratch6 ↦{fullShare} f) ∗ (∃ f, (thr d L).loc cc0_scratch7 ↦{fullShare} f))
          ∗ bigSep (ownRefs (τ := τ) (sig := sig) (.scVector (cV L) (jV L)) \ Finset.univ.image fun k => (Proc.scVector (cV L) (jV L)).devRef (scr k))
              fun b => iprop(∃ f, ((d, b) : Loc nD τ sig) ↦{fullShare} f)) := by
  unfold SparseCore.Cfg.ownBufs
  rw [bigSep_take (F := F) _ _ (fun k => (Proc.scVector (cV L) (jV L)).devRef (scr k)) (fun a b e => scr_inj (Proc.devRef_injective _ e))
    (fun k => by fin_cases k <;> exact SparseCore.Cfg.mem_ownRefs_of_owner rfl), bigSep_fin8]
  rfl

end Tile

/-! ## The task -/

variable [FloatOps F] (m : (ℓ : Loc nD τ sig) → Buf (Elt F) ℓ)

theorem tile_body (hcore : TileCore (F := F)) (h01 : ∀ c : Dev nD, Cert.Spec.Attr01 (m ((c.tc : Thread nD τ).loc main_arg0)))
    (d : Dev nD) (c : Fin 2) (i : Fin 16) (O : CellTallies nD τ sig (HIx 1)) (W : Waits sig (HIx 1)) (hO : ∀ g, O g none = 0) :
    iprop(levAts (K (F := F)).L (K (F := F)).lev ∗ emp ∗ goA m d c i ∗ scopedBufs (thr d (tileL c i)) ∗ scopedSems0 (thr d (tileL c i))
        ∗ owes (thr d (tileL c i)) O W)
      ⊢ wp frame (wpE (defs₀ (F := F)) 𝒱₀ (thr d (tileL c i)) none) Set.univ (body (F := F) (tileL c i)) fun _ =>
          iprop(tdA m d c i ∗ scopedBufs (thr d (tileL c i)) ∗ scopedSems0 (thr d (tileL c i))
            ∗ ∃ W', ⌜∀ p ∈ W', p ∈ W ∨ p.2 = none⌝ ∗ owes (thr d (tileL c i)) O W') := by
  rw [(K (F := F)).scopedBufs_V facts d (cV (tileL c i)) (jV (tileL c i)),
    SparseCore.Cfg.scopedSems0_V (Val := Elt F) d (cV (tileL c i)) (jV (tileL c i)), ownSems0_V7, ownBufs_V8]
  unfold goA tdA
  iintro ⟨#Hlv, -, ⟨Ha, H0, H1, H2, Ho⟩, ⟨⟨Hb0, Hb1, Hb2, Hb3, Hb4, Hb5, Hb6, Hb7⟩, Hbufs⟩, ⟨⟨Hs0, Hs1, Hs2, Hs3, Hs4, Hs5, Hs6⟩, Hsems⟩, HO⟩
  iapply (wp_wand_r frame _ Set.univ)
  isplitl [Ha H0 H1 H2 Ho Hb0 Hb1 Hb2 Hb3 Hb4 Hb5 Hb6 Hb7 Hs0 Hs1 Hs2 Hs3 Hs4 Hs5 Hs6 HO]
  · iapply (hcore d (tileL c i) O W hO (tk c i) (ATm m d) (AT_01 (h01 d)) (m (w0Loc d)) (m (w1Loc d)) (m (w2Loc d)) (m (oLoc d)))
    isplitr; · iexact Hlv
    isplitl [Ha]; · iexact Ha
    isplitl [H0]; · iexact H0
    isplitl [H1]; · iexact H1
    isplitl [H2]; · iexact H2
    isplitl [Ho]; · iexact Ho
    isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    isplitl [Hb7]; · iexact Hb7
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    iexact HO
  iintro %_ ⟨Ha, H0, H1, H2, Ho, Hb0, Hb1, Hb2, Hb3, Hb4, Hb5, Hb6, Hb7, Hs0, Hs1, Hs2, Hs3, Hs4, Hs5, Hs6, HO⟩
  isplitl [Ha H0 H1 H2 Ho]
  · isplitl [Ha]; · iexact Ha
    isplitl [H0]; · iexact H0
    isplitl [H1]; · iexact H1
    isplitl [H2]; · iexact H2
    iexact Ho
  isplitl [Hb0 Hb1 Hb2 Hb3 Hb4 Hb5 Hb6 Hb7 Hbufs]
  · isplitr [Hbufs]
    · isplitl [Hb0]; · iexact Hb0
      isplitl [Hb1]; · iexact Hb1
      isplitl [Hb2]; · iexact Hb2
      isplitl [Hb3]; · iexact Hb3
      isplitl [Hb4]; · iexact Hb4
      isplitl [Hb5]; · iexact Hb5
      isplitl [Hb6]; · iexact Hb6
      iexact Hb7
    · iexact Hbufs
  isplitl [Hs0 Hs1 Hs2 Hs3 Hs4 Hs5 Hs6 Hsems]
  · isplitr [Hsems]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      iexact Hs6
    · iexact Hsems
  iexact HO

/-! ## The launch theorem's obligation -/

theorem defs₀_vector (c : Fin τ.nSC) (s : Fin τ.nSub) :
    defs₀ (F := F) (.scVector c s) 0 () = SparseCore.onTile hcore0 hsub0 (fun c s => body (F := F) (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hcore : TileCore (F := F)) (h01 : ∀ c : Dev nD, Cert.Spec.Attr01 (m ((c.tc : Thread nD τ).loc main_arg0))) :
    (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m hcore h01 d (Fin.cast nCore_zero c) (Fin.cast nSub_zero i) O W hO).trans (wp_mono frame _ _ fun _ => obl_post)

end Cert.Proof.KB

end
-- ==== Proof.KBLaunch.lean ====
/-
  The launch of the idealized kernel, third part: @main on the TensorCore — the index array transposed, the read shares
  and the result's columns dealt to the 32 tiles and gathered back, the result transposed —, what the final memory
  then reads, and the run of the whole program with the result named.
-/
import proofs.«203793_g3813930959492_cont_8to1_b_1292_12_alg».proof.Proof.KBLaunchA
import proofs.«203793_g3813930959492_cont_8to1_b_1292_12_alg».proof.Proof.KBLaunchB

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.StableHlo (held held_split held_sdiff_result wp_hlo_within)

variable {F : FTy → Type}

local notation "𝕄" => MT nD τ sig (HIx 1) (Elt F) ℕ UU ℕ

variable [FloatOps F] (m : (ℓ : Loc nD τ sig) → Buf (Elt F) ℓ) (ρ : Dev nD → PrngReg)

/-! ## The two host operations -/

abbrev a0' : DevRef τ sig := Proc.devRef .tc (main_arg0 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)

abbrev a0Loc (d : Dev nD) : Loc nD τ sig := (SparseCore.T d).loc main_arg0
abbrev v2Loc (d : Dev nD) : Loc nD τ sig := (SparseCore.T d).loc main_v2

/-- The index array transposed into @main's first value. -/
abbrev op1 : HloOp τ sig (Elt F) :=
  StableHlo.unary main_arg0 main_v0 ((transpose S3x800000 [1, 0] · transposes_S800000x3_S3x800000_1_0) : (⟨S800000x3, .i32⟩ : BufTy).Contents (Elt F) → (⟨S3x800000, .i32⟩ : BufTy).Contents (Elt F))
/-- The kernel's result transposed into @main's result. -/
abbrev op2 : HloOp τ sig (Elt F) :=
  StableHlo.unary main_v1 main_v2 ((transpose S800000x64 [1, 0] · transposes_S64x800000_S800000x64_1_0) : (⟨S64x800000, .f32⟩ : BufTy).Contents (Elt F) → (⟨S800000x64, .f32⟩ : BufTy).Contents (Elt F))

abbrev S1 : Finset (DevRef τ sig) := {a0', v0'}
abbrev S2 : Finset (DevRef τ sig) := {v1', v2'}

omit [FloatOps F] in
theorem hS1 : (op1 (F := F)).bufs ⊆ S1 := show ({a0', v0'} : Finset (DevRef τ sig)) ⊆ S1 by decide
omit [FloatOps F] in
theorem hS2 : (op2 (F := F)).bufs ⊆ S2 := show ({v1', v2'} : Finset (DevRef τ sig)) ⊆ S2 by decide

omit [FloatOps F] in
theorem held_S1 (d : Dev nD) (W : Valuation τ sig (Elt F)) :
    (held (T d) S1 W : sProp 𝕄) = iprop((a0Loc d ↦{fullShare} W a0') ∗ aLoc d ↦{fullShare} W v0') := by
  unfold held S1
  rw [SparseCore.bigSep_insert' (by decide), bigSep_singleton]
omit [FloatOps F] in
theorem held_S2 (d : Dev nD) (W : Valuation τ sig (Elt F)) :
    (held (T d) S2 W : sProp 𝕄) = iprop((oLoc d ↦{fullShare} W v1') ∗ v2Loc d ↦{fullShare} W v2') := by
  unfold held S2
  rw [SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (w0Loc d ↦{fullShare} W main_arg1) ∗ (w1Loc d ↦{fullShare} W main_arg2)
      ∗ (w2Loc d ↦{fullShare} W main_arg3) ∗ (aLoc d ↦{fullShare} W main_v0) ∗ (oLoc d ↦{fullShare} W main_v1) ∗ v2Loc d ↦{fullShare} W main_v2) := by
  unfold unscopedBufs
  rw [show (Finset.univ.filter fun b : Ref sig .tc => ¬ b.isScoped) = {main_arg0, main_arg1, main_arg2, main_arg3, main_v0, main_v1, main_v2} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch valuation; before the second transpose, the kernel's result array at what the tiles left. -/
def V0 (d : Dev nD) : Valuation τ sig (Elt F) := fun b => m (d, b)
def V2 (d : Dev nD) : Valuation τ sig (Elt F) := Function.update (V0 m d) v1' (GTm m d)

theorem V2_v1 (d : Dev nD) : V2 m d v1' = GTm m d := Function.update_self _ _ _
theorem V2_v2 (d : Dev nD) : V2 m d v2' = m (v2Loc d) := Function.update_of_ne (show v2' ≠ v1' by decide) _ _

/-- After the first transpose: the index array unchanged, its transpose in the first value. -/
theorem held_after1 (d : Dev nD) :
    (held (T d) S1 ((op1 (F := F)).result (V0 m d)) : sProp 𝕄) = iprop((a0Loc d ↦{fullShare} m (a0Loc d)) ∗ aLoc d ↦{fullShare} ATm m d) := by
  rw [held_S1, (op1 (F := F)).result_of_not_mem (V0 m d) (b := a0') (show a0' ∉ ({v0'} : Finset (DevRef τ sig)) by decide)]
  rw [show (op1 (F := F)).result (V0 m d) v0' = ATm m d from StableHlo.unary_result main_arg0 main_v0 _ _ _ (V0 m d)]
  rfl

/-- What the second transpose leaves in @main's result. -/
abbrev RES (d : Dev nD) : Buf (Elt F) (v2Loc d) := transpose S800000x64 [1, 0] (GTm m d) transposes_S64x800000_S800000x64_1_0

theorem held_after2 (d : Dev nD) :
    (held (T d) S2 ((op2 (F := F)).result (V2 m d)) : sProp 𝕄) = iprop((oLoc d ↦{fullShare} GTm m d) ∗ v2Loc d ↦{fullShare} RES m d) := by
  rw [held_S2, (op2 (F := F)).result_of_not_mem (V2 m d) (b := v1') (show v1' ∉ ({v2'} : Finset (DevRef τ sig)) by decide), V2_v1]
  rw [show (op2 (F := F)).result (V2 m d) v2' = RES m d from
    (StableHlo.unary_result main_v1 main_v2 _ _ _ (V2 m d)).trans (by rw [V2_v1])]

/-! ## What the call takes for the two SparseCores, and what it hands back -/

theorem st0_eq (d : Dev nD) : (bigSep Finset.univ fun c : Fin ((K (F := F)).nCore 0) => (P m).st 0 d c)
    = iprop((bigSep Finset.univ fun c : Fin 2 => bigSep Finset.univ fun i : Fin 16 => aLoc d ↦{tk c i} ATm m d)
        ∗ (bigSep Finset.univ fun c : Fin 2 => bigSep Finset.univ fun i : Fin 16 => w0Loc d ↦{tk c i} m (w0Loc d))
        ∗ (bigSep Finset.univ fun c : Fin 2 => bigSep Finset.univ fun i : Fin 16 => w1Loc d ↦{tk c i} m (w1Loc d))
        ∗ (bigSep Finset.univ fun c : Fin 2 => bigSep Finset.univ fun i : Fin 16 => w2Loc d ↦{tk c i} m (w2Loc d))
        ∗ bigSep Finset.univ fun c : Fin 2 => bigSep Finset.univ fun i : Fin 16 => oLoc d ↦[oRegion (tileL c i)]{fullShare} m (oLoc d)) := by
  simp only [P_st]
  rw [bigSep_cores (F := F) (fun c => bigSep Finset.univ fun i : Fin 16 => goA m d c i)]
  unfold goA
  simp only [bigSep_sep']

theorem dn0_eq (d : Dev nD) : (bigSep Finset.univ fun c : Fin ((K (F := F)).nCore 0) => (P m).dn 0 d c)
    = iprop((bigSep Finset.univ fun c : Fin 2 => bigSep Finset.univ fun i : Fin 16 => aLoc d ↦{tk c i} ATm m d)
        ∗ (bigSep Finset.univ fun c : Fin 2 => bigSep Finset.univ fun i : Fin 16 => w0Loc d ↦{tk c i} m (w0Loc d))
        ∗ (bigSep Finset.univ fun c : Fin 2 => bigSep Finset.univ fun i : Fin 16 => w1Loc d ↦{tk c i} m (w1Loc d))
        ∗ (bigSep Finset.univ fun c : Fin 2 => bigSep Finset.univ fun i : Fin 16 => w2Loc d ↦{tk c i} m (w2Loc d))
        ∗ bigSep Finset.univ fun c : Fin 2 => bigSep Finset.univ fun i : Fin 16 => oLoc d ↦[oRegion (tileL c i)]{fullShare} GTm m d) := by
  simp only [P_dn]
  rw [bigSep_cores (F := F) (fun c => bigSep Finset.univ fun i : Fin 16 => tdA m d c i)]
  unfold tdA
  simp only [bigSep_sep']

omit [FloatOps F] in
/-- The result array as the 32 tiles' columns. -/
theorem o_tiles (d : Dev nD) (f : Buf (Elt F) (oLoc d)) :
    (oLoc d ↦{fullShare} f : sProp 𝕄) = bigSep Finset.univ fun c : Fin 2 => bigSep Finset.univ fun i : Fin 16 => oLoc d ↦[oRegion (tileL c i)]{fullShare} f :=
  pointsTo_nested f (fun c i => oRegion (tileL c i)) (fun _ _ _ _ h => oRegion_disj h) oRegion_cover

/-! ## @main on the TensorCore -/

/-- What @main leaves the claim: the four arguments at their launch contents, the result at the transposed sums. -/
abbrev FIN (d : Dev nD) : sProp 𝕄 :=
  iprop((a0Loc d ↦{fullShare} m (a0Loc d)) ∗ (w0Loc d ↦{fullShare} m (w0Loc d)) ∗ (w1Loc d ↦{fullShare} m (w1Loc d)) ∗ (w2Loc d ↦{fullShare} m (w2Loc d))
    ∗ v2Loc d ↦{fullShare} RES m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha0, Hw0, Hw1, Hw2, Hv0, Hv1, Hv2⟩, -, -⟩, -⟩
  -- the index array transposed
  iapply (wp_hlo_within 𝒱 (SparseCore.T d) none Set.univ (op := op1) (S := S1) hS1 (V := V0 m d)) $$ [Hb Ha0 Hv0]
  · isplitl [Hb]; · iexact Hb
    rw [held_S1]
    isplitl [Ha0]; · iexact Ha0
    iexact Hv0
  iintro ⟨Hb, Hheld⟩
  ihave Hh := (Entails.of_eq (held_after1 (F := F) m d)) $$ Hheld
  icases Hh with ⟨Ha0, Hv0⟩
  rw [wp_ret]; imodintro
  -- the read shares and the result's columns, per tile
  ihave Hs := (toks_split (F := F) (aLoc d) (ATm m d)) $$ Hv0
  icases Hs with ⟨Rv0, Tv0⟩
  ihave Hs := (toks_split (F := F) (w0Loc d) (m (w0Loc d))) $$ Hw0
  icases Hs with ⟨Rw0, Tw0⟩
  ihave Hs := (toks_split (F := F) (w1Loc d) (m (w1Loc d))) $$ Hw1
  icases Hs with ⟨Rw1, Tw1⟩
  ihave Hs := (toks_split (F := F) (w2Loc d) (m (w2Loc d))) $$ Hw2
  icases Hs with ⟨Rw2, Tw2⟩
  ihave To := (Entails.of_eq (o_tiles (F := F) d (m (oLoc d)))) $$ Hv1
  -- the call
  iapply ((K (F := F)).wp_run (D (F := F)) 𝒱 (EH := EH) (P := P m) κ d 0) $$ [Hst Hb Ha0 Hv2 Rv0 Tv0 Rw0 Tw0 Rw1 Tw1 Rw2 Tw2 To]
  isplitr; · iexact Hctx
  isplitl [Hst]; · iexact Hst
  isplitl [Tv0 Tw0 Tw1 Tw2 To]
  · rw [st0_eq]
    isplitl [Tv0]; · iexact Tv0
    isplitl [Tw0]; · iexact Tw0
    isplitl [Tw1]; · iexact Tw1
    isplitl [Tw2]; · iexact Tw2
    iexact To
  iintro ⟨Hst, Hdn⟩
  ihave Hdn' := (Entails.of_eq (dn0_eq m d)) $$ Hdn
  icases Hdn' with ⟨Tv0, Tw0, Tw1, Tw2, To⟩
  ihave Hv0 := (toks_join (F := F) (aLoc d) (ATm m d)) $$ [Rv0 Tv0]
  · isplitl [Rv0] <;> iassumption
  ihave Hw0 := (toks_join (F := F) (w0Loc d) (m (w0Loc d))) $$ [Rw0 Tw0]
  · isplitl [Rw0] <;> iassumption
  ihave Hw1 := (toks_join (F := F) (w1Loc d) (m (w1Loc d))) $$ [Rw1 Tw1]
  · isplitl [Rw1] <;> iassumption
  ihave Hw2 := (toks_join (F := F) (w2Loc d) (m (w2Loc d))) $$ [Rw2 Tw2]
  · isplitl [Rw2] <;> iassumption
  ihave Hv1 := (Entails.of_eq (o_tiles (F := F) d (GTm m d)).symm) $$ To
  -- the result transposed
  iapply (wp_hlo_within 𝒱 (SparseCore.T d) none Set.univ (op := op2) (S := S2) hS2 (V := V2 m d)) $$ [Hb Hv1 Hv2]
  · isplitl [Hb]; · iexact Hb
    rw [held_S2, V2_v1, V2_v2]
    isplitl [Hv1]; · iexact Hv1
    iexact Hv2
  iintro ⟨Hb, Hheld⟩
  ihave Hh := (Entails.of_eq (held_after2 (F := F) m d)) $$ Hheld
  icases Hh with ⟨-, Hv2⟩
  rw [wp_ret]; imodintro; imodintro
  isplitl [Hst]; · iexact Hst
  isplitl [Ha0]; · iexact Ha0
  isplitl [Hw0]; · iexact Hw0
  isplitl [Hw1]; · iexact Hw1
  isplitl [Hw2]; · iexact Hw2
  iexact Hv2

/-! ## What the final memory reads -/

def fq (d : Dev nD) (s' : Phys nD τ sig (Elt F)) : Prop :=
  s'.mem.mem (v2Loc d) = RES m d ∧ s'.mem.mem (a0Loc d) = m (a0Loc d) ∧ s'.mem.mem (w0Loc d) = m (w0Loc d)
    ∧ s'.mem.mem (w1Loc d) = m (w1Loc d) ∧ s'.mem.mem (w2Loc d) = m (w2Loc d)

theorem hfin (d : Dev nD) (s' : Phys nD τ sig (Elt F)) : iprop(FIN m d ∗ SI s') ⊢ (⌜fq m d s'⌝ : sProp 𝕄) := by
  iintro ⟨⟨Ha0, Hw0, Hw1, Hw2, Hv2⟩, HSI⟩
  ihave H := (persistent_entails_right (SI_pointsTo_agree (st := s') (ℓ := a0Loc d) (I := Finset.univ) (q := fullShare) (f := m (a0Loc d)))) $$ [HSI Ha0]
  · isplitl [HSI] <;> iassumption
  icases H with ⟨%h1, HSI, -⟩
  ihave H := (persistent_entails_right (SI_pointsTo_agree (st := s') (ℓ := w0Loc d) (I := Finset.univ) (q := fullShare) (f := m (w0Loc d)))) $$ [HSI Hw0]
  · isplitl [HSI] <;> iassumption
  icases H with ⟨%h2, HSI, -⟩
  ihave H := (persistent_entails_right (SI_pointsTo_agree (st := s') (ℓ := w1Loc d) (I := Finset.univ) (q := fullShare) (f := m (w1Loc d)))) $$ [HSI Hw1]
  · isplitl [HSI] <;> iassumption
  icases H with ⟨%h3, HSI, -⟩
  ihave H := (persistent_entails_right (SI_pointsTo_agree (st := s') (ℓ := w2Loc d) (I := Finset.univ) (q := fullShare) (f := m (w2Loc d)))) $$ [HSI Hw2]
  · isplitl [HSI] <;> iassumption
  icases H with ⟨%h4, HSI, -⟩
  ihave H := (SI_pointsTo_agree (st := s') (ℓ := v2Loc d) (I := Finset.univ) (q := fullShare) (f := RES m d)) $$ [HSI Hv2]
  · isplitl [HSI] <;> iassumption
  icases H with %h5
  ipureintro
  exact ⟨funext fun i => h5 i (Finset.mem_univ i), funext fun i => h1 i (Finset.mem_univ i), funext fun i => h2 i (Finset.mem_univ i),
    funext fun i => h3 i (Finset.mem_univ i), funext fun i => h4 i (Finset.mem_univ i)⟩

/-! ## The program's run -/

theorem run_main [∀ e, Nonempty (Elt F e)] (hcore : TileCore (F := F)) (m : (ℓ : Loc nD τ sig) → Buf (Elt F) ℓ) (ρ : Dev nD → PrngReg)
    (h01 : ∀ c : Dev nD, Cert.Spec.Attr01 (m ((c.tc : Thread nD τ).loc main_arg0))) :
    θ_run (Cert.Kernel.defs (F := F)) (Cert.Kernel.threads (F := F)) ⟨m, fun _ => 0, ρ⟩ (fun r => ∀ c : Dev nD,
        r.2.mem ((c.tc : Thread nD τ).loc main_v2) = Cert.Spec.G (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3)) :=
  SparseCore.Cfg.θ_run_sc (K := K (F := F)) (D := D (F := F)) (𝒱 := 𝒱) (EH := EH) (P := P m) facts v₀
    (fun q hq => match q with | 0 => nomatch hq)
    (fun q _ => match q with | 0 => tileObl m hcore h01)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _
    (fun s' h c => ⟨(h c).1.trans (GT_transpose (F := F) _ _ _ _), (h c).2.1, (h c).2.2.1, (h c).2.2.2.1, (h c).2.2.2.2⟩)

end Cert.Proof.KB

end
-- ==== Proof.KBSets.lean ====
/-
  The sets of result columns a tile moves through, and the program's slices of the two big arrays.
-/
import proofs.«203793_g3813930959492_cont_8to1_b_1292_12_alg».proof.Proof.KBDefs

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The 640 columns of chunk `n` of the result array. -/
def chunkSet (n : ℕ) : Finset S64x800000.Idx := Finset.univ.filter fun idx => (idx 1 : Fin 800000).val / 640 = n

/-- The tile's columns in its chunks numbered `t` and later (chunk `t` of the tile is chunk `wid L + 32 t` of the array). -/
def todoFrom (L : grid0.Coords) (t : ℕ) : Finset S64x800000.Idx :=
  Finset.univ.filter fun idx => ((idx 1 : Fin 800000).val / 640) % 32 = wid L ∧ t ≤ ((idx 1 : Fin 800000).val / 640) / 32

/-- The tile's columns in its chunks numbered below `t`. -/
def doneUpto (L : grid0.Coords) (t : ℕ) : Finset S64x800000.Idx :=
  Finset.univ.filter fun idx => ((idx 1 : Fin 800000).val / 640) % 32 = wid L ∧ ((idx 1 : Fin 800000).val / 640) / 32 < t

/-- A 64 × 640 slice of the result array at the offsets `off`, as the program slices it. -/
abbrev oSl (off : Fin 2 → ℕ) (h : ∀ a, off a + S64x640.size a ≤ S64x800000.size a) : Memref sig .scVector .hbm S64x640 .f32 :=
  (oV : Memref sig .scVector .hbm S64x800000 .f32).slice (Rect.unit (s := S64x800000) off S64x640.size h) (fun _ => rfl)

/-- A 3 × 640 slice of the transposed index array at the offsets `off`, as the program slices it. -/
abbrev aSl (off : Fin 2 → ℕ) (h : ∀ a, off a + S3x640.size a ≤ S3x800000.size a) : Memref sig .scVector .hbm S3x640 .i32 :=
  (aV : Memref sig .scVector .hbm S3x800000 .i32).slice (Rect.unit (s := S3x800000) off S3x640.size h) (fun _ => rfl)

end Cert.Proof.KB

end
-- ==== Proof.KBChk.lean ====
import proofs.«203793_g3813930959492_cont_8to1_b_1292_12_alg».proof.Proof.KBDefs

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The three index words of a group, each 0 or 1, make a table column number below 8; with a row number below 64 the
    indexed load's side condition holds. -/
theorem chk_pay1 (l0 l1 l2 : Vec F S1x16 .i32) (h0 : ∀ y, l0 y = 0#32 ∨ l0 y = 1#32) (h1 : ∀ y, l1 y = 0#32 ∨ l1 y = 1#32)
    (h2 : ∀ y, l2 y = 0#32 ∨ l2 y = 1#32) (j : ℕ) (hj : j < 64) :
    ∀ a x, ((![broadcast S16 (BitVec.ofNat 32 j), k0_pay1 (F := F) l0 l1 l2] : Fin 2 → IVec S16 32) a x).toNat < S64x16.size a := by
  intro a x
  match a with
  | 0 =>
    show (BitVec.ofNat 32 j).toNat < 64
    rw [BitVec.toNat_ofNat]; exact lt_of_le_of_lt (Nat.mod_le _ _) hj
  | 1 =>
    show (IntOp.addi (IntOp.addi (IntOp.muli (l0 _) 4#32) (IntOp.muli (l1 _) 2#32)) (l2 _)).toNat < 16
    rcases h0 (Shape.reshapeEquiv shapeCasts_S1x16_S16 x) with e0 | e0 <;> rcases h1 (Shape.reshapeEquiv shapeCasts_S1x16_S16 x) with e1 | e1 <;>
      rcases h2 (Shape.reshapeEquiv shapeCasts_S1x16_S16 x) with e2 | e2 <;> rw [e0, e1, e2] <;> decide

omit [FloatOps F] in
/-- A 16-word load out of an index scratch whose words are all 0 or 1 reads words that are 0 or 1. -/
theorem rd01_A0 (d : Dev nD) (cc : Fin τ.nSC) (ii : Fin τ.nSub) (AA : Buf (Elt F) ((sA0 : Memref sig .scVector .vmem S3x640 .i32).view.loc (V d cc ii)))
    (hAA : ∀ i, AA i = 0#32 ∨ AA i = 1#32) (off : Fin 2 → Nat) (h : ∀ a, off a + S1x16.size a ≤ S3x640.size a) :
    ∀ y : S1x16.Idx, (sA0 : Memref sig .scVector .vmem S3x640 .i32).view.readAt (Elt F) (Rect.unit (s := S3x640) off S1x16.size h).toLoadRect AA y = 0#32
      ∨ (sA0 : Memref sig .scVector .vmem S3x640 .i32).view.readAt (Elt F) (Rect.unit (s := S3x640) off S1x16.size h).toLoadRect AA y = 1#32 := by
  intro y
  have e : (sA0 : Memref sig .scVector .vmem S3x640 .i32).view.readAt (Elt F) (Rect.unit (s := S3x640) off S1x16.size h).toLoadRect AA y
      = AA ((sA0 : Memref sig .scVector .vmem S3x640 .i32).view.emb ((Rect.unit (s := S3x640) off S1x16.size h).toLoadRect.idx y)) :=
    (View.read_apply _ _).trans (cast_eq _ _)
  rw [e]; exact hAA _

omit [FloatOps F] in
/-- A 16-word load out of an index scratch whose words are all 0 or 1 reads words that are 0 or 1. -/
theorem rd01_A1 (d : Dev nD) (cc : Fin τ.nSC) (ii : Fin τ.nSub) (AA : Buf (Elt F) ((sA1 : Memref sig .scVector .vmem S3x640 .i32).view.loc (V d cc ii)))
    (hAA : ∀ i, AA i = 0#32 ∨ AA i = 1#32) (off : Fin 2 → Nat) (h : ∀ a, off a + S1x16.size a ≤ S3x640.size a) :
    ∀ y : S1x16.Idx, (sA1 : Memref sig .scVector .vmem S3x640 .i32).view.readAt (Elt F) (Rect.unit (s := S3x640) off S1x16.size h).toLoadRect AA y = 0#32
      ∨ (sA1 : Memref sig .scVector .vmem S3x640 .i32).view.readAt (Elt F) (Rect.unit (s := S3x640) off S1x16.size h).toLoadRect AA y = 1#32 := by
  intro y
  have e : (sA1 : Memref sig .scVector .vmem S3x640 .i32).view.readAt (Elt F) (Rect.unit (s := S3x640) off S1x16.size h).toLoadRect AA y
      = AA ((sA1 : Memref sig .scVector .vmem S3x640 .i32).view.emb ((Rect.unit (s := S3x640) off S1x16.size h).toLoadRect.idx y)) :=
    (View.read_apply _ _).trans (cast_eq _ _)
  rw [e]; exact hAA _

end Cert.Proof.KB

end
-- ==== Proof.KBGather.lean ====
/-
  What one pass over a chunk leaves in a tile's output scratch: for each of the chunk's 640 edges the table column its
  three index words name, copied row by row.
-/
import proofs.«203793_g3813930959492_cont_8to1_b_1292_12_alg».proof.Proof.KBChk

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The table column that the three index words in column `e` of an index scratch name: `4 a0 + 2 a1 + a2` as the
    kernel computes it on 32-bit words (below 8 when the words are 0 or 1; cut to the table's 16 columns otherwise). -/
def kcol (AA : IVec S3x640 32) (e : Fin 640) : Fin 16 :=
  ⟨(IntOp.addi (IntOp.addi (IntOp.muli (AA (ValueIdx.ix2 (0 : Fin 3) e)) 4#32) (IntOp.muli (AA (ValueIdx.ix2 (1 : Fin 3) e)) 2#32))
      (AA (ValueIdx.ix2 (2 : Fin 3) e))).toNat % 16, Nat.mod_lt _ (by decide)⟩

/-- The output scratch after a pass: row `j`, column `e` holds the table's entry `(j, kcol AA e)`. -/
def gathered (AA : IVec S3x640 32) (TT : FVec F S64x16 .f32) : FVec F S64x640 .f32 :=
  fun y => TT (ValueIdx.ix2 (y 0 : Fin 64) (kcol AA (y 1 : Fin 640)))

end Cert.Proof.KB

end
-- ==== Proof.KBInv.lean ====
/-
  The state of a tile between two rounds of its pair loop: which copies are under way, on which semaphore, carrying what.

  Chunk `i` of the tile (`i` = 0 … 39) is chunk `wid L + 32 i` of the arrays, when that is below 1250. Even chunks go
  through the first index scratch and the first output scratch, odd ones through the second pair. Before round `p`
  (`p` = 0 … 19): the copy-in of chunk `2p+1` is under way (if that chunk exists); the copy-out of chunk `2p` is under
  way; so is the copy-out of chunk `2p-1` when `p ≥ 1`; the chunks below `2p-1` have come back at their final
  contents and the chunks above `2p` have not been touched.
-/
import proofs.«203793_g3813930959492_cont_8to1_b_1292_12_alg».proof.Proof.KBSets
import proofs.«203793_g3813930959492_cont_8to1_b_1292_12_alg».proof.Proof.KBGather

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The offsets of the tile's chunk `i` in the big arrays: row 0, column `640 (wid L + 32 i)`, in the form the
    printed offset functions reduce to. -/
def offI (L : grid0.Coords) (i : ℕ) : Fin 2 → ℕ := ![0, 1280 * (L 1).val + 640 * (L 0).val + 20480 * i]

omit [FloatOps F] in
theorem offI_inbO (L : grid0.Coords) (i : ℕ) (h : wid L + 32 * i < 1250) : ∀ a, offI L i a + S64x640.size a ≤ S64x800000.size a := by
  intro a
  match a with
  | 0 => show 0 + 64 ≤ 64; omega
  | 1 => show 1280 * (L 1).val + 640 * (L 0).val + 20480 * i + 640 ≤ 800000; unfold wid at h; omega

omit [FloatOps F] in
theorem offI_inbA (L : grid0.Coords) (i : ℕ) (h : wid L + 32 * i < 1250) : ∀ a, offI L i a + S3x640.size a ≤ S3x800000.size a := by
  intro a
  match a with
  | 0 => show 0 + 3 ≤ 3; omega
  | 1 => show 1280 * (L 1).val + 640 * (L 0).val + 20480 * i + 640 ≤ 800000; unfold wid at h; omega

/-- The tile's chunk `i` of the result array and of the transposed index array, as slices. -/
abbrev oCh (L : grid0.Coords) (i : ℕ) (h : wid L + 32 * i < 1250) : Memref sig .scVector .hbm S64x640 .f32 := oSl (offI L i) (offI_inbO L i h)
abbrev aCh (L : grid0.Coords) (i : ℕ) (h : wid L + 32 * i < 1250) : Memref sig .scVector .hbm S3x640 .i32 := aSl (offI L i) (offI_inbA L i h)

section Inv

variable (d : Dev nD) (L : grid0.Coords) (q : PosShare TreeShare) (A : Buf (Elt F) (aLoc d))
  (B0 : Buf (Elt F) (w0Loc d)) (B1 : Buf (Elt F) (w1Loc d)) (B2 : Buf (Elt F) (w2Loc d))
  (TT : Buf (Elt F) ((thr d L).loc cc0_scratch7)) (O : CellTallies nD τ sig (HIx 1)) (W : Waits sig (HIx 1))

omit [FloatOps F] in
/-- What a copy-in lands: the slice's words. -/
def payA (off : Fin 2 → ℕ) (h : ∀ a, off a + S3x640.size a ≤ S3x800000.size a) : S3x640.Idx → Elt F .i32 :=
  ReadAs.same.apply (View.read (Elt F) (aSl off h).view A)

/-- The copy-in of chunk `i` into the FIRST index scratch, under way: its landing hands over the scratch at the chunk's
    words and the lent columns of the index array; beside it, the rest of the index array. -/
def InFl0 (off : Fin 2 → ℕ) (h : ∀ a, off a + S3x640.size a ≤ S3x800000.size a) : sProp 𝕄 :=
  iprop((∃ fA : Buf (Elt F) ((thr d L).loc cc0_scratch0),
      Transfers.Flight countersEmb (thr d L) (SemLoc.dma cc0_scratch8.sem) default 61440
        iprop(((sA0 : Memref sig .scVector .vmem S3x640 .i32).view.loc (thr d L) ↦{fullShare}
              View.write (Elt F) (sA0 : Memref sig .scVector .vmem S3x640 .i32).view fA (payA d A off h) Finset.univ)
          ∗ ((aV : Memref sig .scVector .hbm S3x800000 .i32).view.loc (thr d L) ↦[(aSl off h).view.set]{q} A)))
    ∗ ((aV : Memref sig .scVector .hbm S3x800000 .i32).view.loc (thr d L) ↦[Finset.univ \ (aSl off h).view.set]{q} A))

/-- The same into the SECOND index scratch. -/
def InFl1 (off : Fin 2 → ℕ) (h : ∀ a, off a + S3x640.size a ≤ S3x800000.size a) : sProp 𝕄 :=
  iprop((∃ fA : Buf (Elt F) ((thr d L).loc cc0_scratch1),
      Transfers.Flight countersEmb (thr d L) (SemLoc.dma cc0_scratch9.sem) default 61440
        iprop(((sA1 : Memref sig .scVector .vmem S3x640 .i32).view.loc (thr d L) ↦{fullShare}
              View.write (Elt F) (sA1 : Memref sig .scVector .vmem S3x640 .i32).view fA (payA d A off h) Finset.univ)
          ∗ ((aV : Memref sig .scVector .hbm S3x800000 .i32).view.loc (thr d L) ↦[(aSl off h).view.set]{q} A)))
    ∗ ((aV : Memref sig .scVector .hbm S3x800000 .i32).view.loc (thr d L) ↦[Finset.univ \ (aSl off h).view.set]{q} A))

/-- The copy-out of chunk `i` from the FIRST output scratch, under way: its landing hands over the chunk's columns of
    the result at their final contents and the scratch. -/
def OutFl0 (off : Fin 2 → ℕ) (h : ∀ a, off a + S64x640.size a ≤ S64x800000.size a) : sProp 𝕄 :=
  iprop(∃ AA : Buf (Elt F) ((thr d L).loc cc0_scratch0),
    Transfers.Flight countersEmb (thr d L) (SemLoc.dma cc0_scratch10.sem) default 1310720
        iprop(((oSl off h).view.loc (thr d L) ↦[(oSl off h).view.set]{fullShare} GT (F := F) A B0 B1 B2)
          ∗ ((sO0 : Memref sig .scVector .vmem S64x640 .f32).view.loc (thr d L) ↦[(sO0 : Memref sig .scVector .vmem S64x640 .f32).view.set]{fullShare} gathered (F := F) AA TT))
      ∗ ((sO0 : Memref sig .scVector .vmem S64x640 .f32).view.loc (thr d L) ↦[Finset.univ \ (sO0 : Memref sig .scVector .vmem S64x640 .f32).view.set]{fullShare} gathered (F := F) AA TT))

/-- The same from the SECOND output scratch. -/
def OutFl1 (off : Fin 2 → ℕ) (h : ∀ a, off a + S64x640.size a ≤ S64x800000.size a) : sProp 𝕄 :=
  iprop(∃ AA : Buf (Elt F) ((thr d L).loc cc0_scratch1),
    Transfers.Flight countersEmb (thr d L) (SemLoc.dma cc0_scratch11.sem) default 1310720
        iprop(((oSl off h).view.loc (thr d L) ↦[(oSl off h).view.set]{fullShare} GT (F := F) A B0 B1 B2)
          ∗ ((sO1 : Memref sig .scVector .vmem S64x640 .f32).view.loc (thr d L) ↦[(sO1 : Memref sig .scVector .vmem S64x640 .f32).view.set]{fullShare} gathered (F := F) AA TT))
      ∗ ((sO1 : Memref sig .scVector .vmem S64x640 .f32).view.loc (thr d L) ↦[Finset.univ \ (sO1 : Memref sig .scVector .vmem S64x640 .f32).view.set]{fullShare} gathered (F := F) AA TT))

/-- The second index scratch and its semaphore at rest, the index array whole. -/
def InRest1 : sProp 𝕄 :=
  iprop((∃ f, (sA1 : Memref sig .scVector .vmem S3x640 .i32).view.loc (thr d L) ↦{fullShare} f)
    ∗ semVal (thr d L, SemLoc.dma cc0_scratch9.sem) 0
    ∗ ((aV : Memref sig .scVector .hbm S3x800000 .i32).view.loc (thr d L) ↦{q} A))

/-- The second output scratch and its semaphore at rest. -/
def OutRest1 : sProp 𝕄 :=
  iprop((∃ f, (sO1 : Memref sig .scVector .vmem S64x640 .f32).view.loc (thr d L) ↦{fullShare} f)
    ∗ semVal (thr d L, SemLoc.dma cc0_scratch11.sem) 0)

/-- What every round keeps as it is: the table, the first index scratch at rest, the wait evidence, what the tile owes. -/
def Common : sProp 𝕄 :=
  iprop(Transfers.MayWaits (thr d L) (none : HIx 1) O
    ∗ ((sT : Memref sig .scVector .vmem S64x16 .f32).view.loc (thr d L) ↦{fullShare} TT)
    ∗ (∃ f, (sA0 : Memref sig .scVector .vmem S3x640 .i32).view.loc (thr d L) ↦{fullShare} f)
    ∗ semVal (thr d L, SemLoc.dma cc0_scratch8.sem) 0
    ∗ ∃ W', ⌜∀ x ∈ W', x ∈ W ∨ x.2 = none⌝ ∗ owes (thr d L) O W')

/-- Before round `p` (`p ≤ 19`). The copies under way are named by the offsets of their slices, equal to the chunk's. -/
def headInv (p : ℕ) : sProp 𝕄 :=
  iprop(Common d L TT O W
    ∗ (if wid L + 32 * (2 * p + 1) < 1250 then iprop(∃ off h, ⌜off = offI L (2 * p + 1)⌝ ∗ InFl1 d L q A off h) else InRest1 d L q A)
    ∗ (∃ off h, ⌜off = offI L (2 * p)⌝ ∗ OutFl0 d L A B0 B1 B2 TT off h)
    ∗ (if p = 0 then OutRest1 d L else iprop(∃ off h, ⌜off = offI L (2 * p - 1)⌝ ∗ OutFl1 d L A B0 B1 B2 TT off h))
    ∗ (∃ f, oLoc d ↦[todoFrom L (2 * p + 1)]{fullShare} f)
    ∗ (oLoc d ↦[doneUpto L (2 * p - 1)]{fullShare} GT (F := F) A B0 B1 B2))

/-- After the last round: the last even chunk (38) and the last odd chunk (37, or 39 for the two tiles that have one)
    are on their way out; everything below has come back. -/
def exitInv : sProp 𝕄 :=
  iprop(Common d L TT O W
    ∗ InRest1 d L q A
    ∗ (∃ off h, ⌜off = offI L 38⌝ ∗ OutFl0 d L A B0 B1 B2 TT off h)
    ∗ (∃ (j lo : ℕ) (off : Fin 2 → ℕ) (h : ∀ a, off a + S64x640.size a ≤ S64x800000.size a),
        ⌜((j = 37 ∧ lo = 37) ∨ (j = 39 ∧ lo = 38)) ∧ 1250 ≤ wid L + 32 * (lo + 2) ∧ wid L + 32 * j < 1250 ∧ off = offI L j⌝
        ∗ OutFl1 d L A B0 B1 B2 TT off h
        ∗ (oLoc d ↦[doneUpto L lo]{fullShare} GT (F := F) A B0 B1 B2)))

/-- The pair loop's invariant. -/
def pairInv (p : ℕ) (_ : BitVec 32) : sProp 𝕄 :=
  if p < 20 then headInv d L q A B0 B1 B2 TT O W p else exitInv d L q A B0 B1 B2 TT O W

end Inv

end Cert.Proof.KB

end
-- ==== Proof.KBIface.lean ====
/-
  Two statements the modules about a tile's run share: what it means for a tile's scratch to hold the lookup table,
  and the pair loop as one step from the state before its first round to the state after its last.
-/
import proofs.«203793_g3813930959492_cont_8to1_b_1292_12_alg».proof.Proof.KBInv

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The scratch holds the lookup table: column `r < 8`, row `j` is `(W0[r/4 % 2, j] + W1[r/2 % 2, j]) + W2[r % 2, j]`. -/
def IsTable (B0 : FVec F S20x64 .f32) (B1 : FVec F S10x64 .f32) (B2 : FVec F S2x64 .f32) (TT : FVec F S64x16 .f32) : Prop :=
  ∀ (j : Fin 64) (r : Fin 16), r.val < 8 →
    TT (ValueIdx.ix2 j r) = FloatOps.addf
      (FloatOps.addf (B0 (ValueIdx.ix2 (⟨r.val / 4 % 2, by omega⟩ : Fin 20) j)) (B1 (ValueIdx.ix2 (⟨r.val / 2 % 2, by omega⟩ : Fin 10) j)))
      (B2 (ValueIdx.ix2 (⟨r.val % 2, by omega⟩ : Fin 2) j))

/-- The pair loop, as a step of a run: from the state before round 0, the rest of the program runs from the state after
    round 19. -/
def PairLoop : Prop :=
  ∀ (d : Dev nD) (L : grid0.Coords) (q : PosShare TreeShare) (A : Buf (Elt F) (aLoc d)), (∀ i, A i = 0#32 ∨ A i = 1#32) →
  ∀ (B0 : Buf (Elt F) (w0Loc d)) (B1 : Buf (Elt F) (w1Loc d)) (B2 : Buf (Elt F) (w2Loc d)) (TT : Buf (Elt F) ((thr d L).loc cc0_scratch7)),
    IsTable (F := F) B0 B1 B2 TT →
  ∀ (O : CellTallies nD τ sig (HIx 1)) (W : Waits sig (HIx 1)), (∀ g, O g none = 0) →
  ∀ (α : Type) (k : BitVec 32 → Prog (TpuEff nD τ sig (Elt F) Λ₀ (.scVector (cV L) (jV L))) α) (Q : α → sProp 𝕄),
    (iprop(pairInv d L q A B0 B1 B2 TT O W 0 0#32
        ∗ (∀ acc, pairInv d L q A B0 B1 B2 TT O W 20 acc -∗ wp frame (wpE (defs₀ (F := F)) 𝒱₀ (thr d L) none) Set.univ (k acc) Q)) : sProp 𝕄)
      ⊢ wp frame (wpE (defs₀ (F := F)) 𝒱₀ (thr d L) none) Set.univ
          (Scf.Loop.for k0_t2_loop k0_t2_ok 0#32 (k0_t2_body (F := F) L aV (Memref.isWhole_whole _) w0V (Memref.isWhole_whole _) w1V (Memref.isWhole_whole _) w2V (Memref.isWhole_whole _) oV (Memref.isWhole_whole _) sA0 (Memref.isWhole_whole _) sA1 (Memref.isWhole_whole _) sO0 (Memref.isWhole_whole _) sO1 (Memref.isWhole_whole _) sW0 (Memref.isWhole_whole _) sW1 (Memref.isWhole_whole _) sW2 (Memref.isWhole_whole _) sT (Memref.isWhole_whole _) cc0_scratch8 cc0_scratch9 cc0_scratch10 cc0_scratch11 cc0_scoped0 cc0_scoped1 cc0_scoped2) >>= k) Q

end Cert.Proof.KB

end
-- ==== Proof.KBChunks.lean ====
/-
  Set algebra over the result array's columns.

  A tile numbered `w` works through the chunks `w, w + 32, w + 64, …` (each 640 columns; 1250 chunks in all). Its columns
  not yet written (`todoFrom L t`: chunks `t` and later of the tile) lose chunk `w + 32 t` and become `todoFrom L (t + 1)`;
  its columns already written (`doneUpto L t`) gain that chunk and become `doneUpto L (t + 1)`. Before the first chunk
  the former is the tile's whole region and the latter is empty; once `w + 32 t` passes the last chunk it is the other
  way round. All of it is arithmetic on the column's chunk number `c = e / 640 < 1250`: `c % 32 = w` and `c / 32`.
-/
import proofs.«203793_g3813930959492_cont_8to1_b_1292_12_alg».proof.Proof.KBSets

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## Membership, and a column's chunk number -/

/-- A column's chunk number is below 1250. -/
theorem chunk_lt (idx : S64x800000.Idx) : (idx 1 : Fin 800000).val / 640 < 1250 := by
  have h : (idx 1 : Fin 800000).val < 800000 := (idx 1 : Fin 800000).isLt
  omega

theorem mem_chunkSet {n : ℕ} {idx : S64x800000.Idx} : idx ∈ chunkSet n ↔ (idx 1 : Fin 800000).val / 640 = n := by
  unfold chunkSet
  rw [Finset.mem_filter]
  exact ⟨fun h => h.2, fun h => ⟨Finset.mem_univ _, h⟩⟩

theorem mem_todoFrom {L : grid0.Coords} {t : ℕ} {idx : S64x800000.Idx} :
    idx ∈ todoFrom L t ↔ ((idx 1 : Fin 800000).val / 640) % 32 = wid L ∧ t ≤ ((idx 1 : Fin 800000).val / 640) / 32 := by
  unfold todoFrom
  rw [Finset.mem_filter]
  exact ⟨fun h => h.2, fun h => ⟨Finset.mem_univ _, h⟩⟩

theorem mem_doneUpto {L : grid0.Coords} {t : ℕ} {idx : S64x800000.Idx} :
    idx ∈ doneUpto L t ↔ ((idx 1 : Fin 800000).val / 640) % 32 = wid L ∧ ((idx 1 : Fin 800000).val / 640) / 32 < t := by
  unfold doneUpto
  rw [Finset.mem_filter]
  exact ⟨fun h => h.2, fun h => ⟨Finset.mem_univ _, h⟩⟩

theorem mem_oRegion {L : grid0.Coords} {idx : S64x800000.Idx} :
    idx ∈ oRegion L ↔ ((idx 1 : Fin 800000).val / 640) % 32 = wid L := by
  unfold oRegion
  rw [Finset.mem_filter]
  exact ⟨fun h => h.2, fun h => ⟨Finset.mem_univ _, h⟩⟩

/-! ## The sets at the ends -/

/-- Before the first chunk everything is still to do. -/
theorem todoFrom_zero (L : grid0.Coords) : todoFrom L 0 = oRegion L := by
  ext idx
  rw [mem_todoFrom, mem_oRegion]
  exact ⟨fun h => h.1, fun h => ⟨h, Nat.zero_le _⟩⟩

/-- Before the first chunk nothing is done. -/
theorem doneUpto_zero (L : grid0.Coords) : doneUpto L 0 = ∅ := by
  ext idx
  rw [mem_doneUpto]
  exact ⟨fun h => absurd h.2 (Nat.not_lt_zero _), fun h => absurd h (Finset.notMem_empty _)⟩

/-- Past the last chunk everything is done. -/
theorem doneUpto_all (L : grid0.Coords) (t : ℕ) (h : 1250 ≤ wid L + 32 * t) : doneUpto L t = oRegion L := by
  ext idx
  have hc := chunk_lt idx
  rw [mem_doneUpto, mem_oRegion]
  constructor
  · exact fun h => h.1
  · intro hm
    refine ⟨hm, ?_⟩
    omega

/-- Past the last chunk nothing is left to do. -/
theorem todo_drop (L : grid0.Coords) (t : ℕ) (h : 1250 ≤ wid L + 32 * t) : todoFrom L t = ∅ := by
  ext idx
  have hc := chunk_lt idx
  rw [mem_todoFrom]
  constructor
  · intro hm
    exfalso
    omega
  · exact fun h => absurd h (Finset.notMem_empty _)

/-! ## One chunk moves from "to do" to "done" -/

/-- What is to do from chunk `t` on is chunk `t` of the tile and what is to do from chunk `t + 1` on. -/
theorem todoFrom_split (L : grid0.Coords) (t : ℕ) : todoFrom L t = chunkSet (wid L + 32 * t) ∪ todoFrom L (t + 1) := by
  ext idx
  have hw := wid_lt L
  rw [Finset.mem_union, mem_todoFrom, mem_todoFrom, mem_chunkSet]
  omega

theorem chunk_disjoint_todo (L : grid0.Coords) (t : ℕ) : Disjoint (chunkSet (wid L + 32 * t)) (todoFrom L (t + 1)) := by
  rw [Finset.disjoint_left]
  intro idx h1 h2
  have hw := wid_lt L
  rw [mem_chunkSet] at h1
  rw [mem_todoFrom] at h2
  omega

/-- What is done below chunk `t + 1` is what is done below chunk `t` and chunk `t` of the tile. -/
theorem doneUpto_split (L : grid0.Coords) (t : ℕ) : doneUpto L (t + 1) = doneUpto L t ∪ chunkSet (wid L + 32 * t) := by
  ext idx
  have hw := wid_lt L
  rw [Finset.mem_union, mem_doneUpto, mem_doneUpto, mem_chunkSet]
  omega

theorem done_disjoint_chunk (L : grid0.Coords) (t : ℕ) : Disjoint (doneUpto L t) (chunkSet (wid L + 32 * t)) := by
  rw [Finset.disjoint_left]
  intro idx h1 h2
  have hw := wid_lt L
  rw [mem_doneUpto] at h1
  rw [mem_chunkSet] at h2
  omega

/-- Taking the tile's chunk `t` out of what is still to do (whatever it holds). -/
theorem todo_take (d : Dev nD) (L : grid0.Coords) (t : ℕ) (h : wid L + 32 * t < 1250) :
    (iprop(∃ f, oLoc d ↦[todoFrom L t]{fullShare} f) : sProp 𝕄)
      ⊢ iprop((∃ f, oLoc d ↦[chunkSet (wid L + 32 * t)]{fullShare} f) ∗ ∃ f, oLoc d ↦[todoFrom L (t + 1)]{fullShare} f) := by
  rw [todoFrom_split L t]
  iintro ⟨%f, H⟩
  ihave H2 := (pointsTo_union (chunk_disjoint_todo L t)).1 $$ H
  icases H2 with ⟨Ha, Hb⟩
  isplitl [Ha]
  · iexists f; iexact Ha
  · iexists f; iexact Hb

/-- Putting the tile's chunk `t`, written at `g`, with what is already done at `g`. -/
theorem done_put (d : Dev nD) (L : grid0.Coords) (t : ℕ) (g : Buf (Elt F) (oLoc d)) :
    (iprop((oLoc d ↦[doneUpto L t]{fullShare} g) ∗ (oLoc d ↦[chunkSet (wid L + 32 * t)]{fullShare} g)) : sProp 𝕄)
      ⊢ (oLoc d ↦[doneUpto L (t + 1)]{fullShare} g) := by
  rw [doneUpto_split L t]
  exact (pointsTo_union (done_disjoint_chunk L t)).2

/-! ## The program's slices of the two big arrays -/

/-- The program's 64 × 640 slice of the result array at column offset `640 n` covers exactly chunk `n`. -/
theorem oSl_set (off : Fin 2 → ℕ) (h : ∀ a, off a + S64x640.size a ≤ S64x800000.size a) (n : ℕ) (e : off = ![0, 640 * n]) :
    (oSl off h).view.set = chunkSet n := by
  subst e
  ext idx
  rw [mem_chunkSet]
  show idx ∈ ((View.whole main_v1_scv).slice (Rect.unit (s := S64x800000) ![0, 640 * n] S64x640.size h)).set ↔ _
  rw [View.set_slice_whole, Rect.mem_set_unit]
  refine Fin.forall_fin_two.trans ?_
  show ((0 : ℕ) ≤ (idx 0 : Fin 64).val ∧ (idx 0 : Fin 64).val < 0 + 64)
      ∧ (640 * n ≤ (idx 1 : Fin 800000).val ∧ (idx 1 : Fin 800000).val < 640 * n + 640) ↔ _
  have h0 : (idx 0 : Fin 64).val < 64 := (idx 0 : Fin 64).isLt
  omega

/-- Slices of the result array at equal offsets are equal, whatever their in-bounds evidence. -/
theorem oSl_congr (off off' : Fin 2 → ℕ) (h : ∀ a, off a + S64x640.size a ≤ S64x800000.size a)
    (h' : ∀ a, off' a + S64x640.size a ≤ S64x800000.size a) (e : off = off') : oSl off h = oSl off' h' := by
  subst e; rfl

/-- The program's 3 × 640 slice of the transposed index array at column offset `640 n` covers exactly the columns of chunk `n`. -/
theorem aSl_mem_set (off : Fin 2 → ℕ) (h : ∀ a, off a + S3x640.size a ≤ S3x800000.size a) (n : ℕ) (e : off = ![0, 640 * n])
    (idx : S3x800000.Idx) : idx ∈ (aSl off h).view.set ↔ (idx 1 : Fin 800000).val / 640 = n := by
  subst e
  show idx ∈ ((View.whole main_v0_scv).slice (Rect.unit (s := S3x800000) ![0, 640 * n] S3x640.size h)).set ↔ _
  rw [View.set_slice_whole, Rect.mem_set_unit]
  refine Fin.forall_fin_two.trans ?_
  show ((0 : ℕ) ≤ (idx 0 : Fin 3).val ∧ (idx 0 : Fin 3).val < 0 + 3)
      ∧ (640 * n ≤ (idx 1 : Fin 800000).val ∧ (idx 1 : Fin 800000).val < 640 * n + 640) ↔ _
  have h0 : (idx 0 : Fin 3).val < 3 := (idx 0 : Fin 3).isLt
  omega

/-- Slices of the index array at equal offsets are equal, whatever their in-bounds evidence. -/
theorem aSl_congr (off off' : Fin 2 → ℕ) (h : ∀ a, off a + S3x640.size a ≤ S3x800000.size a)
    (h' : ∀ a, off' a + S3x640.size a ≤ S3x800000.size a) (e : off = off') : aSl off h = aSl off' h' := by
  subst e; rfl

end Cert.Proof.KB

end
-- ==== Proof.KBValue.lean ====
/-
  Values and offsets of a tile's chunks.

  The program's chunk offsets in closed form: chunk `i` of tile `w` starts at column `640 (w + 32 i)`. What a copy-in
  lands in an index scratch is words of the index array, so 0 or 1. What a copy-out lands in the result array is, at row
  `j` and column `640 (w + 32 i) + x`, the table's entry `(j, 4 a0 + 2 a1 + a2)` for the three index words of that column,
  which is the sum of the three weight rows those words name.
-/
import proofs.«203793_g3813930959492_cont_8to1_b_1292_12_alg».proof.Proof.KBIface
import proofs.«203793_g3813930959492_cont_8to1_b_1292_12_alg».proof.Proof.KBChunks
import proofs.«203793_g3813930959492_cont_8to1_b_1292_12_alg».proof.Proof.KIMath

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The chunk offsets in closed form -/

theorem vec2_congr {x y : ℕ} (h : x = y) : (![0, x] : Fin 2 → ℕ) = ![0, y] := by rw [h]

/-- Chunk `i` of the tile starts at column `640 (wid L + 32 i)`. -/
theorem offI_eq (L : grid0.Coords) (i : ℕ) : offI L i = ![0, 640 * (wid L + 32 * i)] := by
  unfold offI wid
  exact vec2_congr (by omega)

theorem off1_eq (L : grid0.Coords) : k0_off1 L = offI L 0 := by
  rw [k0_off1_eq]; unfold offI; exact vec2_congr (by omega)

theorem off2_eq (L : grid0.Coords) : k0_off2 L = offI L 1 := by
  rw [k0_off2_eq]; unfold offI; exact vec2_congr (by omega)

theorem off70_eq (L : grid0.Coords) : k0_off70 L = offI L 0 := by
  rw [k0_off70_eq]; unfold offI; exact vec2_congr (by omega)

theorem off71_eq (L : grid0.Coords) (p : Fin k0_t2_loop.trips) : k0_off71 L p = offI L (2 * p.val + 2) := by
  rw [k0_off71_eq]; unfold offI; exact vec2_congr (by omega)

theorem off139_eq (L : grid0.Coords) (p : Fin k0_t2_loop.trips) : k0_off139 L p = offI L (2 * p.val + 1) := by
  rw [k0_off139_eq]; unfold offI; exact vec2_congr (by omega)

theorem off140_eq (L : grid0.Coords) (p : Fin k0_t2_loop.trips) : k0_off140 L p = offI L (2 * p.val + 3) := by
  rw [k0_off140_eq]; unfold offI; exact vec2_congr (by omega)

theorem off208_eq (L : grid0.Coords) (p : Fin k0_t2_loop.trips) : k0_off208 L p = offI L (2 * p.val + 2) := by
  rw [k0_off208_eq]; unfold offI; exact vec2_congr (by omega)

/-! ## What a copy-in lands -/

/-- What a copy-in carries, element by element: the index array's word under the slice's element. -/
theorem payA_apply (d : Dev nD) (A : Buf (Elt F) (aLoc d)) (off : Fin 2 → ℕ)
    (h : ∀ a, off a + S3x640.size a ≤ S3x800000.size a) (x : S3x640.Idx) :
    payA d A off h x = A ((aSl off h).view.emb x) :=
  (View.read_apply _ _).trans (cast_eq _ _)

/-- The first index scratch after a copy-in holds what the copy-in carries. -/
theorem write_A0 (d : Dev nD) (L : grid0.Coords) (A : Buf (Elt F) (aLoc d)) (fA : Buf (Elt F) ((thr d L).loc cc0_scratch0))
    (off : Fin 2 → ℕ) (h : ∀ a, off a + S3x640.size a ≤ S3x800000.size a) :
    View.write (Elt F) (sA0 : Memref sig .scVector .vmem S3x640 .i32).view fA (payA d A off h) Finset.univ = payA d A off h :=
  View.write_whole_univ _ _ _

theorem write_A1 (d : Dev nD) (L : grid0.Coords) (A : Buf (Elt F) (aLoc d)) (fA : Buf (Elt F) ((thr d L).loc cc0_scratch1))
    (off : Fin 2 → ℕ) (h : ∀ a, off a + S3x640.size a ≤ S3x800000.size a) :
    View.write (Elt F) (sA1 : Memref sig .scVector .vmem S3x640 .i32).view fA (payA d A off h) Finset.univ = payA d A off h :=
  View.write_whole_univ _ _ _

/-- A copy-in of an index array of 0/1 words leaves 0/1 words in the first index scratch. -/
theorem in01_A0 (d : Dev nD) (L : grid0.Coords) (A : Buf (Elt F) (aLoc d)) (hA : ∀ i, A i = 0#32 ∨ A i = 1#32)
    (fA : Buf (Elt F) ((thr d L).loc cc0_scratch0)) (off : Fin 2 → ℕ) (h : ∀ a, off a + S3x640.size a ≤ S3x800000.size a) :
    ∀ i, (View.write (Elt F) (sA0 : Memref sig .scVector .vmem S3x640 .i32).view fA (payA d A off h) Finset.univ) i = 0#32
      ∨ (View.write (Elt F) (sA0 : Memref sig .scVector .vmem S3x640 .i32).view fA (payA d A off h) Finset.univ) i = 1#32 := by
  intro i
  rw [write_A0 d L A fA off h]
  have e := payA_apply d A off h i
  rw [e]
  exact hA _

/-- The same for the second index scratch. -/
theorem in01_A1 (d : Dev nD) (L : grid0.Coords) (A : Buf (Elt F) (aLoc d)) (hA : ∀ i, A i = 0#32 ∨ A i = 1#32)
    (fA : Buf (Elt F) ((thr d L).loc cc0_scratch1)) (off : Fin 2 → ℕ) (h : ∀ a, off a + S3x640.size a ≤ S3x800000.size a) :
    ∀ i, (View.write (Elt F) (sA1 : Memref sig .scVector .vmem S3x640 .i32).view fA (payA d A off h) Finset.univ) i = 0#32
      ∨ (View.write (Elt F) (sA1 : Memref sig .scVector .vmem S3x640 .i32).view fA (payA d A off h) Finset.univ) i = 1#32 := by
  intro i
  rw [write_A1 d L A fA off h]
  have e := payA_apply d A off h i
  rw [e]
  exact hA _

/-! ## What a copy-out lands -/

/-- The kernel's column word of three index words that are 0 or 1: `4 a0 + 2 a1 + a2`. -/
theorem kword_toNat (w0 w1 w2 : BitVec 32) (h0 : w0 = 0#32 ∨ w0 = 1#32) (h1 : w1 = 0#32 ∨ w1 = 1#32) (h2 : w2 = 0#32 ∨ w2 = 1#32) :
    (IntOp.addi (IntOp.addi (IntOp.muli w0 4#32) (IntOp.muli w1 2#32)) w2).toNat
      = 4 * (Cert.Spec.sel w0).val + 2 * (Cert.Spec.sel w1).val + (Cert.Spec.sel w2).val := by
  rcases h0 with rfl | rfl <;> rcases h1 with rfl | rfl <;> rcases h2 with rfl | rfl <;> decide

/-- The table column an index scratch of 0/1 words names at column `e`. -/
theorem kcol_val (AA : IVec S3x640 32) (hAA : ∀ k, AA k = 0#32 ∨ AA k = 1#32) (e : Fin 640) :
    (kcol AA e).val = 4 * (Cert.Spec.sel (AA (ValueIdx.ix2 (0 : Fin 3) e))).val
      + 2 * (Cert.Spec.sel (AA (ValueIdx.ix2 (1 : Fin 3) e))).val + (Cert.Spec.sel (AA (ValueIdx.ix2 (2 : Fin 3) e))).val := by
  have h := kword_toNat (AA (ValueIdx.ix2 (0 : Fin 3) e)) (AA (ValueIdx.ix2 (1 : Fin 3) e)) (AA (ValueIdx.ix2 (2 : Fin 3) e))
    (hAA _) (hAA _) (hAA _)
  have s0 := (Cert.Spec.sel (AA (ValueIdx.ix2 (0 : Fin 3) e))).isLt
  have s1 := (Cert.Spec.sel (AA (ValueIdx.ix2 (1 : Fin 3) e))).isLt
  have s2 := (Cert.Spec.sel (AA (ValueIdx.ix2 (2 : Fin 3) e))).isLt
  show (IntOp.addi (IntOp.addi (IntOp.muli (AA (ValueIdx.ix2 (0 : Fin 3) e)) 4#32) (IntOp.muli (AA (ValueIdx.ix2 (1 : Fin 3) e)) 2#32))
      (AA (ValueIdx.ix2 (2 : Fin 3) e))).toNat % 16 = _
  rw [h]
  omega

/-- With the table in place, a pass over an index scratch of 0/1 words leaves, at row `j` and column `e`, the sum of the
    three weight rows the column's three words name. -/
theorem gathered_apply (B0 : FVec F S20x64 .f32) (B1 : FVec F S10x64 .f32) (B2 : FVec F S2x64 .f32) (TT : FVec F S64x16 .f32)
    (hTT : IsTable (F := F) B0 B1 B2 TT) (AA : IVec S3x640 32) (hAA : ∀ k, AA k = 0#32 ∨ AA k = 1#32) (y : S64x640.Idx) :
    gathered (F := F) AA TT y = FloatOps.addf
      (FloatOps.addf
        (B0 (ValueIdx.ix2 ((Cert.Spec.sel (AA (ValueIdx.ix2 (0 : Fin 3) (y 1 : Fin 640)))).castLE (by decide) : Fin 20) (y 0 : Fin 64)))
        (B1 (ValueIdx.ix2 ((Cert.Spec.sel (AA (ValueIdx.ix2 (1 : Fin 3) (y 1 : Fin 640)))).castLE (by decide) : Fin 10) (y 0 : Fin 64))))
      (B2 (ValueIdx.ix2 (Cert.Spec.sel (AA (ValueIdx.ix2 (2 : Fin 3) (y 1 : Fin 640))) : Fin 2) (y 0 : Fin 64))) := by
  have hk := kcol_val AA hAA (y 1 : Fin 640)
  have s0 := (Cert.Spec.sel (AA (ValueIdx.ix2 (0 : Fin 3) (y 1 : Fin 640)))).isLt
  have s1 := (Cert.Spec.sel (AA (ValueIdx.ix2 (1 : Fin 3) (y 1 : Fin 640)))).isLt
  have s2 := (Cert.Spec.sel (AA (ValueIdx.ix2 (2 : Fin 3) (y 1 : Fin 640)))).isLt
  have f0 : (⟨(kcol AA (y 1 : Fin 640)).val / 4 % 2, by omega⟩ : Fin 20)
      = (Cert.Spec.sel (AA (ValueIdx.ix2 (0 : Fin 3) (y 1 : Fin 640)))).castLE (by decide) :=
    Fin.ext (by show (kcol AA (y 1 : Fin 640)).val / 4 % 2 = (Cert.Spec.sel (AA (ValueIdx.ix2 (0 : Fin 3) (y 1 : Fin 640)))).val; omega)
  have f1 : (⟨(kcol AA (y 1 : Fin 640)).val / 2 % 2, by omega⟩ : Fin 10)
      = (Cert.Spec.sel (AA (ValueIdx.ix2 (1 : Fin 3) (y 1 : Fin 640)))).castLE (by decide) :=
    Fin.ext (by show (kcol AA (y 1 : Fin 640)).val / 2 % 2 = (Cert.Spec.sel (AA (ValueIdx.ix2 (1 : Fin 3) (y 1 : Fin 640)))).val; omega)
  have f2 : (⟨(kcol AA (y 1 : Fin 640)).val % 2, by omega⟩ : Fin 2)
      = Cert.Spec.sel (AA (ValueIdx.ix2 (2 : Fin 3) (y 1 : Fin 640))) :=
    Fin.ext (by show (kcol AA (y 1 : Fin 640)).val % 2 = (Cert.Spec.sel (AA (ValueIdx.ix2 (2 : Fin 3) (y 1 : Fin 640)))).val; omega)
  unfold gathered
  rw [hTT (y 0 : Fin 64) (kcol AA (y 1 : Fin 640)) (by omega), f0, f1, f2]

/-- `GT` at an index whose row and whose column's three index words are named. -/
theorem GT_eq_of (A : IVec S3x800000 32) (B0 : FVec F S20x64 .f32) (B1 : FVec F S10x64 .f32) (B2 : FVec F S2x64 .f32)
    (idx : S64x800000.Idx) (j : Fin 64) (a0 a1 a2 : BitVec 32) (hj : (idx 0 : Fin 64) = j)
    (h0 : A (ValueIdx.ix2 (0 : Fin 3) (idx 1 : Fin 800000)) = a0) (h1 : A (ValueIdx.ix2 (1 : Fin 3) (idx 1 : Fin 800000)) = a1)
    (h2 : A (ValueIdx.ix2 (2 : Fin 3) (idx 1 : Fin 800000)) = a2) :
    GT (F := F) A B0 B1 B2 idx = FloatOps.addf
      (FloatOps.addf (B0 (ValueIdx.ix2 ((Cert.Spec.sel a0).castLE (by decide) : Fin 20) j))
        (B1 (ValueIdx.ix2 ((Cert.Spec.sel a1).castLE (by decide) : Fin 10) j)))
      (B2 (ValueIdx.ix2 (Cert.Spec.sel a2 : Fin 2) j)) := by
  subst hj h0 h1 h2
  rfl

/-- The index array's element under element `(c, x)` of the tile's chunk `i` is `(c, column of the chunk + x)`, the column
    the result array's chunk has under its element `(·, x)`. -/
theorem chunk_emb (L : grid0.Coords) (i : ℕ) (hi : wid L + 32 * i < 1250) (c : Fin 3) (y : S64x640.Idx) :
    (aSl (offI L i) (offI_inbA L i hi)).view.emb (ValueIdx.ix2 c (y 1 : Fin 640))
      = ValueIdx.ix2 c (((oCh L i hi).view.emb y) 1 : Fin 800000) := by
  funext a
  refine Fin.ext ?_
  match a with
  | ⟨0, _⟩ => show 0 + 1 * c.val = c.val; omega
  | ⟨1, _⟩ => rfl

/-- What one whole-chunk write leaves in the result array under the chunk's element `y`, when what is written is the output
    scratch after a pass over an index scratch holding the chunk's index words: `GT` there. -/
theorem out_val_core (d : Dev nD) (L : grid0.Coords) (A : Buf (Elt F) (aLoc d)) (hA : ∀ i, A i = 0#32 ∨ A i = 1#32)
    (B0 : Buf (Elt F) (w0Loc d)) (B1 : Buf (Elt F) (w1Loc d)) (B2 : Buf (Elt F) (w2Loc d))
    (TT : Buf (Elt F) ((thr d L).loc cc0_scratch7)) (hTT : IsTable (F := F) B0 B1 B2 TT)
    (i : ℕ) (hi : wid L + 32 * i < 1250) (o : Buf (Elt F) (oLoc d))
    (AA : IVec S3x640 32) (hAA : ∀ k, AA k = payA d A (offI L i) (offI_inbA L i hi) k)
    (w : S64x640.Idx → Elt F .f32) (hw : ∀ y, w y = gathered (F := F) AA TT y) :
    ∀ idx ∈ (oCh L i hi).view.set,
      ((oCh L i hi).view.writes (Elt F) o [⟨Rect.whole S64x640, w⟩]) idx = GT (F := F) A B0 B1 B2 idx := by
  intro idx hidx
  obtain ⟨y, -, rfl⟩ := Finset.mem_map.mp hidx
  have h01 : ∀ k, AA k = 0#32 ∨ AA k = 1#32 := fun k => by
    rw [hAA k, payA_apply]; exact hA _
  have h1 := View.read_writes_cons_emb (oCh L i hi).view o (Rect.whole S64x640) w [] y
  rw [Rect.emb_whole_apply, View.read_apply] at h1
  have h2 : ((oCh L i hi).view.writes (Elt F) o [⟨Rect.whole S64x640, w⟩]) ((oCh L i hi).view.emb y) = w y :=
    (cast_eq _ _).symm.trans h1
  rw [h2, hw y, gathered_apply B0 B1 B2 TT hTT AA h01 y]
  refine (GT_eq_of (F := F) A B0 B1 B2 _ (y 0 : Fin 64) _ _ _ ?_ ?_ ?_ ?_).symm
  · exact Fin.ext (by show 0 + 1 * (y 0 : Fin 64).val = (y 0 : Fin 64).val; omega)
  · rw [hAA, payA_apply, chunk_emb L i hi 0 y]; rfl
  · rw [hAA, payA_apply, chunk_emb L i hi 1 y]; rfl
  · rw [hAA, payA_apply, chunk_emb L i hi 2 y]; rfl

/-- What the copy-out of chunk `i` from the FIRST output scratch lands is `GT` on the chunk's columns. -/
theorem out_val0 (d : Dev nD) (L : grid0.Coords) (A : Buf (Elt F) (aLoc d)) (hA : ∀ i, A i = 0#32 ∨ A i = 1#32)
    (B0 : Buf (Elt F) (w0Loc d)) (B1 : Buf (Elt F) (w1Loc d)) (B2 : Buf (Elt F) (w2Loc d))
    (TT : Buf (Elt F) ((thr d L).loc cc0_scratch7)) (hTT : IsTable (F := F) B0 B1 B2 TT)
    (i : ℕ) (hi : wid L + 32 * i < 1250) (fA : Buf (Elt F) ((thr d L).loc cc0_scratch0)) (o : Buf (Elt F) (oLoc d)) :
    ∀ idx ∈ (oCh L i hi).view.set,
      ((oCh L i hi).view.writes (Elt F) o [⟨Rect.whole S64x640,
        ReadAs.same.apply (View.read (Elt F) (sO0 : Memref sig .scVector .vmem S64x640 .f32).view
          (gathered (F := F) (View.write (Elt F) (sA0 : Memref sig .scVector .vmem S3x640 .i32).view fA
            (payA d A (offI L i) (offI_inbA L i hi)) Finset.univ) TT))⟩]) idx
        = GT (F := F) A B0 B1 B2 idx :=
  out_val_core d L A hA B0 B1 B2 TT hTT i hi o _ (fun k => congrFun (write_A0 d L A fA _ _) k) _
    (fun y => (View.read_apply _ _).trans (cast_eq _ _))

/-- The same from the SECOND output scratch. -/
theorem out_val1 (d : Dev nD) (L : grid0.Coords) (A : Buf (Elt F) (aLoc d)) (hA : ∀ i, A i = 0#32 ∨ A i = 1#32)
    (B0 : Buf (Elt F) (w0Loc d)) (B1 : Buf (Elt F) (w1Loc d)) (B2 : Buf (Elt F) (w2Loc d))
    (TT : Buf (Elt F) ((thr d L).loc cc0_scratch7)) (hTT : IsTable (F := F) B0 B1 B2 TT)
    (i : ℕ) (hi : wid L + 32 * i < 1250) (fA : Buf (Elt F) ((thr d L).loc cc0_scratch1)) (o : Buf (Elt F) (oLoc d)) :
    ∀ idx ∈ (oCh L i hi).view.set,
      ((oCh L i hi).view.writes (Elt F) o [⟨Rect.whole S64x640,
        ReadAs.same.apply (View.read (Elt F) (sO1 : Memref sig .scVector .vmem S64x640 .f32).view
          (gathered (F := F) (View.write (Elt F) (sA1 : Memref sig .scVector .vmem S3x640 .i32).view fA
            (payA d A (offI L i) (offI_inbA L i hi)) Finset.univ) TT))⟩]) idx
        = GT (F := F) A B0 B1 B2 idx :=
  out_val_core d L A hA B0 B1 B2 TT hTT i hi o _ (fun k => congrFun (write_A1 d L A fA _ _) k) _
    (fun y => (View.read_apply _ _).trans (cast_eq _ _))

/-- The held destination of the copy-out from the first output scratch, restated at `GT`. -/
theorem out_pts0 (d : Dev nD) (L : grid0.Coords) (A : Buf (Elt F) (aLoc d)) (hA : ∀ i, A i = 0#32 ∨ A i = 1#32)
    (B0 : Buf (Elt F) (w0Loc d)) (B1 : Buf (Elt F) (w1Loc d)) (B2 : Buf (Elt F) (w2Loc d))
    (TT : Buf (Elt F) ((thr d L).loc cc0_scratch7)) (hTT : IsTable (F := F) B0 B1 B2 TT)
    (i : ℕ) (hi : wid L + 32 * i < 1250) (fA : Buf (Elt F) ((thr d L).loc cc0_scratch0)) (o : Buf (Elt F) (oLoc d)) :
    ((oCh L i hi).view.loc (thr d L) ↦[(oCh L i hi).view.set]{fullShare}
        (oCh L i hi).view.writes (Elt F) o [⟨Rect.whole S64x640,
          ReadAs.same.apply (View.read (Elt F) (sO0 : Memref sig .scVector .vmem S64x640 .f32).view
            (gathered (F := F) (View.write (Elt F) (sA0 : Memref sig .scVector .vmem S3x640 .i32).view fA
              (payA d A (offI L i) (offI_inbA L i hi)) Finset.univ) TT))⟩] : sProp 𝕄)
      = ((oCh L i hi).view.loc (thr d L) ↦[(oCh L i hi).view.set]{fullShare} GT (F := F) A B0 B1 B2) :=
  pointsTo_congr (out_val0 d L A hA B0 B1 B2 TT hTT i hi fA o)

/-- The same for the second output scratch. -/
theorem out_pts1 (d : Dev nD) (L : grid0.Coords) (A : Buf (Elt F) (aLoc d)) (hA : ∀ i, A i = 0#32 ∨ A i = 1#32)
    (B0 : Buf (Elt F) (w0Loc d)) (B1 : Buf (Elt F) (w1Loc d)) (B2 : Buf (Elt F) (w2Loc d))
    (TT : Buf (Elt F) ((thr d L).loc cc0_scratch7)) (hTT : IsTable (F := F) B0 B1 B2 TT)
    (i : ℕ) (hi : wid L + 32 * i < 1250) (fA : Buf (Elt F) ((thr d L).loc cc0_scratch1)) (o : Buf (Elt F) (oLoc d)) :
    ((oCh L i hi).view.loc (thr d L) ↦[(oCh L i hi).view.set]{fullShare}
        (oCh L i hi).view.writes (Elt F) o [⟨Rect.whole S64x640,
          ReadAs.same.apply (View.read (Elt F) (sO1 : Memref sig .scVector .vmem S64x640 .f32).view
            (gathered (F := F) (View.write (Elt F) (sA1 : Memref sig .scVector .vmem S3x640 .i32).view fA
              (payA d A (offI L i) (offI_inbA L i hi)) Finset.univ) TT))⟩] : sProp 𝕄)
      = ((oCh L i hi).view.loc (thr d L) ↦[(oCh L i hi).view.set]{fullShare} GT (F := F) A B0 B1 B2) :=
  pointsTo_congr (out_val1 d L A hA B0 B1 B2 TT hTT i hi fA o)

/-! ## The same at offsets given by equations -/

/-- `out_val_core` for slices whose offsets are given by their coordinates: row 0 for both, the same column. -/
theorem out_val_gen (d : Dev nD) (L : grid0.Coords) (A : Buf (Elt F) (aLoc d)) (hA : ∀ i, A i = 0#32 ∨ A i = 1#32)
    (B0 : Buf (Elt F) (w0Loc d)) (B1 : Buf (Elt F) (w1Loc d)) (B2 : Buf (Elt F) (w2Loc d))
    (TT : FVec F S64x16 .f32) (hTT : IsTable (F := F) B0 B1 B2 TT)
    (offA : Fin 2 → ℕ) (hoA : ∀ a, offA a + S3x640.size a ≤ S3x800000.size a)
    (offO : Fin 2 → ℕ) (hoO : ∀ a, offO a + S64x640.size a ≤ S64x800000.size a)
    (e0A : offA 0 = 0) (e0O : offO 0 = 0) (e1 : offA 1 = offO 1) (o : Buf (Elt F) (oLoc d))
    (AA : IVec S3x640 32) (hAA : ∀ k, AA k = payA d A offA hoA k)
    (w : S64x640.Idx → Elt F .f32) (hw : ∀ y, w y = gathered (F := F) AA TT y) :
    ∀ idx ∈ (oSl offO hoO).view.set,
      ((oSl offO hoO).view.writes (Elt F) o [⟨Rect.whole S64x640, w⟩]) idx = GT (F := F) A B0 B1 B2 idx := by
  intro idx hidx
  obtain ⟨y, -, rfl⟩ := Finset.mem_map.mp hidx
  have h01 : ∀ k, AA k = 0#32 ∨ AA k = 1#32 := fun k => by
    rw [hAA k, payA_apply]; exact hA _
  have hemb : ∀ c : Fin 3, (aSl offA hoA).view.emb (ValueIdx.ix2 c (y 1 : Fin 640))
      = ValueIdx.ix2 c (((oSl offO hoO).view.emb y) 1 : Fin 800000) := fun c => by
    funext a
    refine Fin.ext ?_
    match a with
    | ⟨0, _⟩ => show offA 0 + 1 * c.val = c.val; omega
    | ⟨1, _⟩ => show offA 1 + 1 * (y 1 : Fin 640).val = offO 1 + 1 * (y 1 : Fin 640).val; omega
  have h1 := View.read_writes_cons_emb (oSl offO hoO).view o (Rect.whole S64x640) w [] y
  rw [Rect.emb_whole_apply, View.read_apply] at h1
  have h2 : ((oSl offO hoO).view.writes (Elt F) o [⟨Rect.whole S64x640, w⟩]) ((oSl offO hoO).view.emb y) = w y :=
    (cast_eq _ _).symm.trans h1
  rw [h2, hw y, gathered_apply B0 B1 B2 TT hTT AA h01 y]
  refine (GT_eq_of (F := F) A B0 B1 B2 _ (y 0 : Fin 64) _ _ _ ?_ ?_ ?_ ?_).symm
  · exact Fin.ext (by show offO 0 + 1 * (y 0 : Fin 64).val = (y 0 : Fin 64).val; omega)
  · rw [hAA, payA_apply, hemb 0]; rfl
  · rw [hAA, payA_apply, hemb 1]; rfl
  · rw [hAA, payA_apply, hemb 2]; rfl

/-- The copy-out from the FIRST output scratch, the two slices at column offset `640 n`: what lands is `GT`. -/
theorem out_val0_at (d : Dev nD) (L : grid0.Coords) (A : Buf (Elt F) (aLoc d)) (hA : ∀ i, A i = 0#32 ∨ A i = 1#32)
    (B0 : Buf (Elt F) (w0Loc d)) (B1 : Buf (Elt F) (w1Loc d)) (B2 : Buf (Elt F) (w2Loc d))
    (TT : FVec F S64x16 .f32) (hT : IsTable (F := F) B0 B1 B2 TT)
    (fA : Buf (Elt F) ((thr d L).loc cc0_scratch0)) (oc : Buf (Elt F) (oLoc d))
    (offA : Fin 2 → ℕ) (hoA : ∀ a, offA a + S3x640.size a ≤ S3x800000.size a)
    (offO : Fin 2 → ℕ) (hoO : ∀ a, offO a + S64x640.size a ≤ S64x800000.size a)
    (n : ℕ) (eA : offA = ![0, 640 * n]) (eO : offO = ![0, 640 * n]) :
    ∀ idx ∈ (oSl offO hoO).view.set,
      ((oSl offO hoO).view.writes (Elt F) oc [⟨Rect.whole S64x640,
        ReadAs.same.apply (View.read (Elt F) (sO0 : Memref sig .scVector .vmem S64x640 .f32).view
          (gathered (F := F) (View.write (Elt F) (sA0 : Memref sig .scVector .vmem S3x640 .i32).view fA
            (payA d A offA hoA) Finset.univ) TT))⟩]) idx
        = GT (F := F) A B0 B1 B2 idx :=
  out_val_gen d L A hA B0 B1 B2 TT hT offA hoA offO hoO (by rw [eA]; rfl) (by rw [eO]; rfl) (by rw [eA, eO]) oc _
    (fun k => congrFun (write_A0 d L A fA _ _) k) _ (fun y => (View.read_apply _ _).trans (cast_eq _ _))

/-- The same from the SECOND output scratch. -/
theorem out_val1_at (d : Dev nD) (L : grid0.Coords) (A : Buf (Elt F) (aLoc d)) (hA : ∀ i, A i = 0#32 ∨ A i = 1#32)
    (B0 : Buf (Elt F) (w0Loc d)) (B1 : Buf (Elt F) (w1Loc d)) (B2 : Buf (Elt F) (w2Loc d))
    (TT : FVec F S64x16 .f32) (hT : IsTable (F := F) B0 B1 B2 TT)
    (fA : Buf (Elt F) ((thr d L).loc cc0_scratch1)) (oc : Buf (Elt F) (oLoc d))
    (offA : Fin 2 → ℕ) (hoA : ∀ a, offA a + S3x640.size a ≤ S3x800000.size a)
    (offO : Fin 2 → ℕ) (hoO : ∀ a, offO a + S64x640.size a ≤ S64x800000.size a)
    (n : ℕ) (eA : offA = ![0, 640 * n]) (eO : offO = ![0, 640 * n]) :
    ∀ idx ∈ (oSl offO hoO).view.set,
      ((oSl offO hoO).view.writes (Elt F) oc [⟨Rect.whole S64x640,
        ReadAs.same.apply (View.read (Elt F) (sO1 : Memref sig .scVector .vmem S64x640 .f32).view
          (gathered (F := F) (View.write (Elt F) (sA1 : Memref sig .scVector .vmem S3x640 .i32).view fA
            (payA d A offA hoA) Finset.univ) TT))⟩]) idx
        = GT (F := F) A B0 B1 B2 idx :=
  out_val_gen d L A hA B0 B1 B2 TT hT offA hoA offO hoO (by rw [eA]; rfl) (by rw [eO]; rfl) (by rw [eA, eO]) oc _
    (fun k => congrFun (write_A1 d L A fA _ _) k) _ (fun y => (View.read_apply _ _).trans (cast_eq _ _))

/-- The held destination of the copy-out from the first output scratch, at column offset `640 n`, restated at `GT`. -/
theorem out_pts0_at (d : Dev nD) (L : grid0.Coords) (A : Buf (Elt F) (aLoc d)) (hA : ∀ i, A i = 0#32 ∨ A i = 1#32)
    (B0 : Buf (Elt F) (w0Loc d)) (B1 : Buf (Elt F) (w1Loc d)) (B2 : Buf (Elt F) (w2Loc d))
    (TT : FVec F S64x16 .f32) (hT : IsTable (F := F) B0 B1 B2 TT)
    (fA : Buf (Elt F) ((thr d L).loc cc0_scratch0)) (oc : Buf (Elt F) (oLoc d))
    (offA : Fin 2 → ℕ) (hoA : ∀ a, offA a + S3x640.size a ≤ S3x800000.size a)
    (offO : Fin 2 → ℕ) (hoO : ∀ a, offO a + S64x640.size a ≤ S64x800000.size a)
    (n : ℕ) (eA : offA = ![0, 640 * n]) (eO : offO = ![0, 640 * n]) :
    ((oSl offO hoO).view.loc (thr d L) ↦[(oSl offO hoO).view.set]{fullShare}
        (oSl offO hoO).view.writes (Elt F) oc [⟨Rect.whole S64x640,
          ReadAs.same.apply (View.read (Elt F) (sO0 : Memref sig .scVector .vmem S64x640 .f32).view
            (gathered (F := F) (View.write (Elt F) (sA0 : Memref sig .scVector .vmem S3x640 .i32).view fA
              (payA d A offA hoA) Finset.univ) TT))⟩] : sProp 𝕄)
      = ((oSl offO hoO).view.loc (thr d L) ↦[(oSl offO hoO).view.set]{fullShare} GT (F := F) A B0 B1 B2) :=
  pointsTo_congr (out_val0_at d L A hA B0 B1 B2 TT hT fA oc offA hoA offO hoO n eA eO)

/-- The same for the second output scratch. -/
theorem out_pts1_at (d : Dev nD) (L : grid0.Coords) (A : Buf (Elt F) (aLoc d)) (hA : ∀ i, A i = 0#32 ∨ A i = 1#32)
    (B0 : Buf (Elt F) (w0Loc d)) (B1 : Buf (Elt F) (w1Loc d)) (B2 : Buf (Elt F) (w2Loc d))
    (TT : FVec F S64x16 .f32) (hT : IsTable (F := F) B0 B1 B2 TT)
    (fA : Buf (Elt F) ((thr d L).loc cc0_scratch1)) (oc : Buf (Elt F) (oLoc d))
    (offA : Fin 2 → ℕ) (hoA : ∀ a, offA a + S3x640.size a ≤ S3x800000.size a)
    (offO : Fin 2 → ℕ) (hoO : ∀ a, offO a + S64x640.size a ≤ S64x800000.size a)
    (n : ℕ) (eA : offA = ![0, 640 * n]) (eO : offO = ![0, 640 * n]) :
    ((oSl offO hoO).view.loc (thr d L) ↦[(oSl offO hoO).view.set]{fullShare}
        (oSl offO hoO).view.writes (Elt F) oc [⟨Rect.whole S64x640,
          ReadAs.same.apply (View.read (Elt F) (sO1 : Memref sig .scVector .vmem S64x640 .f32).view
            (gathered (F := F) (View.write (Elt F) (sA1 : Memref sig .scVector .vmem S3x640 .i32).view fA
              (payA d A offA hoA) Finset.univ) TT))⟩] : sProp 𝕄)
      = ((oSl offO hoO).view.loc (thr d L) ↦[(oSl offO hoO).view.set]{fullShare} GT (F := F) A B0 B1 B2) :=
  pointsTo_congr (out_val1_at d L A hA B0 B1 B2 TT hT fA oc offA hoA offO hoO n eA eO)

end Cert.Proof.KB

end
-- ==== Proof.KBCond.lean ====
/-
  The pair loop's conditions in closed form: round `p` works on the tile's chunks `2p+1` and `2p+2`, each only if its
  number `wid L + 32 i` is below 1250, and prefetches the next one under the same test.
-/
import proofs.«203793_g3813930959492_cont_8to1_b_1292_12_alg».proof.Proof.KBDefs

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

omit [FloatOps F] in
theorem cond1_eq : ∀ L : grid0.Coords, k0_cond1 L = 1#1 := by decide +kernel
omit [FloatOps F] in
theorem cond2_eq : ∀ (L : grid0.Coords) (p : Fin k0_t2_loop.trips), k0_cond2 L p = if wid L + 32 * (2 * p.val + 1) < 1250 then 1#1 else 0#1 := by
  unfold wid; decide +kernel
omit [FloatOps F] in
theorem cond3_eq : ∀ (L : grid0.Coords) (p : Fin k0_t2_loop.trips), k0_cond3 L p = if wid L + 32 * (2 * p.val + 2) < 1250 then 1#1 else 0#1 := by
  unfold wid; decide +kernel
omit [FloatOps F] in
theorem cond5_eq : ∀ (L : grid0.Coords) (p : Fin k0_t2_loop.trips), k0_cond5 L p = if wid L + 32 * (2 * p.val + 2) < 1250 then 1#1 else 0#1 := by
  unfold wid; decide +kernel
omit [FloatOps F] in
theorem cond6_eq : ∀ (L : grid0.Coords) (p : Fin k0_t2_loop.trips), k0_cond6 L p = if wid L + 32 * (2 * p.val + 3) < 1250 then 1#1 else 0#1 := by
  unfold wid; decide +kernel

end Cert.Proof.KB

end
-- ==== Proof.KBFacts.lean ====
/-
  The printed chunk offsets are the tile's chunk offsets; slices of the index array at different chunks do not meet.
-/
import proofs.«203793_g3813930959492_cont_8to1_b_1292_12_alg».proof.Proof.KBIface
import proofs.«203793_g3813930959492_cont_8to1_b_1292_12_alg».proof.Proof.KBChunks

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

omit [FloatOps F] in
theorem offI_chunk (L : grid0.Coords) (i : ℕ) : offI L i = ![0, 640 * (wid L + 32 * i)] := by
  unfold offI wid
  rw [show 1280 * (L 1).val + 640 * (L 0).val + 20480 * i = 640 * ((L 1).val * 2 + (L 0).val + 32 * i) by ring]

omit [FloatOps F] in
theorem offP71 (L : grid0.Coords) (p : Fin k0_t2_loop.trips) : k0_off71 L p = offI L (2 * p.val + 2) := by
  rw [k0_off71_eq]; unfold offI
  rw [show 1280 * (L 1).val + 640 * (L 0).val + 40960 * p.val + 40960 = 1280 * (L 1).val + 640 * (L 0).val + 20480 * (2 * p.val + 2) by ring]
omit [FloatOps F] in
theorem offP140 (L : grid0.Coords) (p : Fin k0_t2_loop.trips) : k0_off140 L p = offI L (2 * p.val + 3) := by
  rw [k0_off140_eq]; unfold offI
  rw [show 1280 * (L 1).val + 640 * (L 0).val + 40960 * p.val + 61440 = 1280 * (L 1).val + 640 * (L 0).val + 20480 * (2 * p.val + 3) by ring]
omit [FloatOps F] in
theorem offP139 (L : grid0.Coords) (p : Fin k0_t2_loop.trips) : k0_off139 L p = offI L (2 * p.val + 1) := by
  rw [k0_off139_eq]; unfold offI
  rw [show 1280 * (L 1).val + 640 * (L 0).val + 40960 * p.val + 20480 = 1280 * (L 1).val + 640 * (L 0).val + 20480 * (2 * p.val + 1) by ring]
omit [FloatOps F] in
theorem offP208 (L : grid0.Coords) (p : Fin k0_t2_loop.trips) : k0_off208 L p = offI L (2 * p.val + 2) := by
  rw [k0_off208_eq]; unfold offI
  rw [show 1280 * (L 1).val + 640 * (L 0).val + 40960 * p.val + 40960 = 1280 * (L 1).val + 640 * (L 0).val + 20480 * (2 * p.val + 2) by ring]

omit [FloatOps F] in
/-- Slices of the index array at two different chunks share no element. -/
theorem aSl_disjoint (off off' : Fin 2 → ℕ) (h : ∀ a, off a + S3x640.size a ≤ S3x800000.size a) (h' : ∀ a, off' a + S3x640.size a ≤ S3x800000.size a)
    (n n' : ℕ) (e : off = ![0, 640 * n]) (e' : off' = ![0, 640 * n']) (hne : n ≠ n') :
    Disjoint (aSl off h).view.set (aSl off' h').view.set := by
  refine Finset.disjoint_left.mpr fun idx h1 h2 => hne ?_
  rw [aSl_mem_set off h n e] at h1
  rw [aSl_mem_set off' h' n' e'] at h2
  omega

end Cert.Proof.KB

end
-- ==== Proof.KBTable.lean ====
/-
  The lookup table a tile builds before its first chunk.

  The prologue copies rows 0 and 1 of the three weight tables into three scratches and then, for every column
  `r = 0 … 7` and every block `b = 0 … 3` of sixteen rows, stores into the table scratch's column `r`, rows
  `16 b … 16 b + 15`, the sixteen sums `(W0[a0, j] + W1[a1, j]) + W2[a2, j]`, `j = 16 b … 16 b + 15`, where
  `(a0, a1, a2) = (r / 4 % 2, r / 2 % 2, r % 2)` are the three bits of `r`. Each store is a whole-buffer write over
  the read-back of the stores before it, so the 32 stores leave the 32 updates applied in turn: the table.
-/
import proofs.«203793_g3813930959492_cont_8to1_b_1292_12_alg».proof.Proof.KBValue
import proofs.«203793_g3813930959492_cont_8to1_b_1292_12_alg».proof.Proof.KIMath
import Idealize.ShloMosaic.Lib.ValueLayout
import Idealize.ShloMosaic.Lib.Pipeline.FrameBody

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The pieces of one store -/

/-- The lane register: lane `x` holds the word `x`. -/
abbrev tIo : IVec S16 32 := iota .scVector S16 32 [0] iota_S16_d0_w32_scVector

theorem tIo_apply (x : S16.Idx) : tIo x = BitVec.ofNat 32 (x 0 : Fin 16).val :=
  KIMath.iota16_apply iota_S16_d0_w32_scVector x

theorem ldW_inb (a c : ℕ) : ∀ x, (![a % 2, c % 49] : Fin 2 → ℕ) x + S1x16.size x ≤ S2x64.size x :=
  Rect.inb₂ (d := ![2, 64]) (off := ![a % 2, c % 49]) (size := ![1, 16])
    (by show a % 2 + 1 ≤ 2; omega) (by show c % 49 + 16 ≤ 64; omega)

/-- Sixteen consecutive entries of a row of a weight scratch: row `a` (0 or 1), columns `c … c + 15` (`c ≤ 48`). -/
def ldW (v : View sig .scVector .vmem S2x64 .f32) (Ws : v.ty.Contents (Elt F)) (a c : ℕ) : Vec F S1x16 .f32 :=
  View.readAt (Elt F) v (Rect.unit (s := S2x64) ![a % 2, c % 49] S1x16.size (ldW_inb a c)).toLoadRect Ws

/-- The sum of three such loads, lane by lane. -/
def payOf (l0 l1 l2 : Vec F S1x16 .f32) : FVec F S16 .f32 :=
  have v15 : Vec F S16 .f32 := shapeCast S16 l0 shapeCasts_S1x16_S16
  have v17 : Vec F S16 .f32 := shapeCast S16 l1 shapeCasts_S1x16_S16
  have v18 : FVec F S16 .f32 := addf v15 v17
  have v20 : Vec F S16 .f32 := shapeCast S16 l2 shapeCasts_S1x16_S16
  have v21 : FVec F S16 .f32 := addf v18 v20
  v21

/-- What is stored into column `r`, block `b`: the three rows the bits of `r` name, lanes `16 b … 16 b + 15`, added. -/
def tV (W0s : (sW0 : Memref sig .scVector .vmem S2x64 .f32).view.ty.Contents (Elt F))
    (W1s : (sW1 : Memref sig .scVector .vmem S2x64 .f32).view.ty.Contents (Elt F))
    (W2s : (sW2 : Memref sig .scVector .vmem S2x64 .f32).view.ty.Contents (Elt F)) (r b : ℕ) : Vec F S16 .f32 :=
  payOf (ldW (sW0 : Memref sig .scVector .vmem S2x64 .f32).view W0s (r / 4 % 2) (16 * b))
    (ldW (sW1 : Memref sig .scVector .vmem S2x64 .f32).view W1s (r / 2 % 2) (16 * b))
    (ldW (sW2 : Memref sig .scVector .vmem S2x64 .f32).view W2s (r % 2) (16 * b))

/-- A store's indices are inside the table: rows `16 b + x < 64`, column `r < 16`. -/
theorem tInb (r b : ℕ) (hr : r < 16) (hb : b < 4) :
    ∀ a x, ((![KIMath.rowIdx b tIo, KIMath.colIdx r] : Fin 2 → IVec S16 32) a x).toNat < S64x16.size a := by
  intro a x
  match a with
  | ⟨0, _⟩ =>
    show (KIMath.rowIdx b tIo x).toNat < 64
    rw [KIMath.rowIdx_toNat tIo tIo_apply b hb x]
    have hx : (x 0 : Fin 16).val < 16 := (x 0 : Fin 16).isLt
    omega
  | ⟨1, _⟩ =>
    show (KIMath.colIdx r x).toNat < 16
    rw [KIMath.colIdx_toNat r hr x]
    exact hr

/-- The read-back after a store over the read-back `f` of the earlier ones is the earlier contents with one block of one
    column replaced. -/
theorem tF_step (Lprev : List (View.Piece (Elt F) S64x16 .f32)) (f g : Vec F S64x16 .f32) (r b : ℕ) (hr : r < 16) (hb : b < 4)
    (W0s : (sW0 : Memref sig .scVector .vmem S2x64 .f32).view.ty.Contents (Elt F))
    (W1s : (sW1 : Memref sig .scVector .vmem S2x64 .f32).view.ty.Contents (Elt F))
    (W2s : (sW2 : Memref sig .scVector .vmem S2x64 .f32).view.ty.Contents (Elt F)) (hfg : f = g) :
    (sT : Memref sig .scVector .vmem S64x16 .f32).view.readCov
        (⟨Rect.whole S64x16, storeIdx f ![KIMath.rowIdx b tIo, KIMath.colIdx r] (tV W0s W1s W2s r b) (fun _ => 1#1) false
          (tInb r b hr hb)⟩ :: Lprev) (LoadRect.whole S64x16)
      = KIMath.tblStep g b r (tV W0s W1s W2s r b) := by
  subst hfg
  have h := View.readCov_cons_toLoadRect (Val := Elt F) (sT : Memref sig .scVector .vmem S64x16 .f32).view (Rect.whole S64x16)
    (storeIdx f ![KIMath.rowIdx b tIo, KIMath.colIdx r] (tV W0s W1s W2s r b) (fun _ => 1#1) false (tInb r b hr hb)) Lprev
  exact h.trans (KIMath.storeIdx_tblStep tIo tIo_apply f b r hb hr (tV W0s W1s W2s r b) (tInb r b hr hb))

/-! ## The 32 stores as a chain, each over the read-back of the ones before -/

/-- Store number `k` (0 … 31) over the read-back `f`: column `k / 4`, block `k % 4`. -/
def tPiece (W0s : (sW0 : Memref sig .scVector .vmem S2x64 .f32).view.ty.Contents (Elt F))
    (W1s : (sW1 : Memref sig .scVector .vmem S2x64 .f32).view.ty.Contents (Elt F))
    (W2s : (sW2 : Memref sig .scVector .vmem S2x64 .f32).view.ty.Contents (Elt F)) (k : ℕ) (hk : k < 32) (f : Vec F S64x16 .f32) : View.Piece (Elt F) S64x16 .f32 :=
  ⟨Rect.whole S64x16, storeIdx f ![KIMath.rowIdx (k % 4) tIo, KIMath.colIdx (k / 4)] (tV W0s W1s W2s (k / 4) (k % 4)) (fun _ => 1#1) false
    (tInb (k / 4) (k % 4) (by omega) (by omega))⟩

/-- What the table scratch reads after the first `k` stores, as updates applied in turn to its first contents `f0`. -/
def gOf (W0s : (sW0 : Memref sig .scVector .vmem S2x64 .f32).view.ty.Contents (Elt F))
    (W1s : (sW1 : Memref sig .scVector .vmem S2x64 .f32).view.ty.Contents (Elt F))
    (W2s : (sW2 : Memref sig .scVector .vmem S2x64 .f32).view.ty.Contents (Elt F)) (f0 : Vec F S64x16 .f32) : ℕ → Vec F S64x16 .f32
  | 0 => f0
  | k + 1 => KIMath.tblStep (gOf W0s W1s W2s f0 k) (k % 4) (k / 4) (tV W0s W1s W2s (k / 4) (k % 4))

/-- `IsChain … k P`: the list `P` (newest first) is the first `k` stores, each a whole-buffer write of the indexed store over
    the read-back of the list before it (the first over the scratch's first contents `f0`). -/
inductive IsChain (W0s : (sW0 : Memref sig .scVector .vmem S2x64 .f32).view.ty.Contents (Elt F))
    (W1s : (sW1 : Memref sig .scVector .vmem S2x64 .f32).view.ty.Contents (Elt F))
    (W2s : (sW2 : Memref sig .scVector .vmem S2x64 .f32).view.ty.Contents (Elt F)) (f0 : Vec F S64x16 .f32) : ℕ → List (View.Piece (Elt F) S64x16 .f32) → Prop
  | nil : IsChain W0s W1s W2s f0 0 []
  | cons {k : ℕ} {P : List (View.Piece (Elt F) S64x16 .f32)} {f : Vec F S64x16 .f32} (hk : k < 32)
      (hc : IsChain W0s W1s W2s f0 k P) (p : View.Piece (Elt F) S64x16 .f32) (hp : p = tPiece W0s W1s W2s k hk f)
      (hf : f = if k = 0 then f0 else (sT : Memref sig .scVector .vmem S64x16 .f32).view.readCov P (LoadRect.whole S64x16)) :
      IsChain W0s W1s W2s f0 (k + 1) (p :: P)

/-- After a chain of `k` stores the scratch reads `gOf k`. -/
theorem IsChain.readback (W0s : (sW0 : Memref sig .scVector .vmem S2x64 .f32).view.ty.Contents (Elt F))
    (W1s : (sW1 : Memref sig .scVector .vmem S2x64 .f32).view.ty.Contents (Elt F))
    (W2s : (sW2 : Memref sig .scVector .vmem S2x64 .f32).view.ty.Contents (Elt F)) (f0 : Vec F S64x16 .f32) {k : ℕ} {P : List (View.Piece (Elt F) S64x16 .f32)}
    (h : IsChain W0s W1s W2s f0 k P) :
    (if k = 0 then f0 else ((sT : Memref sig .scVector .vmem S64x16 .f32).view.readCov P (LoadRect.whole S64x16) : Vec F S64x16 .f32))
      = gOf W0s W1s W2s f0 k := by
  induction h with
  | nil => rfl
  | cons hk hc p hp hf ih =>
    rw [if_neg (Nat.succ_ne_zero _)]
    subst hp
    exact tF_step _ _ _ _ _ (by omega) (by omega) W0s W1s W2s (hf.trans ih)

/-! ## What the stores leave, element by element -/

theorem whole_idx (x : (LoadRect.whole S64x16).shape.Idx) : (LoadRect.whole S64x16).idx x = x := by
  funext a
  refine Fin.ext ?_
  rw [LoadRect.idx_apply]
  show 0 + 1 * (x a).val = (x a).val
  omega

/-- After a chain of 32 stores the scratch holds the 32 updates applied in turn. -/
theorem tFinal (W0s : (sW0 : Memref sig .scVector .vmem S2x64 .f32).view.ty.Contents (Elt F))
    (W1s : (sW1 : Memref sig .scVector .vmem S2x64 .f32).view.ty.Contents (Elt F))
    (W2s : (sW2 : Memref sig .scVector .vmem S2x64 .f32).view.ty.Contents (Elt F)) (f0 : Vec F S64x16 .f32) (P : List (View.Piece (Elt F) S64x16 .f32)) (hP : IsChain W0s W1s W2s f0 32 P) (i : S64x16.Idx) :
    ((sT : Memref sig .scVector .vmem S64x16 .f32).view.writes (Elt F) (sT : Memref sig .scVector .vmem S64x16 .f32).view.junk P) i
      = gOf W0s W1s W2s f0 32 i := by
  have h := congrFun (hP.readback W0s W1s W2s f0) i
  rw [if_neg (by decide)] at h
  have e : ((sT : Memref sig .scVector .vmem S64x16 .f32).view.readCov P (LoadRect.whole S64x16) : Vec F S64x16 .f32) i
      = ((sT : Memref sig .scVector .vmem S64x16 .f32).view.writes (Elt F) (sT : Memref sig .scVector .vmem S64x16 .f32).view.junk P) i := by
    show View.readAt (Elt F) (sT : Memref sig .scVector .vmem S64x16 .f32).view (LoadRect.whole S64x16)
      ((sT : Memref sig .scVector .vmem S64x16 .f32).view.writes (Elt F) (sT : Memref sig .scVector .vmem S64x16 .f32).view.junk P) i = _
    rw [View.readAt_apply, View.read_apply, whole_idx]
    exact cast_eq _ _
  exact e.symm.trans h

/-- The 32 updates applied in turn fill columns 0 to 7 with the stored vectors and leave the other columns. -/
theorem gOf32_eq (W0s : (sW0 : Memref sig .scVector .vmem S2x64 .f32).view.ty.Contents (Elt F))
    (W1s : (sW1 : Memref sig .scVector .vmem S2x64 .f32).view.ty.Contents (Elt F))
    (W2s : (sW2 : Memref sig .scVector .vmem S2x64 .f32).view.ty.Contents (Elt F)) (f0 : Vec F S64x16 .f32) :
    gOf W0s W1s W2s f0 32 = KIMath.tblOf (tV W0s W1s W2s) f0 :=
  KIMath.tbl_all (tV W0s W1s W2s) f0

theorem ldW0_apply (Ws : (sW0 : Memref sig .scVector .vmem S2x64 .f32).view.ty.Contents (Elt F)) (a c : ℕ) (x : Fin 16) :
    ldW (sW0 : Memref sig .scVector .vmem S2x64 .f32).view Ws a c (ValueIdx.ix2 (0 : Fin 1) x)
      = Ws (ValueIdx.ix2 (⟨a % 2, Nat.mod_lt _ (by decide)⟩ : Fin 2) (⟨c % 49 + x.val, by have := x.isLt; omega⟩ : Fin 64)) := by
  unfold ldW
  rw [View.readAt_apply, View.read_apply]
  refine (cast_eq _ _).trans (congrArg Ws ?_)
  funext a'
  refine Fin.ext ?_
  match a' with
  | ⟨0, _⟩ => show a % 2 + 1 * 0 = a % 2; omega
  | ⟨1, _⟩ => show c % 49 + 1 * x.val = c % 49 + x.val; omega

theorem ldW1_apply (Ws : (sW1 : Memref sig .scVector .vmem S2x64 .f32).view.ty.Contents (Elt F)) (a c : ℕ) (x : Fin 16) :
    ldW (sW1 : Memref sig .scVector .vmem S2x64 .f32).view Ws a c (ValueIdx.ix2 (0 : Fin 1) x)
      = Ws (ValueIdx.ix2 (⟨a % 2, Nat.mod_lt _ (by decide)⟩ : Fin 2) (⟨c % 49 + x.val, by have := x.isLt; omega⟩ : Fin 64)) := by
  unfold ldW
  rw [View.readAt_apply, View.read_apply]
  refine (cast_eq _ _).trans (congrArg Ws ?_)
  funext a'
  refine Fin.ext ?_
  match a' with
  | ⟨0, _⟩ => show a % 2 + 1 * 0 = a % 2; omega
  | ⟨1, _⟩ => show c % 49 + 1 * x.val = c % 49 + x.val; omega

theorem ldW2_apply (Ws : (sW2 : Memref sig .scVector .vmem S2x64 .f32).view.ty.Contents (Elt F)) (a c : ℕ) (x : Fin 16) :
    ldW (sW2 : Memref sig .scVector .vmem S2x64 .f32).view Ws a c (ValueIdx.ix2 (0 : Fin 1) x)
      = Ws (ValueIdx.ix2 (⟨a % 2, Nat.mod_lt _ (by decide)⟩ : Fin 2) (⟨c % 49 + x.val, by have := x.isLt; omega⟩ : Fin 64)) := by
  unfold ldW
  rw [View.readAt_apply, View.read_apply]
  refine (cast_eq _ _).trans (congrArg Ws ?_)
  funext a'
  refine Fin.ext ?_
  match a' with
  | ⟨0, _⟩ => show a % 2 + 1 * 0 = a % 2; omega
  | ⟨1, _⟩ => show c % 49 + 1 * x.val = c % 49 + x.val; omega

/-- Lane `x` of what is stored into column `r`, block `b`. -/
theorem tV_apply (W0s : (sW0 : Memref sig .scVector .vmem S2x64 .f32).view.ty.Contents (Elt F))
    (W1s : (sW1 : Memref sig .scVector .vmem S2x64 .f32).view.ty.Contents (Elt F))
    (W2s : (sW2 : Memref sig .scVector .vmem S2x64 .f32).view.ty.Contents (Elt F)) (r b : ℕ) (x : Fin 16) :
    tV W0s W1s W2s r b (KIMath.lane x) = FloatOps.addf
      (FloatOps.addf
        (W0s (ValueIdx.ix2 (⟨r / 4 % 2 % 2, Nat.mod_lt _ (by decide)⟩ : Fin 2) (⟨16 * b % 49 + x.val, by have := x.isLt; omega⟩ : Fin 64)))
        (W1s (ValueIdx.ix2 (⟨r / 2 % 2 % 2, Nat.mod_lt _ (by decide)⟩ : Fin 2) (⟨16 * b % 49 + x.val, by have := x.isLt; omega⟩ : Fin 64))))
      (W2s (ValueIdx.ix2 (⟨r % 2 % 2, Nat.mod_lt _ (by decide)⟩ : Fin 2) (⟨16 * b % 49 + x.val, by have := x.isLt; omega⟩ : Fin 64))) := by
  unfold tV payOf
  show FloatOps.addf
      (FloatOps.addf
        (shapeCast S16 (ldW (sW0 : Memref sig .scVector .vmem S2x64 .f32).view W0s (r / 4 % 2) (16 * b)) shapeCasts_S1x16_S16 (ValueIdx.ix1 x))
        (shapeCast S16 (ldW (sW1 : Memref sig .scVector .vmem S2x64 .f32).view W1s (r / 2 % 2) (16 * b)) shapeCasts_S1x16_S16 (ValueIdx.ix1 x)))
      (shapeCast S16 (ldW (sW2 : Memref sig .scVector .vmem S2x64 .f32).view W2s (r % 2) (16 * b)) shapeCasts_S1x16_S16 (ValueIdx.ix1 x)) = _
  rw [ValueIdx.shapeCast_1a_a_apply, ValueIdx.shapeCast_1a_a_apply, ValueIdx.shapeCast_1a_a_apply, ldW0_apply, ldW1_apply, ldW2_apply]

/-- Weight scratch 0 after its copy-in: rows 0 and 1 of weight table 0. -/
def wS0 (d : Dev nD) (L : grid0.Coords) (B : Buf (Elt F) (w0Loc d)) (fW : Buf (Elt F) ((thr d L).loc cc0_scratch4)) :
    (sW0 : Memref sig .scVector .vmem S2x64 .f32).view.ty.Contents (Elt F) :=
  View.write (Elt F) (sW0 : Memref sig .scVector .vmem S2x64 .f32).view fW
    (ReadAs.same.apply (View.read (Elt F)
      ((w0V : Memref sig .scVector .hbm S20x64 .f32).slice (Rect.unit (s := S20x64) ![0, 0] S2x64.size inb_S20x64_S2x64_0_0) (fun _ => rfl)).view B))
    Finset.univ

theorem wS0_apply (d : Dev nD) (L : grid0.Coords) (B : Buf (Elt F) (w0Loc d)) (fW : Buf (Elt F) ((thr d L).loc cc0_scratch4))
    (a : Fin 2) (c : Fin 64) :
    wS0 d L B fW (ValueIdx.ix2 a c) = B (ValueIdx.ix2 ((a.castLE (by decide) : Fin 20)) c) := by
  have e : wS0 d L B fW = ReadAs.same.apply (View.read (Elt F)
      ((w0V : Memref sig .scVector .hbm S20x64 .f32).slice (Rect.unit (s := S20x64) ![0, 0] S2x64.size inb_S20x64_S2x64_0_0) (fun _ => rfl)).view B) :=
    View.write_whole_univ _ _ _
  rw [e]
  refine ((View.read_apply _ _).trans (cast_eq _ _)).trans (congrArg B ?_)
  funext a'
  refine Fin.ext ?_
  match a' with
  | ⟨0, _⟩ => show 0 + 1 * a.val = a.val; omega
  | ⟨1, _⟩ => show 0 + 1 * c.val = c.val; omega

/-- Weight scratch 1 after its copy-in: rows 0 and 1 of weight table 1. -/
def wS1 (d : Dev nD) (L : grid0.Coords) (B : Buf (Elt F) (w1Loc d)) (fW : Buf (Elt F) ((thr d L).loc cc0_scratch5)) :
    (sW1 : Memref sig .scVector .vmem S2x64 .f32).view.ty.Contents (Elt F) :=
  View.write (Elt F) (sW1 : Memref sig .scVector .vmem S2x64 .f32).view fW
    (ReadAs.same.apply (View.read (Elt F)
      ((w1V : Memref sig .scVector .hbm S10x64 .f32).slice (Rect.unit (s := S10x64) ![0, 0] S2x64.size inb_S10x64_S2x64_0_0) (fun _ => rfl)).view B))
    Finset.univ

theorem wS1_apply (d : Dev nD) (L : grid0.Coords) (B : Buf (Elt F) (w1Loc d)) (fW : Buf (Elt F) ((thr d L).loc cc0_scratch5))
    (a : Fin 2) (c : Fin 64) :
    wS1 d L B fW (ValueIdx.ix2 a c) = B (ValueIdx.ix2 ((a.castLE (by decide) : Fin 10)) c) := by
  have e : wS1 d L B fW = ReadAs.same.apply (View.read (Elt F)
      ((w1V : Memref sig .scVector .hbm S10x64 .f32).slice (Rect.unit (s := S10x64) ![0, 0] S2x64.size inb_S10x64_S2x64_0_0) (fun _ => rfl)).view B) :=
    View.write_whole_univ _ _ _
  rw [e]
  refine ((View.read_apply _ _).trans (cast_eq _ _)).trans (congrArg B ?_)
  funext a'
  refine Fin.ext ?_
  match a' with
  | ⟨0, _⟩ => show 0 + 1 * a.val = a.val; omega
  | ⟨1, _⟩ => show 0 + 1 * c.val = c.val; omega

/-- Weight scratch 2 after its copy-in: rows 0 and 1 of weight table 2. -/
def wS2 (d : Dev nD) (L : grid0.Coords) (B : Buf (Elt F) (w2Loc d)) (fW : Buf (Elt F) ((thr d L).loc cc0_scratch6)) :
    (sW2 : Memref sig .scVector .vmem S2x64 .f32).view.ty.Contents (Elt F) :=
  View.write (Elt F) (sW2 : Memref sig .scVector .vmem S2x64 .f32).view fW
    (ReadAs.same.apply (View.read (Elt F)
      ((w2V : Memref sig .scVector .hbm S2x64 .f32).slice (Rect.unit (s := S2x64) ![0, 0] S2x64.size inb_S2x64_S2x64_0_0) (fun _ => rfl)).view B))
    Finset.univ

theorem wS2_apply (d : Dev nD) (L : grid0.Coords) (B : Buf (Elt F) (w2Loc d)) (fW : Buf (Elt F) ((thr d L).loc cc0_scratch6))
    (a : Fin 2) (c : Fin 64) :
    wS2 d L B fW (ValueIdx.ix2 a c) = B (ValueIdx.ix2 (a) c) := by
  have e : wS2 d L B fW = ReadAs.same.apply (View.read (Elt F)
      ((w2V : Memref sig .scVector .hbm S2x64 .f32).slice (Rect.unit (s := S2x64) ![0, 0] S2x64.size inb_S2x64_S2x64_0_0) (fun _ => rfl)).view B) :=
    View.write_whole_univ _ _ _
  rw [e]
  refine ((View.read_apply _ _).trans (cast_eq _ _)).trans (congrArg B ?_)
  funext a'
  refine Fin.ext ?_
  match a' with
  | ⟨0, _⟩ => show 0 + 1 * a.val = a.val; omega
  | ⟨1, _⟩ => show 0 + 1 * c.val = c.val; omega

theorem B_congr {n : ℕ} (B : FVec F ⟨2, ![n, 64]⟩ .f32) {a a' : Fin n} {c c' : Fin 64} (ha : a.val = a'.val) (hc : c.val = c'.val) :
    B (ValueIdx.ix2 a c) = B (ValueIdx.ix2 a' c') := by
  obtain rfl := Fin.ext ha
  obtain rfl := Fin.ext hc
  rfl

/-! ## The table -/

/-- What a chain of the prologue's 32 indexed stores leaves in the table scratch is the table. -/
theorem table_of_chain (d : Dev nD) (L : grid0.Coords) (B0 : Buf (Elt F) (w0Loc d)) (B1 : Buf (Elt F) (w1Loc d)) (B2 : Buf (Elt F) (w2Loc d))
    (fW0 : Buf (Elt F) ((thr d L).loc cc0_scratch4)) (fW1 : Buf (Elt F) ((thr d L).loc cc0_scratch5))
    (fW2 : Buf (Elt F) ((thr d L).loc cc0_scratch6)) (fT : Buf (Elt F) ((thr d L).loc cc0_scratch7))
    (P : List (View.Piece (Elt F) S64x16 .f32))
    (hP : IsChain (wS0 d L B0 fW0) (wS1 d L B1 fW1) (wS2 d L B2 fW2)
      (View.readAt (Elt F) (sT : Memref sig .scVector .vmem S64x16 .f32).view (LoadRect.whole S64x16) fT) 32 P) :
    IsTable (F := F) B0 B1 B2
      ((sT : Memref sig .scVector .vmem S64x16 .f32).view.writes (Elt F) (sT : Memref sig .scVector .vmem S64x16 .f32).view.junk P) := by
  intro j r hr
  have hj : j.val < 64 := j.isLt
  rw [tFinal _ _ _ _ P hP, gOf32_eq]
  unfold KIMath.tblOf
  rw [if_pos (show ((ValueIdx.ix2 j r : S64x16.Idx) 1 : Fin 16).val < 8 from hr)]
  show tV (wS0 d L B0 fW0) (wS1 d L B1 fW1) (wS2 d L B2 fW2) r.val (j.val / 16)
      (KIMath.lane ⟨j.val % 16, Nat.mod_lt _ (by decide)⟩) = _
  rw [tV_apply, wS0_apply, wS1_apply, wS2_apply]
  exact congrArg₂ FloatOps.addf
    (congrArg₂ FloatOps.addf
      (B_congr B0 (by show r.val / 4 % 2 % 2 = r.val / 4 % 2; omega) (by show 16 * (j.val / 16) % 49 + j.val % 16 = j.val; omega))
      (B_congr B1 (by show r.val / 2 % 2 % 2 = r.val / 2 % 2; omega) (by show 16 * (j.val / 16) % 49 + j.val % 16 = j.val; omega)))
    (B_congr B2 (by show r.val % 2 % 2 = r.val % 2; omega) (by show 16 * (j.val / 16) % 49 + j.val % 16 = j.val; omega))

/-- How to use `table_of_chain` on a list of 32 pieces given as a literal: one `IsChain.cons` per piece, newest first; the
    piece's indices and payload and the read-back it is over are matched by unfolding (one level each). -/
macro "table_chain" : tactic =>
  `(tactic| repeat (first | exact IsChain.nil | refine IsChain.cons (by decide) ?_ _ rfl rfl))

end Cert.Proof.KB

end
-- ==== Proof.KBTile.lean ====
/-
  A tile's whole task from its two loops: the three weight rows are copied in and the table of the eight sums is built;
  the first chunk's index words arrive, the first pass gathers its columns and the first copy-out starts; the pair loop
  takes the state before its first round to the state after its last; the two copies still on their way out land, and
  the tile's columns of the result all hold the sums.
-/
import proofs.«203793_g3813930959492_cont_8to1_b_1292_12_alg».proof.Proof.KBValue
import proofs.«203793_g3813930959492_cont_8to1_b_1292_12_alg».proof.Proof.KBCond
import proofs.«203793_g3813930959492_cont_8to1_b_1292_12_alg».proof.Proof.KBFacts
import proofs.«203793_g3813930959492_cont_8to1_b_1292_12_alg».proof.Proof.KBTable

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- The first pass over a chunk, as a step of a run: from the first index scratch, the table and the first output scratch
    the rest of the program runs with the output scratch holding the gathered table entries. -/
def ComputeT1 : Prop :=
  ∀ (d : Dev nD) (L : grid0.Coords) (AA : Buf (Elt F) ((thr d L).loc cc0_scratch0)), (∀ i, AA i = 0#32 ∨ AA i = 1#32) →
  ∀ (TT : Buf (Elt F) ((thr d L).loc cc0_scratch7)) (fO : Buf (Elt F) ((thr d L).loc cc0_scratch2))
    (α : Type) (k : BitVec 32 → Prog (TpuEff nD τ sig (Elt F) Λ₀ (.scVector (cV L) (jV L))) α) (Q : α → sProp 𝕄),
    (iprop(((sA0 : Memref sig .scVector .vmem S3x640 .i32).view.loc (thr d L) ↦{fullShare} AA)
        ∗ ((sT : Memref sig .scVector .vmem S64x16 .f32).view.loc (thr d L) ↦{fullShare} TT)
        ∗ ((sO0 : Memref sig .scVector .vmem S64x640 .f32).view.loc (thr d L) ↦{fullShare} fO)
        ∗ (∀ acc, iprop(((sA0 : Memref sig .scVector .vmem S3x640 .i32).view.loc (thr d L) ↦{fullShare} AA)
              ∗ ((sT : Memref sig .scVector .vmem S64x16 .f32).view.loc (thr d L) ↦{fullShare} TT)
              ∗ ((sO0 : Memref sig .scVector .vmem S64x640 .f32).view.loc (thr d L) ↦{fullShare} gathered (F := F) AA TT))
            -∗ wp frame (wpE (defs₀ (F := F)) 𝒱₀ (thr d L) none) Set.univ (k acc) Q)) : sProp 𝕄)
      ⊢ wp frame (wpE (defs₀ (F := F)) 𝒱₀ (thr d L) none) Set.univ
          (Scf.Loop.for k0_t1_loop k0_t1_ok 0#32 (k0_t1_body (F := F) L aV (Memref.isWhole_whole _) w0V (Memref.isWhole_whole _) w1V (Memref.isWhole_whole _) w2V (Memref.isWhole_whole _) oV (Memref.isWhole_whole _) sA0 (Memref.isWhole_whole _) sA1 (Memref.isWhole_whole _) sO0 (Memref.isWhole_whole _) sO1 (Memref.isWhole_whole _) sW0 (Memref.isWhole_whole _) sW1 (Memref.isWhole_whole _) sW2 (Memref.isWhole_whole _) sT (Memref.isWhole_whole _) cc0_scratch8 cc0_scratch9 cc0_scratch10 cc0_scratch11 cc0_scoped0 cc0_scoped1 cc0_scoped2) >>= k) Q

section Pts
variable (d : Dev nD) (L : grid0.Coords) (q : PosShare TreeShare)
omit [FloatOps F] in
theorem pts_a (f : Buf (Elt F) (aLoc d)) : ((aV : Memref sig .scVector .hbm S3x800000 .i32).view.loc (thr d L) ↦{q} f : sProp 𝕄) = (aLoc d ↦{q} f) := rfl
omit [FloatOps F] in
theorem pts_w0 (f : Buf (Elt F) (w0Loc d)) : ((w0V : Memref sig .scVector .hbm S20x64 .f32).view.loc (thr d L) ↦{q} f : sProp 𝕄) = (w0Loc d ↦{q} f) := rfl
omit [FloatOps F] in
theorem pts_w1 (f : Buf (Elt F) (w1Loc d)) : ((w1V : Memref sig .scVector .hbm S10x64 .f32).view.loc (thr d L) ↦{q} f : sProp 𝕄) = (w1Loc d ↦{q} f) := rfl
omit [FloatOps F] in
theorem pts_w2 (f : Buf (Elt F) (w2Loc d)) : ((w2V : Memref sig .scVector .hbm S2x64 .f32).view.loc (thr d L) ↦{q} f : sProp 𝕄) = (w2Loc d ↦{q} f) := rfl
omit [FloatOps F] in
theorem pts_sA0 (f : Buf (Elt F) ((thr d L).loc cc0_scratch0)) : ((sA0 : Memref sig .scVector .vmem S3x640 .i32).view.loc (thr d L) ↦{q} f : sProp 𝕄) = ((thr d L).loc cc0_scratch0 ↦{q} f) := rfl
omit [FloatOps F] in
theorem pts_sA1 (f : Buf (Elt F) ((thr d L).loc cc0_scratch1)) : ((sA1 : Memref sig .scVector .vmem S3x640 .i32).view.loc (thr d L) ↦{q} f : sProp 𝕄) = ((thr d L).loc cc0_scratch1 ↦{q} f) := rfl
omit [FloatOps F] in
theorem pts_sO0 (f : Buf (Elt F) ((thr d L).loc cc0_scratch2)) : ((sO0 : Memref sig .scVector .vmem S64x640 .f32).view.loc (thr d L) ↦{q} f : sProp 𝕄) = ((thr d L).loc cc0_scratch2 ↦{q} f) := rfl
omit [FloatOps F] in
theorem pts_sO1 (f : Buf (Elt F) ((thr d L).loc cc0_scratch3)) : ((sO1 : Memref sig .scVector .vmem S64x640 .f32).view.loc (thr d L) ↦{q} f : sProp 𝕄) = ((thr d L).loc cc0_scratch3 ↦{q} f) := rfl
omit [FloatOps F] in
theorem pts_sW0 (f : Buf (Elt F) ((thr d L).loc cc0_scratch4)) : ((sW0 : Memref sig .scVector .vmem S2x64 .f32).view.loc (thr d L) ↦{q} f : sProp 𝕄) = ((thr d L).loc cc0_scratch4 ↦{q} f) := rfl
omit [FloatOps F] in
theorem pts_sW1 (f : Buf (Elt F) ((thr d L).loc cc0_scratch5)) : ((sW1 : Memref sig .scVector .vmem S2x64 .f32).view.loc (thr d L) ↦{q} f : sProp 𝕄) = ((thr d L).loc cc0_scratch5 ↦{q} f) := rfl
omit [FloatOps F] in
theorem pts_sW2 (f : Buf (Elt F) ((thr d L).loc cc0_scratch6)) : ((sW2 : Memref sig .scVector .vmem S2x64 .f32).view.loc (thr d L) ↦{q} f : sProp 𝕄) = ((thr d L).loc cc0_scratch6 ↦{q} f) := rfl
omit [FloatOps F] in
theorem pts_sT (f : Buf (Elt F) ((thr d L).loc cc0_scratch7)) : ((sT : Memref sig .scVector .vmem S64x16 .f32).view.loc (thr d L) ↦{q} f : sProp 𝕄) = ((thr d L).loc cc0_scratch7 ↦{q} f) := rfl

omit [FloatOps F] in
/-- The tile's first chunk of the result array, spelt through the program's slice of it. -/
theorem pts_oc0 (f : Buf (Elt F) (oLoc d)) :
    ((oSl (k0_off70 L) (k0_off70_inb L)).view.loc (thr d L) ↦[(oSl (k0_off70 L) (k0_off70_inb L)).view.set]{fullShare} f : sProp 𝕄)
      = (oLoc d ↦[chunkSet (wid L + 32 * 0)]{fullShare} f) := by
  rw [oSl_set (k0_off70 L) (k0_off70_inb L) (wid L + 32 * 0) (by rw [off70_eq, offI_eq])]

omit [FloatOps F] in
/-- A chunk of the result array, spelt through a slice of it at the chunk's offsets. -/
theorem pts_och (off : Fin 2 → ℕ) (h : ∀ a, off a + S64x640.size a ≤ S64x800000.size a) (n : ℕ) (e : off = ![0, 640 * n]) (f : Buf (Elt F) (oLoc d)) :
    ((oSl off h).view.loc (thr d L) ↦[(oSl off h).view.set]{fullShare} f : sProp 𝕄) = (oLoc d ↦[chunkSet n]{fullShare} f) := by
  rw [oSl_set off h n e]
end Pts

omit [FloatOps F] in
/-- A wait on one of the tile's own semaphores records a pair at the index `none`. -/
theorem waits_ins {W W' : Waits sig (HIx 1)} (s : SemLoc sig) (h : ∀ x ∈ W', x ∈ W ∨ x.2 = none) :
    ∀ x ∈ insert (s, (default : HIx 1)) W', x ∈ W ∨ x.2 = none := by
  intro x hx
  rcases Finset.mem_insert.mp hx with rfl | hx
  · exact Or.inr rfl
  · exact h x hx
omit [FloatOps F] in
theorem waits_base (W : Waits sig (HIx 1)) : ∀ x ∈ W, x ∈ W ∨ x.2 = none := fun _ h => Or.inl h

set_option maxHeartbeats 16000000 in
/-- The tile body's obligation, from the first pass and the pair loop as steps of a run. -/
theorem tile_core (hC1 : ComputeT1 (F := F)) (hPL : PairLoop (F := F)) : TileCore (F := F) := by
  intro d L O W hO q A hA B0 B1 B2 o0
  have k0_h1 : k0_cond1 L = 1#1 := cond1_eq L
  have hw := wid_lt L
  unfold body
  simp only [cc0__body_eq_skeleton]; unfold cc0__body_skel
  iintro ⟨#Hlv, HA, HB0, HB1, HB2, Ho, ⟨%fA0, HsA0⟩, ⟨%fA1, HsA1⟩, ⟨%fO0, HsO0⟩, ⟨%fO1, HsO1⟩, ⟨%fW0, HsW0⟩, ⟨%fW1, HsW1⟩, ⟨%fW2, HsW2⟩, ⟨%fT, HsT⟩,
    Hs8, Hs9, Hs10, Hs11, Hc0, Hc1, Hc2, HO⟩
  ihave Hmw := ((K (F := F)).mayWaits_none (thr := thr d L) hO) $$ Hlv
  -- the tile's columns: its first chunk, and the rest
  ihave Ho := (Entails.of_eq (congrArg (fun s => (oLoc d ↦[s]{fullShare} o0 : sProp 𝕄)) (todoFrom_zero L).symm)) $$ Ho
  ihave Ho2 := (todo_take (F := F) d L 0 (by omega)) $$ [Ho]
  · iexists o0; iexact Ho
  icases Ho2 with ⟨⟨%oc, Hoc⟩, Htodo⟩
  ihave Hoc := (Entails.of_eq (pts_oc0 (F := F) d L oc).symm) $$ Hoc
  ihave HA := (Entails.of_eq (pts_a (F := F) d L q _).symm) $$ HA
  ihave HB0 := (Entails.of_eq (pts_w0 (F := F) d L q _).symm) $$ HB0
  ihave HB1 := (Entails.of_eq (pts_w1 (F := F) d L q _).symm) $$ HB1
  ihave HB2 := (Entails.of_eq (pts_w2 (F := F) d L q _).symm) $$ HB2
  ihave HsA0 := (Entails.of_eq (pts_sA0 (F := F) d L fullShare _).symm) $$ HsA0
  ihave HsA1 := (Entails.of_eq (pts_sA1 (F := F) d L fullShare _).symm) $$ HsA1
  ihave HsO0 := (Entails.of_eq (pts_sO0 (F := F) d L fullShare _).symm) $$ HsO0
  ihave HsO1 := (Entails.of_eq (pts_sO1 (F := F) d L fullShare _).symm) $$ HsO1
  ihave HsW0 := (Entails.of_eq (pts_sW0 (F := F) d L fullShare _).symm) $$ HsW0
  ihave HsW1 := (Entails.of_eq (pts_sW1 (F := F) d L fullShare _).symm) $$ HsW1
  ihave HsW2 := (Entails.of_eq (pts_sW2 (F := F) d L fullShare _).symm) $$ HsW2
  ihave HsT := (Entails.of_eq (pts_sT (F := F) d L fullShare _).symm) $$ HsT
  sl_exec
  repeat (rw [SparseCore.vectorStoreIdx_bind (thr d L)]; sl_exec)
  iapply (hC1 d L _ (in01_A0 (F := F) d L A hA fA0 (k0_off1 L) (k0_off1_inb L)) _ _ _ _ _)
  isplitl [HsA0]; · iexact HsA0
  isplitl [HsT]; · iexact HsT
  isplitl [HsO0]; · iexact HsO0
  iintro %acc ⟨HsA0, HsT, HsO0⟩
  sl_exec
  -- the table holds the eight sums
  have hT : IsTable (F := F) B0 B1 B2 (sT.view.writes (Elt F) sT.view.junk (tile_core.sl.HsT_32 d L B0 B1 B2 fW0 fW1 fW2 fT)) :=
    table_of_chain (F := F) d L B0 B1 B2 fW0 fW1 fW2 fT _ (by unfold tile_core.sl.HsT_32; table_chain)
  -- what the first copy-out delivers is the tile's first chunk at its final contents
  have hD : ((oSl (k0_off70 L) (k0_off70_inb L)).view.loc (thr d L) ↦[(oSl (k0_off70 L) (k0_off70_inb L)).view.set]{fullShare}
        (oSl (k0_off70 L) (k0_off70_inb L)).view.writes (Elt F) oc [⟨Rect.whole S64x640, tile_core.sl.dma0_3 d L A B0 B1 B2 fA0 fW0 fW1 fW2 fT⟩] : sProp 𝕄)
      ⊢ ((oSl (k0_off70 L) (k0_off70_inb L)).view.loc (thr d L) ↦[(oSl (k0_off70 L) (k0_off70_inb L)).view.set]{fullShare} GT (F := F) A B0 B1 B2) :=
    Entails.of_eq (out_pts0_at (F := F) d L A hA B0 B1 B2 _ hT fA0 oc (k0_off1 L) (k0_off1_inb L) (k0_off70 L) (k0_off70_inb L) (wid L + 32 * 0)
      ((off1_eq L).trans (offI_eq L 0)) ((off70_eq L).trans (offI_eq L 0)))
  -- the pair loop, from the state before its first round
  iapply (hPL d L q A hA B0 B1 B2 _ hT O W hO _ _ _)
  isplitl [HsT HsA0 Hs8 HO Hs9 HA Hs10 HsO0 HsO1 Hs11 Htodo]
  · rw [show pairInv d L q A B0 B1 B2 _ O W 0 0#32 = headInv d L q A B0 B1 B2 _ O W 0 from if_pos (by decide)]
    unfold headInv
    rw [if_pos (show wid L + 32 * (2 * 0 + 1) < 1250 by omega), if_pos (rfl : (0 : ℕ) = 0)]
    isplitl [HsT HsA0 Hs8 HO]
    · unfold Common
      isplitr; · iexact Hmw
      isplitl [HsT]; · iexact HsT
      isplitl [HsA0]; · iexists _; iexact HsA0
      isplitl [Hs8]; · iexact Hs8
      iexists _; isplitr
      rotate_left
      · iexact HO
      · ipureintro; exact waits_ins _ (waits_ins _ (waits_ins _ (waits_ins _ (waits_base W))))
    isplitl [Hs9 HA]
    · iexists (k0_off2 L), (k0_off2_inb L k0_h1)
      isplitr; · ipureintro; exact off2_eq L
      unfold InFl1
      isplitl [Hs9]
      · iexists fA1; iexact Hs9
      · iexact HA
    isplitl [Hs10 HsO0]
    · iexists (k0_off70 L), (k0_off70_inb L)
      isplitr; · ipureintro; exact off70_eq L
      unfold OutFl0
      iexists _
      isplitl [Hs10]
      · iapply (Transfers.Flight_mono countersEmb (thr d L) (sep_mono_left hD)) $$ Hs10
      · iexact HsO0
    isplitl [HsO1 Hs11]
    · unfold OutRest1
      isplitl [HsO1]; · iexists _; iexact HsO1
      iexact Hs11
    isplitl [Htodo]; · iexact Htodo
    rw [show 2 * 0 - 1 = 0 from rfl, doneUpto_zero, pointsTo_empty]; iempintro
  -- after the last round: the two copies still on their way out
  iintro %acc2 Hinv
  ihave Hinv := (Entails.of_eq (show pairInv d L q A B0 B1 B2 _ O W 20 acc2 = exitInv d L q A B0 B1 B2 _ O W from if_neg (by decide))) $$ Hinv
  unfold exitInv Common InRest1 OutFl0 OutFl1
  icases Hinv with ⟨⟨-, HsT, ⟨%fa0, HsA0⟩, Hs8, ⟨%W2, %hW2, HO⟩⟩, ⟨⟨%fa1, HsA1⟩, Hs9, HA⟩, ⟨%offE, %hoffE, %eoffE, ⟨%AAe, Hs10, HsO0⟩⟩,
    ⟨%j, %lo, %offJ, %hoffJ, %hJ, ⟨%AAj, Hs11, HsO1⟩, Hdone⟩⟩
  sl_exec
  rw [wp_ret]; imodintro
  obtain ⟨hcase, hbig, hjlt, eJ⟩ := hJ
  ihave HcE := (Entails.of_eq (pts_och (F := F) d L offE hoffE (wid L + 32 * 38) (eoffE.trans (offI_eq L 38)) _)) $$ Hs10_dst
  ihave HcJ := (Entails.of_eq (pts_och (F := F) d L offJ hoffJ (wid L + 32 * j) (eJ.trans (offI_eq L j)) _)) $$ Hs11_dst
  isplitl [HA]; · iexact HA
  isplitl [HB0]; · iexact HB0
  isplitl [HB1]; · iexact HB1
  isplitl [HB2]; · iexact HB2
  isplitl [Hdone HcE HcJ]
  · rcases hcase with ⟨rfl, rfl⟩ | ⟨rfl, rfl⟩
    · ihave H38 := (done_put (F := F) d L 37 _) $$ [Hdone HcJ]
      · isplitl [Hdone] <;> iassumption
      ihave H39 := (done_put (F := F) d L 38 _) $$ [H38 HcE]
      · isplitl [H38] <;> iassumption
      iapply (Entails.of_eq (congrArg (fun s => (oLoc d ↦[s]{fullShare} GT (F := F) A B0 B1 B2 : sProp 𝕄)) (doneUpto_all L 39 (by omega)))) $$ H39
    · ihave H39 := (done_put (F := F) d L 38 _) $$ [Hdone HcE]
      · isplitl [Hdone] <;> iassumption
      ihave H40 := (done_put (F := F) d L 39 _) $$ [H39 HcJ]
      · isplitl [H39] <;> iassumption
      iapply (Entails.of_eq (congrArg (fun s => (oLoc d ↦[s]{fullShare} GT (F := F) A B0 B1 B2 : sProp 𝕄)) (doneUpto_all L 40 (by omega)))) $$ H40
  isplitl [HsA0]; · iexists _; iexact HsA0
  isplitl [HsA1]; · iexists _; iexact HsA1
  isplitl [HsO0]; · iexists _; iexact HsO0
  isplitl [HsO1]; · iexists _; iexact HsO1
  isplitl [HsW0]; · iexists _; iexact HsW0
  isplitl [HsW1]; · iexists _; iexact HsW1
  isplitl [HsW2]; · iexists _; iexact HsW2
  isplitl [HsT]; · iexists _; iexact HsT
  isplitl [Hs8]; · iexact Hs8
  isplitl [Hs9]; · iexact Hs9
  isplitl [Hs10]; · iexact Hs10
  isplitl [Hs11]; · iexact Hs11
  isplitl [Hc0]; · iexact Hc0
  isplitl [Hc1]; · iexact Hc1
  isplitl [Hc2]; · iexact Hc2
  iexists _; isplitr
  rotate_left
  · iexact HO
  · ipureintro; exact waits_ins _ (waits_ins _ hW2)

end Cert.Proof.KB

end
-- ==== Proof.KBPiece.lean ====
/-
  One pass over a chunk fills the output scratch sixteen columns at a time: in trip g it writes, for each of the 64
  rows j, the sixteen entries of row j in columns 16 g … 16 g + 15, each read out of the table at row j and at the
  column the edge's three index words name. These are the facts about one such write and about all 64 of a trip.
-/
import proofs.«203793_g3813930959492_cont_8to1_b_1292_12_alg».proof.Proof.KBGather
import proofs.«203793_g3813930959492_cont_8to1_b_1292_12_alg».proof.Proof.KIMath
import Idealize.ShloMosaic.Lib.Writes

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## One row of sixteen and sixteen lanes -/

omit [FloatOps F] in
/-- Lane x of a sixteen-lane vector is entry (0, x) of the one-row block with the same elements. -/
theorem reshape_lane_to_row (h : S16.numel = S1x16.numel) (x : S16.Idx) :
    Shape.reshapeEquiv h x = (ValueIdx.ix2 (0 : Fin 1) (x 0 : Fin 16) : S1x16.Idx) := by
  apply Shape.reshapeEquiv_eq_of_rowMajor
  rw [Shape.rowMajor_val_one, Shape.rowMajor_val_two]
  simp

omit [FloatOps F] in
/-- Entry (0, c) of a one-row block is lane c of the sixteen-lane vector with the same elements. -/
theorem reshape_row_to_lane (h : S1x16.numel = S16.numel) (x : S1x16.Idx) :
    Shape.reshapeEquiv h x = (ValueIdx.ix1 (x 1 : Fin 16) : S16.Idx) := by
  apply Shape.reshapeEquiv_eq_of_rowMajor
  rw [Shape.rowMajor_val_one, Shape.rowMajor_val_two]
  have h0 : (x 0 : Fin 1).val = 0 := by
    have h1 : (x 0 : Fin 1).val < 1 := (x 0 : Fin 1).isLt
    omega
  show (x 1 : Fin 16).val = (x 0 : Fin 1).val * 16 + (x 1 : Fin 16).val
  omega

/-! ## A block of sixteen columns written row by row -/

omit [FloatOps F] in
theorem forall₂_right {α β : Type*} {R : α → β → Prop} {l₁ : List α} {l₂ : List β} (h : List.Forall₂ R l₁ l₂) :
    ∀ b ∈ l₂, ∃ a ∈ l₁, R a b := by
  induction h with
  | nil => intro b hb; cases hb
  | cons hab _ ih =>
    intro b hb
    rcases List.mem_cons.1 hb with rfl | hb
    · exact ⟨_, by simp, hab⟩
    · obtain ⟨a, ha, r⟩ := ih b hb
      exact ⟨a, List.mem_cons_of_mem _ ha, r⟩

omit [FloatOps F] in
theorem forall₂_left {α β : Type*} {R : α → β → Prop} {l₁ : List α} {l₂ : List β} (h : List.Forall₂ R l₁ l₂) :
    ∀ a ∈ l₁, ∃ b ∈ l₂, R a b := by
  induction h with
  | nil => intro a ha; cases ha
  | cons hab _ ih =>
    intro a ha
    rcases List.mem_cons.1 ha with rfl | ha
    · exact ⟨_, by simp, hab⟩
    · obtain ⟨b, hb, r⟩ := ih a ha
      exact ⟨b, List.mem_cons_of_mem _ hb, r⟩

omit [FloatOps F] in
/-- After writes that all lie in columns 16 g … 16 g + 15, agree there with one function G and cover every entry
    of those columns, every entry in a column below 16 (g + 1) holds G, provided the columns below 16 g did before. -/
theorem read_writes_colblock {sig : RefSig} {κ : Kind} {sp : Space} {e : EltTy} {Val : EltTy → Type}
    (v : View sig κ sp S64x640 e) (f : v.ty.Contents Val) (G : S64x640.Idx → Val e) (g : ℕ)
    (L : List (View.Piece Val S64x640 e))
    (hold : ∀ y : S64x640.Idx, (y 1 : Fin 640).val < 16 * g → v.read Val f y = G y)
    (hL : ∀ p ∈ L, (∀ x, p.2 x = G (p.1.emb x)) ∧ ∀ y ∈ p.1.set, 16 * g ≤ (y 1 : Fin 640).val)
    (hcov : ∀ y : S64x640.Idx, 16 * g ≤ (y 1 : Fin 640).val → (y 1 : Fin 640).val < 16 * (g + 1) →
      ∃ p ∈ L, y ∈ p.1.set)
    (y : S64x640.Idx) (hy : (y 1 : Fin 640).val < 16 * (g + 1)) : v.read Val (v.writes Val f L) y = G y := by
  by_cases h : (y 1 : Fin 640).val < 16 * g
  · rw [View.read_writes_apply_of_forall_not_mem v f y L (fun p hp hm => by have := (hL p hp).2 y hm; omega)]
    exact hold y h
  · exact View.read_writes_apply_of_pieces v f G L (fun p hp => (hL p hp).1) y (hcov y (by omega) hy)

/-- What is asked of the write for row j in trip g: it holds G on its rectangle, and its rectangle is row j,
    columns 16 g … 16 g + 15. -/
def AtRow {e : EltTy} {Val : EltTy → Type} (G : S64x640.Idx → Val e) (g j : ℕ) (p : View.Piece Val S64x640 e) : Prop :=
  (∀ x, p.2 x = G (p.1.emb x)) ∧
    ∀ y : S64x640.Idx, y ∈ p.1.set ↔
      ((y 0 : Fin 64).val = j ∧ 16 * g ≤ (y 1 : Fin 640).val ∧ (y 1 : Fin 640).val < 16 * g + 16)

omit [FloatOps F] in
/-- A list of writes, one per row of a list naming every row. -/
theorem colblock_of_rows {sig : RefSig} {κ : Kind} {sp : Space} {e : EltTy} {Val : EltTy → Type}
    (v : View sig κ sp S64x640 e) (f : v.ty.Contents Val) (G : S64x640.Idx → Val e) (g : ℕ)
    (rows : List ℕ) (L : List (View.Piece Val S64x640 e)) (hrows : ∀ j, j < 64 → j ∈ rows)
    (hL : List.Forall₂ (AtRow G g) rows L)
    (hold : ∀ y : S64x640.Idx, (y 1 : Fin 640).val < 16 * g → v.read Val f y = G y)
    (y : S64x640.Idx) (hy : (y 1 : Fin 640).val < 16 * (g + 1)) : v.read Val (v.writes Val f L) y = G y := by
  refine read_writes_colblock v f G g L hold ?_ ?_ y hy
  · intro p hp
    obtain ⟨j, -, hj⟩ := forall₂_right hL p hp
    exact ⟨hj.1, fun y hm => ((hj.2 y).1 hm).2.1⟩
  · intro y h1 h2
    obtain ⟨p, hp, hj⟩ := forall₂_left hL _ (hrows _ (y 0 : Fin 64).isLt)
    exact ⟨p, hp, (hj.2 y).2 ⟨rfl, h1, by omega⟩⟩

/-! ## One write of a trip -/

omit [FloatOps F] in
/-- A one-by-sixteen block at row j inside the 64 by 640 array has j below 64. -/
theorem row_lt {g j : ℕ} {off : Fin 2 → ℕ} (hoff : off = ![j, 16 * g])
    (hinb : ∀ a, off a + S1x16.size a ≤ S64x640.size a) : j < 64 := by
  subst hoff
  have h0 : j + 1 ≤ 64 := hinb 0
  omega

omit [FloatOps F] in
/-- The write for row j in trip g, whose sixteen lanes are the table's entries of row j at the columns the sixteen
    edges 16 g … 16 g + 15 name. -/
theorem atRow_piece (AA : IVec S3x640 32) (TT : FVec F S64x16 .f32) (g j : ℕ)
    (off : Fin 2 → ℕ) (hinb : ∀ a, off a + S1x16.size a ≤ S64x640.size a)
    (w : Vec F S16 .f32) (hsc : S16.ShapeCasts S1x16) (hoff : off = ![j, 16 * g])
    (hw : ∀ (c : Fin 16) (hc : 16 * g + c.val < 640),
      w (ValueIdx.ix1 c) = TT (ValueIdx.ix2 (⟨j, row_lt hoff hinb⟩ : Fin 64) (kcol AA ⟨16 * g + c.val, hc⟩))) :
    AtRow (gathered AA TT) g j ⟨Rect.unit (s := S64x640) off S1x16.size hinb, shapeCast S1x16 w hsc⟩ := by
  have hj : j < 64 := row_lt hoff hinb
  subst hoff
  constructor
  · intro x
    have hx0 : (x 0 : Fin 1).val < 1 := (x 0 : Fin 1).isLt
    have hx1 : (x 1 : Fin 16).val < 16 := (x 1 : Fin 16).isLt
    have hb := hinb 1
    have hb' : 16 * g + 16 ≤ 640 := hb
    show w (Shape.reshapeEquiv hsc x) = gathered AA TT ((Rect.unit (s := S64x640) ![j, 16 * g] S1x16.size hinb).emb x)
    rw [reshape_row_to_lane, hw (x 1 : Fin 16) (show 16 * g + (x 1 : Fin 16).val < 640 by omega)]
    unfold gathered
    congr 1
    have e0 : (((Rect.unit (s := S64x640) ![j, 16 * g] S1x16.size hinb).emb x) 0 : Fin 64) = ⟨j, hj⟩ :=
      Fin.ext (by show j + 1 * (x 0 : Fin 1).val = j; omega)
    have e1 : (((Rect.unit (s := S64x640) ![j, 16 * g] S1x16.size hinb).emb x) 1 : Fin 640)
        = ⟨16 * g + (x 1 : Fin 16).val, (show 16 * g + (x 1 : Fin 16).val < 640 by omega)⟩ :=
      Fin.ext (by show 16 * g + 1 * (x 1 : Fin 16).val = 16 * g + (x 1 : Fin 16).val; omega)
    rw [e0, e1]
    rfl
  · intro y
    rw [Rect.mem_set_unit]
    constructor
    · intro h
      have h0 := h 0
      have h1 := h 1
      have h0' : j ≤ (y 0 : Fin 64).val ∧ (y 0 : Fin 64).val < j + 1 := h0
      have h1' : 16 * g ≤ (y 1 : Fin 640).val ∧ (y 1 : Fin 640).val < 16 * g + 16 := h1
      omega
    · rintro ⟨h0, h1, h2⟩ a
      match a with
      | ⟨0, _⟩ =>
        show j ≤ (y 0 : Fin 64).val ∧ (y 0 : Fin 64).val < j + 1
        omega
      | ⟨1, _⟩ =>
        show 16 * g ≤ (y 1 : Fin 640).val ∧ (y 1 : Fin 640).val < 16 * g + 16
        omega

/-! ## The words a trip reads -/

omit [FloatOps F] in
/-- A load of sixteen words of row r of an index scratch, columns 16 g … 16 g + 15, entry by entry. -/
theorem readAt_row {κ : Kind} {sp : Space} (v : View sig κ sp S3x640 .i32) (A : v.ty.Contents (Elt F)) (AA : IVec S3x640 32)
    (r : ℕ) (hr : r < 3) (g : ℕ)
    (off : Fin 2 → ℕ) (hinb : ∀ a, off a + S1x16.size a ≤ S3x640.size a)
    (y : S1x16.Idx) (hc : 16 * g + (y 1 : Fin 16).val < 640) (hv : ∀ y, v.read (Elt F) A y = AA y) (hoff : off = ![r, 16 * g]) :
    v.readAt (Elt F) (Rect.unit (s := S3x640) off S1x16.size hinb).toLoadRect A y
      = AA (ValueIdx.ix2 (⟨r, hr⟩ : Fin 3) (⟨16 * g + (y 1 : Fin 16).val, hc⟩ : Fin 640)) := by
  subst hoff
  have hy0 : (y 0 : Fin 1).val < 1 := (y 0 : Fin 1).isLt
  show v.read (Elt F) A ((Rect.unit (s := S3x640) ![r, 16 * g] S1x16.size hinb).toLoadRect.idx y) = _
  rw [hv]
  congr 1
  funext a
  match a with
  | ⟨0, _⟩ => exact Fin.ext (by show r + 1 * (y 0 : Fin 1).val = r; omega)
  | ⟨1, _⟩ => exact Fin.ext (by show 16 * g + 1 * (y 1 : Fin 16).val = 16 * g + (y 1 : Fin 16).val; omega)

/-- One indexed load of a trip, lane by lane: row j of the table at the column the lane's edge names. -/
theorem loadIdx_gather (AA : IVec S3x640 32) (TT : FVec F S64x16 .f32) (g j : ℕ) (hj : j < 64)
    (T : Vec F S64x16 .f32) (l0 l1 l2 : Vec F S1x16 .i32) (kk : IVec S16 32)
    (h : ∀ a x, ((![broadcast S16 (BitVec.ofNat 32 j), kk] : Fin 2 → IVec S16 32) a x).toNat < S64x16.size a)
    (c : Fin 16) (hc : 16 * g + c.val < 640) (hT : T = TT)
    (hkk : ∀ x : S16.Idx, kk x
      = IntOp.addi (IntOp.addi (IntOp.muli (l0 (Shape.reshapeEquiv shapeCasts_S1x16_S16 x)) 4#32)
          (IntOp.muli (l1 (Shape.reshapeEquiv shapeCasts_S1x16_S16 x)) 2#32))
          (l2 (Shape.reshapeEquiv shapeCasts_S1x16_S16 x)))
    (hl0 : ∀ (y : S1x16.Idx) (hc : 16 * g + (y 1 : Fin 16).val < 640),
      l0 y = AA (ValueIdx.ix2 (0 : Fin 3) (⟨16 * g + (y 1 : Fin 16).val, hc⟩ : Fin 640)))
    (hl1 : ∀ (y : S1x16.Idx) (hc : 16 * g + (y 1 : Fin 16).val < 640),
      l1 y = AA (ValueIdx.ix2 (1 : Fin 3) (⟨16 * g + (y 1 : Fin 16).val, hc⟩ : Fin 640)))
    (hl2 : ∀ (y : S1x16.Idx) (hc : 16 * g + (y 1 : Fin 16).val < 640),
      l2 y = AA (ValueIdx.ix2 (2 : Fin 3) (⟨16 * g + (y 1 : Fin 16).val, hc⟩ : Fin 640)))
    :
    loadIdx T ![broadcast S16 (BitVec.ofNat 32 j), kk] h (ValueIdx.ix1 c)
      = TT (ValueIdx.ix2 (⟨j, hj⟩ : Fin 64) (kcol AA ⟨16 * g + c.val, hc⟩)) := by
  subst hT
  have hk : ∀ x : S16.Idx, (kk x).toNat < 16 := fun x => h 1 x
  rw [Cert.Proof.KIMath.loadIdx_col T j hj kk hk h (ValueIdx.ix1 c)]
  congr 2
  apply Fin.ext
  have e := hkk (ValueIdx.ix1 c)
  have hlt := hk (ValueIdx.ix1 c)
  show (kk (ValueIdx.ix1 c)).toNat = (kcol AA ⟨16 * g + c.val, hc⟩).val
  unfold kcol
  rw [e] at hlt ⊢
  rw [reshape_lane_to_row] at hlt ⊢
  rw [hl0 _ hc, hl1 _ hc, hl2 _ hc] at hlt ⊢
  exact (Nat.mod_eq_of_lt hlt).symm

/-! ## The rows of a trip, last written first -/

/-- The 64 rows in the order a trip's writes are listed: the last written first. -/
def rows64 : List ℕ := [63, 62, 61, 60, 59, 58, 57, 56, 55, 54, 53, 52, 51, 50, 49, 48, 47, 46, 45, 44, 43, 42, 41, 40, 39, 38, 37, 36, 35, 34, 33, 32, 31, 30, 29, 28, 27, 26, 25, 24, 23, 22, 21, 20, 19, 18, 17, 16, 15, 14, 13, 12, 11, 10, 9, 8, 7, 6, 5, 4, 3, 2, 1, 0]

omit [FloatOps F] in
theorem rows64_all : ∀ j, j < 64 → j ∈ rows64 := by
  intro j hj
  unfold rows64
  interval_cases j <;> decide

end Cert.Proof.KB

end
-- ==== Proof.KBRegion1.lean ====
/-
  The first pass over a chunk: forty trips, each gathering sixteen more columns of the tile's first output scratch
  from the table, by the three index words of each edge in the first index scratch.
-/
import proofs.«203793_g3813930959492_cont_8to1_b_1292_12_alg».proof.Proof.KBPiece

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The writes of one trip into this pass's output scratch, read entry by entry. -/
theorem colblock_t1 (f : (sO0 : Memref sig .scVector .vmem S64x640 .f32).view.ty.Contents (Elt F)) (G : S64x640.Idx → F .f32) (g : ℕ)
    (Lp : List (View.Piece (Elt F) S64x640 .f32)) (hL : List.Forall₂ (AtRow G g) rows64 Lp)
    (hold : ∀ y : S64x640.Idx, (y 1 : Fin 640).val < 16 * g → f y = G y)
    (y : S64x640.Idx) (hy : (y 1 : Fin 640).val < 16 * (g + 1)) :
    ((sO0 : Memref sig .scVector .vmem S64x640 .f32).view.writes (Elt F) f Lp) y = G y :=
  colblock_of_rows (sO0 : Memref sig .scVector .vmem S64x640 .f32).view f G g rows64 Lp rows64_all hL hold y hy

/-- Before trip g of the pass: the index scratch and the table as they were, and the output scratch holding the
    gathered table entries in every column below 16 g. -/
def invt1 (d : Dev nD) (L : grid0.Coords) (AA : Buf (Elt F) ((thr d L).loc cc0_scratch0))
    (TT : Buf (Elt F) ((thr d L).loc cc0_scratch7)) (g : ℕ) (_ : BitVec 32) : sProp 𝕄 :=
  iprop(((sA0 : Memref sig .scVector .vmem S3x640 .i32).view.loc (thr d L) ↦{fullShare} AA) ∗ ((sT : Memref sig .scVector .vmem S64x16 .f32).view.loc (thr d L) ↦{fullShare} TT)
    ∗ ∃ f : Buf (Elt F) ((thr d L).loc cc0_scratch2), ((sO0 : Memref sig .scVector .vmem S64x640 .f32).view.loc (thr d L) ↦{fullShare} f)
        ∗ ⌜∀ y : S64x640.Idx, (y 1 : Fin 640).val < 16 * g → f y = gathered (F := F) AA TT y⌝)

set_option maxHeartbeats 16000000 in
set_option sl_exec.dischHeartbeats 400000 in
/-- One trip: sixteen more columns of the output scratch are gathered. -/
theorem region_t1 (d : Dev nD) (L : grid0.Coords) (AA : Buf (Elt F) ((thr d L).loc cc0_scratch0))
    (hAA : ∀ i, AA i = 0#32 ∨ AA i = 1#32) (TT : Buf (Elt F) ((thr d L).loc cc0_scratch7))
    (g : Fin k0_t1_loop.trips) (acc : BitVec 32) :
    invt1 (F := F) d L AA TT g.val acc
      ⊢ wp frame (wpE (defs₀ (F := F)) 𝒱₀ (thr d L) none) Set.univ ((k0_t1_body (F := F) L aV (Memref.isWhole_whole _) w0V (Memref.isWhole_whole _) w1V (Memref.isWhole_whole _) w2V (Memref.isWhole_whole _) oV (Memref.isWhole_whole _) sA0 (Memref.isWhole_whole _) sA1 (Memref.isWhole_whole _) sO0 (Memref.isWhole_whole _) sO1 (Memref.isWhole_whole _) sW0 (Memref.isWhole_whole _) sW1 (Memref.isWhole_whole _) sW2 (Memref.isWhole_whole _) sT (Memref.isWhole_whole _) cc0_scratch8 cc0_scratch9 cc0_scratch10 cc0_scratch11 cc0_scoped0 cc0_scoped1 cc0_scoped2) g acc)
          (invt1 (F := F) d L AA TT (g.val + 1)) := by
  unfold invt1 k0_t1_body
  iintro ⟨HsA, HsT, %fO, HsO, %hold⟩
  sl_exec (disch := exact chk_pay1 _ _ _ (rd01_A0 d _ _ AA hAA _ _) (rd01_A0 d _ _ AA hAA _ _) (rd01_A0 d _ _ AA hAA _ _) _ (by decide))
  repeat (rw [SparseCore.vectorLoadIdx_bind (thr d L)]; sl_exec (disch := exact chk_pay1 _ _ _ (rd01_A0 d _ _ AA hAA _ _) (rd01_A0 d _ _ AA hAA _ _) (rd01_A0 d _ _ AA hAA _ _) _ (by decide)))
  sl_step
  isplitl [HsA]; · iexact HsA
  isplitl [HsT]; · iexact HsT
  iexists _
  isplitl [HsO]; · iexact HsO
  ipureintro
  intro y hy
  sl_unfold_run_names
  refine colblock_t1 fO (gathered (F := F) AA TT) g.val _ ?_ hold y hy
  unfold rows64
  repeat' (first | exact List.Forall₂.nil | refine List.Forall₂.cons ?_ ?_)
  all_goals
    (refine atRow_piece AA TT g.val _ _ _ _ _ ?_ ?_
     · exact ClosedOff.eq
     · exact fun c hc =>
        loadIdx_gather AA TT g.val _ _ _ _ _ _ _ _ c hc (Memref.readAt_whole (Elt F) cc0_scratch7 TT) (fun _ => rfl)
          (fun y hc => readAt_row (sA0 : Memref sig .scVector .vmem S3x640 .i32).view AA AA 0 (by decide) g.val _ _ y hc (fun _ => rfl) (k0_off3_eq g))
          (fun y hc => readAt_row (sA0 : Memref sig .scVector .vmem S3x640 .i32).view AA AA 1 (by decide) g.val _ _ y hc (fun _ => rfl) (k0_off4_eq g))
          (fun y hc => readAt_row (sA0 : Memref sig .scVector .vmem S3x640 .i32).view AA AA 2 (by decide) g.val _ _ y hc (fun _ => rfl) (k0_off5_eq g)))

end Cert.Proof.KB

end
-- ==== Proof.KBCompute1.lean ====
/-
  The first pass over a chunk as one step of the tile's run: the loop of forty trips by its invariant.
-/
import proofs.«203793_g3813930959492_cont_8to1_b_1292_12_alg».proof.Proof.KBRegion1

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The whole pass: from any contents of the output scratch to the gathered table entries, the index scratch and the
    table unchanged; the program after the loop runs from there. -/
theorem compute_t1 (d : Dev nD) (L : grid0.Coords) (AA : Buf (Elt F) ((thr d L).loc cc0_scratch0))
    (hAA : ∀ i, AA i = 0#32 ∨ AA i = 1#32) (TT : Buf (Elt F) ((thr d L).loc cc0_scratch7))
    (fO : Buf (Elt F) ((thr d L).loc cc0_scratch2))
    {α : Type} (k : BitVec 32 → Prog (TpuEff nD τ sig (Elt F) Λ₀ (.scVector (cV L) (jV L))) α) (Q : α → sProp 𝕄) :
    iprop(((sA0 : Memref sig .scVector .vmem S3x640 .i32).view.loc (thr d L) ↦{fullShare} AA) ∗ ((sT : Memref sig .scVector .vmem S64x16 .f32).view.loc (thr d L) ↦{fullShare} TT)
        ∗ ((sO0 : Memref sig .scVector .vmem S64x640 .f32).view.loc (thr d L) ↦{fullShare} fO)
        ∗ (∀ acc, iprop(((sA0 : Memref sig .scVector .vmem S3x640 .i32).view.loc (thr d L) ↦{fullShare} AA) ∗ ((sT : Memref sig .scVector .vmem S64x16 .f32).view.loc (thr d L) ↦{fullShare} TT)
              ∗ ((sO0 : Memref sig .scVector .vmem S64x640 .f32).view.loc (thr d L) ↦{fullShare} gathered (F := F) AA TT))
            -∗ wp frame (wpE (defs₀ (F := F)) 𝒱₀ (thr d L) none) Set.univ (k acc) Q))
      ⊢ wp frame (wpE (defs₀ (F := F)) 𝒱₀ (thr d L) none) Set.univ
          (Scf.Loop.for k0_t1_loop k0_t1_ok 0#32 (k0_t1_body (F := F) L aV (Memref.isWhole_whole _) w0V (Memref.isWhole_whole _) w1V (Memref.isWhole_whole _) w2V (Memref.isWhole_whole _) oV (Memref.isWhole_whole _) sA0 (Memref.isWhole_whole _) sA1 (Memref.isWhole_whole _) sO0 (Memref.isWhole_whole _) sO1 (Memref.isWhole_whole _) sW0 (Memref.isWhole_whole _) sW1 (Memref.isWhole_whole _) sW2 (Memref.isWhole_whole _) sT (Memref.isWhole_whole _) cc0_scratch8 cc0_scratch9 cc0_scratch10 cc0_scratch11 cc0_scoped0 cc0_scoped1 cc0_scoped2) >>= k) Q := by
  iintro ⟨HA, HT, HO, HK⟩
  iapply (Scf.wp_for_bind frame (wpE (defs₀ (F := F)) 𝒱₀ (thr d L) none) Set.univ k0_t1_loop.lb k0_t1_loop.ub k0_t1_loop.st
    k0_t1_ok 0#32 (k0_t1_body (F := F) L aV (Memref.isWhole_whole _) w0V (Memref.isWhole_whole _) w1V (Memref.isWhole_whole _) w2V (Memref.isWhole_whole _) oV (Memref.isWhole_whole _) sA0 (Memref.isWhole_whole _) sA1 (Memref.isWhole_whole _) sO0 (Memref.isWhole_whole _) sO1 (Memref.isWhole_whole _) sW0 (Memref.isWhole_whole _) sW1 (Memref.isWhole_whole _) sW2 (Memref.isWhole_whole _) sT (Memref.isWhole_whole _) cc0_scratch8 cc0_scratch9 cc0_scratch10 cc0_scratch11 cc0_scoped0 cc0_scoped1 cc0_scoped2) (invt1 (F := F) d L AA TT)
    (region_t1 d L AA hAA TT)) $$ [HA HT HO]
  · unfold invt1
    isplitl [HA]; · iexact HA
    isplitl [HT]; · iexact HT
    iexists fO
    isplitl [HO]; · iexact HO
    ipureintro
    intro y hy
    exact absurd hy (by omega)
  iintro %acc HI
  unfold invt1
  icases HI with ⟨HA, HT, %f, HO, %hf⟩
  have htrips : Scf.trips k0_t1_loop.lb k0_t1_loop.ub k0_t1_loop.st = 40 := by decide
  have hfe : f = gathered (F := F) AA TT := by
    funext y
    have hy : (y 1 : Fin 640).val < 640 := (y 1 : Fin 640).isLt
    exact hf y (by rw [htrips]; omega)
  subst hfe
  iapply HK
  isplitl [HA]; · iexact HA
  isplitl [HT]; · iexact HT
  iexact HO

end Cert.Proof.KB

end
-- ==== Proof.KBPairLoop.lean ====
/-
  The pair loop from its rounds: each round takes the state before it to the state before the next, and the state
  "before round 20" is the state after the last round; so the twenty rounds take the state before round 0 to the state
  after round 19. Which lemma serves a round depends on its number and on whether the tile still has the chunks the
  round would work on: round 0; rounds 1 … 18 with a chunk 2p+3 to prefetch; round 18 without one; round 19 with a
  chunk 39 and without.
-/
import proofs.«203793_g3813930959492_cont_8to1_b_1292_12_alg».proof.Proof.KBIface

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

omit [FloatOps F] in
/-- The pair loop has twenty rounds. -/
theorem t2_trips : k0_t2_loop.trips = 20 := by decide +kernel

/-- A round of the pair loop takes the invariant before it to the invariant after it, for the tiles and round numbers
    picked out by `side`. -/
abbrev RoundOK (side : grid0.Coords → ℕ → Prop) : Prop :=
  ∀ (d : Dev nD) (L : grid0.Coords) (q : PosShare TreeShare) (A : Buf (Elt F) (aLoc d)) (_ : ∀ i, A i = 0#32 ∨ A i = 1#32)
    (B0 : Buf (Elt F) (w0Loc d)) (B1 : Buf (Elt F) (w1Loc d)) (B2 : Buf (Elt F) (w2Loc d)) (TT : Buf (Elt F) ((thr d L).loc cc0_scratch7))
    (_ : IsTable (F := F) B0 B1 B2 TT)
    (O : CellTallies nD τ sig (HIx 1)) (W : Waits sig (HIx 1)) (_ : ∀ g, O g none = 0)
    (p : Fin k0_t2_loop.trips) (_ : side L p.val) (acc : BitVec 32),
    pairInv d L q A B0 B1 B2 TT O W p.val acc
      ⊢ wp frame (wpE (defs₀ (F := F)) 𝒱₀ (thr d L) none) Set.univ (k0_t2_body (F := F) L aV (Memref.isWhole_whole _) w0V (Memref.isWhole_whole _) w1V (Memref.isWhole_whole _) w2V (Memref.isWhole_whole _) oV (Memref.isWhole_whole _) sA0 (Memref.isWhole_whole _) sA1 (Memref.isWhole_whole _) sO0 (Memref.isWhole_whole _) sO1 (Memref.isWhole_whole _) sW0 (Memref.isWhole_whole _) sW1 (Memref.isWhole_whole _) sW2 (Memref.isWhole_whole _) sT (Memref.isWhole_whole _) cc0_scratch8 cc0_scratch9 cc0_scratch10 cc0_scratch11 cc0_scoped0 cc0_scoped1 cc0_scoped2 p acc)
          (pairInv d L q A B0 B1 B2 TT O W (p.val + 1))

set_option maxHeartbeats 4000000 in
/-- The pair loop from its five kinds of round. -/
theorem pair_loop_of
    (h0 : RoundOK (F := F) fun _ p => p = 0)
    (hm : RoundOK (F := F) fun L p => 1 ≤ p ∧ p ≤ 18 ∧ wid L + 32 * (2 * p + 3) < 1250)
    (h18 : RoundOK (F := F) fun L p => p = 18 ∧ 1250 ≤ wid L + 32 * (2 * p + 3))
    (h19s : RoundOK (F := F) fun L p => p = 19 ∧ wid L + 32 * (2 * p + 1) < 1250)
    (h19n : RoundOK (F := F) fun L p => p = 19 ∧ 1250 ≤ wid L + 32 * (2 * p + 1)) : PairLoop (F := F) := by
  intro d L q A hA B0 B1 B2 TT hTT O W hO α k Q
  have step : ∀ (p : Fin k0_t2_loop.trips) (acc : BitVec 32),
      pairInv d L q A B0 B1 B2 TT O W p.val acc
        ⊢ wp frame (wpE (defs₀ (F := F)) 𝒱₀ (thr d L) none) Set.univ (k0_t2_body (F := F) L aV (Memref.isWhole_whole _) w0V (Memref.isWhole_whole _) w1V (Memref.isWhole_whole _) w2V (Memref.isWhole_whole _) oV (Memref.isWhole_whole _) sA0 (Memref.isWhole_whole _) sA1 (Memref.isWhole_whole _) sO0 (Memref.isWhole_whole _) sO1 (Memref.isWhole_whole _) sW0 (Memref.isWhole_whole _) sW1 (Memref.isWhole_whole _) sW2 (Memref.isWhole_whole _) sT (Memref.isWhole_whole _) cc0_scratch8 cc0_scratch9 cc0_scratch10 cc0_scratch11 cc0_scoped0 cc0_scoped1 cc0_scoped2 p acc)
            (pairInv d L q A B0 B1 B2 TT O W (p.val + 1)) := by
    intro p acc
    have hw := wid_lt L
    have hlt : p.val < 20 := lt_of_lt_of_eq p.isLt t2_trips
    by_cases e0 : p.val = 0
    · exact h0 d L q A hA B0 B1 B2 TT hTT O W hO p e0 acc
    by_cases l17 : p.val ≤ 17
    · exact hm d L q A hA B0 B1 B2 TT hTT O W hO p ⟨by omega, by omega, by omega⟩ acc
    by_cases e18 : p.val = 18
    · by_cases c3 : wid L + 32 * (2 * p.val + 3) < 1250
      · exact hm d L q A hA B0 B1 B2 TT hTT O W hO p ⟨by omega, by omega, c3⟩ acc
      · exact h18 d L q A hA B0 B1 B2 TT hTT O W hO p ⟨e18, by omega⟩ acc
    have e19 : p.val = 19 := by omega
    by_cases c1 : wid L + 32 * (2 * p.val + 1) < 1250
    · exact h19s d L q A hA B0 B1 B2 TT hTT O W hO p ⟨e19, c1⟩ acc
    · exact h19n d L q A hA B0 B1 B2 TT hTT O W hO p ⟨e19, by omega⟩ acc
  have e20 : ∀ acc, pairInv d L q A B0 B1 B2 TT O W (Scf.trips k0_t2_loop.lb k0_t2_loop.ub k0_t2_loop.st) acc
      = pairInv d L q A B0 B1 B2 TT O W 20 acc :=
    fun acc => congrArg (fun n => pairInv d L q A B0 B1 B2 TT O W n acc) t2_trips
  iintro ⟨HI, HK⟩
  iapply (Scf.wp_for_bind frame (wpE (defs₀ (F := F)) 𝒱₀ (thr d L) none) Set.univ k0_t2_loop.lb k0_t2_loop.ub k0_t2_loop.st k0_t2_ok 0#32
    (k0_t2_body (F := F) L aV (Memref.isWhole_whole _) w0V (Memref.isWhole_whole _) w1V (Memref.isWhole_whole _) w2V (Memref.isWhole_whole _) oV (Memref.isWhole_whole _) sA0 (Memref.isWhole_whole _) sA1 (Memref.isWhole_whole _) sO0 (Memref.isWhole_whole _) sO1 (Memref.isWhole_whole _) sW0 (Memref.isWhole_whole _) sW1 (Memref.isWhole_whole _) sW2 (Memref.isWhole_whole _) sT (Memref.isWhole_whole _) cc0_scratch8 cc0_scratch9 cc0_scratch10 cc0_scratch11 cc0_scoped0 cc0_scoped1 cc0_scoped2)
    (fun n acc => pairInv d L q A B0 B1 B2 TT O W n acc) step) $$ [HI]
  · iexact HI
  iintro %acc Hinv
  iapply HK
  iapply (Entails.of_eq (e20 acc)) $$ Hinv

end Cert.Proof.KB

end
-- ==== Proof.KBRoundLib.lean ====
/-
  Lemmas the rounds of the pair loop share: a chunk's columns of the result restated over the program's slice, and a
  copy-out's landing restated at the final contents whatever offsets spell its slices.
-/
import proofs.«203793_g3813930959492_cont_8to1_b_1292_12_alg».proof.Proof.KBIface
import proofs.«203793_g3813930959492_cont_8to1_b_1292_12_alg».proof.Proof.KBCond
import proofs.«203793_g3813930959492_cont_8to1_b_1292_12_alg».proof.Proof.KBFacts
import proofs.«203793_g3813930959492_cont_8to1_b_1292_12_alg».proof.Proof.KBValue

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

omit [FloatOps F] in
theorem pts_oSl (d : Dev nD) (L : grid0.Coords) (off : Fin 2 → ℕ) (h : ∀ a, off a + S64x640.size a ≤ S64x800000.size a) (n : ℕ) (e : off = ![0, 640 * n])
    (f : Buf (Elt F) (oLoc d)) :
    ((oSl off h).view.loc (thr d L) ↦[(oSl off h).view.set]{fullShare} f : sProp 𝕄) = (oLoc d ↦[chunkSet n]{fullShare} f) := by
  rw [oSl_set off h n e]

theorem out_pts0' (d : Dev nD) (L : grid0.Coords) (A : Buf (Elt F) (aLoc d)) (hA : ∀ i, A i = 0#32 ∨ A i = 1#32)
    (B0 : Buf (Elt F) (w0Loc d)) (B1 : Buf (Elt F) (w1Loc d)) (B2 : Buf (Elt F) (w2Loc d)) (TT : Buf (Elt F) ((thr d L).loc cc0_scratch7))
    (hTT : IsTable (F := F) B0 B1 B2 TT) (i : ℕ) (hi : wid L + 32 * i < 1250)
    (offo : Fin 2 → ℕ) (ho : ∀ a, offo a + S64x640.size a ≤ S64x800000.size a) (offa : Fin 2 → ℕ) (ha : ∀ a, offa a + S3x640.size a ≤ S3x800000.size a)
    (eo : offo = offI L i) (ea : offa = offI L i) (fA : Buf (Elt F) ((thr d L).loc cc0_scratch0)) (o : Buf (Elt F) (oLoc d)) :
    ((oSl offo ho).view.loc (thr d L) ↦[(oSl offo ho).view.set]{fullShare}
        (oSl offo ho).view.writes (Elt F) o [⟨Rect.whole S64x640, ReadAs.same.apply (View.read (Elt F) (sO0 : Memref sig .scVector .vmem S64x640 .f32).view
          (gathered (F := F) (View.write (Elt F) (sA0 : Memref sig .scVector .vmem S3x640 .i32).view fA (payA d A offa ha) Finset.univ) TT))⟩] : sProp 𝕄)
      = ((oSl offo ho).view.loc (thr d L) ↦[(oSl offo ho).view.set]{fullShare} GT (F := F) A B0 B1 B2) := by
  subst eo; subst ea
  exact out_pts0 (F := F) d L A hA B0 B1 B2 TT hTT i hi fA o

theorem out_pts1' (d : Dev nD) (L : grid0.Coords) (A : Buf (Elt F) (aLoc d)) (hA : ∀ i, A i = 0#32 ∨ A i = 1#32)
    (B0 : Buf (Elt F) (w0Loc d)) (B1 : Buf (Elt F) (w1Loc d)) (B2 : Buf (Elt F) (w2Loc d)) (TT : Buf (Elt F) ((thr d L).loc cc0_scratch7))
    (hTT : IsTable (F := F) B0 B1 B2 TT) (i : ℕ) (hi : wid L + 32 * i < 1250)
    (offo : Fin 2 → ℕ) (ho : ∀ a, offo a + S64x640.size a ≤ S64x800000.size a) (offa : Fin 2 → ℕ) (ha : ∀ a, offa a + S3x640.size a ≤ S3x800000.size a)
    (eo : offo = offI L i) (ea : offa = offI L i) (fA : Buf (Elt F) ((thr d L).loc cc0_scratch1)) (o : Buf (Elt F) (oLoc d)) :
    ((oSl offo ho).view.loc (thr d L) ↦[(oSl offo ho).view.set]{fullShare}
        (oSl offo ho).view.writes (Elt F) o [⟨Rect.whole S64x640, ReadAs.same.apply (View.read (Elt F) (sO1 : Memref sig .scVector .vmem S64x640 .f32).view
          (gathered (F := F) (View.write (Elt F) (sA1 : Memref sig .scVector .vmem S3x640 .i32).view fA (payA d A offa ha) Finset.univ) TT))⟩] : sProp 𝕄)
      = ((oSl offo ho).view.loc (thr d L) ↦[(oSl offo ho).view.set]{fullShare} GT (F := F) A B0 B1 B2) := by
  subst eo; subst ea
  exact out_pts1 (F := F) d L A hA B0 B1 B2 TT hTT i hi fA o

end Cert.Proof.KB

end
-- ==== Proof.KBRegion3.lean ====
/-
  The pass over the second index scratch inside the pair loop: forty trips, each gathering sixteen more columns of the
  tile's second output scratch from the table, by the three index words of each edge.
-/
import proofs.«203793_g3813930959492_cont_8to1_b_1292_12_alg».proof.Proof.KBPiece

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The three index words of a group, each 0 or 1, make a table column number below 8; with a row number below 64 the
    indexed load's side condition holds. -/
theorem chk_pay2 (l0 l1 l2 : Vec F S1x16 .i32) (h0 : ∀ y, l0 y = 0#32 ∨ l0 y = 1#32) (h1 : ∀ y, l1 y = 0#32 ∨ l1 y = 1#32)
    (h2 : ∀ y, l2 y = 0#32 ∨ l2 y = 1#32) (j : ℕ) (hj : j < 64) :
    ∀ a x, ((![broadcast S16 (BitVec.ofNat 32 j), k0_pay2 (F := F) l0 l1 l2] : Fin 2 → IVec S16 32) a x).toNat < S64x16.size a := by
  intro a x
  match a with
  | 0 =>
    show (BitVec.ofNat 32 j).toNat < 64
    rw [BitVec.toNat_ofNat]; exact lt_of_le_of_lt (Nat.mod_le _ _) hj
  | 1 =>
    show (IntOp.addi (IntOp.addi (IntOp.muli (l0 _) 4#32) (IntOp.muli (l1 _) 2#32)) (l2 _)).toNat < 16
    rcases h0 (Shape.reshapeEquiv shapeCasts_S1x16_S16 x) with e0 | e0 <;> rcases h1 (Shape.reshapeEquiv shapeCasts_S1x16_S16 x) with e1 | e1 <;>
      rcases h2 (Shape.reshapeEquiv shapeCasts_S1x16_S16 x) with e2 | e2 <;> rw [e0, e1, e2] <;> decide

/-- The writes of one trip into this pass's output scratch, read entry by entry. -/
theorem colblock_t3 (f : (sO1 : Memref sig .scVector .vmem S64x640 .f32).view.ty.Contents (Elt F)) (G : S64x640.Idx → F .f32) (g : ℕ)
    (Lp : List (View.Piece (Elt F) S64x640 .f32)) (hL : List.Forall₂ (AtRow G g) rows64 Lp)
    (hold : ∀ y : S64x640.Idx, (y 1 : Fin 640).val < 16 * g → f y = G y)
    (y : S64x640.Idx) (hy : (y 1 : Fin 640).val < 16 * (g + 1)) :
    ((sO1 : Memref sig .scVector .vmem S64x640 .f32).view.writes (Elt F) f Lp) y = G y :=
  colblock_of_rows (sO1 : Memref sig .scVector .vmem S64x640 .f32).view f G g rows64 Lp rows64_all hL hold y hy

/-- Before trip g of the pass: the index scratch and the table as they were, and the output scratch holding the
    gathered table entries in every column below 16 g. -/
def invt3 (d : Dev nD) (L : grid0.Coords) (AA : Buf (Elt F) ((thr d L).loc cc0_scratch1))
    (TT : Buf (Elt F) ((thr d L).loc cc0_scratch7)) (g : ℕ) (_ : BitVec 32) : sProp 𝕄 :=
  iprop(((sA1 : Memref sig .scVector .vmem S3x640 .i32).view.loc (thr d L) ↦{fullShare} AA) ∗ ((sT : Memref sig .scVector .vmem S64x16 .f32).view.loc (thr d L) ↦{fullShare} TT)
    ∗ ∃ f : Buf (Elt F) ((thr d L).loc cc0_scratch3), ((sO1 : Memref sig .scVector .vmem S64x640 .f32).view.loc (thr d L) ↦{fullShare} f)
        ∗ ⌜∀ y : S64x640.Idx, (y 1 : Fin 640).val < 16 * g → f y = gathered (F := F) AA TT y⌝)

set_option maxHeartbeats 16000000 in
set_option sl_exec.dischHeartbeats 400000 in
/-- One trip: sixteen more columns of the output scratch are gathered. -/
theorem region_t3 (d : Dev nD) (L : grid0.Coords) (AA : Buf (Elt F) ((thr d L).loc cc0_scratch1))
    (hAA : ∀ i, AA i = 0#32 ∨ AA i = 1#32) (TT : Buf (Elt F) ((thr d L).loc cc0_scratch7))
    (p : Fin k0_t2_loop.trips) (h2 : k0_cond2 L p = 1#1)
    (g : Fin k0_t3_loop.trips) (acc : BitVec 32) :
    invt3 (F := F) d L AA TT g.val acc
      ⊢ wp frame (wpE (defs₀ (F := F)) 𝒱₀ (thr d L) none) Set.univ ((k0_t3_body (F := F) L aV (Memref.isWhole_whole _) w0V (Memref.isWhole_whole _) w1V (Memref.isWhole_whole _) w2V (Memref.isWhole_whole _) oV (Memref.isWhole_whole _) sA0 (Memref.isWhole_whole _) sA1 (Memref.isWhole_whole _) sO0 (Memref.isWhole_whole _) sO1 (Memref.isWhole_whole _) sW0 (Memref.isWhole_whole _) sW1 (Memref.isWhole_whole _) sW2 (Memref.isWhole_whole _) sT (Memref.isWhole_whole _) cc0_scratch8 cc0_scratch9 cc0_scratch10 cc0_scratch11 cc0_scoped0 cc0_scoped1 cc0_scoped2 p h2) g acc)
          (invt3 (F := F) d L AA TT (g.val + 1)) := by
  unfold invt3 k0_t3_body
  iintro ⟨HsA, HsT, %fO, HsO, %hold⟩
  sl_exec (disch := exact fun _ => chk_pay2 _ _ _ (rd01_A1 d _ _ AA hAA _ _) (rd01_A1 d _ _ AA hAA _ _) (rd01_A1 d _ _ AA hAA _ _) _ (by decide))
  repeat (rw [SparseCore.vectorLoadIdx_bind (thr d L)]; sl_exec (disch := exact fun _ => chk_pay2 _ _ _ (rd01_A1 d _ _ AA hAA _ _) (rd01_A1 d _ _ AA hAA _ _) (rd01_A1 d _ _ AA hAA _ _) _ (by decide)))
  sl_step
  isplitl [HsA]; · iexact HsA
  isplitl [HsT]; · iexact HsT
  iexists _
  isplitl [HsO]; · iexact HsO
  ipureintro
  intro y hy
  sl_unfold_run_names
  refine colblock_t3 fO (gathered (F := F) AA TT) g.val _ ?_ hold y hy
  unfold rows64
  repeat' (first | exact List.Forall₂.nil | refine List.Forall₂.cons ?_ ?_)
  all_goals
    (refine atRow_piece AA TT g.val _ _ _ _ _ ?_ ?_
     · exact ClosedOff.eq
     · exact fun c hc =>
        loadIdx_gather AA TT g.val _ _ _ _ _ _ _ _ c hc (Memref.readAt_whole (Elt F) cc0_scratch7 TT) (fun _ => rfl)
          (fun y hc => readAt_row (sA1 : Memref sig .scVector .vmem S3x640 .i32).view AA AA 0 (by decide) g.val _ _ y hc (fun _ => rfl) (k0_off72_eq g))
          (fun y hc => readAt_row (sA1 : Memref sig .scVector .vmem S3x640 .i32).view AA AA 1 (by decide) g.val _ _ y hc (fun _ => rfl) (k0_off73_eq g))
          (fun y hc => readAt_row (sA1 : Memref sig .scVector .vmem S3x640 .i32).view AA AA 2 (by decide) g.val _ _ y hc (fun _ => rfl) (k0_off74_eq g)))

end Cert.Proof.KB

end
-- ==== Proof.KBCompute3.lean ====
/-
  The pass over the second index scratch as one step of the tile's run: the loop of forty trips by its invariant.
-/
import proofs.«203793_g3813930959492_cont_8to1_b_1292_12_alg».proof.Proof.KBRegion3

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The whole pass: from any contents of the output scratch to the gathered table entries, the index scratch and the
    table unchanged; the program after the loop runs from there. -/
theorem compute_t3 (d : Dev nD) (L : grid0.Coords) (AA : Buf (Elt F) ((thr d L).loc cc0_scratch1))
    (hAA : ∀ i, AA i = 0#32 ∨ AA i = 1#32) (TT : Buf (Elt F) ((thr d L).loc cc0_scratch7))
    (fO : Buf (Elt F) ((thr d L).loc cc0_scratch3))
    (p : Fin k0_t2_loop.trips) (h2 : k0_cond2 L p = 1#1)
    {α : Type} (k : BitVec 32 → Prog (TpuEff nD τ sig (Elt F) Λ₀ (.scVector (cV L) (jV L))) α) (Q : α → sProp 𝕄) :
    iprop(((sA1 : Memref sig .scVector .vmem S3x640 .i32).view.loc (thr d L) ↦{fullShare} AA) ∗ ((sT : Memref sig .scVector .vmem S64x16 .f32).view.loc (thr d L) ↦{fullShare} TT)
        ∗ ((sO1 : Memref sig .scVector .vmem S64x640 .f32).view.loc (thr d L) ↦{fullShare} fO)
        ∗ (∀ acc, iprop(((sA1 : Memref sig .scVector .vmem S3x640 .i32).view.loc (thr d L) ↦{fullShare} AA) ∗ ((sT : Memref sig .scVector .vmem S64x16 .f32).view.loc (thr d L) ↦{fullShare} TT)
              ∗ ((sO1 : Memref sig .scVector .vmem S64x640 .f32).view.loc (thr d L) ↦{fullShare} gathered (F := F) AA TT))
            -∗ wp frame (wpE (defs₀ (F := F)) 𝒱₀ (thr d L) none) Set.univ (k acc) Q))
      ⊢ wp frame (wpE (defs₀ (F := F)) 𝒱₀ (thr d L) none) Set.univ
          (Scf.Loop.for k0_t3_loop (k0_t3_ok L p h2) 0#32 (k0_t3_body (F := F) L aV (Memref.isWhole_whole _) w0V (Memref.isWhole_whole _) w1V (Memref.isWhole_whole _) w2V (Memref.isWhole_whole _) oV (Memref.isWhole_whole _) sA0 (Memref.isWhole_whole _) sA1 (Memref.isWhole_whole _) sO0 (Memref.isWhole_whole _) sO1 (Memref.isWhole_whole _) sW0 (Memref.isWhole_whole _) sW1 (Memref.isWhole_whole _) sW2 (Memref.isWhole_whole _) sT (Memref.isWhole_whole _) cc0_scratch8 cc0_scratch9 cc0_scratch10 cc0_scratch11 cc0_scoped0 cc0_scoped1 cc0_scoped2 p h2) >>= k) Q := by
  iintro ⟨HA, HT, HO, HK⟩
  iapply (Scf.wp_for_bind frame (wpE (defs₀ (F := F)) 𝒱₀ (thr d L) none) Set.univ k0_t3_loop.lb k0_t3_loop.ub k0_t3_loop.st
    (k0_t3_ok L p h2) 0#32 (k0_t3_body (F := F) L aV (Memref.isWhole_whole _) w0V (Memref.isWhole_whole _) w1V (Memref.isWhole_whole _) w2V (Memref.isWhole_whole _) oV (Memref.isWhole_whole _) sA0 (Memref.isWhole_whole _) sA1 (Memref.isWhole_whole _) sO0 (Memref.isWhole_whole _) sO1 (Memref.isWhole_whole _) sW0 (Memref.isWhole_whole _) sW1 (Memref.isWhole_whole _) sW2 (Memref.isWhole_whole _) sT (Memref.isWhole_whole _) cc0_scratch8 cc0_scratch9 cc0_scratch10 cc0_scratch11 cc0_scoped0 cc0_scoped1 cc0_scoped2 p h2) (invt3 (F := F) d L AA TT)
    (region_t3 d L AA hAA TT p h2)) $$ [HA HT HO]
  · unfold invt3
    isplitl [HA]; · iexact HA
    isplitl [HT]; · iexact HT
    iexists fO
    isplitl [HO]; · iexact HO
    ipureintro
    intro y hy
    exact absurd hy (by omega)
  iintro %acc HI
  unfold invt3
  icases HI with ⟨HA, HT, %f, HO, %hf⟩
  have htrips : Scf.trips k0_t3_loop.lb k0_t3_loop.ub k0_t3_loop.st = 40 := by decide
  have hfe : f = gathered (F := F) AA TT := by
    funext y
    have hy : (y 1 : Fin 640).val < 640 := (y 1 : Fin 640).isLt
    exact hf y (by rw [htrips]; omega)
  subst hfe
  iapply HK
  isplitl [HA]; · iexact HA
  isplitl [HT]; · iexact HT
  iexact HO

end Cert.Proof.KB

end
-- ==== Proof.KBRegion4.lean ====
/-
  The pass over the first index scratch inside the pair loop: forty trips, each gathering sixteen more columns of the
  tile's first output scratch from the table, by the three index words of each edge.
-/
import proofs.«203793_g3813930959492_cont_8to1_b_1292_12_alg».proof.Proof.KBPiece

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The three index words of a group, each 0 or 1, make a table column number below 8; with a row number below 64 the
    indexed load's side condition holds. -/
theorem chk_pay3 (l0 l1 l2 : Vec F S1x16 .i32) (h0 : ∀ y, l0 y = 0#32 ∨ l0 y = 1#32) (h1 : ∀ y, l1 y = 0#32 ∨ l1 y = 1#32)
    (h2 : ∀ y, l2 y = 0#32 ∨ l2 y = 1#32) (j : ℕ) (hj : j < 64) :
    ∀ a x, ((![broadcast S16 (BitVec.ofNat 32 j), k0_pay3 (F := F) l0 l1 l2] : Fin 2 → IVec S16 32) a x).toNat < S64x16.size a := by
  intro a x
  match a with
  | 0 =>
    show (BitVec.ofNat 32 j).toNat < 64
    rw [BitVec.toNat_ofNat]; exact lt_of_le_of_lt (Nat.mod_le _ _) hj
  | 1 =>
    show (IntOp.addi (IntOp.addi (IntOp.muli (l0 _) 4#32) (IntOp.muli (l1 _) 2#32)) (l2 _)).toNat < 16
    rcases h0 (Shape.reshapeEquiv shapeCasts_S1x16_S16 x) with e0 | e0 <;> rcases h1 (Shape.reshapeEquiv shapeCasts_S1x16_S16 x) with e1 | e1 <;>
      rcases h2 (Shape.reshapeEquiv shapeCasts_S1x16_S16 x) with e2 | e2 <;> rw [e0, e1, e2] <;> decide

/-- The writes of one trip into this pass's output scratch, read entry by entry. -/
theorem colblock_t4 (f : (sO0 : Memref sig .scVector .vmem S64x640 .f32).view.ty.Contents (Elt F)) (G : S64x640.Idx → F .f32) (g : ℕ)
    (Lp : List (View.Piece (Elt F) S64x640 .f32)) (hL : List.Forall₂ (AtRow G g) rows64 Lp)
    (hold : ∀ y : S64x640.Idx, (y 1 : Fin 640).val < 16 * g → f y = G y)
    (y : S64x640.Idx) (hy : (y 1 : Fin 640).val < 16 * (g + 1)) :
    ((sO0 : Memref sig .scVector .vmem S64x640 .f32).view.writes (Elt F) f Lp) y = G y :=
  colblock_of_rows (sO0 : Memref sig .scVector .vmem S64x640 .f32).view f G g rows64 Lp rows64_all hL hold y hy

/-- Before trip g of the pass: the index scratch and the table as they were, and the output scratch holding the
    gathered table entries in every column below 16 g. -/
def invt4 (d : Dev nD) (L : grid0.Coords) (AA : Buf (Elt F) ((thr d L).loc cc0_scratch0))
    (TT : Buf (Elt F) ((thr d L).loc cc0_scratch7)) (g : ℕ) (_ : BitVec 32) : sProp 𝕄 :=
  iprop(((sA0 : Memref sig .scVector .vmem S3x640 .i32).view.loc (thr d L) ↦{fullShare} AA) ∗ ((sT : Memref sig .scVector .vmem S64x16 .f32).view.loc (thr d L) ↦{fullShare} TT)
    ∗ ∃ f : Buf (Elt F) ((thr d L).loc cc0_scratch2), ((sO0 : Memref sig .scVector .vmem S64x640 .f32).view.loc (thr d L) ↦{fullShare} f)
        ∗ ⌜∀ y : S64x640.Idx, (y 1 : Fin 640).val < 16 * g → f y = gathered (F := F) AA TT y⌝)

set_option maxHeartbeats 16000000 in
set_option sl_exec.dischHeartbeats 400000 in
/-- One trip: sixteen more columns of the output scratch are gathered. -/
theorem region_t4 (d : Dev nD) (L : grid0.Coords) (AA : Buf (Elt F) ((thr d L).loc cc0_scratch0))
    (hAA : ∀ i, AA i = 0#32 ∨ AA i = 1#32) (TT : Buf (Elt F) ((thr d L).loc cc0_scratch7))
    (p : Fin k0_t2_loop.trips) (h5 : k0_cond5 L p = 1#1)
    (g : Fin k0_t4_loop.trips) (acc : BitVec 32) :
    invt4 (F := F) d L AA TT g.val acc
      ⊢ wp frame (wpE (defs₀ (F := F)) 𝒱₀ (thr d L) none) Set.univ ((k0_t4_body (F := F) L aV (Memref.isWhole_whole _) w0V (Memref.isWhole_whole _) w1V (Memref.isWhole_whole _) w2V (Memref.isWhole_whole _) oV (Memref.isWhole_whole _) sA0 (Memref.isWhole_whole _) sA1 (Memref.isWhole_whole _) sO0 (Memref.isWhole_whole _) sO1 (Memref.isWhole_whole _) sW0 (Memref.isWhole_whole _) sW1 (Memref.isWhole_whole _) sW2 (Memref.isWhole_whole _) sT (Memref.isWhole_whole _) cc0_scratch8 cc0_scratch9 cc0_scratch10 cc0_scratch11 cc0_scoped0 cc0_scoped1 cc0_scoped2 p h5) g acc)
          (invt4 (F := F) d L AA TT (g.val + 1)) := by
  unfold invt4 k0_t4_body
  iintro ⟨HsA, HsT, %fO, HsO, %hold⟩
  sl_exec (disch := exact fun _ => chk_pay3 _ _ _ (rd01_A0 d _ _ AA hAA _ _) (rd01_A0 d _ _ AA hAA _ _) (rd01_A0 d _ _ AA hAA _ _) _ (by decide))
  repeat (rw [SparseCore.vectorLoadIdx_bind (thr d L)]; sl_exec (disch := exact fun _ => chk_pay3 _ _ _ (rd01_A0 d _ _ AA hAA _ _) (rd01_A0 d _ _ AA hAA _ _) (rd01_A0 d _ _ AA hAA _ _) _ (by decide)))
  sl_step
  isplitl [HsA]; · iexact HsA
  isplitl [HsT]; · iexact HsT
  iexists _
  isplitl [HsO]; · iexact HsO
  ipureintro
  intro y hy
  sl_unfold_run_names
  refine colblock_t4 fO (gathered (F := F) AA TT) g.val _ ?_ hold y hy
  unfold rows64
  repeat' (first | exact List.Forall₂.nil | refine List.Forall₂.cons ?_ ?_)
  all_goals
    (refine atRow_piece AA TT g.val _ _ _ _ _ ?_ ?_
     · exact ClosedOff.eq
     · exact fun c hc =>
        loadIdx_gather AA TT g.val _ _ _ _ _ _ _ _ c hc (Memref.readAt_whole (Elt F) cc0_scratch7 TT) (fun _ => rfl)
          (fun y hc => readAt_row (sA0 : Memref sig .scVector .vmem S3x640 .i32).view AA AA 0 (by decide) g.val _ _ y hc (fun _ => rfl) (k0_off141_eq g))
          (fun y hc => readAt_row (sA0 : Memref sig .scVector .vmem S3x640 .i32).view AA AA 1 (by decide) g.val _ _ y hc (fun _ => rfl) (k0_off142_eq g))
          (fun y hc => readAt_row (sA0 : Memref sig .scVector .vmem S3x640 .i32).view AA AA 2 (by decide) g.val _ _ y hc (fun _ => rfl) (k0_off143_eq g)))

end Cert.Proof.KB

end
-- ==== Proof.KBCompute4.lean ====
/-
  The pass over the first index scratch inside the pair loop as one step of the tile's run: the loop of forty trips by
  its invariant.
-/
import proofs.«203793_g3813930959492_cont_8to1_b_1292_12_alg».proof.Proof.KBRegion4

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The whole pass: from any contents of the output scratch to the gathered table entries, the index scratch and the
    table unchanged; the program after the loop runs from there. -/
theorem compute_t4 (d : Dev nD) (L : grid0.Coords) (AA : Buf (Elt F) ((thr d L).loc cc0_scratch0))
    (hAA : ∀ i, AA i = 0#32 ∨ AA i = 1#32) (TT : Buf (Elt F) ((thr d L).loc cc0_scratch7))
    (fO : Buf (Elt F) ((thr d L).loc cc0_scratch2))
    (p : Fin k0_t2_loop.trips) (h5 : k0_cond5 L p = 1#1)
    {α : Type} (k : BitVec 32 → Prog (TpuEff nD τ sig (Elt F) Λ₀ (.scVector (cV L) (jV L))) α) (Q : α → sProp 𝕄) :
    iprop(((sA0 : Memref sig .scVector .vmem S3x640 .i32).view.loc (thr d L) ↦{fullShare} AA) ∗ ((sT : Memref sig .scVector .vmem S64x16 .f32).view.loc (thr d L) ↦{fullShare} TT)
        ∗ ((sO0 : Memref sig .scVector .vmem S64x640 .f32).view.loc (thr d L) ↦{fullShare} fO)
        ∗ (∀ acc, iprop(((sA0 : Memref sig .scVector .vmem S3x640 .i32).view.loc (thr d L) ↦{fullShare} AA) ∗ ((sT : Memref sig .scVector .vmem S64x16 .f32).view.loc (thr d L) ↦{fullShare} TT)
              ∗ ((sO0 : Memref sig .scVector .vmem S64x640 .f32).view.loc (thr d L) ↦{fullShare} gathered (F := F) AA TT))
            -∗ wp frame (wpE (defs₀ (F := F)) 𝒱₀ (thr d L) none) Set.univ (k acc) Q))
      ⊢ wp frame (wpE (defs₀ (F := F)) 𝒱₀ (thr d L) none) Set.univ
          (Scf.Loop.for k0_t4_loop (k0_t4_ok L p h5) 0#32 (k0_t4_body (F := F) L aV (Memref.isWhole_whole _) w0V (Memref.isWhole_whole _) w1V (Memref.isWhole_whole _) w2V (Memref.isWhole_whole _) oV (Memref.isWhole_whole _) sA0 (Memref.isWhole_whole _) sA1 (Memref.isWhole_whole _) sO0 (Memref.isWhole_whole _) sO1 (Memref.isWhole_whole _) sW0 (Memref.isWhole_whole _) sW1 (Memref.isWhole_whole _) sW2 (Memref.isWhole_whole _) sT (Memref.isWhole_whole _) cc0_scratch8 cc0_scratch9 cc0_scratch10 cc0_scratch11 cc0_scoped0 cc0_scoped1 cc0_scoped2 p h5) >>= k) Q := by
  iintro ⟨HA, HT, HO, HK⟩
  iapply (Scf.wp_for_bind frame (wpE (defs₀ (F := F)) 𝒱₀ (thr d L) none) Set.univ k0_t4_loop.lb k0_t4_loop.ub k0_t4_loop.st
    (k0_t4_ok L p h5) 0#32 (k0_t4_body (F := F) L aV (Memref.isWhole_whole _) w0V (Memref.isWhole_whole _) w1V (Memref.isWhole_whole _) w2V (Memref.isWhole_whole _) oV (Memref.isWhole_whole _) sA0 (Memref.isWhole_whole _) sA1 (Memref.isWhole_whole _) sO0 (Memref.isWhole_whole _) sO1 (Memref.isWhole_whole _) sW0 (Memref.isWhole_whole _) sW1 (Memref.isWhole_whole _) sW2 (Memref.isWhole_whole _) sT (Memref.isWhole_whole _) cc0_scratch8 cc0_scratch9 cc0_scratch10 cc0_scratch11 cc0_scoped0 cc0_scoped1 cc0_scoped2 p h5) (invt4 (F := F) d L AA TT)
    (region_t4 d L AA hAA TT p h5)) $$ [HA HT HO]
  · unfold invt4
    isplitl [HA]; · iexact HA
    isplitl [HT]; · iexact HT
    iexists fO
    isplitl [HO]; · iexact HO
    ipureintro
    intro y hy
    exact absurd hy (by omega)
  iintro %acc HI
  unfold invt4
  icases HI with ⟨HA, HT, %f, HO, %hf⟩
  have htrips : Scf.trips k0_t4_loop.lb k0_t4_loop.ub k0_t4_loop.st = 40 := by decide
  have hfe : f = gathered (F := F) AA TT := by
    funext y
    have hy : (y 1 : Fin 640).val < 640 := (y 1 : Fin 640).isLt
    exact hf y (by rw [htrips]; omega)
  subst hfe
  iapply HK
  isplitl [HA]; · iexact HA
  isplitl [HT]; · iexact HT
  iexact HO

end Cert.Proof.KB

end
-- ==== Proof.KBRound0.lean ====
/-
  The first round of the pair loop.

  Before it the copy-in of chunk 1 and the copy-out of chunk 0 are under way, and the second output scratch is at rest.
  The round prefetches chunk 2, waits for chunk 1 (there is no earlier copy-out of the second output scratch to wait
  for), gathers chunk 1 and sends it out; then prefetches chunk 3, waits for chunk 2 and for the copy-out of chunk 0,
  gathers chunk 2 and sends it out. Every tile has these chunks: its number is below 32, so 32 + 96 < 1250.
-/
import proofs.«203793_g3813930959492_cont_8to1_b_1292_12_alg».proof.Proof.KBIface
import proofs.«203793_g3813930959492_cont_8to1_b_1292_12_alg».proof.Proof.KBCond
import proofs.«203793_g3813930959492_cont_8to1_b_1292_12_alg».proof.Proof.KBFacts
import proofs.«203793_g3813930959492_cont_8to1_b_1292_12_alg».proof.Proof.KBValue
import proofs.«203793_g3813930959492_cont_8to1_b_1292_12_alg».proof.Proof.KBRoundLib
import proofs.«203793_g3813930959492_cont_8to1_b_1292_12_alg».proof.Proof.KBCompute3
import proofs.«203793_g3813930959492_cont_8to1_b_1292_12_alg».proof.Proof.KBCompute4

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

set_option maxHeartbeats 8000000 in
theorem round_zero (d : Dev nD) (L : grid0.Coords) (q : PosShare TreeShare) (A : Buf (Elt F) (aLoc d)) (hA : ∀ i, A i = 0#32 ∨ A i = 1#32)
    (B0 : Buf (Elt F) (w0Loc d)) (B1 : Buf (Elt F) (w1Loc d)) (B2 : Buf (Elt F) (w2Loc d)) (TT : Buf (Elt F) ((thr d L).loc cc0_scratch7))
    (hTT : IsTable (F := F) B0 B1 B2 TT)
    (O : CellTallies nD τ sig (HIx 1)) (W : Waits sig (HIx 1)) (hO : ∀ g, O g none = 0)
    (p : Fin k0_t2_loop.trips) (hp : p.val = 0) (acc : BitVec 32) :
    pairInv d L q A B0 B1 B2 TT O W p.val acc
      ⊢ wp frame (wpE (defs₀ (F := F)) 𝒱₀ (thr d L) none) Set.univ (k0_t2_body (F := F) L aV (Memref.isWhole_whole _) w0V (Memref.isWhole_whole _) w1V (Memref.isWhole_whole _) w2V (Memref.isWhole_whole _) oV (Memref.isWhole_whole _) sA0 (Memref.isWhole_whole _) sA1 (Memref.isWhole_whole _) sO0 (Memref.isWhole_whole _) sO1 (Memref.isWhole_whole _) sW0 (Memref.isWhole_whole _) sW1 (Memref.isWhole_whole _) sW2 (Memref.isWhole_whole _) sT (Memref.isWhole_whole _) cc0_scratch8 cc0_scratch9 cc0_scratch10 cc0_scratch11 cc0_scoped0 cc0_scoped1 cc0_scoped2 p acc)
          (pairInv d L q A B0 B1 B2 TT O W (p.val + 1)) := by
  have hw := wid_lt L
  have hp20 : p.val < 20 := by omega
  have hp21 : p.val + 1 < 20 := by omega
  have c1 : wid L + 32 * (2 * p.val + 1) < 1250 := by omega
  have c2 : wid L + 32 * (2 * p.val + 2) < 1250 := by omega
  have c3 : wid L + 32 * (2 * p.val + 3) < 1250 := by omega
  have c3' : wid L + 32 * (2 * (p.val + 1) + 1) < 1250 := by omega
  have k0_h2 : k0_cond2 L p = 1#1 := (cond2_eq L p).trans (if_pos c1)
  have k0_h3 : k0_cond3 L p = 1#1 := (cond3_eq L p).trans (if_pos c2)
  have k0_h5 : k0_cond5 L p = 1#1 := (cond5_eq L p).trans (if_pos c2)
  have k0_h6 : k0_cond6 L p = 1#1 := (cond6_eq L p).trans (if_pos c3)
  have hp10 : ¬ p.val + 1 = 0 := by omega
  unfold pairInv; rw [if_pos hp20, if_pos hp21]
  unfold headInv; rw [if_pos c1, if_pos hp, if_pos c3', if_neg hp10]
  unfold Common InFl1 OutFl0 OutFl1 OutRest1
  unfold k0_t2_body
  iintro ⟨⟨#Hmw, HsT, ⟨%fA0, HsA0⟩, Hs8, %W', %hW', HO⟩, ⟨%offa, %ha, %ea, ⟨%fA1, Hs9⟩, HA⟩, ⟨%offo0, %ho0, %eo0, %AA0, Hs10, HsO0r⟩,
    ⟨⟨%fO1, HsO1r⟩, Hs11⟩, Htodo, Hdone⟩
  subst ea; subst eo0
  have hdA1 : Disjoint (aSl (k0_off71 L p) (k0_off71_inb L p k0_h2 k0_h3)).view.set (aSl (offI L (2 * p.val + 1)) ha).view.set :=
    aSl_disjoint _ _ _ _ (wid L + 32 * (2 * p.val + 2)) (wid L + 32 * (2 * p.val + 1)) ((offP71 L p).trans (offI_chunk L _)) (offI_chunk _ _) (by omega)
  have hdA2 : Disjoint (aSl (k0_off140 L p) (k0_off140_inb L p k0_h5 k0_h6)).view.set (aSl (k0_off71 L p) (k0_off71_inb L p k0_h2 k0_h3)).view.set :=
    aSl_disjoint _ _ _ _ (wid L + 32 * (2 * p.val + 3)) (wid L + 32 * (2 * p.val + 2)) ((offP140 L p).trans (offI_chunk L _)) ((offP71 L p).trans (offI_chunk L _)) (by omega)
  ihave Ht := (todo_take (F := F) d L (2 * p.val + 1) c1) $$ Htodo
  icases Ht with ⟨⟨%f1, Hc1⟩, Htodo⟩
  ihave Ht := (todo_take (F := F) d L (2 * p.val + 1 + 1) (by omega)) $$ Htodo
  icases Ht with ⟨⟨%f2, Hc2⟩, Htodo⟩
  ihave Hc1 := (Entails.of_eq (pts_oSl (F := F) d L (k0_off139 L p) (k0_off139_inb L p k0_h2) (wid L + 32 * (2 * p.val + 1)) ((offP139 L p).trans (offI_chunk L _)) f1).symm) $$ Hc1
  ihave Hc2 := (Entails.of_eq (pts_oSl (F := F) d L (k0_off208 L p) (k0_off208_inb L p k0_h5) (wid L + 32 * (2 * p.val + 1 + 1)) ((offP208 L p).trans (offI_chunk L _)) f2).symm) $$ Hc2
  sl_exec (disch := (clear * - hp; decide +kernel +revert))

  iapply (compute_t3 (F := F) d L _ (in01_A1 (F := F) d L A hA fA1 _ _) _ _ p k0_h2 _ _)
  isplitl [Hs9_dst]; · iexact Hs9_dst
  isplitl [HsT]; · iexact HsT
  isplitl [HsO1r]; · iexact HsO1r
  iintro %acc1 ⟨HsA1, HsT, HsO1⟩
  sl_exec (disch := (clear * - hp; decide +kernel +revert))

  iapply (compute_t4 (F := F) d L _ (in01_A0 (F := F) d L A hA fA0 _ _) _ _ p k0_h5 _ _)
  isplitl [HsA0]; · iexact HsA0
  isplitl [HsT]; · iexact HsT
  isplitl [HsO0r]; · iexact HsO0r
  iintro %acc2 ⟨HsA0, HsT, HsO0⟩
  sl_exec
  sl_step

  have e140 : k0_off140 L p = offI L (2 * (p.val + 1) + 1) := (offP140 L p).trans (congrArg (offI L) (by omega))
  have e208 : k0_off208 L p = offI L (2 * (p.val + 1)) := (offP208 L p).trans (congrArg (offI L) (by omega))
  have e139 : k0_off139 L p = offI L (2 * (p.val + 1) - 1) := (offP139 L p).trans (congrArg (offI L) (by omega))
  -- the table, the first index scratch at rest, what the tile owes
  isplitl [HsT HsA0 Hs8 HO]
  · isplitr; · iexact Hmw
    isplitl [HsT]; · iexact HsT
    isplitl [HsA0]; · iexists _; iexact HsA0
    isplitl [Hs8]; · iexact Hs8
    iexists _; isplitr
    swap
    · iexact HO
    · ipureintro; intro x hx
      rcases Finset.mem_insert.mp hx with hx | hx
      · subst hx; exact Or.inr rfl
      rcases Finset.mem_insert.mp hx with hx | hx
      · subst hx; exact Or.inr rfl
      rcases Finset.mem_insert.mp hx with hx | hx
      · subst hx; exact Or.inr rfl
      exact hW' x hx
  -- the next odd chunk on its way in
  isplitl [Hs9 HA]
  · iexists (k0_off140 L p), (k0_off140_inb L p k0_h5 k0_h6); isplitr
    · ipureintro; exact e140
    isplitl [Hs9]
    · iexists _; iexact Hs9
    · iexact HA
  -- the even chunk on its way out
  isplitl [Hs10 HsO0]
  · iexists (k0_off208 L p), (k0_off208_inb L p k0_h5); isplitr
    · ipureintro; exact e208
    iexists _
    isplitl [Hs10]
    · iapply (Transfers.Flight_mono countersEmb (thr d L) ?hm0) $$ Hs10
      case hm0 => exact sep_mono_left (Entails.of_eq (out_pts0' (F := F) d L A hA B0 B1 B2 TT hTT (2 * p.val + 2) c2 _ _ _ _ (offP208 L p) (offP71 L p) fA0 f2))
    · iexact HsO0
  -- the odd chunk on its way out
  isplitl [Hs11 HsO1]
  · iexists (k0_off139 L p), (k0_off139_inb L p k0_h2); isplitr
    · ipureintro; exact e139
    iexists _
    isplitl [Hs11]
    · iapply (Transfers.Flight_mono countersEmb (thr d L) ?hm1) $$ Hs11
      case hm1 => exact sep_mono_left (Entails.of_eq (out_pts1' (F := F) d L A hA B0 B1 B2 TT hTT (2 * p.val + 1) c1 _ _ _ _ (offP139 L p) rfl fA1 f1))
    · iexact HsO1
  -- what is left to do
  isplitl [Htodo]
  · rw [show 2 * (p.val + 1) + 1 = 2 * p.val + 1 + 1 + 1 by omega]; iexact Htodo
  -- what has come back: chunk 0 joins the (empty) set of finished chunks
  rw [show 2 * p.val - 1 = 2 * p.val by omega]
  ihave Hd2 := (Entails.of_eq (pts_oSl (F := F) d L (offI L (2 * p.val)) ho0 (wid L + 32 * (2 * p.val)) (offI_chunk L _) _)) $$ Hs10_dst
  ihave Hdone := (done_put (F := F) d L (2 * p.val) _) $$ [Hdone Hd2]
  · isplitl [Hdone] <;> iassumption
  rw [show 2 * (p.val + 1) - 1 = 2 * p.val + 1 by omega]
  iexact Hdone

end Cert.Proof.KB

end
-- ==== Proof.KBRoundMid.lean ====
/-
  A round of the pair loop in the middle of the run (rounds 1 … 18, when the tile still has a chunk 2p+3 to prefetch).

  Before the round the copy-in of chunk 2p+1 and the copy-outs of chunks 2p-1 and 2p are under way. The round prefetches
  chunk 2p+2, waits for chunk 2p+1 and for the copy-out of 2p-1, gathers chunk 2p+1 and sends it out; then prefetches
  chunk 2p+3, waits for chunk 2p+2 and for the copy-out of 2p, gathers chunk 2p+2 and sends it out.
-/
import proofs.«203793_g3813930959492_cont_8to1_b_1292_12_alg».proof.Proof.KBIface
import proofs.«203793_g3813930959492_cont_8to1_b_1292_12_alg».proof.Proof.KBCond
import proofs.«203793_g3813930959492_cont_8to1_b_1292_12_alg».proof.Proof.KBFacts
import proofs.«203793_g3813930959492_cont_8to1_b_1292_12_alg».proof.Proof.KBValue
import proofs.«203793_g3813930959492_cont_8to1_b_1292_12_alg».proof.Proof.KBRoundLib
import proofs.«203793_g3813930959492_cont_8to1_b_1292_12_alg».proof.Proof.KBCompute3
import proofs.«203793_g3813930959492_cont_8to1_b_1292_12_alg».proof.Proof.KBCompute4

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

set_option maxHeartbeats 8000000 in
theorem round_mid (d : Dev nD) (L : grid0.Coords) (q : PosShare TreeShare) (A : Buf (Elt F) (aLoc d)) (hA : ∀ i, A i = 0#32 ∨ A i = 1#32)
    (B0 : Buf (Elt F) (w0Loc d)) (B1 : Buf (Elt F) (w1Loc d)) (B2 : Buf (Elt F) (w2Loc d)) (TT : Buf (Elt F) ((thr d L).loc cc0_scratch7))
    (hTT : IsTable (F := F) B0 B1 B2 TT)
    (O : CellTallies nD τ sig (HIx 1)) (W : Waits sig (HIx 1)) (hO : ∀ g, O g none = 0)
    (p : Fin k0_t2_loop.trips) (hp1 : 1 ≤ p.val) (hp18 : p.val ≤ 18) (c3 : wid L + 32 * (2 * p.val + 3) < 1250) (acc : BitVec 32) :
    pairInv d L q A B0 B1 B2 TT O W p.val acc
      ⊢ wp frame (wpE (defs₀ (F := F)) 𝒱₀ (thr d L) none) Set.univ (k0_t2_body (F := F) L aV (Memref.isWhole_whole _) w0V (Memref.isWhole_whole _) w1V (Memref.isWhole_whole _) w2V (Memref.isWhole_whole _) oV (Memref.isWhole_whole _) sA0 (Memref.isWhole_whole _) sA1 (Memref.isWhole_whole _) sO0 (Memref.isWhole_whole _) sO1 (Memref.isWhole_whole _) sW0 (Memref.isWhole_whole _) sW1 (Memref.isWhole_whole _) sW2 (Memref.isWhole_whole _) sT (Memref.isWhole_whole _) cc0_scratch8 cc0_scratch9 cc0_scratch10 cc0_scratch11 cc0_scoped0 cc0_scoped1 cc0_scoped2 p acc)
          (pairInv d L q A B0 B1 B2 TT O W (p.val + 1)) := by
  have hw := wid_lt L
  have hp20 : p.val < 20 := by omega
  have hp21 : p.val + 1 < 20 := by omega
  have c1 : wid L + 32 * (2 * p.val + 1) < 1250 := by omega
  have c2 : wid L + 32 * (2 * p.val + 2) < 1250 := by omega
  have c3' : wid L + 32 * (2 * (p.val + 1) + 1) < 1250 := by omega
  have k0_h2 : k0_cond2 L p = 1#1 := (cond2_eq L p).trans (if_pos c1)
  have k0_h3 : k0_cond3 L p = 1#1 := (cond3_eq L p).trans (if_pos c2)
  have k0_h5 : k0_cond5 L p = 1#1 := (cond5_eq L p).trans (if_pos c2)
  have k0_h6 : k0_cond6 L p = 1#1 := (cond6_eq L p).trans (if_pos c3)
  have hp0 : ¬ p.val = 0 := by omega
  have hp10 : ¬ p.val + 1 = 0 := by omega
  unfold pairInv; rw [if_pos hp20, if_pos hp21]
  unfold headInv; rw [if_pos c1, if_neg hp0, if_pos c3', if_neg hp10]
  unfold Common InFl1 OutFl0 OutFl1
  unfold k0_t2_body
  iintro ⟨⟨#Hmw, HsT, ⟨%fA0, HsA0⟩, Hs8, %W', %hW', HO⟩, ⟨%offa, %ha, %ea, ⟨%fA1, Hs9⟩, HA⟩, ⟨%offo0, %ho0, %eo0, %AA0, Hs10, HsO0r⟩,
    ⟨%offo1, %ho1, %eo1, %AA1, Hs11, HsO1r⟩, Htodo, Hdone⟩
  subst ea; subst eo0; subst eo1
  have hdA1 : Disjoint (aSl (k0_off71 L p) (k0_off71_inb L p k0_h2 k0_h3)).view.set (aSl (offI L (2 * p.val + 1)) ha).view.set :=
    aSl_disjoint _ _ _ _ (wid L + 32 * (2 * p.val + 2)) (wid L + 32 * (2 * p.val + 1)) ((offP71 L p).trans (offI_chunk L _)) (offI_chunk _ _) (by omega)
  have hdA2 : Disjoint (aSl (k0_off140 L p) (k0_off140_inb L p k0_h5 k0_h6)).view.set (aSl (k0_off71 L p) (k0_off71_inb L p k0_h2 k0_h3)).view.set :=
    aSl_disjoint _ _ _ _ (wid L + 32 * (2 * p.val + 3)) (wid L + 32 * (2 * p.val + 2)) ((offP140 L p).trans (offI_chunk L _)) ((offP71 L p).trans (offI_chunk L _)) (by omega)
  ihave Ht := (todo_take (F := F) d L (2 * p.val + 1) c1) $$ Htodo
  icases Ht with ⟨⟨%f1, Hc1⟩, Htodo⟩
  ihave Ht := (todo_take (F := F) d L (2 * p.val + 1 + 1) (by omega)) $$ Htodo
  icases Ht with ⟨⟨%f2, Hc2⟩, Htodo⟩
  ihave Hc1 := (Entails.of_eq (pts_oSl (F := F) d L (k0_off139 L p) (k0_off139_inb L p k0_h2) (wid L + 32 * (2 * p.val + 1)) ((offP139 L p).trans (offI_chunk L _)) f1).symm) $$ Hc1
  ihave Hc2 := (Entails.of_eq (pts_oSl (F := F) d L (k0_off208 L p) (k0_off208_inb L p k0_h5) (wid L + 32 * (2 * p.val + 1 + 1)) ((offP208 L p).trans (offI_chunk L _)) f2).symm) $$ Hc2
  sl_exec (disch := (clear * - hp1; decide +kernel +revert))
  iapply (compute_t3 (F := F) d L _ (in01_A1 (F := F) d L A hA fA1 _ _) _ _ p k0_h2 _ _)
  isplitl [Hs9_dst]; · iexact Hs9_dst
  isplitl [HsT]; · iexact HsT
  isplitl [HsO1r]; · iexact HsO1r
  iintro %acc1 ⟨HsA1, HsT, HsO1⟩
  sl_exec (disch := (clear * - hp1; decide +kernel +revert))
  iapply (compute_t4 (F := F) d L _ (in01_A0 (F := F) d L A hA fA0 _ _) _ _ p k0_h5 _ _)
  isplitl [HsA0]; · iexact HsA0
  isplitl [HsT]; · iexact HsT
  isplitl [HsO0r]; · iexact HsO0r
  iintro %acc2 ⟨HsA0, HsT, HsO0⟩
  sl_exec
  sl_step
  have e140 : k0_off140 L p = offI L (2 * (p.val + 1) + 1) := (offP140 L p).trans (congrArg (offI L) (by omega))
  have e208 : k0_off208 L p = offI L (2 * (p.val + 1)) := (offP208 L p).trans (congrArg (offI L) (by omega))
  have e139 : k0_off139 L p = offI L (2 * (p.val + 1) - 1) := (offP139 L p).trans (congrArg (offI L) (by omega))
  -- the table, the first index scratch at rest, what the tile owes
  isplitl [HsT HsA0 Hs8 HO]
  · isplitr; · iexact Hmw
    isplitl [HsT]; · iexact HsT
    isplitl [HsA0]; · iexists _; iexact HsA0
    isplitl [Hs8]; · iexact Hs8
    iexists _; isplitr
    swap
    · iexact HO
    · ipureintro; intro x hx
      rcases Finset.mem_insert.mp hx with hx | hx
      · subst hx; exact Or.inr rfl
      rcases Finset.mem_insert.mp hx with hx | hx
      · subst hx; exact Or.inr rfl
      rcases Finset.mem_insert.mp hx with hx | hx
      · subst hx; exact Or.inr rfl
      rcases Finset.mem_insert.mp hx with hx | hx
      · subst hx; exact Or.inr rfl
      exact hW' x hx
  -- the next odd chunk on its way in
  isplitl [Hs9 HA]
  · iexists (k0_off140 L p), (k0_off140_inb L p k0_h5 k0_h6); isplitr
    · ipureintro; exact e140
    isplitl [Hs9]
    · iexists _; iexact Hs9
    · iexact HA
  -- the even chunk on its way out
  isplitl [Hs10 HsO0]
  · iexists (k0_off208 L p), (k0_off208_inb L p k0_h5); isplitr
    · ipureintro; exact e208
    iexists _
    isplitl [Hs10]
    · iapply (Transfers.Flight_mono countersEmb (thr d L) ?hm0) $$ Hs10
      case hm0 => exact sep_mono_left (Entails.of_eq (out_pts0' (F := F) d L A hA B0 B1 B2 TT hTT (2 * p.val + 2) c2 _ _ _ _ (offP208 L p) (offP71 L p) fA0 f2))
    · iexact HsO0
  -- the odd chunk on its way out
  isplitl [Hs11 HsO1]
  · iexists (k0_off139 L p), (k0_off139_inb L p k0_h2); isplitr
    · ipureintro; exact e139
    iexists _
    isplitl [Hs11]
    · iapply (Transfers.Flight_mono countersEmb (thr d L) ?hm1) $$ Hs11
      case hm1 => exact sep_mono_left (Entails.of_eq (out_pts1' (F := F) d L A hA B0 B1 B2 TT hTT (2 * p.val + 1) c1 _ _ _ _ (offP139 L p) rfl fA1 f1))
    · iexact HsO1
  -- what is left to do
  isplitl [Htodo]
  · rw [show 2 * (p.val + 1) + 1 = 2 * p.val + 1 + 1 + 1 by omega]; iexact Htodo
  -- what has come back
  ihave Hd1 := (Entails.of_eq (pts_oSl (F := F) d L (offI L (2 * p.val - 1)) ho1 (wid L + 32 * (2 * p.val - 1)) (offI_chunk L _) _)) $$ Hs11_dst
  ihave Hdone := (done_put (F := F) d L (2 * p.val - 1) _) $$ [Hdone Hd1]
  · isplitl [Hdone] <;> iassumption
  rw [show 2 * p.val - 1 + 1 = 2 * p.val by omega]
  ihave Hd2 := (Entails.of_eq (pts_oSl (F := F) d L (offI L (2 * p.val)) ho0 (wid L + 32 * (2 * p.val)) (offI_chunk L _) _)) $$ Hs10_dst
  ihave Hdone := (done_put (F := F) d L (2 * p.val) _) $$ [Hdone Hd2]
  · isplitl [Hdone] <;> iassumption
  rw [show 2 * (p.val + 1) - 1 = 2 * p.val + 1 by omega]
  iexact Hdone

end Cert.Proof.KB

end
-- ==== Proof.KBRound18.lean ====
/-
  Round 18 of the pair loop for a tile that has no chunk 39 (the tile's number is 2 or more).

  Before the round the copy-in of chunk 37 and the copy-outs of chunks 35 and 36 are under way. The round prefetches
  chunk 38, waits for chunk 37 and for the copy-out of 35, gathers chunk 37 and sends it out; then, there being no
  chunk 39 to prefetch, waits for chunk 38 and for the copy-out of 36, gathers chunk 38 and sends it out. Afterwards
  the second index scratch and its semaphore are at rest and the index array is whole again.
-/
import proofs.«203793_g3813930959492_cont_8to1_b_1292_12_alg».proof.Proof.KBIface
import proofs.«203793_g3813930959492_cont_8to1_b_1292_12_alg».proof.Proof.KBCond
import proofs.«203793_g3813930959492_cont_8to1_b_1292_12_alg».proof.Proof.KBFacts
import proofs.«203793_g3813930959492_cont_8to1_b_1292_12_alg».proof.Proof.KBValue
import proofs.«203793_g3813930959492_cont_8to1_b_1292_12_alg».proof.Proof.KBRoundLib
import proofs.«203793_g3813930959492_cont_8to1_b_1292_12_alg».proof.Proof.KBCompute3
import proofs.«203793_g3813930959492_cont_8to1_b_1292_12_alg».proof.Proof.KBCompute4

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

set_option maxHeartbeats 8000000 in
theorem round_18 (d : Dev nD) (L : grid0.Coords) (q : PosShare TreeShare) (A : Buf (Elt F) (aLoc d)) (hA : ∀ i, A i = 0#32 ∨ A i = 1#32)
    (B0 : Buf (Elt F) (w0Loc d)) (B1 : Buf (Elt F) (w1Loc d)) (B2 : Buf (Elt F) (w2Loc d)) (TT : Buf (Elt F) ((thr d L).loc cc0_scratch7))
    (hTT : IsTable (F := F) B0 B1 B2 TT)
    (O : CellTallies nD τ sig (HIx 1)) (W : Waits sig (HIx 1)) (hO : ∀ g, O g none = 0)
    (p : Fin k0_t2_loop.trips) (hp : p.val = 18) (nc3 : 1250 ≤ wid L + 32 * (2 * p.val + 3)) (acc : BitVec 32) :
    pairInv d L q A B0 B1 B2 TT O W p.val acc
      ⊢ wp frame (wpE (defs₀ (F := F)) 𝒱₀ (thr d L) none) Set.univ (k0_t2_body (F := F) L aV (Memref.isWhole_whole _) w0V (Memref.isWhole_whole _) w1V (Memref.isWhole_whole _) w2V (Memref.isWhole_whole _) oV (Memref.isWhole_whole _) sA0 (Memref.isWhole_whole _) sA1 (Memref.isWhole_whole _) sO0 (Memref.isWhole_whole _) sO1 (Memref.isWhole_whole _) sW0 (Memref.isWhole_whole _) sW1 (Memref.isWhole_whole _) sW2 (Memref.isWhole_whole _) sT (Memref.isWhole_whole _) cc0_scratch8 cc0_scratch9 cc0_scratch10 cc0_scratch11 cc0_scoped0 cc0_scoped1 cc0_scoped2 p acc)
          (pairInv d L q A B0 B1 B2 TT O W (p.val + 1)) := by
  have hw := wid_lt L
  have hp20 : p.val < 20 := by omega
  have hp21 : p.val + 1 < 20 := by omega
  have c1 : wid L + 32 * (2 * p.val + 1) < 1250 := by omega
  have c2 : wid L + 32 * (2 * p.val + 2) < 1250 := by omega
  have nc3p : ¬ wid L + 32 * (2 * p.val + 3) < 1250 := by omega
  have nc3' : ¬ wid L + 32 * (2 * (p.val + 1) + 1) < 1250 := by omega
  have k0_h2 : k0_cond2 L p = 1#1 := (cond2_eq L p).trans (if_pos c1)
  have k0_h3 : k0_cond3 L p = 1#1 := (cond3_eq L p).trans (if_pos c2)
  have k0_h5 : k0_cond5 L p = 1#1 := (cond5_eq L p).trans (if_pos c2)
  have k0_h6 : ¬ k0_cond6 L p = 1#1 := by rw [(cond6_eq L p).trans (if_neg nc3p)]; decide
  have hp0 : ¬ p.val = 0 := by omega
  have hp10 : ¬ p.val + 1 = 0 := by omega
  unfold pairInv; rw [if_pos hp20, if_pos hp21]
  unfold headInv; rw [if_pos c1, if_neg hp0, if_neg nc3', if_neg hp10]
  unfold Common InFl1 OutFl0 OutFl1 InRest1
  unfold k0_t2_body
  iintro ⟨⟨#Hmw, HsT, ⟨%fA0, HsA0⟩, Hs8, %W', %hW', HO⟩, ⟨%offa, %ha, %ea, ⟨%fA1, Hs9⟩, HA⟩, ⟨%offo0, %ho0, %eo0, %AA0, Hs10, HsO0r⟩,
    ⟨%offo1, %ho1, %eo1, %AA1, Hs11, HsO1r⟩, Htodo, Hdone⟩
  subst ea; subst eo0; subst eo1
  have hdA1 : Disjoint (aSl (k0_off71 L p) (k0_off71_inb L p k0_h2 k0_h3)).view.set (aSl (offI L (2 * p.val + 1)) ha).view.set :=
    aSl_disjoint _ _ _ _ (wid L + 32 * (2 * p.val + 2)) (wid L + 32 * (2 * p.val + 1)) ((offP71 L p).trans (offI_chunk L _)) (offI_chunk _ _) (by omega)
  ihave Ht := (todo_take (F := F) d L (2 * p.val + 1) c1) $$ Htodo
  icases Ht with ⟨⟨%f1, Hc1⟩, Htodo⟩
  ihave Ht := (todo_take (F := F) d L (2 * p.val + 1 + 1) (by omega)) $$ Htodo
  icases Ht with ⟨⟨%f2, Hc2⟩, Htodo⟩
  ihave Hc1 := (Entails.of_eq (pts_oSl (F := F) d L (k0_off139 L p) (k0_off139_inb L p k0_h2) (wid L + 32 * (2 * p.val + 1)) ((offP139 L p).trans (offI_chunk L _)) f1).symm) $$ Hc1
  ihave Hc2 := (Entails.of_eq (pts_oSl (F := F) d L (k0_off208 L p) (k0_off208_inb L p k0_h5) (wid L + 32 * (2 * p.val + 1 + 1)) ((offP208 L p).trans (offI_chunk L _)) f2).symm) $$ Hc2
  sl_exec (disch := (clear * - hp; decide +kernel +revert))

  iapply (compute_t3 (F := F) d L _ (in01_A1 (F := F) d L A hA fA1 _ _) _ _ p k0_h2 _ _)
  isplitl [Hs9_dst]; · iexact Hs9_dst
  isplitl [HsT]; · iexact HsT
  isplitl [HsO1r]; · iexact HsO1r
  iintro %acc1 ⟨HsA1, HsT, HsO1⟩
  sl_exec (disch := (clear * - hp; decide +kernel +revert))

  iapply (compute_t4 (F := F) d L _ (in01_A0 (F := F) d L A hA fA0 _ _) _ _ p k0_h5 _ _)
  isplitl [HsA0]; · iexact HsA0
  isplitl [HsT]; · iexact HsT
  isplitl [HsO0r]; · iexact HsO0r
  iintro %acc2 ⟨HsA0, HsT, HsO0⟩
  sl_exec
  sl_step

  have e208 : k0_off208 L p = offI L (2 * (p.val + 1)) := (offP208 L p).trans (congrArg (offI L) (by omega))
  have e139 : k0_off139 L p = offI L (2 * (p.val + 1) - 1) := (offP139 L p).trans (congrArg (offI L) (by omega))
  -- the table, the first index scratch at rest, what the tile owes
  isplitl [HsT HsA0 Hs8 HO]
  · isplitr; · iexact Hmw
    isplitl [HsT]; · iexact HsT
    isplitl [HsA0]; · iexists _; iexact HsA0
    isplitl [Hs8]; · iexact Hs8
    iexists _; isplitr
    swap
    · iexact HO
    · ipureintro; intro x hx
      rcases Finset.mem_insert.mp hx with hx | hx
      · subst hx; exact Or.inr rfl
      rcases Finset.mem_insert.mp hx with hx | hx
      · subst hx; exact Or.inr rfl
      rcases Finset.mem_insert.mp hx with hx | hx
      · subst hx; exact Or.inr rfl
      rcases Finset.mem_insert.mp hx with hx | hx
      · subst hx; exact Or.inr rfl
      exact hW' x hx
  -- the second index scratch and its semaphore at rest, the index array whole
  isplitl [HsA1 Hs9 HA]
  · isplitl [HsA1]; · iexists _; iexact HsA1
    isplitl [Hs9]; · iexact Hs9
    iexact HA
  -- the even chunk on its way out
  isplitl [Hs10 HsO0]
  · iexists (k0_off208 L p), (k0_off208_inb L p k0_h5); isplitr
    · ipureintro; exact e208
    iexists _
    isplitl [Hs10]
    · iapply (Transfers.Flight_mono countersEmb (thr d L) ?hm0) $$ Hs10
      case hm0 => exact sep_mono_left (Entails.of_eq (out_pts0' (F := F) d L A hA B0 B1 B2 TT hTT (2 * p.val + 2) c2 _ _ _ _ (offP208 L p) (offP71 L p) fA0 f2))
    · iexact HsO0
  -- the odd chunk on its way out
  isplitl [Hs11 HsO1]
  · iexists (k0_off139 L p), (k0_off139_inb L p k0_h2); isplitr
    · ipureintro; exact e139
    iexists _
    isplitl [Hs11]
    · iapply (Transfers.Flight_mono countersEmb (thr d L) ?hm1) $$ Hs11
      case hm1 => exact sep_mono_left (Entails.of_eq (out_pts1' (F := F) d L A hA B0 B1 B2 TT hTT (2 * p.val + 1) c1 _ _ _ _ (offP139 L p) rfl fA1 f1))
    · iexact HsO1
  -- what is left to do
  isplitl [Htodo]
  · rw [show 2 * (p.val + 1) + 1 = 2 * p.val + 1 + 1 + 1 by omega]; iexact Htodo
  -- what has come back
  ihave Hd1 := (Entails.of_eq (pts_oSl (F := F) d L (offI L (2 * p.val - 1)) ho1 (wid L + 32 * (2 * p.val - 1)) (offI_chunk L _) _)) $$ Hs11_dst
  ihave Hdone := (done_put (F := F) d L (2 * p.val - 1) _) $$ [Hdone Hd1]
  · isplitl [Hdone] <;> iassumption
  rw [show 2 * p.val - 1 + 1 = 2 * p.val by omega]
  ihave Hd2 := (Entails.of_eq (pts_oSl (F := F) d L (offI L (2 * p.val)) ho0 (wid L + 32 * (2 * p.val)) (offI_chunk L _) _)) $$ Hs10_dst
  ihave Hdone := (done_put (F := F) d L (2 * p.val) _) $$ [Hdone Hd2]
  · isplitl [Hdone] <;> iassumption
  rw [show 2 * (p.val + 1) - 1 = 2 * p.val + 1 by omega]
  iexact Hdone

end Cert.Proof.KB

end
-- ==== Proof.KBRound19.lean ====
/-
  The last round of the pair loop (round 19), in its two forms.

  Before it the copy-outs of chunks 37 and 38 are under way, and so is the copy-in of chunk 39 for the two tiles that
  have one (chunk 39 of tile `w` is chunk `w + 1248` of the arrays, which exists for `w < 2`). Such a tile waits for
  chunk 39 and for the copy-out of chunk 37, gathers chunk 39 and sends it out; it prefetches nothing (there is no
  chunk 40) and its second half does not run. Every other tile does nothing in this round.
-/
import proofs.«203793_g3813930959492_cont_8to1_b_1292_12_alg».proof.Proof.KBIface
import proofs.«203793_g3813930959492_cont_8to1_b_1292_12_alg».proof.Proof.KBCond
import proofs.«203793_g3813930959492_cont_8to1_b_1292_12_alg».proof.Proof.KBFacts
import proofs.«203793_g3813930959492_cont_8to1_b_1292_12_alg».proof.Proof.KBValue
import proofs.«203793_g3813930959492_cont_8to1_b_1292_12_alg».proof.Proof.KBRoundLib
import proofs.«203793_g3813930959492_cont_8to1_b_1292_12_alg».proof.Proof.KBCompute3

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
set_option maxHeartbeats 8000000 in
/-- Round 19 of a tile with a chunk 39: it waits for chunk 39 and for the copy-out of chunk 37, gathers chunk 39 and
    sends it out; nothing is prefetched and the second half does not run. -/
theorem round_19_some (d : Dev nD) (L : grid0.Coords) (q : PosShare TreeShare) (A : Buf (Elt F) (aLoc d)) (hA : ∀ i, A i = 0#32 ∨ A i = 1#32)
    (B0 : Buf (Elt F) (w0Loc d)) (B1 : Buf (Elt F) (w1Loc d)) (B2 : Buf (Elt F) (w2Loc d)) (TT : Buf (Elt F) ((thr d L).loc cc0_scratch7))
    (hTT : IsTable (F := F) B0 B1 B2 TT)
    (O : CellTallies nD τ sig (HIx 1)) (W : Waits sig (HIx 1)) (hO : ∀ g, O g none = 0)
    (p : Fin k0_t2_loop.trips) (hp : p.val = 19) (c1 : wid L + 32 * (2 * p.val + 1) < 1250) (acc : BitVec 32) :
    pairInv d L q A B0 B1 B2 TT O W p.val acc
      ⊢ wp frame (wpE (defs₀ (F := F)) 𝒱₀ (thr d L) none) Set.univ (k0_t2_body (F := F) L aV (Memref.isWhole_whole _) w0V (Memref.isWhole_whole _) w1V (Memref.isWhole_whole _) w2V (Memref.isWhole_whole _) oV (Memref.isWhole_whole _) sA0 (Memref.isWhole_whole _) sA1 (Memref.isWhole_whole _) sO0 (Memref.isWhole_whole _) sO1 (Memref.isWhole_whole _) sW0 (Memref.isWhole_whole _) sW1 (Memref.isWhole_whole _) sW2 (Memref.isWhole_whole _) sT (Memref.isWhole_whole _) cc0_scratch8 cc0_scratch9 cc0_scratch10 cc0_scratch11 cc0_scoped0 cc0_scoped1 cc0_scoped2 p acc)
          (pairInv d L q A B0 B1 B2 TT O W (p.val + 1)) := by
  have hw := wid_lt L
  have hp20 : p.val < 20 := by omega
  have hp21 : ¬ p.val + 1 < 20 := by omega
  have nc2 : ¬ wid L + 32 * (2 * p.val + 2) < 1250 := by omega
  have k0_h2 : k0_cond2 L p = 1#1 := (cond2_eq L p).trans (if_pos c1)
  have k0_h3 : ¬ k0_cond3 L p = 1#1 := by rw [cond3_eq L p, if_neg nc2]; decide
  have k0_h5 : ¬ k0_cond5 L p = 1#1 := by rw [cond5_eq L p, if_neg nc2]; decide
  have hp0 : ¬ p.val = 0 := by omega
  unfold pairInv; rw [if_pos hp20, if_neg hp21]
  unfold headInv exitInv; rw [if_pos c1, if_neg hp0]
  unfold Common InFl1 OutFl1 InRest1
  unfold k0_t2_body
  iintro ⟨⟨#Hmw, HsT, ⟨%fA0, HsA0⟩, Hs8, %W', %hW', HO⟩, ⟨%offa, %ha, %ea, ⟨%fA1, Hs9⟩, HA⟩, HO0,
    ⟨%offo1, %ho1, %eo1, %AA1, Hs11, HsO1r⟩, Htodo, Hdone⟩
  subst ea; subst eo1
  ihave Ht := (todo_take (F := F) d L (2 * p.val + 1) c1) $$ Htodo
  icases Ht with ⟨⟨%f1, Hc1⟩, Htodo⟩
  ihave Hc1 := (Entails.of_eq (pts_oSl (F := F) d L (k0_off139 L p) (k0_off139_inb L p k0_h2) (wid L + 32 * (2 * p.val + 1)) ((offP139 L p).trans (offI_chunk L _)) f1).symm) $$ Hc1
  sl_exec (disch := (clear * - hp; decide +kernel +revert))
  iapply (compute_t3 (F := F) d L _ (in01_A1 (F := F) d L A hA fA1 _ _) _ _ p k0_h2 _ _)
  isplitl [Hs9_dst]; · iexact Hs9_dst
  isplitl [HsT]; · iexact HsT
  isplitl [HsO1r]; · iexact HsO1r
  iintro %acc1 ⟨HsA1, HsT, HsO1⟩
  sl_exec
  sl_step
  -- the table, the first index scratch at rest, what the tile owes
  isplitl [HsT HsA0 Hs8 HO]
  · isplitr; · iexact Hmw
    isplitl [HsT]; · iexact HsT
    isplitl [HsA0]; · iexists _; iexact HsA0
    isplitl [Hs8]; · iexact Hs8
    iexists _; isplitr
    swap
    · iexact HO
    · ipureintro; intro x hx
      rcases Finset.mem_insert.mp hx with hx | hx
      · subst hx; exact Or.inr rfl
      rcases Finset.mem_insert.mp hx with hx | hx
      · subst hx; exact Or.inr rfl
      exact hW' x hx
  -- the second index scratch at rest, the index array whole again
  isplitl [HsA1 Hs9 HA]
  · isplitl [HsA1]; · iexists _; iexact HsA1
    isplitl [Hs9]; · iexact Hs9
    iexact HA
  -- the copy-out of chunk 38 as it was
  isplitl [HO0]
  · icases HO0 with ⟨%off0, %h0, %e0, HO0⟩
    iexists off0, h0; isplitr
    · ipureintro; exact e0.trans (congrArg (offI L) (by omega))
    iexact HO0
  -- chunk 39 on its way out
  iexists 39, 38, (k0_off139 L p), (k0_off139_inb L p k0_h2)
  isplitr
  · ipureintro; exact ⟨Or.inr ⟨rfl, rfl⟩, by omega, by omega, (offP139 L p).trans (congrArg (offI L) (by omega))⟩
  isplitl [Hs11 HsO1]
  · iexists _
    isplitl [Hs11]
    · iapply (Transfers.Flight_mono countersEmb (thr d L) ?hm1) $$ Hs11
      case hm1 => exact sep_mono_left (Entails.of_eq (out_pts1' (F := F) d L A hA B0 B1 B2 TT hTT (2 * p.val + 1) c1 _ _ _ _ (offP139 L p) rfl fA1 f1))
    · iexact HsO1
  -- chunk 37 has come back: everything below chunk 38 is at its final contents
  ihave Hd1 := (Entails.of_eq (pts_oSl (F := F) d L (offI L (2 * p.val - 1)) ho1 (wid L + 32 * (2 * p.val - 1)) (offI_chunk L _) _)) $$ Hs11_dst
  ihave Hdone := (done_put (F := F) d L (2 * p.val - 1) _) $$ [Hdone Hd1]
  · isplitl [Hdone] <;> iassumption
  rw [show 2 * p.val - 1 + 1 = 38 by omega]
  iexact Hdone

set_option maxHeartbeats 8000000 in
/-- Round 19 of a tile without a chunk 39: neither half runs, and the state before the round is the state after it. -/
theorem round_19_none (d : Dev nD) (L : grid0.Coords) (q : PosShare TreeShare) (A : Buf (Elt F) (aLoc d)) (hA : ∀ i, A i = 0#32 ∨ A i = 1#32)
    (B0 : Buf (Elt F) (w0Loc d)) (B1 : Buf (Elt F) (w1Loc d)) (B2 : Buf (Elt F) (w2Loc d)) (TT : Buf (Elt F) ((thr d L).loc cc0_scratch7))
    (hTT : IsTable (F := F) B0 B1 B2 TT)
    (O : CellTallies nD τ sig (HIx 1)) (W : Waits sig (HIx 1)) (hO : ∀ g, O g none = 0)
    (p : Fin k0_t2_loop.trips) (hp : p.val = 19) (nc1 : 1250 ≤ wid L + 32 * (2 * p.val + 1)) (acc : BitVec 32) :
    pairInv d L q A B0 B1 B2 TT O W p.val acc
      ⊢ wp frame (wpE (defs₀ (F := F)) 𝒱₀ (thr d L) none) Set.univ (k0_t2_body (F := F) L aV (Memref.isWhole_whole _) w0V (Memref.isWhole_whole _) w1V (Memref.isWhole_whole _) w2V (Memref.isWhole_whole _) oV (Memref.isWhole_whole _) sA0 (Memref.isWhole_whole _) sA1 (Memref.isWhole_whole _) sO0 (Memref.isWhole_whole _) sO1 (Memref.isWhole_whole _) sW0 (Memref.isWhole_whole _) sW1 (Memref.isWhole_whole _) sW2 (Memref.isWhole_whole _) sT (Memref.isWhole_whole _) cc0_scratch8 cc0_scratch9 cc0_scratch10 cc0_scratch11 cc0_scoped0 cc0_scoped1 cc0_scoped2 p acc)
          (pairInv d L q A B0 B1 B2 TT O W (p.val + 1)) := by
  have hw := wid_lt L
  have hp20 : p.val < 20 := by omega
  have hp21 : ¬ p.val + 1 < 20 := by omega
  have nc1' : ¬ wid L + 32 * (2 * p.val + 1) < 1250 := by omega
  have nc2' : ¬ wid L + 32 * (2 * p.val + 2) < 1250 := by omega
  have k0_h2 : ¬ k0_cond2 L p = 1#1 := by rw [cond2_eq L p, if_neg nc1']; decide
  have k0_h5 : ¬ k0_cond5 L p = 1#1 := by rw [cond5_eq L p, if_neg nc2']; decide
  have hp0 : ¬ p.val = 0 := by omega
  unfold pairInv; rw [if_pos hp20, if_neg hp21]
  unfold headInv exitInv; rw [if_neg nc1', if_neg hp0]
  rw [show 2 * p.val - 1 = 37 by omega, show 2 * p.val = 38 by omega]
  unfold k0_t2_body
  iintro ⟨HC, HR, HO0, ⟨%offo1, %ho1, %eo1, HO1⟩, Htodo, Hdone⟩
  sl_exec
  sl_step
  isplitl [HC]; · iexact HC
  isplitl [HR]; · iexact HR
  isplitl [HO0]; · iexact HO0
  -- the odd chunk on its way out is chunk 37, and the chunks below it have come back
  iexists 37, 37, offo1, ho1
  isplitr
  · ipureintro; exact ⟨Or.inl ⟨rfl, rfl⟩, by omega, by omega, eo1⟩
  isplitl [HO1]; · iexact HO1
  iexact Hdone

end Cert.Proof.KB

end
-- ==== Proof.KBPairLoopAll.lean ====
/-
  The pair loop as one step of a tile's run, from its five kinds of round.
-/
import proofs.«203793_g3813930959492_cont_8to1_b_1292_12_alg».proof.Proof.KBPairLoop
import proofs.«203793_g3813930959492_cont_8to1_b_1292_12_alg».proof.Proof.KBRound0
import proofs.«203793_g3813930959492_cont_8to1_b_1292_12_alg».proof.Proof.KBRoundMid
import proofs.«203793_g3813930959492_cont_8to1_b_1292_12_alg».proof.Proof.KBRound18
import proofs.«203793_g3813930959492_cont_8to1_b_1292_12_alg».proof.Proof.KBRound19

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

set_option maxHeartbeats 4000000 in
/-- The twenty rounds take the state before round 0 to the state after round 19. -/
theorem pair_loop : PairLoop (F := F) :=
  pair_loop_of
    (fun d L q A hA B0 B1 B2 TT hTT O W hO p h acc => round_zero d L q A hA B0 B1 B2 TT hTT O W hO p h acc)
    (fun d L q A hA B0 B1 B2 TT hTT O W hO p h acc => round_mid d L q A hA B0 B1 B2 TT hTT O W hO p h.1 h.2.1 h.2.2 acc)
    (fun d L q A hA B0 B1 B2 TT hTT O W hO p h acc => round_18 d L q A hA B0 B1 B2 TT hTT O W hO p h.1 h.2 acc)
    (fun d L q A hA B0 B1 B2 TT hTT O W hO p h acc => round_19_some d L q A hA B0 B1 B2 TT hTT O W hO p h.1 h.2 acc)
    (fun d L q A hA B0 B1 B2 TT hTT O W hO p h acc => round_19_none d L q A hA B0 B1 B2 TT hTT O W hO p h.1 h.2 acc)

end Cert.Proof.KB

end
-- ==== Proof.KBAll.lean ====
/-
  The kernel's run, assembled: the first gather loop, the pair loop and the rest of a tile's body give the tile's
  obligation; the launch turns it into the run of the whole program with the result named.
-/
import proofs.«203793_g3813930959492_cont_8to1_b_1292_12_alg».proof.Proof.KBLaunch
import proofs.«203793_g3813930959492_cont_8to1_b_1292_12_alg».proof.Proof.KBTile
import proofs.«203793_g3813930959492_cont_8to1_b_1292_12_alg».proof.Proof.KBCompute1
import proofs.«203793_g3813930959492_cont_8to1_b_1292_12_alg».proof.Proof.KBPairLoopAll

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- Every tile's body leaves the tile's columns of the result at their final contents. -/
theorem tile_core_all : TileCore (F := F) :=
  tile_core (F := F) (fun d L AA hAA TT fO α k Q => compute_t1 (F := F) d L AA hAA TT fO k Q) (pair_loop (F := F))

/-- The program's run: the result is the looked-up sum of the arguments, which are left unchanged. -/
theorem run_all [∀ e, Nonempty (Elt F e)] (m : (ℓ : Loc nD τ sig) → Buf (Elt F) ℓ) (ρ : Dev nD → PrngReg)
    (h01 : ∀ c : Dev nD, Cert.Spec.Attr01 (m ((c.tc : Thread nD τ).loc main_arg0))) :
    θ_run (Cert.Kernel.defs (F := F)) (Cert.Kernel.threads (F := F)) ⟨m, fun _ => 0, ρ⟩ (fun r => ∀ c : Dev nD,
        r.2.mem ((c.tc : Thread nD τ).loc main_v2) = Cert.Spec.G (F := F) (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3)) :=
  run_main (F := F) (tile_core_all (F := F)) m ρ h01

end Cert.Proof.KB

end
-- ==== Proof.LibIndexedStore.lean ====
/-
  A general lemma file: the vector subcore's indexed store (`storeIdx`), unmasked and without add, read at one element.
  The store is the fold of its lanes' single writes; when lanes that name the same element are equal lanes, the element
  a lane names holds that lane's value afterwards, and an element no lane names keeps its value. Any base shape, any
  element type, any number of lanes.
-/
import Idealize.ShloMosaic.PureOps
import Idealize.ShloMosaic.Lib.ValueIdx

noncomputable section

namespace Cert.Lib.IndexedStore

open Idealize.ShloMosaic Idealize.ShloMosaic.ValueIdx

variable {F : FTy → Type} [FloatOps F]

/-! ## An unmasked indexed store without add, lane by lane -/

section General
variable {s : Shape} {e : EltTy} {d : Fin 1 → Nat}

/-- What one lane of an unmasked indexed store without add does to the memory's contents: the element the lane names
    takes the lane's value, every other element stays. -/
def storeLane (idxs : Fin s.rank → IVec ⟨1, d⟩ 32) (v : Vec F ⟨1, d⟩ e) (g : Vec F s e) (k : Fin (d 0)) : Vec F s e :=
  fun j => if (∀ a, (j a).val = (idxs a (Shape.ofLane k)).toNat) then v (Shape.ofLane k) else g j

/-- The unmasked store without add is the fold of the lanes' single writes. -/
theorem storeIdx_eq_foldl (f : Vec F s e) (idxs : Fin s.rank → IVec ⟨1, d⟩ 32) (v : Vec F ⟨1, d⟩ e)
    (h : ∀ a x, (idxs a x).toNat < s.size a) :
    storeIdx f idxs v (fun _ => 1#1) false h = (List.finRange (d 0)).foldl (storeLane idxs v) f := by
  unfold storeIdx
  congr 1

/-- An element none of the lanes in the list names keeps its value. -/
theorem foldl_storeLane_miss (idxs : Fin s.rank → IVec ⟨1, d⟩ 32) (v : Vec F ⟨1, d⟩ e) (l : List (Fin (d 0)))
    (f : Vec F s e) (j : s.Idx) (hj : ∀ k ∈ l, ¬ ∀ a, (j a).val = (idxs a (Shape.ofLane k)).toNat) :
    l.foldl (storeLane idxs v) f j = f j := by
  induction l generalizing f with
  | nil => rfl
  | cons k l ih =>
    rw [List.foldl_cons, ih _ (fun k' hk' => hj k' (List.mem_cons_of_mem _ hk'))]
    exact if_neg (hj k (by simp))

/-- When different lanes name different elements, the element a lane of the list names holds that lane's value. -/
theorem foldl_storeLane_hit (idxs : Fin s.rank → IVec ⟨1, d⟩ 32) (v : Vec F ⟨1, d⟩ e) (l : List (Fin (d 0)))
    (hnd : l.Nodup)
    (hinj : ∀ k k' : Fin (d 0), (∀ a, (idxs a (Shape.ofLane k)).toNat = (idxs a (Shape.ofLane k')).toNat) → k = k')
    (f : Vec F s e) (j : s.Idx) (k : Fin (d 0)) (hk : k ∈ l)
    (hj : ∀ a, (j a).val = (idxs a (Shape.ofLane k)).toNat) :
    l.foldl (storeLane idxs v) f j = v (Shape.ofLane k) := by
  induction l generalizing f with
  | nil => simp at hk
  | cons k0 l ih =>
    rw [List.foldl_cons]
    rcases List.mem_cons.1 hk with rfl | hk'
    · rw [foldl_storeLane_miss]
      · exact if_pos hj
      · intro k' hk' hhit
        have : k = k' := hinj k k' (fun a => (hj a).symm.trans (hhit a))
        subst this
        exact (List.nodup_cons.1 hnd).1 hk'
    · exact ih (List.nodup_cons.1 hnd).2 _ hk'

/-- An unmasked indexed store without add whose lanes name pairwise different elements, read at the element that lane k
    names: the value of lane k. -/
theorem storeIdx_apply_lane (f : Vec F s e) (idxs : Fin s.rank → IVec ⟨1, d⟩ 32) (v : Vec F ⟨1, d⟩ e)
    (h : ∀ a x, (idxs a x).toNat < s.size a)
    (hinj : ∀ k k' : Fin (d 0), (∀ a, (idxs a (Shape.ofLane k)).toNat = (idxs a (Shape.ofLane k')).toNat) → k = k')
    (j : s.Idx) (k : Fin (d 0)) (hj : ∀ a, (j a).val = (idxs a (Shape.ofLane k)).toNat) :
    storeIdx f idxs v (fun _ => 1#1) false h j = v (Shape.ofLane k) := by
  rw [storeIdx_eq_foldl]
  exact foldl_storeLane_hit idxs v _ (List.nodup_finRange _) hinj f j k (List.mem_finRange k) hj

/-- An unmasked indexed store without add, read at an element no lane names: the old value. -/
theorem storeIdx_apply_other (f : Vec F s e) (idxs : Fin s.rank → IVec ⟨1, d⟩ 32) (v : Vec F ⟨1, d⟩ e)
    (h : ∀ a x, (idxs a x).toNat < s.size a) (j : s.Idx)
    (hj : ∀ k : Fin (d 0), ¬ ∀ a, (j a).val = (idxs a (Shape.ofLane k)).toNat) :
    storeIdx f idxs v (fun _ => 1#1) false h j = f j := by
  rw [storeIdx_eq_foldl]
  exact foldl_storeLane_miss idxs v _ f j (fun k _ => hj k)

end General

end Cert.Lib.IndexedStore

end
-- ==== Proof.lean ====
/-
  The claim, assembled. Both printed kernels are run by the same argument (one text, read at the word-level instance and
  at the extended reals): every tile's body leaves in its columns of the result the looked-up sum, the launch joins the
  tiles' columns, and the host's two transposes turn the edge-major index array into the index-major one the tiles read
  and the row-major result into the edge-major one. The reference's run computes the same function; the two frames of the
  kernel are its run with the values dropped, the reference's frame its run likewise.
-/
import proofs.«203793_g3813930959492_cont_8to1_b_1292_12_alg».proof.Defs
import proofs.«203793_g3813930959492_cont_8to1_b_1292_12_alg».proof.Proof.Gen.Kernel
import proofs.«203793_g3813930959492_cont_8to1_b_1292_12_alg».proof.Proof.Gen.KernelIdeal
import proofs.«203793_g3813930959492_cont_8to1_b_1292_12_alg».proof.Proof.Gen.ReferenceIdeal
import proofs.«203793_g3813930959492_cont_8to1_b_1292_12_alg».proof.Proof.Gen.Pre_input_domain
import proofs.«203793_g3813930959492_cont_8to1_b_1292_12_alg».proof.Proof.PreFacts
import proofs.«203793_g3813930959492_cont_8to1_b_1292_12_alg».proof.Proof.RefSide
import proofs.«203793_g3813930959492_cont_8to1_b_1292_12_alg».proof.Proof.KIAll
import proofs.«203793_g3813930959492_cont_8to1_b_1292_12_alg».proof.Proof.KBAll
import proofs.«203793_g3813930959492_cont_8to1_b_1292_12_alg».proof.Proof.LibIndexedStore

noncomputable section

namespace Cert.Proof

open Idealize.ShloMosaic Idealize.SL.Sem

set_option maxRecDepth 65536 in
theorem claim : Cert.Claim := ⟨Cert.Kernel.Gen.facts, Cert.KernelIdeal.Gen.facts, Cert.ReferenceIdeal.Gen.facts, Cert.Pre_input_domain.Gen.facts, by
  refine ⟨?_, ?_, ?_, trivial, ?_⟩
  · -- the word-level kernel: its run, the values dropped
    intro m g hpre
    exact (θ_run (Cert.Kernel.defs (F := Bits)) _ _).mono (fun _ h c => (h c).2)
      (Cert.Proof.KB.run_all (F := Bits) m g (fun c => Cert.PreFacts.attr01_of_pre _ _ _ _ (hpre c)))
  · -- the idealized kernel likewise
    intro m g hpre
    exact (θ_run (Cert.KernelIdeal.defs (F := Ideal)) _ _).mono (fun _ h c => (h c).2)
      (Cert.Proof.KI.run_all (F := Ideal) m g (fun c => Cert.PreFacts.attr01_of_pre _ _ _ _ (hpre c)))
  · -- the reference: its run, the value dropped (its index words are 0 or 1 by the precondition)
    intro m g hpre
    exact (θ_run (Cert.ReferenceIdeal.defs (F := Ideal)) _ _).mono (fun _ h c => (h c).2)
      (Cert.RefSide.ref_run m g (fun c => Cert.PreFacts.attr01_of_pre _ _ _ _ (hpre c)))
  · -- both runs end at the one function of the arguments
    intro m g m' g' hpre hagree
    have h01 : ∀ c : Dev Cert.KernelIdeal.nD, Cert.Spec.Attr01 (m ((c.tc : Thread Cert.KernelIdeal.nD Cert.KernelIdeal.τ).loc Cert.KernelIdeal.main_arg0)) :=
      fun c => Cert.PreFacts.attr01_of_pre _ _ _ _ (hpre c)
    refine ⟨_, Cert.Proof.KI.run_all (F := Ideal) m g h01, ?_⟩
    refine (θ_run (Cert.ReferenceIdeal.defs (F := Ideal)) _ _).mono (fun _ h c => ⟨(h c).1.trans ?_, (h c).2⟩)
      (Cert.RefSide.ref_run m' g' (fun c => by rw [(hagree c).1]; exact h01 c))
    rw [(hagree c).1, (hagree c).2.1, (hagree c).2.2.1, (hagree c).2.2.2]⟩

end Cert.Proof

end
